-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S3200000 : Shape := ⟨1, ![3200000]⟩
abbrev S100x16 : Shape := ⟨2, ![100, 16]⟩
abbrev S_ : Shape := ⟨0, ![]⟩

class Facts : Prop where
  bcast_S_S100x16 : S_.BroadcastsInDim S100x16 (![] : Fin 0 → Fin S100x16.rank)
  reducesTo_S100x16_S_d0_1 : S100x16.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : IVec S3200000 32) (main_arg1 : FVec F S100x16 .f32) : IVec S_ 1 :=
  let main_v0 : FVec F S100x16 .f32 := Host.absf main_arg1
  let main_cst : FVec F S_ .f32 := constant S_ .f32 0x7F800000#32
  let main_v1 : FVec F S100x16 .f32 := broadcastInDim S100x16 ![] bcast_S_S100x16 main_cst
  let main_v2 : IVec S100x16 1 := cmpf .olt main_v0 main_v1
  let main_c : IVec S_ 1 := constantI S_ 1 1#1
  let main_v3 : IVec S_ 1 := (fun x v => Host.reduce IntOp.andi x v reducesTo_S100x16_S_d0_1 h_S_) main_v2 main_c
  let main_c_0 : IVec S_ 32 := constantI S_ 32 0#32
  let main_v4 : IVec S3200000 32 := broadcastInDim S3200000 ![] bcast_S_S3200000 main_c_0
  let main_v5 : IVec S3200000 1 := cmpi .sge main_arg0 main_v4
  let main_c_1 : IVec S_ 32 := constantI S_ 32 99#32
  let main_v6 : IVec S3200000 32 := broadcastInDim S3200000 ![] bcast_S_S3200000 main_c_1
  let main_v7 : IVec S3200000 1 := cmpi .sle main_arg0 main_v6
  let main_v8 : IVec S3200000 1 := andi main_v5 main_v7
  let main_c_2 : IVec S_ 1 := constantI S_ 1 1#1
  let main_v9 : IVec S_ 1 := (fun x v => Host.reduce IntOp.andi x v reducesTo_S3200000_S_d0 h_S_) main_v8 main_c_2
  let main_v10 : IVec S_ 1 := andi main_v3 main_v9
  main_v10
-- ==== Kernel.lean ====
abbrev S3200000 : Shape := ⟨1, ![3200000]⟩
abbrev S100x16 : Shape := ⟨2, ![100, 16]⟩
abbrev S1600x1 : Shape := ⟨2, ![1600, 1]⟩
abbrev S1600x16 : Shape := ⟨2, ![1600, 16]⟩
abbrev S25600 : Shape := ⟨1, ![25600]⟩
abbrev S2x25000x8x128 : Shape := ⟨4, ![2, 25000, 8, 128]⟩
abbrev S25840 : Shape := ⟨1, ![25840]⟩
abbrev S4x640 : Shape := ⟨2, ![4, 640]⟩
abbrev S4x2x5x8x128 : Shape := ⟨5, ![4, 2, 5, 8, 128]⟩
abbrev S4 : Shape := ⟨1, ![4]⟩
abbrev S_ : Shape := ⟨0, ![]⟩
abbrev S16 : Shape := ⟨1, ![16]⟩
abbrev S1x640 : Shape := ⟨2, ![1, 640]⟩
abbrev S640 : Shape := ⟨1, ![640]⟩
abbrev S1 : Shape := ⟨1, ![1]⟩
abbrev S1x1x5x8x128 : Shape := ⟨5, ![1, 1, 5, 8, 128]⟩
abbrev S5x8x128 : Shape := ⟨3, ![5, 8, 128]⟩
abbrev S1x5x8x128 : Shape := ⟨4, ![1, 5, 8, 128]⟩
abbrev S1x16 : Shape := ⟨2, ![1, 16]⟩
abbrev S1x1x1x1x16 : Shape := ⟨5, ![1, 1, 1, 1, 16]⟩
abbrev S25000x128x2x8 : Shape := ⟨4, ![25000, 128, 2, 8]⟩
abbrev S3200000x16 : Shape := ⟨2, ![3200000, 16]⟩

abbrev nBuf : Table → Nat
  | .hbm => 8
  | .local .scVector .vmem => 3
  | _ => 0

abbrev bufTy : (tb : Table) → Fin (nBuf tb) → BufTy
  | .hbm, ⟨0, _⟩ => ⟨S3200000, .i32⟩
  | .hbm, ⟨1, _⟩ => ⟨S100x16, .f32⟩
  | .hbm, ⟨2, _⟩ => ⟨S1600x1, .f32⟩
  | .hbm, ⟨3, _⟩ => ⟨S1600x16, .f32⟩
  | .hbm, ⟨4, _⟩ => ⟨S25600, .f32⟩
  | .hbm, ⟨5, _⟩ => ⟨S2x25000x8x128, .f32⟩
  | .hbm, ⟨6, _⟩ => ⟨S25000x128x2x8, .f32⟩
  | .hbm, ⟨7, _⟩ => ⟨S3200000x16, .f32⟩
  | .local .scVector .vmem, ⟨0, _⟩ => ⟨S25840, .f32⟩
  | .local .scVector .vmem, ⟨1, _⟩ => ⟨S4x640, .i32⟩
  | .local .scVector .vmem, ⟨2, _⟩ => ⟨S4x2x5x8x128, .f32⟩
  | _, _ => ⟨S3200000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg0_scv : Ref sig .scVector := ⟨.hbm, 0, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .ne v10 c0_i32_3
  v11

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_29 : BitVec 32 := 0#32
  let v46 : BitVec 32 := Scalar.addi v4 c0_i32_29
  let c640_i32 : BitVec 32 := 640#32
  let v47 : BitVec 32 := Scalar.muli v46 c640_i32
  ![v47.toNat]
def k0_cond2 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c1_i32_4 : BitVec 32 := 1#32
  let v12 : BitVec 1 := Scalar.cmpi .sgt v7 c1_i32_4
  let v13 : BitVec 32 := Scalar.extui v12
  let c0_i32_5 : BitVec 32 := 0#32
  let v14 : BitVec 1 := Scalar.cmpi .ne v13 c0_i32_5
  v14

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c1_i32_29 : BitVec 32 := 1#32
  let v46 : BitVec 32 := Scalar.addi v4 c1_i32_29
  let c640_i32 : BitVec 32 := 640#32
  let v47 : BitVec 32 := Scalar.muli v46 c640_i32
  ![v47.toNat]
def k0_cond3 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c2_i32_6 : BitVec 32 := 2#32
  let v15 : BitVec 1 := Scalar.cmpi .sgt v7 c2_i32_6
  let v16 : BitVec 32 := Scalar.extui v15
  let c0_i32_7 : BitVec 32 := 0#32
  let v17 : BitVec 1 := Scalar.cmpi .ne v16 c0_i32_7
  v17

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c2_i32_29 : BitVec 32 := 2#32
  let v46 : BitVec 32 := Scalar.addi v4 c2_i32_29
  let c640_i32 : BitVec 32 := 640#32
  let v47 : BitVec 32 := Scalar.muli v46 c640_i32
  ![v47.toNat]
def k0_cond4 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c3_i32 : BitVec 32 := 3#32
  let v18 : BitVec 1 := Scalar.cmpi .sgt v7 c3_i32
  let v19 : BitVec 32 := Scalar.extui v18
  let c0_i32_8 : BitVec 32 := 0#32
  let v20 : BitVec 1 := Scalar.cmpi .ne v19 c0_i32_8
  v20

def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c3_i32_29 : BitVec 32 := 3#32
  let v46 : BitVec 32 := Scalar.addi v4 c3_i32_29
  let c640_i32 : BitVec 32 := 640#32
  let v47 : BitVec 32 := Scalar.muli v46 c640_i32
  ![v47.toNat]
@[reducible] def k0_t1_loop (i : grid0.Coords) : Scf.Loop 32 :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_12 : BitVec 32 := 1#32
  ⟨c0_i32_10, v25, c1_i32_12⟩
def k0_off5 (i : grid0.Coords) (k0_t1 : Fin (k0_t1_loop i).trips) : Fin 2 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let c0_i32_30 : BitVec 32 := 0#32
  ![v46.toNat, 0]
def k0_off6 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c1_i32_12 : BitVec 32 := 1#32
  let arg10 : BitVec 32 := Scf.iv c0_i32_10 c1_i32_12 k0_t1
  let v47 : BitVec 32 := Scalar.addi v4 arg10
  let c640_i32 : BitVec 32 := 640#32
  let v48 : BitVec 32 := Scalar.muli v47 c640_i32
  ![v48.toNat]
def k0_off7 (i : grid0.Coords) (k0_t1 : Fin (k0_t1_loop i).trips) : Fin 1 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  ![v46.toNat]
def k0_cond5 (i : grid0.Coords) (k0_t1 : Fin (k0_t1_loop i).trips) : BitVec 1 :=
  let c0_i32_10 : BitVec 32 := 0#32
  let c1_i32_12 : BitVec 32 := 1#32
  let arg10 : BitVec 32 := Scf.iv c0_i32_10 c1_i32_12 k0_t1
  let c4_i32_32 : BitVec 32 := 4#32
  let v57 : BitVec 1 := Scalar.cmpi .sge arg10 c4_i32_32
  let v58 : BitVec 32 := Scalar.extui v57
  let c0_i32_33 : BitVec 32 := 0#32
  let v59 : BitVec 1 := Scalar.cmpi .ne v58 c0_i32_33
  v59

def k0_off8 (i : grid0.Coords) (k0_t1 : Fin (k0_t1_loop i).trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let c0_i32_68 : BitVec 32 := 0#32
  let c0_i32_70 : BitVec 32 := 0#32
  let c0_i32_71 : BitVec 32 := 0#32
  let c0_i32_72 : BitVec 32 := 0#32
  ![v46.toNat, 0, 0, 0, 0]
def k0_off9 (i : grid0.Coords) (k0_t1 : Fin (k0_t1_loop i).trips) : Fin 4 → Nat :=
  let c0_i32_69 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c1_i32_12 : BitVec 32 := 1#32
  let arg10 : BitVec 32 := Scf.iv c0_i32_10 c1_i32_12 k0_t1
  let c4_i32_66 : BitVec 32 := 4#32
  let v89 : BitVec 32 := Scalar.subi arg10 c4_i32_66
  let v90 : BitVec 32 := Scalar.addi v4 v89
  let c5_i32_67 : BitVec 32 := 5#32
  let v91 : BitVec 32 := Scalar.muli v90 c5_i32_67
  let c0_i32_73 : BitVec 32 := 0#32
  let c0_i32_74 : BitVec 32 := 0#32
  ![0, v91.toNat, 0, 0]
def k0_off10 (i : grid0.Coords) (k0_t1 : Fin (k0_t1_loop i).trips) : Fin 1 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  ![v46.toNat]
def k0_off11 (i : grid0.Coords) (k0_t1 : Fin (k0_t1_loop i).trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let c1_i32_82 : BitVec 32 := 1#32
  let c0_i32_84 : BitVec 32 := 0#32
  let c0_i32_85 : BitVec 32 := 0#32
  let c0_i32_86 : BitVec 32 := 0#32
  ![v46.toNat, 1, 0, 0, 0]
def k0_off12 (i : grid0.Coords) (k0_t1 : Fin (k0_t1_loop i).trips) : Fin 4 → Nat :=
  let c1_i32_83 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c1_i32_12 : BitVec 32 := 1#32
  let arg10 : BitVec 32 := Scf.iv c0_i32_10 c1_i32_12 k0_t1
  let c4_i32_80 : BitVec 32 := 4#32
  let v102 : BitVec 32 := Scalar.subi arg10 c4_i32_80
  let v103 : BitVec 32 := Scalar.addi v4 v102
  let c5_i32_81 : BitVec 32 := 5#32
  let v104 : BitVec 32 := Scalar.muli v103 c5_i32_81
  let c0_i32_87 : BitVec 32 := 0#32
  let c0_i32_88 : BitVec 32 := 0#32
  ![1, v104.toNat, 0, 0]
@[reducible] def k0_t2_loop : Scf.Loop 32 :=
  let c0_i32_35 : BitVec 32 := 0#32
  let c5_i32 : BitVec 32 := 5#32
  let v60 : BitVec 32 := Scalar.addi c0_i32_35 c5_i32
  let c1_i32_36 : BitVec 32 := 1#32
  ⟨c0_i32_35, v60, c1_i32_36⟩
def k0_off13 (i : grid0.Coords) (k0_t1 : Fin (k0_t1_loop i).trips) (k0_t2 : Fin k0_t2_loop.trips) (c0_i32_66 : BitVec 32) : Fin 2 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v91 : Index := Scalar.indexCast v46
  let c0_i32_35 : BitVec 32 := 0#32
  let c1_i32_36 : BitVec 32 := 1#32
  let arg11 : BitVec 32 := Scf.iv c0_i32_35 c1_i32_36 k0_t2
  let c128_i32 : BitVec 32 := 128#32
  let v89 : BitVec 32 := Scalar.muli arg11 c128_i32
  let v90 : BitVec 32 := Scalar.addi v89 c0_i32_66
  let v92 : Index := Scalar.indexCast v90
  ![v91.toNat, v92.toNat]

def k0_chk1 (v96 : IVec S16 32) : Prop :=
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a)
instance k0_chk1.dec : ∀ (v96 : IVec S16 32), Decidable (k0_chk1 v96) := fun v96 => decidable_of_iff' _ (Iff.of_eq (k0_chk1.eq_1 v96))
theorem k0_idx1_inb : ∀ (v96 : IVec S16 32) (k0_hw1 : k0_chk1 v96), ∀ a x, ((![v96] : Fin 1 → IVec S16 32) a x).toNat < S25600.size a := fun v96 k0_hw1 => k0_hw1.1
theorem k0_idx2_inb : ∀ (v96 : IVec S16 32) (k0_hw1 : k0_chk1 v96), ∀ a x, ((![v96] : Fin 1 → IVec S16 32) a x).toNat < S25600.size a := fun v96 k0_hw1 => k0_hw1.2.1
theorem k0_idx3_inb : ∀ (v96 : IVec S16 32) (k0_hw1 : k0_chk1 v96), ∀ a x, ((![v96] : Fin 1 → IVec S16 32) a x).toNat < S25600.size a := fun v96 k0_hw1 => k0_hw1.2.2.1
theorem k0_idx4_inb : ∀ (v96 : IVec S16 32) (k0_hw1 : k0_chk1 v96), ∀ a x, ((![v96] : Fin 1 → IVec S16 32) a x).toNat < S25600.size a := fun v96 k0_hw1 => k0_hw1.2.2.2.1
theorem k0_idx5_inb : ∀ (v96 : IVec S16 32) (k0_hw1 : k0_chk1 v96), ∀ a x, ((![v96] : Fin 1 → IVec S16 32) a x).toNat < S25600.size a := fun v96 k0_hw1 => k0_hw1.2.2.2.2.1
theorem k0_idx6_inb : ∀ (v96 : IVec S16 32) (k0_hw1 : k0_chk1 v96), ∀ a x, ((![v96] : Fin 1 → IVec S16 32) a x).toNat < S25600.size a := fun v96 k0_hw1 => k0_hw1.2.2.2.2.2.1
theorem k0_idx7_inb : ∀ (v96 : IVec S16 32) (k0_hw1 : k0_chk1 v96), ∀ a x, ((![v96] : Fin 1 → IVec S16 32) a x).toNat < S25600.size a := fun v96 k0_hw1 => k0_hw1.2.2.2.2.2.2.1
theorem k0_idx8_inb : ∀ (v96 : IVec S16 32) (k0_hw1 : k0_chk1 v96), ∀ a x, ((![v96] : Fin 1 → IVec S16 32) a x).toNat < S25600.size a := fun v96 k0_hw1 => k0_hw1.2.2.2.2.2.2.2.1
theorem k0_idx9_inb : ∀ (v96 : IVec S16 32) (k0_hw1 : k0_chk1 v96), ∀ a x, ((![v96] : Fin 1 → IVec S16 32) a x).toNat < S25600.size a := fun v96 k0_hw1 => k0_hw1.2.2.2.2.2.2.2.2.1
theorem k0_idx10_inb : ∀ (v96 : IVec S16 32) (k0_hw1 : k0_chk1 v96), ∀ a x, ((![v96] : Fin 1 → IVec S16 32) a x).toNat < S25600.size a := fun v96 k0_hw1 => k0_hw1.2.2.2.2.2.2.2.2.2.1
theorem k0_idx11_inb : ∀ (v96 : IVec S16 32) (k0_hw1 : k0_chk1 v96), ∀ a x, ((![v96] : Fin 1 → IVec S16 32) a x).toNat < S25600.size a := fun v96 k0_hw1 => k0_hw1.2.2.2.2.2.2.2.2.2.2.1
theorem k0_idx12_inb : ∀ (v96 : IVec S16 32) (k0_hw1 : k0_chk1 v96), ∀ a x, ((![v96] : Fin 1 → IVec S16 32) a x).toNat < S25600.size a := fun v96 k0_hw1 => k0_hw1.2.2.2.2.2.2.2.2.2.2.2.1
theorem k0_idx13_inb : ∀ (v96 : IVec S16 32) (k0_hw1 : k0_chk1 v96), ∀ a x, ((![v96] : Fin 1 → IVec S16 32) a x).toNat < S25600.size a := fun v96 k0_hw1 => k0_hw1.2.2.2.2.2.2.2.2.2.2.2.2.1
theorem k0_idx14_inb : ∀ (v96 : IVec S16 32) (k0_hw1 : k0_chk1 v96), ∀ a x, ((![v96] : Fin 1 → IVec S16 32) a x).toNat < S25600.size a := fun v96 k0_hw1 => k0_hw1.2.2.2.2.2.2.2.2.2.2.2.2.2.1
theorem k0_idx15_inb : ∀ (v96 : IVec S16 32) (k0_hw1 : k0_chk1 v96), ∀ a x, ((![v96] : Fin 1 → IVec S16 32) a x).toNat < S25600.size a := fun v96 k0_hw1 => k0_hw1.2.2.2.2.2.2.2.2.2.2.2.2.2.2.1
theorem k0_idx16_inb : ∀ (v96 : IVec S16 32) (k0_hw1 : k0_chk1 v96), ∀ a x, ((![v96] : Fin 1 → IVec S16 32) a x).toNat < S25600.size a := fun v96 k0_hw1 => k0_hw1.2.2.2.2.2.2.2.2.2.2.2.2.2.2.2
def k0_off14 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v185 : Index := Scalar.indexCast v46
  let c0_i32_90 : BitVec 32 := 0#32
  let v186 : Index := Scalar.indexCast c0_i32_90
  let c0_i32_35 : BitVec 32 := 0#32
  let c1_i32_36 : BitVec 32 := 1#32
  let arg11 : BitVec 32 := Scf.iv c0_i32_35 c1_i32_36 k0_t2
  let v187 : Index := Scalar.indexCast arg11
  let c0_i32_91 : BitVec 32 := 0#32
  let v188 : Index := Scalar.indexCast c0_i32_91
  let c0 : Index := 0#32
  ![v185.toNat, 0, v187.toNat, 0, 0]
def k0_off15 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v190 : Index := Scalar.indexCast v46
  let c0_i32_92 : BitVec 32 := 0#32
  let v191 : Index := Scalar.indexCast c0_i32_92
  let c0_i32_35 : BitVec 32 := 0#32
  let c1_i32_36 : BitVec 32 := 1#32
  let arg11 : BitVec 32 := Scf.iv c0_i32_35 c1_i32_36 k0_t2
  let v192 : Index := Scalar.indexCast arg11
  let c1_i32_93 : BitVec 32 := 1#32
  let v193 : Index := Scalar.indexCast c1_i32_93
  let c0_94 : Index := 0#32
  ![v190.toNat, 0, v192.toNat, 1, 0]
def k0_off16 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v195 : Index := Scalar.indexCast v46
  let c0_i32_95 : BitVec 32 := 0#32
  let v196 : Index := Scalar.indexCast c0_i32_95
  let c0_i32_35 : BitVec 32 := 0#32
  let c1_i32_36 : BitVec 32 := 1#32
  let arg11 : BitVec 32 := Scf.iv c0_i32_35 c1_i32_36 k0_t2
  let v197 : Index := Scalar.indexCast arg11
  let c2_i32_96 : BitVec 32 := 2#32
  let v198 : Index := Scalar.indexCast c2_i32_96
  let c0_97 : Index := 0#32
  ![v195.toNat, 0, v197.toNat, 2, 0]
def k0_off17 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v200 : Index := Scalar.indexCast v46
  let c0_i32_98 : BitVec 32 := 0#32
  let v201 : Index := Scalar.indexCast c0_i32_98
  let c0_i32_35 : BitVec 32 := 0#32
  let c1_i32_36 : BitVec 32 := 1#32
  let arg11 : BitVec 32 := Scf.iv c0_i32_35 c1_i32_36 k0_t2
  let v202 : Index := Scalar.indexCast arg11
  let c3_i32_99 : BitVec 32 := 3#32
  let v203 : Index := Scalar.indexCast c3_i32_99
  let c0_100 : Index := 0#32
  ![v200.toNat, 0, v202.toNat, 3, 0]
def k0_off18 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v205 : Index := Scalar.indexCast v46
  let c0_i32_101 : BitVec 32 := 0#32
  let v206 : Index := Scalar.indexCast c0_i32_101
  let c0_i32_35 : BitVec 32 := 0#32
  let c1_i32_36 : BitVec 32 := 1#32
  let arg11 : BitVec 32 := Scf.iv c0_i32_35 c1_i32_36 k0_t2
  let v207 : Index := Scalar.indexCast arg11
  let c4_i32_102 : BitVec 32 := 4#32
  let v208 : Index := Scalar.indexCast c4_i32_102
  let c0_103 : Index := 0#32
  ![v205.toNat, 0, v207.toNat, 4, 0]
def k0_off19 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v210 : Index := Scalar.indexCast v46
  let c0_i32_104 : BitVec 32 := 0#32
  let v211 : Index := Scalar.indexCast c0_i32_104
  let c0_i32_35 : BitVec 32 := 0#32
  let c1_i32_36 : BitVec 32 := 1#32
  let arg11 : BitVec 32 := Scf.iv c0_i32_35 c1_i32_36 k0_t2
  let v212 : Index := Scalar.indexCast arg11
  let c5_i32_105 : BitVec 32 := 5#32
  let v213 : Index := Scalar.indexCast c5_i32_105
  let c0_106 : Index := 0#32
  ![v210.toNat, 0, v212.toNat, 5, 0]
def k0_off20 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v215 : Index := Scalar.indexCast v46
  let c0_i32_107 : BitVec 32 := 0#32
  let v216 : Index := Scalar.indexCast c0_i32_107
  let c0_i32_35 : BitVec 32 := 0#32
  let c1_i32_36 : BitVec 32 := 1#32
  let arg11 : BitVec 32 := Scf.iv c0_i32_35 c1_i32_36 k0_t2
  let v217 : Index := Scalar.indexCast arg11
  let c6_i32 : BitVec 32 := 6#32
  let v218 : Index := Scalar.indexCast c6_i32
  let c0_108 : Index := 0#32
  ![v215.toNat, 0, v217.toNat, 6, 0]
def k0_off21 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v220 : Index := Scalar.indexCast v46
  let c0_i32_109 : BitVec 32 := 0#32
  let v221 : Index := Scalar.indexCast c0_i32_109
  let c0_i32_35 : BitVec 32 := 0#32
  let c1_i32_36 : BitVec 32 := 1#32
  let arg11 : BitVec 32 := Scf.iv c0_i32_35 c1_i32_36 k0_t2
  let v222 : Index := Scalar.indexCast arg11
  let c7_i32 : BitVec 32 := 7#32
  let v223 : Index := Scalar.indexCast c7_i32
  let c0_110 : Index := 0#32
  ![v220.toNat, 0, v222.toNat, 7, 0]
def k0_off22 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v225 : Index := Scalar.indexCast v46
  let c1_i32_111 : BitVec 32 := 1#32
  let v226 : Index := Scalar.indexCast c1_i32_111
  let c0_i32_35 : BitVec 32 := 0#32
  let c1_i32_36 : BitVec 32 := 1#32
  let arg11 : BitVec 32 := Scf.iv c0_i32_35 c1_i32_36 k0_t2
  let v227 : Index := Scalar.indexCast arg11
  let c0_i32_112 : BitVec 32 := 0#32
  let v228 : Index := Scalar.indexCast c0_i32_112
  let c0_113 : Index := 0#32
  ![v225.toNat, 1, v227.toNat, 0, 0]
def k0_off23 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v230 : Index := Scalar.indexCast v46
  let c1_i32_114 : BitVec 32 := 1#32
  let v231 : Index := Scalar.indexCast c1_i32_114
  let c0_i32_35 : BitVec 32 := 0#32
  let c1_i32_36 : BitVec 32 := 1#32
  let arg11 : BitVec 32 := Scf.iv c0_i32_35 c1_i32_36 k0_t2
  let v232 : Index := Scalar.indexCast arg11
  let c1_i32_115 : BitVec 32 := 1#32
  let v233 : Index := Scalar.indexCast c1_i32_115
  let c0_116 : Index := 0#32
  ![v230.toNat, 1, v232.toNat, 1, 0]
def k0_off24 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v235 : Index := Scalar.indexCast v46
  let c1_i32_117 : BitVec 32 := 1#32
  let v236 : Index := Scalar.indexCast c1_i32_117
  let c0_i32_35 : BitVec 32 := 0#32
  let c1_i32_36 : BitVec 32 := 1#32
  let arg11 : BitVec 32 := Scf.iv c0_i32_35 c1_i32_36 k0_t2
  let v237 : Index := Scalar.indexCast arg11
  let c2_i32_118 : BitVec 32 := 2#32
  let v238 : Index := Scalar.indexCast c2_i32_118
  let c0_119 : Index := 0#32
  ![v235.toNat, 1, v237.toNat, 2, 0]
def k0_off25 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v240 : Index := Scalar.indexCast v46
  let c1_i32_120 : BitVec 32 := 1#32
  let v241 : Index := Scalar.indexCast c1_i32_120
  let c0_i32_35 : BitVec 32 := 0#32
  let c1_i32_36 : BitVec 32 := 1#32
  let arg11 : BitVec 32 := Scf.iv c0_i32_35 c1_i32_36 k0_t2
  let v242 : Index := Scalar.indexCast arg11
  let c3_i32_121 : BitVec 32 := 3#32
  let v243 : Index := Scalar.indexCast c3_i32_121
  let c0_122 : Index := 0#32
  ![v240.toNat, 1, v242.toNat, 3, 0]
def k0_off26 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v245 : Index := Scalar.indexCast v46
  let c1_i32_123 : BitVec 32 := 1#32
  let v246 : Index := Scalar.indexCast c1_i32_123
  let c0_i32_35 : BitVec 32 := 0#32
  let c1_i32_36 : BitVec 32 := 1#32
  let arg11 : BitVec 32 := Scf.iv c0_i32_35 c1_i32_36 k0_t2
  let v247 : Index := Scalar.indexCast arg11
  let c4_i32_124 : BitVec 32 := 4#32
  let v248 : Index := Scalar.indexCast c4_i32_124
  let c0_125 : Index := 0#32
  ![v245.toNat, 1, v247.toNat, 4, 0]
def k0_off27 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v250 : Index := Scalar.indexCast v46
  let c1_i32_126 : BitVec 32 := 1#32
  let v251 : Index := Scalar.indexCast c1_i32_126
  let c0_i32_35 : BitVec 32 := 0#32
  let c1_i32_36 : BitVec 32 := 1#32
  let arg11 : BitVec 32 := Scf.iv c0_i32_35 c1_i32_36 k0_t2
  let v252 : Index := Scalar.indexCast arg11
  let c5_i32_127 : BitVec 32 := 5#32
  let v253 : Index := Scalar.indexCast c5_i32_127
  let c0_128 : Index := 0#32
  ![v250.toNat, 1, v252.toNat, 5, 0]
def k0_off28 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v255 : Index := Scalar.indexCast v46
  let c1_i32_129 : BitVec 32 := 1#32
  let v256 : Index := Scalar.indexCast c1_i32_129
  let c0_i32_35 : BitVec 32 := 0#32
  let c1_i32_36 : BitVec 32 := 1#32
  let arg11 : BitVec 32 := Scf.iv c0_i32_35 c1_i32_36 k0_t2
  let v257 : Index := Scalar.indexCast arg11
  let c6_i32_130 : BitVec 32 := 6#32
  let v258 : Index := Scalar.indexCast c6_i32_130
  let c0_131 : Index := 0#32
  ![v255.toNat, 1, v257.toNat, 6, 0]
def k0_off29 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v260 : Index := Scalar.indexCast v46
  let c1_i32_132 : BitVec 32 := 1#32
  let v261 : Index := Scalar.indexCast c1_i32_132
  let c0_i32_35 : BitVec 32 := 0#32
  let c1_i32_36 : BitVec 32 := 1#32
  let arg11 : BitVec 32 := Scf.iv c0_i32_35 c1_i32_36 k0_t2
  let v262 : Index := Scalar.indexCast arg11
  let c7_i32_133 : BitVec 32 := 7#32
  let v263 : Index := Scalar.indexCast c7_i32_133
  let c0_134 : Index := 0#32
  ![v260.toNat, 1, v262.toNat, 7, 0]

def k0_chk2 (v104 : IVec S16 32) : Prop :=
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a)
instance k0_chk2.dec : ∀ (v104 : IVec S16 32), Decidable (k0_chk2 v104) := fun v104 => decidable_of_iff' _ (Iff.of_eq (k0_chk2.eq_1 v104))
theorem k0_idx17_inb : ∀ (v104 : IVec S16 32) (k0_hw2 : k0_chk2 v104), ∀ a x, ((![v104] : Fin 1 → IVec S16 32) a x).toNat < S25600.size a := fun v104 k0_hw2 => k0_hw2.1
theorem k0_idx18_inb : ∀ (v104 : IVec S16 32) (k0_hw2 : k0_chk2 v104), ∀ a x, ((![v104] : Fin 1 → IVec S16 32) a x).toNat < S25600.size a := fun v104 k0_hw2 => k0_hw2.2.1
theorem k0_idx19_inb : ∀ (v104 : IVec S16 32) (k0_hw2 : k0_chk2 v104), ∀ a x, ((![v104] : Fin 1 → IVec S16 32) a x).toNat < S25600.size a := fun v104 k0_hw2 => k0_hw2.2.2.1
theorem k0_idx20_inb : ∀ (v104 : IVec S16 32) (k0_hw2 : k0_chk2 v104), ∀ a x, ((![v104] : Fin 1 → IVec S16 32) a x).toNat < S25600.size a := fun v104 k0_hw2 => k0_hw2.2.2.2.1
theorem k0_idx21_inb : ∀ (v104 : IVec S16 32) (k0_hw2 : k0_chk2 v104), ∀ a x, ((![v104] : Fin 1 → IVec S16 32) a x).toNat < S25600.size a := fun v104 k0_hw2 => k0_hw2.2.2.2.2.1
theorem k0_idx22_inb : ∀ (v104 : IVec S16 32) (k0_hw2 : k0_chk2 v104), ∀ a x, ((![v104] : Fin 1 → IVec S16 32) a x).toNat < S25600.size a := fun v104 k0_hw2 => k0_hw2.2.2.2.2.2.1
theorem k0_idx23_inb : ∀ (v104 : IVec S16 32) (k0_hw2 : k0_chk2 v104), ∀ a x, ((![v104] : Fin 1 → IVec S16 32) a x).toNat < S25600.size a := fun v104 k0_hw2 => k0_hw2.2.2.2.2.2.2.1
theorem k0_idx24_inb : ∀ (v104 : IVec S16 32) (k0_hw2 : k0_chk2 v104), ∀ a x, ((![v104] : Fin 1 → IVec S16 32) a x).toNat < S25600.size a := fun v104 k0_hw2 => k0_hw2.2.2.2.2.2.2.2.1
theorem k0_idx25_inb : ∀ (v104 : IVec S16 32) (k0_hw2 : k0_chk2 v104), ∀ a x, ((![v104] : Fin 1 → IVec S16 32) a x).toNat < S25600.size a := fun v104 k0_hw2 => k0_hw2.2.2.2.2.2.2.2.2.1
theorem k0_idx26_inb : ∀ (v104 : IVec S16 32) (k0_hw2 : k0_chk2 v104), ∀ a x, ((![v104] : Fin 1 → IVec S16 32) a x).toNat < S25600.size a := fun v104 k0_hw2 => k0_hw2.2.2.2.2.2.2.2.2.2.1
theorem k0_idx27_inb : ∀ (v104 : IVec S16 32) (k0_hw2 : k0_chk2 v104), ∀ a x, ((![v104] : Fin 1 → IVec S16 32) a x).toNat < S25600.size a := fun v104 k0_hw2 => k0_hw2.2.2.2.2.2.2.2.2.2.2.1
theorem k0_idx28_inb : ∀ (v104 : IVec S16 32) (k0_hw2 : k0_chk2 v104), ∀ a x, ((![v104] : Fin 1 → IVec S16 32) a x).toNat < S25600.size a := fun v104 k0_hw2 => k0_hw2.2.2.2.2.2.2.2.2.2.2.2.1
theorem k0_idx29_inb : ∀ (v104 : IVec S16 32) (k0_hw2 : k0_chk2 v104), ∀ a x, ((![v104] : Fin 1 → IVec S16 32) a x).toNat < S25600.size a := fun v104 k0_hw2 => k0_hw2.2.2.2.2.2.2.2.2.2.2.2.2.1
theorem k0_idx30_inb : ∀ (v104 : IVec S16 32) (k0_hw2 : k0_chk2 v104), ∀ a x, ((![v104] : Fin 1 → IVec S16 32) a x).toNat < S25600.size a := fun v104 k0_hw2 => k0_hw2.2.2.2.2.2.2.2.2.2.2.2.2.2.1
theorem k0_idx31_inb : ∀ (v104 : IVec S16 32) (k0_hw2 : k0_chk2 v104), ∀ a x, ((![v104] : Fin 1 → IVec S16 32) a x).toNat < S25600.size a := fun v104 k0_hw2 => k0_hw2.2.2.2.2.2.2.2.2.2.2.2.2.2.2.1
theorem k0_idx32_inb : ∀ (v104 : IVec S16 32) (k0_hw2 : k0_chk2 v104), ∀ a x, ((![v104] : Fin 1 → IVec S16 32) a x).toNat < S25600.size a := fun v104 k0_hw2 => k0_hw2.2.2.2.2.2.2.2.2.2.2.2.2.2.2.2
def k0_off30 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v297 : Index := Scalar.indexCast v46
  let c0_i32_151 : BitVec 32 := 0#32
  let v298 : Index := Scalar.indexCast c0_i32_151
  let c0_i32_35 : BitVec 32 := 0#32
  let c1_i32_36 : BitVec 32 := 1#32
  let arg11 : BitVec 32 := Scf.iv c0_i32_35 c1_i32_36 k0_t2
  let v299 : Index := Scalar.indexCast arg11
  let c0_i32_152 : BitVec 32 := 0#32
  let v300 : Index := Scalar.indexCast c0_i32_152
  let c16 : Index := 16#32
  ![v297.toNat, 0, v299.toNat, 0, 16]
def k0_off31 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v302 : Index := Scalar.indexCast v46
  let c0_i32_153 : BitVec 32 := 0#32
  let v303 : Index := Scalar.indexCast c0_i32_153
  let c0_i32_35 : BitVec 32 := 0#32
  let c1_i32_36 : BitVec 32 := 1#32
  let arg11 : BitVec 32 := Scf.iv c0_i32_35 c1_i32_36 k0_t2
  let v304 : Index := Scalar.indexCast arg11
  let c1_i32_154 : BitVec 32 := 1#32
  let v305 : Index := Scalar.indexCast c1_i32_154
  let c16_155 : Index := 16#32
  ![v302.toNat, 0, v304.toNat, 1, 16]
def k0_off32 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v307 : Index := Scalar.indexCast v46
  let c0_i32_156 : BitVec 32 := 0#32
  let v308 : Index := Scalar.indexCast c0_i32_156
  let c0_i32_35 : BitVec 32 := 0#32
  let c1_i32_36 : BitVec 32 := 1#32
  let arg11 : BitVec 32 := Scf.iv c0_i32_35 c1_i32_36 k0_t2
  let v309 : Index := Scalar.indexCast arg11
  let c2_i32_157 : BitVec 32 := 2#32
  let v310 : Index := Scalar.indexCast c2_i32_157
  let c16_158 : Index := 16#32
  ![v307.toNat, 0, v309.toNat, 2, 16]
def k0_off33 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v312 : Index := Scalar.indexCast v46
  let c0_i32_159 : BitVec 32 := 0#32
  let v313 : Index := Scalar.indexCast c0_i32_159
  let c0_i32_35 : BitVec 32 := 0#32
  let c1_i32_36 : BitVec 32 := 1#32
  let arg11 : BitVec 32 := Scf.iv c0_i32_35 c1_i32_36 k0_t2
  let v314 : Index := Scalar.indexCast arg11
  let c3_i32_160 : BitVec 32 := 3#32
  let v315 : Index := Scalar.indexCast c3_i32_160
  let c16_161 : Index := 16#32
  ![v312.toNat, 0, v314.toNat, 3, 16]
def k0_off34 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v317 : Index := Scalar.indexCast v46
  let c0_i32_162 : BitVec 32 := 0#32
  let v318 : Index := Scalar.indexCast c0_i32_162
  let c0_i32_35 : BitVec 32 := 0#32
  let c1_i32_36 : BitVec 32 := 1#32
  let arg11 : BitVec 32 := Scf.iv c0_i32_35 c1_i32_36 k0_t2
  let v319 : Index := Scalar.indexCast arg11
  let c4_i32_163 : BitVec 32 := 4#32
  let v320 : Index := Scalar.indexCast c4_i32_163
  let c16_164 : Index := 16#32
  ![v317.toNat, 0, v319.toNat, 4, 16]
def k0_off35 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v322 : Index := Scalar.indexCast v46
  let c0_i32_165 : BitVec 32 := 0#32
  let v323 : Index := Scalar.indexCast c0_i32_165
  let c0_i32_35 : BitVec 32 := 0#32
  let c1_i32_36 : BitVec 32 := 1#32
  let arg11 : BitVec 32 := Scf.iv c0_i32_35 c1_i32_36 k0_t2
  let v324 : Index := Scalar.indexCast arg11
  let c5_i32_166 : BitVec 32 := 5#32
  let v325 : Index := Scalar.indexCast c5_i32_166
  let c16_167 : Index := 16#32
  ![v322.toNat, 0, v324.toNat, 5, 16]
def k0_off36 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v327 : Index := Scalar.indexCast v46
  let c0_i32_168 : BitVec 32 := 0#32
  let v328 : Index := Scalar.indexCast c0_i32_168
  let c0_i32_35 : BitVec 32 := 0#32
  let c1_i32_36 : BitVec 32 := 1#32
  let arg11 : BitVec 32 := Scf.iv c0_i32_35 c1_i32_36 k0_t2
  let v329 : Index := Scalar.indexCast arg11
  let c6_i32_169 : BitVec 32 := 6#32
  let v330 : Index := Scalar.indexCast c6_i32_169
  let c16_170 : Index := 16#32
  ![v327.toNat, 0, v329.toNat, 6, 16]
def k0_off37 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v332 : Index := Scalar.indexCast v46
  let c0_i32_171 : BitVec 32 := 0#32
  let v333 : Index := Scalar.indexCast c0_i32_171
  let c0_i32_35 : BitVec 32 := 0#32
  let c1_i32_36 : BitVec 32 := 1#32
  let arg11 : BitVec 32 := Scf.iv c0_i32_35 c1_i32_36 k0_t2
  let v334 : Index := Scalar.indexCast arg11
  let c7_i32_172 : BitVec 32 := 7#32
  let v335 : Index := Scalar.indexCast c7_i32_172
  let c16_173 : Index := 16#32
  ![v332.toNat, 0, v334.toNat, 7, 16]
def k0_off38 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v337 : Index := Scalar.indexCast v46
  let c1_i32_174 : BitVec 32 := 1#32
  let v338 : Index := Scalar.indexCast c1_i32_174
  let c0_i32_35 : BitVec 32 := 0#32
  let c1_i32_36 : BitVec 32 := 1#32
  let arg11 : BitVec 32 := Scf.iv c0_i32_35 c1_i32_36 k0_t2
  let v339 : Index := Scalar.indexCast arg11
  let c0_i32_175 : BitVec 32 := 0#32
  let v340 : Index := Scalar.indexCast c0_i32_175
  let c16_176 : Index := 16#32
  ![v337.toNat, 1, v339.toNat, 0, 16]
def k0_off39 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v342 : Index := Scalar.indexCast v46
  let c1_i32_177 : BitVec 32 := 1#32
  let v343 : Index := Scalar.indexCast c1_i32_177
  let c0_i32_35 : BitVec 32 := 0#32
  let c1_i32_36 : BitVec 32 := 1#32
  let arg11 : BitVec 32 := Scf.iv c0_i32_35 c1_i32_36 k0_t2
  let v344 : Index := Scalar.indexCast arg11
  let c1_i32_178 : BitVec 32 := 1#32
  let v345 : Index := Scalar.indexCast c1_i32_178
  let c16_179 : Index := 16#32
  ![v342.toNat, 1, v344.toNat, 1, 16]
def k0_off40 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v347 : Index := Scalar.indexCast v46
  let c1_i32_180 : BitVec 32 := 1#32
  let v348 : Index := Scalar.indexCast c1_i32_180
  let c0_i32_35 : BitVec 32 := 0#32
  let c1_i32_36 : BitVec 32 := 1#32
  let arg11 : BitVec 32 := Scf.iv c0_i32_35 c1_i32_36 k0_t2
  let v349 : Index := Scalar.indexCast arg11
  let c2_i32_181 : BitVec 32 := 2#32
  let v350 : Index := Scalar.indexCast c2_i32_181
  let c16_182 : Index := 16#32
  ![v347.toNat, 1, v349.toNat, 2, 16]
def k0_off41 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v352 : Index := Scalar.indexCast v46
  let c1_i32_183 : BitVec 32 := 1#32
  let v353 : Index := Scalar.indexCast c1_i32_183
  let c0_i32_35 : BitVec 32 := 0#32
  let c1_i32_36 : BitVec 32 := 1#32
  let arg11 : BitVec 32 := Scf.iv c0_i32_35 c1_i32_36 k0_t2
  let v354 : Index := Scalar.indexCast arg11
  let c3_i32_184 : BitVec 32 := 3#32
  let v355 : Index := Scalar.indexCast c3_i32_184
  let c16_185 : Index := 16#32
  ![v352.toNat, 1, v354.toNat, 3, 16]
def k0_off42 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v357 : Index := Scalar.indexCast v46
  let c1_i32_186 : BitVec 32 := 1#32
  let v358 : Index := Scalar.indexCast c1_i32_186
  let c0_i32_35 : BitVec 32 := 0#32
  let c1_i32_36 : BitVec 32 := 1#32
  let arg11 : BitVec 32 := Scf.iv c0_i32_35 c1_i32_36 k0_t2
  let v359 : Index := Scalar.indexCast arg11
  let c4_i32_187 : BitVec 32 := 4#32
  let v360 : Index := Scalar.indexCast c4_i32_187
  let c16_188 : Index := 16#32
  ![v357.toNat, 1, v359.toNat, 4, 16]
def k0_off43 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v362 : Index := Scalar.indexCast v46
  let c1_i32_189 : BitVec 32 := 1#32
  let v363 : Index := Scalar.indexCast c1_i32_189
  let c0_i32_35 : BitVec 32 := 0#32
  let c1_i32_36 : BitVec 32 := 1#32
  let arg11 : BitVec 32 := Scf.iv c0_i32_35 c1_i32_36 k0_t2
  let v364 : Index := Scalar.indexCast arg11
  let c5_i32_190 : BitVec 32 := 5#32
  let v365 : Index := Scalar.indexCast c5_i32_190
  let c16_191 : Index := 16#32
  ![v362.toNat, 1, v364.toNat, 5, 16]
def k0_off44 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v367 : Index := Scalar.indexCast v46
  let c1_i32_192 : BitVec 32 := 1#32
  let v368 : Index := Scalar.indexCast c1_i32_192
  let c0_i32_35 : BitVec 32 := 0#32
  let c1_i32_36 : BitVec 32 := 1#32
  let arg11 : BitVec 32 := Scf.iv c0_i32_35 c1_i32_36 k0_t2
  let v369 : Index := Scalar.indexCast arg11
  let c6_i32_193 : BitVec 32 := 6#32
  let v370 : Index := Scalar.indexCast c6_i32_193
  let c16_194 : Index := 16#32
  ![v367.toNat, 1, v369.toNat, 6, 16]
def k0_off45 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v372 : Index := Scalar.indexCast v46
  let c1_i32_195 : BitVec 32 := 1#32
  let v373 : Index := Scalar.indexCast c1_i32_195
  let c0_i32_35 : BitVec 32 := 0#32
  let c1_i32_36 : BitVec 32 := 1#32
  let arg11 : BitVec 32 := Scf.iv c0_i32_35 c1_i32_36 k0_t2
  let v374 : Index := Scalar.indexCast arg11
  let c7_i32_196 : BitVec 32 := 7#32
  let v375 : Index := Scalar.indexCast c7_i32_196
  let c16_197 : Index := 16#32
  ![v372.toNat, 1, v374.toNat, 7, 16]

def k0_chk3 (v112 : IVec S16 32) : Prop :=
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a)
instance k0_chk3.dec : ∀ (v112 : IVec S16 32), Decidable (k0_chk3 v112) := fun v112 => decidable_of_iff' _ (Iff.of_eq (k0_chk3.eq_1 v112))
theorem k0_idx33_inb : ∀ (v112 : IVec S16 32) (k0_hw3 : k0_chk3 v112), ∀ a x, ((![v112] : Fin 1 → IVec S16 32) a x).toNat < S25600.size a := fun v112 k0_hw3 => k0_hw3.1
theorem k0_idx34_inb : ∀ (v112 : IVec S16 32) (k0_hw3 : k0_chk3 v112), ∀ a x, ((![v112] : Fin 1 → IVec S16 32) a x).toNat < S25600.size a := fun v112 k0_hw3 => k0_hw3.2.1
theorem k0_idx35_inb : ∀ (v112 : IVec S16 32) (k0_hw3 : k0_chk3 v112), ∀ a x, ((![v112] : Fin 1 → IVec S16 32) a x).toNat < S25600.size a := fun v112 k0_hw3 => k0_hw3.2.2.1
theorem k0_idx36_inb : ∀ (v112 : IVec S16 32) (k0_hw3 : k0_chk3 v112), ∀ a x, ((![v112] : Fin 1 → IVec S16 32) a x).toNat < S25600.size a := fun v112 k0_hw3 => k0_hw3.2.2.2.1
theorem k0_idx37_inb : ∀ (v112 : IVec S16 32) (k0_hw3 : k0_chk3 v112), ∀ a x, ((![v112] : Fin 1 → IVec S16 32) a x).toNat < S25600.size a := fun v112 k0_hw3 => k0_hw3.2.2.2.2.1
theorem k0_idx38_inb : ∀ (v112 : IVec S16 32) (k0_hw3 : k0_chk3 v112), ∀ a x, ((![v112] : Fin 1 → IVec S16 32) a x).toNat < S25600.size a := fun v112 k0_hw3 => k0_hw3.2.2.2.2.2.1
theorem k0_idx39_inb : ∀ (v112 : IVec S16 32) (k0_hw3 : k0_chk3 v112), ∀ a x, ((![v112] : Fin 1 → IVec S16 32) a x).toNat < S25600.size a := fun v112 k0_hw3 => k0_hw3.2.2.2.2.2.2.1
theorem k0_idx40_inb : ∀ (v112 : IVec S16 32) (k0_hw3 : k0_chk3 v112), ∀ a x, ((![v112] : Fin 1 → IVec S16 32) a x).toNat < S25600.size a := fun v112 k0_hw3 => k0_hw3.2.2.2.2.2.2.2.1
theorem k0_idx41_inb : ∀ (v112 : IVec S16 32) (k0_hw3 : k0_chk3 v112), ∀ a x, ((![v112] : Fin 1 → IVec S16 32) a x).toNat < S25600.size a := fun v112 k0_hw3 => k0_hw3.2.2.2.2.2.2.2.2.1
theorem k0_idx42_inb : ∀ (v112 : IVec S16 32) (k0_hw3 : k0_chk3 v112), ∀ a x, ((![v112] : Fin 1 → IVec S16 32) a x).toNat < S25600.size a := fun v112 k0_hw3 => k0_hw3.2.2.2.2.2.2.2.2.2.1
theorem k0_idx43_inb : ∀ (v112 : IVec S16 32) (k0_hw3 : k0_chk3 v112), ∀ a x, ((![v112] : Fin 1 → IVec S16 32) a x).toNat < S25600.size a := fun v112 k0_hw3 => k0_hw3.2.2.2.2.2.2.2.2.2.2.1
theorem k0_idx44_inb : ∀ (v112 : IVec S16 32) (k0_hw3 : k0_chk3 v112), ∀ a x, ((![v112] : Fin 1 → IVec S16 32) a x).toNat < S25600.size a := fun v112 k0_hw3 => k0_hw3.2.2.2.2.2.2.2.2.2.2.2.1
theorem k0_idx45_inb : ∀ (v112 : IVec S16 32) (k0_hw3 : k0_chk3 v112), ∀ a x, ((![v112] : Fin 1 → IVec S16 32) a x).toNat < S25600.size a := fun v112 k0_hw3 => k0_hw3.2.2.2.2.2.2.2.2.2.2.2.2.1
theorem k0_idx46_inb : ∀ (v112 : IVec S16 32) (k0_hw3 : k0_chk3 v112), ∀ a x, ((![v112] : Fin 1 → IVec S16 32) a x).toNat < S25600.size a := fun v112 k0_hw3 => k0_hw3.2.2.2.2.2.2.2.2.2.2.2.2.2.1
theorem k0_idx47_inb : ∀ (v112 : IVec S16 32) (k0_hw3 : k0_chk3 v112), ∀ a x, ((![v112] : Fin 1 → IVec S16 32) a x).toNat < S25600.size a := fun v112 k0_hw3 => k0_hw3.2.2.2.2.2.2.2.2.2.2.2.2.2.2.1
theorem k0_idx48_inb : ∀ (v112 : IVec S16 32) (k0_hw3 : k0_chk3 v112), ∀ a x, ((![v112] : Fin 1 → IVec S16 32) a x).toNat < S25600.size a := fun v112 k0_hw3 => k0_hw3.2.2.2.2.2.2.2.2.2.2.2.2.2.2.2
def k0_off46 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v409 : Index := Scalar.indexCast v46
  let c0_i32_214 : BitVec 32 := 0#32
  let v410 : Index := Scalar.indexCast c0_i32_214
  let c0_i32_35 : BitVec 32 := 0#32
  let c1_i32_36 : BitVec 32 := 1#32
  let arg11 : BitVec 32 := Scf.iv c0_i32_35 c1_i32_36 k0_t2
  let v411 : Index := Scalar.indexCast arg11
  let c0_i32_215 : BitVec 32 := 0#32
  let v412 : Index := Scalar.indexCast c0_i32_215
  let c32 : Index := 32#32
  ![v409.toNat, 0, v411.toNat, 0, 32]
def k0_off47 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v414 : Index := Scalar.indexCast v46
  let c0_i32_216 : BitVec 32 := 0#32
  let v415 : Index := Scalar.indexCast c0_i32_216
  let c0_i32_35 : BitVec 32 := 0#32
  let c1_i32_36 : BitVec 32 := 1#32
  let arg11 : BitVec 32 := Scf.iv c0_i32_35 c1_i32_36 k0_t2
  let v416 : Index := Scalar.indexCast arg11
  let c1_i32_217 : BitVec 32 := 1#32
  let v417 : Index := Scalar.indexCast c1_i32_217
  let c32_218 : Index := 32#32
  ![v414.toNat, 0, v416.toNat, 1, 32]
def k0_off48 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v419 : Index := Scalar.indexCast v46
  let c0_i32_219 : BitVec 32 := 0#32
  let v420 : Index := Scalar.indexCast c0_i32_219
  let c0_i32_35 : BitVec 32 := 0#32
  let c1_i32_36 : BitVec 32 := 1#32
  let arg11 : BitVec 32 := Scf.iv c0_i32_35 c1_i32_36 k0_t2
  let v421 : Index := Scalar.indexCast arg11
  let c2_i32_220 : BitVec 32 := 2#32
  let v422 : Index := Scalar.indexCast c2_i32_220
  let c32_221 : Index := 32#32
  ![v419.toNat, 0, v421.toNat, 2, 32]
def k0_off49 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v424 : Index := Scalar.indexCast v46
  let c0_i32_222 : BitVec 32 := 0#32
  let v425 : Index := Scalar.indexCast c0_i32_222
  let c0_i32_35 : BitVec 32 := 0#32
  let c1_i32_36 : BitVec 32 := 1#32
  let arg11 : BitVec 32 := Scf.iv c0_i32_35 c1_i32_36 k0_t2
  let v426 : Index := Scalar.indexCast arg11
  let c3_i32_223 : BitVec 32 := 3#32
  let v427 : Index := Scalar.indexCast c3_i32_223
  let c32_224 : Index := 32#32
  ![v424.toNat, 0, v426.toNat, 3, 32]
def k0_off50 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v429 : Index := Scalar.indexCast v46
  let c0_i32_225 : BitVec 32 := 0#32
  let v430 : Index := Scalar.indexCast c0_i32_225
  let c0_i32_35 : BitVec 32 := 0#32
  let c1_i32_36 : BitVec 32 := 1#32
  let arg11 : BitVec 32 := Scf.iv c0_i32_35 c1_i32_36 k0_t2
  let v431 : Index := Scalar.indexCast arg11
  let c4_i32_226 : BitVec 32 := 4#32
  let v432 : Index := Scalar.indexCast c4_i32_226
  let c32_227 : Index := 32#32
  ![v429.toNat, 0, v431.toNat, 4, 32]
def k0_off51 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v434 : Index := Scalar.indexCast v46
  let c0_i32_228 : BitVec 32 := 0#32
  let v435 : Index := Scalar.indexCast c0_i32_228
  let c0_i32_35 : BitVec 32 := 0#32
  let c1_i32_36 : BitVec 32 := 1#32
  let arg11 : BitVec 32 := Scf.iv c0_i32_35 c1_i32_36 k0_t2
  let v436 : Index := Scalar.indexCast arg11
  let c5_i32_229 : BitVec 32 := 5#32
  let v437 : Index := Scalar.indexCast c5_i32_229
  let c32_230 : Index := 32#32
  ![v434.toNat, 0, v436.toNat, 5, 32]
def k0_off52 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v439 : Index := Scalar.indexCast v46
  let c0_i32_231 : BitVec 32 := 0#32
  let v440 : Index := Scalar.indexCast c0_i32_231
  let c0_i32_35 : BitVec 32 := 0#32
  let c1_i32_36 : BitVec 32 := 1#32
  let arg11 : BitVec 32 := Scf.iv c0_i32_35 c1_i32_36 k0_t2
  let v441 : Index := Scalar.indexCast arg11
  let c6_i32_232 : BitVec 32 := 6#32
  let v442 : Index := Scalar.indexCast c6_i32_232
  let c32_233 : Index := 32#32
  ![v439.toNat, 0, v441.toNat, 6, 32]
def k0_off53 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v444 : Index := Scalar.indexCast v46
  let c0_i32_234 : BitVec 32 := 0#32
  let v445 : Index := Scalar.indexCast c0_i32_234
  let c0_i32_35 : BitVec 32 := 0#32
  let c1_i32_36 : BitVec 32 := 1#32
  let arg11 : BitVec 32 := Scf.iv c0_i32_35 c1_i32_36 k0_t2
  let v446 : Index := Scalar.indexCast arg11
  let c7_i32_235 : BitVec 32 := 7#32
  let v447 : Index := Scalar.indexCast c7_i32_235
  let c32_236 : Index := 32#32
  ![v444.toNat, 0, v446.toNat, 7, 32]
def k0_off54 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v449 : Index := Scalar.indexCast v46
  let c1_i32_237 : BitVec 32 := 1#32
  let v450 : Index := Scalar.indexCast c1_i32_237
  let c0_i32_35 : BitVec 32 := 0#32
  let c1_i32_36 : BitVec 32 := 1#32
  let arg11 : BitVec 32 := Scf.iv c0_i32_35 c1_i32_36 k0_t2
  let v451 : Index := Scalar.indexCast arg11
  let c0_i32_238 : BitVec 32 := 0#32
  let v452 : Index := Scalar.indexCast c0_i32_238
  let c32_239 : Index := 32#32
  ![v449.toNat, 1, v451.toNat, 0, 32]
def k0_off55 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v454 : Index := Scalar.indexCast v46
  let c1_i32_240 : BitVec 32 := 1#32
  let v455 : Index := Scalar.indexCast c1_i32_240
  let c0_i32_35 : BitVec 32 := 0#32
  let c1_i32_36 : BitVec 32 := 1#32
  let arg11 : BitVec 32 := Scf.iv c0_i32_35 c1_i32_36 k0_t2
  let v456 : Index := Scalar.indexCast arg11
  let c1_i32_241 : BitVec 32 := 1#32
  let v457 : Index := Scalar.indexCast c1_i32_241
  let c32_242 : Index := 32#32
  ![v454.toNat, 1, v456.toNat, 1, 32]
def k0_off56 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v459 : Index := Scalar.indexCast v46
  let c1_i32_243 : BitVec 32 := 1#32
  let v460 : Index := Scalar.indexCast c1_i32_243
  let c0_i32_35 : BitVec 32 := 0#32
  let c1_i32_36 : BitVec 32 := 1#32
  let arg11 : BitVec 32 := Scf.iv c0_i32_35 c1_i32_36 k0_t2
  let v461 : Index := Scalar.indexCast arg11
  let c2_i32_244 : BitVec 32 := 2#32
  let v462 : Index := Scalar.indexCast c2_i32_244
  let c32_245 : Index := 32#32
  ![v459.toNat, 1, v461.toNat, 2, 32]
def k0_off57 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v464 : Index := Scalar.indexCast v46
  let c1_i32_246 : BitVec 32 := 1#32
  let v465 : Index := Scalar.indexCast c1_i32_246
  let c0_i32_35 : BitVec 32 := 0#32
  let c1_i32_36 : BitVec 32 := 1#32
  let arg11 : BitVec 32 := Scf.iv c0_i32_35 c1_i32_36 k0_t2
  let v466 : Index := Scalar.indexCast arg11
  let c3_i32_247 : BitVec 32 := 3#32
  let v467 : Index := Scalar.indexCast c3_i32_247
  let c32_248 : Index := 32#32
  ![v464.toNat, 1, v466.toNat, 3, 32]
def k0_off58 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v469 : Index := Scalar.indexCast v46
  let c1_i32_249 : BitVec 32 := 1#32
  let v470 : Index := Scalar.indexCast c1_i32_249
  let c0_i32_35 : BitVec 32 := 0#32
  let c1_i32_36 : BitVec 32 := 1#32
  let arg11 : BitVec 32 := Scf.iv c0_i32_35 c1_i32_36 k0_t2
  let v471 : Index := Scalar.indexCast arg11
  let c4_i32_250 : BitVec 32 := 4#32
  let v472 : Index := Scalar.indexCast c4_i32_250
  let c32_251 : Index := 32#32
  ![v469.toNat, 1, v471.toNat, 4, 32]
def k0_off59 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v474 : Index := Scalar.indexCast v46
  let c1_i32_252 : BitVec 32 := 1#32
  let v475 : Index := Scalar.indexCast c1_i32_252
  let c0_i32_35 : BitVec 32 := 0#32
  let c1_i32_36 : BitVec 32 := 1#32
  let arg11 : BitVec 32 := Scf.iv c0_i32_35 c1_i32_36 k0_t2
  let v476 : Index := Scalar.indexCast arg11
  let c5_i32_253 : BitVec 32 := 5#32
  let v477 : Index := Scalar.indexCast c5_i32_253
  let c32_254 : Index := 32#32
  ![v474.toNat, 1, v476.toNat, 5, 32]
def k0_off60 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v479 : Index := Scalar.indexCast v46
  let c1_i32_255 : BitVec 32 := 1#32
  let v480 : Index := Scalar.indexCast c1_i32_255
  let c0_i32_35 : BitVec 32 := 0#32
  let c1_i32_36 : BitVec 32 := 1#32
  let arg11 : BitVec 32 := Scf.iv c0_i32_35 c1_i32_36 k0_t2
  let v481 : Index := Scalar.indexCast arg11
  let c6_i32_256 : BitVec 32 := 6#32
  let v482 : Index := Scalar.indexCast c6_i32_256
  let c32_257 : Index := 32#32
  ![v479.toNat, 1, v481.toNat, 6, 32]
def k0_off61 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v484 : Index := Scalar.indexCast v46
  let c1_i32_258 : BitVec 32 := 1#32
  let v485 : Index := Scalar.indexCast c1_i32_258
  let c0_i32_35 : BitVec 32 := 0#32
  let c1_i32_36 : BitVec 32 := 1#32
  let arg11 : BitVec 32 := Scf.iv c0_i32_35 c1_i32_36 k0_t2
  let v486 : Index := Scalar.indexCast arg11
  let c7_i32_259 : BitVec 32 := 7#32
  let v487 : Index := Scalar.indexCast c7_i32_259
  let c32_260 : Index := 32#32
  ![v484.toNat, 1, v486.toNat, 7, 32]

def k0_chk4 (v120 : IVec S16 32) : Prop :=
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a)
instance k0_chk4.dec : ∀ (v120 : IVec S16 32), Decidable (k0_chk4 v120) := fun v120 => decidable_of_iff' _ (Iff.of_eq (k0_chk4.eq_1 v120))
theorem k0_idx49_inb : ∀ (v120 : IVec S16 32) (k0_hw4 : k0_chk4 v120), ∀ a x, ((![v120] : Fin 1 → IVec S16 32) a x).toNat < S25600.size a := fun v120 k0_hw4 => k0_hw4.1
theorem k0_idx50_inb : ∀ (v120 : IVec S16 32) (k0_hw4 : k0_chk4 v120), ∀ a x, ((![v120] : Fin 1 → IVec S16 32) a x).toNat < S25600.size a := fun v120 k0_hw4 => k0_hw4.2.1
theorem k0_idx51_inb : ∀ (v120 : IVec S16 32) (k0_hw4 : k0_chk4 v120), ∀ a x, ((![v120] : Fin 1 → IVec S16 32) a x).toNat < S25600.size a := fun v120 k0_hw4 => k0_hw4.2.2.1
theorem k0_idx52_inb : ∀ (v120 : IVec S16 32) (k0_hw4 : k0_chk4 v120), ∀ a x, ((![v120] : Fin 1 → IVec S16 32) a x).toNat < S25600.size a := fun v120 k0_hw4 => k0_hw4.2.2.2.1
theorem k0_idx53_inb : ∀ (v120 : IVec S16 32) (k0_hw4 : k0_chk4 v120), ∀ a x, ((![v120] : Fin 1 → IVec S16 32) a x).toNat < S25600.size a := fun v120 k0_hw4 => k0_hw4.2.2.2.2.1
theorem k0_idx54_inb : ∀ (v120 : IVec S16 32) (k0_hw4 : k0_chk4 v120), ∀ a x, ((![v120] : Fin 1 → IVec S16 32) a x).toNat < S25600.size a := fun v120 k0_hw4 => k0_hw4.2.2.2.2.2.1
theorem k0_idx55_inb : ∀ (v120 : IVec S16 32) (k0_hw4 : k0_chk4 v120), ∀ a x, ((![v120] : Fin 1 → IVec S16 32) a x).toNat < S25600.size a := fun v120 k0_hw4 => k0_hw4.2.2.2.2.2.2.1
theorem k0_idx56_inb : ∀ (v120 : IVec S16 32) (k0_hw4 : k0_chk4 v120), ∀ a x, ((![v120] : Fin 1 → IVec S16 32) a x).toNat < S25600.size a := fun v120 k0_hw4 => k0_hw4.2.2.2.2.2.2.2.1
theorem k0_idx57_inb : ∀ (v120 : IVec S16 32) (k0_hw4 : k0_chk4 v120), ∀ a x, ((![v120] : Fin 1 → IVec S16 32) a x).toNat < S25600.size a := fun v120 k0_hw4 => k0_hw4.2.2.2.2.2.2.2.2.1
theorem k0_idx58_inb : ∀ (v120 : IVec S16 32) (k0_hw4 : k0_chk4 v120), ∀ a x, ((![v120] : Fin 1 → IVec S16 32) a x).toNat < S25600.size a := fun v120 k0_hw4 => k0_hw4.2.2.2.2.2.2.2.2.2.1
theorem k0_idx59_inb : ∀ (v120 : IVec S16 32) (k0_hw4 : k0_chk4 v120), ∀ a x, ((![v120] : Fin 1 → IVec S16 32) a x).toNat < S25600.size a := fun v120 k0_hw4 => k0_hw4.2.2.2.2.2.2.2.2.2.2.1
theorem k0_idx60_inb : ∀ (v120 : IVec S16 32) (k0_hw4 : k0_chk4 v120), ∀ a x, ((![v120] : Fin 1 → IVec S16 32) a x).toNat < S25600.size a := fun v120 k0_hw4 => k0_hw4.2.2.2.2.2.2.2.2.2.2.2.1
theorem k0_idx61_inb : ∀ (v120 : IVec S16 32) (k0_hw4 : k0_chk4 v120), ∀ a x, ((![v120] : Fin 1 → IVec S16 32) a x).toNat < S25600.size a := fun v120 k0_hw4 => k0_hw4.2.2.2.2.2.2.2.2.2.2.2.2.1
theorem k0_idx62_inb : ∀ (v120 : IVec S16 32) (k0_hw4 : k0_chk4 v120), ∀ a x, ((![v120] : Fin 1 → IVec S16 32) a x).toNat < S25600.size a := fun v120 k0_hw4 => k0_hw4.2.2.2.2.2.2.2.2.2.2.2.2.2.1
theorem k0_idx63_inb : ∀ (v120 : IVec S16 32) (k0_hw4 : k0_chk4 v120), ∀ a x, ((![v120] : Fin 1 → IVec S16 32) a x).toNat < S25600.size a := fun v120 k0_hw4 => k0_hw4.2.2.2.2.2.2.2.2.2.2.2.2.2.2.1
theorem k0_idx64_inb : ∀ (v120 : IVec S16 32) (k0_hw4 : k0_chk4 v120), ∀ a x, ((![v120] : Fin 1 → IVec S16 32) a x).toNat < S25600.size a := fun v120 k0_hw4 => k0_hw4.2.2.2.2.2.2.2.2.2.2.2.2.2.2.2
def k0_off62 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v521 : Index := Scalar.indexCast v46
  let c0_i32_277 : BitVec 32 := 0#32
  let v522 : Index := Scalar.indexCast c0_i32_277
  let c0_i32_35 : BitVec 32 := 0#32
  let c1_i32_36 : BitVec 32 := 1#32
  let arg11 : BitVec 32 := Scf.iv c0_i32_35 c1_i32_36 k0_t2
  let v523 : Index := Scalar.indexCast arg11
  let c0_i32_278 : BitVec 32 := 0#32
  let v524 : Index := Scalar.indexCast c0_i32_278
  let c48 : Index := 48#32
  ![v521.toNat, 0, v523.toNat, 0, 48]
def k0_off63 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v526 : Index := Scalar.indexCast v46
  let c0_i32_279 : BitVec 32 := 0#32
  let v527 : Index := Scalar.indexCast c0_i32_279
  let c0_i32_35 : BitVec 32 := 0#32
  let c1_i32_36 : BitVec 32 := 1#32
  let arg11 : BitVec 32 := Scf.iv c0_i32_35 c1_i32_36 k0_t2
  let v528 : Index := Scalar.indexCast arg11
  let c1_i32_280 : BitVec 32 := 1#32
  let v529 : Index := Scalar.indexCast c1_i32_280
  let c48_281 : Index := 48#32
  ![v526.toNat, 0, v528.toNat, 1, 48]
def k0_off64 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v531 : Index := Scalar.indexCast v46
  let c0_i32_282 : BitVec 32 := 0#32
  let v532 : Index := Scalar.indexCast c0_i32_282
  let c0_i32_35 : BitVec 32 := 0#32
  let c1_i32_36 : BitVec 32 := 1#32
  let arg11 : BitVec 32 := Scf.iv c0_i32_35 c1_i32_36 k0_t2
  let v533 : Index := Scalar.indexCast arg11
  let c2_i32_283 : BitVec 32 := 2#32
  let v534 : Index := Scalar.indexCast c2_i32_283
  let c48_284 : Index := 48#32
  ![v531.toNat, 0, v533.toNat, 2, 48]
def k0_off65 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v536 : Index := Scalar.indexCast v46
  let c0_i32_285 : BitVec 32 := 0#32
  let v537 : Index := Scalar.indexCast c0_i32_285
  let c0_i32_35 : BitVec 32 := 0#32
  let c1_i32_36 : BitVec 32 := 1#32
  let arg11 : BitVec 32 := Scf.iv c0_i32_35 c1_i32_36 k0_t2
  let v538 : Index := Scalar.indexCast arg11
  let c3_i32_286 : BitVec 32 := 3#32
  let v539 : Index := Scalar.indexCast c3_i32_286
  let c48_287 : Index := 48#32
  ![v536.toNat, 0, v538.toNat, 3, 48]
def k0_off66 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v541 : Index := Scalar.indexCast v46
  let c0_i32_288 : BitVec 32 := 0#32
  let v542 : Index := Scalar.indexCast c0_i32_288
  let c0_i32_35 : BitVec 32 := 0#32
  let c1_i32_36 : BitVec 32 := 1#32
  let arg11 : BitVec 32 := Scf.iv c0_i32_35 c1_i32_36 k0_t2
  let v543 : Index := Scalar.indexCast arg11
  let c4_i32_289 : BitVec 32 := 4#32
  let v544 : Index := Scalar.indexCast c4_i32_289
  let c48_290 : Index := 48#32
  ![v541.toNat, 0, v543.toNat, 4, 48]
def k0_off67 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v546 : Index := Scalar.indexCast v46
  let c0_i32_291 : BitVec 32 := 0#32
  let v547 : Index := Scalar.indexCast c0_i32_291
  let c0_i32_35 : BitVec 32 := 0#32
  let c1_i32_36 : BitVec 32 := 1#32
  let arg11 : BitVec 32 := Scf.iv c0_i32_35 c1_i32_36 k0_t2
  let v548 : Index := Scalar.indexCast arg11
  let c5_i32_292 : BitVec 32 := 5#32
  let v549 : Index := Scalar.indexCast c5_i32_292
  let c48_293 : Index := 48#32
  ![v546.toNat, 0, v548.toNat, 5, 48]
def k0_off68 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v551 : Index := Scalar.indexCast v46
  let c0_i32_294 : BitVec 32 := 0#32
  let v552 : Index := Scalar.indexCast c0_i32_294
  let c0_i32_35 : BitVec 32 := 0#32
  let c1_i32_36 : BitVec 32 := 1#32
  let arg11 : BitVec 32 := Scf.iv c0_i32_35 c1_i32_36 k0_t2
  let v553 : Index := Scalar.indexCast arg11
  let c6_i32_295 : BitVec 32 := 6#32
  let v554 : Index := Scalar.indexCast c6_i32_295
  let c48_296 : Index := 48#32
  ![v551.toNat, 0, v553.toNat, 6, 48]
def k0_off69 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v556 : Index := Scalar.indexCast v46
  let c0_i32_297 : BitVec 32 := 0#32
  let v557 : Index := Scalar.indexCast c0_i32_297
  let c0_i32_35 : BitVec 32 := 0#32
  let c1_i32_36 : BitVec 32 := 1#32
  let arg11 : BitVec 32 := Scf.iv c0_i32_35 c1_i32_36 k0_t2
  let v558 : Index := Scalar.indexCast arg11
  let c7_i32_298 : BitVec 32 := 7#32
  let v559 : Index := Scalar.indexCast c7_i32_298
  let c48_299 : Index := 48#32
  ![v556.toNat, 0, v558.toNat, 7, 48]
def k0_off70 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v561 : Index := Scalar.indexCast v46
  let c1_i32_300 : BitVec 32 := 1#32
  let v562 : Index := Scalar.indexCast c1_i32_300
  let c0_i32_35 : BitVec 32 := 0#32
  let c1_i32_36 : BitVec 32 := 1#32
  let arg11 : BitVec 32 := Scf.iv c0_i32_35 c1_i32_36 k0_t2
  let v563 : Index := Scalar.indexCast arg11
  let c0_i32_301 : BitVec 32 := 0#32
  let v564 : Index := Scalar.indexCast c0_i32_301
  let c48_302 : Index := 48#32
  ![v561.toNat, 1, v563.toNat, 0, 48]
def k0_off71 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v566 : Index := Scalar.indexCast v46
  let c1_i32_303 : BitVec 32 := 1#32
  let v567 : Index := Scalar.indexCast c1_i32_303
  let c0_i32_35 : BitVec 32 := 0#32
  let c1_i32_36 : BitVec 32 := 1#32
  let arg11 : BitVec 32 := Scf.iv c0_i32_35 c1_i32_36 k0_t2
  let v568 : Index := Scalar.indexCast arg11
  let c1_i32_304 : BitVec 32 := 1#32
  let v569 : Index := Scalar.indexCast c1_i32_304
  let c48_305 : Index := 48#32
  ![v566.toNat, 1, v568.toNat, 1, 48]
def k0_off72 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v571 : Index := Scalar.indexCast v46
  let c1_i32_306 : BitVec 32 := 1#32
  let v572 : Index := Scalar.indexCast c1_i32_306
  let c0_i32_35 : BitVec 32 := 0#32
  let c1_i32_36 : BitVec 32 := 1#32
  let arg11 : BitVec 32 := Scf.iv c0_i32_35 c1_i32_36 k0_t2
  let v573 : Index := Scalar.indexCast arg11
  let c2_i32_307 : BitVec 32 := 2#32
  let v574 : Index := Scalar.indexCast c2_i32_307
  let c48_308 : Index := 48#32
  ![v571.toNat, 1, v573.toNat, 2, 48]
def k0_off73 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v576 : Index := Scalar.indexCast v46
  let c1_i32_309 : BitVec 32 := 1#32
  let v577 : Index := Scalar.indexCast c1_i32_309
  let c0_i32_35 : BitVec 32 := 0#32
  let c1_i32_36 : BitVec 32 := 1#32
  let arg11 : BitVec 32 := Scf.iv c0_i32_35 c1_i32_36 k0_t2
  let v578 : Index := Scalar.indexCast arg11
  let c3_i32_310 : BitVec 32 := 3#32
  let v579 : Index := Scalar.indexCast c3_i32_310
  let c48_311 : Index := 48#32
  ![v576.toNat, 1, v578.toNat, 3, 48]
def k0_off74 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v581 : Index := Scalar.indexCast v46
  let c1_i32_312 : BitVec 32 := 1#32
  let v582 : Index := Scalar.indexCast c1_i32_312
  let c0_i32_35 : BitVec 32 := 0#32
  let c1_i32_36 : BitVec 32 := 1#32
  let arg11 : BitVec 32 := Scf.iv c0_i32_35 c1_i32_36 k0_t2
  let v583 : Index := Scalar.indexCast arg11
  let c4_i32_313 : BitVec 32 := 4#32
  let v584 : Index := Scalar.indexCast c4_i32_313
  let c48_314 : Index := 48#32
  ![v581.toNat, 1, v583.toNat, 4, 48]
def k0_off75 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v586 : Index := Scalar.indexCast v46
  let c1_i32_315 : BitVec 32 := 1#32
  let v587 : Index := Scalar.indexCast c1_i32_315
  let c0_i32_35 : BitVec 32 := 0#32
  let c1_i32_36 : BitVec 32 := 1#32
  let arg11 : BitVec 32 := Scf.iv c0_i32_35 c1_i32_36 k0_t2
  let v588 : Index := Scalar.indexCast arg11
  let c5_i32_316 : BitVec 32 := 5#32
  let v589 : Index := Scalar.indexCast c5_i32_316
  let c48_317 : Index := 48#32
  ![v586.toNat, 1, v588.toNat, 5, 48]
def k0_off76 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v591 : Index := Scalar.indexCast v46
  let c1_i32_318 : BitVec 32 := 1#32
  let v592 : Index := Scalar.indexCast c1_i32_318
  let c0_i32_35 : BitVec 32 := 0#32
  let c1_i32_36 : BitVec 32 := 1#32
  let arg11 : BitVec 32 := Scf.iv c0_i32_35 c1_i32_36 k0_t2
  let v593 : Index := Scalar.indexCast arg11
  let c6_i32_319 : BitVec 32 := 6#32
  let v594 : Index := Scalar.indexCast c6_i32_319
  let c48_320 : Index := 48#32
  ![v591.toNat, 1, v593.toNat, 6, 48]
def k0_off77 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v596 : Index := Scalar.indexCast v46
  let c1_i32_321 : BitVec 32 := 1#32
  let v597 : Index := Scalar.indexCast c1_i32_321
  let c0_i32_35 : BitVec 32 := 0#32
  let c1_i32_36 : BitVec 32 := 1#32
  let arg11 : BitVec 32 := Scf.iv c0_i32_35 c1_i32_36 k0_t2
  let v598 : Index := Scalar.indexCast arg11
  let c7_i32_322 : BitVec 32 := 7#32
  let v599 : Index := Scalar.indexCast c7_i32_322
  let c48_323 : Index := 48#32
  ![v596.toNat, 1, v598.toNat, 7, 48]

def k0_chk5 (v128 : IVec S16 32) : Prop :=
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a)
instance k0_chk5.dec : ∀ (v128 : IVec S16 32), Decidable (k0_chk5 v128) := fun v128 => decidable_of_iff' _ (Iff.of_eq (k0_chk5.eq_1 v128))
theorem k0_idx65_inb : ∀ (v128 : IVec S16 32) (k0_hw5 : k0_chk5 v128), ∀ a x, ((![v128] : Fin 1 → IVec S16 32) a x).toNat < S25600.size a := fun v128 k0_hw5 => k0_hw5.1
theorem k0_idx66_inb : ∀ (v128 : IVec S16 32) (k0_hw5 : k0_chk5 v128), ∀ a x, ((![v128] : Fin 1 → IVec S16 32) a x).toNat < S25600.size a := fun v128 k0_hw5 => k0_hw5.2.1
theorem k0_idx67_inb : ∀ (v128 : IVec S16 32) (k0_hw5 : k0_chk5 v128), ∀ a x, ((![v128] : Fin 1 → IVec S16 32) a x).toNat < S25600.size a := fun v128 k0_hw5 => k0_hw5.2.2.1
theorem k0_idx68_inb : ∀ (v128 : IVec S16 32) (k0_hw5 : k0_chk5 v128), ∀ a x, ((![v128] : Fin 1 → IVec S16 32) a x).toNat < S25600.size a := fun v128 k0_hw5 => k0_hw5.2.2.2.1
theorem k0_idx69_inb : ∀ (v128 : IVec S16 32) (k0_hw5 : k0_chk5 v128), ∀ a x, ((![v128] : Fin 1 → IVec S16 32) a x).toNat < S25600.size a := fun v128 k0_hw5 => k0_hw5.2.2.2.2.1
theorem k0_idx70_inb : ∀ (v128 : IVec S16 32) (k0_hw5 : k0_chk5 v128), ∀ a x, ((![v128] : Fin 1 → IVec S16 32) a x).toNat < S25600.size a := fun v128 k0_hw5 => k0_hw5.2.2.2.2.2.1
theorem k0_idx71_inb : ∀ (v128 : IVec S16 32) (k0_hw5 : k0_chk5 v128), ∀ a x, ((![v128] : Fin 1 → IVec S16 32) a x).toNat < S25600.size a := fun v128 k0_hw5 => k0_hw5.2.2.2.2.2.2.1
theorem k0_idx72_inb : ∀ (v128 : IVec S16 32) (k0_hw5 : k0_chk5 v128), ∀ a x, ((![v128] : Fin 1 → IVec S16 32) a x).toNat < S25600.size a := fun v128 k0_hw5 => k0_hw5.2.2.2.2.2.2.2.1
theorem k0_idx73_inb : ∀ (v128 : IVec S16 32) (k0_hw5 : k0_chk5 v128), ∀ a x, ((![v128] : Fin 1 → IVec S16 32) a x).toNat < S25600.size a := fun v128 k0_hw5 => k0_hw5.2.2.2.2.2.2.2.2.1
theorem k0_idx74_inb : ∀ (v128 : IVec S16 32) (k0_hw5 : k0_chk5 v128), ∀ a x, ((![v128] : Fin 1 → IVec S16 32) a x).toNat < S25600.size a := fun v128 k0_hw5 => k0_hw5.2.2.2.2.2.2.2.2.2.1
theorem k0_idx75_inb : ∀ (v128 : IVec S16 32) (k0_hw5 : k0_chk5 v128), ∀ a x, ((![v128] : Fin 1 → IVec S16 32) a x).toNat < S25600.size a := fun v128 k0_hw5 => k0_hw5.2.2.2.2.2.2.2.2.2.2.1
theorem k0_idx76_inb : ∀ (v128 : IVec S16 32) (k0_hw5 : k0_chk5 v128), ∀ a x, ((![v128] : Fin 1 → IVec S16 32) a x).toNat < S25600.size a := fun v128 k0_hw5 => k0_hw5.2.2.2.2.2.2.2.2.2.2.2.1
theorem k0_idx77_inb : ∀ (v128 : IVec S16 32) (k0_hw5 : k0_chk5 v128), ∀ a x, ((![v128] : Fin 1 → IVec S16 32) a x).toNat < S25600.size a := fun v128 k0_hw5 => k0_hw5.2.2.2.2.2.2.2.2.2.2.2.2.1
theorem k0_idx78_inb : ∀ (v128 : IVec S16 32) (k0_hw5 : k0_chk5 v128), ∀ a x, ((![v128] : Fin 1 → IVec S16 32) a x).toNat < S25600.size a := fun v128 k0_hw5 => k0_hw5.2.2.2.2.2.2.2.2.2.2.2.2.2.1
theorem k0_idx79_inb : ∀ (v128 : IVec S16 32) (k0_hw5 : k0_chk5 v128), ∀ a x, ((![v128] : Fin 1 → IVec S16 32) a x).toNat < S25600.size a := fun v128 k0_hw5 => k0_hw5.2.2.2.2.2.2.2.2.2.2.2.2.2.2.1
theorem k0_idx80_inb : ∀ (v128 : IVec S16 32) (k0_hw5 : k0_chk5 v128), ∀ a x, ((![v128] : Fin 1 → IVec S16 32) a x).toNat < S25600.size a := fun v128 k0_hw5 => k0_hw5.2.2.2.2.2.2.2.2.2.2.2.2.2.2.2
def k0_off78 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v633 : Index := Scalar.indexCast v46
  let c0_i32_340 : BitVec 32 := 0#32
  let v634 : Index := Scalar.indexCast c0_i32_340
  let c0_i32_35 : BitVec 32 := 0#32
  let c1_i32_36 : BitVec 32 := 1#32
  let arg11 : BitVec 32 := Scf.iv c0_i32_35 c1_i32_36 k0_t2
  let v635 : Index := Scalar.indexCast arg11
  let c0_i32_341 : BitVec 32 := 0#32
  let v636 : Index := Scalar.indexCast c0_i32_341
  let c64 : Index := 64#32
  ![v633.toNat, 0, v635.toNat, 0, 64]
def k0_off79 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v638 : Index := Scalar.indexCast v46
  let c0_i32_342 : BitVec 32 := 0#32
  let v639 : Index := Scalar.indexCast c0_i32_342
  let c0_i32_35 : BitVec 32 := 0#32
  let c1_i32_36 : BitVec 32 := 1#32
  let arg11 : BitVec 32 := Scf.iv c0_i32_35 c1_i32_36 k0_t2
  let v640 : Index := Scalar.indexCast arg11
  let c1_i32_343 : BitVec 32 := 1#32
  let v641 : Index := Scalar.indexCast c1_i32_343
  let c64_344 : Index := 64#32
  ![v638.toNat, 0, v640.toNat, 1, 64]
def k0_off80 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v643 : Index := Scalar.indexCast v46
  let c0_i32_345 : BitVec 32 := 0#32
  let v644 : Index := Scalar.indexCast c0_i32_345
  let c0_i32_35 : BitVec 32 := 0#32
  let c1_i32_36 : BitVec 32 := 1#32
  let arg11 : BitVec 32 := Scf.iv c0_i32_35 c1_i32_36 k0_t2
  let v645 : Index := Scalar.indexCast arg11
  let c2_i32_346 : BitVec 32 := 2#32
  let v646 : Index := Scalar.indexCast c2_i32_346
  let c64_347 : Index := 64#32
  ![v643.toNat, 0, v645.toNat, 2, 64]
def k0_off81 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v648 : Index := Scalar.indexCast v46
  let c0_i32_348 : BitVec 32 := 0#32
  let v649 : Index := Scalar.indexCast c0_i32_348
  let c0_i32_35 : BitVec 32 := 0#32
  let c1_i32_36 : BitVec 32 := 1#32
  let arg11 : BitVec 32 := Scf.iv c0_i32_35 c1_i32_36 k0_t2
  let v650 : Index := Scalar.indexCast arg11
  let c3_i32_349 : BitVec 32 := 3#32
  let v651 : Index := Scalar.indexCast c3_i32_349
  let c64_350 : Index := 64#32
  ![v648.toNat, 0, v650.toNat, 3, 64]
def k0_off82 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v653 : Index := Scalar.indexCast v46
  let c0_i32_351 : BitVec 32 := 0#32
  let v654 : Index := Scalar.indexCast c0_i32_351
  let c0_i32_35 : BitVec 32 := 0#32
  let c1_i32_36 : BitVec 32 := 1#32
  let arg11 : BitVec 32 := Scf.iv c0_i32_35 c1_i32_36 k0_t2
  let v655 : Index := Scalar.indexCast arg11
  let c4_i32_352 : BitVec 32 := 4#32
  let v656 : Index := Scalar.indexCast c4_i32_352
  let c64_353 : Index := 64#32
  ![v653.toNat, 0, v655.toNat, 4, 64]
def k0_off83 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v658 : Index := Scalar.indexCast v46
  let c0_i32_354 : BitVec 32 := 0#32
  let v659 : Index := Scalar.indexCast c0_i32_354
  let c0_i32_35 : BitVec 32 := 0#32
  let c1_i32_36 : BitVec 32 := 1#32
  let arg11 : BitVec 32 := Scf.iv c0_i32_35 c1_i32_36 k0_t2
  let v660 : Index := Scalar.indexCast arg11
  let c5_i32_355 : BitVec 32 := 5#32
  let v661 : Index := Scalar.indexCast c5_i32_355
  let c64_356 : Index := 64#32
  ![v658.toNat, 0, v660.toNat, 5, 64]
def k0_off84 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v663 : Index := Scalar.indexCast v46
  let c0_i32_357 : BitVec 32 := 0#32
  let v664 : Index := Scalar.indexCast c0_i32_357
  let c0_i32_35 : BitVec 32 := 0#32
  let c1_i32_36 : BitVec 32 := 1#32
  let arg11 : BitVec 32 := Scf.iv c0_i32_35 c1_i32_36 k0_t2
  let v665 : Index := Scalar.indexCast arg11
  let c6_i32_358 : BitVec 32 := 6#32
  let v666 : Index := Scalar.indexCast c6_i32_358
  let c64_359 : Index := 64#32
  ![v663.toNat, 0, v665.toNat, 6, 64]
def k0_off85 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v668 : Index := Scalar.indexCast v46
  let c0_i32_360 : BitVec 32 := 0#32
  let v669 : Index := Scalar.indexCast c0_i32_360
  let c0_i32_35 : BitVec 32 := 0#32
  let c1_i32_36 : BitVec 32 := 1#32
  let arg11 : BitVec 32 := Scf.iv c0_i32_35 c1_i32_36 k0_t2
  let v670 : Index := Scalar.indexCast arg11
  let c7_i32_361 : BitVec 32 := 7#32
  let v671 : Index := Scalar.indexCast c7_i32_361
  let c64_362 : Index := 64#32
  ![v668.toNat, 0, v670.toNat, 7, 64]
def k0_off86 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v673 : Index := Scalar.indexCast v46
  let c1_i32_363 : BitVec 32 := 1#32
  let v674 : Index := Scalar.indexCast c1_i32_363
  let c0_i32_35 : BitVec 32 := 0#32
  let c1_i32_36 : BitVec 32 := 1#32
  let arg11 : BitVec 32 := Scf.iv c0_i32_35 c1_i32_36 k0_t2
  let v675 : Index := Scalar.indexCast arg11
  let c0_i32_364 : BitVec 32 := 0#32
  let v676 : Index := Scalar.indexCast c0_i32_364
  let c64_365 : Index := 64#32
  ![v673.toNat, 1, v675.toNat, 0, 64]
def k0_off87 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v678 : Index := Scalar.indexCast v46
  let c1_i32_366 : BitVec 32 := 1#32
  let v679 : Index := Scalar.indexCast c1_i32_366
  let c0_i32_35 : BitVec 32 := 0#32
  let c1_i32_36 : BitVec 32 := 1#32
  let arg11 : BitVec 32 := Scf.iv c0_i32_35 c1_i32_36 k0_t2
  let v680 : Index := Scalar.indexCast arg11
  let c1_i32_367 : BitVec 32 := 1#32
  let v681 : Index := Scalar.indexCast c1_i32_367
  let c64_368 : Index := 64#32
  ![v678.toNat, 1, v680.toNat, 1, 64]
def k0_off88 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v683 : Index := Scalar.indexCast v46
  let c1_i32_369 : BitVec 32 := 1#32
  let v684 : Index := Scalar.indexCast c1_i32_369
  let c0_i32_35 : BitVec 32 := 0#32
  let c1_i32_36 : BitVec 32 := 1#32
  let arg11 : BitVec 32 := Scf.iv c0_i32_35 c1_i32_36 k0_t2
  let v685 : Index := Scalar.indexCast arg11
  let c2_i32_370 : BitVec 32 := 2#32
  let v686 : Index := Scalar.indexCast c2_i32_370
  let c64_371 : Index := 64#32
  ![v683.toNat, 1, v685.toNat, 2, 64]
def k0_off89 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v688 : Index := Scalar.indexCast v46
  let c1_i32_372 : BitVec 32 := 1#32
  let v689 : Index := Scalar.indexCast c1_i32_372
  let c0_i32_35 : BitVec 32 := 0#32
  let c1_i32_36 : BitVec 32 := 1#32
  let arg11 : BitVec 32 := Scf.iv c0_i32_35 c1_i32_36 k0_t2
  let v690 : Index := Scalar.indexCast arg11
  let c3_i32_373 : BitVec 32 := 3#32
  let v691 : Index := Scalar.indexCast c3_i32_373
  let c64_374 : Index := 64#32
  ![v688.toNat, 1, v690.toNat, 3, 64]
def k0_off90 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v693 : Index := Scalar.indexCast v46
  let c1_i32_375 : BitVec 32 := 1#32
  let v694 : Index := Scalar.indexCast c1_i32_375
  let c0_i32_35 : BitVec 32 := 0#32
  let c1_i32_36 : BitVec 32 := 1#32
  let arg11 : BitVec 32 := Scf.iv c0_i32_35 c1_i32_36 k0_t2
  let v695 : Index := Scalar.indexCast arg11
  let c4_i32_376 : BitVec 32 := 4#32
  let v696 : Index := Scalar.indexCast c4_i32_376
  let c64_377 : Index := 64#32
  ![v693.toNat, 1, v695.toNat, 4, 64]
def k0_off91 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v698 : Index := Scalar.indexCast v46
  let c1_i32_378 : BitVec 32 := 1#32
  let v699 : Index := Scalar.indexCast c1_i32_378
  let c0_i32_35 : BitVec 32 := 0#32
  let c1_i32_36 : BitVec 32 := 1#32
  let arg11 : BitVec 32 := Scf.iv c0_i32_35 c1_i32_36 k0_t2
  let v700 : Index := Scalar.indexCast arg11
  let c5_i32_379 : BitVec 32 := 5#32
  let v701 : Index := Scalar.indexCast c5_i32_379
  let c64_380 : Index := 64#32
  ![v698.toNat, 1, v700.toNat, 5, 64]
def k0_off92 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v703 : Index := Scalar.indexCast v46
  let c1_i32_381 : BitVec 32 := 1#32
  let v704 : Index := Scalar.indexCast c1_i32_381
  let c0_i32_35 : BitVec 32 := 0#32
  let c1_i32_36 : BitVec 32 := 1#32
  let arg11 : BitVec 32 := Scf.iv c0_i32_35 c1_i32_36 k0_t2
  let v705 : Index := Scalar.indexCast arg11
  let c6_i32_382 : BitVec 32 := 6#32
  let v706 : Index := Scalar.indexCast c6_i32_382
  let c64_383 : Index := 64#32
  ![v703.toNat, 1, v705.toNat, 6, 64]
def k0_off93 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v708 : Index := Scalar.indexCast v46
  let c1_i32_384 : BitVec 32 := 1#32
  let v709 : Index := Scalar.indexCast c1_i32_384
  let c0_i32_35 : BitVec 32 := 0#32
  let c1_i32_36 : BitVec 32 := 1#32
  let arg11 : BitVec 32 := Scf.iv c0_i32_35 c1_i32_36 k0_t2
  let v710 : Index := Scalar.indexCast arg11
  let c7_i32_385 : BitVec 32 := 7#32
  let v711 : Index := Scalar.indexCast c7_i32_385
  let c64_386 : Index := 64#32
  ![v708.toNat, 1, v710.toNat, 7, 64]

def k0_chk6 (v136 : IVec S16 32) : Prop :=
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a)
instance k0_chk6.dec : ∀ (v136 : IVec S16 32), Decidable (k0_chk6 v136) := fun v136 => decidable_of_iff' _ (Iff.of_eq (k0_chk6.eq_1 v136))
theorem k0_idx81_inb : ∀ (v136 : IVec S16 32) (k0_hw6 : k0_chk6 v136), ∀ a x, ((![v136] : Fin 1 → IVec S16 32) a x).toNat < S25600.size a := fun v136 k0_hw6 => k0_hw6.1
theorem k0_idx82_inb : ∀ (v136 : IVec S16 32) (k0_hw6 : k0_chk6 v136), ∀ a x, ((![v136] : Fin 1 → IVec S16 32) a x).toNat < S25600.size a := fun v136 k0_hw6 => k0_hw6.2.1
theorem k0_idx83_inb : ∀ (v136 : IVec S16 32) (k0_hw6 : k0_chk6 v136), ∀ a x, ((![v136] : Fin 1 → IVec S16 32) a x).toNat < S25600.size a := fun v136 k0_hw6 => k0_hw6.2.2.1
theorem k0_idx84_inb : ∀ (v136 : IVec S16 32) (k0_hw6 : k0_chk6 v136), ∀ a x, ((![v136] : Fin 1 → IVec S16 32) a x).toNat < S25600.size a := fun v136 k0_hw6 => k0_hw6.2.2.2.1
theorem k0_idx85_inb : ∀ (v136 : IVec S16 32) (k0_hw6 : k0_chk6 v136), ∀ a x, ((![v136] : Fin 1 → IVec S16 32) a x).toNat < S25600.size a := fun v136 k0_hw6 => k0_hw6.2.2.2.2.1
theorem k0_idx86_inb : ∀ (v136 : IVec S16 32) (k0_hw6 : k0_chk6 v136), ∀ a x, ((![v136] : Fin 1 → IVec S16 32) a x).toNat < S25600.size a := fun v136 k0_hw6 => k0_hw6.2.2.2.2.2.1
theorem k0_idx87_inb : ∀ (v136 : IVec S16 32) (k0_hw6 : k0_chk6 v136), ∀ a x, ((![v136] : Fin 1 → IVec S16 32) a x).toNat < S25600.size a := fun v136 k0_hw6 => k0_hw6.2.2.2.2.2.2.1
theorem k0_idx88_inb : ∀ (v136 : IVec S16 32) (k0_hw6 : k0_chk6 v136), ∀ a x, ((![v136] : Fin 1 → IVec S16 32) a x).toNat < S25600.size a := fun v136 k0_hw6 => k0_hw6.2.2.2.2.2.2.2.1
theorem k0_idx89_inb : ∀ (v136 : IVec S16 32) (k0_hw6 : k0_chk6 v136), ∀ a x, ((![v136] : Fin 1 → IVec S16 32) a x).toNat < S25600.size a := fun v136 k0_hw6 => k0_hw6.2.2.2.2.2.2.2.2.1
theorem k0_idx90_inb : ∀ (v136 : IVec S16 32) (k0_hw6 : k0_chk6 v136), ∀ a x, ((![v136] : Fin 1 → IVec S16 32) a x).toNat < S25600.size a := fun v136 k0_hw6 => k0_hw6.2.2.2.2.2.2.2.2.2.1
theorem k0_idx91_inb : ∀ (v136 : IVec S16 32) (k0_hw6 : k0_chk6 v136), ∀ a x, ((![v136] : Fin 1 → IVec S16 32) a x).toNat < S25600.size a := fun v136 k0_hw6 => k0_hw6.2.2.2.2.2.2.2.2.2.2.1
theorem k0_idx92_inb : ∀ (v136 : IVec S16 32) (k0_hw6 : k0_chk6 v136), ∀ a x, ((![v136] : Fin 1 → IVec S16 32) a x).toNat < S25600.size a := fun v136 k0_hw6 => k0_hw6.2.2.2.2.2.2.2.2.2.2.2.1
theorem k0_idx93_inb : ∀ (v136 : IVec S16 32) (k0_hw6 : k0_chk6 v136), ∀ a x, ((![v136] : Fin 1 → IVec S16 32) a x).toNat < S25600.size a := fun v136 k0_hw6 => k0_hw6.2.2.2.2.2.2.2.2.2.2.2.2.1
theorem k0_idx94_inb : ∀ (v136 : IVec S16 32) (k0_hw6 : k0_chk6 v136), ∀ a x, ((![v136] : Fin 1 → IVec S16 32) a x).toNat < S25600.size a := fun v136 k0_hw6 => k0_hw6.2.2.2.2.2.2.2.2.2.2.2.2.2.1
theorem k0_idx95_inb : ∀ (v136 : IVec S16 32) (k0_hw6 : k0_chk6 v136), ∀ a x, ((![v136] : Fin 1 → IVec S16 32) a x).toNat < S25600.size a := fun v136 k0_hw6 => k0_hw6.2.2.2.2.2.2.2.2.2.2.2.2.2.2.1
theorem k0_idx96_inb : ∀ (v136 : IVec S16 32) (k0_hw6 : k0_chk6 v136), ∀ a x, ((![v136] : Fin 1 → IVec S16 32) a x).toNat < S25600.size a := fun v136 k0_hw6 => k0_hw6.2.2.2.2.2.2.2.2.2.2.2.2.2.2.2
def k0_off94 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v745 : Index := Scalar.indexCast v46
  let c0_i32_403 : BitVec 32 := 0#32
  let v746 : Index := Scalar.indexCast c0_i32_403
  let c0_i32_35 : BitVec 32 := 0#32
  let c1_i32_36 : BitVec 32 := 1#32
  let arg11 : BitVec 32 := Scf.iv c0_i32_35 c1_i32_36 k0_t2
  let v747 : Index := Scalar.indexCast arg11
  let c0_i32_404 : BitVec 32 := 0#32
  let v748 : Index := Scalar.indexCast c0_i32_404
  let c80 : Index := 80#32
  ![v745.toNat, 0, v747.toNat, 0, 80]
def k0_off95 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v750 : Index := Scalar.indexCast v46
  let c0_i32_405 : BitVec 32 := 0#32
  let v751 : Index := Scalar.indexCast c0_i32_405
  let c0_i32_35 : BitVec 32 := 0#32
  let c1_i32_36 : BitVec 32 := 1#32
  let arg11 : BitVec 32 := Scf.iv c0_i32_35 c1_i32_36 k0_t2
  let v752 : Index := Scalar.indexCast arg11
  let c1_i32_406 : BitVec 32 := 1#32
  let v753 : Index := Scalar.indexCast c1_i32_406
  let c80_407 : Index := 80#32
  ![v750.toNat, 0, v752.toNat, 1, 80]
def k0_off96 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v755 : Index := Scalar.indexCast v46
  let c0_i32_408 : BitVec 32 := 0#32
  let v756 : Index := Scalar.indexCast c0_i32_408
  let c0_i32_35 : BitVec 32 := 0#32
  let c1_i32_36 : BitVec 32 := 1#32
  let arg11 : BitVec 32 := Scf.iv c0_i32_35 c1_i32_36 k0_t2
  let v757 : Index := Scalar.indexCast arg11
  let c2_i32_409 : BitVec 32 := 2#32
  let v758 : Index := Scalar.indexCast c2_i32_409
  let c80_410 : Index := 80#32
  ![v755.toNat, 0, v757.toNat, 2, 80]
def k0_off97 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v760 : Index := Scalar.indexCast v46
  let c0_i32_411 : BitVec 32 := 0#32
  let v761 : Index := Scalar.indexCast c0_i32_411
  let c0_i32_35 : BitVec 32 := 0#32
  let c1_i32_36 : BitVec 32 := 1#32
  let arg11 : BitVec 32 := Scf.iv c0_i32_35 c1_i32_36 k0_t2
  let v762 : Index := Scalar.indexCast arg11
  let c3_i32_412 : BitVec 32 := 3#32
  let v763 : Index := Scalar.indexCast c3_i32_412
  let c80_413 : Index := 80#32
  ![v760.toNat, 0, v762.toNat, 3, 80]
def k0_off98 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v765 : Index := Scalar.indexCast v46
  let c0_i32_414 : BitVec 32 := 0#32
  let v766 : Index := Scalar.indexCast c0_i32_414
  let c0_i32_35 : BitVec 32 := 0#32
  let c1_i32_36 : BitVec 32 := 1#32
  let arg11 : BitVec 32 := Scf.iv c0_i32_35 c1_i32_36 k0_t2
  let v767 : Index := Scalar.indexCast arg11
  let c4_i32_415 : BitVec 32 := 4#32
  let v768 : Index := Scalar.indexCast c4_i32_415
  let c80_416 : Index := 80#32
  ![v765.toNat, 0, v767.toNat, 4, 80]
def k0_off99 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v770 : Index := Scalar.indexCast v46
  let c0_i32_417 : BitVec 32 := 0#32
  let v771 : Index := Scalar.indexCast c0_i32_417
  let c0_i32_35 : BitVec 32 := 0#32
  let c1_i32_36 : BitVec 32 := 1#32
  let arg11 : BitVec 32 := Scf.iv c0_i32_35 c1_i32_36 k0_t2
  let v772 : Index := Scalar.indexCast arg11
  let c5_i32_418 : BitVec 32 := 5#32
  let v773 : Index := Scalar.indexCast c5_i32_418
  let c80_419 : Index := 80#32
  ![v770.toNat, 0, v772.toNat, 5, 80]
def k0_off100 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v775 : Index := Scalar.indexCast v46
  let c0_i32_420 : BitVec 32 := 0#32
  let v776 : Index := Scalar.indexCast c0_i32_420
  let c0_i32_35 : BitVec 32 := 0#32
  let c1_i32_36 : BitVec 32 := 1#32
  let arg11 : BitVec 32 := Scf.iv c0_i32_35 c1_i32_36 k0_t2
  let v777 : Index := Scalar.indexCast arg11
  let c6_i32_421 : BitVec 32 := 6#32
  let v778 : Index := Scalar.indexCast c6_i32_421
  let c80_422 : Index := 80#32
  ![v775.toNat, 0, v777.toNat, 6, 80]
def k0_off101 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v780 : Index := Scalar.indexCast v46
  let c0_i32_423 : BitVec 32 := 0#32
  let v781 : Index := Scalar.indexCast c0_i32_423
  let c0_i32_35 : BitVec 32 := 0#32
  let c1_i32_36 : BitVec 32 := 1#32
  let arg11 : BitVec 32 := Scf.iv c0_i32_35 c1_i32_36 k0_t2
  let v782 : Index := Scalar.indexCast arg11
  let c7_i32_424 : BitVec 32 := 7#32
  let v783 : Index := Scalar.indexCast c7_i32_424
  let c80_425 : Index := 80#32
  ![v780.toNat, 0, v782.toNat, 7, 80]
def k0_off102 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v785 : Index := Scalar.indexCast v46
  let c1_i32_426 : BitVec 32 := 1#32
  let v786 : Index := Scalar.indexCast c1_i32_426
  let c0_i32_35 : BitVec 32 := 0#32
  let c1_i32_36 : BitVec 32 := 1#32
  let arg11 : BitVec 32 := Scf.iv c0_i32_35 c1_i32_36 k0_t2
  let v787 : Index := Scalar.indexCast arg11
  let c0_i32_427 : BitVec 32 := 0#32
  let v788 : Index := Scalar.indexCast c0_i32_427
  let c80_428 : Index := 80#32
  ![v785.toNat, 1, v787.toNat, 0, 80]
def k0_off103 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v790 : Index := Scalar.indexCast v46
  let c1_i32_429 : BitVec 32 := 1#32
  let v791 : Index := Scalar.indexCast c1_i32_429
  let c0_i32_35 : BitVec 32 := 0#32
  let c1_i32_36 : BitVec 32 := 1#32
  let arg11 : BitVec 32 := Scf.iv c0_i32_35 c1_i32_36 k0_t2
  let v792 : Index := Scalar.indexCast arg11
  let c1_i32_430 : BitVec 32 := 1#32
  let v793 : Index := Scalar.indexCast c1_i32_430
  let c80_431 : Index := 80#32
  ![v790.toNat, 1, v792.toNat, 1, 80]
def k0_off104 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v795 : Index := Scalar.indexCast v46
  let c1_i32_432 : BitVec 32 := 1#32
  let v796 : Index := Scalar.indexCast c1_i32_432
  let c0_i32_35 : BitVec 32 := 0#32
  let c1_i32_36 : BitVec 32 := 1#32
  let arg11 : BitVec 32 := Scf.iv c0_i32_35 c1_i32_36 k0_t2
  let v797 : Index := Scalar.indexCast arg11
  let c2_i32_433 : BitVec 32 := 2#32
  let v798 : Index := Scalar.indexCast c2_i32_433
  let c80_434 : Index := 80#32
  ![v795.toNat, 1, v797.toNat, 2, 80]
def k0_off105 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v800 : Index := Scalar.indexCast v46
  let c1_i32_435 : BitVec 32 := 1#32
  let v801 : Index := Scalar.indexCast c1_i32_435
  let c0_i32_35 : BitVec 32 := 0#32
  let c1_i32_36 : BitVec 32 := 1#32
  let arg11 : BitVec 32 := Scf.iv c0_i32_35 c1_i32_36 k0_t2
  let v802 : Index := Scalar.indexCast arg11
  let c3_i32_436 : BitVec 32 := 3#32
  let v803 : Index := Scalar.indexCast c3_i32_436
  let c80_437 : Index := 80#32
  ![v800.toNat, 1, v802.toNat, 3, 80]
def k0_off106 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v805 : Index := Scalar.indexCast v46
  let c1_i32_438 : BitVec 32 := 1#32
  let v806 : Index := Scalar.indexCast c1_i32_438
  let c0_i32_35 : BitVec 32 := 0#32
  let c1_i32_36 : BitVec 32 := 1#32
  let arg11 : BitVec 32 := Scf.iv c0_i32_35 c1_i32_36 k0_t2
  let v807 : Index := Scalar.indexCast arg11
  let c4_i32_439 : BitVec 32 := 4#32
  let v808 : Index := Scalar.indexCast c4_i32_439
  let c80_440 : Index := 80#32
  ![v805.toNat, 1, v807.toNat, 4, 80]
def k0_off107 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v810 : Index := Scalar.indexCast v46
  let c1_i32_441 : BitVec 32 := 1#32
  let v811 : Index := Scalar.indexCast c1_i32_441
  let c0_i32_35 : BitVec 32 := 0#32
  let c1_i32_36 : BitVec 32 := 1#32
  let arg11 : BitVec 32 := Scf.iv c0_i32_35 c1_i32_36 k0_t2
  let v812 : Index := Scalar.indexCast arg11
  let c5_i32_442 : BitVec 32 := 5#32
  let v813 : Index := Scalar.indexCast c5_i32_442
  let c80_443 : Index := 80#32
  ![v810.toNat, 1, v812.toNat, 5, 80]
def k0_off108 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v815 : Index := Scalar.indexCast v46
  let c1_i32_444 : BitVec 32 := 1#32
  let v816 : Index := Scalar.indexCast c1_i32_444
  let c0_i32_35 : BitVec 32 := 0#32
  let c1_i32_36 : BitVec 32 := 1#32
  let arg11 : BitVec 32 := Scf.iv c0_i32_35 c1_i32_36 k0_t2
  let v817 : Index := Scalar.indexCast arg11
  let c6_i32_445 : BitVec 32 := 6#32
  let v818 : Index := Scalar.indexCast c6_i32_445
  let c80_446 : Index := 80#32
  ![v815.toNat, 1, v817.toNat, 6, 80]
def k0_off109 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v820 : Index := Scalar.indexCast v46
  let c1_i32_447 : BitVec 32 := 1#32
  let v821 : Index := Scalar.indexCast c1_i32_447
  let c0_i32_35 : BitVec 32 := 0#32
  let c1_i32_36 : BitVec 32 := 1#32
  let arg11 : BitVec 32 := Scf.iv c0_i32_35 c1_i32_36 k0_t2
  let v822 : Index := Scalar.indexCast arg11
  let c7_i32_448 : BitVec 32 := 7#32
  let v823 : Index := Scalar.indexCast c7_i32_448
  let c80_449 : Index := 80#32
  ![v820.toNat, 1, v822.toNat, 7, 80]

def k0_chk7 (v144 : IVec S16 32) : Prop :=
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a)
instance k0_chk7.dec : ∀ (v144 : IVec S16 32), Decidable (k0_chk7 v144) := fun v144 => decidable_of_iff' _ (Iff.of_eq (k0_chk7.eq_1 v144))
theorem k0_idx97_inb : ∀ (v144 : IVec S16 32) (k0_hw7 : k0_chk7 v144), ∀ a x, ((![v144] : Fin 1 → IVec S16 32) a x).toNat < S25600.size a := fun v144 k0_hw7 => k0_hw7.1
theorem k0_idx98_inb : ∀ (v144 : IVec S16 32) (k0_hw7 : k0_chk7 v144), ∀ a x, ((![v144] : Fin 1 → IVec S16 32) a x).toNat < S25600.size a := fun v144 k0_hw7 => k0_hw7.2.1
theorem k0_idx99_inb : ∀ (v144 : IVec S16 32) (k0_hw7 : k0_chk7 v144), ∀ a x, ((![v144] : Fin 1 → IVec S16 32) a x).toNat < S25600.size a := fun v144 k0_hw7 => k0_hw7.2.2.1
theorem k0_idx100_inb : ∀ (v144 : IVec S16 32) (k0_hw7 : k0_chk7 v144), ∀ a x, ((![v144] : Fin 1 → IVec S16 32) a x).toNat < S25600.size a := fun v144 k0_hw7 => k0_hw7.2.2.2.1
theorem k0_idx101_inb : ∀ (v144 : IVec S16 32) (k0_hw7 : k0_chk7 v144), ∀ a x, ((![v144] : Fin 1 → IVec S16 32) a x).toNat < S25600.size a := fun v144 k0_hw7 => k0_hw7.2.2.2.2.1
theorem k0_idx102_inb : ∀ (v144 : IVec S16 32) (k0_hw7 : k0_chk7 v144), ∀ a x, ((![v144] : Fin 1 → IVec S16 32) a x).toNat < S25600.size a := fun v144 k0_hw7 => k0_hw7.2.2.2.2.2.1
theorem k0_idx103_inb : ∀ (v144 : IVec S16 32) (k0_hw7 : k0_chk7 v144), ∀ a x, ((![v144] : Fin 1 → IVec S16 32) a x).toNat < S25600.size a := fun v144 k0_hw7 => k0_hw7.2.2.2.2.2.2.1
theorem k0_idx104_inb : ∀ (v144 : IVec S16 32) (k0_hw7 : k0_chk7 v144), ∀ a x, ((![v144] : Fin 1 → IVec S16 32) a x).toNat < S25600.size a := fun v144 k0_hw7 => k0_hw7.2.2.2.2.2.2.2.1
theorem k0_idx105_inb : ∀ (v144 : IVec S16 32) (k0_hw7 : k0_chk7 v144), ∀ a x, ((![v144] : Fin 1 → IVec S16 32) a x).toNat < S25600.size a := fun v144 k0_hw7 => k0_hw7.2.2.2.2.2.2.2.2.1
theorem k0_idx106_inb : ∀ (v144 : IVec S16 32) (k0_hw7 : k0_chk7 v144), ∀ a x, ((![v144] : Fin 1 → IVec S16 32) a x).toNat < S25600.size a := fun v144 k0_hw7 => k0_hw7.2.2.2.2.2.2.2.2.2.1
theorem k0_idx107_inb : ∀ (v144 : IVec S16 32) (k0_hw7 : k0_chk7 v144), ∀ a x, ((![v144] : Fin 1 → IVec S16 32) a x).toNat < S25600.size a := fun v144 k0_hw7 => k0_hw7.2.2.2.2.2.2.2.2.2.2.1
theorem k0_idx108_inb : ∀ (v144 : IVec S16 32) (k0_hw7 : k0_chk7 v144), ∀ a x, ((![v144] : Fin 1 → IVec S16 32) a x).toNat < S25600.size a := fun v144 k0_hw7 => k0_hw7.2.2.2.2.2.2.2.2.2.2.2.1
theorem k0_idx109_inb : ∀ (v144 : IVec S16 32) (k0_hw7 : k0_chk7 v144), ∀ a x, ((![v144] : Fin 1 → IVec S16 32) a x).toNat < S25600.size a := fun v144 k0_hw7 => k0_hw7.2.2.2.2.2.2.2.2.2.2.2.2.1
theorem k0_idx110_inb : ∀ (v144 : IVec S16 32) (k0_hw7 : k0_chk7 v144), ∀ a x, ((![v144] : Fin 1 → IVec S16 32) a x).toNat < S25600.size a := fun v144 k0_hw7 => k0_hw7.2.2.2.2.2.2.2.2.2.2.2.2.2.1
theorem k0_idx111_inb : ∀ (v144 : IVec S16 32) (k0_hw7 : k0_chk7 v144), ∀ a x, ((![v144] : Fin 1 → IVec S16 32) a x).toNat < S25600.size a := fun v144 k0_hw7 => k0_hw7.2.2.2.2.2.2.2.2.2.2.2.2.2.2.1
theorem k0_idx112_inb : ∀ (v144 : IVec S16 32) (k0_hw7 : k0_chk7 v144), ∀ a x, ((![v144] : Fin 1 → IVec S16 32) a x).toNat < S25600.size a := fun v144 k0_hw7 => k0_hw7.2.2.2.2.2.2.2.2.2.2.2.2.2.2.2
def k0_off110 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v857 : Index := Scalar.indexCast v46
  let c0_i32_466 : BitVec 32 := 0#32
  let v858 : Index := Scalar.indexCast c0_i32_466
  let c0_i32_35 : BitVec 32 := 0#32
  let c1_i32_36 : BitVec 32 := 1#32
  let arg11 : BitVec 32 := Scf.iv c0_i32_35 c1_i32_36 k0_t2
  let v859 : Index := Scalar.indexCast arg11
  let c0_i32_467 : BitVec 32 := 0#32
  let v860 : Index := Scalar.indexCast c0_i32_467
  let c96 : Index := 96#32
  ![v857.toNat, 0, v859.toNat, 0, 96]
def k0_off111 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v862 : Index := Scalar.indexCast v46
  let c0_i32_468 : BitVec 32 := 0#32
  let v863 : Index := Scalar.indexCast c0_i32_468
  let c0_i32_35 : BitVec 32 := 0#32
  let c1_i32_36 : BitVec 32 := 1#32
  let arg11 : BitVec 32 := Scf.iv c0_i32_35 c1_i32_36 k0_t2
  let v864 : Index := Scalar.indexCast arg11
  let c1_i32_469 : BitVec 32 := 1#32
  let v865 : Index := Scalar.indexCast c1_i32_469
  let c96_470 : Index := 96#32
  ![v862.toNat, 0, v864.toNat, 1, 96]
def k0_off112 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v867 : Index := Scalar.indexCast v46
  let c0_i32_471 : BitVec 32 := 0#32
  let v868 : Index := Scalar.indexCast c0_i32_471
  let c0_i32_35 : BitVec 32 := 0#32
  let c1_i32_36 : BitVec 32 := 1#32
  let arg11 : BitVec 32 := Scf.iv c0_i32_35 c1_i32_36 k0_t2
  let v869 : Index := Scalar.indexCast arg11
  let c2_i32_472 : BitVec 32 := 2#32
  let v870 : Index := Scalar.indexCast c2_i32_472
  let c96_473 : Index := 96#32
  ![v867.toNat, 0, v869.toNat, 2, 96]
def k0_off113 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v872 : Index := Scalar.indexCast v46
  let c0_i32_474 : BitVec 32 := 0#32
  let v873 : Index := Scalar.indexCast c0_i32_474
  let c0_i32_35 : BitVec 32 := 0#32
  let c1_i32_36 : BitVec 32 := 1#32
  let arg11 : BitVec 32 := Scf.iv c0_i32_35 c1_i32_36 k0_t2
  let v874 : Index := Scalar.indexCast arg11
  let c3_i32_475 : BitVec 32 := 3#32
  let v875 : Index := Scalar.indexCast c3_i32_475
  let c96_476 : Index := 96#32
  ![v872.toNat, 0, v874.toNat, 3, 96]
def k0_off114 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v877 : Index := Scalar.indexCast v46
  let c0_i32_477 : BitVec 32 := 0#32
  let v878 : Index := Scalar.indexCast c0_i32_477
  let c0_i32_35 : BitVec 32 := 0#32
  let c1_i32_36 : BitVec 32 := 1#32
  let arg11 : BitVec 32 := Scf.iv c0_i32_35 c1_i32_36 k0_t2
  let v879 : Index := Scalar.indexCast arg11
  let c4_i32_478 : BitVec 32 := 4#32
  let v880 : Index := Scalar.indexCast c4_i32_478
  let c96_479 : Index := 96#32
  ![v877.toNat, 0, v879.toNat, 4, 96]
def k0_off115 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v882 : Index := Scalar.indexCast v46
  let c0_i32_480 : BitVec 32 := 0#32
  let v883 : Index := Scalar.indexCast c0_i32_480
  let c0_i32_35 : BitVec 32 := 0#32
  let c1_i32_36 : BitVec 32 := 1#32
  let arg11 : BitVec 32 := Scf.iv c0_i32_35 c1_i32_36 k0_t2
  let v884 : Index := Scalar.indexCast arg11
  let c5_i32_481 : BitVec 32 := 5#32
  let v885 : Index := Scalar.indexCast c5_i32_481
  let c96_482 : Index := 96#32
  ![v882.toNat, 0, v884.toNat, 5, 96]
def k0_off116 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v887 : Index := Scalar.indexCast v46
  let c0_i32_483 : BitVec 32 := 0#32
  let v888 : Index := Scalar.indexCast c0_i32_483
  let c0_i32_35 : BitVec 32 := 0#32
  let c1_i32_36 : BitVec 32 := 1#32
  let arg11 : BitVec 32 := Scf.iv c0_i32_35 c1_i32_36 k0_t2
  let v889 : Index := Scalar.indexCast arg11
  let c6_i32_484 : BitVec 32 := 6#32
  let v890 : Index := Scalar.indexCast c6_i32_484
  let c96_485 : Index := 96#32
  ![v887.toNat, 0, v889.toNat, 6, 96]
def k0_off117 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v892 : Index := Scalar.indexCast v46
  let c0_i32_486 : BitVec 32 := 0#32
  let v893 : Index := Scalar.indexCast c0_i32_486
  let c0_i32_35 : BitVec 32 := 0#32
  let c1_i32_36 : BitVec 32 := 1#32
  let arg11 : BitVec 32 := Scf.iv c0_i32_35 c1_i32_36 k0_t2
  let v894 : Index := Scalar.indexCast arg11
  let c7_i32_487 : BitVec 32 := 7#32
  let v895 : Index := Scalar.indexCast c7_i32_487
  let c96_488 : Index := 96#32
  ![v892.toNat, 0, v894.toNat, 7, 96]
def k0_off118 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v897 : Index := Scalar.indexCast v46
  let c1_i32_489 : BitVec 32 := 1#32
  let v898 : Index := Scalar.indexCast c1_i32_489
  let c0_i32_35 : BitVec 32 := 0#32
  let c1_i32_36 : BitVec 32 := 1#32
  let arg11 : BitVec 32 := Scf.iv c0_i32_35 c1_i32_36 k0_t2
  let v899 : Index := Scalar.indexCast arg11
  let c0_i32_490 : BitVec 32 := 0#32
  let v900 : Index := Scalar.indexCast c0_i32_490
  let c96_491 : Index := 96#32
  ![v897.toNat, 1, v899.toNat, 0, 96]
def k0_off119 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v902 : Index := Scalar.indexCast v46
  let c1_i32_492 : BitVec 32 := 1#32
  let v903 : Index := Scalar.indexCast c1_i32_492
  let c0_i32_35 : BitVec 32 := 0#32
  let c1_i32_36 : BitVec 32 := 1#32
  let arg11 : BitVec 32 := Scf.iv c0_i32_35 c1_i32_36 k0_t2
  let v904 : Index := Scalar.indexCast arg11
  let c1_i32_493 : BitVec 32 := 1#32
  let v905 : Index := Scalar.indexCast c1_i32_493
  let c96_494 : Index := 96#32
  ![v902.toNat, 1, v904.toNat, 1, 96]
def k0_off120 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v907 : Index := Scalar.indexCast v46
  let c1_i32_495 : BitVec 32 := 1#32
  let v908 : Index := Scalar.indexCast c1_i32_495
  let c0_i32_35 : BitVec 32 := 0#32
  let c1_i32_36 : BitVec 32 := 1#32
  let arg11 : BitVec 32 := Scf.iv c0_i32_35 c1_i32_36 k0_t2
  let v909 : Index := Scalar.indexCast arg11
  let c2_i32_496 : BitVec 32 := 2#32
  let v910 : Index := Scalar.indexCast c2_i32_496
  let c96_497 : Index := 96#32
  ![v907.toNat, 1, v909.toNat, 2, 96]
def k0_off121 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v912 : Index := Scalar.indexCast v46
  let c1_i32_498 : BitVec 32 := 1#32
  let v913 : Index := Scalar.indexCast c1_i32_498
  let c0_i32_35 : BitVec 32 := 0#32
  let c1_i32_36 : BitVec 32 := 1#32
  let arg11 : BitVec 32 := Scf.iv c0_i32_35 c1_i32_36 k0_t2
  let v914 : Index := Scalar.indexCast arg11
  let c3_i32_499 : BitVec 32 := 3#32
  let v915 : Index := Scalar.indexCast c3_i32_499
  let c96_500 : Index := 96#32
  ![v912.toNat, 1, v914.toNat, 3, 96]
def k0_off122 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v917 : Index := Scalar.indexCast v46
  let c1_i32_501 : BitVec 32 := 1#32
  let v918 : Index := Scalar.indexCast c1_i32_501
  let c0_i32_35 : BitVec 32 := 0#32
  let c1_i32_36 : BitVec 32 := 1#32
  let arg11 : BitVec 32 := Scf.iv c0_i32_35 c1_i32_36 k0_t2
  let v919 : Index := Scalar.indexCast arg11
  let c4_i32_502 : BitVec 32 := 4#32
  let v920 : Index := Scalar.indexCast c4_i32_502
  let c96_503 : Index := 96#32
  ![v917.toNat, 1, v919.toNat, 4, 96]
def k0_off123 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v922 : Index := Scalar.indexCast v46
  let c1_i32_504 : BitVec 32 := 1#32
  let v923 : Index := Scalar.indexCast c1_i32_504
  let c0_i32_35 : BitVec 32 := 0#32
  let c1_i32_36 : BitVec 32 := 1#32
  let arg11 : BitVec 32 := Scf.iv c0_i32_35 c1_i32_36 k0_t2
  let v924 : Index := Scalar.indexCast arg11
  let c5_i32_505 : BitVec 32 := 5#32
  let v925 : Index := Scalar.indexCast c5_i32_505
  let c96_506 : Index := 96#32
  ![v922.toNat, 1, v924.toNat, 5, 96]
def k0_off124 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v927 : Index := Scalar.indexCast v46
  let c1_i32_507 : BitVec 32 := 1#32
  let v928 : Index := Scalar.indexCast c1_i32_507
  let c0_i32_35 : BitVec 32 := 0#32
  let c1_i32_36 : BitVec 32 := 1#32
  let arg11 : BitVec 32 := Scf.iv c0_i32_35 c1_i32_36 k0_t2
  let v929 : Index := Scalar.indexCast arg11
  let c6_i32_508 : BitVec 32 := 6#32
  let v930 : Index := Scalar.indexCast c6_i32_508
  let c96_509 : Index := 96#32
  ![v927.toNat, 1, v929.toNat, 6, 96]
def k0_off125 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v932 : Index := Scalar.indexCast v46
  let c1_i32_510 : BitVec 32 := 1#32
  let v933 : Index := Scalar.indexCast c1_i32_510
  let c0_i32_35 : BitVec 32 := 0#32
  let c1_i32_36 : BitVec 32 := 1#32
  let arg11 : BitVec 32 := Scf.iv c0_i32_35 c1_i32_36 k0_t2
  let v934 : Index := Scalar.indexCast arg11
  let c7_i32_511 : BitVec 32 := 7#32
  let v935 : Index := Scalar.indexCast c7_i32_511
  let c96_512 : Index := 96#32
  ![v932.toNat, 1, v934.toNat, 7, 96]

def k0_chk8 (v152 : IVec S16 32) : Prop :=
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a)
instance k0_chk8.dec : ∀ (v152 : IVec S16 32), Decidable (k0_chk8 v152) := fun v152 => decidable_of_iff' _ (Iff.of_eq (k0_chk8.eq_1 v152))
theorem k0_idx113_inb : ∀ (v152 : IVec S16 32) (k0_hw8 : k0_chk8 v152), ∀ a x, ((![v152] : Fin 1 → IVec S16 32) a x).toNat < S25600.size a := fun v152 k0_hw8 => k0_hw8.1
theorem k0_idx114_inb : ∀ (v152 : IVec S16 32) (k0_hw8 : k0_chk8 v152), ∀ a x, ((![v152] : Fin 1 → IVec S16 32) a x).toNat < S25600.size a := fun v152 k0_hw8 => k0_hw8.2.1
theorem k0_idx115_inb : ∀ (v152 : IVec S16 32) (k0_hw8 : k0_chk8 v152), ∀ a x, ((![v152] : Fin 1 → IVec S16 32) a x).toNat < S25600.size a := fun v152 k0_hw8 => k0_hw8.2.2.1
theorem k0_idx116_inb : ∀ (v152 : IVec S16 32) (k0_hw8 : k0_chk8 v152), ∀ a x, ((![v152] : Fin 1 → IVec S16 32) a x).toNat < S25600.size a := fun v152 k0_hw8 => k0_hw8.2.2.2.1
theorem k0_idx117_inb : ∀ (v152 : IVec S16 32) (k0_hw8 : k0_chk8 v152), ∀ a x, ((![v152] : Fin 1 → IVec S16 32) a x).toNat < S25600.size a := fun v152 k0_hw8 => k0_hw8.2.2.2.2.1
theorem k0_idx118_inb : ∀ (v152 : IVec S16 32) (k0_hw8 : k0_chk8 v152), ∀ a x, ((![v152] : Fin 1 → IVec S16 32) a x).toNat < S25600.size a := fun v152 k0_hw8 => k0_hw8.2.2.2.2.2.1
theorem k0_idx119_inb : ∀ (v152 : IVec S16 32) (k0_hw8 : k0_chk8 v152), ∀ a x, ((![v152] : Fin 1 → IVec S16 32) a x).toNat < S25600.size a := fun v152 k0_hw8 => k0_hw8.2.2.2.2.2.2.1
theorem k0_idx120_inb : ∀ (v152 : IVec S16 32) (k0_hw8 : k0_chk8 v152), ∀ a x, ((![v152] : Fin 1 → IVec S16 32) a x).toNat < S25600.size a := fun v152 k0_hw8 => k0_hw8.2.2.2.2.2.2.2.1
theorem k0_idx121_inb : ∀ (v152 : IVec S16 32) (k0_hw8 : k0_chk8 v152), ∀ a x, ((![v152] : Fin 1 → IVec S16 32) a x).toNat < S25600.size a := fun v152 k0_hw8 => k0_hw8.2.2.2.2.2.2.2.2.1
theorem k0_idx122_inb : ∀ (v152 : IVec S16 32) (k0_hw8 : k0_chk8 v152), ∀ a x, ((![v152] : Fin 1 → IVec S16 32) a x).toNat < S25600.size a := fun v152 k0_hw8 => k0_hw8.2.2.2.2.2.2.2.2.2.1
theorem k0_idx123_inb : ∀ (v152 : IVec S16 32) (k0_hw8 : k0_chk8 v152), ∀ a x, ((![v152] : Fin 1 → IVec S16 32) a x).toNat < S25600.size a := fun v152 k0_hw8 => k0_hw8.2.2.2.2.2.2.2.2.2.2.1
theorem k0_idx124_inb : ∀ (v152 : IVec S16 32) (k0_hw8 : k0_chk8 v152), ∀ a x, ((![v152] : Fin 1 → IVec S16 32) a x).toNat < S25600.size a := fun v152 k0_hw8 => k0_hw8.2.2.2.2.2.2.2.2.2.2.2.1
theorem k0_idx125_inb : ∀ (v152 : IVec S16 32) (k0_hw8 : k0_chk8 v152), ∀ a x, ((![v152] : Fin 1 → IVec S16 32) a x).toNat < S25600.size a := fun v152 k0_hw8 => k0_hw8.2.2.2.2.2.2.2.2.2.2.2.2.1
theorem k0_idx126_inb : ∀ (v152 : IVec S16 32) (k0_hw8 : k0_chk8 v152), ∀ a x, ((![v152] : Fin 1 → IVec S16 32) a x).toNat < S25600.size a := fun v152 k0_hw8 => k0_hw8.2.2.2.2.2.2.2.2.2.2.2.2.2.1
theorem k0_idx127_inb : ∀ (v152 : IVec S16 32) (k0_hw8 : k0_chk8 v152), ∀ a x, ((![v152] : Fin 1 → IVec S16 32) a x).toNat < S25600.size a := fun v152 k0_hw8 => k0_hw8.2.2.2.2.2.2.2.2.2.2.2.2.2.2.1
theorem k0_idx128_inb : ∀ (v152 : IVec S16 32) (k0_hw8 : k0_chk8 v152), ∀ a x, ((![v152] : Fin 1 → IVec S16 32) a x).toNat < S25600.size a := fun v152 k0_hw8 => k0_hw8.2.2.2.2.2.2.2.2.2.2.2.2.2.2.2
def k0_off126 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v969 : Index := Scalar.indexCast v46
  let c0_i32_529 : BitVec 32 := 0#32
  let v970 : Index := Scalar.indexCast c0_i32_529
  let c0_i32_35 : BitVec 32 := 0#32
  let c1_i32_36 : BitVec 32 := 1#32
  let arg11 : BitVec 32 := Scf.iv c0_i32_35 c1_i32_36 k0_t2
  let v971 : Index := Scalar.indexCast arg11
  let c0_i32_530 : BitVec 32 := 0#32
  let v972 : Index := Scalar.indexCast c0_i32_530
  let c112 : Index := 112#32
  ![v969.toNat, 0, v971.toNat, 0, 112]
def k0_off127 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v974 : Index := Scalar.indexCast v46
  let c0_i32_531 : BitVec 32 := 0#32
  let v975 : Index := Scalar.indexCast c0_i32_531
  let c0_i32_35 : BitVec 32 := 0#32
  let c1_i32_36 : BitVec 32 := 1#32
  let arg11 : BitVec 32 := Scf.iv c0_i32_35 c1_i32_36 k0_t2
  let v976 : Index := Scalar.indexCast arg11
  let c1_i32_532 : BitVec 32 := 1#32
  let v977 : Index := Scalar.indexCast c1_i32_532
  let c112_533 : Index := 112#32
  ![v974.toNat, 0, v976.toNat, 1, 112]
def k0_off128 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v979 : Index := Scalar.indexCast v46
  let c0_i32_534 : BitVec 32 := 0#32
  let v980 : Index := Scalar.indexCast c0_i32_534
  let c0_i32_35 : BitVec 32 := 0#32
  let c1_i32_36 : BitVec 32 := 1#32
  let arg11 : BitVec 32 := Scf.iv c0_i32_35 c1_i32_36 k0_t2
  let v981 : Index := Scalar.indexCast arg11
  let c2_i32_535 : BitVec 32 := 2#32
  let v982 : Index := Scalar.indexCast c2_i32_535
  let c112_536 : Index := 112#32
  ![v979.toNat, 0, v981.toNat, 2, 112]
def k0_off129 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v984 : Index := Scalar.indexCast v46
  let c0_i32_537 : BitVec 32 := 0#32
  let v985 : Index := Scalar.indexCast c0_i32_537
  let c0_i32_35 : BitVec 32 := 0#32
  let c1_i32_36 : BitVec 32 := 1#32
  let arg11 : BitVec 32 := Scf.iv c0_i32_35 c1_i32_36 k0_t2
  let v986 : Index := Scalar.indexCast arg11
  let c3_i32_538 : BitVec 32 := 3#32
  let v987 : Index := Scalar.indexCast c3_i32_538
  let c112_539 : Index := 112#32
  ![v984.toNat, 0, v986.toNat, 3, 112]
def k0_off130 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v989 : Index := Scalar.indexCast v46
  let c0_i32_540 : BitVec 32 := 0#32
  let v990 : Index := Scalar.indexCast c0_i32_540
  let c0_i32_35 : BitVec 32 := 0#32
  let c1_i32_36 : BitVec 32 := 1#32
  let arg11 : BitVec 32 := Scf.iv c0_i32_35 c1_i32_36 k0_t2
  let v991 : Index := Scalar.indexCast arg11
  let c4_i32_541 : BitVec 32 := 4#32
  let v992 : Index := Scalar.indexCast c4_i32_541
  let c112_542 : Index := 112#32
  ![v989.toNat, 0, v991.toNat, 4, 112]
def k0_off131 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v994 : Index := Scalar.indexCast v46
  let c0_i32_543 : BitVec 32 := 0#32
  let v995 : Index := Scalar.indexCast c0_i32_543
  let c0_i32_35 : BitVec 32 := 0#32
  let c1_i32_36 : BitVec 32 := 1#32
  let arg11 : BitVec 32 := Scf.iv c0_i32_35 c1_i32_36 k0_t2
  let v996 : Index := Scalar.indexCast arg11
  let c5_i32_544 : BitVec 32 := 5#32
  let v997 : Index := Scalar.indexCast c5_i32_544
  let c112_545 : Index := 112#32
  ![v994.toNat, 0, v996.toNat, 5, 112]
def k0_off132 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v999 : Index := Scalar.indexCast v46
  let c0_i32_546 : BitVec 32 := 0#32
  let v1000 : Index := Scalar.indexCast c0_i32_546
  let c0_i32_35 : BitVec 32 := 0#32
  let c1_i32_36 : BitVec 32 := 1#32
  let arg11 : BitVec 32 := Scf.iv c0_i32_35 c1_i32_36 k0_t2
  let v1001 : Index := Scalar.indexCast arg11
  let c6_i32_547 : BitVec 32 := 6#32
  let v1002 : Index := Scalar.indexCast c6_i32_547
  let c112_548 : Index := 112#32
  ![v999.toNat, 0, v1001.toNat, 6, 112]
def k0_off133 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1004 : Index := Scalar.indexCast v46
  let c0_i32_549 : BitVec 32 := 0#32
  let v1005 : Index := Scalar.indexCast c0_i32_549
  let c0_i32_35 : BitVec 32 := 0#32
  let c1_i32_36 : BitVec 32 := 1#32
  let arg11 : BitVec 32 := Scf.iv c0_i32_35 c1_i32_36 k0_t2
  let v1006 : Index := Scalar.indexCast arg11
  let c7_i32_550 : BitVec 32 := 7#32
  let v1007 : Index := Scalar.indexCast c7_i32_550
  let c112_551 : Index := 112#32
  ![v1004.toNat, 0, v1006.toNat, 7, 112]
def k0_off134 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1009 : Index := Scalar.indexCast v46
  let c1_i32_552 : BitVec 32 := 1#32
  let v1010 : Index := Scalar.indexCast c1_i32_552
  let c0_i32_35 : BitVec 32 := 0#32
  let c1_i32_36 : BitVec 32 := 1#32
  let arg11 : BitVec 32 := Scf.iv c0_i32_35 c1_i32_36 k0_t2
  let v1011 : Index := Scalar.indexCast arg11
  let c0_i32_553 : BitVec 32 := 0#32
  let v1012 : Index := Scalar.indexCast c0_i32_553
  let c112_554 : Index := 112#32
  ![v1009.toNat, 1, v1011.toNat, 0, 112]
def k0_off135 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1014 : Index := Scalar.indexCast v46
  let c1_i32_555 : BitVec 32 := 1#32
  let v1015 : Index := Scalar.indexCast c1_i32_555
  let c0_i32_35 : BitVec 32 := 0#32
  let c1_i32_36 : BitVec 32 := 1#32
  let arg11 : BitVec 32 := Scf.iv c0_i32_35 c1_i32_36 k0_t2
  let v1016 : Index := Scalar.indexCast arg11
  let c1_i32_556 : BitVec 32 := 1#32
  let v1017 : Index := Scalar.indexCast c1_i32_556
  let c112_557 : Index := 112#32
  ![v1014.toNat, 1, v1016.toNat, 1, 112]
def k0_off136 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1019 : Index := Scalar.indexCast v46
  let c1_i32_558 : BitVec 32 := 1#32
  let v1020 : Index := Scalar.indexCast c1_i32_558
  let c0_i32_35 : BitVec 32 := 0#32
  let c1_i32_36 : BitVec 32 := 1#32
  let arg11 : BitVec 32 := Scf.iv c0_i32_35 c1_i32_36 k0_t2
  let v1021 : Index := Scalar.indexCast arg11
  let c2_i32_559 : BitVec 32 := 2#32
  let v1022 : Index := Scalar.indexCast c2_i32_559
  let c112_560 : Index := 112#32
  ![v1019.toNat, 1, v1021.toNat, 2, 112]
def k0_off137 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1024 : Index := Scalar.indexCast v46
  let c1_i32_561 : BitVec 32 := 1#32
  let v1025 : Index := Scalar.indexCast c1_i32_561
  let c0_i32_35 : BitVec 32 := 0#32
  let c1_i32_36 : BitVec 32 := 1#32
  let arg11 : BitVec 32 := Scf.iv c0_i32_35 c1_i32_36 k0_t2
  let v1026 : Index := Scalar.indexCast arg11
  let c3_i32_562 : BitVec 32 := 3#32
  let v1027 : Index := Scalar.indexCast c3_i32_562
  let c112_563 : Index := 112#32
  ![v1024.toNat, 1, v1026.toNat, 3, 112]
def k0_off138 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1029 : Index := Scalar.indexCast v46
  let c1_i32_564 : BitVec 32 := 1#32
  let v1030 : Index := Scalar.indexCast c1_i32_564
  let c0_i32_35 : BitVec 32 := 0#32
  let c1_i32_36 : BitVec 32 := 1#32
  let arg11 : BitVec 32 := Scf.iv c0_i32_35 c1_i32_36 k0_t2
  let v1031 : Index := Scalar.indexCast arg11
  let c4_i32_565 : BitVec 32 := 4#32
  let v1032 : Index := Scalar.indexCast c4_i32_565
  let c112_566 : Index := 112#32
  ![v1029.toNat, 1, v1031.toNat, 4, 112]
def k0_off139 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1034 : Index := Scalar.indexCast v46
  let c1_i32_567 : BitVec 32 := 1#32
  let v1035 : Index := Scalar.indexCast c1_i32_567
  let c0_i32_35 : BitVec 32 := 0#32
  let c1_i32_36 : BitVec 32 := 1#32
  let arg11 : BitVec 32 := Scf.iv c0_i32_35 c1_i32_36 k0_t2
  let v1036 : Index := Scalar.indexCast arg11
  let c5_i32_568 : BitVec 32 := 5#32
  let v1037 : Index := Scalar.indexCast c5_i32_568
  let c112_569 : Index := 112#32
  ![v1034.toNat, 1, v1036.toNat, 5, 112]
def k0_off140 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1039 : Index := Scalar.indexCast v46
  let c1_i32_570 : BitVec 32 := 1#32
  let v1040 : Index := Scalar.indexCast c1_i32_570
  let c0_i32_35 : BitVec 32 := 0#32
  let c1_i32_36 : BitVec 32 := 1#32
  let arg11 : BitVec 32 := Scf.iv c0_i32_35 c1_i32_36 k0_t2
  let v1041 : Index := Scalar.indexCast arg11
  let c6_i32_571 : BitVec 32 := 6#32
  let v1042 : Index := Scalar.indexCast c6_i32_571
  let c112_572 : Index := 112#32
  ![v1039.toNat, 1, v1041.toNat, 6, 112]
def k0_off141 (i : grid0.Coords) (k0_t1 : Fin (k0_t1_loop i).trips) (k0_t2 : Fin k0_t2_loop.trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let v1044 : Index := Scalar.indexCast v46
  let c1_i32_573 : BitVec 32 := 1#32
  let v1045 : Index := Scalar.indexCast c1_i32_573
  let c0_i32_35 : BitVec 32 := 0#32
  let c1_i32_36 : BitVec 32 := 1#32
  let arg11 : BitVec 32 := Scf.iv c0_i32_35 c1_i32_36 k0_t2
  let v1046 : Index := Scalar.indexCast arg11
  let c7_i32_574 : BitVec 32 := 7#32
  let v1047 : Index := Scalar.indexCast c7_i32_574
  let c112_575 : Index := 112#32
  ![v1044.toNat, 1, v1046.toNat, 7, 112]
def k0_off142 (i : grid0.Coords) (k0_t1 : Fin (k0_t1_loop i).trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let c0_i32_39 : BitVec 32 := 0#32
  let c0_i32_41 : BitVec 32 := 0#32
  let c0_i32_42 : BitVec 32 := 0#32
  let c0_i32_43 : BitVec 32 := 0#32
  ![v46.toNat, 0, 0, 0, 0]
def k0_off143 (i : grid0.Coords) (k0_t1 : Fin (k0_t1_loop i).trips) : Fin 4 → Nat :=
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c1_i32_12 : BitVec 32 := 1#32
  let arg10 : BitVec 32 := Scf.iv c0_i32_10 c1_i32_12 k0_t1
  let v61 : BitVec 32 := Scalar.addi v4 arg10
  let c5_i32_38 : BitVec 32 := 5#32
  let v62 : BitVec 32 := Scalar.muli v61 c5_i32_38
  let c0_i32_44 : BitVec 32 := 0#32
  let c0_i32_45 : BitVec 32 := 0#32
  ![0, v62.toNat, 0, 0]
def k0_off144 (i : grid0.Coords) (k0_t1 : Fin (k0_t1_loop i).trips) : Fin 5 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let c1_i32_52 : BitVec 32 := 1#32
  let c0_i32_54 : BitVec 32 := 0#32
  let c0_i32_55 : BitVec 32 := 0#32
  let c0_i32_56 : BitVec 32 := 0#32
  ![v46.toNat, 1, 0, 0, 0]
def k0_off145 (i : grid0.Coords) (k0_t1 : Fin (k0_t1_loop i).trips) : Fin 4 → Nat :=
  let c1_i32_53 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c1_i32_12 : BitVec 32 := 1#32
  let arg10 : BitVec 32 := Scf.iv c0_i32_10 c1_i32_12 k0_t1
  let v73 : BitVec 32 := Scalar.addi v4 arg10
  let c5_i32_51 : BitVec 32 := 5#32
  let v74 : BitVec 32 := Scalar.muli v73 c5_i32_51
  let c0_i32_57 : BitVec 32 := 0#32
  let c0_i32_58 : BitVec 32 := 0#32
  ![1, v74.toNat, 0, 0]
def k0_cond6 (i : grid0.Coords) (k0_t1 : Fin (k0_t1_loop i).trips) : BitVec 1 :=
  let c0_i32_10 : BitVec 32 := 0#32
  let c1_i32_12 : BitVec 32 := 1#32
  let arg10 : BitVec 32 := Scf.iv c0_i32_10 c1_i32_12 k0_t1
  let c4_i32_64 : BitVec 32 := 4#32
  let v85 : BitVec 32 := Scalar.addi arg10 c4_i32_64
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v86 : BitVec 1 := Scalar.cmpi .slt v85 v7
  let v87 : BitVec 32 := Scalar.extui v86
  let c0_i32_65 : BitVec 32 := 0#32
  let v88 : BitVec 1 := Scalar.cmpi .ne v87 c0_i32_65
  v88

def k0_off146 (i : grid0.Coords) (k0_t1 : Fin (k0_t1_loop i).trips) : Fin 2 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  let c0_i32_68 : BitVec 32 := 0#32
  ![v46.toNat, 0]
def k0_off147 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c1_i32_12 : BitVec 32 := 1#32
  let arg10 : BitVec 32 := Scf.iv c0_i32_10 c1_i32_12 k0_t1
  let c4_i32_66 : BitVec 32 := 4#32
  let v89 : BitVec 32 := Scalar.addi arg10 c4_i32_66
  let v90 : BitVec 32 := Scalar.addi v4 v89
  let c640_i32_67 : BitVec 32 := 640#32
  let v91 : BitVec 32 := Scalar.muli v90 c640_i32_67
  ![v91.toNat]
def k0_off148 (i : grid0.Coords) (k0_t1 : Fin (k0_t1_loop i).trips) : Fin 1 → Nat :=
  let c0_i32_10 : BitVec 32 := 0#32
  let c1_i32_12 : BitVec 32 := 1#32
  let arg10 : BitVec 32 := Scf.iv c0_i32_10 c1_i32_12 k0_t1
  let c4_i32_29 : BitVec 32 := 4#32
  let v46 : BitVec 32 := Scalar.remsi arg10 c4_i32_29
  ![v46.toNat]
@[reducible] def k0_t3_loop (i : grid0.Coords) : Scf.Loop 32 :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let v22 : BitVec 32 := Scalar.addi c0_i32_10 v21
  let c1_i32_13 : BitVec 32 := 1#32
  ⟨v25, v22, c1_i32_13⟩
def k0_off149 (i : grid0.Coords) (k0_t3 : Fin (k0_t3_loop i).trips) : Fin 2 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let c0_i32_30 : BitVec 32 := 0#32
  ![v46.toNat, 0]
def k0_off150 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let v47 : BitVec 32 := Scalar.addi v4 arg10
  let c640_i32 : BitVec 32 := 640#32
  let v48 : BitVec 32 := Scalar.muli v47 c640_i32
  ![v48.toNat]
def k0_off151 (i : grid0.Coords) (k0_t3 : Fin (k0_t3_loop i).trips) : Fin 1 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  ![v46.toNat]
def k0_cond7 (i : grid0.Coords) (k0_t3 : Fin (k0_t3_loop i).trips) : BitVec 1 :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_32 : BitVec 32 := 4#32
  let v57 : BitVec 1 := Scalar.cmpi .sge arg10 c4_i32_32
  let v58 : BitVec 32 := Scalar.extui v57
  let c0_i32_33 : BitVec 32 := 0#32
  let v59 : BitVec 1 := Scalar.cmpi .ne v58 c0_i32_33
  v59

def k0_off152 (i : grid0.Coords) (k0_t3 : Fin (k0_t3_loop i).trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let c0_i32_68 : BitVec 32 := 0#32
  let c0_i32_70 : BitVec 32 := 0#32
  let c0_i32_71 : BitVec 32 := 0#32
  let c0_i32_72 : BitVec 32 := 0#32
  ![v46.toNat, 0, 0, 0, 0]
def k0_off153 (i : grid0.Coords) (k0_t3 : Fin (k0_t3_loop i).trips) : Fin 4 → Nat :=
  let c0_i32_69 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_66 : BitVec 32 := 4#32
  let v89 : BitVec 32 := Scalar.subi arg10 c4_i32_66
  let v90 : BitVec 32 := Scalar.addi v4 v89
  let c5_i32_67 : BitVec 32 := 5#32
  let v91 : BitVec 32 := Scalar.muli v90 c5_i32_67
  let c0_i32_73 : BitVec 32 := 0#32
  let c0_i32_74 : BitVec 32 := 0#32
  ![0, v91.toNat, 0, 0]
def k0_off154 (i : grid0.Coords) (k0_t3 : Fin (k0_t3_loop i).trips) : Fin 1 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  ![v46.toNat]
def k0_off155 (i : grid0.Coords) (k0_t3 : Fin (k0_t3_loop i).trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let c1_i32_82 : BitVec 32 := 1#32
  let c0_i32_84 : BitVec 32 := 0#32
  let c0_i32_85 : BitVec 32 := 0#32
  let c0_i32_86 : BitVec 32 := 0#32
  ![v46.toNat, 1, 0, 0, 0]
def k0_off156 (i : grid0.Coords) (k0_t3 : Fin (k0_t3_loop i).trips) : Fin 4 → Nat :=
  let c1_i32_83 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_80 : BitVec 32 := 4#32
  let v102 : BitVec 32 := Scalar.subi arg10 c4_i32_80
  let v103 : BitVec 32 := Scalar.addi v4 v102
  let c5_i32_81 : BitVec 32 := 5#32
  let v104 : BitVec 32 := Scalar.muli v103 c5_i32_81
  let c0_i32_87 : BitVec 32 := 0#32
  let c0_i32_88 : BitVec 32 := 0#32
  ![1, v104.toNat, 0, 0]
@[reducible] def k0_t4_loop : Scf.Loop 32 :=
  let c0_i32_35 : BitVec 32 := 0#32
  let c5_i32 : BitVec 32 := 5#32
  let v60 : BitVec 32 := Scalar.addi c0_i32_35 c5_i32
  let c1_i32_36 : BitVec 32 := 1#32
  ⟨c0_i32_35, v60, c1_i32_36⟩
def k0_off157 (i : grid0.Coords) (k0_t3 : Fin (k0_t3_loop i).trips) (k0_t4 : Fin k0_t4_loop.trips) (c0_i32_66 : BitVec 32) : Fin 2 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v91 : Index := Scalar.indexCast v46
  let c0_i32_35 : BitVec 32 := 0#32
  let c1_i32_36 : BitVec 32 := 1#32
  let arg11 : BitVec 32 := Scf.iv c0_i32_35 c1_i32_36 k0_t4
  let c128_i32 : BitVec 32 := 128#32
  let v89 : BitVec 32 := Scalar.muli arg11 c128_i32
  let v90 : BitVec 32 := Scalar.addi v89 c0_i32_66
  let v92 : Index := Scalar.indexCast v90
  ![v91.toNat, v92.toNat]

def k0_chk9 (v96 : IVec S16 32) : Prop :=
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a) ∧
  (∀ a x, ((![v96] : Fin 1 → IVec S16 32) a x).toNat < S25600.size a)
instance k0_chk9.dec : ∀ (v96 : IVec S16 32), Decidable (k0_chk9 v96) := fun v96 => decidable_of_iff' _ (Iff.of_eq (k0_chk9.eq_1 v96))
theorem k0_idx129_inb : ∀ (v96 : IVec S16 32) (k0_hw9 : k0_chk9 v96), ∀ a x, ((![v96] : Fin 1 → IVec S16 32) a x).toNat < S25600.size a := fun v96 k0_hw9 => k0_hw9.1
theorem k0_idx130_inb : ∀ (v96 : IVec S16 32) (k0_hw9 : k0_chk9 v96), ∀ a x, ((![v96] : Fin 1 → IVec S16 32) a x).toNat < S25600.size a := fun v96 k0_hw9 => k0_hw9.2.1
theorem k0_idx131_inb : ∀ (v96 : IVec S16 32) (k0_hw9 : k0_chk9 v96), ∀ a x, ((![v96] : Fin 1 → IVec S16 32) a x).toNat < S25600.size a := fun v96 k0_hw9 => k0_hw9.2.2.1
theorem k0_idx132_inb : ∀ (v96 : IVec S16 32) (k0_hw9 : k0_chk9 v96), ∀ a x, ((![v96] : Fin 1 → IVec S16 32) a x).toNat < S25600.size a := fun v96 k0_hw9 => k0_hw9.2.2.2.1
theorem k0_idx133_inb : ∀ (v96 : IVec S16 32) (k0_hw9 : k0_chk9 v96), ∀ a x, ((![v96] : Fin 1 → IVec S16 32) a x).toNat < S25600.size a := fun v96 k0_hw9 => k0_hw9.2.2.2.2.1
theorem k0_idx134_inb : ∀ (v96 : IVec S16 32) (k0_hw9 : k0_chk9 v96), ∀ a x, ((![v96] : Fin 1 → IVec S16 32) a x).toNat < S25600.size a := fun v96 k0_hw9 => k0_hw9.2.2.2.2.2.1
theorem k0_idx135_inb : ∀ (v96 : IVec S16 32) (k0_hw9 : k0_chk9 v96), ∀ a x, ((![v96] : Fin 1 → IVec S16 32) a x).toNat < S25600.size a := fun v96 k0_hw9 => k0_hw9.2.2.2.2.2.2.1
theorem k0_idx136_inb : ∀ (v96 : IVec S16 32) (k0_hw9 : k0_chk9 v96), ∀ a x, ((![v96] : Fin 1 → IVec S16 32) a x).toNat < S25600.size a := fun v96 k0_hw9 => k0_hw9.2.2.2.2.2.2.2.1
theorem k0_idx137_inb : ∀ (v96 : IVec S16 32) (k0_hw9 : k0_chk9 v96), ∀ a x, ((![v96] : Fin 1 → IVec S16 32) a x).toNat < S25600.size a := fun v96 k0_hw9 => k0_hw9.2.2.2.2.2.2.2.2.1
theorem k0_idx138_inb : ∀ (v96 : IVec S16 32) (k0_hw9 : k0_chk9 v96), ∀ a x, ((![v96] : Fin 1 → IVec S16 32) a x).toNat < S25600.size a := fun v96 k0_hw9 => k0_hw9.2.2.2.2.2.2.2.2.2.1
theorem k0_idx139_inb : ∀ (v96 : IVec S16 32) (k0_hw9 : k0_chk9 v96), ∀ a x, ((![v96] : Fin 1 → IVec S16 32) a x).toNat < S25600.size a := fun v96 k0_hw9 => k0_hw9.2.2.2.2.2.2.2.2.2.2.1
theorem k0_idx140_inb : ∀ (v96 : IVec S16 32) (k0_hw9 : k0_chk9 v96), ∀ a x, ((![v96] : Fin 1 → IVec S16 32) a x).toNat < S25600.size a := fun v96 k0_hw9 => k0_hw9.2.2.2.2.2.2.2.2.2.2.2.1
theorem k0_idx141_inb : ∀ (v96 : IVec S16 32) (k0_hw9 : k0_chk9 v96), ∀ a x, ((![v96] : Fin 1 → IVec S16 32) a x).toNat < S25600.size a := fun v96 k0_hw9 => k0_hw9.2.2.2.2.2.2.2.2.2.2.2.2.1
theorem k0_idx142_inb : ∀ (v96 : IVec S16 32) (k0_hw9 : k0_chk9 v96), ∀ a x, ((![v96] : Fin 1 → IVec S16 32) a x).toNat < S25600.size a := fun v96 k0_hw9 => k0_hw9.2.2.2.2.2.2.2.2.2.2.2.2.2.1
theorem k0_idx143_inb : ∀ (v96 : IVec S16 32) (k0_hw9 : k0_chk9 v96), ∀ a x, ((![v96] : Fin 1 → IVec S16 32) a x).toNat < S25600.size a := fun v96 k0_hw9 => k0_hw9.2.2.2.2.2.2.2.2.2.2.2.2.2.2.1
theorem k0_idx144_inb : ∀ (v96 : IVec S16 32) (k0_hw9 : k0_chk9 v96), ∀ a x, ((![v96] : Fin 1 → IVec S16 32) a x).toNat < S25600.size a := fun v96 k0_hw9 => k0_hw9.2.2.2.2.2.2.2.2.2.2.2.2.2.2.2
def k0_off158 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v185 : Index := Scalar.indexCast v46
  let c0_i32_90 : BitVec 32 := 0#32
  let v186 : Index := Scalar.indexCast c0_i32_90
  let c0_i32_35 : BitVec 32 := 0#32
  let c1_i32_36 : BitVec 32 := 1#32
  let arg11 : BitVec 32 := Scf.iv c0_i32_35 c1_i32_36 k0_t4
  let v187 : Index := Scalar.indexCast arg11
  let c0_i32_91 : BitVec 32 := 0#32
  let v188 : Index := Scalar.indexCast c0_i32_91
  let c0 : Index := 0#32
  ![v185.toNat, 0, v187.toNat, 0, 0]
def k0_off159 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v190 : Index := Scalar.indexCast v46
  let c0_i32_92 : BitVec 32 := 0#32
  let v191 : Index := Scalar.indexCast c0_i32_92
  let c0_i32_35 : BitVec 32 := 0#32
  let c1_i32_36 : BitVec 32 := 1#32
  let arg11 : BitVec 32 := Scf.iv c0_i32_35 c1_i32_36 k0_t4
  let v192 : Index := Scalar.indexCast arg11
  let c1_i32_93 : BitVec 32 := 1#32
  let v193 : Index := Scalar.indexCast c1_i32_93
  let c0_94 : Index := 0#32
  ![v190.toNat, 0, v192.toNat, 1, 0]
def k0_off160 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v195 : Index := Scalar.indexCast v46
  let c0_i32_95 : BitVec 32 := 0#32
  let v196 : Index := Scalar.indexCast c0_i32_95
  let c0_i32_35 : BitVec 32 := 0#32
  let c1_i32_36 : BitVec 32 := 1#32
  let arg11 : BitVec 32 := Scf.iv c0_i32_35 c1_i32_36 k0_t4
  let v197 : Index := Scalar.indexCast arg11
  let c2_i32_96 : BitVec 32 := 2#32
  let v198 : Index := Scalar.indexCast c2_i32_96
  let c0_97 : Index := 0#32
  ![v195.toNat, 0, v197.toNat, 2, 0]
def k0_off161 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v200 : Index := Scalar.indexCast v46
  let c0_i32_98 : BitVec 32 := 0#32
  let v201 : Index := Scalar.indexCast c0_i32_98
  let c0_i32_35 : BitVec 32 := 0#32
  let c1_i32_36 : BitVec 32 := 1#32
  let arg11 : BitVec 32 := Scf.iv c0_i32_35 c1_i32_36 k0_t4
  let v202 : Index := Scalar.indexCast arg11
  let c3_i32_99 : BitVec 32 := 3#32
  let v203 : Index := Scalar.indexCast c3_i32_99
  let c0_100 : Index := 0#32
  ![v200.toNat, 0, v202.toNat, 3, 0]
def k0_off162 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v205 : Index := Scalar.indexCast v46
  let c0_i32_101 : BitVec 32 := 0#32
  let v206 : Index := Scalar.indexCast c0_i32_101
  let c0_i32_35 : BitVec 32 := 0#32
  let c1_i32_36 : BitVec 32 := 1#32
  let arg11 : BitVec 32 := Scf.iv c0_i32_35 c1_i32_36 k0_t4
  let v207 : Index := Scalar.indexCast arg11
  let c4_i32_102 : BitVec 32 := 4#32
  let v208 : Index := Scalar.indexCast c4_i32_102
  let c0_103 : Index := 0#32
  ![v205.toNat, 0, v207.toNat, 4, 0]
def k0_off163 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v210 : Index := Scalar.indexCast v46
  let c0_i32_104 : BitVec 32 := 0#32
  let v211 : Index := Scalar.indexCast c0_i32_104
  let c0_i32_35 : BitVec 32 := 0#32
  let c1_i32_36 : BitVec 32 := 1#32
  let arg11 : BitVec 32 := Scf.iv c0_i32_35 c1_i32_36 k0_t4
  let v212 : Index := Scalar.indexCast arg11
  let c5_i32_105 : BitVec 32 := 5#32
  let v213 : Index := Scalar.indexCast c5_i32_105
  let c0_106 : Index := 0#32
  ![v210.toNat, 0, v212.toNat, 5, 0]
def k0_off164 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v215 : Index := Scalar.indexCast v46
  let c0_i32_107 : BitVec 32 := 0#32
  let v216 : Index := Scalar.indexCast c0_i32_107
  let c0_i32_35 : BitVec 32 := 0#32
  let c1_i32_36 : BitVec 32 := 1#32
  let arg11 : BitVec 32 := Scf.iv c0_i32_35 c1_i32_36 k0_t4
  let v217 : Index := Scalar.indexCast arg11
  let c6_i32 : BitVec 32 := 6#32
  let v218 : Index := Scalar.indexCast c6_i32
  let c0_108 : Index := 0#32
  ![v215.toNat, 0, v217.toNat, 6, 0]
def k0_off165 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v220 : Index := Scalar.indexCast v46
  let c0_i32_109 : BitVec 32 := 0#32
  let v221 : Index := Scalar.indexCast c0_i32_109
  let c0_i32_35 : BitVec 32 := 0#32
  let c1_i32_36 : BitVec 32 := 1#32
  let arg11 : BitVec 32 := Scf.iv c0_i32_35 c1_i32_36 k0_t4
  let v222 : Index := Scalar.indexCast arg11
  let c7_i32 : BitVec 32 := 7#32
  let v223 : Index := Scalar.indexCast c7_i32
  let c0_110 : Index := 0#32
  ![v220.toNat, 0, v222.toNat, 7, 0]
def k0_off166 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v225 : Index := Scalar.indexCast v46
  let c1_i32_111 : BitVec 32 := 1#32
  let v226 : Index := Scalar.indexCast c1_i32_111
  let c0_i32_35 : BitVec 32 := 0#32
  let c1_i32_36 : BitVec 32 := 1#32
  let arg11 : BitVec 32 := Scf.iv c0_i32_35 c1_i32_36 k0_t4
  let v227 : Index := Scalar.indexCast arg11
  let c0_i32_112 : BitVec 32 := 0#32
  let v228 : Index := Scalar.indexCast c0_i32_112
  let c0_113 : Index := 0#32
  ![v225.toNat, 1, v227.toNat, 0, 0]
def k0_off167 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v230 : Index := Scalar.indexCast v46
  let c1_i32_114 : BitVec 32 := 1#32
  let v231 : Index := Scalar.indexCast c1_i32_114
  let c0_i32_35 : BitVec 32 := 0#32
  let c1_i32_36 : BitVec 32 := 1#32
  let arg11 : BitVec 32 := Scf.iv c0_i32_35 c1_i32_36 k0_t4
  let v232 : Index := Scalar.indexCast arg11
  let c1_i32_115 : BitVec 32 := 1#32
  let v233 : Index := Scalar.indexCast c1_i32_115
  let c0_116 : Index := 0#32
  ![v230.toNat, 1, v232.toNat, 1, 0]
def k0_off168 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v235 : Index := Scalar.indexCast v46
  let c1_i32_117 : BitVec 32 := 1#32
  let v236 : Index := Scalar.indexCast c1_i32_117
  let c0_i32_35 : BitVec 32 := 0#32
  let c1_i32_36 : BitVec 32 := 1#32
  let arg11 : BitVec 32 := Scf.iv c0_i32_35 c1_i32_36 k0_t4
  let v237 : Index := Scalar.indexCast arg11
  let c2_i32_118 : BitVec 32 := 2#32
  let v238 : Index := Scalar.indexCast c2_i32_118
  let c0_119 : Index := 0#32
  ![v235.toNat, 1, v237.toNat, 2, 0]
def k0_off169 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v240 : Index := Scalar.indexCast v46
  let c1_i32_120 : BitVec 32 := 1#32
  let v241 : Index := Scalar.indexCast c1_i32_120
  let c0_i32_35 : BitVec 32 := 0#32
  let c1_i32_36 : BitVec 32 := 1#32
  let arg11 : BitVec 32 := Scf.iv c0_i32_35 c1_i32_36 k0_t4
  let v242 : Index := Scalar.indexCast arg11
  let c3_i32_121 : BitVec 32 := 3#32
  let v243 : Index := Scalar.indexCast c3_i32_121
  let c0_122 : Index := 0#32
  ![v240.toNat, 1, v242.toNat, 3, 0]
def k0_off170 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v245 : Index := Scalar.indexCast v46
  let c1_i32_123 : BitVec 32 := 1#32
  let v246 : Index := Scalar.indexCast c1_i32_123
  let c0_i32_35 : BitVec 32 := 0#32
  let c1_i32_36 : BitVec 32 := 1#32
  let arg11 : BitVec 32 := Scf.iv c0_i32_35 c1_i32_36 k0_t4
  let v247 : Index := Scalar.indexCast arg11
  let c4_i32_124 : BitVec 32 := 4#32
  let v248 : Index := Scalar.indexCast c4_i32_124
  let c0_125 : Index := 0#32
  ![v245.toNat, 1, v247.toNat, 4, 0]
def k0_off171 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v250 : Index := Scalar.indexCast v46
  let c1_i32_126 : BitVec 32 := 1#32
  let v251 : Index := Scalar.indexCast c1_i32_126
  let c0_i32_35 : BitVec 32 := 0#32
  let c1_i32_36 : BitVec 32 := 1#32
  let arg11 : BitVec 32 := Scf.iv c0_i32_35 c1_i32_36 k0_t4
  let v252 : Index := Scalar.indexCast arg11
  let c5_i32_127 : BitVec 32 := 5#32
  let v253 : Index := Scalar.indexCast c5_i32_127
  let c0_128 : Index := 0#32
  ![v250.toNat, 1, v252.toNat, 5, 0]
def k0_off172 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v255 : Index := Scalar.indexCast v46
  let c1_i32_129 : BitVec 32 := 1#32
  let v256 : Index := Scalar.indexCast c1_i32_129
  let c0_i32_35 : BitVec 32 := 0#32
  let c1_i32_36 : BitVec 32 := 1#32
  let arg11 : BitVec 32 := Scf.iv c0_i32_35 c1_i32_36 k0_t4
  let v257 : Index := Scalar.indexCast arg11
  let c6_i32_130 : BitVec 32 := 6#32
  let v258 : Index := Scalar.indexCast c6_i32_130
  let c0_131 : Index := 0#32
  ![v255.toNat, 1, v257.toNat, 6, 0]
def k0_off173 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v260 : Index := Scalar.indexCast v46
  let c1_i32_132 : BitVec 32 := 1#32
  let v261 : Index := Scalar.indexCast c1_i32_132
  let c0_i32_35 : BitVec 32 := 0#32
  let c1_i32_36 : BitVec 32 := 1#32
  let arg11 : BitVec 32 := Scf.iv c0_i32_35 c1_i32_36 k0_t4
  let v262 : Index := Scalar.indexCast arg11
  let c7_i32_133 : BitVec 32 := 7#32
  let v263 : Index := Scalar.indexCast c7_i32_133
  let c0_134 : Index := 0#32
  ![v260.toNat, 1, v262.toNat, 7, 0]

def k0_chk10 (v104 : IVec S16 32) : Prop :=
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a) ∧
  (∀ a x, ((![v104] : Fin 1 → IVec S16 32) a x).toNat < S25600.size a)
instance k0_chk10.dec : ∀ (v104 : IVec S16 32), Decidable (k0_chk10 v104) := fun v104 => decidable_of_iff' _ (Iff.of_eq (k0_chk10.eq_1 v104))
theorem k0_idx145_inb : ∀ (v104 : IVec S16 32) (k0_hw10 : k0_chk10 v104), ∀ a x, ((![v104] : Fin 1 → IVec S16 32) a x).toNat < S25600.size a := fun v104 k0_hw10 => k0_hw10.1
theorem k0_idx146_inb : ∀ (v104 : IVec S16 32) (k0_hw10 : k0_chk10 v104), ∀ a x, ((![v104] : Fin 1 → IVec S16 32) a x).toNat < S25600.size a := fun v104 k0_hw10 => k0_hw10.2.1
theorem k0_idx147_inb : ∀ (v104 : IVec S16 32) (k0_hw10 : k0_chk10 v104), ∀ a x, ((![v104] : Fin 1 → IVec S16 32) a x).toNat < S25600.size a := fun v104 k0_hw10 => k0_hw10.2.2.1
theorem k0_idx148_inb : ∀ (v104 : IVec S16 32) (k0_hw10 : k0_chk10 v104), ∀ a x, ((![v104] : Fin 1 → IVec S16 32) a x).toNat < S25600.size a := fun v104 k0_hw10 => k0_hw10.2.2.2.1
theorem k0_idx149_inb : ∀ (v104 : IVec S16 32) (k0_hw10 : k0_chk10 v104), ∀ a x, ((![v104] : Fin 1 → IVec S16 32) a x).toNat < S25600.size a := fun v104 k0_hw10 => k0_hw10.2.2.2.2.1
theorem k0_idx150_inb : ∀ (v104 : IVec S16 32) (k0_hw10 : k0_chk10 v104), ∀ a x, ((![v104] : Fin 1 → IVec S16 32) a x).toNat < S25600.size a := fun v104 k0_hw10 => k0_hw10.2.2.2.2.2.1
theorem k0_idx151_inb : ∀ (v104 : IVec S16 32) (k0_hw10 : k0_chk10 v104), ∀ a x, ((![v104] : Fin 1 → IVec S16 32) a x).toNat < S25600.size a := fun v104 k0_hw10 => k0_hw10.2.2.2.2.2.2.1
theorem k0_idx152_inb : ∀ (v104 : IVec S16 32) (k0_hw10 : k0_chk10 v104), ∀ a x, ((![v104] : Fin 1 → IVec S16 32) a x).toNat < S25600.size a := fun v104 k0_hw10 => k0_hw10.2.2.2.2.2.2.2.1
theorem k0_idx153_inb : ∀ (v104 : IVec S16 32) (k0_hw10 : k0_chk10 v104), ∀ a x, ((![v104] : Fin 1 → IVec S16 32) a x).toNat < S25600.size a := fun v104 k0_hw10 => k0_hw10.2.2.2.2.2.2.2.2.1
theorem k0_idx154_inb : ∀ (v104 : IVec S16 32) (k0_hw10 : k0_chk10 v104), ∀ a x, ((![v104] : Fin 1 → IVec S16 32) a x).toNat < S25600.size a := fun v104 k0_hw10 => k0_hw10.2.2.2.2.2.2.2.2.2.1
theorem k0_idx155_inb : ∀ (v104 : IVec S16 32) (k0_hw10 : k0_chk10 v104), ∀ a x, ((![v104] : Fin 1 → IVec S16 32) a x).toNat < S25600.size a := fun v104 k0_hw10 => k0_hw10.2.2.2.2.2.2.2.2.2.2.1
theorem k0_idx156_inb : ∀ (v104 : IVec S16 32) (k0_hw10 : k0_chk10 v104), ∀ a x, ((![v104] : Fin 1 → IVec S16 32) a x).toNat < S25600.size a := fun v104 k0_hw10 => k0_hw10.2.2.2.2.2.2.2.2.2.2.2.1
theorem k0_idx157_inb : ∀ (v104 : IVec S16 32) (k0_hw10 : k0_chk10 v104), ∀ a x, ((![v104] : Fin 1 → IVec S16 32) a x).toNat < S25600.size a := fun v104 k0_hw10 => k0_hw10.2.2.2.2.2.2.2.2.2.2.2.2.1
theorem k0_idx158_inb : ∀ (v104 : IVec S16 32) (k0_hw10 : k0_chk10 v104), ∀ a x, ((![v104] : Fin 1 → IVec S16 32) a x).toNat < S25600.size a := fun v104 k0_hw10 => k0_hw10.2.2.2.2.2.2.2.2.2.2.2.2.2.1
theorem k0_idx159_inb : ∀ (v104 : IVec S16 32) (k0_hw10 : k0_chk10 v104), ∀ a x, ((![v104] : Fin 1 → IVec S16 32) a x).toNat < S25600.size a := fun v104 k0_hw10 => k0_hw10.2.2.2.2.2.2.2.2.2.2.2.2.2.2.1
theorem k0_idx160_inb : ∀ (v104 : IVec S16 32) (k0_hw10 : k0_chk10 v104), ∀ a x, ((![v104] : Fin 1 → IVec S16 32) a x).toNat < S25600.size a := fun v104 k0_hw10 => k0_hw10.2.2.2.2.2.2.2.2.2.2.2.2.2.2.2
def k0_off174 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v297 : Index := Scalar.indexCast v46
  let c0_i32_151 : BitVec 32 := 0#32
  let v298 : Index := Scalar.indexCast c0_i32_151
  let c0_i32_35 : BitVec 32 := 0#32
  let c1_i32_36 : BitVec 32 := 1#32
  let arg11 : BitVec 32 := Scf.iv c0_i32_35 c1_i32_36 k0_t4
  let v299 : Index := Scalar.indexCast arg11
  let c0_i32_152 : BitVec 32 := 0#32
  let v300 : Index := Scalar.indexCast c0_i32_152
  let c16 : Index := 16#32
  ![v297.toNat, 0, v299.toNat, 0, 16]
def k0_off175 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v302 : Index := Scalar.indexCast v46
  let c0_i32_153 : BitVec 32 := 0#32
  let v303 : Index := Scalar.indexCast c0_i32_153
  let c0_i32_35 : BitVec 32 := 0#32
  let c1_i32_36 : BitVec 32 := 1#32
  let arg11 : BitVec 32 := Scf.iv c0_i32_35 c1_i32_36 k0_t4
  let v304 : Index := Scalar.indexCast arg11
  let c1_i32_154 : BitVec 32 := 1#32
  let v305 : Index := Scalar.indexCast c1_i32_154
  let c16_155 : Index := 16#32
  ![v302.toNat, 0, v304.toNat, 1, 16]
def k0_off176 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v307 : Index := Scalar.indexCast v46
  let c0_i32_156 : BitVec 32 := 0#32
  let v308 : Index := Scalar.indexCast c0_i32_156
  let c0_i32_35 : BitVec 32 := 0#32
  let c1_i32_36 : BitVec 32 := 1#32
  let arg11 : BitVec 32 := Scf.iv c0_i32_35 c1_i32_36 k0_t4
  let v309 : Index := Scalar.indexCast arg11
  let c2_i32_157 : BitVec 32 := 2#32
  let v310 : Index := Scalar.indexCast c2_i32_157
  let c16_158 : Index := 16#32
  ![v307.toNat, 0, v309.toNat, 2, 16]
def k0_off177 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v312 : Index := Scalar.indexCast v46
  let c0_i32_159 : BitVec 32 := 0#32
  let v313 : Index := Scalar.indexCast c0_i32_159
  let c0_i32_35 : BitVec 32 := 0#32
  let c1_i32_36 : BitVec 32 := 1#32
  let arg11 : BitVec 32 := Scf.iv c0_i32_35 c1_i32_36 k0_t4
  let v314 : Index := Scalar.indexCast arg11
  let c3_i32_160 : BitVec 32 := 3#32
  let v315 : Index := Scalar.indexCast c3_i32_160
  let c16_161 : Index := 16#32
  ![v312.toNat, 0, v314.toNat, 3, 16]
def k0_off178 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v317 : Index := Scalar.indexCast v46
  let c0_i32_162 : BitVec 32 := 0#32
  let v318 : Index := Scalar.indexCast c0_i32_162
  let c0_i32_35 : BitVec 32 := 0#32
  let c1_i32_36 : BitVec 32 := 1#32
  let arg11 : BitVec 32 := Scf.iv c0_i32_35 c1_i32_36 k0_t4
  let v319 : Index := Scalar.indexCast arg11
  let c4_i32_163 : BitVec 32 := 4#32
  let v320 : Index := Scalar.indexCast c4_i32_163
  let c16_164 : Index := 16#32
  ![v317.toNat, 0, v319.toNat, 4, 16]
def k0_off179 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v322 : Index := Scalar.indexCast v46
  let c0_i32_165 : BitVec 32 := 0#32
  let v323 : Index := Scalar.indexCast c0_i32_165
  let c0_i32_35 : BitVec 32 := 0#32
  let c1_i32_36 : BitVec 32 := 1#32
  let arg11 : BitVec 32 := Scf.iv c0_i32_35 c1_i32_36 k0_t4
  let v324 : Index := Scalar.indexCast arg11
  let c5_i32_166 : BitVec 32 := 5#32
  let v325 : Index := Scalar.indexCast c5_i32_166
  let c16_167 : Index := 16#32
  ![v322.toNat, 0, v324.toNat, 5, 16]
def k0_off180 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v327 : Index := Scalar.indexCast v46
  let c0_i32_168 : BitVec 32 := 0#32
  let v328 : Index := Scalar.indexCast c0_i32_168
  let c0_i32_35 : BitVec 32 := 0#32
  let c1_i32_36 : BitVec 32 := 1#32
  let arg11 : BitVec 32 := Scf.iv c0_i32_35 c1_i32_36 k0_t4
  let v329 : Index := Scalar.indexCast arg11
  let c6_i32_169 : BitVec 32 := 6#32
  let v330 : Index := Scalar.indexCast c6_i32_169
  let c16_170 : Index := 16#32
  ![v327.toNat, 0, v329.toNat, 6, 16]
def k0_off181 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v332 : Index := Scalar.indexCast v46
  let c0_i32_171 : BitVec 32 := 0#32
  let v333 : Index := Scalar.indexCast c0_i32_171
  let c0_i32_35 : BitVec 32 := 0#32
  let c1_i32_36 : BitVec 32 := 1#32
  let arg11 : BitVec 32 := Scf.iv c0_i32_35 c1_i32_36 k0_t4
  let v334 : Index := Scalar.indexCast arg11
  let c7_i32_172 : BitVec 32 := 7#32
  let v335 : Index := Scalar.indexCast c7_i32_172
  let c16_173 : Index := 16#32
  ![v332.toNat, 0, v334.toNat, 7, 16]
def k0_off182 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v337 : Index := Scalar.indexCast v46
  let c1_i32_174 : BitVec 32 := 1#32
  let v338 : Index := Scalar.indexCast c1_i32_174
  let c0_i32_35 : BitVec 32 := 0#32
  let c1_i32_36 : BitVec 32 := 1#32
  let arg11 : BitVec 32 := Scf.iv c0_i32_35 c1_i32_36 k0_t4
  let v339 : Index := Scalar.indexCast arg11
  let c0_i32_175 : BitVec 32 := 0#32
  let v340 : Index := Scalar.indexCast c0_i32_175
  let c16_176 : Index := 16#32
  ![v337.toNat, 1, v339.toNat, 0, 16]
def k0_off183 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v342 : Index := Scalar.indexCast v46
  let c1_i32_177 : BitVec 32 := 1#32
  let v343 : Index := Scalar.indexCast c1_i32_177
  let c0_i32_35 : BitVec 32 := 0#32
  let c1_i32_36 : BitVec 32 := 1#32
  let arg11 : BitVec 32 := Scf.iv c0_i32_35 c1_i32_36 k0_t4
  let v344 : Index := Scalar.indexCast arg11
  let c1_i32_178 : BitVec 32 := 1#32
  let v345 : Index := Scalar.indexCast c1_i32_178
  let c16_179 : Index := 16#32
  ![v342.toNat, 1, v344.toNat, 1, 16]
def k0_off184 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v347 : Index := Scalar.indexCast v46
  let c1_i32_180 : BitVec 32 := 1#32
  let v348 : Index := Scalar.indexCast c1_i32_180
  let c0_i32_35 : BitVec 32 := 0#32
  let c1_i32_36 : BitVec 32 := 1#32
  let arg11 : BitVec 32 := Scf.iv c0_i32_35 c1_i32_36 k0_t4
  let v349 : Index := Scalar.indexCast arg11
  let c2_i32_181 : BitVec 32 := 2#32
  let v350 : Index := Scalar.indexCast c2_i32_181
  let c16_182 : Index := 16#32
  ![v347.toNat, 1, v349.toNat, 2, 16]
def k0_off185 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v352 : Index := Scalar.indexCast v46
  let c1_i32_183 : BitVec 32 := 1#32
  let v353 : Index := Scalar.indexCast c1_i32_183
  let c0_i32_35 : BitVec 32 := 0#32
  let c1_i32_36 : BitVec 32 := 1#32
  let arg11 : BitVec 32 := Scf.iv c0_i32_35 c1_i32_36 k0_t4
  let v354 : Index := Scalar.indexCast arg11
  let c3_i32_184 : BitVec 32 := 3#32
  let v355 : Index := Scalar.indexCast c3_i32_184
  let c16_185 : Index := 16#32
  ![v352.toNat, 1, v354.toNat, 3, 16]
def k0_off186 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v357 : Index := Scalar.indexCast v46
  let c1_i32_186 : BitVec 32 := 1#32
  let v358 : Index := Scalar.indexCast c1_i32_186
  let c0_i32_35 : BitVec 32 := 0#32
  let c1_i32_36 : BitVec 32 := 1#32
  let arg11 : BitVec 32 := Scf.iv c0_i32_35 c1_i32_36 k0_t4
  let v359 : Index := Scalar.indexCast arg11
  let c4_i32_187 : BitVec 32 := 4#32
  let v360 : Index := Scalar.indexCast c4_i32_187
  let c16_188 : Index := 16#32
  ![v357.toNat, 1, v359.toNat, 4, 16]
def k0_off187 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v362 : Index := Scalar.indexCast v46
  let c1_i32_189 : BitVec 32 := 1#32
  let v363 : Index := Scalar.indexCast c1_i32_189
  let c0_i32_35 : BitVec 32 := 0#32
  let c1_i32_36 : BitVec 32 := 1#32
  let arg11 : BitVec 32 := Scf.iv c0_i32_35 c1_i32_36 k0_t4
  let v364 : Index := Scalar.indexCast arg11
  let c5_i32_190 : BitVec 32 := 5#32
  let v365 : Index := Scalar.indexCast c5_i32_190
  let c16_191 : Index := 16#32
  ![v362.toNat, 1, v364.toNat, 5, 16]
def k0_off188 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v367 : Index := Scalar.indexCast v46
  let c1_i32_192 : BitVec 32 := 1#32
  let v368 : Index := Scalar.indexCast c1_i32_192
  let c0_i32_35 : BitVec 32 := 0#32
  let c1_i32_36 : BitVec 32 := 1#32
  let arg11 : BitVec 32 := Scf.iv c0_i32_35 c1_i32_36 k0_t4
  let v369 : Index := Scalar.indexCast arg11
  let c6_i32_193 : BitVec 32 := 6#32
  let v370 : Index := Scalar.indexCast c6_i32_193
  let c16_194 : Index := 16#32
  ![v367.toNat, 1, v369.toNat, 6, 16]
def k0_off189 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v372 : Index := Scalar.indexCast v46
  let c1_i32_195 : BitVec 32 := 1#32
  let v373 : Index := Scalar.indexCast c1_i32_195
  let c0_i32_35 : BitVec 32 := 0#32
  let c1_i32_36 : BitVec 32 := 1#32
  let arg11 : BitVec 32 := Scf.iv c0_i32_35 c1_i32_36 k0_t4
  let v374 : Index := Scalar.indexCast arg11
  let c7_i32_196 : BitVec 32 := 7#32
  let v375 : Index := Scalar.indexCast c7_i32_196
  let c16_197 : Index := 16#32
  ![v372.toNat, 1, v374.toNat, 7, 16]

def k0_chk11 (v112 : IVec S16 32) : Prop :=
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a) ∧
  (∀ a x, ((![v112] : Fin 1 → IVec S16 32) a x).toNat < S25600.size a)
instance k0_chk11.dec : ∀ (v112 : IVec S16 32), Decidable (k0_chk11 v112) := fun v112 => decidable_of_iff' _ (Iff.of_eq (k0_chk11.eq_1 v112))
theorem k0_idx161_inb : ∀ (v112 : IVec S16 32) (k0_hw11 : k0_chk11 v112), ∀ a x, ((![v112] : Fin 1 → IVec S16 32) a x).toNat < S25600.size a := fun v112 k0_hw11 => k0_hw11.1
theorem k0_idx162_inb : ∀ (v112 : IVec S16 32) (k0_hw11 : k0_chk11 v112), ∀ a x, ((![v112] : Fin 1 → IVec S16 32) a x).toNat < S25600.size a := fun v112 k0_hw11 => k0_hw11.2.1
theorem k0_idx163_inb : ∀ (v112 : IVec S16 32) (k0_hw11 : k0_chk11 v112), ∀ a x, ((![v112] : Fin 1 → IVec S16 32) a x).toNat < S25600.size a := fun v112 k0_hw11 => k0_hw11.2.2.1
theorem k0_idx164_inb : ∀ (v112 : IVec S16 32) (k0_hw11 : k0_chk11 v112), ∀ a x, ((![v112] : Fin 1 → IVec S16 32) a x).toNat < S25600.size a := fun v112 k0_hw11 => k0_hw11.2.2.2.1
theorem k0_idx165_inb : ∀ (v112 : IVec S16 32) (k0_hw11 : k0_chk11 v112), ∀ a x, ((![v112] : Fin 1 → IVec S16 32) a x).toNat < S25600.size a := fun v112 k0_hw11 => k0_hw11.2.2.2.2.1
theorem k0_idx166_inb : ∀ (v112 : IVec S16 32) (k0_hw11 : k0_chk11 v112), ∀ a x, ((![v112] : Fin 1 → IVec S16 32) a x).toNat < S25600.size a := fun v112 k0_hw11 => k0_hw11.2.2.2.2.2.1
theorem k0_idx167_inb : ∀ (v112 : IVec S16 32) (k0_hw11 : k0_chk11 v112), ∀ a x, ((![v112] : Fin 1 → IVec S16 32) a x).toNat < S25600.size a := fun v112 k0_hw11 => k0_hw11.2.2.2.2.2.2.1
theorem k0_idx168_inb : ∀ (v112 : IVec S16 32) (k0_hw11 : k0_chk11 v112), ∀ a x, ((![v112] : Fin 1 → IVec S16 32) a x).toNat < S25600.size a := fun v112 k0_hw11 => k0_hw11.2.2.2.2.2.2.2.1
theorem k0_idx169_inb : ∀ (v112 : IVec S16 32) (k0_hw11 : k0_chk11 v112), ∀ a x, ((![v112] : Fin 1 → IVec S16 32) a x).toNat < S25600.size a := fun v112 k0_hw11 => k0_hw11.2.2.2.2.2.2.2.2.1
theorem k0_idx170_inb : ∀ (v112 : IVec S16 32) (k0_hw11 : k0_chk11 v112), ∀ a x, ((![v112] : Fin 1 → IVec S16 32) a x).toNat < S25600.size a := fun v112 k0_hw11 => k0_hw11.2.2.2.2.2.2.2.2.2.1
theorem k0_idx171_inb : ∀ (v112 : IVec S16 32) (k0_hw11 : k0_chk11 v112), ∀ a x, ((![v112] : Fin 1 → IVec S16 32) a x).toNat < S25600.size a := fun v112 k0_hw11 => k0_hw11.2.2.2.2.2.2.2.2.2.2.1
theorem k0_idx172_inb : ∀ (v112 : IVec S16 32) (k0_hw11 : k0_chk11 v112), ∀ a x, ((![v112] : Fin 1 → IVec S16 32) a x).toNat < S25600.size a := fun v112 k0_hw11 => k0_hw11.2.2.2.2.2.2.2.2.2.2.2.1
theorem k0_idx173_inb : ∀ (v112 : IVec S16 32) (k0_hw11 : k0_chk11 v112), ∀ a x, ((![v112] : Fin 1 → IVec S16 32) a x).toNat < S25600.size a := fun v112 k0_hw11 => k0_hw11.2.2.2.2.2.2.2.2.2.2.2.2.1
theorem k0_idx174_inb : ∀ (v112 : IVec S16 32) (k0_hw11 : k0_chk11 v112), ∀ a x, ((![v112] : Fin 1 → IVec S16 32) a x).toNat < S25600.size a := fun v112 k0_hw11 => k0_hw11.2.2.2.2.2.2.2.2.2.2.2.2.2.1
theorem k0_idx175_inb : ∀ (v112 : IVec S16 32) (k0_hw11 : k0_chk11 v112), ∀ a x, ((![v112] : Fin 1 → IVec S16 32) a x).toNat < S25600.size a := fun v112 k0_hw11 => k0_hw11.2.2.2.2.2.2.2.2.2.2.2.2.2.2.1
theorem k0_idx176_inb : ∀ (v112 : IVec S16 32) (k0_hw11 : k0_chk11 v112), ∀ a x, ((![v112] : Fin 1 → IVec S16 32) a x).toNat < S25600.size a := fun v112 k0_hw11 => k0_hw11.2.2.2.2.2.2.2.2.2.2.2.2.2.2.2
def k0_off190 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v409 : Index := Scalar.indexCast v46
  let c0_i32_214 : BitVec 32 := 0#32
  let v410 : Index := Scalar.indexCast c0_i32_214
  let c0_i32_35 : BitVec 32 := 0#32
  let c1_i32_36 : BitVec 32 := 1#32
  let arg11 : BitVec 32 := Scf.iv c0_i32_35 c1_i32_36 k0_t4
  let v411 : Index := Scalar.indexCast arg11
  let c0_i32_215 : BitVec 32 := 0#32
  let v412 : Index := Scalar.indexCast c0_i32_215
  let c32 : Index := 32#32
  ![v409.toNat, 0, v411.toNat, 0, 32]
def k0_off191 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v414 : Index := Scalar.indexCast v46
  let c0_i32_216 : BitVec 32 := 0#32
  let v415 : Index := Scalar.indexCast c0_i32_216
  let c0_i32_35 : BitVec 32 := 0#32
  let c1_i32_36 : BitVec 32 := 1#32
  let arg11 : BitVec 32 := Scf.iv c0_i32_35 c1_i32_36 k0_t4
  let v416 : Index := Scalar.indexCast arg11
  let c1_i32_217 : BitVec 32 := 1#32
  let v417 : Index := Scalar.indexCast c1_i32_217
  let c32_218 : Index := 32#32
  ![v414.toNat, 0, v416.toNat, 1, 32]
def k0_off192 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v419 : Index := Scalar.indexCast v46
  let c0_i32_219 : BitVec 32 := 0#32
  let v420 : Index := Scalar.indexCast c0_i32_219
  let c0_i32_35 : BitVec 32 := 0#32
  let c1_i32_36 : BitVec 32 := 1#32
  let arg11 : BitVec 32 := Scf.iv c0_i32_35 c1_i32_36 k0_t4
  let v421 : Index := Scalar.indexCast arg11
  let c2_i32_220 : BitVec 32 := 2#32
  let v422 : Index := Scalar.indexCast c2_i32_220
  let c32_221 : Index := 32#32
  ![v419.toNat, 0, v421.toNat, 2, 32]
def k0_off193 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v424 : Index := Scalar.indexCast v46
  let c0_i32_222 : BitVec 32 := 0#32
  let v425 : Index := Scalar.indexCast c0_i32_222
  let c0_i32_35 : BitVec 32 := 0#32
  let c1_i32_36 : BitVec 32 := 1#32
  let arg11 : BitVec 32 := Scf.iv c0_i32_35 c1_i32_36 k0_t4
  let v426 : Index := Scalar.indexCast arg11
  let c3_i32_223 : BitVec 32 := 3#32
  let v427 : Index := Scalar.indexCast c3_i32_223
  let c32_224 : Index := 32#32
  ![v424.toNat, 0, v426.toNat, 3, 32]
def k0_off194 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v429 : Index := Scalar.indexCast v46
  let c0_i32_225 : BitVec 32 := 0#32
  let v430 : Index := Scalar.indexCast c0_i32_225
  let c0_i32_35 : BitVec 32 := 0#32
  let c1_i32_36 : BitVec 32 := 1#32
  let arg11 : BitVec 32 := Scf.iv c0_i32_35 c1_i32_36 k0_t4
  let v431 : Index := Scalar.indexCast arg11
  let c4_i32_226 : BitVec 32 := 4#32
  let v432 : Index := Scalar.indexCast c4_i32_226
  let c32_227 : Index := 32#32
  ![v429.toNat, 0, v431.toNat, 4, 32]
def k0_off195 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v434 : Index := Scalar.indexCast v46
  let c0_i32_228 : BitVec 32 := 0#32
  let v435 : Index := Scalar.indexCast c0_i32_228
  let c0_i32_35 : BitVec 32 := 0#32
  let c1_i32_36 : BitVec 32 := 1#32
  let arg11 : BitVec 32 := Scf.iv c0_i32_35 c1_i32_36 k0_t4
  let v436 : Index := Scalar.indexCast arg11
  let c5_i32_229 : BitVec 32 := 5#32
  let v437 : Index := Scalar.indexCast c5_i32_229
  let c32_230 : Index := 32#32
  ![v434.toNat, 0, v436.toNat, 5, 32]
def k0_off196 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v439 : Index := Scalar.indexCast v46
  let c0_i32_231 : BitVec 32 := 0#32
  let v440 : Index := Scalar.indexCast c0_i32_231
  let c0_i32_35 : BitVec 32 := 0#32
  let c1_i32_36 : BitVec 32 := 1#32
  let arg11 : BitVec 32 := Scf.iv c0_i32_35 c1_i32_36 k0_t4
  let v441 : Index := Scalar.indexCast arg11
  let c6_i32_232 : BitVec 32 := 6#32
  let v442 : Index := Scalar.indexCast c6_i32_232
  let c32_233 : Index := 32#32
  ![v439.toNat, 0, v441.toNat, 6, 32]
def k0_off197 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v444 : Index := Scalar.indexCast v46
  let c0_i32_234 : BitVec 32 := 0#32
  let v445 : Index := Scalar.indexCast c0_i32_234
  let c0_i32_35 : BitVec 32 := 0#32
  let c1_i32_36 : BitVec 32 := 1#32
  let arg11 : BitVec 32 := Scf.iv c0_i32_35 c1_i32_36 k0_t4
  let v446 : Index := Scalar.indexCast arg11
  let c7_i32_235 : BitVec 32 := 7#32
  let v447 : Index := Scalar.indexCast c7_i32_235
  let c32_236 : Index := 32#32
  ![v444.toNat, 0, v446.toNat, 7, 32]
def k0_off198 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v449 : Index := Scalar.indexCast v46
  let c1_i32_237 : BitVec 32 := 1#32
  let v450 : Index := Scalar.indexCast c1_i32_237
  let c0_i32_35 : BitVec 32 := 0#32
  let c1_i32_36 : BitVec 32 := 1#32
  let arg11 : BitVec 32 := Scf.iv c0_i32_35 c1_i32_36 k0_t4
  let v451 : Index := Scalar.indexCast arg11
  let c0_i32_238 : BitVec 32 := 0#32
  let v452 : Index := Scalar.indexCast c0_i32_238
  let c32_239 : Index := 32#32
  ![v449.toNat, 1, v451.toNat, 0, 32]
def k0_off199 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v454 : Index := Scalar.indexCast v46
  let c1_i32_240 : BitVec 32 := 1#32
  let v455 : Index := Scalar.indexCast c1_i32_240
  let c0_i32_35 : BitVec 32 := 0#32
  let c1_i32_36 : BitVec 32 := 1#32
  let arg11 : BitVec 32 := Scf.iv c0_i32_35 c1_i32_36 k0_t4
  let v456 : Index := Scalar.indexCast arg11
  let c1_i32_241 : BitVec 32 := 1#32
  let v457 : Index := Scalar.indexCast c1_i32_241
  let c32_242 : Index := 32#32
  ![v454.toNat, 1, v456.toNat, 1, 32]
def k0_off200 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v459 : Index := Scalar.indexCast v46
  let c1_i32_243 : BitVec 32 := 1#32
  let v460 : Index := Scalar.indexCast c1_i32_243
  let c0_i32_35 : BitVec 32 := 0#32
  let c1_i32_36 : BitVec 32 := 1#32
  let arg11 : BitVec 32 := Scf.iv c0_i32_35 c1_i32_36 k0_t4
  let v461 : Index := Scalar.indexCast arg11
  let c2_i32_244 : BitVec 32 := 2#32
  let v462 : Index := Scalar.indexCast c2_i32_244
  let c32_245 : Index := 32#32
  ![v459.toNat, 1, v461.toNat, 2, 32]
def k0_off201 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v464 : Index := Scalar.indexCast v46
  let c1_i32_246 : BitVec 32 := 1#32
  let v465 : Index := Scalar.indexCast c1_i32_246
  let c0_i32_35 : BitVec 32 := 0#32
  let c1_i32_36 : BitVec 32 := 1#32
  let arg11 : BitVec 32 := Scf.iv c0_i32_35 c1_i32_36 k0_t4
  let v466 : Index := Scalar.indexCast arg11
  let c3_i32_247 : BitVec 32 := 3#32
  let v467 : Index := Scalar.indexCast c3_i32_247
  let c32_248 : Index := 32#32
  ![v464.toNat, 1, v466.toNat, 3, 32]
def k0_off202 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v469 : Index := Scalar.indexCast v46
  let c1_i32_249 : BitVec 32 := 1#32
  let v470 : Index := Scalar.indexCast c1_i32_249
  let c0_i32_35 : BitVec 32 := 0#32
  let c1_i32_36 : BitVec 32 := 1#32
  let arg11 : BitVec 32 := Scf.iv c0_i32_35 c1_i32_36 k0_t4
  let v471 : Index := Scalar.indexCast arg11
  let c4_i32_250 : BitVec 32 := 4#32
  let v472 : Index := Scalar.indexCast c4_i32_250
  let c32_251 : Index := 32#32
  ![v469.toNat, 1, v471.toNat, 4, 32]
def k0_off203 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v474 : Index := Scalar.indexCast v46
  let c1_i32_252 : BitVec 32 := 1#32
  let v475 : Index := Scalar.indexCast c1_i32_252
  let c0_i32_35 : BitVec 32 := 0#32
  let c1_i32_36 : BitVec 32 := 1#32
  let arg11 : BitVec 32 := Scf.iv c0_i32_35 c1_i32_36 k0_t4
  let v476 : Index := Scalar.indexCast arg11
  let c5_i32_253 : BitVec 32 := 5#32
  let v477 : Index := Scalar.indexCast c5_i32_253
  let c32_254 : Index := 32#32
  ![v474.toNat, 1, v476.toNat, 5, 32]
def k0_off204 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v479 : Index := Scalar.indexCast v46
  let c1_i32_255 : BitVec 32 := 1#32
  let v480 : Index := Scalar.indexCast c1_i32_255
  let c0_i32_35 : BitVec 32 := 0#32
  let c1_i32_36 : BitVec 32 := 1#32
  let arg11 : BitVec 32 := Scf.iv c0_i32_35 c1_i32_36 k0_t4
  let v481 : Index := Scalar.indexCast arg11
  let c6_i32_256 : BitVec 32 := 6#32
  let v482 : Index := Scalar.indexCast c6_i32_256
  let c32_257 : Index := 32#32
  ![v479.toNat, 1, v481.toNat, 6, 32]
def k0_off205 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v484 : Index := Scalar.indexCast v46
  let c1_i32_258 : BitVec 32 := 1#32
  let v485 : Index := Scalar.indexCast c1_i32_258
  let c0_i32_35 : BitVec 32 := 0#32
  let c1_i32_36 : BitVec 32 := 1#32
  let arg11 : BitVec 32 := Scf.iv c0_i32_35 c1_i32_36 k0_t4
  let v486 : Index := Scalar.indexCast arg11
  let c7_i32_259 : BitVec 32 := 7#32
  let v487 : Index := Scalar.indexCast c7_i32_259
  let c32_260 : Index := 32#32
  ![v484.toNat, 1, v486.toNat, 7, 32]

def k0_chk12 (v120 : IVec S16 32) : Prop :=
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a) ∧
  (∀ a x, ((![v120] : Fin 1 → IVec S16 32) a x).toNat < S25600.size a)
instance k0_chk12.dec : ∀ (v120 : IVec S16 32), Decidable (k0_chk12 v120) := fun v120 => decidable_of_iff' _ (Iff.of_eq (k0_chk12.eq_1 v120))
theorem k0_idx177_inb : ∀ (v120 : IVec S16 32) (k0_hw12 : k0_chk12 v120), ∀ a x, ((![v120] : Fin 1 → IVec S16 32) a x).toNat < S25600.size a := fun v120 k0_hw12 => k0_hw12.1
theorem k0_idx178_inb : ∀ (v120 : IVec S16 32) (k0_hw12 : k0_chk12 v120), ∀ a x, ((![v120] : Fin 1 → IVec S16 32) a x).toNat < S25600.size a := fun v120 k0_hw12 => k0_hw12.2.1
theorem k0_idx179_inb : ∀ (v120 : IVec S16 32) (k0_hw12 : k0_chk12 v120), ∀ a x, ((![v120] : Fin 1 → IVec S16 32) a x).toNat < S25600.size a := fun v120 k0_hw12 => k0_hw12.2.2.1
theorem k0_idx180_inb : ∀ (v120 : IVec S16 32) (k0_hw12 : k0_chk12 v120), ∀ a x, ((![v120] : Fin 1 → IVec S16 32) a x).toNat < S25600.size a := fun v120 k0_hw12 => k0_hw12.2.2.2.1
theorem k0_idx181_inb : ∀ (v120 : IVec S16 32) (k0_hw12 : k0_chk12 v120), ∀ a x, ((![v120] : Fin 1 → IVec S16 32) a x).toNat < S25600.size a := fun v120 k0_hw12 => k0_hw12.2.2.2.2.1
theorem k0_idx182_inb : ∀ (v120 : IVec S16 32) (k0_hw12 : k0_chk12 v120), ∀ a x, ((![v120] : Fin 1 → IVec S16 32) a x).toNat < S25600.size a := fun v120 k0_hw12 => k0_hw12.2.2.2.2.2.1
theorem k0_idx183_inb : ∀ (v120 : IVec S16 32) (k0_hw12 : k0_chk12 v120), ∀ a x, ((![v120] : Fin 1 → IVec S16 32) a x).toNat < S25600.size a := fun v120 k0_hw12 => k0_hw12.2.2.2.2.2.2.1
theorem k0_idx184_inb : ∀ (v120 : IVec S16 32) (k0_hw12 : k0_chk12 v120), ∀ a x, ((![v120] : Fin 1 → IVec S16 32) a x).toNat < S25600.size a := fun v120 k0_hw12 => k0_hw12.2.2.2.2.2.2.2.1
theorem k0_idx185_inb : ∀ (v120 : IVec S16 32) (k0_hw12 : k0_chk12 v120), ∀ a x, ((![v120] : Fin 1 → IVec S16 32) a x).toNat < S25600.size a := fun v120 k0_hw12 => k0_hw12.2.2.2.2.2.2.2.2.1
theorem k0_idx186_inb : ∀ (v120 : IVec S16 32) (k0_hw12 : k0_chk12 v120), ∀ a x, ((![v120] : Fin 1 → IVec S16 32) a x).toNat < S25600.size a := fun v120 k0_hw12 => k0_hw12.2.2.2.2.2.2.2.2.2.1
theorem k0_idx187_inb : ∀ (v120 : IVec S16 32) (k0_hw12 : k0_chk12 v120), ∀ a x, ((![v120] : Fin 1 → IVec S16 32) a x).toNat < S25600.size a := fun v120 k0_hw12 => k0_hw12.2.2.2.2.2.2.2.2.2.2.1
theorem k0_idx188_inb : ∀ (v120 : IVec S16 32) (k0_hw12 : k0_chk12 v120), ∀ a x, ((![v120] : Fin 1 → IVec S16 32) a x).toNat < S25600.size a := fun v120 k0_hw12 => k0_hw12.2.2.2.2.2.2.2.2.2.2.2.1
theorem k0_idx189_inb : ∀ (v120 : IVec S16 32) (k0_hw12 : k0_chk12 v120), ∀ a x, ((![v120] : Fin 1 → IVec S16 32) a x).toNat < S25600.size a := fun v120 k0_hw12 => k0_hw12.2.2.2.2.2.2.2.2.2.2.2.2.1
theorem k0_idx190_inb : ∀ (v120 : IVec S16 32) (k0_hw12 : k0_chk12 v120), ∀ a x, ((![v120] : Fin 1 → IVec S16 32) a x).toNat < S25600.size a := fun v120 k0_hw12 => k0_hw12.2.2.2.2.2.2.2.2.2.2.2.2.2.1
theorem k0_idx191_inb : ∀ (v120 : IVec S16 32) (k0_hw12 : k0_chk12 v120), ∀ a x, ((![v120] : Fin 1 → IVec S16 32) a x).toNat < S25600.size a := fun v120 k0_hw12 => k0_hw12.2.2.2.2.2.2.2.2.2.2.2.2.2.2.1
theorem k0_idx192_inb : ∀ (v120 : IVec S16 32) (k0_hw12 : k0_chk12 v120), ∀ a x, ((![v120] : Fin 1 → IVec S16 32) a x).toNat < S25600.size a := fun v120 k0_hw12 => k0_hw12.2.2.2.2.2.2.2.2.2.2.2.2.2.2.2
def k0_off206 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v521 : Index := Scalar.indexCast v46
  let c0_i32_277 : BitVec 32 := 0#32
  let v522 : Index := Scalar.indexCast c0_i32_277
  let c0_i32_35 : BitVec 32 := 0#32
  let c1_i32_36 : BitVec 32 := 1#32
  let arg11 : BitVec 32 := Scf.iv c0_i32_35 c1_i32_36 k0_t4
  let v523 : Index := Scalar.indexCast arg11
  let c0_i32_278 : BitVec 32 := 0#32
  let v524 : Index := Scalar.indexCast c0_i32_278
  let c48 : Index := 48#32
  ![v521.toNat, 0, v523.toNat, 0, 48]
def k0_off207 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v526 : Index := Scalar.indexCast v46
  let c0_i32_279 : BitVec 32 := 0#32
  let v527 : Index := Scalar.indexCast c0_i32_279
  let c0_i32_35 : BitVec 32 := 0#32
  let c1_i32_36 : BitVec 32 := 1#32
  let arg11 : BitVec 32 := Scf.iv c0_i32_35 c1_i32_36 k0_t4
  let v528 : Index := Scalar.indexCast arg11
  let c1_i32_280 : BitVec 32 := 1#32
  let v529 : Index := Scalar.indexCast c1_i32_280
  let c48_281 : Index := 48#32
  ![v526.toNat, 0, v528.toNat, 1, 48]
def k0_off208 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v531 : Index := Scalar.indexCast v46
  let c0_i32_282 : BitVec 32 := 0#32
  let v532 : Index := Scalar.indexCast c0_i32_282
  let c0_i32_35 : BitVec 32 := 0#32
  let c1_i32_36 : BitVec 32 := 1#32
  let arg11 : BitVec 32 := Scf.iv c0_i32_35 c1_i32_36 k0_t4
  let v533 : Index := Scalar.indexCast arg11
  let c2_i32_283 : BitVec 32 := 2#32
  let v534 : Index := Scalar.indexCast c2_i32_283
  let c48_284 : Index := 48#32
  ![v531.toNat, 0, v533.toNat, 2, 48]
def k0_off209 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v536 : Index := Scalar.indexCast v46
  let c0_i32_285 : BitVec 32 := 0#32
  let v537 : Index := Scalar.indexCast c0_i32_285
  let c0_i32_35 : BitVec 32 := 0#32
  let c1_i32_36 : BitVec 32 := 1#32
  let arg11 : BitVec 32 := Scf.iv c0_i32_35 c1_i32_36 k0_t4
  let v538 : Index := Scalar.indexCast arg11
  let c3_i32_286 : BitVec 32 := 3#32
  let v539 : Index := Scalar.indexCast c3_i32_286
  let c48_287 : Index := 48#32
  ![v536.toNat, 0, v538.toNat, 3, 48]
def k0_off210 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v541 : Index := Scalar.indexCast v46
  let c0_i32_288 : BitVec 32 := 0#32
  let v542 : Index := Scalar.indexCast c0_i32_288
  let c0_i32_35 : BitVec 32 := 0#32
  let c1_i32_36 : BitVec 32 := 1#32
  let arg11 : BitVec 32 := Scf.iv c0_i32_35 c1_i32_36 k0_t4
  let v543 : Index := Scalar.indexCast arg11
  let c4_i32_289 : BitVec 32 := 4#32
  let v544 : Index := Scalar.indexCast c4_i32_289
  let c48_290 : Index := 48#32
  ![v541.toNat, 0, v543.toNat, 4, 48]
def k0_off211 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v546 : Index := Scalar.indexCast v46
  let c0_i32_291 : BitVec 32 := 0#32
  let v547 : Index := Scalar.indexCast c0_i32_291
  let c0_i32_35 : BitVec 32 := 0#32
  let c1_i32_36 : BitVec 32 := 1#32
  let arg11 : BitVec 32 := Scf.iv c0_i32_35 c1_i32_36 k0_t4
  let v548 : Index := Scalar.indexCast arg11
  let c5_i32_292 : BitVec 32 := 5#32
  let v549 : Index := Scalar.indexCast c5_i32_292
  let c48_293 : Index := 48#32
  ![v546.toNat, 0, v548.toNat, 5, 48]
def k0_off212 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v551 : Index := Scalar.indexCast v46
  let c0_i32_294 : BitVec 32 := 0#32
  let v552 : Index := Scalar.indexCast c0_i32_294
  let c0_i32_35 : BitVec 32 := 0#32
  let c1_i32_36 : BitVec 32 := 1#32
  let arg11 : BitVec 32 := Scf.iv c0_i32_35 c1_i32_36 k0_t4
  let v553 : Index := Scalar.indexCast arg11
  let c6_i32_295 : BitVec 32 := 6#32
  let v554 : Index := Scalar.indexCast c6_i32_295
  let c48_296 : Index := 48#32
  ![v551.toNat, 0, v553.toNat, 6, 48]
def k0_off213 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v556 : Index := Scalar.indexCast v46
  let c0_i32_297 : BitVec 32 := 0#32
  let v557 : Index := Scalar.indexCast c0_i32_297
  let c0_i32_35 : BitVec 32 := 0#32
  let c1_i32_36 : BitVec 32 := 1#32
  let arg11 : BitVec 32 := Scf.iv c0_i32_35 c1_i32_36 k0_t4
  let v558 : Index := Scalar.indexCast arg11
  let c7_i32_298 : BitVec 32 := 7#32
  let v559 : Index := Scalar.indexCast c7_i32_298
  let c48_299 : Index := 48#32
  ![v556.toNat, 0, v558.toNat, 7, 48]
def k0_off214 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v561 : Index := Scalar.indexCast v46
  let c1_i32_300 : BitVec 32 := 1#32
  let v562 : Index := Scalar.indexCast c1_i32_300
  let c0_i32_35 : BitVec 32 := 0#32
  let c1_i32_36 : BitVec 32 := 1#32
  let arg11 : BitVec 32 := Scf.iv c0_i32_35 c1_i32_36 k0_t4
  let v563 : Index := Scalar.indexCast arg11
  let c0_i32_301 : BitVec 32 := 0#32
  let v564 : Index := Scalar.indexCast c0_i32_301
  let c48_302 : Index := 48#32
  ![v561.toNat, 1, v563.toNat, 0, 48]
def k0_off215 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v566 : Index := Scalar.indexCast v46
  let c1_i32_303 : BitVec 32 := 1#32
  let v567 : Index := Scalar.indexCast c1_i32_303
  let c0_i32_35 : BitVec 32 := 0#32
  let c1_i32_36 : BitVec 32 := 1#32
  let arg11 : BitVec 32 := Scf.iv c0_i32_35 c1_i32_36 k0_t4
  let v568 : Index := Scalar.indexCast arg11
  let c1_i32_304 : BitVec 32 := 1#32
  let v569 : Index := Scalar.indexCast c1_i32_304
  let c48_305 : Index := 48#32
  ![v566.toNat, 1, v568.toNat, 1, 48]
def k0_off216 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v571 : Index := Scalar.indexCast v46
  let c1_i32_306 : BitVec 32 := 1#32
  let v572 : Index := Scalar.indexCast c1_i32_306
  let c0_i32_35 : BitVec 32 := 0#32
  let c1_i32_36 : BitVec 32 := 1#32
  let arg11 : BitVec 32 := Scf.iv c0_i32_35 c1_i32_36 k0_t4
  let v573 : Index := Scalar.indexCast arg11
  let c2_i32_307 : BitVec 32 := 2#32
  let v574 : Index := Scalar.indexCast c2_i32_307
  let c48_308 : Index := 48#32
  ![v571.toNat, 1, v573.toNat, 2, 48]
def k0_off217 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v576 : Index := Scalar.indexCast v46
  let c1_i32_309 : BitVec 32 := 1#32
  let v577 : Index := Scalar.indexCast c1_i32_309
  let c0_i32_35 : BitVec 32 := 0#32
  let c1_i32_36 : BitVec 32 := 1#32
  let arg11 : BitVec 32 := Scf.iv c0_i32_35 c1_i32_36 k0_t4
  let v578 : Index := Scalar.indexCast arg11
  let c3_i32_310 : BitVec 32 := 3#32
  let v579 : Index := Scalar.indexCast c3_i32_310
  let c48_311 : Index := 48#32
  ![v576.toNat, 1, v578.toNat, 3, 48]
def k0_off218 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v581 : Index := Scalar.indexCast v46
  let c1_i32_312 : BitVec 32 := 1#32
  let v582 : Index := Scalar.indexCast c1_i32_312
  let c0_i32_35 : BitVec 32 := 0#32
  let c1_i32_36 : BitVec 32 := 1#32
  let arg11 : BitVec 32 := Scf.iv c0_i32_35 c1_i32_36 k0_t4
  let v583 : Index := Scalar.indexCast arg11
  let c4_i32_313 : BitVec 32 := 4#32
  let v584 : Index := Scalar.indexCast c4_i32_313
  let c48_314 : Index := 48#32
  ![v581.toNat, 1, v583.toNat, 4, 48]
def k0_off219 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v586 : Index := Scalar.indexCast v46
  let c1_i32_315 : BitVec 32 := 1#32
  let v587 : Index := Scalar.indexCast c1_i32_315
  let c0_i32_35 : BitVec 32 := 0#32
  let c1_i32_36 : BitVec 32 := 1#32
  let arg11 : BitVec 32 := Scf.iv c0_i32_35 c1_i32_36 k0_t4
  let v588 : Index := Scalar.indexCast arg11
  let c5_i32_316 : BitVec 32 := 5#32
  let v589 : Index := Scalar.indexCast c5_i32_316
  let c48_317 : Index := 48#32
  ![v586.toNat, 1, v588.toNat, 5, 48]
def k0_off220 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v591 : Index := Scalar.indexCast v46
  let c1_i32_318 : BitVec 32 := 1#32
  let v592 : Index := Scalar.indexCast c1_i32_318
  let c0_i32_35 : BitVec 32 := 0#32
  let c1_i32_36 : BitVec 32 := 1#32
  let arg11 : BitVec 32 := Scf.iv c0_i32_35 c1_i32_36 k0_t4
  let v593 : Index := Scalar.indexCast arg11
  let c6_i32_319 : BitVec 32 := 6#32
  let v594 : Index := Scalar.indexCast c6_i32_319
  let c48_320 : Index := 48#32
  ![v591.toNat, 1, v593.toNat, 6, 48]
def k0_off221 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v596 : Index := Scalar.indexCast v46
  let c1_i32_321 : BitVec 32 := 1#32
  let v597 : Index := Scalar.indexCast c1_i32_321
  let c0_i32_35 : BitVec 32 := 0#32
  let c1_i32_36 : BitVec 32 := 1#32
  let arg11 : BitVec 32 := Scf.iv c0_i32_35 c1_i32_36 k0_t4
  let v598 : Index := Scalar.indexCast arg11
  let c7_i32_322 : BitVec 32 := 7#32
  let v599 : Index := Scalar.indexCast c7_i32_322
  let c48_323 : Index := 48#32
  ![v596.toNat, 1, v598.toNat, 7, 48]

def k0_chk13 (v128 : IVec S16 32) : Prop :=
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a) ∧
  (∀ a x, ((![v128] : Fin 1 → IVec S16 32) a x).toNat < S25600.size a)
instance k0_chk13.dec : ∀ (v128 : IVec S16 32), Decidable (k0_chk13 v128) := fun v128 => decidable_of_iff' _ (Iff.of_eq (k0_chk13.eq_1 v128))
theorem k0_idx193_inb : ∀ (v128 : IVec S16 32) (k0_hw13 : k0_chk13 v128), ∀ a x, ((![v128] : Fin 1 → IVec S16 32) a x).toNat < S25600.size a := fun v128 k0_hw13 => k0_hw13.1
theorem k0_idx194_inb : ∀ (v128 : IVec S16 32) (k0_hw13 : k0_chk13 v128), ∀ a x, ((![v128] : Fin 1 → IVec S16 32) a x).toNat < S25600.size a := fun v128 k0_hw13 => k0_hw13.2.1
theorem k0_idx195_inb : ∀ (v128 : IVec S16 32) (k0_hw13 : k0_chk13 v128), ∀ a x, ((![v128] : Fin 1 → IVec S16 32) a x).toNat < S25600.size a := fun v128 k0_hw13 => k0_hw13.2.2.1
theorem k0_idx196_inb : ∀ (v128 : IVec S16 32) (k0_hw13 : k0_chk13 v128), ∀ a x, ((![v128] : Fin 1 → IVec S16 32) a x).toNat < S25600.size a := fun v128 k0_hw13 => k0_hw13.2.2.2.1
theorem k0_idx197_inb : ∀ (v128 : IVec S16 32) (k0_hw13 : k0_chk13 v128), ∀ a x, ((![v128] : Fin 1 → IVec S16 32) a x).toNat < S25600.size a := fun v128 k0_hw13 => k0_hw13.2.2.2.2.1
theorem k0_idx198_inb : ∀ (v128 : IVec S16 32) (k0_hw13 : k0_chk13 v128), ∀ a x, ((![v128] : Fin 1 → IVec S16 32) a x).toNat < S25600.size a := fun v128 k0_hw13 => k0_hw13.2.2.2.2.2.1
theorem k0_idx199_inb : ∀ (v128 : IVec S16 32) (k0_hw13 : k0_chk13 v128), ∀ a x, ((![v128] : Fin 1 → IVec S16 32) a x).toNat < S25600.size a := fun v128 k0_hw13 => k0_hw13.2.2.2.2.2.2.1
theorem k0_idx200_inb : ∀ (v128 : IVec S16 32) (k0_hw13 : k0_chk13 v128), ∀ a x, ((![v128] : Fin 1 → IVec S16 32) a x).toNat < S25600.size a := fun v128 k0_hw13 => k0_hw13.2.2.2.2.2.2.2.1
theorem k0_idx201_inb : ∀ (v128 : IVec S16 32) (k0_hw13 : k0_chk13 v128), ∀ a x, ((![v128] : Fin 1 → IVec S16 32) a x).toNat < S25600.size a := fun v128 k0_hw13 => k0_hw13.2.2.2.2.2.2.2.2.1
theorem k0_idx202_inb : ∀ (v128 : IVec S16 32) (k0_hw13 : k0_chk13 v128), ∀ a x, ((![v128] : Fin 1 → IVec S16 32) a x).toNat < S25600.size a := fun v128 k0_hw13 => k0_hw13.2.2.2.2.2.2.2.2.2.1
theorem k0_idx203_inb : ∀ (v128 : IVec S16 32) (k0_hw13 : k0_chk13 v128), ∀ a x, ((![v128] : Fin 1 → IVec S16 32) a x).toNat < S25600.size a := fun v128 k0_hw13 => k0_hw13.2.2.2.2.2.2.2.2.2.2.1
theorem k0_idx204_inb : ∀ (v128 : IVec S16 32) (k0_hw13 : k0_chk13 v128), ∀ a x, ((![v128] : Fin 1 → IVec S16 32) a x).toNat < S25600.size a := fun v128 k0_hw13 => k0_hw13.2.2.2.2.2.2.2.2.2.2.2.1
theorem k0_idx205_inb : ∀ (v128 : IVec S16 32) (k0_hw13 : k0_chk13 v128), ∀ a x, ((![v128] : Fin 1 → IVec S16 32) a x).toNat < S25600.size a := fun v128 k0_hw13 => k0_hw13.2.2.2.2.2.2.2.2.2.2.2.2.1
theorem k0_idx206_inb : ∀ (v128 : IVec S16 32) (k0_hw13 : k0_chk13 v128), ∀ a x, ((![v128] : Fin 1 → IVec S16 32) a x).toNat < S25600.size a := fun v128 k0_hw13 => k0_hw13.2.2.2.2.2.2.2.2.2.2.2.2.2.1
theorem k0_idx207_inb : ∀ (v128 : IVec S16 32) (k0_hw13 : k0_chk13 v128), ∀ a x, ((![v128] : Fin 1 → IVec S16 32) a x).toNat < S25600.size a := fun v128 k0_hw13 => k0_hw13.2.2.2.2.2.2.2.2.2.2.2.2.2.2.1
theorem k0_idx208_inb : ∀ (v128 : IVec S16 32) (k0_hw13 : k0_chk13 v128), ∀ a x, ((![v128] : Fin 1 → IVec S16 32) a x).toNat < S25600.size a := fun v128 k0_hw13 => k0_hw13.2.2.2.2.2.2.2.2.2.2.2.2.2.2.2
def k0_off222 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v633 : Index := Scalar.indexCast v46
  let c0_i32_340 : BitVec 32 := 0#32
  let v634 : Index := Scalar.indexCast c0_i32_340
  let c0_i32_35 : BitVec 32 := 0#32
  let c1_i32_36 : BitVec 32 := 1#32
  let arg11 : BitVec 32 := Scf.iv c0_i32_35 c1_i32_36 k0_t4
  let v635 : Index := Scalar.indexCast arg11
  let c0_i32_341 : BitVec 32 := 0#32
  let v636 : Index := Scalar.indexCast c0_i32_341
  let c64 : Index := 64#32
  ![v633.toNat, 0, v635.toNat, 0, 64]
def k0_off223 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v638 : Index := Scalar.indexCast v46
  let c0_i32_342 : BitVec 32 := 0#32
  let v639 : Index := Scalar.indexCast c0_i32_342
  let c0_i32_35 : BitVec 32 := 0#32
  let c1_i32_36 : BitVec 32 := 1#32
  let arg11 : BitVec 32 := Scf.iv c0_i32_35 c1_i32_36 k0_t4
  let v640 : Index := Scalar.indexCast arg11
  let c1_i32_343 : BitVec 32 := 1#32
  let v641 : Index := Scalar.indexCast c1_i32_343
  let c64_344 : Index := 64#32
  ![v638.toNat, 0, v640.toNat, 1, 64]
def k0_off224 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v643 : Index := Scalar.indexCast v46
  let c0_i32_345 : BitVec 32 := 0#32
  let v644 : Index := Scalar.indexCast c0_i32_345
  let c0_i32_35 : BitVec 32 := 0#32
  let c1_i32_36 : BitVec 32 := 1#32
  let arg11 : BitVec 32 := Scf.iv c0_i32_35 c1_i32_36 k0_t4
  let v645 : Index := Scalar.indexCast arg11
  let c2_i32_346 : BitVec 32 := 2#32
  let v646 : Index := Scalar.indexCast c2_i32_346
  let c64_347 : Index := 64#32
  ![v643.toNat, 0, v645.toNat, 2, 64]
def k0_off225 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v648 : Index := Scalar.indexCast v46
  let c0_i32_348 : BitVec 32 := 0#32
  let v649 : Index := Scalar.indexCast c0_i32_348
  let c0_i32_35 : BitVec 32 := 0#32
  let c1_i32_36 : BitVec 32 := 1#32
  let arg11 : BitVec 32 := Scf.iv c0_i32_35 c1_i32_36 k0_t4
  let v650 : Index := Scalar.indexCast arg11
  let c3_i32_349 : BitVec 32 := 3#32
  let v651 : Index := Scalar.indexCast c3_i32_349
  let c64_350 : Index := 64#32
  ![v648.toNat, 0, v650.toNat, 3, 64]
def k0_off226 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v653 : Index := Scalar.indexCast v46
  let c0_i32_351 : BitVec 32 := 0#32
  let v654 : Index := Scalar.indexCast c0_i32_351
  let c0_i32_35 : BitVec 32 := 0#32
  let c1_i32_36 : BitVec 32 := 1#32
  let arg11 : BitVec 32 := Scf.iv c0_i32_35 c1_i32_36 k0_t4
  let v655 : Index := Scalar.indexCast arg11
  let c4_i32_352 : BitVec 32 := 4#32
  let v656 : Index := Scalar.indexCast c4_i32_352
  let c64_353 : Index := 64#32
  ![v653.toNat, 0, v655.toNat, 4, 64]
def k0_off227 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v658 : Index := Scalar.indexCast v46
  let c0_i32_354 : BitVec 32 := 0#32
  let v659 : Index := Scalar.indexCast c0_i32_354
  let c0_i32_35 : BitVec 32 := 0#32
  let c1_i32_36 : BitVec 32 := 1#32
  let arg11 : BitVec 32 := Scf.iv c0_i32_35 c1_i32_36 k0_t4
  let v660 : Index := Scalar.indexCast arg11
  let c5_i32_355 : BitVec 32 := 5#32
  let v661 : Index := Scalar.indexCast c5_i32_355
  let c64_356 : Index := 64#32
  ![v658.toNat, 0, v660.toNat, 5, 64]
def k0_off228 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v663 : Index := Scalar.indexCast v46
  let c0_i32_357 : BitVec 32 := 0#32
  let v664 : Index := Scalar.indexCast c0_i32_357
  let c0_i32_35 : BitVec 32 := 0#32
  let c1_i32_36 : BitVec 32 := 1#32
  let arg11 : BitVec 32 := Scf.iv c0_i32_35 c1_i32_36 k0_t4
  let v665 : Index := Scalar.indexCast arg11
  let c6_i32_358 : BitVec 32 := 6#32
  let v666 : Index := Scalar.indexCast c6_i32_358
  let c64_359 : Index := 64#32
  ![v663.toNat, 0, v665.toNat, 6, 64]
def k0_off229 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v668 : Index := Scalar.indexCast v46
  let c0_i32_360 : BitVec 32 := 0#32
  let v669 : Index := Scalar.indexCast c0_i32_360
  let c0_i32_35 : BitVec 32 := 0#32
  let c1_i32_36 : BitVec 32 := 1#32
  let arg11 : BitVec 32 := Scf.iv c0_i32_35 c1_i32_36 k0_t4
  let v670 : Index := Scalar.indexCast arg11
  let c7_i32_361 : BitVec 32 := 7#32
  let v671 : Index := Scalar.indexCast c7_i32_361
  let c64_362 : Index := 64#32
  ![v668.toNat, 0, v670.toNat, 7, 64]
def k0_off230 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v673 : Index := Scalar.indexCast v46
  let c1_i32_363 : BitVec 32 := 1#32
  let v674 : Index := Scalar.indexCast c1_i32_363
  let c0_i32_35 : BitVec 32 := 0#32
  let c1_i32_36 : BitVec 32 := 1#32
  let arg11 : BitVec 32 := Scf.iv c0_i32_35 c1_i32_36 k0_t4
  let v675 : Index := Scalar.indexCast arg11
  let c0_i32_364 : BitVec 32 := 0#32
  let v676 : Index := Scalar.indexCast c0_i32_364
  let c64_365 : Index := 64#32
  ![v673.toNat, 1, v675.toNat, 0, 64]
def k0_off231 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v678 : Index := Scalar.indexCast v46
  let c1_i32_366 : BitVec 32 := 1#32
  let v679 : Index := Scalar.indexCast c1_i32_366
  let c0_i32_35 : BitVec 32 := 0#32
  let c1_i32_36 : BitVec 32 := 1#32
  let arg11 : BitVec 32 := Scf.iv c0_i32_35 c1_i32_36 k0_t4
  let v680 : Index := Scalar.indexCast arg11
  let c1_i32_367 : BitVec 32 := 1#32
  let v681 : Index := Scalar.indexCast c1_i32_367
  let c64_368 : Index := 64#32
  ![v678.toNat, 1, v680.toNat, 1, 64]
def k0_off232 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v683 : Index := Scalar.indexCast v46
  let c1_i32_369 : BitVec 32 := 1#32
  let v684 : Index := Scalar.indexCast c1_i32_369
  let c0_i32_35 : BitVec 32 := 0#32
  let c1_i32_36 : BitVec 32 := 1#32
  let arg11 : BitVec 32 := Scf.iv c0_i32_35 c1_i32_36 k0_t4
  let v685 : Index := Scalar.indexCast arg11
  let c2_i32_370 : BitVec 32 := 2#32
  let v686 : Index := Scalar.indexCast c2_i32_370
  let c64_371 : Index := 64#32
  ![v683.toNat, 1, v685.toNat, 2, 64]
def k0_off233 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v688 : Index := Scalar.indexCast v46
  let c1_i32_372 : BitVec 32 := 1#32
  let v689 : Index := Scalar.indexCast c1_i32_372
  let c0_i32_35 : BitVec 32 := 0#32
  let c1_i32_36 : BitVec 32 := 1#32
  let arg11 : BitVec 32 := Scf.iv c0_i32_35 c1_i32_36 k0_t4
  let v690 : Index := Scalar.indexCast arg11
  let c3_i32_373 : BitVec 32 := 3#32
  let v691 : Index := Scalar.indexCast c3_i32_373
  let c64_374 : Index := 64#32
  ![v688.toNat, 1, v690.toNat, 3, 64]
def k0_off234 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v693 : Index := Scalar.indexCast v46
  let c1_i32_375 : BitVec 32 := 1#32
  let v694 : Index := Scalar.indexCast c1_i32_375
  let c0_i32_35 : BitVec 32 := 0#32
  let c1_i32_36 : BitVec 32 := 1#32
  let arg11 : BitVec 32 := Scf.iv c0_i32_35 c1_i32_36 k0_t4
  let v695 : Index := Scalar.indexCast arg11
  let c4_i32_376 : BitVec 32 := 4#32
  let v696 : Index := Scalar.indexCast c4_i32_376
  let c64_377 : Index := 64#32
  ![v693.toNat, 1, v695.toNat, 4, 64]
def k0_off235 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v698 : Index := Scalar.indexCast v46
  let c1_i32_378 : BitVec 32 := 1#32
  let v699 : Index := Scalar.indexCast c1_i32_378
  let c0_i32_35 : BitVec 32 := 0#32
  let c1_i32_36 : BitVec 32 := 1#32
  let arg11 : BitVec 32 := Scf.iv c0_i32_35 c1_i32_36 k0_t4
  let v700 : Index := Scalar.indexCast arg11
  let c5_i32_379 : BitVec 32 := 5#32
  let v701 : Index := Scalar.indexCast c5_i32_379
  let c64_380 : Index := 64#32
  ![v698.toNat, 1, v700.toNat, 5, 64]
def k0_off236 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v703 : Index := Scalar.indexCast v46
  let c1_i32_381 : BitVec 32 := 1#32
  let v704 : Index := Scalar.indexCast c1_i32_381
  let c0_i32_35 : BitVec 32 := 0#32
  let c1_i32_36 : BitVec 32 := 1#32
  let arg11 : BitVec 32 := Scf.iv c0_i32_35 c1_i32_36 k0_t4
  let v705 : Index := Scalar.indexCast arg11
  let c6_i32_382 : BitVec 32 := 6#32
  let v706 : Index := Scalar.indexCast c6_i32_382
  let c64_383 : Index := 64#32
  ![v703.toNat, 1, v705.toNat, 6, 64]
def k0_off237 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v708 : Index := Scalar.indexCast v46
  let c1_i32_384 : BitVec 32 := 1#32
  let v709 : Index := Scalar.indexCast c1_i32_384
  let c0_i32_35 : BitVec 32 := 0#32
  let c1_i32_36 : BitVec 32 := 1#32
  let arg11 : BitVec 32 := Scf.iv c0_i32_35 c1_i32_36 k0_t4
  let v710 : Index := Scalar.indexCast arg11
  let c7_i32_385 : BitVec 32 := 7#32
  let v711 : Index := Scalar.indexCast c7_i32_385
  let c64_386 : Index := 64#32
  ![v708.toNat, 1, v710.toNat, 7, 64]

def k0_chk14 (v136 : IVec S16 32) : Prop :=
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a) ∧
  (∀ a x, ((![v136] : Fin 1 → IVec S16 32) a x).toNat < S25600.size a)
instance k0_chk14.dec : ∀ (v136 : IVec S16 32), Decidable (k0_chk14 v136) := fun v136 => decidable_of_iff' _ (Iff.of_eq (k0_chk14.eq_1 v136))
theorem k0_idx209_inb : ∀ (v136 : IVec S16 32) (k0_hw14 : k0_chk14 v136), ∀ a x, ((![v136] : Fin 1 → IVec S16 32) a x).toNat < S25600.size a := fun v136 k0_hw14 => k0_hw14.1
theorem k0_idx210_inb : ∀ (v136 : IVec S16 32) (k0_hw14 : k0_chk14 v136), ∀ a x, ((![v136] : Fin 1 → IVec S16 32) a x).toNat < S25600.size a := fun v136 k0_hw14 => k0_hw14.2.1
theorem k0_idx211_inb : ∀ (v136 : IVec S16 32) (k0_hw14 : k0_chk14 v136), ∀ a x, ((![v136] : Fin 1 → IVec S16 32) a x).toNat < S25600.size a := fun v136 k0_hw14 => k0_hw14.2.2.1
theorem k0_idx212_inb : ∀ (v136 : IVec S16 32) (k0_hw14 : k0_chk14 v136), ∀ a x, ((![v136] : Fin 1 → IVec S16 32) a x).toNat < S25600.size a := fun v136 k0_hw14 => k0_hw14.2.2.2.1
theorem k0_idx213_inb : ∀ (v136 : IVec S16 32) (k0_hw14 : k0_chk14 v136), ∀ a x, ((![v136] : Fin 1 → IVec S16 32) a x).toNat < S25600.size a := fun v136 k0_hw14 => k0_hw14.2.2.2.2.1
theorem k0_idx214_inb : ∀ (v136 : IVec S16 32) (k0_hw14 : k0_chk14 v136), ∀ a x, ((![v136] : Fin 1 → IVec S16 32) a x).toNat < S25600.size a := fun v136 k0_hw14 => k0_hw14.2.2.2.2.2.1
theorem k0_idx215_inb : ∀ (v136 : IVec S16 32) (k0_hw14 : k0_chk14 v136), ∀ a x, ((![v136] : Fin 1 → IVec S16 32) a x).toNat < S25600.size a := fun v136 k0_hw14 => k0_hw14.2.2.2.2.2.2.1
theorem k0_idx216_inb : ∀ (v136 : IVec S16 32) (k0_hw14 : k0_chk14 v136), ∀ a x, ((![v136] : Fin 1 → IVec S16 32) a x).toNat < S25600.size a := fun v136 k0_hw14 => k0_hw14.2.2.2.2.2.2.2.1
theorem k0_idx217_inb : ∀ (v136 : IVec S16 32) (k0_hw14 : k0_chk14 v136), ∀ a x, ((![v136] : Fin 1 → IVec S16 32) a x).toNat < S25600.size a := fun v136 k0_hw14 => k0_hw14.2.2.2.2.2.2.2.2.1
theorem k0_idx218_inb : ∀ (v136 : IVec S16 32) (k0_hw14 : k0_chk14 v136), ∀ a x, ((![v136] : Fin 1 → IVec S16 32) a x).toNat < S25600.size a := fun v136 k0_hw14 => k0_hw14.2.2.2.2.2.2.2.2.2.1
theorem k0_idx219_inb : ∀ (v136 : IVec S16 32) (k0_hw14 : k0_chk14 v136), ∀ a x, ((![v136] : Fin 1 → IVec S16 32) a x).toNat < S25600.size a := fun v136 k0_hw14 => k0_hw14.2.2.2.2.2.2.2.2.2.2.1
theorem k0_idx220_inb : ∀ (v136 : IVec S16 32) (k0_hw14 : k0_chk14 v136), ∀ a x, ((![v136] : Fin 1 → IVec S16 32) a x).toNat < S25600.size a := fun v136 k0_hw14 => k0_hw14.2.2.2.2.2.2.2.2.2.2.2.1
theorem k0_idx221_inb : ∀ (v136 : IVec S16 32) (k0_hw14 : k0_chk14 v136), ∀ a x, ((![v136] : Fin 1 → IVec S16 32) a x).toNat < S25600.size a := fun v136 k0_hw14 => k0_hw14.2.2.2.2.2.2.2.2.2.2.2.2.1
theorem k0_idx222_inb : ∀ (v136 : IVec S16 32) (k0_hw14 : k0_chk14 v136), ∀ a x, ((![v136] : Fin 1 → IVec S16 32) a x).toNat < S25600.size a := fun v136 k0_hw14 => k0_hw14.2.2.2.2.2.2.2.2.2.2.2.2.2.1
theorem k0_idx223_inb : ∀ (v136 : IVec S16 32) (k0_hw14 : k0_chk14 v136), ∀ a x, ((![v136] : Fin 1 → IVec S16 32) a x).toNat < S25600.size a := fun v136 k0_hw14 => k0_hw14.2.2.2.2.2.2.2.2.2.2.2.2.2.2.1
theorem k0_idx224_inb : ∀ (v136 : IVec S16 32) (k0_hw14 : k0_chk14 v136), ∀ a x, ((![v136] : Fin 1 → IVec S16 32) a x).toNat < S25600.size a := fun v136 k0_hw14 => k0_hw14.2.2.2.2.2.2.2.2.2.2.2.2.2.2.2
def k0_off238 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v745 : Index := Scalar.indexCast v46
  let c0_i32_403 : BitVec 32 := 0#32
  let v746 : Index := Scalar.indexCast c0_i32_403
  let c0_i32_35 : BitVec 32 := 0#32
  let c1_i32_36 : BitVec 32 := 1#32
  let arg11 : BitVec 32 := Scf.iv c0_i32_35 c1_i32_36 k0_t4
  let v747 : Index := Scalar.indexCast arg11
  let c0_i32_404 : BitVec 32 := 0#32
  let v748 : Index := Scalar.indexCast c0_i32_404
  let c80 : Index := 80#32
  ![v745.toNat, 0, v747.toNat, 0, 80]
def k0_off239 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v750 : Index := Scalar.indexCast v46
  let c0_i32_405 : BitVec 32 := 0#32
  let v751 : Index := Scalar.indexCast c0_i32_405
  let c0_i32_35 : BitVec 32 := 0#32
  let c1_i32_36 : BitVec 32 := 1#32
  let arg11 : BitVec 32 := Scf.iv c0_i32_35 c1_i32_36 k0_t4
  let v752 : Index := Scalar.indexCast arg11
  let c1_i32_406 : BitVec 32 := 1#32
  let v753 : Index := Scalar.indexCast c1_i32_406
  let c80_407 : Index := 80#32
  ![v750.toNat, 0, v752.toNat, 1, 80]
def k0_off240 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v755 : Index := Scalar.indexCast v46
  let c0_i32_408 : BitVec 32 := 0#32
  let v756 : Index := Scalar.indexCast c0_i32_408
  let c0_i32_35 : BitVec 32 := 0#32
  let c1_i32_36 : BitVec 32 := 1#32
  let arg11 : BitVec 32 := Scf.iv c0_i32_35 c1_i32_36 k0_t4
  let v757 : Index := Scalar.indexCast arg11
  let c2_i32_409 : BitVec 32 := 2#32
  let v758 : Index := Scalar.indexCast c2_i32_409
  let c80_410 : Index := 80#32
  ![v755.toNat, 0, v757.toNat, 2, 80]
def k0_off241 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v760 : Index := Scalar.indexCast v46
  let c0_i32_411 : BitVec 32 := 0#32
  let v761 : Index := Scalar.indexCast c0_i32_411
  let c0_i32_35 : BitVec 32 := 0#32
  let c1_i32_36 : BitVec 32 := 1#32
  let arg11 : BitVec 32 := Scf.iv c0_i32_35 c1_i32_36 k0_t4
  let v762 : Index := Scalar.indexCast arg11
  let c3_i32_412 : BitVec 32 := 3#32
  let v763 : Index := Scalar.indexCast c3_i32_412
  let c80_413 : Index := 80#32
  ![v760.toNat, 0, v762.toNat, 3, 80]
def k0_off242 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v765 : Index := Scalar.indexCast v46
  let c0_i32_414 : BitVec 32 := 0#32
  let v766 : Index := Scalar.indexCast c0_i32_414
  let c0_i32_35 : BitVec 32 := 0#32
  let c1_i32_36 : BitVec 32 := 1#32
  let arg11 : BitVec 32 := Scf.iv c0_i32_35 c1_i32_36 k0_t4
  let v767 : Index := Scalar.indexCast arg11
  let c4_i32_415 : BitVec 32 := 4#32
  let v768 : Index := Scalar.indexCast c4_i32_415
  let c80_416 : Index := 80#32
  ![v765.toNat, 0, v767.toNat, 4, 80]
def k0_off243 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v770 : Index := Scalar.indexCast v46
  let c0_i32_417 : BitVec 32 := 0#32
  let v771 : Index := Scalar.indexCast c0_i32_417
  let c0_i32_35 : BitVec 32 := 0#32
  let c1_i32_36 : BitVec 32 := 1#32
  let arg11 : BitVec 32 := Scf.iv c0_i32_35 c1_i32_36 k0_t4
  let v772 : Index := Scalar.indexCast arg11
  let c5_i32_418 : BitVec 32 := 5#32
  let v773 : Index := Scalar.indexCast c5_i32_418
  let c80_419 : Index := 80#32
  ![v770.toNat, 0, v772.toNat, 5, 80]
def k0_off244 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v775 : Index := Scalar.indexCast v46
  let c0_i32_420 : BitVec 32 := 0#32
  let v776 : Index := Scalar.indexCast c0_i32_420
  let c0_i32_35 : BitVec 32 := 0#32
  let c1_i32_36 : BitVec 32 := 1#32
  let arg11 : BitVec 32 := Scf.iv c0_i32_35 c1_i32_36 k0_t4
  let v777 : Index := Scalar.indexCast arg11
  let c6_i32_421 : BitVec 32 := 6#32
  let v778 : Index := Scalar.indexCast c6_i32_421
  let c80_422 : Index := 80#32
  ![v775.toNat, 0, v777.toNat, 6, 80]
def k0_off245 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v780 : Index := Scalar.indexCast v46
  let c0_i32_423 : BitVec 32 := 0#32
  let v781 : Index := Scalar.indexCast c0_i32_423
  let c0_i32_35 : BitVec 32 := 0#32
  let c1_i32_36 : BitVec 32 := 1#32
  let arg11 : BitVec 32 := Scf.iv c0_i32_35 c1_i32_36 k0_t4
  let v782 : Index := Scalar.indexCast arg11
  let c7_i32_424 : BitVec 32 := 7#32
  let v783 : Index := Scalar.indexCast c7_i32_424
  let c80_425 : Index := 80#32
  ![v780.toNat, 0, v782.toNat, 7, 80]
def k0_off246 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v785 : Index := Scalar.indexCast v46
  let c1_i32_426 : BitVec 32 := 1#32
  let v786 : Index := Scalar.indexCast c1_i32_426
  let c0_i32_35 : BitVec 32 := 0#32
  let c1_i32_36 : BitVec 32 := 1#32
  let arg11 : BitVec 32 := Scf.iv c0_i32_35 c1_i32_36 k0_t4
  let v787 : Index := Scalar.indexCast arg11
  let c0_i32_427 : BitVec 32 := 0#32
  let v788 : Index := Scalar.indexCast c0_i32_427
  let c80_428 : Index := 80#32
  ![v785.toNat, 1, v787.toNat, 0, 80]
def k0_off247 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v790 : Index := Scalar.indexCast v46
  let c1_i32_429 : BitVec 32 := 1#32
  let v791 : Index := Scalar.indexCast c1_i32_429
  let c0_i32_35 : BitVec 32 := 0#32
  let c1_i32_36 : BitVec 32 := 1#32
  let arg11 : BitVec 32 := Scf.iv c0_i32_35 c1_i32_36 k0_t4
  let v792 : Index := Scalar.indexCast arg11
  let c1_i32_430 : BitVec 32 := 1#32
  let v793 : Index := Scalar.indexCast c1_i32_430
  let c80_431 : Index := 80#32
  ![v790.toNat, 1, v792.toNat, 1, 80]
def k0_off248 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v795 : Index := Scalar.indexCast v46
  let c1_i32_432 : BitVec 32 := 1#32
  let v796 : Index := Scalar.indexCast c1_i32_432
  let c0_i32_35 : BitVec 32 := 0#32
  let c1_i32_36 : BitVec 32 := 1#32
  let arg11 : BitVec 32 := Scf.iv c0_i32_35 c1_i32_36 k0_t4
  let v797 : Index := Scalar.indexCast arg11
  let c2_i32_433 : BitVec 32 := 2#32
  let v798 : Index := Scalar.indexCast c2_i32_433
  let c80_434 : Index := 80#32
  ![v795.toNat, 1, v797.toNat, 2, 80]
def k0_off249 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v800 : Index := Scalar.indexCast v46
  let c1_i32_435 : BitVec 32 := 1#32
  let v801 : Index := Scalar.indexCast c1_i32_435
  let c0_i32_35 : BitVec 32 := 0#32
  let c1_i32_36 : BitVec 32 := 1#32
  let arg11 : BitVec 32 := Scf.iv c0_i32_35 c1_i32_36 k0_t4
  let v802 : Index := Scalar.indexCast arg11
  let c3_i32_436 : BitVec 32 := 3#32
  let v803 : Index := Scalar.indexCast c3_i32_436
  let c80_437 : Index := 80#32
  ![v800.toNat, 1, v802.toNat, 3, 80]
def k0_off250 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v805 : Index := Scalar.indexCast v46
  let c1_i32_438 : BitVec 32 := 1#32
  let v806 : Index := Scalar.indexCast c1_i32_438
  let c0_i32_35 : BitVec 32 := 0#32
  let c1_i32_36 : BitVec 32 := 1#32
  let arg11 : BitVec 32 := Scf.iv c0_i32_35 c1_i32_36 k0_t4
  let v807 : Index := Scalar.indexCast arg11
  let c4_i32_439 : BitVec 32 := 4#32
  let v808 : Index := Scalar.indexCast c4_i32_439
  let c80_440 : Index := 80#32
  ![v805.toNat, 1, v807.toNat, 4, 80]
def k0_off251 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v810 : Index := Scalar.indexCast v46
  let c1_i32_441 : BitVec 32 := 1#32
  let v811 : Index := Scalar.indexCast c1_i32_441
  let c0_i32_35 : BitVec 32 := 0#32
  let c1_i32_36 : BitVec 32 := 1#32
  let arg11 : BitVec 32 := Scf.iv c0_i32_35 c1_i32_36 k0_t4
  let v812 : Index := Scalar.indexCast arg11
  let c5_i32_442 : BitVec 32 := 5#32
  let v813 : Index := Scalar.indexCast c5_i32_442
  let c80_443 : Index := 80#32
  ![v810.toNat, 1, v812.toNat, 5, 80]
def k0_off252 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v815 : Index := Scalar.indexCast v46
  let c1_i32_444 : BitVec 32 := 1#32
  let v816 : Index := Scalar.indexCast c1_i32_444
  let c0_i32_35 : BitVec 32 := 0#32
  let c1_i32_36 : BitVec 32 := 1#32
  let arg11 : BitVec 32 := Scf.iv c0_i32_35 c1_i32_36 k0_t4
  let v817 : Index := Scalar.indexCast arg11
  let c6_i32_445 : BitVec 32 := 6#32
  let v818 : Index := Scalar.indexCast c6_i32_445
  let c80_446 : Index := 80#32
  ![v815.toNat, 1, v817.toNat, 6, 80]
def k0_off253 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v820 : Index := Scalar.indexCast v46
  let c1_i32_447 : BitVec 32 := 1#32
  let v821 : Index := Scalar.indexCast c1_i32_447
  let c0_i32_35 : BitVec 32 := 0#32
  let c1_i32_36 : BitVec 32 := 1#32
  let arg11 : BitVec 32 := Scf.iv c0_i32_35 c1_i32_36 k0_t4
  let v822 : Index := Scalar.indexCast arg11
  let c7_i32_448 : BitVec 32 := 7#32
  let v823 : Index := Scalar.indexCast c7_i32_448
  let c80_449 : Index := 80#32
  ![v820.toNat, 1, v822.toNat, 7, 80]

def k0_chk15 (v144 : IVec S16 32) : Prop :=
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a) ∧
  (∀ a x, ((![v144] : Fin 1 → IVec S16 32) a x).toNat < S25600.size a)
instance k0_chk15.dec : ∀ (v144 : IVec S16 32), Decidable (k0_chk15 v144) := fun v144 => decidable_of_iff' _ (Iff.of_eq (k0_chk15.eq_1 v144))
theorem k0_idx225_inb : ∀ (v144 : IVec S16 32) (k0_hw15 : k0_chk15 v144), ∀ a x, ((![v144] : Fin 1 → IVec S16 32) a x).toNat < S25600.size a := fun v144 k0_hw15 => k0_hw15.1
theorem k0_idx226_inb : ∀ (v144 : IVec S16 32) (k0_hw15 : k0_chk15 v144), ∀ a x, ((![v144] : Fin 1 → IVec S16 32) a x).toNat < S25600.size a := fun v144 k0_hw15 => k0_hw15.2.1
theorem k0_idx227_inb : ∀ (v144 : IVec S16 32) (k0_hw15 : k0_chk15 v144), ∀ a x, ((![v144] : Fin 1 → IVec S16 32) a x).toNat < S25600.size a := fun v144 k0_hw15 => k0_hw15.2.2.1
theorem k0_idx228_inb : ∀ (v144 : IVec S16 32) (k0_hw15 : k0_chk15 v144), ∀ a x, ((![v144] : Fin 1 → IVec S16 32) a x).toNat < S25600.size a := fun v144 k0_hw15 => k0_hw15.2.2.2.1
theorem k0_idx229_inb : ∀ (v144 : IVec S16 32) (k0_hw15 : k0_chk15 v144), ∀ a x, ((![v144] : Fin 1 → IVec S16 32) a x).toNat < S25600.size a := fun v144 k0_hw15 => k0_hw15.2.2.2.2.1
theorem k0_idx230_inb : ∀ (v144 : IVec S16 32) (k0_hw15 : k0_chk15 v144), ∀ a x, ((![v144] : Fin 1 → IVec S16 32) a x).toNat < S25600.size a := fun v144 k0_hw15 => k0_hw15.2.2.2.2.2.1
theorem k0_idx231_inb : ∀ (v144 : IVec S16 32) (k0_hw15 : k0_chk15 v144), ∀ a x, ((![v144] : Fin 1 → IVec S16 32) a x).toNat < S25600.size a := fun v144 k0_hw15 => k0_hw15.2.2.2.2.2.2.1
theorem k0_idx232_inb : ∀ (v144 : IVec S16 32) (k0_hw15 : k0_chk15 v144), ∀ a x, ((![v144] : Fin 1 → IVec S16 32) a x).toNat < S25600.size a := fun v144 k0_hw15 => k0_hw15.2.2.2.2.2.2.2.1
theorem k0_idx233_inb : ∀ (v144 : IVec S16 32) (k0_hw15 : k0_chk15 v144), ∀ a x, ((![v144] : Fin 1 → IVec S16 32) a x).toNat < S25600.size a := fun v144 k0_hw15 => k0_hw15.2.2.2.2.2.2.2.2.1
theorem k0_idx234_inb : ∀ (v144 : IVec S16 32) (k0_hw15 : k0_chk15 v144), ∀ a x, ((![v144] : Fin 1 → IVec S16 32) a x).toNat < S25600.size a := fun v144 k0_hw15 => k0_hw15.2.2.2.2.2.2.2.2.2.1
theorem k0_idx235_inb : ∀ (v144 : IVec S16 32) (k0_hw15 : k0_chk15 v144), ∀ a x, ((![v144] : Fin 1 → IVec S16 32) a x).toNat < S25600.size a := fun v144 k0_hw15 => k0_hw15.2.2.2.2.2.2.2.2.2.2.1
theorem k0_idx236_inb : ∀ (v144 : IVec S16 32) (k0_hw15 : k0_chk15 v144), ∀ a x, ((![v144] : Fin 1 → IVec S16 32) a x).toNat < S25600.size a := fun v144 k0_hw15 => k0_hw15.2.2.2.2.2.2.2.2.2.2.2.1
theorem k0_idx237_inb : ∀ (v144 : IVec S16 32) (k0_hw15 : k0_chk15 v144), ∀ a x, ((![v144] : Fin 1 → IVec S16 32) a x).toNat < S25600.size a := fun v144 k0_hw15 => k0_hw15.2.2.2.2.2.2.2.2.2.2.2.2.1
theorem k0_idx238_inb : ∀ (v144 : IVec S16 32) (k0_hw15 : k0_chk15 v144), ∀ a x, ((![v144] : Fin 1 → IVec S16 32) a x).toNat < S25600.size a := fun v144 k0_hw15 => k0_hw15.2.2.2.2.2.2.2.2.2.2.2.2.2.1
theorem k0_idx239_inb : ∀ (v144 : IVec S16 32) (k0_hw15 : k0_chk15 v144), ∀ a x, ((![v144] : Fin 1 → IVec S16 32) a x).toNat < S25600.size a := fun v144 k0_hw15 => k0_hw15.2.2.2.2.2.2.2.2.2.2.2.2.2.2.1
theorem k0_idx240_inb : ∀ (v144 : IVec S16 32) (k0_hw15 : k0_chk15 v144), ∀ a x, ((![v144] : Fin 1 → IVec S16 32) a x).toNat < S25600.size a := fun v144 k0_hw15 => k0_hw15.2.2.2.2.2.2.2.2.2.2.2.2.2.2.2
def k0_off254 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v857 : Index := Scalar.indexCast v46
  let c0_i32_466 : BitVec 32 := 0#32
  let v858 : Index := Scalar.indexCast c0_i32_466
  let c0_i32_35 : BitVec 32 := 0#32
  let c1_i32_36 : BitVec 32 := 1#32
  let arg11 : BitVec 32 := Scf.iv c0_i32_35 c1_i32_36 k0_t4
  let v859 : Index := Scalar.indexCast arg11
  let c0_i32_467 : BitVec 32 := 0#32
  let v860 : Index := Scalar.indexCast c0_i32_467
  let c96 : Index := 96#32
  ![v857.toNat, 0, v859.toNat, 0, 96]
def k0_off255 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v862 : Index := Scalar.indexCast v46
  let c0_i32_468 : BitVec 32 := 0#32
  let v863 : Index := Scalar.indexCast c0_i32_468
  let c0_i32_35 : BitVec 32 := 0#32
  let c1_i32_36 : BitVec 32 := 1#32
  let arg11 : BitVec 32 := Scf.iv c0_i32_35 c1_i32_36 k0_t4
  let v864 : Index := Scalar.indexCast arg11
  let c1_i32_469 : BitVec 32 := 1#32
  let v865 : Index := Scalar.indexCast c1_i32_469
  let c96_470 : Index := 96#32
  ![v862.toNat, 0, v864.toNat, 1, 96]
def k0_off256 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v867 : Index := Scalar.indexCast v46
  let c0_i32_471 : BitVec 32 := 0#32
  let v868 : Index := Scalar.indexCast c0_i32_471
  let c0_i32_35 : BitVec 32 := 0#32
  let c1_i32_36 : BitVec 32 := 1#32
  let arg11 : BitVec 32 := Scf.iv c0_i32_35 c1_i32_36 k0_t4
  let v869 : Index := Scalar.indexCast arg11
  let c2_i32_472 : BitVec 32 := 2#32
  let v870 : Index := Scalar.indexCast c2_i32_472
  let c96_473 : Index := 96#32
  ![v867.toNat, 0, v869.toNat, 2, 96]
def k0_off257 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v872 : Index := Scalar.indexCast v46
  let c0_i32_474 : BitVec 32 := 0#32
  let v873 : Index := Scalar.indexCast c0_i32_474
  let c0_i32_35 : BitVec 32 := 0#32
  let c1_i32_36 : BitVec 32 := 1#32
  let arg11 : BitVec 32 := Scf.iv c0_i32_35 c1_i32_36 k0_t4
  let v874 : Index := Scalar.indexCast arg11
  let c3_i32_475 : BitVec 32 := 3#32
  let v875 : Index := Scalar.indexCast c3_i32_475
  let c96_476 : Index := 96#32
  ![v872.toNat, 0, v874.toNat, 3, 96]
def k0_off258 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v877 : Index := Scalar.indexCast v46
  let c0_i32_477 : BitVec 32 := 0#32
  let v878 : Index := Scalar.indexCast c0_i32_477
  let c0_i32_35 : BitVec 32 := 0#32
  let c1_i32_36 : BitVec 32 := 1#32
  let arg11 : BitVec 32 := Scf.iv c0_i32_35 c1_i32_36 k0_t4
  let v879 : Index := Scalar.indexCast arg11
  let c4_i32_478 : BitVec 32 := 4#32
  let v880 : Index := Scalar.indexCast c4_i32_478
  let c96_479 : Index := 96#32
  ![v877.toNat, 0, v879.toNat, 4, 96]
def k0_off259 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v882 : Index := Scalar.indexCast v46
  let c0_i32_480 : BitVec 32 := 0#32
  let v883 : Index := Scalar.indexCast c0_i32_480
  let c0_i32_35 : BitVec 32 := 0#32
  let c1_i32_36 : BitVec 32 := 1#32
  let arg11 : BitVec 32 := Scf.iv c0_i32_35 c1_i32_36 k0_t4
  let v884 : Index := Scalar.indexCast arg11
  let c5_i32_481 : BitVec 32 := 5#32
  let v885 : Index := Scalar.indexCast c5_i32_481
  let c96_482 : Index := 96#32
  ![v882.toNat, 0, v884.toNat, 5, 96]
def k0_off260 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v887 : Index := Scalar.indexCast v46
  let c0_i32_483 : BitVec 32 := 0#32
  let v888 : Index := Scalar.indexCast c0_i32_483
  let c0_i32_35 : BitVec 32 := 0#32
  let c1_i32_36 : BitVec 32 := 1#32
  let arg11 : BitVec 32 := Scf.iv c0_i32_35 c1_i32_36 k0_t4
  let v889 : Index := Scalar.indexCast arg11
  let c6_i32_484 : BitVec 32 := 6#32
  let v890 : Index := Scalar.indexCast c6_i32_484
  let c96_485 : Index := 96#32
  ![v887.toNat, 0, v889.toNat, 6, 96]
def k0_off261 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v892 : Index := Scalar.indexCast v46
  let c0_i32_486 : BitVec 32 := 0#32
  let v893 : Index := Scalar.indexCast c0_i32_486
  let c0_i32_35 : BitVec 32 := 0#32
  let c1_i32_36 : BitVec 32 := 1#32
  let arg11 : BitVec 32 := Scf.iv c0_i32_35 c1_i32_36 k0_t4
  let v894 : Index := Scalar.indexCast arg11
  let c7_i32_487 : BitVec 32 := 7#32
  let v895 : Index := Scalar.indexCast c7_i32_487
  let c96_488 : Index := 96#32
  ![v892.toNat, 0, v894.toNat, 7, 96]
def k0_off262 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v897 : Index := Scalar.indexCast v46
  let c1_i32_489 : BitVec 32 := 1#32
  let v898 : Index := Scalar.indexCast c1_i32_489
  let c0_i32_35 : BitVec 32 := 0#32
  let c1_i32_36 : BitVec 32 := 1#32
  let arg11 : BitVec 32 := Scf.iv c0_i32_35 c1_i32_36 k0_t4
  let v899 : Index := Scalar.indexCast arg11
  let c0_i32_490 : BitVec 32 := 0#32
  let v900 : Index := Scalar.indexCast c0_i32_490
  let c96_491 : Index := 96#32
  ![v897.toNat, 1, v899.toNat, 0, 96]
def k0_off263 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v902 : Index := Scalar.indexCast v46
  let c1_i32_492 : BitVec 32 := 1#32
  let v903 : Index := Scalar.indexCast c1_i32_492
  let c0_i32_35 : BitVec 32 := 0#32
  let c1_i32_36 : BitVec 32 := 1#32
  let arg11 : BitVec 32 := Scf.iv c0_i32_35 c1_i32_36 k0_t4
  let v904 : Index := Scalar.indexCast arg11
  let c1_i32_493 : BitVec 32 := 1#32
  let v905 : Index := Scalar.indexCast c1_i32_493
  let c96_494 : Index := 96#32
  ![v902.toNat, 1, v904.toNat, 1, 96]
def k0_off264 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v907 : Index := Scalar.indexCast v46
  let c1_i32_495 : BitVec 32 := 1#32
  let v908 : Index := Scalar.indexCast c1_i32_495
  let c0_i32_35 : BitVec 32 := 0#32
  let c1_i32_36 : BitVec 32 := 1#32
  let arg11 : BitVec 32 := Scf.iv c0_i32_35 c1_i32_36 k0_t4
  let v909 : Index := Scalar.indexCast arg11
  let c2_i32_496 : BitVec 32 := 2#32
  let v910 : Index := Scalar.indexCast c2_i32_496
  let c96_497 : Index := 96#32
  ![v907.toNat, 1, v909.toNat, 2, 96]
def k0_off265 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v912 : Index := Scalar.indexCast v46
  let c1_i32_498 : BitVec 32 := 1#32
  let v913 : Index := Scalar.indexCast c1_i32_498
  let c0_i32_35 : BitVec 32 := 0#32
  let c1_i32_36 : BitVec 32 := 1#32
  let arg11 : BitVec 32 := Scf.iv c0_i32_35 c1_i32_36 k0_t4
  let v914 : Index := Scalar.indexCast arg11
  let c3_i32_499 : BitVec 32 := 3#32
  let v915 : Index := Scalar.indexCast c3_i32_499
  let c96_500 : Index := 96#32
  ![v912.toNat, 1, v914.toNat, 3, 96]
def k0_off266 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v917 : Index := Scalar.indexCast v46
  let c1_i32_501 : BitVec 32 := 1#32
  let v918 : Index := Scalar.indexCast c1_i32_501
  let c0_i32_35 : BitVec 32 := 0#32
  let c1_i32_36 : BitVec 32 := 1#32
  let arg11 : BitVec 32 := Scf.iv c0_i32_35 c1_i32_36 k0_t4
  let v919 : Index := Scalar.indexCast arg11
  let c4_i32_502 : BitVec 32 := 4#32
  let v920 : Index := Scalar.indexCast c4_i32_502
  let c96_503 : Index := 96#32
  ![v917.toNat, 1, v919.toNat, 4, 96]
def k0_off267 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v922 : Index := Scalar.indexCast v46
  let c1_i32_504 : BitVec 32 := 1#32
  let v923 : Index := Scalar.indexCast c1_i32_504
  let c0_i32_35 : BitVec 32 := 0#32
  let c1_i32_36 : BitVec 32 := 1#32
  let arg11 : BitVec 32 := Scf.iv c0_i32_35 c1_i32_36 k0_t4
  let v924 : Index := Scalar.indexCast arg11
  let c5_i32_505 : BitVec 32 := 5#32
  let v925 : Index := Scalar.indexCast c5_i32_505
  let c96_506 : Index := 96#32
  ![v922.toNat, 1, v924.toNat, 5, 96]
def k0_off268 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v927 : Index := Scalar.indexCast v46
  let c1_i32_507 : BitVec 32 := 1#32
  let v928 : Index := Scalar.indexCast c1_i32_507
  let c0_i32_35 : BitVec 32 := 0#32
  let c1_i32_36 : BitVec 32 := 1#32
  let arg11 : BitVec 32 := Scf.iv c0_i32_35 c1_i32_36 k0_t4
  let v929 : Index := Scalar.indexCast arg11
  let c6_i32_508 : BitVec 32 := 6#32
  let v930 : Index := Scalar.indexCast c6_i32_508
  let c96_509 : Index := 96#32
  ![v927.toNat, 1, v929.toNat, 6, 96]
def k0_off269 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v932 : Index := Scalar.indexCast v46
  let c1_i32_510 : BitVec 32 := 1#32
  let v933 : Index := Scalar.indexCast c1_i32_510
  let c0_i32_35 : BitVec 32 := 0#32
  let c1_i32_36 : BitVec 32 := 1#32
  let arg11 : BitVec 32 := Scf.iv c0_i32_35 c1_i32_36 k0_t4
  let v934 : Index := Scalar.indexCast arg11
  let c7_i32_511 : BitVec 32 := 7#32
  let v935 : Index := Scalar.indexCast c7_i32_511
  let c96_512 : Index := 96#32
  ![v932.toNat, 1, v934.toNat, 7, 96]

def k0_chk16 (v152 : IVec S16 32) : Prop :=
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a) ∧
  (∀ a x, ((![v152] : Fin 1 → IVec S16 32) a x).toNat < S25600.size a)
instance k0_chk16.dec : ∀ (v152 : IVec S16 32), Decidable (k0_chk16 v152) := fun v152 => decidable_of_iff' _ (Iff.of_eq (k0_chk16.eq_1 v152))
theorem k0_idx241_inb : ∀ (v152 : IVec S16 32) (k0_hw16 : k0_chk16 v152), ∀ a x, ((![v152] : Fin 1 → IVec S16 32) a x).toNat < S25600.size a := fun v152 k0_hw16 => k0_hw16.1
theorem k0_idx242_inb : ∀ (v152 : IVec S16 32) (k0_hw16 : k0_chk16 v152), ∀ a x, ((![v152] : Fin 1 → IVec S16 32) a x).toNat < S25600.size a := fun v152 k0_hw16 => k0_hw16.2.1
theorem k0_idx243_inb : ∀ (v152 : IVec S16 32) (k0_hw16 : k0_chk16 v152), ∀ a x, ((![v152] : Fin 1 → IVec S16 32) a x).toNat < S25600.size a := fun v152 k0_hw16 => k0_hw16.2.2.1
theorem k0_idx244_inb : ∀ (v152 : IVec S16 32) (k0_hw16 : k0_chk16 v152), ∀ a x, ((![v152] : Fin 1 → IVec S16 32) a x).toNat < S25600.size a := fun v152 k0_hw16 => k0_hw16.2.2.2.1
theorem k0_idx245_inb : ∀ (v152 : IVec S16 32) (k0_hw16 : k0_chk16 v152), ∀ a x, ((![v152] : Fin 1 → IVec S16 32) a x).toNat < S25600.size a := fun v152 k0_hw16 => k0_hw16.2.2.2.2.1
theorem k0_idx246_inb : ∀ (v152 : IVec S16 32) (k0_hw16 : k0_chk16 v152), ∀ a x, ((![v152] : Fin 1 → IVec S16 32) a x).toNat < S25600.size a := fun v152 k0_hw16 => k0_hw16.2.2.2.2.2.1
theorem k0_idx247_inb : ∀ (v152 : IVec S16 32) (k0_hw16 : k0_chk16 v152), ∀ a x, ((![v152] : Fin 1 → IVec S16 32) a x).toNat < S25600.size a := fun v152 k0_hw16 => k0_hw16.2.2.2.2.2.2.1
theorem k0_idx248_inb : ∀ (v152 : IVec S16 32) (k0_hw16 : k0_chk16 v152), ∀ a x, ((![v152] : Fin 1 → IVec S16 32) a x).toNat < S25600.size a := fun v152 k0_hw16 => k0_hw16.2.2.2.2.2.2.2.1
theorem k0_idx249_inb : ∀ (v152 : IVec S16 32) (k0_hw16 : k0_chk16 v152), ∀ a x, ((![v152] : Fin 1 → IVec S16 32) a x).toNat < S25600.size a := fun v152 k0_hw16 => k0_hw16.2.2.2.2.2.2.2.2.1
theorem k0_idx250_inb : ∀ (v152 : IVec S16 32) (k0_hw16 : k0_chk16 v152), ∀ a x, ((![v152] : Fin 1 → IVec S16 32) a x).toNat < S25600.size a := fun v152 k0_hw16 => k0_hw16.2.2.2.2.2.2.2.2.2.1
theorem k0_idx251_inb : ∀ (v152 : IVec S16 32) (k0_hw16 : k0_chk16 v152), ∀ a x, ((![v152] : Fin 1 → IVec S16 32) a x).toNat < S25600.size a := fun v152 k0_hw16 => k0_hw16.2.2.2.2.2.2.2.2.2.2.1
theorem k0_idx252_inb : ∀ (v152 : IVec S16 32) (k0_hw16 : k0_chk16 v152), ∀ a x, ((![v152] : Fin 1 → IVec S16 32) a x).toNat < S25600.size a := fun v152 k0_hw16 => k0_hw16.2.2.2.2.2.2.2.2.2.2.2.1
theorem k0_idx253_inb : ∀ (v152 : IVec S16 32) (k0_hw16 : k0_chk16 v152), ∀ a x, ((![v152] : Fin 1 → IVec S16 32) a x).toNat < S25600.size a := fun v152 k0_hw16 => k0_hw16.2.2.2.2.2.2.2.2.2.2.2.2.1
theorem k0_idx254_inb : ∀ (v152 : IVec S16 32) (k0_hw16 : k0_chk16 v152), ∀ a x, ((![v152] : Fin 1 → IVec S16 32) a x).toNat < S25600.size a := fun v152 k0_hw16 => k0_hw16.2.2.2.2.2.2.2.2.2.2.2.2.2.1
theorem k0_idx255_inb : ∀ (v152 : IVec S16 32) (k0_hw16 : k0_chk16 v152), ∀ a x, ((![v152] : Fin 1 → IVec S16 32) a x).toNat < S25600.size a := fun v152 k0_hw16 => k0_hw16.2.2.2.2.2.2.2.2.2.2.2.2.2.2.1
theorem k0_idx256_inb : ∀ (v152 : IVec S16 32) (k0_hw16 : k0_chk16 v152), ∀ a x, ((![v152] : Fin 1 → IVec S16 32) a x).toNat < S25600.size a := fun v152 k0_hw16 => k0_hw16.2.2.2.2.2.2.2.2.2.2.2.2.2.2.2
def k0_off270 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v969 : Index := Scalar.indexCast v46
  let c0_i32_529 : BitVec 32 := 0#32
  let v970 : Index := Scalar.indexCast c0_i32_529
  let c0_i32_35 : BitVec 32 := 0#32
  let c1_i32_36 : BitVec 32 := 1#32
  let arg11 : BitVec 32 := Scf.iv c0_i32_35 c1_i32_36 k0_t4
  let v971 : Index := Scalar.indexCast arg11
  let c0_i32_530 : BitVec 32 := 0#32
  let v972 : Index := Scalar.indexCast c0_i32_530
  let c112 : Index := 112#32
  ![v969.toNat, 0, v971.toNat, 0, 112]
def k0_off271 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v974 : Index := Scalar.indexCast v46
  let c0_i32_531 : BitVec 32 := 0#32
  let v975 : Index := Scalar.indexCast c0_i32_531
  let c0_i32_35 : BitVec 32 := 0#32
  let c1_i32_36 : BitVec 32 := 1#32
  let arg11 : BitVec 32 := Scf.iv c0_i32_35 c1_i32_36 k0_t4
  let v976 : Index := Scalar.indexCast arg11
  let c1_i32_532 : BitVec 32 := 1#32
  let v977 : Index := Scalar.indexCast c1_i32_532
  let c112_533 : Index := 112#32
  ![v974.toNat, 0, v976.toNat, 1, 112]
def k0_off272 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v979 : Index := Scalar.indexCast v46
  let c0_i32_534 : BitVec 32 := 0#32
  let v980 : Index := Scalar.indexCast c0_i32_534
  let c0_i32_35 : BitVec 32 := 0#32
  let c1_i32_36 : BitVec 32 := 1#32
  let arg11 : BitVec 32 := Scf.iv c0_i32_35 c1_i32_36 k0_t4
  let v981 : Index := Scalar.indexCast arg11
  let c2_i32_535 : BitVec 32 := 2#32
  let v982 : Index := Scalar.indexCast c2_i32_535
  let c112_536 : Index := 112#32
  ![v979.toNat, 0, v981.toNat, 2, 112]
def k0_off273 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v984 : Index := Scalar.indexCast v46
  let c0_i32_537 : BitVec 32 := 0#32
  let v985 : Index := Scalar.indexCast c0_i32_537
  let c0_i32_35 : BitVec 32 := 0#32
  let c1_i32_36 : BitVec 32 := 1#32
  let arg11 : BitVec 32 := Scf.iv c0_i32_35 c1_i32_36 k0_t4
  let v986 : Index := Scalar.indexCast arg11
  let c3_i32_538 : BitVec 32 := 3#32
  let v987 : Index := Scalar.indexCast c3_i32_538
  let c112_539 : Index := 112#32
  ![v984.toNat, 0, v986.toNat, 3, 112]
def k0_off274 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v989 : Index := Scalar.indexCast v46
  let c0_i32_540 : BitVec 32 := 0#32
  let v990 : Index := Scalar.indexCast c0_i32_540
  let c0_i32_35 : BitVec 32 := 0#32
  let c1_i32_36 : BitVec 32 := 1#32
  let arg11 : BitVec 32 := Scf.iv c0_i32_35 c1_i32_36 k0_t4
  let v991 : Index := Scalar.indexCast arg11
  let c4_i32_541 : BitVec 32 := 4#32
  let v992 : Index := Scalar.indexCast c4_i32_541
  let c112_542 : Index := 112#32
  ![v989.toNat, 0, v991.toNat, 4, 112]
def k0_off275 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v994 : Index := Scalar.indexCast v46
  let c0_i32_543 : BitVec 32 := 0#32
  let v995 : Index := Scalar.indexCast c0_i32_543
  let c0_i32_35 : BitVec 32 := 0#32
  let c1_i32_36 : BitVec 32 := 1#32
  let arg11 : BitVec 32 := Scf.iv c0_i32_35 c1_i32_36 k0_t4
  let v996 : Index := Scalar.indexCast arg11
  let c5_i32_544 : BitVec 32 := 5#32
  let v997 : Index := Scalar.indexCast c5_i32_544
  let c112_545 : Index := 112#32
  ![v994.toNat, 0, v996.toNat, 5, 112]
def k0_off276 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v999 : Index := Scalar.indexCast v46
  let c0_i32_546 : BitVec 32 := 0#32
  let v1000 : Index := Scalar.indexCast c0_i32_546
  let c0_i32_35 : BitVec 32 := 0#32
  let c1_i32_36 : BitVec 32 := 1#32
  let arg11 : BitVec 32 := Scf.iv c0_i32_35 c1_i32_36 k0_t4
  let v1001 : Index := Scalar.indexCast arg11
  let c6_i32_547 : BitVec 32 := 6#32
  let v1002 : Index := Scalar.indexCast c6_i32_547
  let c112_548 : Index := 112#32
  ![v999.toNat, 0, v1001.toNat, 6, 112]
def k0_off277 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1004 : Index := Scalar.indexCast v46
  let c0_i32_549 : BitVec 32 := 0#32
  let v1005 : Index := Scalar.indexCast c0_i32_549
  let c0_i32_35 : BitVec 32 := 0#32
  let c1_i32_36 : BitVec 32 := 1#32
  let arg11 : BitVec 32 := Scf.iv c0_i32_35 c1_i32_36 k0_t4
  let v1006 : Index := Scalar.indexCast arg11
  let c7_i32_550 : BitVec 32 := 7#32
  let v1007 : Index := Scalar.indexCast c7_i32_550
  let c112_551 : Index := 112#32
  ![v1004.toNat, 0, v1006.toNat, 7, 112]
def k0_off278 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1009 : Index := Scalar.indexCast v46
  let c1_i32_552 : BitVec 32 := 1#32
  let v1010 : Index := Scalar.indexCast c1_i32_552
  let c0_i32_35 : BitVec 32 := 0#32
  let c1_i32_36 : BitVec 32 := 1#32
  let arg11 : BitVec 32 := Scf.iv c0_i32_35 c1_i32_36 k0_t4
  let v1011 : Index := Scalar.indexCast arg11
  let c0_i32_553 : BitVec 32 := 0#32
  let v1012 : Index := Scalar.indexCast c0_i32_553
  let c112_554 : Index := 112#32
  ![v1009.toNat, 1, v1011.toNat, 0, 112]
def k0_off279 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1014 : Index := Scalar.indexCast v46
  let c1_i32_555 : BitVec 32 := 1#32
  let v1015 : Index := Scalar.indexCast c1_i32_555
  let c0_i32_35 : BitVec 32 := 0#32
  let c1_i32_36 : BitVec 32 := 1#32
  let arg11 : BitVec 32 := Scf.iv c0_i32_35 c1_i32_36 k0_t4
  let v1016 : Index := Scalar.indexCast arg11
  let c1_i32_556 : BitVec 32 := 1#32
  let v1017 : Index := Scalar.indexCast c1_i32_556
  let c112_557 : Index := 112#32
  ![v1014.toNat, 1, v1016.toNat, 1, 112]
def k0_off280 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1019 : Index := Scalar.indexCast v46
  let c1_i32_558 : BitVec 32 := 1#32
  let v1020 : Index := Scalar.indexCast c1_i32_558
  let c0_i32_35 : BitVec 32 := 0#32
  let c1_i32_36 : BitVec 32 := 1#32
  let arg11 : BitVec 32 := Scf.iv c0_i32_35 c1_i32_36 k0_t4
  let v1021 : Index := Scalar.indexCast arg11
  let c2_i32_559 : BitVec 32 := 2#32
  let v1022 : Index := Scalar.indexCast c2_i32_559
  let c112_560 : Index := 112#32
  ![v1019.toNat, 1, v1021.toNat, 2, 112]
def k0_off281 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1024 : Index := Scalar.indexCast v46
  let c1_i32_561 : BitVec 32 := 1#32
  let v1025 : Index := Scalar.indexCast c1_i32_561
  let c0_i32_35 : BitVec 32 := 0#32
  let c1_i32_36 : BitVec 32 := 1#32
  let arg11 : BitVec 32 := Scf.iv c0_i32_35 c1_i32_36 k0_t4
  let v1026 : Index := Scalar.indexCast arg11
  let c3_i32_562 : BitVec 32 := 3#32
  let v1027 : Index := Scalar.indexCast c3_i32_562
  let c112_563 : Index := 112#32
  ![v1024.toNat, 1, v1026.toNat, 3, 112]
def k0_off282 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1029 : Index := Scalar.indexCast v46
  let c1_i32_564 : BitVec 32 := 1#32
  let v1030 : Index := Scalar.indexCast c1_i32_564
  let c0_i32_35 : BitVec 32 := 0#32
  let c1_i32_36 : BitVec 32 := 1#32
  let arg11 : BitVec 32 := Scf.iv c0_i32_35 c1_i32_36 k0_t4
  let v1031 : Index := Scalar.indexCast arg11
  let c4_i32_565 : BitVec 32 := 4#32
  let v1032 : Index := Scalar.indexCast c4_i32_565
  let c112_566 : Index := 112#32
  ![v1029.toNat, 1, v1031.toNat, 4, 112]
def k0_off283 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1034 : Index := Scalar.indexCast v46
  let c1_i32_567 : BitVec 32 := 1#32
  let v1035 : Index := Scalar.indexCast c1_i32_567
  let c0_i32_35 : BitVec 32 := 0#32
  let c1_i32_36 : BitVec 32 := 1#32
  let arg11 : BitVec 32 := Scf.iv c0_i32_35 c1_i32_36 k0_t4
  let v1036 : Index := Scalar.indexCast arg11
  let c5_i32_568 : BitVec 32 := 5#32
  let v1037 : Index := Scalar.indexCast c5_i32_568
  let c112_569 : Index := 112#32
  ![v1034.toNat, 1, v1036.toNat, 5, 112]
def k0_off284 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1039 : Index := Scalar.indexCast v46
  let c1_i32_570 : BitVec 32 := 1#32
  let v1040 : Index := Scalar.indexCast c1_i32_570
  let c0_i32_35 : BitVec 32 := 0#32
  let c1_i32_36 : BitVec 32 := 1#32
  let arg11 : BitVec 32 := Scf.iv c0_i32_35 c1_i32_36 k0_t4
  let v1041 : Index := Scalar.indexCast arg11
  let c6_i32_571 : BitVec 32 := 6#32
  let v1042 : Index := Scalar.indexCast c6_i32_571
  let c112_572 : Index := 112#32
  ![v1039.toNat, 1, v1041.toNat, 6, 112]
def k0_off285 (i : grid0.Coords) (k0_t3 : Fin (k0_t3_loop i).trips) (k0_t4 : Fin k0_t4_loop.trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let v1044 : Index := Scalar.indexCast v46
  let c1_i32_573 : BitVec 32 := 1#32
  let v1045 : Index := Scalar.indexCast c1_i32_573
  let c0_i32_35 : BitVec 32 := 0#32
  let c1_i32_36 : BitVec 32 := 1#32
  let arg11 : BitVec 32 := Scf.iv c0_i32_35 c1_i32_36 k0_t4
  let v1046 : Index := Scalar.indexCast arg11
  let c7_i32_574 : BitVec 32 := 7#32
  let v1047 : Index := Scalar.indexCast c7_i32_574
  let c112_575 : Index := 112#32
  ![v1044.toNat, 1, v1046.toNat, 7, 112]
def k0_off286 (i : grid0.Coords) (k0_t3 : Fin (k0_t3_loop i).trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let c0_i32_39 : BitVec 32 := 0#32
  let c0_i32_41 : BitVec 32 := 0#32
  let c0_i32_42 : BitVec 32 := 0#32
  let c0_i32_43 : BitVec 32 := 0#32
  ![v46.toNat, 0, 0, 0, 0]
def k0_off287 (i : grid0.Coords) (k0_t3 : Fin (k0_t3_loop i).trips) : Fin 4 → Nat :=
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let v61 : BitVec 32 := Scalar.addi v4 arg10
  let c5_i32_38 : BitVec 32 := 5#32
  let v62 : BitVec 32 := Scalar.muli v61 c5_i32_38
  let c0_i32_44 : BitVec 32 := 0#32
  let c0_i32_45 : BitVec 32 := 0#32
  ![0, v62.toNat, 0, 0]
def k0_off288 (i : grid0.Coords) (k0_t3 : Fin (k0_t3_loop i).trips) : Fin 5 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let c1_i32_52 : BitVec 32 := 1#32
  let c0_i32_54 : BitVec 32 := 0#32
  let c0_i32_55 : BitVec 32 := 0#32
  let c0_i32_56 : BitVec 32 := 0#32
  ![v46.toNat, 1, 0, 0, 0]
def k0_off289 (i : grid0.Coords) (k0_t3 : Fin (k0_t3_loop i).trips) : Fin 4 → Nat :=
  let c1_i32_53 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let v73 : BitVec 32 := Scalar.addi v4 arg10
  let c5_i32_51 : BitVec 32 := 5#32
  let v74 : BitVec 32 := Scalar.muli v73 c5_i32_51
  let c0_i32_57 : BitVec 32 := 0#32
  let c0_i32_58 : BitVec 32 := 0#32
  ![1, v74.toNat, 0, 0]
def k0_cond8 (i : grid0.Coords) (k0_t3 : Fin (k0_t3_loop i).trips) : BitVec 1 :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_64 : BitVec 32 := 4#32
  let v85 : BitVec 32 := Scalar.addi arg10 c4_i32_64
  let v86 : BitVec 1 := Scalar.cmpi .slt v85 v7
  let v87 : BitVec 32 := Scalar.extui v86
  let c0_i32_65 : BitVec 32 := 0#32
  let v88 : BitVec 1 := Scalar.cmpi .ne v87 c0_i32_65
  v88

def k0_off290 (i : grid0.Coords) (k0_t3 : Fin (k0_t3_loop i).trips) : Fin 2 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  let c0_i32_68 : BitVec 32 := 0#32
  ![v46.toNat, 0]
def k0_off291 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_10 : BitVec 32 := 0#32
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_66 : BitVec 32 := 4#32
  let v89 : BitVec 32 := Scalar.addi arg10 c4_i32_66
  let v90 : BitVec 32 := Scalar.addi v4 v89
  let c640_i32_67 : BitVec 32 := 640#32
  let v91 : BitVec 32 := Scalar.muli v90 c640_i32_67
  ![v91.toNat]
def k0_off292 (i : grid0.Coords) (k0_t3 : Fin (k0_t3_loop i).trips) : Fin 1 → Nat :=
  let c0_i32_10 : BitVec 32 := 0#32
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let v21 : BitVec 32 := Scalar.subi v7 c0_i32_10
  let c1_i32_11 : BitVec 32 := 1#32
  let v23 : BitVec 32 := Scalar.divsi v21 c1_i32_11
  let v24 : BitVec 32 := Scalar.muli v23 c1_i32_11
  let v25 : BitVec 32 := Scalar.addi c0_i32_10 v24
  let c1_i32_13 : BitVec 32 := 1#32
  let arg10 : BitVec 32 := Scf.iv v25 c1_i32_13 k0_t3
  let c4_i32_29 : BitVec 32 := 4#32
  let v46 : BitVec 32 := Scalar.remsi arg10 c4_i32_29
  ![v46.toNat]
def k0_cond9 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32 : BitVec 32 := 4#32
  let v26 : BitVec 32 := Scalar.subi v7 c4_i32
  let c0_i32_14 : BitVec 32 := 0#32
  let v27 : BitVec 32 := Scalar.addi v26 c0_i32_14
  let c0_i32_15 : BitVec 32 := 0#32
  let v28 : BitVec 1 := Scalar.cmpi .sge v27 c0_i32_15
  let v29 : BitVec 32 := Scalar.extui v28
  let c0_i32_16 : BitVec 32 := 0#32
  let v30 : BitVec 1 := Scalar.cmpi .ne v29 c0_i32_16
  v30

def k0_off293 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32 : BitVec 32 := 4#32
  let v26 : BitVec 32 := Scalar.subi v7 c4_i32
  let c0_i32_14 : BitVec 32 := 0#32
  let v27 : BitVec 32 := Scalar.addi v26 c0_i32_14
  let c4_i32_29 : BitVec 32 := 4#32
  let v46 : BitVec 32 := Scalar.remsi v27 c4_i32_29
  let c0_i32_30 : BitVec 32 := 0#32
  let c0_i32_32 : BitVec 32 := 0#32
  let c0_i32_33 : BitVec 32 := 0#32
  let c0_i32_34 : BitVec 32 := 0#32
  ![v46.toNat, 0, 0, 0, 0]
def k0_off294 (i : grid0.Coords) : Fin 4 → Nat :=
  let c0_i32_31 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32 : BitVec 32 := 4#32
  let v26 : BitVec 32 := Scalar.subi v7 c4_i32
  let c0_i32_14 : BitVec 32 := 0#32
  let v27 : BitVec 32 := Scalar.addi v26 c0_i32_14
  let v47 : BitVec 32 := Scalar.addi v4 v27
  let c5_i32 : BitVec 32 := 5#32
  let v48 : BitVec 32 := Scalar.muli v47 c5_i32
  let c0_i32_35 : BitVec 32 := 0#32
  let c0_i32_36 : BitVec 32 := 0#32
  ![0, v48.toNat, 0, 0]
def k0_off295 (i : grid0.Coords) : Fin 1 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32 : BitVec 32 := 4#32
  let v26 : BitVec 32 := Scalar.subi v7 c4_i32
  let c0_i32_14 : BitVec 32 := 0#32
  let v27 : BitVec 32 := Scalar.addi v26 c0_i32_14
  let c4_i32_29 : BitVec 32 := 4#32
  let v46 : BitVec 32 := Scalar.remsi v27 c4_i32_29
  ![v46.toNat]
def k0_off296 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32 : BitVec 32 := 4#32
  let v26 : BitVec 32 := Scalar.subi v7 c4_i32
  let c0_i32_14 : BitVec 32 := 0#32
  let v27 : BitVec 32 := Scalar.addi v26 c0_i32_14
  let c4_i32_29 : BitVec 32 := 4#32
  let v46 : BitVec 32 := Scalar.remsi v27 c4_i32_29
  let c1_i32_43 : BitVec 32 := 1#32
  let c0_i32_45 : BitVec 32 := 0#32
  let c0_i32_46 : BitVec 32 := 0#32
  let c0_i32_47 : BitVec 32 := 0#32
  ![v46.toNat, 1, 0, 0, 0]
def k0_off297 (i : grid0.Coords) : Fin 4 → Nat :=
  let c1_i32_44 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32 : BitVec 32 := 4#32
  let v26 : BitVec 32 := Scalar.subi v7 c4_i32
  let c0_i32_14 : BitVec 32 := 0#32
  let v27 : BitVec 32 := Scalar.addi v26 c0_i32_14
  let v59 : BitVec 32 := Scalar.addi v4 v27
  let c5_i32_42 : BitVec 32 := 5#32
  let v60 : BitVec 32 := Scalar.muli v59 c5_i32_42
  let c0_i32_48 : BitVec 32 := 0#32
  let c0_i32_49 : BitVec 32 := 0#32
  ![1, v60.toNat, 0, 0]
def k0_cond10 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_17 : BitVec 32 := 4#32
  let v31 : BitVec 32 := Scalar.subi v7 c4_i32_17
  let c1_i32_18 : BitVec 32 := 1#32
  let v32 : BitVec 32 := Scalar.addi v31 c1_i32_18
  let c0_i32_19 : BitVec 32 := 0#32
  let v33 : BitVec 1 := Scalar.cmpi .sge v32 c0_i32_19
  let v34 : BitVec 32 := Scalar.extui v33
  let c0_i32_20 : BitVec 32 := 0#32
  let v35 : BitVec 1 := Scalar.cmpi .ne v34 c0_i32_20
  v35

def k0_off298 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_17 : BitVec 32 := 4#32
  let v31 : BitVec 32 := Scalar.subi v7 c4_i32_17
  let c1_i32_18 : BitVec 32 := 1#32
  let v32 : BitVec 32 := Scalar.addi v31 c1_i32_18
  let c4_i32_29 : BitVec 32 := 4#32
  let v46 : BitVec 32 := Scalar.remsi v32 c4_i32_29
  let c0_i32_30 : BitVec 32 := 0#32
  let c0_i32_32 : BitVec 32 := 0#32
  let c0_i32_33 : BitVec 32 := 0#32
  let c0_i32_34 : BitVec 32 := 0#32
  ![v46.toNat, 0, 0, 0, 0]
def k0_off299 (i : grid0.Coords) : Fin 4 → Nat :=
  let c0_i32_31 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_17 : BitVec 32 := 4#32
  let v31 : BitVec 32 := Scalar.subi v7 c4_i32_17
  let c1_i32_18 : BitVec 32 := 1#32
  let v32 : BitVec 32 := Scalar.addi v31 c1_i32_18
  let v47 : BitVec 32 := Scalar.addi v4 v32
  let c5_i32 : BitVec 32 := 5#32
  let v48 : BitVec 32 := Scalar.muli v47 c5_i32
  let c0_i32_35 : BitVec 32 := 0#32
  let c0_i32_36 : BitVec 32 := 0#32
  ![0, v48.toNat, 0, 0]
def k0_off300 (i : grid0.Coords) : Fin 1 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_17 : BitVec 32 := 4#32
  let v31 : BitVec 32 := Scalar.subi v7 c4_i32_17
  let c1_i32_18 : BitVec 32 := 1#32
  let v32 : BitVec 32 := Scalar.addi v31 c1_i32_18
  let c4_i32_29 : BitVec 32 := 4#32
  let v46 : BitVec 32 := Scalar.remsi v32 c4_i32_29
  ![v46.toNat]
def k0_off301 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_17 : BitVec 32 := 4#32
  let v31 : BitVec 32 := Scalar.subi v7 c4_i32_17
  let c1_i32_18 : BitVec 32 := 1#32
  let v32 : BitVec 32 := Scalar.addi v31 c1_i32_18
  let c4_i32_29 : BitVec 32 := 4#32
  let v46 : BitVec 32 := Scalar.remsi v32 c4_i32_29
  let c1_i32_43 : BitVec 32 := 1#32
  let c0_i32_45 : BitVec 32 := 0#32
  let c0_i32_46 : BitVec 32 := 0#32
  let c0_i32_47 : BitVec 32 := 0#32
  ![v46.toNat, 1, 0, 0, 0]
def k0_off302 (i : grid0.Coords) : Fin 4 → Nat :=
  let c1_i32_44 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_17 : BitVec 32 := 4#32
  let v31 : BitVec 32 := Scalar.subi v7 c4_i32_17
  let c1_i32_18 : BitVec 32 := 1#32
  let v32 : BitVec 32 := Scalar.addi v31 c1_i32_18
  let v59 : BitVec 32 := Scalar.addi v4 v32
  let c5_i32_42 : BitVec 32 := 5#32
  let v60 : BitVec 32 := Scalar.muli v59 c5_i32_42
  let c0_i32_48 : BitVec 32 := 0#32
  let c0_i32_49 : BitVec 32 := 0#32
  ![1, v60.toNat, 0, 0]
def k0_cond11 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_21 : BitVec 32 := 4#32
  let v36 : BitVec 32 := Scalar.subi v7 c4_i32_21
  let c2_i32_22 : BitVec 32 := 2#32
  let v37 : BitVec 32 := Scalar.addi v36 c2_i32_22
  let c0_i32_23 : BitVec 32 := 0#32
  let v38 : BitVec 1 := Scalar.cmpi .sge v37 c0_i32_23
  let v39 : BitVec 32 := Scalar.extui v38
  let c0_i32_24 : BitVec 32 := 0#32
  let v40 : BitVec 1 := Scalar.cmpi .ne v39 c0_i32_24
  v40

def k0_off303 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_21 : BitVec 32 := 4#32
  let v36 : BitVec 32 := Scalar.subi v7 c4_i32_21
  let c2_i32_22 : BitVec 32 := 2#32
  let v37 : BitVec 32 := Scalar.addi v36 c2_i32_22
  let c4_i32_29 : BitVec 32 := 4#32
  let v46 : BitVec 32 := Scalar.remsi v37 c4_i32_29
  let c0_i32_30 : BitVec 32 := 0#32
  let c0_i32_32 : BitVec 32 := 0#32
  let c0_i32_33 : BitVec 32 := 0#32
  let c0_i32_34 : BitVec 32 := 0#32
  ![v46.toNat, 0, 0, 0, 0]
def k0_off304 (i : grid0.Coords) : Fin 4 → Nat :=
  let c0_i32_31 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_21 : BitVec 32 := 4#32
  let v36 : BitVec 32 := Scalar.subi v7 c4_i32_21
  let c2_i32_22 : BitVec 32 := 2#32
  let v37 : BitVec 32 := Scalar.addi v36 c2_i32_22
  let v47 : BitVec 32 := Scalar.addi v4 v37
  let c5_i32 : BitVec 32 := 5#32
  let v48 : BitVec 32 := Scalar.muli v47 c5_i32
  let c0_i32_35 : BitVec 32 := 0#32
  let c0_i32_36 : BitVec 32 := 0#32
  ![0, v48.toNat, 0, 0]
def k0_off305 (i : grid0.Coords) : Fin 1 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_21 : BitVec 32 := 4#32
  let v36 : BitVec 32 := Scalar.subi v7 c4_i32_21
  let c2_i32_22 : BitVec 32 := 2#32
  let v37 : BitVec 32 := Scalar.addi v36 c2_i32_22
  let c4_i32_29 : BitVec 32 := 4#32
  let v46 : BitVec 32 := Scalar.remsi v37 c4_i32_29
  ![v46.toNat]
def k0_off306 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_21 : BitVec 32 := 4#32
  let v36 : BitVec 32 := Scalar.subi v7 c4_i32_21
  let c2_i32_22 : BitVec 32 := 2#32
  let v37 : BitVec 32 := Scalar.addi v36 c2_i32_22
  let c4_i32_29 : BitVec 32 := 4#32
  let v46 : BitVec 32 := Scalar.remsi v37 c4_i32_29
  let c1_i32_43 : BitVec 32 := 1#32
  let c0_i32_45 : BitVec 32 := 0#32
  let c0_i32_46 : BitVec 32 := 0#32
  let c0_i32_47 : BitVec 32 := 0#32
  ![v46.toNat, 1, 0, 0, 0]
def k0_off307 (i : grid0.Coords) : Fin 4 → Nat :=
  let c1_i32_44 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_21 : BitVec 32 := 4#32
  let v36 : BitVec 32 := Scalar.subi v7 c4_i32_21
  let c2_i32_22 : BitVec 32 := 2#32
  let v37 : BitVec 32 := Scalar.addi v36 c2_i32_22
  let v59 : BitVec 32 := Scalar.addi v4 v37
  let c5_i32_42 : BitVec 32 := 5#32
  let v60 : BitVec 32 := Scalar.muli v59 c5_i32_42
  let c0_i32_48 : BitVec 32 := 0#32
  let c0_i32_49 : BitVec 32 := 0#32
  ![1, v60.toNat, 0, 0]
def k0_cond12 (i : grid0.Coords) : BitVec 1 :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_25 : BitVec 32 := 4#32
  let v41 : BitVec 32 := Scalar.subi v7 c4_i32_25
  let c3_i32_26 : BitVec 32 := 3#32
  let v42 : BitVec 32 := Scalar.addi v41 c3_i32_26
  let c0_i32_27 : BitVec 32 := 0#32
  let v43 : BitVec 1 := Scalar.cmpi .sge v42 c0_i32_27
  let v44 : BitVec 32 := Scalar.extui v43
  let c0_i32_28 : BitVec 32 := 0#32
  let v45 : BitVec 1 := Scalar.cmpi .ne v44 c0_i32_28
  v45

def k0_off308 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_25 : BitVec 32 := 4#32
  let v41 : BitVec 32 := Scalar.subi v7 c4_i32_25
  let c3_i32_26 : BitVec 32 := 3#32
  let v42 : BitVec 32 := Scalar.addi v41 c3_i32_26
  let c4_i32_29 : BitVec 32 := 4#32
  let v46 : BitVec 32 := Scalar.remsi v42 c4_i32_29
  let c0_i32_30 : BitVec 32 := 0#32
  let c0_i32_32 : BitVec 32 := 0#32
  let c0_i32_33 : BitVec 32 := 0#32
  let c0_i32_34 : BitVec 32 := 0#32
  ![v46.toNat, 0, 0, 0, 0]
def k0_off309 (i : grid0.Coords) : Fin 4 → Nat :=
  let c0_i32_31 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_25 : BitVec 32 := 4#32
  let v41 : BitVec 32 := Scalar.subi v7 c4_i32_25
  let c3_i32_26 : BitVec 32 := 3#32
  let v42 : BitVec 32 := Scalar.addi v41 c3_i32_26
  let v47 : BitVec 32 := Scalar.addi v4 v42
  let c5_i32 : BitVec 32 := 5#32
  let v48 : BitVec 32 := Scalar.muli v47 c5_i32
  let c0_i32_35 : BitVec 32 := 0#32
  let c0_i32_36 : BitVec 32 := 0#32
  ![0, v48.toNat, 0, 0]
def k0_off310 (i : grid0.Coords) : Fin 1 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_25 : BitVec 32 := 4#32
  let v41 : BitVec 32 := Scalar.subi v7 c4_i32_25
  let c3_i32_26 : BitVec 32 := 3#32
  let v42 : BitVec 32 := Scalar.addi v41 c3_i32_26
  let c4_i32_29 : BitVec 32 := 4#32
  let v46 : BitVec 32 := Scalar.remsi v42 c4_i32_29
  ![v46.toNat]
def k0_off311 (i : grid0.Coords) : Fin 5 → Nat :=
  let c156_i32_1 : BitVec 32 := 156#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_25 : BitVec 32 := 4#32
  let v41 : BitVec 32 := Scalar.subi v7 c4_i32_25
  let c3_i32_26 : BitVec 32 := 3#32
  let v42 : BitVec 32 := Scalar.addi v41 c3_i32_26
  let c4_i32_29 : BitVec 32 := 4#32
  let v46 : BitVec 32 := Scalar.remsi v42 c4_i32_29
  let c1_i32_43 : BitVec 32 := 1#32
  let c0_i32_45 : BitVec 32 := 0#32
  let c0_i32_46 : BitVec 32 := 0#32
  let c0_i32_47 : BitVec 32 := 0#32
  ![v46.toNat, 1, 0, 0, 0]
def k0_off312 (i : grid0.Coords) : Fin 4 → Nat :=
  let c1_i32_44 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c156_i32_1 : BitVec 32 := 156#32
  let c8_i32_0 : BitVec 32 := 8#32
  let v5 : BitVec 1 := Scalar.cmpi .slt v1 c8_i32_0
  let c1_i32 : BitVec 32 := 1#32
  let c0_i32 : BitVec 32 := 0#32
  let v6 : BitVec 32 := Scalar.select v5 c1_i32 c0_i32
  let v7 : BitVec 32 := Scalar.addi c156_i32_1 v6
  let c4_i32_25 : BitVec 32 := 4#32
  let v41 : BitVec 32 := Scalar.subi v7 c4_i32_25
  let c3_i32_26 : BitVec 32 := 3#32
  let v42 : BitVec 32 := Scalar.addi v41 c3_i32_26
  let v59 : BitVec 32 := Scalar.addi v4 v42
  let c5_i32_42 : BitVec 32 := 5#32
  let v60 : BitVec 32 := Scalar.muli v59 c5_i32_42
  let c0_i32_48 : BitVec 32 := 0#32
  let c0_i32_49 : BitVec 32 := 0#32
  ![1, v60.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S100x16_S1600x1 : S100x16.ShapeCasts S1600x1
  bcast_S1600x1_S1600x16_0_1 : S1600x1.BroadcastsInDim S1600x16 (![0, 1] : Fin 2 → Fin S1600x16.rank)
  shapeCasts_S1600x16_S25600 : S1600x16.ShapeCasts S25600
  inb_S25840_S25600_0 : ∀ a, (![0] : Fin 1 → Nat) a + S25600.size a ≤ S25840.size a
  iota_S16_d0_w32_scVector : S16.Iotas .scVector 32 [0]
  inb_S4x640_S1x640_0_0 : ∀ a, (![0, 0] : Fin 2 → Nat) a + S1x640.size a ≤ S4x640.size a
  squeezes_S1x640_S640 : S1x640.Squeezes S640
  inb_S4_S1_0 : ∀ a, (![0] : Fin 1 → Nat) a + S1.size a ≤ S4.size a
  squeezes_S1_S_ : S1.Squeezes S_
  inb_S4x640_S1x640_1_0 : ∀ a, (![1, 0] : Fin 2 → Nat) a + S1x640.size a ≤ S4x640.size a
  inb_S4_S1_1 : ∀ a, (![1] : Fin 1 → Nat) a + S1.size a ≤ S4.size a
  inb_S4x640_S1x640_2_0 : ∀ a, (![2, 0] : Fin 2 → Nat) a + S1x640.size a ≤ S4x640.size a
  inb_S4_S1_2 : ∀ a, (![2] : Fin 1 → Nat) a + S1.size a ≤ S4.size a
  inb_S4x640_S1x640_3_0 : ∀ a, (![3, 0] : Fin 2 → Nat) a + S1x640.size a ≤ S4x640.size a
  inb_S4_S1_3 : ∀ a, (![3] : Fin 1 → Nat) a + S1.size a ≤ S4.size a
  squeezes_S1x1x5x8x128_S5x8x128 : S1x1x5x8x128.Squeezes S5x8x128
  squeezes_S1x5x8x128_S5x8x128 : S1x5x8x128.Squeezes S5x8x128
  h_S1x16 : 0 < S1x16.numel
  shapeCasts_S1x16_S16 : S1x16.ShapeCasts S16
  h_S25600 : 0 < S25600.numel
  inb_S25840_S25600_16 : ∀ a, (![16] : Fin 1 → Nat) a + S25600.size a ≤ S25840.size a
  inb_S25840_S25600_32 : ∀ a, (![32] : Fin 1 → Nat) a + S25600.size a ≤ S25840.size a
  inb_S25840_S25600_48 : ∀ a, (![48] : Fin 1 → Nat) a + S25600.size a ≤ S25840.size a
  inb_S25840_S25600_64 : ∀ a, (![64] : Fin 1 → Nat) a + S25600.size a ≤ S25840.size a
  inb_S25840_S25600_80 : ∀ a, (![80] : Fin 1 → Nat) a + S25600.size a ≤ S25840.size a
  inb_S25840_S25600_96 : ∀ a, (![96] : Fin 1 → Nat) a + S25600.size a ≤ S25840.size a
  inb_S25840_S25600_112 : ∀ a, (![112] : Fin 1 → Nat) a + S25600.size a ≤ S25840.size a
  inb_S25840_S25600_128 : ∀ a, (![128] : Fin 1 → Nat) a + S25600.size a ≤ S25840.size a
  inb_S25840_S25600_144 : ∀ a, (![144] : Fin 1 → Nat) a + S25600.size a ≤ S25840.size a
  inb_S25840_S25600_160 : ∀ a, (![160] : Fin 1 → Nat) a + S25600.size a ≤ S25840.size a
  inb_S25840_S25600_176 : ∀ a, (![176] : Fin 1 → Nat) a + S25600.size a ≤ S25840.size a
  inb_S25840_S25600_192 : ∀ a, (![192] : Fin 1 → Nat) a + S25600.size a ≤ S25840.size a
  inb_S25840_S25600_208 : ∀ a, (![208] : Fin 1 → Nat) a + S25600.size a ≤ S25840.size a
  inb_S25840_S25600_224 : ∀ a, (![224] : Fin 1 → Nat) a + S25600.size a ≤ S25840.size a
  inb_S25840_S25600_240 : ∀ a, (![240] : Fin 1 → Nat) a + S25600.size a ≤ S25840.size a
  h_S1x1x1x1x16 : 0 < S1x1x1x1x16.numel
  shapeCasts_S1x1x1x1x16_S16 : S1x1x1x1x16.ShapeCasts S16
  shapeCasts_S16_S1x1x1x1x16 : S16.ShapeCasts S1x1x1x1x16
  transposes_S2x25000x8x128_S25000x128x2x8_1_3_0_2 : S2x25000x8x128.Transposes [1, 3, 0, 2] S25000x128x2x8
  shapeCasts_S25000x128x2x8_S3200000x16 : S25000x128x2x8.ShapeCasts S3200000x16
  hcc0_scratch3 : 0 + S4.numel ≤ 9
  hcc0_scratch4 : 4 + S4.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S640.size a ≤ S3200000.size a
  k0_off2_inb : ∀ i : grid0.Coords, ∀ (k0_h2 : k0_cond2 i = 1#1), ∀ a, (k0_off2 i) a + S640.size a ≤ S3200000.size a
  k0_off3_inb : ∀ i : grid0.Coords, ∀ (k0_h3 : k0_cond3 i = 1#1), ∀ a, (k0_off3 i) a + S640.size a ≤ S3200000.size a
  k0_off4_inb : ∀ i : grid0.Coords, ∀ (k0_h4 : k0_cond4 i = 1#1), ∀ a, (k0_off4 i) a + S640.size a ≤ S3200000.size a
  k0_t1_ok : ∀ i : grid0.Coords, (k0_t1_loop i).OK
  k0_off5_inb : ∀ (i : grid0.Coords) (k0_t1 : Fin (k0_t1_loop i).trips), ∀ a, (k0_off5 i k0_t1) a + S1x640.size a ≤ S4x640.size a
  k0_off6_inb : ∀ (i : grid0.Coords) (k0_t1 : Fin (k0_t1_loop i).trips), ∀ a, (k0_off6 i k0_t1) a + S640.size a ≤ S3200000.size a
  k0_off7_inb : ∀ (i : grid0.Coords) (k0_t1 : Fin (k0_t1_loop i).trips), ∀ a, (k0_off7 i k0_t1) a + S1.size a ≤ S4.size a
  k0_off8_inb : ∀ (i : grid0.Coords) (k0_t1 : Fin (k0_t1_loop i).trips), ∀ (k0_h5 : k0_cond5 i k0_t1 = 1#1), ∀ a, (k0_off8 i k0_t1) a + S1x1x5x8x128.size a ≤ S4x2x5x8x128.size a
  k0_off9_inb : ∀ (i : grid0.Coords) (k0_t1 : Fin (k0_t1_loop i).trips), ∀ (k0_h5 : k0_cond5 i k0_t1 = 1#1), ∀ a, (k0_off9 i k0_t1) a + S1x5x8x128.size a ≤ S2x25000x8x128.size a
  k0_off10_inb : ∀ (i : grid0.Coords) (k0_t1 : Fin (k0_t1_loop i).trips), ∀ (k0_h5 : k0_cond5 i k0_t1 = 1#1), ∀ a, (k0_off10 i k0_t1) a + S1.size a ≤ S4.size a
  k0_off11_inb : ∀ (i : grid0.Coords) (k0_t1 : Fin (k0_t1_loop i).trips), ∀ (k0_h5 : k0_cond5 i k0_t1 = 1#1), ∀ a, (k0_off11 i k0_t1) a + S1x1x5x8x128.size a ≤ S4x2x5x8x128.size a
  k0_off12_inb : ∀ (i : grid0.Coords) (k0_t1 : Fin (k0_t1_loop i).trips), ∀ (k0_h5 : k0_cond5 i k0_t1 = 1#1), ∀ a, (k0_off12 i k0_t1) a + S1x5x8x128.size a ≤ S2x25000x8x128.size a
  k0_t2_ok : k0_t2_loop.OK
  k0_off13_inb : ∀ (i : grid0.Coords) (k0_t1 : Fin (k0_t1_loop i).trips) (k0_t2 : Fin k0_t2_loop.trips), ∀ (r : Fin 8), ∀ a, (k0_off13 i k0_t1 k0_t2 (BitVec.ofNat 32 (16 * r.val))) a + S1x16.size a ≤ S4x640.size a
  k0_off14_inb : ∀ (i : grid0.Coords) (k0_t1 : Fin (k0_t1_loop i).trips) (k0_t2 : Fin k0_t2_loop.trips), ∀ a, (k0_off14 i k0_t1 k0_t2) a + S1x1x1x1x16.size a ≤ S4x2x5x8x128.size a
  k0_off15_inb : ∀ (i : grid0.Coords) (k0_t1 : Fin (k0_t1_loop i).trips) (k0_t2 : Fin k0_t2_loop.trips), ∀ a, (k0_off15 i k0_t1 k0_t2) a + S1x1x1x1x16.size a ≤ S4x2x5x8x128.size a
  k0_off16_inb : ∀ (i : grid0.Coords) (k0_t1 : Fin (k0_t1_loop i).trips) (k0_t2 : Fin k0_t2_loop.trips), ∀ a, (k0_off16 i k0_t1 k0_t2) a + S1x1x1x1x16.size a ≤ S4x2x5x8x128.size a
  k0_off17_inb : ∀ (i : grid0.Coords) (k0_t1 : Fin (k0_t1_loop i).trips) (k0_t2 : Fin k0_t2_loop.trips), ∀ a, (k0_off17 i k0_t1 k0_t2) a + S1x1x1x1x16.size a ≤ S4x2x5x8x128.size a
  k0_off18_inb : ∀ (i : grid0.Coords) (k0_t1 : Fin (k0_t1_loop i).trips) (k0_t2 : Fin k0_t2_loop.trips), ∀ a, (k0_off18 i k0_t1 k0_t2) a + S1x1x1x1x16.size a ≤ S4x2x5x8x128.size a
  k0_off19_inb : ∀ (i : grid0.Coords) (k0_t1 : Fin (k0_t1_loop i).trips) (k0_t2 : Fin k0_t2_loop.trips), ∀ a, (k0_off19 i k0_t1 k0_t2) a + S1x1x1x1x16.size a ≤ S4x2x5x8x128.size a
  k0_off20_inb : ∀ (i : grid0.Coords) (k0_t1 : Fin (k0_t1_loop i).trips) (k0_t2 : Fin k0_t2_loop.trips), ∀ a, (k0_off20 i k0_t1 k0_t2) a + S1x1x1x1x16.size a ≤ S4x2x5x8x128.size a
  k0_off21_inb : ∀ (i : grid0.Coords) (k0_t1 : Fin (k0_t1_loop i).trips) (k0_t2 : Fin k0_t2_loop.trips), ∀ a, (k0_off21 i k0_t1 k0_t2) a + S1x1x1x1x16.size a ≤ S4x2x5x8x128.size a
  k0_off22_inb : ∀ (i : grid0.Coords) (k0_t1 : Fin (k0_t1_loop i).trips) (k0_t2 : Fin k0_t2_loop.trips), ∀ a, (k0_off22 i k0_t1 k0_t2) a + S1x1x1x1x16.size a ≤ S4x2x5x8x128.size a
  k0_off23_inb : ∀ (i : grid0.Coords) (k0_t1 : Fin (k0_t1_loop i).trips) (k0_t2 : Fin k0_t2_loop.trips), ∀ a, (k0_off23 i k0_t1 k0_t2) a + S1x1x1x1x16.size a ≤ S4x2x5x8x128.size a
  k0_off24_inb : ∀ (i : grid0.Coords) (k0_t1 : Fin (k0_t1_loop i).trips) (k0_t2 : Fin k0_t2_loop.trips), ∀ a, (k0_off24 i k0_t1 k0_t2) a + S1x1x1x1x16.size a ≤ S4x2x5x8x128.size a
  k0_off25_inb : ∀ (i : grid0.Coords) (k0_t1 : Fin (k0_t1_loop i).trips) (k0_t2 : Fin k0_t2_loop.trips), ∀ a, (k0_off25 i k0_t1 k0_t2) a + S1x1x1x1x16.size a ≤ S4x2x5x8x128.size a
  k0_off26_inb : ∀ (i : grid0.Coords) (k0_t1 : Fin (k0_t1_loop i).trips) (k0_t2 : Fin k0_t2_loop.trips), ∀ a, (k0_off26 i k0_t1 k0_t2) a + S1x1x1x1x16.size a ≤ S4x2x5x8x128.size a
  k0_off27_inb : ∀ (i : grid0.Coords) (k0_t1 : Fin (k0_t1_loop i).trips) (k0_t2 : Fin k0_t2_loop.trips), ∀ a, (k0_off27 i k0_t1 k0_t2) a + S1x1x1x1x16.size a ≤ S4x2x5x8x128.size a
  k0_off28_inb : ∀ (i : grid0.Coords) (k0_t1 : Fin (k0_t1_loop i).trips) (k0_t2 : Fin k0_t2_loop.trips), ∀ a, (k0_off28 i k0_t1 k0_t2) a + S1x1x1x1x16.size a ≤ S4x2x5x8x128.size a
  k0_off29_inb : ∀ (i : grid0.Coords) (k0_t1 : Fin (k0_t1_loop i).trips) (k0_t2 : Fin k0_t2_loop.trips), ∀ a, (k0_off29 i k0_t1 k0_t2) a + S1x1x1x1x16.size a ≤ S4x2x5x8x128.size a
  k0_off30_inb : ∀ (i : grid0.Coords) (k0_t1 : Fin (k0_t1_loop i).trips) (k0_t2 : Fin k0_t2_loop.trips), ∀ a, (k0_off30 i k0_t1 k0_t2) a + S1x1x1x1x16.size a ≤ S4x2x5x8x128.size a
  k0_off31_inb : ∀ (i : grid0.Coords) (k0_t1 : Fin (k0_t1_loop i).trips) (k0_t2 : Fin k0_t2_loop.trips), ∀ a, (k0_off31 i k0_t1 k0_t2) a + S1x1x1x1x16.size a ≤ S4x2x5x8x128.size a
  k0_off32_inb : ∀ (i : grid0.Coords) (k0_t1 : Fin (k0_t1_loop i).trips) (k0_t2 : Fin k0_t2_loop.trips), ∀ a, (k0_off32 i k0_t1 k0_t2) a + S1x1x1x1x16.size a ≤ S4x2x5x8x128.size a
  k0_off33_inb : ∀ (i : grid0.Coords) (k0_t1 : Fin (k0_t1_loop i).trips) (k0_t2 : Fin k0_t2_loop.trips), ∀ a, (k0_off33 i k0_t1 k0_t2) a + S1x1x1x1x16.size a ≤ S4x2x5x8x128.size a
  k0_off34_inb : ∀ (i : grid0.Coords) (k0_t1 : Fin (k0_t1_loop i).trips) (k0_t2 : Fin k0_t2_loop.trips), ∀ a, (k0_off34 i k0_t1 k0_t2) a + S1x1x1x1x16.size a ≤ S4x2x5x8x128.size a
  k0_off35_inb : ∀ (i : grid0.Coords) (k0_t1 : Fin (k0_t1_loop i).trips) (k0_t2 : Fin k0_t2_loop.trips), ∀ a, (k0_off35 i k0_t1 k0_t2) a + S1x1x1x1x16.size a ≤ S4x2x5x8x128.size a
  k0_off36_inb : ∀ (i : grid0.Coords) (k0_t1 : Fin (k0_t1_loop i).trips) (k0_t2 : Fin k0_t2_loop.trips), ∀ a, (k0_off36 i k0_t1 k0_t2) a + S1x1x1x1x16.size a ≤ S4x2x5x8x128.size a
  k0_off37_inb : ∀ (i : grid0.Coords) (k0_t1 : Fin (k0_t1_loop i).trips) (k0_t2 : Fin k0_t2_loop.trips), ∀ a, (k0_off37 i k0_t1 k0_t2) a + S1x1x1x1x16.size a ≤ S4x2x5x8x128.size a
  k0_off38_inb : ∀ (i : grid0.Coords) (k0_t1 : Fin (k0_t1_loop i).trips) (k0_t2 : Fin k0_t2_loop.trips), ∀ a, (k0_off38 i k0_t1 k0_t2) a + S1x1x1x1x16.size a ≤ S4x2x5x8x128.size a
  k0_off39_inb : ∀ (i : grid0.Coords) (k0_t1 : Fin (k0_t1_loop i).trips) (k0_t2 : Fin k0_t2_loop.trips), ∀ a, (k0_off39 i k0_t1 k0_t2) a + S1x1x1x1x16.size a ≤ S4x2x5x8x128.size a
  k0_off40_inb : ∀ (i : grid0.Coords) (k0_t1 : Fin (k0_t1_loop i).trips) (k0_t2 : Fin k0_t2_loop.trips), ∀ a, (k0_off40 i k0_t1 k0_t2) a + S1x1x1x1x16.size a ≤ S4x2x5x8x128.size a
  k0_off41_inb : ∀ (i : grid0.Coords) (k0_t1 : Fin (k0_t1_loop i).trips) (k0_t2 : Fin k0_t2_loop.trips), ∀ a, (k0_off41 i k0_t1 k0_t2) a + S1x1x1x1x16.size a ≤ S4x2x5x8x128.size a
  k0_off42_inb : ∀ (i : grid0.Coords) (k0_t1 : Fin (k0_t1_loop i).trips) (k0_t2 : Fin k0_t2_loop.trips), ∀ a, (k0_off42 i k0_t1 k0_t2) a + S1x1x1x1x16.size a ≤ S4x2x5x8x128.size a
  k0_off43_inb : ∀ (i : grid0.Coords) (k0_t1 : Fin (k0_t1_loop i).trips) (k0_t2 : Fin k0_t2_loop.trips), ∀ a, (k0_off43 i k0_t1 k0_t2) a + S1x1x1x1x16.size a ≤ S4x2x5x8x128.size a
  k0_off44_inb : ∀ (i : grid0.Coords) (k0_t1 : Fin (k0_t1_loop i).trips) (k0_t2 : Fin k0_t2_loop.trips), ∀ a, (k0_off44 i k0_t1 k0_t2) a + S1x1x1x1x16.size a ≤ S4x2x5x8x128.size a
  k0_off45_inb : ∀ (i : grid0.Coords) (k0_t1 : Fin (k0_t1_loop i).trips) (k0_t2 : Fin k0_t2_loop.trips), ∀ a, (k0_off45 i k0_t1 k0_t2) a + S1x1x1x1x16.size a ≤ S4x2x5x8x128.size a
  k0_off46_inb : ∀ (i : grid0.Coords) (k0_t1 : Fin (k0_t1_loop i).trips) (k0_t2 : Fin k0_t2_loop.trips), ∀ a, (k0_off46 i k0_t1 k0_t2) a + S1x1x1x1x16.size a ≤ S4x2x5x8x128.size a
  k0_off47_inb : ∀ (i : grid0.Coords) (k0_t1 : Fin (k0_t1_loop i).trips) (k0_t2 : Fin k0_t2_loop.trips), ∀ a, (k0_off47 i k0_t1 k0_t2) a + S1x1x1x1x16.size a ≤ S4x2x5x8x128.size a
  k0_off48_inb : ∀ (i : grid0.Coords) (k0_t1 : Fin (k0_t1_loop i).trips) (k0_t2 : Fin k0_t2_loop.trips), ∀ a, (k0_off48 i k0_t1 k0_t2) a + S1x1x1x1x16.size a ≤ S4x2x5x8x128.size a
  k0_off49_inb : ∀ (i : grid0.Coords) (k0_t1 : Fin (k0_t1_loop i).trips) (k0_t2 : Fin k0_t2_loop.trips), ∀ a, (k0_off49 i k0_t1 k0_t2) a + S1x1x1x1x16.size a ≤ S4x2x5x8x128.size a
  k0_off50_inb : ∀ (i : grid0.Coords) (k0_t1 : Fin (k0_t1_loop i).trips) (k0_t2 : Fin k0_t2_loop.trips), ∀ a, (k0_off50 i k0_t1 k0_t2) a + S1x1x1x1x16.size a ≤ S4x2x5x8x128.size a
  k0_off51_inb : ∀ (i : grid0.Coords) (k0_t1 : Fin (k0_t1_loop i).trips) (k0_t2 : Fin k0_t2_loop.trips), ∀ a, (k0_off51 i k0_t1 k0_t2) a + S1x1x1x1x16.size a ≤ S4x2x5x8x128.size a
  k0_off52_inb : ∀ (i : grid0.Coords) (k0_t1 : Fin (k0_t1_loop i).trips) (k0_t2 : Fin k0_t2_loop.trips), ∀ a, (k0_off52 i k0_t1 k0_t2) a + S1x1x1x1x16.size a ≤ S4x2x5x8x128.size a
  k0_off53_inb : ∀ (i : grid0.Coords) (k0_t1 : Fin (k0_t1_loop i).trips) (k0_t2 : Fin k0_t2_loop.trips), ∀ a, (k0_off53 i k0_t1 k0_t2) a + S1x1x1x1x16.size a ≤ S4x2x5x8x128.size a
  k0_off54_inb : ∀ (i : grid0.Coords) (k0_t1 : Fin (k0_t1_loop i).trips) (k0_t2 : Fin k0_t2_loop.trips), ∀ a, (k0_off54 i k0_t1 k0_t2) a + S1x1x1x1x16.size a ≤ S4x2x5x8x128.size a
  k0_off55_inb : ∀ (i : grid0.Coords) (k0_t1 : Fin (k0_t1_loop i).trips) (k0_t2 : Fin k0_t2_loop.trips), ∀ a, (k0_off55 i k0_t1 k0_t2) a + S1x1x1x1x16.size a ≤ S4x2x5x8x128.size a
  k0_off56_inb : ∀ (i : grid0.Coords) (k0_t1 : Fin (k0_t1_loop i).trips) (k0_t2 : Fin k0_t2_loop.trips), ∀ a, (k0_off56 i k0_t1 k0_t2) a + S1x1x1x1x16.size a ≤ S4x2x5x8x128.size a
  k0_off57_inb : ∀ (i : grid0.Coords) (k0_t1 : Fin (k0_t1_loop i).trips) (k0_t2 : Fin k0_t2_loop.trips), ∀ a, (k0_off57 i k0_t1 k0_t2) a + S1x1x1x1x16.size a ≤ S4x2x5x8x128.size a
  k0_off58_inb : ∀ (i : grid0.Coords) (k0_t1 : Fin (k0_t1_loop i).trips) (k0_t2 : Fin k0_t2_loop.trips), ∀ a, (k0_off58 i k0_t1 k0_t2) a + S1x1x1x1x16.size a ≤ S4x2x5x8x128.size a
  k0_off59_inb : ∀ (i : grid0.Coords) (k0_t1 : Fin (k0_t1_loop i).trips) (k0_t2 : Fin k0_t2_loop.trips), ∀ a, (k0_off59 i k0_t1 k0_t2) a + S1x1x1x1x16.size a ≤ S4x2x5x8x128.size a
  k0_off60_inb : ∀ (i : grid0.Coords) (k0_t1 : Fin (k0_t1_loop i).trips) (k0_t2 : Fin k0_t2_loop.trips), ∀ a, (k0_off60 i k0_t1 k0_t2) a + S1x1x1x1x16.size a ≤ S4x2x5x8x128.size a
  k0_off61_inb : ∀ (i : grid0.Coords) (k0_t1 : Fin (k0_t1_loop i).trips) (k0_t2 : Fin k0_t2_loop.trips), ∀ a, (k0_off61 i k0_t1 k0_t2) a + S1x1x1x1x16.size a ≤ S4x2x5x8x128.size a
  k0_off62_inb : ∀ (i : grid0.Coords) (k0_t1 : Fin (k0_t1_loop i).trips) (k0_t2 : Fin k0_t2_loop.trips), ∀ a, (k0_off62 i k0_t1 k0_t2) a + S1x1x1x1x16.size a ≤ S4x2x5x8x128.size a
  k0_off63_inb : ∀ (i : grid0.Coords) (k0_t1 : Fin (k0_t1_loop i).trips) (k0_t2 : Fin k0_t2_loop.trips), ∀ a, (k0_off63 i k0_t1 k0_t2) a + S1x1x1x1x16.size a ≤ S4x2x5x8x128.size a
  k0_off64_inb : ∀ (i : grid0.Coords) (k0_t1 : Fin (k0_t1_loop i).trips) (k0_t2 : Fin k0_t2_loop.trips), ∀ a, (k0_off64 i k0_t1 k0_t2) a + S1x1x1x1x16.size a ≤ S4x2x5x8x128.size a
  k0_off65_inb : ∀ (i : grid0.Coords) (k0_t1 : Fin (k0_t1_loop i).trips) (k0_t2 : Fin k0_t2_loop.trips), ∀ a, (k0_off65 i k0_t1 k0_t2) a + S1x1x1x1x16.size a ≤ S4x2x5x8x128.size a
  k0_off66_inb : ∀ (i : grid0.Coords) (k0_t1 : Fin (k0_t1_loop i).trips) (k0_t2 : Fin k0_t2_loop.trips), ∀ a, (k0_off66 i k0_t1 k0_t2) a + S1x1x1x1x16.size a ≤ S4x2x5x8x128.size a
  k0_off67_inb : ∀ (i : grid0.Coords) (k0_t1 : Fin (k0_t1_loop i).trips) (k0_t2 : Fin k0_t2_loop.trips), ∀ a, (k0_off67 i k0_t1 k0_t2) a + S1x1x1x1x16.size a ≤ S4x2x5x8x128.size a
  k0_off68_inb : ∀ (i : grid0.Coords) (k0_t1 : Fin (k0_t1_loop i).trips) (k0_t2 : Fin k0_t2_loop.trips), ∀ a, (k0_off68 i k0_t1 k0_t2) a + S1x1x1x1x16.size a ≤ S4x2x5x8x128.size a
  k0_off69_inb : ∀ (i : grid0.Coords) (k0_t1 : Fin (k0_t1_loop i).trips) (k0_t2 : Fin k0_t2_loop.trips), ∀ a, (k0_off69 i k0_t1 k0_t2) a + S1x1x1x1x16.size a ≤ S4x2x5x8x128.size a
  k0_off70_inb : ∀ (i : grid0.Coords) (k0_t1 : Fin (k0_t1_loop i).trips) (k0_t2 : Fin k0_t2_loop.trips), ∀ a, (k0_off70 i k0_t1 k0_t2) a + S1x1x1x1x16.size a ≤ S4x2x5x8x128.size a
  k0_off71_inb : ∀ (i : grid0.Coords) (k0_t1 : Fin (k0_t1_loop i).trips) (k0_t2 : Fin k0_t2_loop.trips), ∀ a, (k0_off71 i k0_t1 k0_t2) a + S1x1x1x1x16.size a ≤ S4x2x5x8x128.size a
  k0_off72_inb : ∀ (i : grid0.Coords) (k0_t1 : Fin (k0_t1_loop i).trips) (k0_t2 : Fin k0_t2_loop.trips), ∀ a, (k0_off72 i k0_t1 k0_t2) a + S1x1x1x1x16.size a ≤ S4x2x5x8x128.size a
  k0_off73_inb : ∀ (i : grid0.Coords) (k0_t1 : Fin (k0_t1_loop i).trips) (k0_t2 : Fin k0_t2_loop.trips), ∀ a, (k0_off73 i k0_t1 k0_t2) a + S1x1x1x1x16.size a ≤ S4x2x5x8x128.size a
  k0_off74_inb : ∀ (i : grid0.Coords) (k0_t1 : Fin (k0_t1_loop i).trips) (k0_t2 : Fin k0_t2_loop.trips), ∀ a, (k0_off74 i k0_t1 k0_t2) a + S1x1x1x1x16.size a ≤ S4x2x5x8x128.size a
  k0_off75_inb : ∀ (i : grid0.Coords) (k0_t1 : Fin (k0_t1_loop i).trips) (k0_t2 : Fin k0_t2_loop.trips), ∀ a, (k0_off75 i k0_t1 k0_t2) a + S1x1x1x1x16.size a ≤ S4x2x5x8x128.size a
  k0_off76_inb : ∀ (i : grid0.Coords) (k0_t1 : Fin (k0_t1_loop i).trips) (k0_t2 : Fin k0_t2_loop.trips), ∀ a, (k0_off76 i k0_t1 k0_t2) a + S1x1x1x1x16.size a ≤ S4x2x5x8x128.size a
  k0_off77_inb : ∀ (i : grid0.Coords) (k0_t1 : Fin (k0_t1_loop i).trips) (k0_t2 : Fin k0_t2_loop.trips), ∀ a, (k0_off77 i k0_t1 k0_t2) a + S1x1x1x1x16.size a ≤ S4x2x5x8x128.size a
  k0_off78_inb : ∀ (i : grid0.Coords) (k0_t1 : Fin (k0_t1_loop i).trips) (k0_t2 : Fin k0_t2_loop.trips), ∀ a, (k0_off78 i k0_t1 k0_t2) a + S1x1x1x1x16.size a ≤ S4x2x5x8x128.size a
  k0_off79_inb : ∀ (i : grid0.Coords) (k0_t1 : Fin (k0_t1_loop i).trips) (k0_t2 : Fin k0_t2_loop.trips), ∀ a, (k0_off79 i k0_t1 k0_t2) a + S1x1x1x1x16.size a ≤ S4x2x5x8x128.size a
  k0_off80_inb : ∀ (i : grid0.Coords) (k0_t1 : Fin (k0_t1_loop i).trips) (k0_t2 : Fin k0_t2_loop.trips), ∀ a, (k0_off80 i k0_t1 k0_t2) a + S1x1x1x1x16.size a ≤ S4x2x5x8x128.size a
  k0_off81_inb : ∀ (i : grid0.Coords) (k0_t1 : Fin (k0_t1_loop i).trips) (k0_t2 : Fin k0_t2_loop.trips), ∀ a, (k0_off81 i k0_t1 k0_t2) a + S1x1x1x1x16.size a ≤ S4x2x5x8x128.size a
  k0_off82_inb : ∀ (i : grid0.Coords) (k0_t1 : Fin (k0_t1_loop i).trips) (k0_t2 : Fin k0_t2_loop.trips), ∀ a, (k0_off82 i k0_t1 k0_t2) a + S1x1x1x1x16.size a ≤ S4x2x5x8x128.size a
  k0_off83_inb : ∀ (i : grid0.Coords) (k0_t1 : Fin (k0_t1_loop i).trips) (k0_t2 : Fin k0_t2_loop.trips), ∀ a, (k0_off83 i k0_t1 k0_t2) a + S1x1x1x1x16.size a ≤ S4x2x5x8x128.size a
  k0_off84_inb : ∀ (i : grid0.Coords) (k0_t1 : Fin (k0_t1_loop i).trips) (k0_t2 : Fin k0_t2_loop.trips), ∀ a, (k0_off84 i k0_t1 k0_t2) a + S1x1x1x1x16.size a ≤ S4x2x5x8x128.size a
  k0_off85_inb : ∀ (i : grid0.Coords) (k0_t1 : Fin (k0_t1_loop i).trips) (k0_t2 : Fin k0_t2_loop.trips), ∀ a, (k0_off85 i k0_t1 k0_t2) a + S1x1x1x1x16.size a ≤ S4x2x5x8x128.size a
  k0_off86_inb : ∀ (i : grid0.Coords) (k0_t1 : Fin (k0_t1_loop i).trips) (k0_t2 : Fin k0_t2_loop.trips), ∀ a, (k0_off86 i k0_t1 k0_t2) a + S1x1x1x1x16.size a ≤ S4x2x5x8x128.size a
  k0_off87_inb : ∀ (i : grid0.Coords) (k0_t1 : Fin (k0_t1_loop i).trips) (k0_t2 : Fin k0_t2_loop.trips), ∀ a, (k0_off87 i k0_t1 k0_t2) a + S1x1x1x1x16.size a ≤ S4x2x5x8x128.size a
  k0_off88_inb : ∀ (i : grid0.Coords) (k0_t1 : Fin (k0_t1_loop i).trips) (k0_t2 : Fin k0_t2_loop.trips), ∀ a, (k0_off88 i k0_t1 k0_t2) a + S1x1x1x1x16.size a ≤ S4x2x5x8x128.size a
  k0_off89_inb : ∀ (i : grid0.Coords) (k0_t1 : Fin (k0_t1_loop i).trips) (k0_t2 : Fin k0_t2_loop.trips), ∀ a, (k0_off89 i k0_t1 k0_t2) a + S1x1x1x1x16.size a ≤ S4x2x5x8x128.size a
  k0_off90_inb : ∀ (i : grid0.Coords) (k0_t1 : Fin (k0_t1_loop i).trips) (k0_t2 : Fin k0_t2_loop.trips), ∀ a, (k0_off90 i k0_t1 k0_t2) a + S1x1x1x1x16.size a ≤ S4x2x5x8x128.size a
  k0_off91_inb : ∀ (i : grid0.Coords) (k0_t1 : Fin (k0_t1_loop i).trips) (k0_t2 : Fin k0_t2_loop.trips), ∀ a, (k0_off91 i k0_t1 k0_t2) a + S1x1x1x1x16.size a ≤ S4x2x5x8x128.size a
  k0_off92_inb : ∀ (i : grid0.Coords) (k0_t1 : Fin (k0_t1_loop i).trips) (k0_t2 : Fin k0_t2_loop.trips), ∀ a, (k0_off92 i k0_t1 k0_t2) a + S1x1x1x1x16.size a ≤ S4x2x5x8x128.size a
  k0_off93_inb : ∀ (i : grid0.Coords) (k0_t1 : Fin (k0_t1_loop i).trips) (k0_t2 : Fin k0_t2_loop.trips), ∀ a, (k0_off93 i k0_t1 k0_t2) a + S1x1x1x1x16.size a ≤ S4x2x5x8x128.size a
  k0_off94_inb : ∀ (i : grid0.Coords) (k0_t1 : Fin (k0_t1_loop i).trips) (k0_t2 : Fin k0_t2_loop.trips), ∀ a, (k0_off94 i k0_t1 k0_t2) a + S1x1x1x1x16.size a ≤ S4x2x5x8x128.size a
  k0_off95_inb : ∀ (i : grid0.Coords) (k0_t1 : Fin (k0_t1_loop i).trips) (k0_t2 : Fin k0_t2_loop.trips), ∀ a, (k0_off95 i k0_t1 k0_t2) a + S1x1x1x1x16.size a ≤ S4x2x5x8x128.size a
  k0_off96_inb : ∀ (i : grid0.Coords) (k0_t1 : Fin (k0_t1_loop i).trips) (k0_t2 : Fin k0_t2_loop.trips), ∀ a, (k0_off96 i k0_t1 k0_t2) a + S1x1x1x1x16.size a ≤ S4x2x5x8x128.size a
  k0_off97_inb : ∀ (i : grid0.Coords) (k0_t1 : Fin (k0_t1_loop i).trips) (k0_t2 : Fin k0_t2_loop.trips), ∀ a, (k0_off97 i k0_t1 k0_t2) a + S1x1x1x1x16.size a ≤ S4x2x5x8x128.size a
  k0_off98_inb : ∀ (i : grid0.Coords) (k0_t1 : Fin (k0_t1_loop i).trips) (k0_t2 : Fin k0_t2_loop.trips), ∀ a, (k0_off98 i k0_t1 k0_t2) a + S1x1x1x1x16.size a ≤ S4x2x5x8x128.size a
  k0_off99_inb : ∀ (i : grid0.Coords) (k0_t1 : Fin (k0_t1_loop i).trips) (k0_t2 : Fin k0_t2_loop.trips), ∀ a, (k0_off99 i k0_t1 k0_t2) a + S1x1x1x1x16.size a ≤ S4x2x5x8x128.size a
  k0_off100_inb : ∀ (i : grid0.Coords) (k0_t1 : Fin (k0_t1_loop i).trips) (k0_t2 : Fin k0_t2_loop.trips), ∀ a, (k0_off100 i k0_t1 k0_t2) a + S1x1x1x1x16.size a ≤ S4x2x5x8x128.size a
  k0_off101_inb : ∀ (i : grid0.Coords) (k0_t1 : Fin (k0_t1_loop i).trips) (k0_t2 : Fin k0_t2_loop.trips), ∀ a, (k0_off101 i k0_t1 k0_t2) a + S1x1x1x1x16.size a ≤ S4x2x5x8x128.size a
  k0_off102_inb : ∀ (i : grid0.Coords) (k0_t1 : Fin (k0_t1_loop i).trips) (k0_t2 : Fin k0_t2_loop.trips), ∀ a, (k0_off102 i k0_t1 k0_t2) a + S1x1x1x1x16.size a ≤ S4x2x5x8x128.size a
  k0_off103_inb : ∀ (i : grid0.Coords) (k0_t1 : Fin (k0_t1_loop i).trips) (k0_t2 : Fin k0_t2_loop.trips), ∀ a, (k0_off103 i k0_t1 k0_t2) a + S1x1x1x1x16.size a ≤ S4x2x5x8x128.size a
  k0_off104_inb : ∀ (i : grid0.Coords) (k0_t1 : Fin (k0_t1_loop i).trips) (k0_t2 : Fin k0_t2_loop.trips), ∀ a, (k0_off104 i k0_t1 k0_t2) a + S1x1x1x1x16.size a ≤ S4x2x5x8x128.size a
  k0_off105_inb : ∀ (i : grid0.Coords) (k0_t1 : Fin (k0_t1_loop i).trips) (k0_t2 : Fin k0_t2_loop.trips), ∀ a, (k0_off105 i k0_t1 k0_t2) a + S1x1x1x1x16.size a ≤ S4x2x5x8x128.size a
  k0_off106_inb : ∀ (i : grid0.Coords) (k0_t1 : Fin (k0_t1_loop i).trips) (k0_t2 : Fin k0_t2_loop.trips), ∀ a, (k0_off106 i k0_t1 k0_t2) a + S1x1x1x1x16.size a ≤ S4x2x5x8x128.size a
  k0_off107_inb : ∀ (i : grid0.Coords) (k0_t1 : Fin (k0_t1_loop i).trips) (k0_t2 : Fin k0_t2_loop.trips), ∀ a, (k0_off107 i k0_t1 k0_t2) a + S1x1x1x1x16.size a ≤ S4x2x5x8x128.size a
  k0_off108_inb : ∀ (i : grid0.Coords) (k0_t1 : Fin (k0_t1_loop i).trips) (k0_t2 : Fin k0_t2_loop.trips), ∀ a, (k0_off108 i k0_t1 k0_t2) a + S1x1x1x1x16.size a ≤ S4x2x5x8x128.size a
  k0_off109_inb : ∀ (i : grid0.Coords) (k0_t1 : Fin (k0_t1_loop i).trips) (k0_t2 : Fin k0_t2_loop.trips), ∀ a, (k0_off109 i k0_t1 k0_t2) a + S1x1x1x1x16.size a ≤ S4x2x5x8x128.size a
  k0_off110_inb : ∀ (i : grid0.Coords) (k0_t1 : Fin (k0_t1_loop i).trips) (k0_t2 : Fin k0_t2_loop.trips), ∀ a, (k0_off110 i k0_t1 k0_t2) a + S1x1x1x1x16.size a ≤ S4x2x5x8x128.size a
  k0_off111_inb : ∀ (i : grid0.Coords) (k0_t1 : Fin (k0_t1_loop i).trips) (k0_t2 : Fin k0_t2_loop.trips), ∀ a, (k0_off111 i k0_t1 k0_t2) a + S1x1x1x1x16.size a ≤ S4x2x5x8x128.size a
  k0_off112_inb : ∀ (i : grid0.Coords) (k0_t1 : Fin (k0_t1_loop i).trips) (k0_t2 : Fin k0_t2_loop.trips), ∀ a, (k0_off112 i k0_t1 k0_t2) a + S1x1x1x1x16.size a ≤ S4x2x5x8x128.size a
  k0_off113_inb : ∀ (i : grid0.Coords) (k0_t1 : Fin (k0_t1_loop i).trips) (k0_t2 : Fin k0_t2_loop.trips), ∀ a, (k0_off113 i k0_t1 k0_t2) a + S1x1x1x1x16.size a ≤ S4x2x5x8x128.size a
  k0_off114_inb : ∀ (i : grid0.Coords) (k0_t1 : Fin (k0_t1_loop i).trips) (k0_t2 : Fin k0_t2_loop.trips), ∀ a, (k0_off114 i k0_t1 k0_t2) a + S1x1x1x1x16.size a ≤ S4x2x5x8x128.size a
  k0_off115_inb : ∀ (i : grid0.Coords) (k0_t1 : Fin (k0_t1_loop i).trips) (k0_t2 : Fin k0_t2_loop.trips), ∀ a, (k0_off115 i k0_t1 k0_t2) a + S1x1x1x1x16.size a ≤ S4x2x5x8x128.size a
  k0_off116_inb : ∀ (i : grid0.Coords) (k0_t1 : Fin (k0_t1_loop i).trips) (k0_t2 : Fin k0_t2_loop.trips), ∀ a, (k0_off116 i k0_t1 k0_t2) a + S1x1x1x1x16.size a ≤ S4x2x5x8x128.size a
  k0_off117_inb : ∀ (i : grid0.Coords) (k0_t1 : Fin (k0_t1_loop i).trips) (k0_t2 : Fin k0_t2_loop.trips), ∀ a, (k0_off117 i k0_t1 k0_t2) a + S1x1x1x1x16.size a ≤ S4x2x5x8x128.size a
  k0_off118_inb : ∀ (i : grid0.Coords) (k0_t1 : Fin (k0_t1_loop i).trips) (k0_t2 : Fin k0_t2_loop.trips), ∀ a, (k0_off118 i k0_t1 k0_t2) a + S1x1x1x1x16.size a ≤ S4x2x5x8x128.size a
  k0_off119_inb : ∀ (i : grid0.Coords) (k0_t1 : Fin (k0_t1_loop i).trips) (k0_t2 : Fin k0_t2_loop.trips), ∀ a, (k0_off119 i k0_t1 k0_t2) a + S1x1x1x1x16.size a ≤ S4x2x5x8x128.size a
  k0_off120_inb : ∀ (i : grid0.Coords) (k0_t1 : Fin (k0_t1_loop i).trips) (k0_t2 : Fin k0_t2_loop.trips), ∀ a, (k0_off120 i k0_t1 k0_t2) a + S1x1x1x1x16.size a ≤ S4x2x5x8x128.size a
  k0_off121_inb : ∀ (i : grid0.Coords) (k0_t1 : Fin (k0_t1_loop i).trips) (k0_t2 : Fin k0_t2_loop.trips), ∀ a, (k0_off121 i k0_t1 k0_t2) a + S1x1x1x1x16.size a ≤ S4x2x5x8x128.size a
  k0_off122_inb : ∀ (i : grid0.Coords) (k0_t1 : Fin (k0_t1_loop i).trips) (k0_t2 : Fin k0_t2_loop.trips), ∀ a, (k0_off122 i k0_t1 k0_t2) a + S1x1x1x1x16.size a ≤ S4x2x5x8x128.size a
  k0_off123_inb : ∀ (i : grid0.Coords) (k0_t1 : Fin (k0_t1_loop i).trips) (k0_t2 : Fin k0_t2_loop.trips), ∀ a, (k0_off123 i k0_t1 k0_t2) a + S1x1x1x1x16.size a ≤ S4x2x5x8x128.size a
  k0_off124_inb : ∀ (i : grid0.Coords) (k0_t1 : Fin (k0_t1_loop i).trips) (k0_t2 : Fin k0_t2_loop.trips), ∀ a, (k0_off124 i k0_t1 k0_t2) a + S1x1x1x1x16.size a ≤ S4x2x5x8x128.size a
  k0_off125_inb : ∀ (i : grid0.Coords) (k0_t1 : Fin (k0_t1_loop i).trips) (k0_t2 : Fin k0_t2_loop.trips), ∀ a, (k0_off125 i k0_t1 k0_t2) a + S1x1x1x1x16.size a ≤ S4x2x5x8x128.size a
  k0_off126_inb : ∀ (i : grid0.Coords) (k0_t1 : Fin (k0_t1_loop i).trips) (k0_t2 : Fin k0_t2_loop.trips), ∀ a, (k0_off126 i k0_t1 k0_t2) a + S1x1x1x1x16.size a ≤ S4x2x5x8x128.size a
  k0_off127_inb : ∀ (i : grid0.Coords) (k0_t1 : Fin (k0_t1_loop i).trips) (k0_t2 : Fin k0_t2_loop.trips), ∀ a, (k0_off127 i k0_t1 k0_t2) a + S1x1x1x1x16.size a ≤ S4x2x5x8x128.size a
  k0_off128_inb : ∀ (i : grid0.Coords) (k0_t1 : Fin (k0_t1_loop i).trips) (k0_t2 : Fin k0_t2_loop.trips), ∀ a, (k0_off128 i k0_t1 k0_t2) a + S1x1x1x1x16.size a ≤ S4x2x5x8x128.size a
  k0_off129_inb : ∀ (i : grid0.Coords) (k0_t1 : Fin (k0_t1_loop i).trips) (k0_t2 : Fin k0_t2_loop.trips), ∀ a, (k0_off129 i k0_t1 k0_t2) a + S1x1x1x1x16.size a ≤ S4x2x5x8x128.size a
  k0_off130_inb : ∀ (i : grid0.Coords) (k0_t1 : Fin (k0_t1_loop i).trips) (k0_t2 : Fin k0_t2_loop.trips), ∀ a, (k0_off130 i k0_t1 k0_t2) a + S1x1x1x1x16.size a ≤ S4x2x5x8x128.size a
  k0_off131_inb : ∀ (i : grid0.Coords) (k0_t1 : Fin (k0_t1_loop i).trips) (k0_t2 : Fin k0_t2_loop.trips), ∀ a, (k0_off131 i k0_t1 k0_t2) a + S1x1x1x1x16.size a ≤ S4x2x5x8x128.size a
  k0_off132_inb : ∀ (i : grid0.Coords) (k0_t1 : Fin (k0_t1_loop i).trips) (k0_t2 : Fin k0_t2_loop.trips), ∀ a, (k0_off132 i k0_t1 k0_t2) a + S1x1x1x1x16.size a ≤ S4x2x5x8x128.size a
  k0_off133_inb : ∀ (i : grid0.Coords) (k0_t1 : Fin (k0_t1_loop i).trips) (k0_t2 : Fin k0_t2_loop.trips), ∀ a, (k0_off133 i k0_t1 k0_t2) a + S1x1x1x1x16.size a ≤ S4x2x5x8x128.size a
  k0_off134_inb : ∀ (i : grid0.Coords) (k0_t1 : Fin (k0_t1_loop i).trips) (k0_t2 : Fin k0_t2_loop.trips), ∀ a, (k0_off134 i k0_t1 k0_t2) a + S1x1x1x1x16.size a ≤ S4x2x5x8x128.size a
  k0_off135_inb : ∀ (i : grid0.Coords) (k0_t1 : Fin (k0_t1_loop i).trips) (k0_t2 : Fin k0_t2_loop.trips), ∀ a, (k0_off135 i k0_t1 k0_t2) a + S1x1x1x1x16.size a ≤ S4x2x5x8x128.size a
  k0_off136_inb : ∀ (i : grid0.Coords) (k0_t1 : Fin (k0_t1_loop i).trips) (k0_t2 : Fin k0_t2_loop.trips), ∀ a, (k0_off136 i k0_t1 k0_t2) a + S1x1x1x1x16.size a ≤ S4x2x5x8x128.size a
  k0_off137_inb : ∀ (i : grid0.Coords) (k0_t1 : Fin (k0_t1_loop i).trips) (k0_t2 : Fin k0_t2_loop.trips), ∀ a, (k0_off137 i k0_t1 k0_t2) a + S1x1x1x1x16.size a ≤ S4x2x5x8x128.size a
  k0_off138_inb : ∀ (i : grid0.Coords) (k0_t1 : Fin (k0_t1_loop i).trips) (k0_t2 : Fin k0_t2_loop.trips), ∀ a, (k0_off138 i k0_t1 k0_t2) a + S1x1x1x1x16.size a ≤ S4x2x5x8x128.size a
  k0_off139_inb : ∀ (i : grid0.Coords) (k0_t1 : Fin (k0_t1_loop i).trips) (k0_t2 : Fin k0_t2_loop.trips), ∀ a, (k0_off139 i k0_t1 k0_t2) a + S1x1x1x1x16.size a ≤ S4x2x5x8x128.size a
  k0_off140_inb : ∀ (i : grid0.Coords) (k0_t1 : Fin (k0_t1_loop i).trips) (k0_t2 : Fin k0_t2_loop.trips), ∀ a, (k0_off140 i k0_t1 k0_t2) a + S1x1x1x1x16.size a ≤ S4x2x5x8x128.size a
  k0_off141_inb : ∀ (i : grid0.Coords) (k0_t1 : Fin (k0_t1_loop i).trips) (k0_t2 : Fin k0_t2_loop.trips), ∀ a, (k0_off141 i k0_t1 k0_t2) a + S1x1x1x1x16.size a ≤ S4x2x5x8x128.size a
  k0_off142_inb : ∀ (i : grid0.Coords) (k0_t1 : Fin (k0_t1_loop i).trips), ∀ a, (k0_off142 i k0_t1) a + S1x1x5x8x128.size a ≤ S4x2x5x8x128.size a
  k0_off143_inb : ∀ (i : grid0.Coords) (k0_t1 : Fin (k0_t1_loop i).trips), ∀ a, (k0_off143 i k0_t1) a + S1x5x8x128.size a ≤ S2x25000x8x128.size a
  k0_off144_inb : ∀ (i : grid0.Coords) (k0_t1 : Fin (k0_t1_loop i).trips), ∀ a, (k0_off144 i k0_t1) a + S1x1x5x8x128.size a ≤ S4x2x5x8x128.size a
  k0_off145_inb : ∀ (i : grid0.Coords) (k0_t1 : Fin (k0_t1_loop i).trips), ∀ a, (k0_off145 i k0_t1) a + S1x5x8x128.size a ≤ S2x25000x8x128.size a
  k0_off146_inb : ∀ (i : grid0.Coords) (k0_t1 : Fin (k0_t1_loop i).trips), ∀ (k0_h6 : k0_cond6 i k0_t1 = 1#1), ∀ a, (k0_off146 i k0_t1) a + S1x640.size a ≤ S4x640.size a
  k0_off147_inb : ∀ (i : grid0.Coords) (k0_t1 : Fin (k0_t1_loop i).trips), ∀ (k0_h6 : k0_cond6 i k0_t1 = 1#1), ∀ a, (k0_off147 i k0_t1) a + S640.size a ≤ S3200000.size a
  k0_off148_inb : ∀ (i : grid0.Coords) (k0_t1 : Fin (k0_t1_loop i).trips), ∀ (k0_h6 : k0_cond6 i k0_t1 = 1#1), ∀ a, (k0_off148 i k0_t1) a + S1.size a ≤ S4.size a
  k0_t3_ok : ∀ i : grid0.Coords, (k0_t3_loop i).OK
  k0_off149_inb : ∀ (i : grid0.Coords) (k0_t3 : Fin (k0_t3_loop i).trips), ∀ a, (k0_off149 i k0_t3) a + S1x640.size a ≤ S4x640.size a
  k0_off150_inb : ∀ (i : grid0.Coords) (k0_t3 : Fin (k0_t3_loop i).trips), ∀ a, (k0_off150 i k0_t3) a + S640.size a ≤ S3200000.size a
  k0_off151_inb : ∀ (i : grid0.Coords) (k0_t3 : Fin (k0_t3_loop i).trips), ∀ a, (k0_off151 i k0_t3) a + S1.size a ≤ S4.size a
  k0_off152_inb : ∀ (i : grid0.Coords) (k0_t3 : Fin (k0_t3_loop i).trips), ∀ (k0_h7 : k0_cond7 i k0_t3 = 1#1), ∀ a, (k0_off152 i k0_t3) a + S1x1x5x8x128.size a ≤ S4x2x5x8x128.size a
  k0_off153_inb : ∀ (i : grid0.Coords) (k0_t3 : Fin (k0_t3_loop i).trips), ∀ (k0_h7 : k0_cond7 i k0_t3 = 1#1), ∀ a, (k0_off153 i k0_t3) a + S1x5x8x128.size a ≤ S2x25000x8x128.size a
  k0_off154_inb : ∀ (i : grid0.Coords) (k0_t3 : Fin (k0_t3_loop i).trips), ∀ (k0_h7 : k0_cond7 i k0_t3 = 1#1), ∀ a, (k0_off154 i k0_t3) a + S1.size a ≤ S4.size a
  k0_off155_inb : ∀ (i : grid0.Coords) (k0_t3 : Fin (k0_t3_loop i).trips), ∀ (k0_h7 : k0_cond7 i k0_t3 = 1#1), ∀ a, (k0_off155 i k0_t3) a + S1x1x5x8x128.size a ≤ S4x2x5x8x128.size a
  k0_off156_inb : ∀ (i : grid0.Coords) (k0_t3 : Fin (k0_t3_loop i).trips), ∀ (k0_h7 : k0_cond7 i k0_t3 = 1#1), ∀ a, (k0_off156 i k0_t3) a + S1x5x8x128.size a ≤ S2x25000x8x128.size a
  k0_t4_ok : k0_t4_loop.OK
  k0_off157_inb : ∀ (i : grid0.Coords) (k0_t3 : Fin (k0_t3_loop i).trips) (k0_t4 : Fin k0_t4_loop.trips), ∀ (r : Fin 8), ∀ a, (k0_off157 i k0_t3 k0_t4 (BitVec.ofNat 32 (16 * r.val))) a + S1x16.size a ≤ S4x640.size a
  k0_off158_inb : ∀ (i : grid0.Coords) (k0_t3 : Fin (k0_t3_loop i).trips) (k0_t4 : Fin k0_t4_loop.trips), ∀ a, (k0_off158 i k0_t3 k0_t4) a + S1x1x1x1x16.size a ≤ S4x2x5x8x128.size a
  k0_off159_inb : ∀ (i : grid0.Coords) (k0_t3 : Fin (k0_t3_loop i).trips) (k0_t4 : Fin k0_t4_loop.trips), ∀ a, (k0_off159 i k0_t3 k0_t4) a + S1x1x1x1x16.size a ≤ S4x2x5x8x128.size a
  k0_off160_inb : ∀ (i : grid0.Coords) (k0_t3 : Fin (k0_t3_loop i).trips) (k0_t4 : Fin k0_t4_loop.trips), ∀ a, (k0_off160 i k0_t3 k0_t4) a + S1x1x1x1x16.size a ≤ S4x2x5x8x128.size a
  k0_off161_inb : ∀ (i : grid0.Coords) (k0_t3 : Fin (k0_t3_loop i).trips) (k0_t4 : Fin k0_t4_loop.trips), ∀ a, (k0_off161 i k0_t3 k0_t4) a + S1x1x1x1x16.size a ≤ S4x2x5x8x128.size a
  k0_off162_inb : ∀ (i : grid0.Coords) (k0_t3 : Fin (k0_t3_loop i).trips) (k0_t4 : Fin k0_t4_loop.trips), ∀ a, (k0_off162 i k0_t3 k0_t4) a + S1x1x1x1x16.size a ≤ S4x2x5x8x128.size a
  k0_off163_inb : ∀ (i : grid0.Coords) (k0_t3 : Fin (k0_t3_loop i).trips) (k0_t4 : Fin k0_t4_loop.trips), ∀ a, (k0_off163 i k0_t3 k0_t4) a + S1x1x1x1x16.size a ≤ S4x2x5x8x128.size a
  k0_off164_inb : ∀ (i : grid0.Coords) (k0_t3 : Fin (k0_t3_loop i).trips) (k0_t4 : Fin k0_t4_loop.trips), ∀ a, (k0_off164 i k0_t3 k0_t4) a + S1x1x1x1x16.size a ≤ S4x2x5x8x128.size a
  k0_off165_inb : ∀ (i : grid0.Coords) (k0_t3 : Fin (k0_t3_loop i).trips) (k0_t4 : Fin k0_t4_loop.trips), ∀ a, (k0_off165 i k0_t3 k0_t4) a + S1x1x1x1x16.size a ≤ S4x2x5x8x128.size a
  k0_off166_inb : ∀ (i : grid0.Coords) (k0_t3 : Fin (k0_t3_loop i).trips) (k0_t4 : Fin k0_t4_loop.trips), ∀ a, (k0_off166 i k0_t3 k0_t4) a + S1x1x1x1x16.size a ≤ S4x2x5x8x128.size a
  k0_off167_inb : ∀ (i : grid0.Coords) (k0_t3 : Fin (k0_t3_loop i).trips) (k0_t4 : Fin k0_t4_loop.trips), ∀ a, (k0_off167 i k0_t3 k0_t4) a + S1x1x1x1x16.size a ≤ S4x2x5x8x128.size a
  k0_off168_inb : ∀ (i : grid0.Coords) (k0_t3 : Fin (k0_t3_loop i).trips) (k0_t4 : Fin k0_t4_loop.trips), ∀ a, (k0_off168 i k0_t3 k0_t4) a + S1x1x1x1x16.size a ≤ S4x2x5x8x128.size a
  k0_off169_inb : ∀ (i : grid0.Coords) (k0_t3 : Fin (k0_t3_loop i).trips) (k0_t4 : Fin k0_t4_loop.trips), ∀ a, (k0_off169 i k0_t3 k0_t4) a + S1x1x1x1x16.size a ≤ S4x2x5x8x128.size a
  k0_off170_inb : ∀ (i : grid0.Coords) (k0_t3 : Fin (k0_t3_loop i).trips) (k0_t4 : Fin k0_t4_loop.trips), ∀ a, (k0_off170 i k0_t3 k0_t4) a + S1x1x1x1x16.size a ≤ S4x2x5x8x128.size a
  k0_off171_inb : ∀ (i : grid0.Coords) (k0_t3 : Fin (k0_t3_loop i).trips) (k0_t4 : Fin k0_t4_loop.trips), ∀ a, (k0_off171 i k0_t3 k0_t4) a + S1x1x1x1x16.size a ≤ S4x2x5x8x128.size a
  k0_off172_inb : ∀ (i : grid0.Coords) (k0_t3 : Fin (k0_t3_loop i).trips) (k0_t4 : Fin k0_t4_loop.trips), ∀ a, (k0_off172 i k0_t3 k0_t4) a + S1x1x1x1x16.size a ≤ S4x2x5x8x128.size a
  k0_off173_inb : ∀ (i : grid0.Coords) (k0_t3 : Fin (k0_t3_loop i).trips) (k0_t4 : Fin k0_t4_loop.trips), ∀ a, (k0_off173 i k0_t3 k0_t4) a + S1x1x1x1x16.size a ≤ S4x2x5x8x128.size a
  k0_off174_inb : ∀ (i : grid0.Coords) (k0_t3 : Fin (k0_t3_loop i).trips) (k0_t4 : Fin k0_t4_loop.trips), ∀ a, (k0_off174 i k0_t3 k0_t4) a + S1x1x1x1x16.size a ≤ S4x2x5x8x128.size a
  k0_off175_inb : ∀ (i : grid0.Coords) (k0_t3 : Fin (k0_t3_loop i).trips) (k0_t4 : Fin k0_t4_loop.trips), ∀ a, (k0_off175 i k0_t3 k0_t4) a + S1x1x1x1x16.size a ≤ S4x2x5x8x128.size a
  k0_off176_inb : ∀ (i : grid0.Coords) (k0_t3 : Fin (k0_t3_loop i).trips) (k0_t4 : Fin k0_t4_loop.trips), ∀ a, (k0_off176 i k0_t3 k0_t4) a + S1x1x1x1x16.size a ≤ S4x2x5x8x128.size a
  k0_off177_inb : ∀ (i : grid0.Coords) (k0_t3 : Fin (k0_t3_loop i).trips) (k0_t4 : Fin k0_t4_loop.trips), ∀ a, (k0_off177 i k0_t3 k0_t4) a + S1x1x1x1x16.size a ≤ S4x2x5x8x128.size a
  k0_off178_inb : ∀ (i : grid0.Coords) (k0_t3 : Fin (k0_t3_loop i).trips) (k0_t4 : Fin k0_t4_loop.trips), ∀ a, (k0_off178 i k0_t3 k0_t4) a + S1x1x1x1x16.size a ≤ S4x2x5x8x128.size a
  k0_off179_inb : ∀ (i : grid0.Coords) (k0_t3 : Fin (k0_t3_loop i).trips) (k0_t4 : Fin k0_t4_loop.trips), ∀ a, (k0_off179 i k0_t3 k0_t4) a + S1x1x1x1x16.size a ≤ S4x2x5x8x128.size a
  k0_off180_inb : ∀ (i : grid0.Coords) (k0_t3 : Fin (k0_t3_loop i).trips) (k0_t4 : Fin k0_t4_loop.trips), ∀ a, (k0_off180 i k0_t3 k0_t4) a + S1x1x1x1x16.size a ≤ S4x2x5x8x128.size a
  k0_off181_inb : ∀ (i : grid0.Coords) (k0_t3 : Fin (k0_t3_loop i).trips) (k0_t4 : Fin k0_t4_loop.trips), ∀ a, (k0_off181 i k0_t3 k0_t4) a + S1x1x1x1x16.size a ≤ S4x2x5x8x128.size a
  k0_off182_inb : ∀ (i : grid0.Coords) (k0_t3 : Fin (k0_t3_loop i).trips) (k0_t4 : Fin k0_t4_loop.trips), ∀ a, (k0_off182 i k0_t3 k0_t4) a + S1x1x1x1x16.size a ≤ S4x2x5x8x128.size a
  k0_off183_inb : ∀ (i : grid0.Coords) (k0_t3 : Fin (k0_t3_loop i).trips) (k0_t4 : Fin k0_t4_loop.trips), ∀ a, (k0_off183 i k0_t3 k0_t4) a + S1x1x1x1x16.size a ≤ S4x2x5x8x128.size a
  k0_off184_inb : ∀ (i : grid0.Coords) (k0_t3 : Fin (k0_t3_loop i).trips) (k0_t4 : Fin k0_t4_loop.trips), ∀ a, (k0_off184 i k0_t3 k0_t4) a + S1x1x1x1x16.size a ≤ S4x2x5x8x128.size a
  k0_off185_inb : ∀ (i : grid0.Coords) (k0_t3 : Fin (k0_t3_loop i).trips) (k0_t4 : Fin k0_t4_loop.trips), ∀ a, (k0_off185 i k0_t3 k0_t4) a + S1x1x1x1x16.size a ≤ S4x2x5x8x128.size a
  k0_off186_inb : ∀ (i : grid0.Coords) (k0_t3 : Fin (k0_t3_loop i).trips) (k0_t4 : Fin k0_t4_loop.trips), ∀ a, (k0_off186 i k0_t3 k0_t4) a + S1x1x1x1x16.size a ≤ S4x2x5x8x128.size a
  k0_off187_inb : ∀ (i : grid0.Coords) (k0_t3 : Fin (k0_t3_loop i).trips) (k0_t4 : Fin k0_t4_loop.trips), ∀ a, (k0_off187 i k0_t3 k0_t4) a + S1x1x1x1x16.size a ≤ S4x2x5x8x128.size a
  k0_off188_inb : ∀ (i : grid0.Coords) (k0_t3 : Fin (k0_t3_loop i).trips) (k0_t4 : Fin k0_t4_loop.trips), ∀ a, (k0_off188 i k0_t3 k0_t4) a + S1x1x1x1x16.size a ≤ S4x2x5x8x128.size a
  k0_off189_inb : ∀ (i : grid0.Coords) (k0_t3 : Fin (k0_t3_loop i).trips) (k0_t4 : Fin k0_t4_loop.trips), ∀ a, (k0_off189 i k0_t3 k0_t4) a + S1x1x1x1x16.size a ≤ S4x2x5x8x128.size a
  k0_off190_inb : ∀ (i : grid0.Coords) (k0_t3 : Fin (k0_t3_loop i).trips) (k0_t4 : Fin k0_t4_loop.trips), ∀ a, (k0_off190 i k0_t3 k0_t4) a + S1x1x1x1x16.size a ≤ S4x2x5x8x128.size a
  k0_off191_inb : ∀ (i : grid0.Coords) (k0_t3 : Fin (k0_t3_loop i).trips) (k0_t4 : Fin k0_t4_loop.trips), ∀ a, (k0_off191 i k0_t3 k0_t4) a + S1x1x1x1x16.size a ≤ S4x2x5x8x128.size a
  k0_off192_inb : ∀ (i : grid0.Coords) (k0_t3 : Fin (k0_t3_loop i).trips) (k0_t4 : Fin k0_t4_loop.trips), ∀ a, (k0_off192 i k0_t3 k0_t4) a + S1x1x1x1x16.size a ≤ S4x2x5x8x128.size a
  k0_off193_inb : ∀ (i : grid0.Coords) (k0_t3 : Fin (k0_t3_loop i).trips) (k0_t4 : Fin k0_t4_loop.trips), ∀ a, (k0_off193 i k0_t3 k0_t4) a + S1x1x1x1x16.size a ≤ S4x2x5x8x128.size a
  k0_off194_inb : ∀ (i : grid0.Coords) (k0_t3 : Fin (k0_t3_loop i).trips) (k0_t4 : Fin k0_t4_loop.trips), ∀ a, (k0_off194 i k0_t3 k0_t4) a + S1x1x1x1x16.size a ≤ S4x2x5x8x128.size a
  k0_off195_inb : ∀ (i : grid0.Coords) (k0_t3 : Fin (k0_t3_loop i).trips) (k0_t4 : Fin k0_t4_loop.trips), ∀ a, (k0_off195 i k0_t3 k0_t4) a + S1x1x1x1x16.size a ≤ S4x2x5x8x128.size a
  k0_off196_inb : ∀ (i : grid0.Coords) (k0_t3 : Fin (k0_t3_loop i).trips) (k0_t4 : Fin k0_t4_loop.trips), ∀ a, (k0_off196 i k0_t3 k0_t4) a + S1x1x1x1x16.size a ≤ S4x2x5x8x128.size a
  k0_off197_inb : ∀ (i : grid0.Coords) (k0_t3 : Fin (k0_t3_loop i).trips) (k0_t4 : Fin k0_t4_loop.trips), ∀ a, (k0_off197 i k0_t3 k0_t4) a + S1x1x1x1x16.size a ≤ S4x2x5x8x128.size a
  k0_off198_inb : ∀ (i : grid0.Coords) (k0_t3 : Fin (k0_t3_loop i).trips) (k0_t4 : Fin k0_t4_loop.trips), ∀ a, (k0_off198 i k0_t3 k0_t4) a + S1x1x1x1x16.size a ≤ S4x2x5x8x128.size a
  k0_off199_inb : ∀ (i : grid0.Coords) (k0_t3 : Fin (k0_t3_loop i).trips) (k0_t4 : Fin k0_t4_loop.trips), ∀ a, (k0_off199 i k0_t3 k0_t4) a + S1x1x1x1x16.size a ≤ S4x2x5x8x128.size a
  k0_off200_inb : ∀ (i : grid0.Coords) (k0_t3 : Fin (k0_t3_loop i).trips) (k0_t4 : Fin k0_t4_loop.trips), ∀ a, (k0_off200 i k0_t3 k0_t4) a + S1x1x1x1x16.size a ≤ S4x2x5x8x128.size a
  k0_off201_inb : ∀ (i : grid0.Coords) (k0_t3 : Fin (k0_t3_loop i).trips) (k0_t4 : Fin k0_t4_loop.trips), ∀ a, (k0_off201 i k0_t3 k0_t4) a + S1x1x1x1x16.size a ≤ S4x2x5x8x128.size a
  k0_off202_inb : ∀ (i : grid0.Coords) (k0_t3 : Fin (k0_t3_loop i).trips) (k0_t4 : Fin k0_t4_loop.trips), ∀ a, (k0_off202 i k0_t3 k0_t4) a + S1x1x1x1x16.size a ≤ S4x2x5x8x128.size a
  k0_off203_inb : ∀ (i : grid0.Coords) (k0_t3 : Fin (k0_t3_loop i).trips) (k0_t4 : Fin k0_t4_loop.trips), ∀ a, (k0_off203 i k0_t3 k0_t4) a + S1x1x1x1x16.size a ≤ S4x2x5x8x128.size a
  k0_off204_inb : ∀ (i : grid0.Coords) (k0_t3 : Fin (k0_t3_loop i).trips) (k0_t4 : Fin k0_t4_loop.trips), ∀ a, (k0_off204 i k0_t3 k0_t4) a + S1x1x1x1x16.size a ≤ S4x2x5x8x128.size a
  k0_off205_inb : ∀ (i : grid0.Coords) (k0_t3 : Fin (k0_t3_loop i).trips) (k0_t4 : Fin k0_t4_loop.trips), ∀ a, (k0_off205 i k0_t3 k0_t4) a + S1x1x1x1x16.size a ≤ S4x2x5x8x128.size a
  k0_off206_inb : ∀ (i : grid0.Coords) (k0_t3 : Fin (k0_t3_loop i).trips) (k0_t4 : Fin k0_t4_loop.trips), ∀ a, (k0_off206 i k0_t3 k0_t4) a + S1x1x1x1x16.size a ≤ S4x2x5x8x128.size a
  k0_off207_inb : ∀ (i : grid0.Coords) (k0_t3 : Fin (k0_t3_loop i).trips) (k0_t4 : Fin k0_t4_loop.trips), ∀ a, (k0_off207 i k0_t3 k0_t4) a + S1x1x1x1x16.size a ≤ S4x2x5x8x128.size a
  k0_off208_inb : ∀ (i : grid0.Coords) (k0_t3 : Fin (k0_t3_loop i).trips) (k0_t4 : Fin k0_t4_loop.trips), ∀ a, (k0_off208 i k0_t3 k0_t4) a + S1x1x1x1x16.size a ≤ S4x2x5x8x128.size a
  k0_off209_inb : ∀ (i : grid0.Coords) (k0_t3 : Fin (k0_t3_loop i).trips) (k0_t4 : Fin k0_t4_loop.trips), ∀ a, (k0_off209 i k0_t3 k0_t4) a + S1x1x1x1x16.size a ≤ S4x2x5x8x128.size a
  k0_off210_inb : ∀ (i : grid0.Coords) (k0_t3 : Fin (k0_t3_loop i).trips) (k0_t4 : Fin k0_t4_loop.trips), ∀ a, (k0_off210 i k0_t3 k0_t4) a + S1x1x1x1x16.size a ≤ S4x2x5x8x128.size a
  k0_off211_inb : ∀ (i : grid0.Coords) (k0_t3 : Fin (k0_t3_loop i).trips) (k0_t4 : Fin k0_t4_loop.trips), ∀ a, (k0_off211 i k0_t3 k0_t4) a + S1x1x1x1x16.size a ≤ S4x2x5x8x128.size a
  k0_off212_inb : ∀ (i : grid0.Coords) (k0_t3 : Fin (k0_t3_loop i).trips) (k0_t4 : Fin k0_t4_loop.trips), ∀ a, (k0_off212 i k0_t3 k0_t4) a + S1x1x1x1x16.size a ≤ S4x2x5x8x128.size a
  k0_off213_inb : ∀ (i : grid0.Coords) (k0_t3 : Fin (k0_t3_loop i).trips) (k0_t4 : Fin k0_t4_loop.trips), ∀ a, (k0_off213 i k0_t3 k0_t4) a + S1x1x1x1x16.size a ≤ S4x2x5x8x128.size a
  k0_off214_inb : ∀ (i : grid0.Coords) (k0_t3 : Fin (k0_t3_loop i).trips) (k0_t4 : Fin k0_t4_loop.trips), ∀ a, (k0_off214 i k0_t3 k0_t4) a + S1x1x1x1x16.size a ≤ S4x2x5x8x128.size a
  k0_off215_inb : ∀ (i : grid0.Coords) (k0_t3 : Fin (k0_t3_loop i).trips) (k0_t4 : Fin k0_t4_loop.trips), ∀ a, (k0_off215 i k0_t3 k0_t4) a + S1x1x1x1x16.size a ≤ S4x2x5x8x128.size a
  k0_off216_inb : ∀ (i : grid0.Coords) (k0_t3 : Fin (k0_t3_loop i).trips) (k0_t4 : Fin k0_t4_loop.trips), ∀ a, (k0_off216 i k0_t3 k0_t4) a + S1x1x1x1x16.size a ≤ S4x2x5x8x128.size a
  k0_off217_inb : ∀ (i : grid0.Coords) (k0_t3 : Fin (k0_t3_loop i).trips) (k0_t4 : Fin k0_t4_loop.trips), ∀ a, (k0_off217 i k0_t3 k0_t4) a + S1x1x1x1x16.size a ≤ S4x2x5x8x128.size a
  k0_off218_inb : ∀ (i : grid0.Coords) (k0_t3 : Fin (k0_t3_loop i).trips) (k0_t4 : Fin k0_t4_loop.trips), ∀ a, (k0_off218 i k0_t3 k0_t4) a + S1x1x1x1x16.size a ≤ S4x2x5x8x128.size a
  k0_off219_inb : ∀ (i : grid0.Coords) (k0_t3 : Fin (k0_t3_loop i).trips) (k0_t4 : Fin k0_t4_loop.trips), ∀ a, (k0_off219 i k0_t3 k0_t4) a + S1x1x1x1x16.size a ≤ S4x2x5x8x128.size a
  k0_off220_inb : ∀ (i : grid0.Coords) (k0_t3 : Fin (k0_t3_loop i).trips) (k0_t4 : Fin k0_t4_loop.trips), ∀ a, (k0_off220 i k0_t3 k0_t4) a + S1x1x1x1x16.size a ≤ S4x2x5x8x128.size a
  k0_off221_inb : ∀ (i : grid0.Coords) (k0_t3 : Fin (k0_t3_loop i).trips) (k0_t4 : Fin k0_t4_loop.trips), ∀ a, (k0_off221 i k0_t3 k0_t4) a + S1x1x1x1x16.size a ≤ S4x2x5x8x128.size a
  k0_off222_inb : ∀ (i : grid0.Coords) (k0_t3 : Fin (k0_t3_loop i).trips) (k0_t4 : Fin k0_t4_loop.trips), ∀ a, (k0_off222 i k0_t3 k0_t4) a + S1x1x1x1x16.size a ≤ S4x2x5x8x128.size a
  k0_off223_inb : ∀ (i : grid0.Coords) (k0_t3 : Fin (k0_t3_loop i).trips) (k0_t4 : Fin k0_t4_loop.trips), ∀ a, (k0_off223 i k0_t3 k0_t4) a + S1x1x1x1x16.size a ≤ S4x2x5x8x128.size a
  k0_off224_inb : ∀ (i : grid0.Coords) (k0_t3 : Fin (k0_t3_loop i).trips) (k0_t4 : Fin k0_t4_loop.trips), ∀ a, (k0_off224 i k0_t3 k0_t4) a + S1x1x1x1x16.size a ≤ S4x2x5x8x128.size a
  k0_off225_inb : ∀ (i : grid0.Coords) (k0_t3 : Fin (k0_t3_loop i).trips) (k0_t4 : Fin k0_t4_loop.trips), ∀ a, (k0_off225 i k0_t3 k0_t4) a + S1x1x1x1x16.size a ≤ S4x2x5x8x128.size a
  k0_off226_inb : ∀ (i : grid0.Coords) (k0_t3 : Fin (k0_t3_loop i).trips) (k0_t4 : Fin k0_t4_loop.trips), ∀ a, (k0_off226 i k0_t3 k0_t4) a + S1x1x1x1x16.size a ≤ S4x2x5x8x128.size a
  k0_off227_inb : ∀ (i : grid0.Coords) (k0_t3 : Fin (k0_t3_loop i).trips) (k0_t4 : Fin k0_t4_loop.trips), ∀ a, (k0_off227 i k0_t3 k0_t4) a + S1x1x1x1x16.size a ≤ S4x2x5x8x128.size a
  k0_off228_inb : ∀ (i : grid0.Coords) (k0_t3 : Fin (k0_t3_loop i).trips) (k0_t4 : Fin k0_t4_loop.trips), ∀ a, (k0_off228 i k0_t3 k0_t4) a + S1x1x1x1x16.size a ≤ S4x2x5x8x128.size a
  k0_off229_inb : ∀ (i : grid0.Coords) (k0_t3 : Fin (k0_t3_loop i).trips) (k0_t4 : Fin k0_t4_loop.trips), ∀ a, (k0_off229 i k0_t3 k0_t4) a + S1x1x1x1x16.size a ≤ S4x2x5x8x128.size a
  k0_off230_inb : ∀ (i : grid0.Coords) (k0_t3 : Fin (k0_t3_loop i).trips) (k0_t4 : Fin k0_t4_loop.trips), ∀ a, (k0_off230 i k0_t3 k0_t4) a + S1x1x1x1x16.size a ≤ S4x2x5x8x128.size a
  k0_off231_inb : ∀ (i : grid0.Coords) (k0_t3 : Fin (k0_t3_loop i).trips) (k0_t4 : Fin k0_t4_loop.trips), ∀ a, (k0_off231 i k0_t3 k0_t4) a + S1x1x1x1x16.size a ≤ S4x2x5x8x128.size a
  k0_off232_inb : ∀ (i : grid0.Coords) (k0_t3 : Fin (k0_t3_loop i).trips) (k0_t4 : Fin k0_t4_loop.trips), ∀ a, (k0_off232 i k0_t3 k0_t4) a + S1x1x1x1x16.size a ≤ S4x2x5x8x128.size a
  k0_off233_inb : ∀ (i : grid0.Coords) (k0_t3 : Fin (k0_t3_loop i).trips) (k0_t4 : Fin k0_t4_loop.trips), ∀ a, (k0_off233 i k0_t3 k0_t4) a + S1x1x1x1x16.size a ≤ S4x2x5x8x128.size a
  k0_off234_inb : ∀ (i : grid0.Coords) (k0_t3 : Fin (k0_t3_loop i).trips) (k0_t4 : Fin k0_t4_loop.trips), ∀ a, (k0_off234 i k0_t3 k0_t4) a + S1x1x1x1x16.size a ≤ S4x2x5x8x128.size a
  k0_off235_inb : ∀ (i : grid0.Coords) (k0_t3 : Fin (k0_t3_loop i).trips) (k0_t4 : Fin k0_t4_loop.trips), ∀ a, (k0_off235 i k0_t3 k0_t4) a + S1x1x1x1x16.size a ≤ S4x2x5x8x128.size a
  k0_off236_inb : ∀ (i : grid0.Coords) (k0_t3 : Fin (k0_t3_loop i).trips) (k0_t4 : Fin k0_t4_loop.trips), ∀ a, (k0_off236 i k0_t3 k0_t4) a + S1x1x1x1x16.size a ≤ S4x2x5x8x128.size a
  k0_off237_inb : ∀ (i : grid0.Coords) (k0_t3 : Fin (k0_t3_loop i).trips) (k0_t4 : Fin k0_t4_loop.trips), ∀ a, (k0_off237 i k0_t3 k0_t4) a + S1x1x1x1x16.size a ≤ S4x2x5x8x128.size a
  k0_off238_inb : ∀ (i : grid0.Coords) (k0_t3 : Fin (k0_t3_loop i).trips) (k0_t4 : Fin k0_t4_loop.trips), ∀ a, (k0_off238 i k0_t3 k0_t4) a + S1x1x1x1x16.size a ≤ S4x2x5x8x128.size a
  k0_off239_inb : ∀ (i : grid0.Coords) (k0_t3 : Fin (k0_t3_loop i).trips) (k0_t4 : Fin k0_t4_loop.trips), ∀ a, (k0_off239 i k0_t3 k0_t4) a + S1x1x1x1x16.size a ≤ S4x2x5x8x128.size a
  k0_off240_inb : ∀ (i : grid0.Coords) (k0_t3 : Fin (k0_t3_loop i).trips) (k0_t4 : Fin k0_t4_loop.trips), ∀ a, (k0_off240 i k0_t3 k0_t4) a + S1x1x1x1x16.size a ≤ S4x2x5x8x128.size a
  k0_off241_inb : ∀ (i : grid0.Coords) (k0_t3 : Fin (k0_t3_loop i).trips) (k0_t4 : Fin k0_t4_loop.trips), ∀ a, (k0_off241 i k0_t3 k0_t4) a + S1x1x1x1x16.size a ≤ S4x2x5x8x128.size a
  k0_off242_inb : ∀ (i : grid0.Coords) (k0_t3 : Fin (k0_t3_loop i).trips) (k0_t4 : Fin k0_t4_loop.trips), ∀ a, (k0_off242 i k0_t3 k0_t4) a + S1x1x1x1x16.size a ≤ S4x2x5x8x128.size a
  k0_off243_inb : ∀ (i : grid0.Coords) (k0_t3 : Fin (k0_t3_loop i).trips) (k0_t4 : Fin k0_t4_loop.trips), ∀ a, (k0_off243 i k0_t3 k0_t4) a + S1x1x1x1x16.size a ≤ S4x2x5x8x128.size a
  k0_off244_inb : ∀ (i : grid0.Coords) (k0_t3 : Fin (k0_t3_loop i).trips) (k0_t4 : Fin k0_t4_loop.trips), ∀ a, (k0_off244 i k0_t3 k0_t4) a + S1x1x1x1x16.size a ≤ S4x2x5x8x128.size a
  k0_off245_inb : ∀ (i : grid0.Coords) (k0_t3 : Fin (k0_t3_loop i).trips) (k0_t4 : Fin k0_t4_loop.trips), ∀ a, (k0_off245 i k0_t3 k0_t4) a + S1x1x1x1x16.size a ≤ S4x2x5x8x128.size a
  k0_off246_inb : ∀ (i : grid0.Coords) (k0_t3 : Fin (k0_t3_loop i).trips) (k0_t4 : Fin k0_t4_loop.trips), ∀ a, (k0_off246 i k0_t3 k0_t4) a + S1x1x1x1x16.size a ≤ S4x2x5x8x128.size a
  k0_off247_inb : ∀ (i : grid0.Coords) (k0_t3 : Fin (k0_t3_loop i).trips) (k0_t4 : Fin k0_t4_loop.trips), ∀ a, (k0_off247 i k0_t3 k0_t4) a + S1x1x1x1x16.size a ≤ S4x2x5x8x128.size a
  k0_off248_inb : ∀ (i : grid0.Coords) (k0_t3 : Fin (k0_t3_loop i).trips) (k0_t4 : Fin k0_t4_loop.trips), ∀ a, (k0_off248 i k0_t3 k0_t4) a + S1x1x1x1x16.size a ≤ S4x2x5x8x128.size a
  k0_off249_inb : ∀ (i : grid0.Coords) (k0_t3 : Fin (k0_t3_loop i).trips) (k0_t4 : Fin k0_t4_loop.trips), ∀ a, (k0_off249 i k0_t3 k0_t4) a + S1x1x1x1x16.size a ≤ S4x2x5x8x128.size a
  k0_off250_inb : ∀ (i : grid0.Coords) (k0_t3 : Fin (k0_t3_loop i).trips) (k0_t4 : Fin k0_t4_loop.trips), ∀ a, (k0_off250 i k0_t3 k0_t4) a + S1x1x1x1x16.size a ≤ S4x2x5x8x128.size a
  k0_off251_inb : ∀ (i : grid0.Coords) (k0_t3 : Fin (k0_t3_loop i).trips) (k0_t4 : Fin k0_t4_loop.trips), ∀ a, (k0_off251 i k0_t3 k0_t4) a + S1x1x1x1x16.size a ≤ S4x2x5x8x128.size a
  k0_off252_inb : ∀ (i : grid0.Coords) (k0_t3 : Fin (k0_t3_loop i).trips) (k0_t4 : Fin k0_t4_loop.trips), ∀ a, (k0_off252 i k0_t3 k0_t4) a + S1x1x1x1x16.size a ≤ S4x2x5x8x128.size a
  k0_off253_inb : ∀ (i : grid0.Coords) (k0_t3 : Fin (k0_t3_loop i).trips) (k0_t4 : Fin k0_t4_loop.trips), ∀ a, (k0_off253 i k0_t3 k0_t4) a + S1x1x1x1x16.size a ≤ S4x2x5x8x128.size a
  k0_off254_inb : ∀ (i : grid0.Coords) (k0_t3 : Fin (k0_t3_loop i).trips) (k0_t4 : Fin k0_t4_loop.trips), ∀ a, (k0_off254 i k0_t3 k0_t4) a + S1x1x1x1x16.size a ≤ S4x2x5x8x128.size a
  k0_off255_inb : ∀ (i : grid0.Coords) (k0_t3 : Fin (k0_t3_loop i).trips) (k0_t4 : Fin k0_t4_loop.trips), ∀ a, (k0_off255 i k0_t3 k0_t4) a + S1x1x1x1x16.size a ≤ S4x2x5x8x128.size a
  k0_off256_inb : ∀ (i : grid0.Coords) (k0_t3 : Fin (k0_t3_loop i).trips) (k0_t4 : Fin k0_t4_loop.trips), ∀ a, (k0_off256 i k0_t3 k0_t4) a + S1x1x1x1x16.size a ≤ S4x2x5x8x128.size a
  k0_off257_inb : ∀ (i : grid0.Coords) (k0_t3 : Fin (k0_t3_loop i).trips) (k0_t4 : Fin k0_t4_loop.trips), ∀ a, (k0_off257 i k0_t3 k0_t4) a + S1x1x1x1x16.size a ≤ S4x2x5x8x128.size a
  k0_off258_inb : ∀ (i : grid0.Coords) (k0_t3 : Fin (k0_t3_loop i).trips) (k0_t4 : Fin k0_t4_loop.trips), ∀ a, (k0_off258 i k0_t3 k0_t4) a + S1x1x1x1x16.size a ≤ S4x2x5x8x128.size a
  k0_off259_inb : ∀ (i : grid0.Coords) (k0_t3 : Fin (k0_t3_loop i).trips) (k0_t4 : Fin k0_t4_loop.trips), ∀ a, (k0_off259 i k0_t3 k0_t4) a + S1x1x1x1x16.size a ≤ S4x2x5x8x128.size a
  k0_off260_inb : ∀ (i : grid0.Coords) (k0_t3 : Fin (k0_t3_loop i).trips) (k0_t4 : Fin k0_t4_loop.trips), ∀ a, (k0_off260 i k0_t3 k0_t4) a + S1x1x1x1x16.size a ≤ S4x2x5x8x128.size a
  k0_off261_inb : ∀ (i : grid0.Coords) (k0_t3 : Fin (k0_t3_loop i).trips) (k0_t4 : Fin k0_t4_loop.trips), ∀ a, (k0_off261 i k0_t3 k0_t4) a + S1x1x1x1x16.size a ≤ S4x2x5x8x128.size a
  k0_off262_inb : ∀ (i : grid0.Coords) (k0_t3 : Fin (k0_t3_loop i).trips) (k0_t4 : Fin k0_t4_loop.trips), ∀ a, (k0_off262 i k0_t3 k0_t4) a + S1x1x1x1x16.size a ≤ S4x2x5x8x128.size a
  k0_off263_inb : ∀ (i : grid0.Coords) (k0_t3 : Fin (k0_t3_loop i).trips) (k0_t4 : Fin k0_t4_loop.trips), ∀ a, (k0_off263 i k0_t3 k0_t4) a + S1x1x1x1x16.size a ≤ S4x2x5x8x128.size a
  k0_off264_inb : ∀ (i : grid0.Coords) (k0_t3 : Fin (k0_t3_loop i).trips) (k0_t4 : Fin k0_t4_loop.trips), ∀ a, (k0_off264 i k0_t3 k0_t4) a + S1x1x1x1x16.size a ≤ S4x2x5x8x128.size a
  k0_off265_inb : ∀ (i : grid0.Coords) (k0_t3 : Fin (k0_t3_loop i).trips) (k0_t4 : Fin k0_t4_loop.trips), ∀ a, (k0_off265 i k0_t3 k0_t4) a + S1x1x1x1x16.size a ≤ S4x2x5x8x128.size a
  k0_off266_inb : ∀ (i : grid0.Coords) (k0_t3 : Fin (k0_t3_loop i).trips) (k0_t4 : Fin k0_t4_loop.trips), ∀ a, (k0_off266 i k0_t3 k0_t4) a + S1x1x1x1x16.size a ≤ S4x2x5x8x128.size a
  k0_off267_inb : ∀ (i : grid0.Coords) (k0_t3 : Fin (k0_t3_loop i).trips) (k0_t4 : Fin k0_t4_loop.trips), ∀ a, (k0_off267 i k0_t3 k0_t4) a + S1x1x1x1x16.size a ≤ S4x2x5x8x128.size a
  k0_off268_inb : ∀ (i : grid0.Coords) (k0_t3 : Fin (k0_t3_loop i).trips) (k0_t4 : Fin k0_t4_loop.trips), ∀ a, (k0_off268 i k0_t3 k0_t4) a + S1x1x1x1x16.size a ≤ S4x2x5x8x128.size a
  k0_off269_inb : ∀ (i : grid0.Coords) (k0_t3 : Fin (k0_t3_loop i).trips) (k0_t4 : Fin k0_t4_loop.trips), ∀ a, (k0_off269 i k0_t3 k0_t4) a + S1x1x1x1x16.size a ≤ S4x2x5x8x128.size a
  k0_off270_inb : ∀ (i : grid0.Coords) (k0_t3 : Fin (k0_t3_loop i).trips) (k0_t4 : Fin k0_t4_loop.trips), ∀ a, (k0_off270 i k0_t3 k0_t4) a + S1x1x1x1x16.size a ≤ S4x2x5x8x128.size a
  k0_off271_inb : ∀ (i : grid0.Coords) (k0_t3 : Fin (k0_t3_loop i).trips) (k0_t4 : Fin k0_t4_loop.trips), ∀ a, (k0_off271 i k0_t3 k0_t4) a + S1x1x1x1x16.size a ≤ S4x2x5x8x128.size a
  k0_off272_inb : ∀ (i : grid0.Coords) (k0_t3 : Fin (k0_t3_loop i).trips) (k0_t4 : Fin k0_t4_loop.trips), ∀ a, (k0_off272 i k0_t3 k0_t4) a + S1x1x1x1x16.size a ≤ S4x2x5x8x128.size a
  k0_off273_inb : ∀ (i : grid0.Coords) (k0_t3 : Fin (k0_t3_loop i).trips) (k0_t4 : Fin k0_t4_loop.trips), ∀ a, (k0_off273 i k0_t3 k0_t4) a + S1x1x1x1x16.size a ≤ S4x2x5x8x128.size a
  k0_off274_inb : ∀ (i : grid0.Coords) (k0_t3 : Fin (k0_t3_loop i).trips) (k0_t4 : Fin k0_t4_loop.trips), ∀ a, (k0_off274 i k0_t3 k0_t4) a + S1x1x1x1x16.size a ≤ S4x2x5x8x128.size a
  k0_off275_inb : ∀ (i : grid0.Coords) (k0_t3 : Fin (k0_t3_loop i).trips) (k0_t4 : Fin k0_t4_loop.trips), ∀ a, (k0_off275 i k0_t3 k0_t4) a + S1x1x1x1x16.size a ≤ S4x2x5x8x128.size a
  k0_off276_inb : ∀ (i : grid0.Coords) (k0_t3 : Fin (k0_t3_loop i).trips) (k0_t4 : Fin k0_t4_loop.trips), ∀ a, (k0_off276 i k0_t3 k0_t4) a + S1x1x1x1x16.size a ≤ S4x2x5x8x128.size a
  k0_off277_inb : ∀ (i : grid0.Coords) (k0_t3 : Fin (k0_t3_loop i).trips) (k0_t4 : Fin k0_t4_loop.trips), ∀ a, (k0_off277 i k0_t3 k0_t4) a + S1x1x1x1x16.size a ≤ S4x2x5x8x128.size a
  k0_off278_inb : ∀ (i : grid0.Coords) (k0_t3 : Fin (k0_t3_loop i).trips) (k0_t4 : Fin k0_t4_loop.trips), ∀ a, (k0_off278 i k0_t3 k0_t4) a + S1x1x1x1x16.size a ≤ S4x2x5x8x128.size a
  k0_off279_inb : ∀ (i : grid0.Coords) (k0_t3 : Fin (k0_t3_loop i).trips) (k0_t4 : Fin k0_t4_loop.trips), ∀ a, (k0_off279 i k0_t3 k0_t4) a + S1x1x1x1x16.size a ≤ S4x2x5x8x128.size a
  k0_off280_inb : ∀ (i : grid0.Coords) (k0_t3 : Fin (k0_t3_loop i).trips) (k0_t4 : Fin k0_t4_loop.trips), ∀ a, (k0_off280 i k0_t3 k0_t4) a + S1x1x1x1x16.size a ≤ S4x2x5x8x128.size a
  k0_off281_inb : ∀ (i : grid0.Coords) (k0_t3 : Fin (k0_t3_loop i).trips) (k0_t4 : Fin k0_t4_loop.trips), ∀ a, (k0_off281 i k0_t3 k0_t4) a + S1x1x1x1x16.size a ≤ S4x2x5x8x128.size a
  k0_off282_inb : ∀ (i : grid0.Coords) (k0_t3 : Fin (k0_t3_loop i).trips) (k0_t4 : Fin k0_t4_loop.trips), ∀ a, (k0_off282 i k0_t3 k0_t4) a + S1x1x1x1x16.size a ≤ S4x2x5x8x128.size a
  k0_off283_inb : ∀ (i : grid0.Coords) (k0_t3 : Fin (k0_t3_loop i).trips) (k0_t4 : Fin k0_t4_loop.trips), ∀ a, (k0_off283 i k0_t3 k0_t4) a + S1x1x1x1x16.size a ≤ S4x2x5x8x128.size a
  k0_off284_inb : ∀ (i : grid0.Coords) (k0_t3 : Fin (k0_t3_loop i).trips) (k0_t4 : Fin k0_t4_loop.trips), ∀ a, (k0_off284 i k0_t3 k0_t4) a + S1x1x1x1x16.size a ≤ S4x2x5x8x128.size a
  k0_off285_inb : ∀ (i : grid0.Coords) (k0_t3 : Fin (k0_t3_loop i).trips) (k0_t4 : Fin k0_t4_loop.trips), ∀ a, (k0_off285 i k0_t3 k0_t4) a + S1x1x1x1x16.size a ≤ S4x2x5x8x128.size a
  k0_off286_inb : ∀ (i : grid0.Coords) (k0_t3 : Fin (k0_t3_loop i).trips), ∀ a, (k0_off286 i k0_t3) a + S1x1x5x8x128.size a ≤ S4x2x5x8x128.size a
  k0_off287_inb : ∀ (i : grid0.Coords) (k0_t3 : Fin (k0_t3_loop i).trips), ∀ a, (k0_off287 i k0_t3) a + S1x5x8x128.size a ≤ S2x25000x8x128.size a
  k0_off288_inb : ∀ (i : grid0.Coords) (k0_t3 : Fin (k0_t3_loop i).trips), ∀ a, (k0_off288 i k0_t3) a + S1x1x5x8x128.size a ≤ S4x2x5x8x128.size a
  k0_off289_inb : ∀ (i : grid0.Coords) (k0_t3 : Fin (k0_t3_loop i).trips), ∀ a, (k0_off289 i k0_t3) a + S1x5x8x128.size a ≤ S2x25000x8x128.size a
  k0_off290_inb : ∀ (i : grid0.Coords) (k0_t3 : Fin (k0_t3_loop i).trips), ∀ (k0_h8 : k0_cond8 i k0_t3 = 1#1), ∀ a, (k0_off290 i k0_t3) a + S1x640.size a ≤ S4x640.size a
  k0_off291_inb : ∀ (i : grid0.Coords) (k0_t3 : Fin (k0_t3_loop i).trips), ∀ (k0_h8 : k0_cond8 i k0_t3 = 1#1), ∀ a, (k0_off291 i k0_t3) a + S640.size a ≤ S3200000.size a
  k0_off292_inb : ∀ (i : grid0.Coords) (k0_t3 : Fin (k0_t3_loop i).trips), ∀ (k0_h8 : k0_cond8 i k0_t3 = 1#1), ∀ a, (k0_off292 i k0_t3) a + S1.size a ≤ S4.size a
  k0_off293_inb : ∀ i : grid0.Coords, ∀ (k0_h9 : k0_cond9 i = 1#1), ∀ a, (k0_off293 i) a + S1x1x5x8x128.size a ≤ S4x2x5x8x128.size a
  k0_off294_inb : ∀ i : grid0.Coords, ∀ (k0_h9 : k0_cond9 i = 1#1), ∀ a, (k0_off294 i) a + S1x5x8x128.size a ≤ S2x25000x8x128.size a
  k0_off295_inb : ∀ i : grid0.Coords, ∀ (k0_h9 : k0_cond9 i = 1#1), ∀ a, (k0_off295 i) a + S1.size a ≤ S4.size a
  k0_off296_inb : ∀ i : grid0.Coords, ∀ (k0_h9 : k0_cond9 i = 1#1), ∀ a, (k0_off296 i) a + S1x1x5x8x128.size a ≤ S4x2x5x8x128.size a
  k0_off297_inb : ∀ i : grid0.Coords, ∀ (k0_h9 : k0_cond9 i = 1#1), ∀ a, (k0_off297 i) a + S1x5x8x128.size a ≤ S2x25000x8x128.size a
  k0_off298_inb : ∀ i : grid0.Coords, ∀ (k0_h10 : k0_cond10 i = 1#1), ∀ a, (k0_off298 i) a + S1x1x5x8x128.size a ≤ S4x2x5x8x128.size a
  k0_off299_inb : ∀ i : grid0.Coords, ∀ (k0_h10 : k0_cond10 i = 1#1), ∀ a, (k0_off299 i) a + S1x5x8x128.size a ≤ S2x25000x8x128.size a
  k0_off300_inb : ∀ i : grid0.Coords, ∀ (k0_h10 : k0_cond10 i = 1#1), ∀ a, (k0_off300 i) a + S1.size a ≤ S4.size a
  k0_off301_inb : ∀ i : grid0.Coords, ∀ (k0_h10 : k0_cond10 i = 1#1), ∀ a, (k0_off301 i) a + S1x1x5x8x128.size a ≤ S4x2x5x8x128.size a
  k0_off302_inb : ∀ i : grid0.Coords, ∀ (k0_h10 : k0_cond10 i = 1#1), ∀ a, (k0_off302 i) a + S1x5x8x128.size a ≤ S2x25000x8x128.size a
  k0_off303_inb : ∀ i : grid0.Coords, ∀ (k0_h11 : k0_cond11 i = 1#1), ∀ a, (k0_off303 i) a + S1x1x5x8x128.size a ≤ S4x2x5x8x128.size a
  k0_off304_inb : ∀ i : grid0.Coords, ∀ (k0_h11 : k0_cond11 i = 1#1), ∀ a, (k0_off304 i) a + S1x5x8x128.size a ≤ S2x25000x8x128.size a
  k0_off305_inb : ∀ i : grid0.Coords, ∀ (k0_h11 : k0_cond11 i = 1#1), ∀ a, (k0_off305 i) a + S1.size a ≤ S4.size a
  k0_off306_inb : ∀ i : grid0.Coords, ∀ (k0_h11 : k0_cond11 i = 1#1), ∀ a, (k0_off306 i) a + S1x1x5x8x128.size a ≤ S4x2x5x8x128.size a
  k0_off307_inb : ∀ i : grid0.Coords, ∀ (k0_h11 : k0_cond11 i = 1#1), ∀ a, (k0_off307 i) a + S1x5x8x128.size a ≤ S2x25000x8x128.size a
  k0_off308_inb : ∀ i : grid0.Coords, ∀ (k0_h12 : k0_cond12 i = 1#1), ∀ a, (k0_off308 i) a + S1x1x5x8x128.size a ≤ S4x2x5x8x128.size a
  k0_off309_inb : ∀ i : grid0.Coords, ∀ (k0_h12 : k0_cond12 i = 1#1), ∀ a, (k0_off309 i) a + S1x5x8x128.size a ≤ S2x25000x8x128.size a
  k0_off310_inb : ∀ i : grid0.Coords, ∀ (k0_h12 : k0_cond12 i = 1#1), ∀ a, (k0_off310 i) a + S1.size a ≤ S4.size a
  k0_off311_inb : ∀ i : grid0.Coords, ∀ (k0_h12 : k0_cond12 i = 1#1), ∀ a, (k0_off311 i) a + S1x1x5x8x128.size a ≤ S4x2x5x8x128.size a
  k0_off312_inb : ∀ i : grid0.Coords, ∀ (k0_h12 : k0_cond12 i = 1#1), ∀ a, (k0_off312 i) a + S1x5x8x128.size a ≤ S2x25000x8x128.size a

variable [Facts₀]

abbrev cc0_scratch3 : DmaSems sig S4 := SemArray.consecutive 0 S4 hcc0_scratch3
abbrev cc0_scratch4 : DmaSems sig S4 := SemArray.consecutive 4 S4 hcc0_scratch4
abbrev cc0_scoped0 : DmaSems sig S_ := SemArray.consecutive 8 S_ hcc0_scoped0

class Facts : Prop extends Facts₀ where

variable [Facts]
-- ==== ReferenceIdeal.lean ====
abbrev S3200000 : Shape := ⟨1, ![3200000]⟩
abbrev S100x16 : Shape := ⟨2, ![100, 16]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x16 : Shape := ⟨2, ![3200000, 16]⟩

abbrev nBuf : Space → Nat
  | .hbm => 25
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S100x16, .f32⟩
  | .hbm, ⟨2, _⟩ => ⟨S_, .i32⟩
  | .hbm, ⟨3, _⟩ => ⟨S3200000, .i32⟩
  | .hbm, ⟨4, _⟩ => ⟨S3200000, .i1⟩
  | .hbm, ⟨5, _⟩ => ⟨S_, .i32⟩
  | .hbm, ⟨6, _⟩ => ⟨S3200000, .i32⟩
  | .hbm, ⟨7, _⟩ => ⟨S3200000, .i32⟩
  | .hbm, ⟨8, _⟩ => ⟨S3200000, .i32⟩
  | .hbm, ⟨9, _⟩ => ⟨S3200000x1, .i32⟩
  | .hbm, ⟨10, _⟩ => ⟨S1, .i32⟩
  | .hbm, ⟨11, _⟩ => ⟨S_, .i32⟩
  | .hbm, ⟨12, _⟩ => ⟨S3200000x1, .i32⟩
  | .hbm, ⟨13, _⟩ => ⟨S3200000x1, .i1⟩
  | .hbm, ⟨14, _⟩ => ⟨S1x1, .i32⟩
  | .hbm, ⟨15, _⟩ => ⟨S3200000x1, .i32⟩
  | .hbm, ⟨16, _⟩ => ⟨S3200000x1, .i1⟩
  | .hbm, ⟨17, _⟩ => ⟨S3200000x1, .i1⟩
  | .hbm, ⟨18, _⟩ => ⟨S_, .i1⟩
  | .hbm, ⟨19, _⟩ => ⟨S3200000, .i1⟩
  | .hbm, ⟨20, _⟩ => ⟨S3200000x16, .f32⟩
  | .hbm, ⟨21, _⟩ => ⟨S3200000x16, .i1⟩
  | .hbm, ⟨22, _⟩ => ⟨S_, .f32⟩
  | .hbm, ⟨23, _⟩ => ⟨S3200000x16, .f32⟩
  | .hbm, ⟨24, _⟩ => ⟨S3200000x16, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  gather_S100x16_S3200000x1_S3200000x16_1_0_n_n_0_1_116_wf : GatherDims.WF S100x16 S3200000x1 S3200000x16 [1] [0] [] [0] [] 1 ![1, 16]

variable [Facts₀]

def gather_S100x16_S3200000x1_S3200000x16_1_0_n_n_0_1_116 : GatherDims S100x16 S3200000x1 S3200000x16 where
  offsetDims := [1]
  collapsedSliceDims := [0]
  operandBatchingDims := []
  startIndicesBatchingDims := []
  startIndexMap := [0]
  indexVectorDim := 1
  sliceSizes := ![1, 16]
  wf := gather_S100x16_S3200000x1_S3200000x16_1_0_n_n_0_1_116_wf

class Facts : Prop extends Facts₀ where

variable [Facts]
-- ==== Proof.LookupSpec.lean ====
/-
  The specification both programs are compared with: an embedding lookup. For an array of
  3200000 integer words `sp` and a table `tb` of 100 rows and 16 columns, the result has one row
  per word: row `r` of the result is the table's row numbered by the word `sp r`. The word is read
  as a natural number and reduced modulo 100, which makes the function total; on words between
  0 and 99 the reduction changes nothing, so the result is `table[species[r], c]`. Nothing here
  depends on the float instance: the lookup only moves elements.
-/
import Idealize.ShloMosaic.Lib.ValueIdx

noncomputable section

namespace Cert.RefSide

open Idealize.ShloMosaic Idealize.ShloMosaic.ValueIdx

/-- The table row a word selects: the word as a natural number, modulo the 100 rows. -/
def rowOf (w : BitVec 32) : Fin 100 := ⟨w.toNat % 100, Nat.mod_lt _ (by decide)⟩

/-- The embedding lookup: element `(r, c)` is the table's element at row `rowOf (sp r)`, column `c`. -/
def lookup {F : FTy → Type} (sp : IVec ⟨1, ![3200000]⟩ 32) (tb : FVec F ⟨2, ![100, 16]⟩ .f32) :
    FVec F ⟨2, ![3200000, 16]⟩ .f32 :=
  fun j => tb (ix2 (rowOf (sp (ix1 ⟨(j 0).val, idx2_lt0 j⟩))) ⟨(j 1).val, idx2_lt1 j⟩)

/-- The lookup read at the index with coordinates `r` and `c`. -/
theorem lookup_apply {F : FTy → Type} (sp : IVec ⟨1, ![3200000]⟩ 32) (tb : FVec F ⟨2, ![100, 16]⟩ .f32)
    (r : Fin 3200000) (c : Fin 16) :
    lookup sp tb (ix2 r c) = tb (ix2 (rowOf (sp (ix1 r))) c) := rfl

/-- The selected row's number is the word modulo 100. -/
theorem rowOf_val (w : BitVec 32) : (rowOf w).val = w.toNat % 100 := rfl

/-- A word below 100 selects the row of its own number. -/
theorem rowOf_val_of_lt (w : BitVec 32) (h : w.toNat < 100) : (rowOf w).val = w.toNat :=
  Nat.mod_eq_of_lt h

end Cert.RefSide

end
-- ==== Proof.RefTerm.lean ====
/-
  The reference's result as one term of its two arguments, and why that term is the lookup.

  The reference is `take(table, species, axis = 0)`. Written out it (1) wraps a negative word by
  adding the number of rows, 100; (2) makes the wrapped words a column of start indices;
  (3) computes, row by row, whether the start index lies between 0 and 99; (4) gathers the
  table's row at the start index, the index read signed and clamped into 0 … 99; (5) keeps the
  gathered row where (3) holds and a row of NaN words where it does not.

  When every word lies between 0 and 99: the wrap (1) leaves the word alone, the test (3) is
  true in every row, the clamp in (4) does nothing, so the select (5) keeps the gathered row,
  which is the table's row numbered by the word: the lookup.
-/
import proofs.«202852_g34127810134284_cont_8to1_b_1476_20_alg».proof.Proof.Gen.ReferenceIdeal
import proofs.«202852_g34127810134284_cont_8to1_b_1476_20_alg».proof.Proof.LookupSpec
import Idealize.ShloMosaic.Lib.ReduceAll
import Idealize.ShloMosaic.Lib.Pipeline.Value

noncomputable section

namespace Cert.RefSide

open Idealize.ShloMosaic Idealize.ShloMosaic.ValueIdx Cert.ReferenceIdeal Cert.ReferenceIdeal.Facts₀

variable {F : FTy → Type} [FloatOps F]

/-! ## The pieces of the reference's term -/

/-- (1) A negative word wrapped by adding 100; any other word unchanged. -/
def wrapped (sp : IVec S3200000 32) : IVec S3200000 32 :=
  select (cmpi .slt sp (broadcastInDim S3200000 ![] bcast_S_S3200000 (constantI S_ 32 0#32)))
    (addi sp (broadcastInDim S3200000 ![] bcast_S_S3200000 (constantI S_ 32 100#32))) sp

/-- (2) The wrapped words as a column of start indices. -/
def startIdx (sp : IVec S3200000 32) : IVec S3200000x1 32 :=
  broadcastInDim S3200000x1 ![0] bcast_S3200000_S3200000x1_0 (wrapped sp)

/-- (3) Row by row: the start index is at least 0 and at most 99, the conjunction reduced along the column's one entry. -/
def inBounds (sp : IVec S3200000 32) : IVec S3200000 1 :=
  Host.reduce IntOp.andi
    (andi
      (cmpi .sge (startIdx sp) (broadcastInDim S3200000x1 ![] bcast_S_S3200000x1 (constantI S_ 32 0#32)))
      (cmpi .sle (startIdx sp)
        (broadcastInDim S3200000x1 ![0, 1] bcast_S1x1_S3200000x1_0_1
          (broadcastInDim S1x1 ![1] bcast_S1_S1x1_1 (constantI S1 32 99#32)))))
    (constantI S_ 1 1#1) reducesTo_S3200000x1_S3200000_d1 h_S_

/-- (4) and (5): the gathered rows where the start index is in bounds, NaN words elsewhere. -/
def refTerm (sp : IVec S3200000 32) (tb : FVec F S100x16 .f32) : FVec F S3200000x16 .f32 :=
  select (broadcastInDim S3200000x16 ![0] bcast_S3200000_S3200000x16_0 (inBounds sp))
    (Host.gather gather_S100x16_S3200000x1_S3200000x16_1_0_n_n_0_1_116 tb (startIdx sp))
    (broadcastInDim S3200000x16 ![] bcast_S_S3200000x16 (constant S_ .f32 0x7FC00000#32))

/-! ## Words between 0 and 99 -/

/-- A word that reads, signed, between 0 and 99 reads the same unsigned, and is below 100. -/
theorem toNat_of_range (w : BitVec 32) (h0 : 0 ≤ w.toInt) (h1 : w.toInt ≤ 99) :
    w.toInt = (w.toNat : Int) ∧ w.toNat < 100 := by
  have hc := BitVec.toInt_eq_toNat_cond w
  have hlt := w.isLt
  by_cases h : 2 * w.toNat < 2 ^ 32
  · rw [if_pos h] at hc
    exact ⟨hc, by omega⟩
  · rw [if_neg h] at hc
    omega

/-- (1) leaves a nonnegative word unchanged. -/
theorem wrapped_apply_of_nonneg (sp : IVec S3200000 32) (i : S3200000.Idx) (h : 0 ≤ (sp i).toInt) :
    wrapped sp i = sp i := by
  show Scalar.select (IntOp.cmpi .slt (sp i) 0#32) (IntOp.addi (sp i) 100#32) (sp i) = sp i
  have hc : IntOp.cmpi .slt (sp i) 0#32 = 0#1 := eq_zero_of_ne_one fun h1 => by
    have := IntOp.cmpi_slt.1 h1
    rw [show (0#32 : BitVec 32).toInt = 0 from by decide] at this
    omega
  rw [hc, select_zero]

/-- An array of 3200000 entries made a column reads, at row `r`, its entry `r`. -/
theorem column_apply {α : Type} (x : S3200000.Idx → α) (r : Fin 3200000) (z : Fin 1) :
    broadcastInDim S3200000x1 ![0] bcast_S3200000_S3200000x1_0 x (ix2 r z) = x (ix1 r) :=
  broadcastInDim_apply ![0] bcast_S3200000_S3200000x1_0 x (ix2 r z) (ix1 r)
    (fun a => match a with | ⟨0, _⟩ => (if_neg (by decide : ¬ (3200000 : Nat) = 1)).symm)

/-- An array of 3200000 entries repeated along 16 columns reads, at `(r, c)`, its entry `r`. -/
theorem rows_apply {α : Type} (x : S3200000.Idx → α) (r : Fin 3200000) (c : Fin 16) :
    broadcastInDim S3200000x16 ![0] bcast_S3200000_S3200000x16_0 x (ix2 r c) = x (ix1 r) :=
  broadcastInDim_apply ![0] bcast_S3200000_S3200000x16_0 x (ix2 r c) (ix1 r)
    (fun a => match a with | ⟨0, _⟩ => (if_neg (by decide : ¬ (3200000 : Nat) = 1)).symm)

/-- (2) at row `r` of the column is the wrapped word at `r`. -/
theorem startIdx_apply (sp : IVec S3200000 32) (r : Fin 3200000) (z : Fin 1) :
    startIdx sp (ix2 r z) = wrapped sp (ix1 r) := by
  unfold startIdx
  exact column_apply _ r z

/-! ## A conjunction over ones is one -/

/-- A left fold by `and` from 1 over words that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_all f l fun n hn => h n (List.mem_cons_of_mem _ hn)

/-- A reduction by `and` from the constant 1 of an array of ones is 1 at every result index. -/
theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_of_all x _ fun i _ => hx i

/-- (3) is true in every row when every word lies between 0 and 99. -/
theorem inBounds_eq_one (sp : IVec S3200000 32) (hr : ∀ i, 0 ≤ (sp i).toInt ∧ (sp i).toInt ≤ 99)
    (i : S3200000.Idx) : inBounds sp i = 1#1 := by
  unfold inBounds
  refine reduce_andi_of_all _ _ _ _ _ rfl fun k => ?_
  obtain ⟨r, z, rfl⟩ : ∃ (r : Fin 3200000) (z : Fin 1), k = ix2 r z := ⟨k 0, k 1, eq_ix2 k⟩
  show IntOp.andi (IntOp.cmpi .sge (startIdx sp (ix2 r z)) 0#32)
      (IntOp.cmpi .sle (startIdx sp (ix2 r z)) 99#32) = 1#1
  rw [startIdx_apply, wrapped_apply_of_nonneg sp _ (hr _).1]
  refine IntOp.andi_eq_one.2 ⟨IntOp.cmpi_sge.2 ?_, IntOp.cmpi_sle.2 ?_⟩
  · rw [show (0#32 : BitVec 32).toInt = 0 from by decide]; exact (hr _).1
  · rw [show (99#32 : BitVec 32).toInt = 99 from by decide]; exact (hr _).2

/-! ## The gather read at an index -/

/-- (4) at `(r, c)`: the table at row `q` and column `c`, where `q` is the start index of row `r` read signed
    and clamped into 0 … 99. -/
theorem gather_rows_apply {α : Type} (x : S100x16.Idx → α) (idx : IVec S3200000x1 32) (r : Fin 3200000) (c : Fin 16)
    (q : Fin 100) (hq : q.val = min (idx (ix2 r (0 : Fin 1))).toInt.toNat 99) :
    Host.gather gather_S100x16_S3200000x1_S3200000x16_1_0_n_n_0_1_116 x idx (ix2 r c) = x (ix2 q c) := by
  unfold Host.gather
  refine congrArg x (funext fun a => Fin.ext ?_)
  match a with
  | ⟨0, _⟩ =>
    show GatherDims.start _ (ix2 r c) idx 0 + GatherDims.batchCoord _ (ix2 r c) 0 + GatherDims.offCoord _ (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈
      (gather_S100x16_S3200000x1_S3200000x16_1_0_n_n_0_1_116).startIndexMap from List.mem_singleton.mpr rfl)]
    have hsi : (gather_S100x16_S3200000x1_S3200000x16_1_0_n_n_0_1_116).siIdx (ix2 r c)
        ⟨List.idxOf (0 : Fin 2) (gather_S100x16_S3200000x1_S3200000x16_1_0_n_n_0_1_116).startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    exact hq.symm
  | ⟨1, _⟩ =>
    show GatherDims.start _ (ix2 r c) idx 1 + GatherDims.batchCoord _ (ix2 r c) 1 + GatherDims.offCoord _ (ix2 r c) 1 = c.val
    rw [GatherDims.batchCoord_eq_zero _ _ _ List.not_mem_nil]
    unfold GatherDims.start
    rw [dif_neg (show (1 : Fin 2) ∉
      (gather_S100x16_S3200000x1_S3200000x16_1_0_n_n_0_1_116).startIndexMap from by decide)]
    simp only [Nat.add_zero, Nat.zero_add]
    rfl

/-! ## The reference's term is the lookup -/

/-- When every word lies between 0 and 99 the reference's term is the lookup. -/
theorem refTerm_eq_lookup (sp : IVec S3200000 32) (tb : FVec F S100x16 .f32)
    (hr : ∀ i, 0 ≤ (sp i).toInt ∧ (sp i).toInt ≤ 99) : refTerm sp tb = lookup sp tb := by
  funext j
  obtain ⟨r, c, rfl⟩ : ∃ (r : Fin 3200000) (c : Fin 16), j = ix2 r c := ⟨j 0, j 1, eq_ix2 j⟩
  rw [lookup_apply]
  unfold refTerm
  rw [select_apply, rows_apply, inBounds_eq_one sp hr, select_one]
  obtain ⟨hI, hN⟩ := toNat_of_range (sp (ix1 r)) (hr _).1 (hr _).2
  refine gather_rows_apply tb (startIdx sp) r c (rowOf (sp (ix1 r))) ?_
  rw [startIdx_apply, wrapped_apply_of_nonneg sp _ (hr _).1, rowOf_val, hI, Int.toNat_natCast,
    Nat.mod_eq_of_lt hN]
  omega

end Cert.RefSide

end
-- ==== Proof.RefOps.lean ====
/-
  The reference as a straight line. Its program is one call of `take`, itself calling `where`
  once: inlined, twenty-three operations, each writing a buffer of its own. This module lists
  them, shows the program is their sequence, and records what does not depend on their
  arithmetic: no operation writes an argument's buffer, every buffer named is a TensorCore
  buffer of the device, and the signature scopes nothing.
-/
import proofs.«202852_g34127810134284_cont_8to1_b_1476_20_alg».proof.Proof.RefTerm
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F]

/-- The reference's operations in order, the two calls unfolded: `take`'s first six (the zero and its
    broadcast, the sign test, the 100 and its broadcast, the sum), `where`'s select, then `take`'s remaining
    sixteen (the column of start indices, the bounds 99 and 0 and their broadcasts, the two comparisons and
    their conjunction, its reduction along the column, the gather, the mask's broadcast, the NaN word and its
    broadcast, the final select). -/
abbrev ops : List (HloOp τ sig (Elt F)) :=
  [ TRef.nullary main_call0.c (constantI S_ 32 0#32),
    TRef.unary main_call0.c main_call0.v0 (broadcastInDim S3200000 ![] bcast_S_S3200000),
    TRef.binary (TRef.of main_arg0 : TRef sig ⟨S3200000, .i32⟩) main_call0.v0 main_call0.v1 (cmpi .slt),
    TRef.nullary main_call0.c_0 (constantI S_ 32 100#32),
    TRef.unary main_call0.c_0 main_call0.v2 (broadcastInDim S3200000 ![] bcast_S_S3200000),
    TRef.binary (TRef.of main_arg0 : TRef sig ⟨S3200000, .i32⟩) main_call0.v2 main_call0.v3 addi,
    TRef.ternary main_call0.v1 main_call0.v3 (TRef.of main_arg0 : TRef sig ⟨S3200000, .i32⟩) main_call0.call0.v0 select,
    TRef.unary main_call0.call0.v0 main_call0.v5 (broadcastInDim S3200000x1 ![0] bcast_S3200000_S3200000x1_0),
    TRef.nullary main_call0.c_1 (constantI S1 32 99#32),
    TRef.nullary main_call0.c_2 (constantI S_ 32 0#32),
    TRef.unary main_call0.c_2 main_call0.v6 (broadcastInDim S3200000x1 ![] bcast_S_S3200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3200000x1 ![0, 1] bcast_S1x1_S3200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S3200000x1_S3200000_d1 h_S_),
    TRef.binary (TRef.of main_arg1 : TRef sig ⟨S100x16, .f32⟩) main_call0.v5 main_call0.v13
      (fun x i => Host.gather gather_S100x16_S3200000x1_S3200000x16_1_0_n_n_0_1_116 x i),
    TRef.unary main_call0.v12 main_call0.v14 (broadcastInDim S3200000x16 ![0] bcast_S3200000_S3200000x16_0),
    TRef.nullary main_call0.cst (constant S_ .f32 0x7FC00000#32),
    TRef.unary main_call0.cst main_call0.v15 (broadcastInDim S3200000x16 ![] bcast_S_S3200000x16),
    TRef.ternary main_call0.v14 main_call0.v13 main_call0.v15 main_call0.v16 select ]

/-- The program is that straight line: the two functions unfolded at their calls, both sides are one chain of
    steps once sequencing is reassociated. -/
theorem main_eq (c : Dev nD) : main (F := F) c = seq ops := by
  simp only [main, fn_take.body, fn_where.body, seq, bind_assoc, pure_bind]

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore buffers of the device. -/
theorem ops_sub : (ops : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩

end Cert.RefSide

end
-- ==== Proof.RefRun.lean ====
/-
  The reference's run. Every weakly fair execution of a straight line of operations terminates
  with each buffer at the fold of the operations over the launch contents. Read at the result's
  buffer that fold is the term `refTerm` of the two arguments' launch contents; at the arguments'
  buffers, which no operation writes, it is the launch contents themselves.

  The fold is read in three stretches, each over arbitrary contents before it, so that the column
  of start indices — which the two bound tests and the gather all read — is computed once:
  the first eight operations leave the column `startIdx` of the index words; the next ten leave
  the row mask as a function of that column; the last five select between the gathered rows and
  the NaN rows by that mask.
-/
import proofs.«202852_g34127810134284_cont_8to1_b_1476_20_alg».proof.Proof.RefOps

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F]

/-- The fold over a concatenation is the fold over the second list from the fold over the first. -/
theorem after_concat {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

/-- The row mask as a function of the column of start indices: in each row, the start index is at least 0
    and at most 99. -/
def inBoundsOf (si : IVec S3200000x1 32) : IVec S3200000 1 :=
  Host.reduce IntOp.andi
    (andi
      (cmpi .sge si (broadcastInDim S3200000x1 ![] bcast_S_S3200000x1 (constantI S_ 32 0#32)))
      (cmpi .sle si
        (broadcastInDim S3200000x1 ![0, 1] bcast_S1x1_S3200000x1_0_1
          (broadcastInDim S1x1 ![1] bcast_S1_S1x1_1 (constantI S1 32 99#32)))))
    (constantI S_ 1 1#1) reducesTo_S3200000x1_S3200000_d1 h_S_

theorem inBounds_eq (sp : IVec S3200000 32) : inBounds sp = inBoundsOf (startIdx sp) := rfl

/-- The first stretch: the wrap of negative words and the column of start indices. -/
abbrev opsWrap : List (HloOp τ sig (Elt F)) :=
  [ TRef.nullary main_call0.c (constantI S_ 32 0#32),
    TRef.unary main_call0.c main_call0.v0 (broadcastInDim S3200000 ![] bcast_S_S3200000),
    TRef.binary (TRef.of main_arg0 : TRef sig ⟨S3200000, .i32⟩) main_call0.v0 main_call0.v1 (cmpi .slt),
    TRef.nullary main_call0.c_0 (constantI S_ 32 100#32),
    TRef.unary main_call0.c_0 main_call0.v2 (broadcastInDim S3200000 ![] bcast_S_S3200000),
    TRef.binary (TRef.of main_arg0 : TRef sig ⟨S3200000, .i32⟩) main_call0.v2 main_call0.v3 addi,
    TRef.ternary main_call0.v1 main_call0.v3 (TRef.of main_arg0 : TRef sig ⟨S3200000, .i32⟩) main_call0.call0.v0 select,
    TRef.unary main_call0.call0.v0 main_call0.v5 (broadcastInDim S3200000x1 ![0] bcast_S3200000_S3200000x1_0) ]

/-- The second stretch: the two bound tests, their conjunction and its reduction along the column. -/
abbrev opsMask : List (HloOp τ sig (Elt F)) :=
  [ TRef.nullary main_call0.c_1 (constantI S1 32 99#32),
    TRef.nullary main_call0.c_2 (constantI S_ 32 0#32),
    TRef.unary main_call0.c_2 main_call0.v6 (broadcastInDim S3200000x1 ![] bcast_S_S3200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3200000x1 ![0, 1] bcast_S1x1_S3200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S3200000x1_S3200000_d1 h_S_) ]

/-- The third stretch: the gather, the mask repeated along the columns, the NaN rows, the select. -/
abbrev opsSelect : List (HloOp τ sig (Elt F)) :=
  [ TRef.binary (TRef.of main_arg1 : TRef sig ⟨S100x16, .f32⟩) main_call0.v5 main_call0.v13
      (fun x i => Host.gather gather_S100x16_S3200000x1_S3200000x16_1_0_n_n_0_1_116 x i),
    TRef.unary main_call0.v12 main_call0.v14 (broadcastInDim S3200000x16 ![0] bcast_S3200000_S3200000x16_0),
    TRef.nullary main_call0.cst (constant S_ .f32 0x7FC00000#32),
    TRef.unary main_call0.cst main_call0.v15 (broadcastInDim S3200000x16 ![] bcast_S_S3200000x16),
    TRef.ternary main_call0.v14 main_call0.v13 main_call0.v15 main_call0.v16 select ]

/-- The line is its three stretches in order. -/
theorem ops_eq : (ops : List (HloOp τ sig (Elt F))) = opsWrap ++ (opsMask ++ opsSelect) := rfl

/-! ## The first stretch -/

theorem wrap_startIdx (V : Valuation τ sig (Elt F)) :
    after opsWrap V (main_call0_v5 : DevRef τ sig) = startIdx (V (main_arg0 : DevRef τ sig)) := by
  after_results
  rfl

theorem wrap_arg1 (V : Valuation τ sig (Elt F)) :
    after opsWrap V (main_arg1 : DevRef τ sig) = V (main_arg1 : DevRef τ sig) := by
  simp only [after_cons, after_nil]
  rfl

/-! ## The second stretch -/

attribute [local irreducible] Host.reduce in
theorem mask_inBounds (W : Valuation τ sig (Elt F)) :
    after opsMask W (main_call0_v12 : DevRef τ sig) = inBoundsOf (W (main_call0_v5 : DevRef τ sig)) := by
  after_results
  rfl

theorem mask_startIdx (W : Valuation τ sig (Elt F)) :
    after opsMask W (main_call0_v5 : DevRef τ sig) = W (main_call0_v5 : DevRef τ sig) := by
  simp only [after_cons, after_nil]
  rfl

theorem mask_arg1 (W : Valuation τ sig (Elt F)) :
    after opsMask W (main_arg1 : DevRef τ sig) = W (main_arg1 : DevRef τ sig) := by
  simp only [after_cons, after_nil]
  rfl

/-! ## The third stretch -/

attribute [local irreducible] Host.gather in
theorem select_result (W : Valuation τ sig (Elt F)) :
    after opsSelect W (main_v0 : DevRef τ sig)
      = select (broadcastInDim S3200000x16 ![0] bcast_S3200000_S3200000x16_0 (W (main_call0_v12 : DevRef τ sig)))
          (Host.gather gather_S100x16_S3200000x1_S3200000x16_1_0_n_n_0_1_116 (W (main_arg1 : DevRef τ sig))
            (W (main_call0_v5 : DevRef τ sig)))
          (broadcastInDim S3200000x16 ![] bcast_S_S3200000x16 (constant S_ .f32 0x7FC00000#32)) := by
  after_results
  rfl

/-! ## The whole line, and the run -/

/-- The fold at the result's buffer is `refTerm` of the arguments' contents. -/
theorem result_eq (V : Valuation τ sig (Elt F)) :
    after ops V (main_v0 : DevRef τ sig)
      = refTerm (V (main_arg0 : DevRef τ sig)) (V (main_arg1 : DevRef τ sig)) := by
  rw [ops_eq, after_concat, after_concat, select_result, mask_inBounds, mask_arg1, mask_startIdx, wrap_startIdx,
    wrap_arg1, ← inBounds_eq]
  rfl

/-- For any float values, from any memory with zero counters: every weakly fair execution of the reference
    terminates with its result at `refTerm` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (result_eq _),
      (h c main_arg0).trans (arg0_eq _), (h c main_arg1).trans (arg1_eq _)⟩)
    (run_seq scopedRefs_eq scopedSems_eq defs main (fun _ => ops) main_eq (fun _ => ops_sub) m ρ)

end Cert.RefSide

end
-- ==== Proof.PreRange.lean ====
/-
  What the precondition says of the index words. The precondition is the conjunction of two
  all-reductions: every table entry is finite, and every word `w` of the index array satisfies
  `0 ≤ w` and `w ≤ 99`, both comparisons signed. Its value being the one-bit word 1 therefore
  gives, for every position, that the word read as a signed integer lies between 0 and 99; the
  word read as a natural number is then below 100, the number of table rows. Only the second
  conjunct is opened: moving elements needs nothing of the table's entries.
-/
import proofs.«202852_g34127810134284_cont_8to1_b_1476_20_alg».proof.Proof.Gen.Pre_input_domain
import Idealize.ShloMosaic.Lib.ReduceAll
import Idealize.ShloMosaic.Lib.ValueIdx

namespace Cert.RefSide

open Idealize.ShloMosaic Idealize.ShloMosaic.ValueIdx

/-- The scalar shape has one index. -/
instance subsingleton_scalar_idx : Subsingleton Cert.Pre_input_domain.S_.Idx :=
  ⟨fun _ _ => funext fun d => d.elim0⟩

/-- Under the precondition every index word, read signed, lies between 0 and 99. -/
theorem range_of_pre {F : FTy → Type} [FloatOps F] (sp : IVec ⟨1, ![3200000]⟩ 32)
    (tb : FVec F ⟨2, ![100, 16]⟩ .f32)
    (h : Cert.Pre_input_domain.fn (F := F) sp tb = (fun _ => 1#1))
    (i : (⟨1, ![3200000]⟩ : Shape).Idx) :
    0 ≤ (sp i).toInt ∧ (sp i).toInt ≤ 99 := by
  have h0 := congrFun h ix0
  dsimp only [Cert.Pre_input_domain.fn] at h0
  obtain ⟨-, h9⟩ := IntOp.andi_eq_one.1 h0
  have h8 := Host.reduce_andi_all _ _ _ _ _ h9 i
  obtain ⟨hge, hle⟩ := IntOp.andi_eq_one.1 h8
  have hge' := IntOp.cmpi_sge.1 hge
  have hle' := IntOp.cmpi_sle.1 hle
  exact ⟨hge', hle'⟩

/-- Under the precondition every index word, read as a natural number, is below 100. -/
theorem toNat_lt_of_pre {F : FTy → Type} [FloatOps F] (sp : IVec ⟨1, ![3200000]⟩ 32)
    (tb : FVec F ⟨2, ![100, 16]⟩ .f32)
    (h : Cert.Pre_input_domain.fn (F := F) sp tb = (fun _ => 1#1))
    (i : (⟨1, ![3200000]⟩ : Shape).Idx) :
    (sp i).toNat < 100 := by
  obtain ⟨h0, h99⟩ := range_of_pre sp tb h i
  have := BitVec.toInt_eq_toNat_of_lt (x := sp i) (by
    rcases Nat.lt_or_ge (2 * (sp i).toNat) (2 ^ 32) with hlt | hge
    · exact hlt
    · exfalso
      have := BitVec.toInt_eq_toNat_cond (sp i)
      rw [if_neg (by omega)] at this
      have := (sp i).isLt
      omega)
  omega

end Cert.RefSide
-- ==== Proof.TilePlan.lean ====
import Mathlib.Tactic
import Mathlib.Data.Fin.Basic

/-!
# How the 5000 chunks are dealt to the 32 workers

The lookup cuts the 3 200 000 positions into 5000 chunks of 640 (five blocks of 128 each). Worker `w < 32`
takes the consecutive chunks `start w, …, start w + nch w - 1`, where the first eight workers take 157
chunks and the others 156: `32 · 156 + 8 = 5000`. This file states that deal as plain arithmetic on
natural numbers: the ranges are inside `[0, 5000)`, pairwise disjoint, and every chunk lies in exactly one
of them.
-/

namespace Cert.TilePlan

/-- The number of chunks worker `w` takes: 157 for the first eight workers, 156 for the others. -/
def nch (w : ℕ) : ℕ := 156 + (if w < 8 then 1 else 0)

/-- The first chunk of worker `w`. -/
def start (w : ℕ) : ℕ := 156 * w + min w 8

theorem nch_pos (w : ℕ) : 0 < nch w := by unfold nch; split <;> omega
theorem nch_le (w : ℕ) : nch w ≤ 157 := by unfold nch; split <;> omega
theorem four_le_nch (w : ℕ) : 4 ≤ nch w := by unfold nch; split <;> omega

/-- Consecutive workers' ranges abut. -/
theorem start_succ (w : ℕ) : start (w + 1) = start w + nch w := by
  unfold start nch; split <;> omega

/-- The last worker's range ends at chunk 5000. -/
theorem start_end : start 31 + nch 31 = 5000 := by decide

theorem start_mono {v w : ℕ} (h : v ≤ w) : start v ≤ start w := by unfold start; omega

/-- Every worker's range lies inside the 5000 chunks. -/
theorem range_le {w : ℕ} (hw : w < 32) : start w + nch w ≤ 5000 := by
  unfold start nch; split <;> omega

/-- A chunk of worker `w` is a chunk. -/
theorem chunk_lt {w t : ℕ} (hw : w < 32) (ht : t < nch w) : start w + t < 5000 := by
  have := range_le hw; omega

/-- Two workers' ranges share no chunk. -/
theorem range_disjoint {v w s t : ℕ} (hs : s < nch v) (ht : t < nch w) (h : start v + s = start w + t) : v = w := by
  unfold start nch at *
  by_contra hne
  rcases Nat.lt_or_gt_of_ne hne with hlt | hlt
  · split at hs <;> split at ht <;> omega
  · split at hs <;> split at ht <;> omega

/-- and within one worker's range the position of a chunk determines it. -/
theorem range_inj {w s t : ℕ} (h : start w + s = start w + t) : s = t := by omega

/-- The worker a chunk belongs to: the first 1256 chunks go 157 to a worker, the rest 156 to a worker. -/
def owner (T : ℕ) : ℕ := if T < 1256 then T / 157 else 8 + (T - 1256) / 156

theorem owner_lt {T : ℕ} (hT : T < 5000) : owner T < 32 := by
  unfold owner; split <;> omega

/-- Every chunk lies in its owner's range. -/
theorem owner_spec {T : ℕ} (hT : T < 5000) : start (owner T) ≤ T ∧ T < start (owner T) + nch (owner T) := by
  unfold owner start nch
  split
  · have h1 : T / 157 < 8 := by omega
    rw [if_pos h1]; omega
  · have h1 : ¬ (8 + (T - 1256) / 156 < 8) := by omega
    rw [if_neg h1]; omega

/-- Every chunk is some worker's: worker `owner T`, at position `T - start (owner T)`. -/
theorem exists_owner {T : ℕ} (hT : T < 5000) : ∃ w t, w < 32 ∧ t < nch w ∧ T = start w + t :=
  ⟨owner T, T - start (owner T), owner_lt hT, by have := owner_spec hT; omega, by have := owner_spec hT; omega⟩

/-- The worker of vector subcore `s` of SparseCore `c`. -/
def wid (c s : ℕ) : ℕ := 2 * s + c

theorem wid_lt {c s : ℕ} (hc : c < 2) (hs : s < 16) : wid c s < 32 := by unfold wid; omega
theorem wid_inj {c s c' s' : ℕ} (hc : c < 2) (hc' : c' < 2) (h : wid c s = wid c' s') : c = c' ∧ s = s' := by
  unfold wid at h; omega
theorem wid_surj {w : ℕ} (hw : w < 32) : ∃ c s, c < 2 ∧ s < 16 ∧ w = wid c s :=
  ⟨w % 2, w / 2, by omega, by omega, by unfold wid; omega⟩

end Cert.TilePlan
-- ==== Proof.HostEnds.lean ====
/-
  The kernel's host operations around its call, read at an index. Both ends only re-arrange
  elements.

  Before the call the table, 100 rows of 16, is laid out as a column of its 1600 elements in
  row-major order, every element repeated 16 times along a new second axis, and the result
  flattened: position `k` of the 25600 holds the table's element number `k / 16`, that is row
  `k / 256` and column `(k / 16) % 16`.

  After the call the four-axis array `[2, 25000, 8, 128]` is transposed to `[25000, 128, 2, 8]`
  and flattened to `[3200000, 16]`: row `r = 128 T + j` and column `c = 8 h + q` of the result is
  the array's element `(h, T, q, j)`. So if the array holds at `(h, T, q, j)` the table's entry
  at the row the word number `128 T + j` selects and column `8 h + q`, the result is the lookup.
-/
import proofs.«202852_g34127810134284_cont_8to1_b_1476_20_alg».proof.Proof.LookupSpec
import Idealize.ShloMosaic.Lib.Pipeline.Value

noncomputable section

namespace Cert.RefSide

open Idealize.ShloMosaic Idealize.ShloMosaic.ValueIdx

variable {F : FTy → Type}

/-! ## The shapes' relations -/

theorem casts_table_column : (⟨2, ![100, 16]⟩ : Shape).ShapeCasts ⟨2, ![1600, 1]⟩ := by decide
theorem bcast_column_repeated :
    (⟨2, ![1600, 1]⟩ : Shape).BroadcastsInDim ⟨2, ![1600, 16]⟩ (![0, 1] : Fin 2 → Fin 2) := by decide
theorem casts_repeated_flat : (⟨2, ![1600, 16]⟩ : Shape).ShapeCasts ⟨1, ![25600]⟩ := by decide
theorem transposes_out :
    (⟨4, ![2, 25000, 8, 128]⟩ : Shape).Transposes [1, 3, 0, 2] ⟨4, ![25000, 128, 2, 8]⟩ := by decide
theorem casts_out_rows : (⟨4, ![25000, 128, 2, 8]⟩ : Shape).ShapeCasts ⟨2, ![3200000, 16]⟩ := by decide

/-! ## Before the call: the table with every element repeated 16 times -/

/-- The table as a column, each element repeated along a second axis of 16, flattened. -/
def tabRep (tb : FVec F ⟨2, ![100, 16]⟩ .f32) : FVec F ⟨1, ![25600]⟩ .f32 :=
  shapeCast ⟨1, ![25600]⟩
    (broadcastInDim ⟨2, ![1600, 16]⟩ ![0, 1] bcast_column_repeated
      (shapeCast ⟨2, ![1600, 1]⟩ tb casts_table_column))
    casts_repeated_flat

/-- Position `k` holds the table's row `k / 256`, column `(k / 16) % 16`. -/
theorem tabRep_apply (tb : FVec F ⟨2, ![100, 16]⟩ .f32) (k : Fin 25600) :
    tabRep tb (ix1 k)
      = tb (ix2 (⟨k.val / 256, by have := k.isLt; omega⟩ : Fin 100)
          (⟨k.val / 16 % 16, Nat.mod_lt _ (by decide)⟩ : Fin 16)) := by
  have hk := k.isLt
  unfold tabRep
  refine (shapeCast_apply _ casts_repeated_flat (ix1 k)
    (ix2 (⟨k.val / 16, by omega⟩ : Fin 1600) (⟨k.val % 16, Nat.mod_lt _ (by decide)⟩ : Fin 16)) ?_).trans ?_
  · rw [Shape.rowMajor_val_two, Shape.rowMajor_val_one]
    show k.val / 16 * 16 + k.val % 16 = k.val
    omega
  refine (broadcastInDim_apply ![0, 1] bcast_column_repeated _ _
    (ix2 (⟨k.val / 16, by omega⟩ : Fin 1600) (0 : Fin 1))
    (fun a => match a with | ⟨0, _⟩ => rfl | ⟨1, _⟩ => rfl)).trans ?_
  refine shapeCast_apply tb casts_table_column _ _ ?_
  rw [Shape.rowMajor_val_two, Shape.rowMajor_val_two]
  show k.val / 256 * 16 + k.val / 16 % 16 = k.val / 16 * 1 + 0
  omega

/-! ## After the call: the four-axis array as rows of 16 -/

/-- The array transposed to `[25000, 128, 2, 8]` and flattened to rows of 16. -/
def outOf (o4 : FVec F ⟨4, ![2, 25000, 8, 128]⟩ .f32) : FVec F ⟨2, ![3200000, 16]⟩ .f32 :=
  shapeCast ⟨2, ![3200000, 16]⟩
    (transpose ⟨4, ![25000, 128, 2, 8]⟩ [1, 3, 0, 2] o4 transposes_out)
    casts_out_rows

/-- Row `r`, column `c` of the result is the array at `(c / 8, r / 128, c % 8, r % 128)`. -/
theorem outOf_apply (o4 : FVec F ⟨4, ![2, 25000, 8, 128]⟩ .f32) (r : Fin 3200000) (c : Fin 16) :
    outOf o4 (ix2 r c)
      = o4 (ix4 (⟨c.val / 8, by have := c.isLt; omega⟩ : Fin 2)
          (⟨r.val / 128, by have := r.isLt; omega⟩ : Fin 25000)
          (⟨c.val % 8, Nat.mod_lt _ (by decide)⟩ : Fin 8)
          (⟨r.val % 128, Nat.mod_lt _ (by decide)⟩ : Fin 128)) := by
  have hr := r.isLt
  have hc := c.isLt
  unfold outOf
  refine (shapeCast_apply _ casts_out_rows (ix2 r c)
    (ix4 (⟨r.val / 128, by omega⟩ : Fin 25000) (⟨r.val % 128, Nat.mod_lt _ (by decide)⟩ : Fin 128)
      (⟨c.val / 8, by omega⟩ : Fin 2) (⟨c.val % 8, Nat.mod_lt _ (by decide)⟩ : Fin 8)) ?_).trans ?_
  · rw [Shape.rowMajor_val_four, Shape.rowMajor_val_two]
    show ((r.val / 128 * 128 + r.val % 128) * 2 + c.val / 8) * 8 + c.val % 8 = r.val * 16 + c.val
    omega
  exact transpose_apply [1, 3, 0, 2] o4 transposes_out _ _
    (fun b => match b with | ⟨0, _⟩ => rfl | ⟨1, _⟩ => rfl | ⟨2, _⟩ => rfl | ⟨3, _⟩ => rfl)

/-! ## The consequence -/

/-- If the array holds at `(h, T, q, j)` the table's entry at the row the word number `128 T + j` selects and
    column `8 h + q`, the rows of 16 made of it are the lookup. -/
theorem outOf_eq_lookup (sp : IVec ⟨1, ![3200000]⟩ 32) (tb : FVec F ⟨2, ![100, 16]⟩ .f32)
    (o4 : FVec F ⟨4, ![2, 25000, 8, 128]⟩ .f32)
    (ho : ∀ (h : Fin 2) (T : Fin 25000) (q : Fin 8) (j : Fin 128),
      o4 (ix4 h T q j)
        = tb (ix2 (rowOf (sp (ix1 (⟨T.val * 128 + j.val, by have := T.isLt; have := j.isLt; omega⟩ : Fin 3200000))))
            (⟨h.val * 8 + q.val, by have := h.isLt; have := q.isLt; omega⟩ : Fin 16))) :
    outOf o4 = lookup sp tb := by
  funext i
  obtain ⟨r, c, rfl⟩ : ∃ (r : Fin 3200000) (c : Fin 16), i = ix2 r c := ⟨i 0, i 1, eq_ix2 i⟩
  rw [outOf_apply, ho, lookup_apply]
  have e1 : (⟨r.val / 128 * 128 + r.val % 128, by have := r.isLt; omega⟩ : Fin 3200000) = r :=
    Fin.ext (by show r.val / 128 * 128 + r.val % 128 = r.val; omega)
  have e2 : (⟨c.val / 8 * 8 + c.val % 8, by have := c.isLt; omega⟩ : Fin 16) = c :=
    Fin.ext (by show c.val / 8 * 8 + c.val % 8 = c.val; omega)
  rw [e1, e2]

end Cert.RefSide

end
-- ==== Proof.ScSetup.lean ====
/-
  The set-up of the kernel's launch: the program as the launch theorem reads it, the ghost state, and what the
  call's handshakes carry.

  The call runs on 2 SparseCores × 16 vector subcores. Vector subcore `s` of SparseCore `c` is worker
  `w = 2 s + c`; worker `w` takes the chunks `start w, …, start w + nch w - 1` of the 5000, and chunk `t` is
  the rows `5 t, …, 5 t + 4` of axis 1 of the four-axis result `[2, 25000, 8, 128]` (all of axes 0, 2, 3). So
  worker `w` writes exactly the elements `o` with `5 · start w ≤ o 1 < 5 · (start w + nch w)`: these 32 sets are
  pairwise disjoint and cover the array. Every worker reads the index list and the repeated table whole, so each is
  handed a read share of both.

  What the result must hold is ONE function of the two operands (`Gout`): element `(h, T, q, j)` is the repeated
  table at position `256 · (word number 128 T + j of the list) + 16 · (8 h + q) + j % 16`.
-/
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Transfers
import Idealize.ShloMosaic.Lib.ValueIdx
import proofs.«202852_g34127810134284_cont_8to1_b_1476_20_alg».proof.Proof.Gen.KernelIdeal
import proofs.«202852_g34127810134284_cont_8to1_b_1476_20_alg».proof.Proof.TilePlan
import proofs.«202852_g34127810134284_cont_8to1_b_1476_20_alg».proof.Proof.HostEnds

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## The arrays -/

/-- The index list, `i32[3200000]`. -/
abbrev idxLoc (d : Dev nD) : Loc nD τ sig := (SparseCore.T d).loc main_arg0
/-- The table, `f32[100, 16]`. -/
abbrev tblLoc (d : Dev nD) : Loc nD τ sig := (SparseCore.T d).loc main_arg1
/-- The table with every element repeated 16 times, `f32[25600]`: the call's second operand. -/
abbrev tabLoc (d : Dev nD) : Loc nD τ sig := (SparseCore.T d).loc main_v2
/-- The call's result, `f32[2, 25000, 8, 128]`. -/
abbrev outLoc (d : Dev nD) : Loc nD τ sig := (SparseCore.T d).loc main_v3
/-- The program's result, `f32[3200000, 16]`. -/
abbrev resLoc (d : Dev nD) : Loc nD τ sig := (SparseCore.T d).loc main_v5

/-! ## The workers' parts of the result -/

/-- The worker of vector subcore `i` of SparseCore `c`. -/
def widOf (c : Fin τ.nSC) (i : Fin τ.nSub) : ℕ := Cert.TilePlan.wid c.val i.val

/-- The elements of the result worker `w` writes: rows `5 · start w ≤ o 1 < 5 · (start w + nch w)` of axis 1. -/
def tileSet (d : Dev nD) (w : ℕ) : Finset (Idx (outLoc d)) :=
  Finset.univ.filter fun o : S2x25000x8x128.Idx =>
    5 * Cert.TilePlan.start w ≤ (o 1).val ∧ (o 1).val < 5 * (Cert.TilePlan.start w + Cert.TilePlan.nch w)

theorem mem_tileSet (d : Dev nD) (w : ℕ) (o : S2x25000x8x128.Idx) :
    o ∈ tileSet d w ↔ 5 * Cert.TilePlan.start w ≤ (o 1).val ∧ (o 1).val < 5 * (Cert.TilePlan.start w + Cert.TilePlan.nch w) :=
  Finset.mem_filter.trans (and_iff_right (Finset.mem_univ _))

/-- Two workers write no common element: the chunk of a common row would lie in both ranges. -/
theorem tileSet_disjoint (d : Dev nD) {w w' : ℕ} (h : w ≠ w') : Disjoint (tileSet d w) (tileSet d w') := by
  refine Finset.disjoint_left.mpr fun o h1 h2 => h ?_
  rw [mem_tileSet] at h1 h2
  exact Cert.TilePlan.range_disjoint (s := (o 1).val / 5 - Cert.TilePlan.start w) (t := (o 1).val / 5 - Cert.TilePlan.start w')
    (by omega) (by omega) (by omega)

/-- Every element is some worker's: the owner of its row's chunk. -/
theorem tileSet_cover (d : Dev nD) : (Finset.range 32).biUnion (tileSet d) = Finset.univ := by
  refine Finset.eq_univ_iff_forall.mpr fun o => ?_
  have ho : (o 1).val < 25000 := (o 1).isLt
  obtain ⟨w, t, hw, ht, e⟩ := Cert.TilePlan.exists_owner (T := (o 1).val / 5) (by omega)
  exact Finset.mem_biUnion.mpr ⟨w, Finset.mem_range.mpr hw, (mem_tileSet d w o).mpr ⟨by omega, by omega⟩⟩

/-! ## What the result must hold -/

/-- The result as ONE function of the index list and the repeated table: element `(h, T, q, j)` is the repeated table
    at position `256 · v + 16 · (8 h + q) + j % 16`, `v` the list's word number `128 T + j` (reduced into the table's
    25600 positions, which it is in already when `v < 100`). -/
def Gout (sp : IVec S3200000 32) (tab : FVec F S25600 .f32) : FVec F S2x25000x8x128 .f32 := fun o =>
  tab (ix1 (⟨((sp (ix1 (⟨(o 1).val * 128 + (o 3).val, by
        have h1 : (o 1).val < 25000 := (o 1).isLt
        have h3 : (o 3).val < 128 := (o 3).isLt
        omega⟩ : Fin 3200000))).toNat * 256 + ((o 0).val * 8 + (o 2).val) * 16 + (o 3).val % 16) % 25600,
      Nat.mod_lt _ (by decide)⟩ : Fin 25600))

theorem Gout_apply (sp : IVec S3200000 32) (tab : FVec F S25600 .f32) (h : Fin 2) (T : Fin 25000) (r : Fin 8) (j : Fin 128) :
    Gout sp tab (ix4 h T r j)
      = tab (ix1 (⟨((sp (ix1 (⟨T.val * 128 + j.val, by have := T.isLt; have := j.isLt; omega⟩ : Fin 3200000))).toNat * 256
          + (h.val * 8 + r.val) * 16 + j.val % 16) % 25600, Nat.mod_lt _ (by decide)⟩ : Fin 25600)) := rfl

/-! ## What the handshakes carry -/

variable (m : (ℓ : Loc nD τ sig) → Buf (Elt F) ℓ) (ρ : Dev nD → PrngReg)

/-- Worker `w`'s read share of an operand every worker reads whole: the full share halved `w` times, then its right half. -/
def qTile (w : ℕ) : PosShare TreeShare := Transfers.shareTokN fullShare w

/-- What worker `w` is handed: a read share of the index list and of the repeated table (which holds the table's
    elements, each 16 times), and its part of the result, at the launch contents. -/
def goRes (d : Dev nD) (w : ℕ) : sProp 𝕄 :=
  iprop((idxLoc d ↦{qTile w} m (idxLoc d)) ∗ (tabLoc d ↦{qTile w} Cert.RefSide.tabRep (m (tblLoc d)))
    ∗ (outLoc d ↦[tileSet d w]{fullShare} m (outLoc d)))

/-- What worker `w` hands back: the same, its part of the result at the ONE function `Gout` of the operands. -/
def tdRes (d : Dev nD) (w : ℕ) : sProp 𝕄 :=
  iprop((idxLoc d ↦{qTile w} m (idxLoc d)) ∗ (tabLoc d ↦{qTile w} Cert.RefSide.tabRep (m (tblLoc d)))
    ∗ (outLoc d ↦[tileSet d w]{fullShare} Gout (m (idxLoc d)) (Cert.RefSide.tabRep (m (tblLoc d)))))

instance goRes_storable (d : Dev nD) (w : ℕ) : BI.Storable (upEmb : UEmb _ 𝕄) (goRes m d w) := by
  unfold goRes; infer_instance
instance tdRes_storable (d : Dev nD) (w : ℕ) : BI.Storable (upEmb : UEmb _ 𝕄) (tdRes m d w) := by
  unfold tdRes; infer_instance

/-- The call's payloads: a SparseCore is handed its 16 workers' resources and each worker its own; the way back
    likewise. Nothing of the launch's is consumed by the kernel's proof. -/
def P : (K (F := F)).Pay (nD := nD) (Val := Elt F) (Name := ℕ) (U := UU) where
  st := fun q d c => bigSep Finset.univ fun i : Fin ((K (F := F)).nSub q) => goRes m d (widOf ((K (F := F)).core q c) ((K (F := F)).sub q i))
  dn := fun q d c => bigSep Finset.univ fun i : Fin ((K (F := F)).nSub q) => tdRes m d (widOf ((K (F := F)).core q c) ((K (F := F)).sub q i))
  go := fun q d c i => goRes m d (widOf ((K (F := F)).core q c) ((K (F := F)).sub q i))
  td := fun q d c i => tdRes m d (widOf ((K (F := F)).core q c) ((K (F := F)).sub q i))
  x := fun _ _ => iprop(emp)

theorem P_st (q : Fin 1) (d : Dev nD) (c : Fin ((K (F := F)).nCore q)) :
    (P m).st q d c = bigSep Finset.univ fun i : Fin ((K (F := F)).nSub q) => goRes m d (widOf ((K (F := F)).core q c) ((K (F := F)).sub q i)) := rfl
theorem P_dn (q : Fin 1) (d : Dev nD) (c : Fin ((K (F := F)).nCore q)) :
    (P m).dn q d c = bigSep Finset.univ fun i : Fin ((K (F := F)).nSub q) => tdRes m d (widOf ((K (F := F)).core q c) ((K (F := F)).sub q i)) := rfl
theorem P_go (q : Fin 1) (d : Dev nD) (c : Fin ((K (F := F)).nCore q)) (i : Fin ((K (F := F)).nSub q)) :
    (P m).go q d c i = goRes m d (widOf ((K (F := F)).core q c) ((K (F := F)).sub q i)) := rfl
theorem P_td (q : Fin 1) (d : Dev nD) (c : Fin ((K (F := F)).nCore q)) (i : Fin ((K (F := F)).nSub q)) :
    (P m).td q d c i = tdRes m d (widOf ((K (F := F)).core q c) ((K (F := F)).sub q i)) := rfl
theorem P_x (q : Fin 1) (thr : Thread nD τ) : (P (F := F) m).x q thr = iprop(emp) := rfl
theorem P_ox (q : Fin 1) (thr : Thread nD τ) : (P (F := F) m).ox q thr = 0 := rfl

instance P_storable : (P (F := F) m).IsStorable where
  st _ d c := by unfold P; infer_instance
  dn _ d c := by unfold P; infer_instance
  go _ _ _ _ := by unfold P; infer_instance
  td _ _ _ _ := by unfold P; infer_instance

/-- A SparseCore's resources ARE its workers': the split is the identity. -/
theorem vecSplit : (K (F := F)).VecSplit' (P m) 0 := by
  intro d c
  rw [P_st, P_dn]
  iintro H; imodintro
  isplitl [H]; · iexact H
  iintro H; iexact H

end Cert.Proof.KernelIdealSc

end
-- ==== Proof.ScLaunch.lean ====
/-
  The kernel's launch: from the proof of ONE worker's task to the program's run.

  @main on the TensorCore makes the repeated table by three host operations, starts the call on the 2 SparseCores × 16
  vector subcores and waits for it, then transposes and flattens the call's result by two host operations. The launch
  theorem asks, beside each worker's task: how a SparseCore's share of the operands splits among its 16 workers (here
  the identity), the launch element of the ghost state (the handshakes' only), @main on the TensorCore, and how the
  final memory reads the claim.

  In @main the index list and the repeated table, held whole, are each cut into 32 read shares (the TensorCore keeps
  what remains), and the result, held whole, into the 32 workers' parts — disjoint and covering —; the 32 workers are
  the pairs (SparseCore, vector subcore) through `w = 2 s + c`. Back from the call each part holds the ONE function
  `Gout` of the operands on its elements, so the parts join to the result whole at `Gout`, and the shares join to the
  operands whole.
-/
import proofs.«202852_g34127810134284_cont_8to1_b_1476_20_alg».proof.Proof.ScSetup

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The workers as pairs (SparseCore, vector subcore) -/

/-- The 32 workers are the pairs: `w = 2 s + c` is a bijection from `2 × 16` onto `[0, 32)`. -/
theorem range32_eq : Finset.range 32 = (Finset.univ : Finset (Fin 2 × Fin 16)).image (fun p => Cert.TilePlan.wid p.1.val p.2.val) := by
  ext w
  simp only [Finset.mem_range, Finset.mem_image, Finset.mem_univ, true_and]
  constructor
  · intro hw
    obtain ⟨c, s, hc, hs, e⟩ := Cert.TilePlan.wid_surj hw
    exact ⟨(⟨c, hc⟩, ⟨s, hs⟩), e.symm⟩
  · rintro ⟨⟨c, s⟩, rfl⟩
    exact Cert.TilePlan.wid_lt c.isLt s.isLt

theorem wid_injOn : Set.InjOn (fun p : Fin 2 × Fin 16 => Cert.TilePlan.wid p.1.val p.2.val) ((Finset.univ : Finset (Fin 2 × Fin 16)) : Set _) := by
  intro a _ b _ e
  obtain ⟨h1, h2⟩ := Cert.TilePlan.wid_inj a.1.isLt b.1.isLt e
  exact Prod.ext (Fin.ext h1) (Fin.ext h2)

/-- A family over the workers, dealt to the SparseCores and their vector subcores. -/
theorem bigSep_workers (Φ : ℕ → sProp 𝕄) :
    bigSep (Finset.range 32) Φ
      = bigSep (Finset.univ : Finset (Fin 2)) fun c => bigSep (Finset.univ : Finset (Fin 16)) fun i => Φ (Cert.TilePlan.wid c.val i.val) := by
  rw [range32_eq, bigSep_image_of_injOn wid_injOn, bigSep_univ_prod]

theorem st0_eq (d : Dev nD) :
    (bigSep Finset.univ fun c : Fin ((K (F := F)).nCore 0) => (P m).st 0 d c) = bigSep (Finset.range 32) (goRes m d) := by
  rw [bigSep_workers]; rfl
theorem dn0_eq (d : Dev nD) :
    (bigSep Finset.univ fun c : Fin ((K (F := F)).nCore 0) => (P m).dn 0 d c) = bigSep (Finset.range 32) (tdRes m d) := by
  rw [bigSep_workers]; rfl

/-! ## The operands and the result, whole, as the workers' parts -/

/-- The result whole is its 32 parts. -/
theorem out_parts (d : Dev nD) (f : Buf (Elt F) (outLoc d)) :
    (outLoc d ↦{fullShare} f : sProp 𝕄) = bigSep (Finset.range 32) fun w => outLoc d ↦[tileSet d w]{fullShare} f := by
  rw [← pointsTo_biUnion (Finset.range 32) (ℓ := outLoc d) (tileSet d) (fun w _ w' _ h => tileSet_disjoint d h), tileSet_cover]; try rfl

theorem goRes_all (d : Dev nD) :
    bigSep (Finset.range 32) (goRes m d)
      = iprop((bigSep (Finset.range 32) fun w => idxLoc d ↦{qTile w} m (idxLoc d))
          ∗ (bigSep (Finset.range 32) fun w => tabLoc d ↦{qTile w} Cert.RefSide.tabRep (m (tblLoc d)))
          ∗ (outLoc d ↦{fullShare} m (outLoc d))) := by
  unfold goRes
  rw [bigSep_sep', bigSep_sep', ← out_parts]
theorem tdRes_all (d : Dev nD) :
    bigSep (Finset.range 32) (tdRes m d)
      = iprop((bigSep (Finset.range 32) fun w => idxLoc d ↦{qTile w} m (idxLoc d))
          ∗ (bigSep (Finset.range 32) fun w => tabLoc d ↦{qTile w} Cert.RefSide.tabRep (m (tblLoc d)))
          ∗ (outLoc d ↦{fullShare} Gout (m (idxLoc d)) (Cert.RefSide.tabRep (m (tblLoc d))))) := by
  unfold tdRes
  rw [bigSep_sep', bigSep_sep', ← out_parts]

/-! ## @main on the TensorCore: its arrays and its host operations -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

/-- The TensorCore's arrays, all unscoped. -/
abbrev S8 : Finset (DevRef τ sig) := {a0', a1', r0', r1', r2', r3', r4', r5'}

/-- The three host operations before the call and the two after it, as @main prints them. -/
abbrev op1 : HloOp τ sig (Elt F) := StableHlo.reshape main_arg1 main_v0 rfl Facts₀.shapeCasts_S100x16_S1600x1
abbrev op2 : HloOp τ sig (Elt F) :=
  StableHlo.unary main_v0 main_v1 (broadcastInDim S1600x16 ![0, 1] Facts₀.bcast_S1600x1_S1600x16_0_1 : (⟨S1600x1, .f32⟩ : BufTy).Contents (Elt F) → (⟨S1600x16, .f32⟩ : BufTy).Contents (Elt F))
abbrev op3 : HloOp τ sig (Elt F) := StableHlo.reshape main_v1 main_v2 rfl Facts₀.shapeCasts_S1600x16_S25600
abbrev op4 : HloOp τ sig (Elt F) :=
  StableHlo.unary main_v3 main_v4 ((transpose S25000x128x2x8 [1, 3, 0, 2] · Facts₀.transposes_S2x25000x8x128_S25000x128x2x8_1_3_0_2) : (⟨S2x25000x8x128, .f32⟩ : BufTy).Contents (Elt F) → (⟨S25000x128x2x8, .f32⟩ : BufTy).Contents (Elt F))
abbrev op5 : HloOp τ sig (Elt F) := StableHlo.reshape main_v4 main_v5 rfl Facts₀.shapeCasts_S25000x128x2x8_S3200000x16

theorem hop1 : (op1 (F := F)).bufs ⊆ S8 := show ({a1', r0'} : Finset (DevRef τ sig)) ⊆ S8 by decide
theorem hop2 : (op2 (F := F)).bufs ⊆ S8 := show ({r0', r1'} : Finset (DevRef τ sig)) ⊆ S8 by decide
theorem hop3 : (op3 (F := F)).bufs ⊆ S8 := show ({r1', r2'} : Finset (DevRef τ sig)) ⊆ S8 by decide
theorem hop4 : (op4 (F := F)).bufs ⊆ S8 := show ({r3', r4'} : Finset (DevRef τ sig)) ⊆ S8 by decide
theorem hop5 : (op5 (F := F)).bufs ⊆ S8 := show ({r4', r5'} : Finset (DevRef τ sig)) ⊆ S8 by decide

/-- The arrays' contents: at the launch, after each host operation before the call, after the call (the result at
    `Gout`), after each host operation after it. -/
def W0 (d : Dev nD) : Valuation τ sig (Elt F) := fun b => m (d, b)
def W1 (d : Dev nD) : Valuation τ sig (Elt F) := (op1 (F := F)).result (W0 m d)
def W2 (d : Dev nD) : Valuation τ sig (Elt F) := (op2 (F := F)).result (W1 m d)
def W3 (d : Dev nD) : Valuation τ sig (Elt F) := (op3 (F := F)).result (W2 m d)
def W4 (d : Dev nD) : Valuation τ sig (Elt F) :=
  Function.update (W3 m d) r3' (Gout (m (idxLoc d)) (Cert.RefSide.tabRep (m (tblLoc d))))
def W5 (d : Dev nD) : Valuation τ sig (Elt F) := (op4 (F := F)).result (W4 m d)
def W6 (d : Dev nD) : Valuation τ sig (Elt F) := (op5 (F := F)).result (W5 m d)

/-- An array no operation before the call writes holds its launch contents. -/
theorem W3_of_ne (d : Dev nD) (b : DevRef τ sig) (h0 : b ≠ r0') (h1 : b ≠ r1') (h2 : b ≠ r2') : W3 m d b = m (d, b) := by
  unfold W3 W2 W1 W0
  rw [(op3 (F := F)).result_of_not_mem _ (b := b) (by show b ∉ ({r2'} : Finset (DevRef τ sig)); rw [Finset.mem_singleton]; exact h2),
    (op2 (F := F)).result_of_not_mem _ (b := b) (by show b ∉ ({r1'} : Finset (DevRef τ sig)); rw [Finset.mem_singleton]; exact h1),
    (op1 (F := F)).result_of_not_mem _ (b := b) (by show b ∉ ({r0'} : Finset (DevRef τ sig)); rw [Finset.mem_singleton]; exact h0)]

/-- The call's second operand holds the table with every element repeated 16 times. -/
theorem W3_r2 (d : Dev nD) : W3 m d r2' = Cert.RefSide.tabRep (m (tblLoc d)) := by
  unfold W3
  refine (StableHlo.reshape_result main_v1 main_v2 rfl _ _ _ (W2 m d)).trans ?_
  unfold W2
  rw [show (op2 (F := F)).result (W1 m d) (Proc.devRef .tc main_v1) = _ from StableHlo.unary_result main_v0 main_v1 _ _ _ (W1 m d)]
  unfold W1
  rw [show (op1 (F := F)).result (W0 m d) (Proc.devRef .tc main_v0) = _ from StableHlo.reshape_result main_arg1 main_v0 rfl _ _ _ (W0 m d)]
  rfl

/-- After the call only the result has changed. -/
theorem W4_of_ne (d : Dev nD) (b : DevRef τ sig) (h : b ≠ r3') : W4 m d b = W3 m d b := Function.update_of_ne h _ _
theorem W4_r3 (d : Dev nD) : W4 m d r3' = Gout (m (idxLoc d)) (Cert.RefSide.tabRep (m (tblLoc d))) := Function.update_self _ _ _

theorem W6_of_ne (d : Dev nD) (b : DevRef τ sig) (h4 : b ≠ r4') (h5 : b ≠ r5') : W6 m d b = W4 m d b := by
  unfold W6 W5
  rw [(op5 (F := F)).result_of_not_mem _ (b := b) (by show b ∉ ({r5'} : Finset (DevRef τ sig)); rw [Finset.mem_singleton]; exact h5),
    (op4 (F := F)).result_of_not_mem _ (b := b) (by show b ∉ ({r4'} : Finset (DevRef τ sig)); rw [Finset.mem_singleton]; exact h4)]

/-- The program's result holds the call's result transposed and flattened to rows of 16. -/
theorem W6_r5 (d : Dev nD) : W6 m d r5' = Cert.RefSide.outOf (Gout (m (idxLoc d)) (Cert.RefSide.tabRep (m (tblLoc d)))) := by
  unfold W6
  refine (StableHlo.reshape_result main_v4 main_v5 rfl _ _ _ (W5 m d)).trans ?_
  unfold W5
  rw [show (op4 (F := F)).result (W4 m d) (Proc.devRef .tc main_v4) = _ from StableHlo.unary_result main_v3 main_v4 _ _ _ (W4 m d)]
  rw [show W4 m d (Proc.devRef .tc main_v3) = _ from W4_r3 m d]
  rfl

/-! ### The arrays held whole, by name -/

theorem held3 (c : Thread nD τ) {x y z : DevRef τ sig} (hx : x ∉ ({y, z} : Finset (DevRef τ sig))) (hy : y ∉ ({z} : Finset (DevRef τ sig)))
    (W : Valuation τ sig (Elt F)) :
    (held c {x, y, z} W : sProp 𝕄)
      = iprop(((c.1, x) ↦{fullShare} W x) ∗ ((c.1, y) ↦{fullShare} W y) ∗ ((c.1, z) ↦{fullShare} W z)) := by
  unfold held
  rw [SparseCore.bigSep_insert' hx, SparseCore.bigSep_insert' hy, bigSep_singleton]

/-- The arrays the call does not touch. -/
abbrev Rcall : Finset (DevRef τ sig) := S8 \ {a0', r2', r3'}
/-- The arrays the claim does not read. -/
abbrev Rfin : Finset (DevRef τ sig) := S8 \ {a0', a1', r5'}

theorem unscoped_held (d : Dev nD) : (unscopedBufs d (fun b => m ((SparseCore.T d).loc b)) : sProp 𝕄) = held (T d) S8 (W0 m d) := by
  unfold unscopedBufs held
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- Before the call: the two operands and the result out of the eight. -/
theorem held_W3 (d : Dev nD) :
    (held (T d) S8 (W3 m d) : sProp 𝕄)
      = iprop(((idxLoc d ↦{fullShare} m (idxLoc d)) ∗ (tabLoc d ↦{fullShare} Cert.RefSide.tabRep (m (tblLoc d))) ∗ (outLoc d ↦{fullShare} m (outLoc d)))
          ∗ held (T d) Rcall (W3 m d)) := by
  rw [StableHlo.held_sub_split (T d) (show ({a0', r2', r3'} : Finset (DevRef τ sig)) ⊆ S8 by decide) (W3 m d),
    held3 (T d) (by decide) (by decide), W3_of_ne m d a0' (by decide) (by decide) (by decide), W3_r2, W3_of_ne m d r3' (by decide) (by decide) (by decide)]

/-- After the call: the same, the result at `Gout`. -/
theorem held_W4 (d : Dev nD) :
    (held (T d) S8 (W4 m d) : sProp 𝕄)
      = iprop(((idxLoc d ↦{fullShare} m (idxLoc d)) ∗ (tabLoc d ↦{fullShare} Cert.RefSide.tabRep (m (tblLoc d)))
            ∗ (outLoc d ↦{fullShare} Gout (m (idxLoc d)) (Cert.RefSide.tabRep (m (tblLoc d)))))
          ∗ held (T d) Rcall (W3 m d)) := by
  rw [StableHlo.held_sub_split (T d) (show ({a0', r2', r3'} : Finset (DevRef τ sig)) ⊆ S8 by decide) (W4 m d),
    held3 (T d) (by decide) (by decide), W4_of_ne m d a0' (by decide), W4_of_ne m d r2' (by decide), W4_r3,
    W3_of_ne m d a0' (by decide) (by decide) (by decide), W3_r2,
    StableHlo.held_congr (T d) (V := W4 m d) (V' := W3 m d) (S := Rcall) (fun b hb => W4_of_ne m d b (by
      intro e; subst e; revert hb; decide))]

/-- At the end: the two arguments and the program's result out of the eight. -/
theorem held_W6 (d : Dev nD) :
    (held (T d) S8 (W6 m d) : sProp 𝕄)
      = iprop(((idxLoc d ↦{fullShare} m (idxLoc d)) ∗ (tblLoc d ↦{fullShare} m (tblLoc d))
            ∗ (resLoc d ↦{fullShare} Cert.RefSide.outOf (Gout (m (idxLoc d)) (Cert.RefSide.tabRep (m (tblLoc d))))))
          ∗ held (T d) Rfin (W6 m d)) := by
  rw [StableHlo.held_sub_split (T d) (show ({a0', a1', r5'} : Finset (DevRef τ sig)) ⊆ S8 by decide) (W6 m d),
    held3 (T d) (by decide) (by decide), W6_of_ne m d a0' (by decide) (by decide), W6_of_ne m d a1' (by decide) (by decide), W6_r5,
    W4_of_ne m d a0' (by decide), W4_of_ne m d a1' (by decide),
    W3_of_ne m d a0' (by decide) (by decide) (by decide), W3_of_ne m d a1' (by decide) (by decide) (by decide)]

/-- The same two, spelt as the host operations leave the arrays. -/
theorem held_W3' (d : Dev nD) :
    (held (T d) S8 ((op3 (F := F)).result (W2 m d)) : sProp 𝕄)
      = iprop(((idxLoc d ↦{fullShare} m (idxLoc d)) ∗ (tabLoc d ↦{fullShare} Cert.RefSide.tabRep (m (tblLoc d))) ∗ (outLoc d ↦{fullShare} m (outLoc d)))
          ∗ held (T d) Rcall (W3 m d)) := held_W3 m d
theorem held_W6' (d : Dev nD) :
    (held (T d) S8 ((op5 (F := F)).result (W5 m d)) : sProp 𝕄)
      = iprop(((idxLoc d ↦{fullShare} m (idxLoc d)) ∗ (tblLoc d ↦{fullShare} m (tblLoc d))
            ∗ (resLoc d ↦{fullShare} Cert.RefSide.outOf (Gout (m (idxLoc d)) (Cert.RefSide.tabRep (m (tblLoc d))))))
          ∗ held (T d) Rfin (W6 m d)) := held_W6 m d

/-- What @main leaves the claim: the two arguments at their launch contents, the result at the lookup's value. -/
abbrev FIN (d : Dev nD) : sProp 𝕄 :=
  iprop((idxLoc d ↦{fullShare} m (idxLoc d)) ∗ (tblLoc d ↦{fullShare} m (tblLoc d))
    ∗ (resLoc d ↦{fullShare} Cert.RefSide.outOf (Gout (m (idxLoc d)) (Cert.RefSide.tabRep (m (tblLoc d))))))

variable [FloatOps F]

/-- @main on device `d`'s TensorCore. The three host operations make the repeated table; the call takes the index list
    and the repeated table as 32 read shares each (the TensorCore keeps the remainders) and the result as its 32 parts,
    and brings them back, the parts at the ONE function `Gout`, which join to the result whole; the two host operations
    after it transpose and flatten it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table as a column
  iapply (wp_hlo_within 𝒱 (SparseCore.T d) none Set.univ (op := op1) (S := S8) hop1 (V := W0 m d)) $$ [Hb Hheld]
  · isplitl [Hb]; · iexact Hb
    iexact Hheld
  iintro ⟨Hb, Hheld⟩
  rw [wp_ret]; imodintro
  -- every element repeated 16 times
  iapply (wp_hlo_within 𝒱 (SparseCore.T d) none Set.univ (op := op2) (S := S8) hop2 (V := W1 m d)) $$ [Hb Hheld]
  · isplitl [Hb]; · iexact Hb
    iexact Hheld
  iintro ⟨Hb, Hheld⟩
  rw [wp_ret]; imodintro
  -- flattened
  iapply (wp_hlo_within 𝒱 (SparseCore.T d) none Set.univ (op := op3) (S := S8) hop3 (V := W2 m d)) $$ [Hb Hheld]
  · isplitl [Hb]; · iexact Hb
    iexact Hheld
  iintro ⟨Hb, Hheld⟩
  rw [wp_ret]; imodintro
  -- the call
  ihave Hh := (Entails.of_eq (held_W3' (F := F) m d)) $$ Hheld
  icases Hh with ⟨⟨Hi, Ht, Ho⟩, Hrest⟩
  ihave Hi' := (Transfers.pointsTo_toks_range fullShare 32).1 $$ Hi
  icases Hi' with ⟨Hi0, Hitok⟩
  ihave Ht' := (Transfers.pointsTo_toks_range fullShare 32).1 $$ Ht
  icases Ht' with ⟨Ht0, Httok⟩
  iapply ((K (F := F)).wp_run (D (F := F)) 𝒱 (EH := EH) (P := P m) κ d 0) $$ [Hst Hb Hrest Hi0 Ht0 Hitok Httok Ho]
  isplitr; · iexact Hctx
  isplitl [Hst]; · iexact Hst
  isplitl [Hitok Httok Ho]
  · rw [st0_eq, goRes_all]
    isplitl [Hitok]; · iexact Hitok
    isplitl [Httok]; · iexact Httok
    iexact Ho
  iintro ⟨Hst, Hdn⟩
  ihave Hdn' := (Entails.of_eq ((dn0_eq m d).trans (tdRes_all m d))) $$ Hdn
  icases Hdn' with ⟨Hitok, Httok, Ho⟩
  ihave Hi := (Transfers.pointsTo_toks_range fullShare 32).2 $$ [Hi0 Hitok]
  · isplitl [Hi0]; · iexact Hi0
    iexact Hitok
  ihave Ht := (Transfers.pointsTo_toks_range fullShare 32).2 $$ [Ht0 Httok]
  · isplitl [Ht0]; · iexact Ht0
    iexact Httok
  ihave Hheld := (Entails.of_eq (held_W4 (F := F) m d).symm) $$ [Hi Ht Ho Hrest]
  · isplitl [Hi Ht Ho]
    · isplitl [Hi]; · iexact Hi
      isplitl [Ht]; · iexact Ht
      iexact Ho
    · iexact Hrest
  -- transposed
  iapply (wp_hlo_within 𝒱 (SparseCore.T d) none Set.univ (op := op4) (S := S8) hop4 (V := W4 m d)) $$ [Hb Hheld]
  · isplitl [Hb]; · iexact Hb
    iexact Hheld
  iintro ⟨Hb, Hheld⟩
  rw [wp_ret]; imodintro
  -- flattened to rows of 16
  iapply (wp_hlo_within 𝒱 (SparseCore.T d) none Set.univ (op := op5) (S := S8) hop5 (V := W5 m d)) $$ [Hb Hheld]
  · isplitl [Hb]; · iexact Hb
    iexact Hheld
  iintro ⟨Hb, Hheld⟩
  ihave Hh := (Entails.of_eq (held_W6' (F := F) m d)) $$ Hheld
  icases Hh with ⟨HF, -⟩
  rw [wp_ret]; imodintro; imodintro
  isplitl [Hst]; · iexact Hst
  iexact HF

/-! ## The final memory -/

def fq (d : Dev nD) (s' : Phys nD τ sig (Elt F)) : Prop :=
  s'.mem.mem (resLoc d) = Cert.RefSide.outOf (Gout (m (idxLoc d)) (Cert.RefSide.tabRep (m (tblLoc d))))
    ∧ s'.mem.mem (idxLoc d) = m (idxLoc d) ∧ s'.mem.mem (tblLoc d) = m (tblLoc d)

theorem hfin (d : Dev nD) (s' : Phys nD τ sig (Elt F)) : iprop(FIN m d ∗ SI s') ⊢ (⌜fq m d s'⌝ : sProp 𝕄) := by
  iintro ⟨⟨Hi, Ht, Hr⟩, HSI⟩
  ihave H := (persistent_entails_right (SI_pointsTo_agree (st := s') (ℓ := idxLoc d) (I := Finset.univ) (q := fullShare) (f := m (idxLoc d)))) $$ [HSI Hi]
  · isplitl [HSI] <;> iassumption
  icases H with ⟨%h1, HSI, -⟩
  ihave H := (persistent_entails_right (SI_pointsTo_agree (st := s') (ℓ := tblLoc d) (I := Finset.univ) (q := fullShare) (f := m (tblLoc d)))) $$ [HSI Ht]
  · isplitl [HSI] <;> iassumption
  icases H with ⟨%h2, HSI, -⟩
  ihave H := (SI_pointsTo_agree (st := s') (ℓ := resLoc d) (I := Finset.univ) (q := fullShare)
    (f := Cert.RefSide.outOf (Gout (m (idxLoc d)) (Cert.RefSide.tabRep (m (tblLoc d)))))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (resLoc c) = Cert.RefSide.outOf (Gout (m (idxLoc c)) (Cert.RefSide.tabRep (m (tblLoc c))))
    ∧ r.2.mem (idxLoc c) = m (idxLoc c) ∧ r.2.mem (tblLoc c) = m (tblLoc c)

/-- The program's run, from the proof of one worker's task: every weakly fair execution terminates, and at its end
    the result holds the call's result (`Gout` of the index list and the repeated table) transposed and flattened,
    the two arguments unchanged. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealSc

end
-- ==== Proof.ScConds.lean ====
import proofs.«202852_g34127810134284_cont_8to1_b_1476_20_alg».proof.Proof.Gen.KernelIdeal
import proofs.«202852_g34127810134284_cont_8to1_b_1476_20_alg».proof.Proof.TilePlan

/-!
# The tile program's conditions and trip counts, decided

Worker `w = 2·s + c` of vector subcore `s` of SparseCore `c` runs `nch w` trips of its outer loop (156 or 157).
Every worker has at least four chunks, so the four start-up copies are all made and the four final drains
are all taken; inside the loop, trip `t` drains chunk `t - 4` exactly when `4 ≤ t`, and fetches the indices
of chunk `t + 4` exactly when that chunk exists. The loop printed after it never runs.
-/

namespace Cert.Proof.KernelIdealSc

open Cert.KernelIdeal Cert.KernelIdeal.Gen Idealize.ShloMosaic

/-- The worker of the tile at grid coordinates `L`. -/
def wOf (L : grid0.Coords) : ℕ := Cert.TilePlan.wid (L 0).val (L 1).val

theorem wOf_lt (L : grid0.Coords) : wOf L < 32 := Cert.TilePlan.wid_lt (L 0).isLt (L 1).isLt

/-- The outer loop runs once per chunk of the worker. -/
theorem t1_trips : ∀ L : grid0.Coords, (k0_t1_loop L).trips = Cert.TilePlan.nch (wOf L) := by decide +kernel

/-- The loop printed after it has no trip. -/
theorem t3_trips (L : grid0.Coords) : (k0_t3_loop L).trips = 0 := Nat.le_zero.mp (k0_t3_abs L).2.1

/-- Every worker has more than 0, 1, 2, 3 chunks: the four start-up copies are made. -/
theorem cond1 : ∀ L : grid0.Coords, k0_cond1 L = 1#1 := by decide +kernel
theorem cond2 : ∀ L : grid0.Coords, k0_cond2 L = 1#1 := by decide +kernel
theorem cond3 : ∀ L : grid0.Coords, k0_cond3 L = 1#1 := by decide +kernel
theorem cond4 : ∀ L : grid0.Coords, k0_cond4 L = 1#1 := by decide +kernel

/-- Every worker's last four chunks exist: the four final drains are taken. -/
theorem cond9 : ∀ L : grid0.Coords, k0_cond9 L = 1#1 := by decide +kernel
theorem cond10 : ∀ L : grid0.Coords, k0_cond10 L = 1#1 := by decide +kernel
theorem cond11 : ∀ L : grid0.Coords, k0_cond11 L = 1#1 := by decide +kernel
theorem cond12 : ∀ L : grid0.Coords, k0_cond12 L = 1#1 := by decide +kernel

/-- Trip `t` drains an earlier chunk exactly from the fifth trip on. -/
theorem cond5_iff : ∀ (L : grid0.Coords) (t : Fin (k0_t1_loop L).trips), k0_cond5 L t = 1#1 ↔ 4 ≤ t.val := by decide +kernel

/-- Trip `t` fetches the indices of chunk `t + 4` exactly when the worker has that chunk. -/
theorem cond6_iff : ∀ (L : grid0.Coords) (t : Fin (k0_t1_loop L).trips), k0_cond6 L t = 1#1 ↔ t.val + 4 < (k0_t1_loop L).trips := by decide +kernel

end Cert.Proof.KernelIdealSc
-- ==== Proof.ScSlots.lean ====
import proofs.«202852_g34127810134284_cont_8to1_b_1476_20_alg».proof.Proof.ScSetup
import proofs.«202852_g34127810134284_cont_8to1_b_1476_20_alg».proof.Proof.ScConds
import proofs.«202852_g34127810134284_cont_8to1_b_1476_20_alg».proof.Proof.Gen.KernelIdeal.Skeleton
import Idealize.ShloMosaic.Lib.SparseCore.Ops

/-!
# The tile's buffers, cut the way the tile program cuts them

A tile keeps a ring of four slots. Slot `p` is: row `p` of the index scratch (640 indices), the two halves
`(p, 0)` and `(p, 1)` of the output scratch (each five blocks of 8 × 128), and the `p`-th semaphore of each of
the two semaphore arrays. Chunk `T` of the positions is the 640 indices from `640·T` on, and the five rows
`5·T … 5·T + 4` of either half of the result. This file names those pieces as the program slices them, with
the offset vector a parameter, so that a piece at a literal slot and the same piece at the slot a trip
computes are one term up to an equation between offset vectors.
-/

noncomputable section

namespace Cert.Proof.KernelIdealSc

open Cert.KernelIdeal Cert.KernelIdeal.Gen
open Idealize.ShloMosaic

/-! ## Offsets in range -/

theorem inb_sem {e : ℕ} (he : e < 4) : ∀ a, (![e] : Fin 1 → Nat) a + S1.size a ≤ S4.size a := by
  intro a; fin_cases a <;> (simp <;> omega)
theorem inb_iv {e : ℕ} (he : e < 4) : ∀ a, (![e, 0] : Fin 2 → Nat) a + S1x640.size a ≤ S4x640.size a := by
  intro a; fin_cases a <;> (simp <;> omega)
theorem inb_ov {e h : ℕ} (he : e < 4) (hh : h < 2) :
    ∀ a, (![e, h, 0, 0, 0] : Fin 5 → Nat) a + S1x1x5x8x128.size a ≤ S4x2x5x8x128.size a := by
  intro a; fin_cases a <;> (simp <;> omega)
theorem inb_idx {T : ℕ} (hT : T < 5000) : ∀ a, (![640 * T] : Fin 1 → Nat) a + S640.size a ≤ S3200000.size a := by
  intro a; fin_cases a <;> (simp <;> omega)
theorem inb_out {h T : ℕ} (hh : h < 2) (hT : T < 5000) :
    ∀ a, (![h, 5 * T, 0, 0] : Fin 4 → Nat) a + S1x5x8x128.size a ≤ S2x25000x8x128.size a := by
  intro a; fin_cases a <;> (simp <;> omega)

/-! ## The pieces, at an offset vector -/

/-- The arrays and scratches as the body table passes them to the tile program. -/
abbrev idxM : Memref sig .scVector .hbm S3200000 .i32 := Memref.whole main_arg0_scv
abbrev tabM : Memref sig .scVector .hbm S25600 .f32 := Memref.whole main_v2_scv
abbrev outM : Memref sig .scVector .hbm S2x25000x8x128 .f32 := Memref.whole main_v3_scv
abbrev tvM : Memref sig .scVector .vmem S25840 .f32 := Memref.whole cc0_scratch0
abbrev ivM : Memref sig .scVector .vmem S4x640 .i32 := Memref.whole cc0_scratch1
abbrev ovM : Memref sig .scVector .vmem S4x2x5x8x128 .f32 := Memref.whole cc0_scratch2

/-- One semaphore of the index fetches' array, of the write-backs' array. -/
abbrev isemAt (o : Fin 1 → Nat) (h : ∀ a, o a + S1.size a ≤ S4.size a) : DmaSems sig S_ :=
  (cc0_scratch3.slice (Rect.unit (s := S4) o S1.size h)).squeeze S_ squeezes_S1_S_
abbrev osemAt (o : Fin 1 → Nat) (h : ∀ a, o a + S1.size a ≤ S4.size a) : DmaSems sig S_ :=
  (cc0_scratch4.slice (Rect.unit (s := S4) o S1.size h)).squeeze S_ squeezes_S1_S_

/-- One row of the index scratch. -/
abbrev ivSlot (o : Fin 2 → Nat) (h : ∀ a, o a + S1x640.size a ≤ S4x640.size a) : Memref sig .scVector .vmem S640 .i32 :=
  (ivM.slice (Rect.unit (s := S4x640) o S1x640.size h) (fun _ => rfl)).squeeze S640 squeezes_S1x640_S640

/-- One half of one slot of the output scratch. -/
abbrev ovSlot (o : Fin 5 → Nat) (h : ∀ a, o a + S1x1x5x8x128.size a ≤ S4x2x5x8x128.size a) : Memref sig .scVector .vmem S5x8x128 .f32 :=
  (ovM.slice (Rect.unit (s := S4x2x5x8x128) o S1x1x5x8x128.size h) (fun _ => rfl)).squeeze S5x8x128 squeezes_S1x1x5x8x128_S5x8x128

/-- One chunk of the indices. -/
abbrev idxChunk (o : Fin 1 → Nat) (h : ∀ a, o a + S640.size a ≤ S3200000.size a) : Memref sig .scVector .hbm S640 .i32 :=
  idxM.slice (Rect.unit (s := S3200000) o S640.size h) (fun _ => rfl)

/-- One chunk's five rows of one half of the result. -/
abbrev outChunk (o : Fin 4 → Nat) (h : ∀ a, o a + S1x5x8x128.size a ≤ S2x25000x8x128.size a) : Memref sig .scVector .hbm S5x8x128 .f32 :=
  (outM.slice (Rect.unit (s := S2x25000x8x128) o S1x5x8x128.size h) (fun _ => rfl)).squeeze S5x8x128 squeezes_S1x5x8x128_S5x8x128

/-! Equal offset vectors name one piece. -/

theorem isemAt_congr {o o' : Fin 1 → Nat} (e : o = o') (h : ∀ a, o a + S1.size a ≤ S4.size a) (h' : ∀ a, o' a + S1.size a ≤ S4.size a) :
    isemAt o h = isemAt o' h' := by subst e; rfl
theorem osemAt_congr {o o' : Fin 1 → Nat} (e : o = o') (h : ∀ a, o a + S1.size a ≤ S4.size a) (h' : ∀ a, o' a + S1.size a ≤ S4.size a) :
    osemAt o h = osemAt o' h' := by subst e; rfl
theorem ivSlot_congr {o o' : Fin 2 → Nat} (e : o = o') (h : ∀ a, o a + S1x640.size a ≤ S4x640.size a) (h' : ∀ a, o' a + S1x640.size a ≤ S4x640.size a) :
    ivSlot o h = ivSlot o' h' := by subst e; rfl
theorem ovSlot_congr {o o' : Fin 5 → Nat} (e : o = o') (h : ∀ a, o a + S1x1x5x8x128.size a ≤ S4x2x5x8x128.size a)
    (h' : ∀ a, o' a + S1x1x5x8x128.size a ≤ S4x2x5x8x128.size a) : ovSlot o h = ovSlot o' h' := by subst e; rfl
theorem idxChunk_congr {o o' : Fin 1 → Nat} (e : o = o') (h : ∀ a, o a + S640.size a ≤ S3200000.size a) (h' : ∀ a, o' a + S640.size a ≤ S3200000.size a) :
    idxChunk o h = idxChunk o' h' := by subst e; rfl
theorem outChunk_congr {o o' : Fin 4 → Nat} (e : o = o') (h : ∀ a, o a + S1x5x8x128.size a ≤ S2x25000x8x128.size a)
    (h' : ∀ a, o' a + S1x5x8x128.size a ≤ S2x25000x8x128.size a) : outChunk o h = outChunk o' h' := by subst e; rfl

/-! ## The pieces, by slot number and by chunk number -/

abbrev isemN (e : ℕ) (he : e < 4) : DmaSems sig S_ := isemAt ![e] (inb_sem he)
abbrev osemN (e : ℕ) (he : e < 4) : DmaSems sig S_ := osemAt ![e] (inb_sem he)
abbrev ivSlotN (e : ℕ) (he : e < 4) : Memref sig .scVector .vmem S640 .i32 := ivSlot ![e, 0] (inb_iv he)
abbrev ovSlotN (e h : ℕ) (he : e < 4) (hh : h < 2) : Memref sig .scVector .vmem S5x8x128 .f32 := ovSlot ![e, h, 0, 0, 0] (inb_ov he hh)
abbrev idxChunkN (T : ℕ) (hT : T < 5000) : Memref sig .scVector .hbm S640 .i32 := idxChunk ![640 * T] (inb_idx hT)
abbrev outChunkN (h T : ℕ) (hh : h < 2) (hT : T < 5000) : Memref sig .scVector .hbm S5x8x128 .f32 := outChunk ![h, 5 * T, 0, 0] (inb_out hh hT)

end Cert.Proof.KernelIdealSc

end
-- ==== Proof.ScRes.lean ====
import proofs.«202852_g34127810134284_cont_8to1_b_1476_20_alg».proof.Proof.ScSlots

/-!
# What one tile holds while it runs

Before its program starts a tile holds, cut for the run: a read share of the index array as four tokens (one per
index-fetch semaphore, since up to four fetches read it at once), a read share of the replicated table, its own
chunks of the result (each chunk's two halves apart, at the launch contents), its three scratch buffers (the table
scratch whole, the index scratch as its four rows, the output scratch as its eight half-slots) at some contents,
and its nine semaphores at zero. After the program it holds the same, its chunks of the result now at the lookup's
values. `rest` is whatever else of the tile's own storage travels with it untouched.
-/

noncomputable section

namespace Cert.Proof.KernelIdealSc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile at grid coordinates `L` of device `d`. -/
abbrev cV (L : grid0.Coords) : Fin τ.nSC := (L 0).castLE hcore0
abbrev jV (L : grid0.Coords) : Fin τ.nSub := (L 1).castLE hsub0
abbrev thrOf (d : Dev nD) (L : grid0.Coords) : Thread nD τ := V d (cV L) (jV L)

theorem widOf_cV_jV (L : grid0.Coords) : widOf (cV L) (jV L) = wOf L := rfl

variable (m : (ℓ : Loc nD τ sig) → Buf (Elt F) ℓ) (d : Dev nD) (L : grid0.Coords)

/-- The tile's read share of the index array, token `p` of four. -/
abbrev idxTok (p : Fin 4) : sProp 𝕄 :=
  idxM.view.loc (thrOf d L) ↦{Transfers.shareTok (qTile (wOf L)) 4 p} m (idxLoc d)

/-- Chunk `b` of the tile, half `h`, of the result, at contents `f`. -/
abbrev outPiece (f : Buf (Elt F) (outLoc d)) (b : Fin (Cert.TilePlan.nch (wOf L))) (h : Fin 2) : sProp 𝕄 :=
  (outChunkN h.val (Cert.TilePlan.start (wOf L) + b.val) h.isLt (Cert.TilePlan.chunk_lt (wOf_lt L) b.isLt)).view.loc (thrOf d L)
    ↦[(outChunkN h.val (Cert.TilePlan.start (wOf L) + b.val) h.isLt (Cert.TilePlan.chunk_lt (wOf_lt L) b.isLt)).view.set]{fullShare} f

/-- The tile's chunks of the result, all at one whole-array function `f`. -/
abbrev outPieces (f : Buf (Elt F) (outLoc d)) : sProp 𝕄 :=
  bigSep Finset.univ fun b : Fin (Cert.TilePlan.nch (wOf L)) => bigSep Finset.univ fun h : Fin 2 => outPiece d L f b h

/-- Row `p` of the index scratch at some contents. -/
abbrev ivFree (p : ℕ) (hp : p < 4) : sProp 𝕄 :=
  iprop(∃ f, (ivSlotN p hp).view.loc (thrOf d L) ↦[(ivSlotN p hp).view.set]{fullShare} f)
/-- Half `h` of slot `p` of the output scratch at some contents. -/
abbrev ovFree (p h : ℕ) (hp : p < 4) (hh : h < 2) : sProp 𝕄 :=
  iprop(∃ f, (ovSlotN p h hp hh).view.loc (thrOf d L) ↦[(ovSlotN p h hp hh).view.set]{fullShare} f)
/-- The semaphores at zero. -/
abbrev isem0 (p : ℕ) (hp : p < 4) : sProp 𝕄 := semVal (thrOf d L, SemLoc.dma (isemN p hp).sem) 0
abbrev osem0 (p : ℕ) (hp : p < 4) : sProp 𝕄 := semVal (thrOf d L, SemLoc.dma (osemN p hp).sem) 0

/-- Everything of the tile's scratch and semaphores, cut for the run. -/
def tileScratch (rest : sProp 𝕄) : sProp 𝕄 :=
  iprop((∃ f, tvM.view.loc (thrOf d L) ↦{fullShare} f)
    ∗ (ivFree d L 0 (by decide) ∗ ivFree d L 1 (by decide) ∗ ivFree d L 2 (by decide) ∗ ivFree d L 3 (by decide))
    ∗ ((ovFree d L 0 0 (by decide) (by decide) ∗ ovFree d L 0 1 (by decide) (by decide))
      ∗ (ovFree d L 1 0 (by decide) (by decide) ∗ ovFree d L 1 1 (by decide) (by decide))
      ∗ (ovFree d L 2 0 (by decide) (by decide) ∗ ovFree d L 2 1 (by decide) (by decide))
      ∗ (ovFree d L 3 0 (by decide) (by decide) ∗ ovFree d L 3 1 (by decide) (by decide)))
    ∗ semVal (thrOf d L, SemLoc.dma cc0_scoped0.sem) 0
    ∗ (isem0 d L 0 (by decide) ∗ isem0 d L 1 (by decide) ∗ isem0 d L 2 (by decide) ∗ isem0 d L 3 (by decide))
    ∗ (osem0 d L 0 (by decide) ∗ osem0 d L 1 (by decide) ∗ osem0 d L 2 (by decide) ∗ osem0 d L 3 (by decide))
    ∗ rest)

/-- What the tile holds of the arrays, its result chunks at `f`. -/
def tileArrays (f : Buf (Elt F) (outLoc d)) : sProp 𝕄 :=
  iprop((idxTok m d L 0 ∗ idxTok m d L 1 ∗ idxTok m d L 2 ∗ idxTok m d L 3)
    ∗ (tabM.view.loc (thrOf d L) ↦{qTile (wOf L)} Cert.RefSide.tabRep (m (tblLoc d)))
    ∗ outPieces d L f)

/-- Before the program; after it. -/
def TileIn (rest : sProp 𝕄) : sProp 𝕄 := iprop(tileArrays m d L (m (outLoc d)) ∗ tileScratch d L rest)
def TileOut (rest : sProp 𝕄) : sProp 𝕄 :=
  iprop(tileArrays m d L (Gout (m (idxLoc d)) (Cert.RefSide.tabRep (m (tblLoc d)))) ∗ tileScratch d L rest)

end Cert.Proof.KernelIdealSc

end
-- ==== Proof.ScPlumb.lean ====
/-
  A worker's resources, opened for its task and closed after it.

  The launch hands a worker a read share of the index list, a read share of the repeated table and its part of the
  result, beside the vector subcore's own storage (every buffer of its own at some contents, every semaphore of its
  own at zero). The task works on these CUT the way the program addresses them: the index share as four tokens (and
  a remainder), the worker's part of the result as its chunks' two halves (chunk `T`, half `h`: the elements with
  first coordinate `h` and second coordinate in `5 T … 5 T + 4`), the index scratch as its four rows, the output
  scratch as its eight half-slots, the nine semaphores by name. Each cut is a partition (of a share, or of a set of
  elements), so it opens and closes without loss; what is not cut travels beside the task untouched (`restOf`).
-/
import proofs.«202852_g34127810134284_cont_8to1_b_1476_20_alg».proof.Proof.ScRes
import Idealize.ShloMosaic.Lib.Ring

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

/-! ## Small tools -/

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]
theorem bigSep_fin2' (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-! ## The pieces' element sets -/

theorem set_ivSlotN (p : ℕ) (hp : p < 4) :
    (ivSlotN p hp).view.set = (Rect.unit (s := S4x640) ![p, 0] S1x640.size (inb_iv hp)).set := by
  simp only [Memref.view_squeeze, Memref.view_slice, Memref.view_whole, View.set_reshape, View.set_slice_whole]
theorem set_ovSlotN (p h : ℕ) (hp : p < 4) (hh : h < 2) :
    (ovSlotN p h hp hh).view.set = (Rect.unit (s := S4x2x5x8x128) ![p, h, 0, 0, 0] S1x1x5x8x128.size (inb_ov hp hh)).set := by
  simp only [Memref.view_squeeze, Memref.view_slice, Memref.view_whole, View.set_reshape, View.set_slice_whole]
theorem set_outChunkN (h T : ℕ) (hh : h < 2) (hT : T < 5000) :
    (outChunkN h T hh hT).view.set = (Rect.unit (s := S2x25000x8x128) ![h, 5 * T, 0, 0] S1x5x8x128.size (inb_out hh hT)).set := by
  simp only [Memref.view_squeeze, Memref.view_slice, Memref.view_whole, View.set_reshape, View.set_slice_whole]

/-- An element lies in chunk `T`'s five rows of half `h` exactly when its first coordinate is `h` and its second is
    one of `5 T, …, 5 T + 4`. -/
theorem mem_set_outChunkN (h T : ℕ) (hh : h < 2) (hT : T < 5000) (o : S2x25000x8x128.Idx) :
    o ∈ (outChunkN h T hh hT).view.set ↔ (o 0).val = h ∧ 5 * T ≤ (o 1).val ∧ (o 1).val < 5 * T + 5 := by
  rw [set_outChunkN, Rect.mem_set_unit]
  constructor
  · intro H
    have h0 := H 0; have h1 := H 1
    simp at h0 h1
    omega
  · rintro ⟨e0, e1, e2⟩ a
    have h2 : (o 2).val < 8 := (o 2).isLt
    have h3 : (o 3).val < 128 := (o 3).isLt
    fin_cases a <;> simp <;> omega

/-! ## The pieces' locations -/

theorem loc_idxM : idxM.view.loc (thrOf d L) = idxLoc d := rfl
theorem loc_tabM : tabM.view.loc (thrOf d L) = tabLoc d := rfl
theorem loc_outChunkN (h T : ℕ) (hh : h < 2) (hT : T < 5000) : (outChunkN h T hh hT).view.loc (thrOf d L) = outLoc d := rfl
theorem loc_tvM : tvM.view.loc (thrOf d L) = (thrOf d L).loc cc0_scratch0 := rfl
theorem loc_ivSlotN (p : ℕ) (hp : p < 4) : (ivSlotN p hp).view.loc (thrOf d L) = (thrOf d L).loc cc0_scratch1 := rfl
theorem loc_ovSlotN (p h : ℕ) (hp : p < 4) (hh : h < 2) : (ovSlotN p h hp hh).view.loc (thrOf d L) = (thrOf d L).loc cc0_scratch2 := rfl

/-! ## The worker's part of the result, chunk by chunk and half by half -/

/-- The elements of chunk `b` of the worker, half `h`. -/
abbrev pieceSet (bh : Fin (Cert.TilePlan.nch (wOf L)) × Fin 2) : Finset (Idx (outLoc d)) :=
  (outChunkN bh.2.val (Cert.TilePlan.start (wOf L) + bh.1.val) bh.2.isLt (Cert.TilePlan.chunk_lt (wOf_lt L) bh.1.isLt)).view.set

theorem tileSet_pieces : tileSet d (wOf L) = (Finset.univ : Finset (Fin (Cert.TilePlan.nch (wOf L)) × Fin 2)).biUnion (pieceSet d L) := by
  ext o
  rw [mem_tileSet, Finset.mem_biUnion]
  constructor
  · rintro ⟨h1, h2⟩
    have ho0 : (o 0).val < 2 := (o 0).isLt
    exact ⟨(⟨(o 1).val / 5 - Cert.TilePlan.start (wOf L), by omega⟩, ⟨(o 0).val, ho0⟩), Finset.mem_univ _,
      (mem_set_outChunkN _ _ _ _ o).mpr ⟨rfl, by show 5 * (Cert.TilePlan.start (wOf L) + ((o 1).val / 5 - Cert.TilePlan.start (wOf L))) ≤ _; omega,
        by show _ < 5 * (Cert.TilePlan.start (wOf L) + ((o 1).val / 5 - Cert.TilePlan.start (wOf L))) + 5; omega⟩⟩
  · rintro ⟨⟨b, h⟩, -, H⟩
    have a := (mem_set_outChunkN _ _ _ _ o).mp H
    have hb := b.isLt
    dsimp only at a
    constructor <;> omega

theorem pieces_disjoint (bh bh' : Fin (Cert.TilePlan.nch (wOf L)) × Fin 2) (hne : bh ≠ bh') : Disjoint (pieceSet d L bh) (pieceSet d L bh') := by
  refine Finset.disjoint_left.mpr fun o h1 h2 => hne ?_
  have a1 := (mem_set_outChunkN _ _ _ _ o).mp h1
  have a2 := (mem_set_outChunkN _ _ _ _ o).mp h2
  exact Prod.ext (Fin.ext (by omega)) (Fin.ext (by omega))

/-- The worker's part of the result at `f` is its chunks' halves at `f`. -/
theorem out_pieces (f : Buf (Elt F) (outLoc d)) : (outLoc d ↦[tileSet d (wOf L)]{fullShare} f : sProp 𝕄) = outPieces d L f := by
  rw [tileSet_pieces, pointsTo_biUnion Finset.univ (pieceSet d L) (fun a _ b _ h => pieces_disjoint d L a b h), bigSep_univ_prod]

/-! ## The worker's read share of the index list, as four tokens and a remainder -/

theorem idx_toks :
    (idxLoc d ↦{qTile (wOf L)} m (idxLoc d) : sProp 𝕄)
      ⊣⊢ iprop((idxLoc d ↦{Transfers.shareDrop (qTile (wOf L)) 4} m (idxLoc d))
          ∗ (idxTok m d L 0 ∗ idxTok m d L 1 ∗ idxTok m d L 2 ∗ idxTok m d L 3)) := by
  have h := Transfers.pointsTo_toks (nD := nD) (τ := τ) (sig := sig) (Ix := HIx 1) (Val := Elt F) (Name := ℕ) (U := UU) (Lvl := ℕ)
    (ℓ := idxLoc d) (S := Finset.univ) (f := m (idxLoc d)) (qTile (wOf L)) 4
  rw [bigSep_fin4] at h
  exact h

/-- The arrays' side: what the worker is handed of the three arrays (its part of the result at `f`) is what its task
    holds of them and the remainder of its index share. -/
theorem arrays_open (f : Buf (Elt F) (outLoc d)) :
    iprop((idxLoc d ↦{qTile (wOf L)} m (idxLoc d)) ∗ (tabLoc d ↦{qTile (wOf L)} Cert.RefSide.tabRep (m (tblLoc d)))
        ∗ (outLoc d ↦[tileSet d (wOf L)]{fullShare} f))
      ⊢ (iprop(tileArrays m d L f ∗ (idxLoc d ↦{Transfers.shareDrop (qTile (wOf L)) 4} m (idxLoc d))) : sProp 𝕄) := by
  unfold tileArrays
  rw [out_pieces]
  iintro ⟨Hi, Ht, Ho⟩
  ihave Hi' := (idx_toks m d L).1 $$ Hi
  icases Hi' with ⟨Hr, Htok⟩
  isplitr [Hr]
  · isplitl [Htok]; · iexact Htok
    isplitl [Ht]; · iexact Ht
    iexact Ho
  · iexact Hr
theorem arrays_close (f : Buf (Elt F) (outLoc d)) :
    (iprop(tileArrays m d L f ∗ (idxLoc d ↦{Transfers.shareDrop (qTile (wOf L)) 4} m (idxLoc d))) : sProp 𝕄)
      ⊢ iprop((idxLoc d ↦{qTile (wOf L)} m (idxLoc d)) ∗ (tabLoc d ↦{qTile (wOf L)} Cert.RefSide.tabRep (m (tblLoc d)))
        ∗ (outLoc d ↦[tileSet d (wOf L)]{fullShare} f)) := by
  unfold tileArrays
  rw [out_pieces]
  iintro ⟨⟨Htok, Ht, Ho⟩, Hr⟩
  isplitl [Htok Hr]
  · iapply (idx_toks m d L).2
    isplitl [Hr]; · iexact Hr
    iexact Htok
  isplitl [Ht]; · iexact Ht
  iexact Ho

/-! ## The index scratch as its four rows, the output scratch as its eight half-slots -/

/-- Row `p` of the index scratch: the elements with first coordinate `p`. -/
abbrev ivSet (p : Fin 4) : Finset (Idx ((thrOf d L).loc cc0_scratch1)) :=
  (Rect.unit (s := S4x640) ![p.val, 0] S1x640.size (inb_iv p.isLt)).set
/-- Half `h` of slot `p` of the output scratch: the elements with first two coordinates `p`, `h`. -/
abbrev ovSet (ph : Fin 4 × Fin 2) : Finset (Idx ((thrOf d L).loc cc0_scratch2)) :=
  (Rect.unit (s := S4x2x5x8x128) ![ph.1.val, ph.2.val, 0, 0, 0] S1x1x5x8x128.size (inb_ov ph.1.isLt ph.2.isLt)).set

theorem mem_ivSet (p : Fin 4) (i : S4x640.Idx) : i ∈ ivSet d L p ↔ (i 0).val = p.val := by
  rw [Rect.mem_set_unit]
  constructor
  · intro H
    have h0 := H 0
    simp at h0
    omega
  · intro e a
    have h1 : (i 1).val < 640 := (i 1).isLt
    fin_cases a <;> simp <;> omega

theorem mem_ovSet (ph : Fin 4 × Fin 2) (i : S4x2x5x8x128.Idx) : i ∈ ovSet d L ph ↔ (i 0).val = ph.1.val ∧ (i 1).val = ph.2.val := by
  rw [Rect.mem_set_unit]
  constructor
  · intro H
    have h0 := H 0; have h1 := H 1
    simp at h0 h1
    omega
  · rintro ⟨e0, e1⟩ a
    have h2 : (i 2).val < 5 := (i 2).isLt
    have h3 : (i 3).val < 8 := (i 3).isLt
    have h4 : (i 4).val < 128 := (i 4).isLt
    fin_cases a <;> simp <;> omega

theorem iv_disjoint (p p' : Fin 4) (h : p ≠ p') : Disjoint (ivSet d L p) (ivSet d L p') :=
  Finset.disjoint_left.mpr fun i h1 h2 => h (Fin.ext (((mem_ivSet d L p i).mp h1).symm.trans ((mem_ivSet d L p' i).mp h2)))
theorem iv_cover : Finset.univ.biUnion (ivSet d L) = Finset.univ :=
  Finset.eq_univ_iff_forall.mpr fun i => Finset.mem_biUnion.mpr ⟨⟨(i 0).val, (i 0).isLt⟩, Finset.mem_univ _, (mem_ivSet d L _ i).mpr rfl⟩
theorem ov_disjoint (ph ph' : Fin 4 × Fin 2) (h : ph ≠ ph') : Disjoint (ovSet d L ph) (ovSet d L ph') :=
  Finset.disjoint_left.mpr fun i h1 h2 => h (Prod.ext
    (Fin.ext (((mem_ovSet d L ph i).mp h1).1.symm.trans ((mem_ovSet d L ph' i).mp h2).1))
    (Fin.ext (((mem_ovSet d L ph i).mp h1).2.symm.trans ((mem_ovSet d L ph' i).mp h2).2)))
theorem ov_cover : Finset.univ.biUnion (ovSet d L) = Finset.univ :=
  Finset.eq_univ_iff_forall.mpr fun i => Finset.mem_biUnion.mpr
    ⟨(⟨(i 0).val, (i 0).isLt⟩, ⟨(i 1).val, (i 1).isLt⟩), Finset.mem_univ _, (mem_ovSet d L _ i).mpr ⟨rfl, rfl⟩⟩

theorem ivFree_eq (p : Fin 4) :
    (ivFree d L p.val p.isLt : sProp 𝕄) = iprop(∃ f, (thrOf d L).loc cc0_scratch1 ↦[ivSet d L p]{fullShare} f) := by
  show iprop(∃ f, (ivSlotN p.val p.isLt).view.loc (thrOf d L) ↦[(ivSlotN p.val p.isLt).view.set]{fullShare} f) = _
  rw [set_ivSlotN]
theorem ovFree_eq (ph : Fin 4 × Fin 2) :
    (ovFree d L ph.1.val ph.2.val ph.1.isLt ph.2.isLt : sProp 𝕄) = iprop(∃ f, (thrOf d L).loc cc0_scratch2 ↦[ovSet d L ph]{fullShare} f) := by
  show iprop(∃ f, (ovSlotN ph.1.val ph.2.val ph.1.isLt ph.2.isLt).view.loc (thrOf d L)
    ↦[(ovSlotN ph.1.val ph.2.val ph.1.isLt ph.2.isLt).view.set]{fullShare} f) = _
  rw [set_ovSlotN]

/-- A buffer at some contents is its blocks, each at some contents, and back. -/
theorem whole_to_blocks {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f, ℓ ↦{fullShare} f) : sProp 𝕄) ⊢ bigSep Finset.univ fun b => iprop(∃ f, ℓ ↦[I b]{fullShare} f) := by
  refine exists_elim fun f => ?_
  rw [Ring.pointsTo_blocks I hd hc f]
  exact bigSep_mono fun b _ => exists_intro (Φ := fun f => (ℓ ↦[I b]{fullShare} f : sProp 𝕄)) f
theorem blocks_to_whole {ℓ : Loc nD τ sig} {B : Type} [Fintype B] [DecidableEq B] (I : B → Finset (Idx ℓ))
    (hd : ∀ b b', b ≠ b' → Disjoint (I b) (I b')) (hc : Finset.univ.biUnion I = Finset.univ) (b₀ : B) :
    (bigSep Finset.univ fun b => iprop(∃ f, ℓ ↦[I b]{fullShare} f)) ⊢ (iprop(∃ f, ℓ ↦{fullShare} f) : sProp 𝕄) := by
  by_cases hne : Nonempty (Buf (Elt F) ℓ)
  · obtain ⟨f₀⟩ := hne
    exact Ring.pointsTo_blocks_join_exists I hd hc f₀
  · have h1 : (bigSep Finset.univ fun b => iprop(∃ f, ℓ ↦[I b]{fullShare} f)) ⊢ (iprop(∃ f, ℓ ↦[I b₀]{fullShare} f) : sProp 𝕄) :=
      bigSep_elim (Finset.mem_univ b₀)
    have h2 : (iprop(∃ f, ℓ ↦[I b₀]{fullShare} f) : sProp 𝕄) ⊢ iprop(∃ f, ℓ ↦{fullShare} f) := exists_elim fun f => absurd ⟨f⟩ hne
    exact h1.trans h2

theorem bigSep_4x2 (Φ : Fin 4 × Fin 2 → sProp 𝕄) :
    bigSep Finset.univ Φ = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_fin4, bigSep_fin2', bigSep_fin2', bigSep_fin2', bigSep_fin2']

/-- The index scratch at some contents is its four rows, each at some contents. -/
theorem iv_open :
    (iprop(∃ f, (thrOf d L).loc cc0_scratch1 ↦{fullShare} f) : sProp 𝕄)
      ⊢ iprop(ivFree d L 0 (by decide) ∗ ivFree d L 1 (by decide) ∗ ivFree d L 2 (by decide) ∗ ivFree d L 3 (by decide)) := by
  have h := whole_to_blocks (F := F) (ivSet d L) (iv_disjoint d L) (iv_cover d L)
  rw [← bigSep_congr fun p _ => ivFree_eq (F := F) d L p, bigSep_fin4] at h
  exact h
theorem iv_close :
    (iprop(ivFree d L 0 (by decide) ∗ ivFree d L 1 (by decide) ∗ ivFree d L 2 (by decide) ∗ ivFree d L 3 (by decide)) : sProp 𝕄)
      ⊢ iprop(∃ f, (thrOf d L).loc cc0_scratch1 ↦{fullShare} f) := by
  have h := blocks_to_whole (F := F) (ivSet d L) (iv_disjoint d L) (iv_cover d L) 0
  rw [← bigSep_congr fun p _ => ivFree_eq (F := F) d L p, bigSep_fin4] at h
  exact h

/-- The output scratch at some contents is its eight half-slots, each at some contents. -/
theorem ov_open :
    (iprop(∃ f, (thrOf d L).loc cc0_scratch2 ↦{fullShare} f) : sProp 𝕄)
      ⊢ iprop((ovFree d L 0 0 (by decide) (by decide) ∗ ovFree d L 0 1 (by decide) (by decide))
        ∗ (ovFree d L 1 0 (by decide) (by decide) ∗ ovFree d L 1 1 (by decide) (by decide))
        ∗ (ovFree d L 2 0 (by decide) (by decide) ∗ ovFree d L 2 1 (by decide) (by decide))
        ∗ (ovFree d L 3 0 (by decide) (by decide) ∗ ovFree d L 3 1 (by decide) (by decide))) := by
  have h := whole_to_blocks (F := F) (ovSet d L) (ov_disjoint d L) (ov_cover d L)
  rw [← bigSep_congr fun ph _ => ovFree_eq (F := F) d L ph, bigSep_4x2] at h
  exact h
theorem ov_close :
    (iprop((ovFree d L 0 0 (by decide) (by decide) ∗ ovFree d L 0 1 (by decide) (by decide))
        ∗ (ovFree d L 1 0 (by decide) (by decide) ∗ ovFree d L 1 1 (by decide) (by decide))
        ∗ (ovFree d L 2 0 (by decide) (by decide) ∗ ovFree d L 2 1 (by decide) (by decide))
        ∗ (ovFree d L 3 0 (by decide) (by decide) ∗ ovFree d L 3 1 (by decide) (by decide))) : sProp 𝕄)
      ⊢ iprop(∃ f, (thrOf d L).loc cc0_scratch2 ↦{fullShare} f) := by
  have h := blocks_to_whole (F := F) (ovSet d L) (ov_disjoint d L) (ov_cover d L) (0, 0)
  rw [← bigSep_congr fun ph _ => ovFree_eq (F := F) d L ph, bigSep_4x2] at h
  exact h

/-! ## The vector subcore's own storage: the three scratch buffers and the nine semaphores, and the rest -/

/-- The three scratch buffers, as the subcore's own. -/
abbrev scrRefs : Finset (DevRef τ sig) :=
  ({cc0_scratch0, cc0_scratch1, cc0_scratch2} : Finset (Ref sig .scVector)).image (Proc.devRef (τ := τ) (.scVector (cV L) (jV L)))

/-- The nine semaphores: the scoped one, the four of the index fetches, the four of the write-backs. -/
abbrev nineSems : Finset (SemLoc sig) :=
  {SemLoc.dma cc0_scoped0.sem,
    SemLoc.dma (isemN 0 (by decide)).sem, SemLoc.dma (isemN 1 (by decide)).sem, SemLoc.dma (isemN 2 (by decide)).sem, SemLoc.dma (isemN 3 (by decide)).sem,
    SemLoc.dma (osemN 0 (by decide)).sem, SemLoc.dma (osemN 1 (by decide)).sem, SemLoc.dma (osemN 2 (by decide)).sem, SemLoc.dma (osemN 3 (by decide)).sem}
abbrev nineCells : Finset (GSem nD τ sig) := nineSems.image fun x => ((thrOf d L, x) : GSem nD τ sig)

theorem scrRefs_sub : scrRefs L ⊆ ownRefs (τ := τ) (sig := sig) (.scVector (cV L) (jV L)) := by
  intro b hb
  obtain ⟨r, hr, rfl⟩ := Finset.mem_image.mp hb
  simp only [Finset.mem_insert, Finset.mem_singleton] at hr
  rcases hr with rfl | rfl | rfl <;> exact SparseCore.Cfg.mem_ownRefs_of_owner rfl

theorem nineSems_scoped : ∀ x ∈ nineSems, (x : SemLoc sig).isScoped .scVector = true := by decide

theorem nineCells_sub : nineCells d L ⊆ ownCells (thrOf d L) := by
  intro g hg
  obtain ⟨x, hx, rfl⟩ := Finset.mem_image.mp hg
  exact mem_ownCells.mpr ⟨rfl, nineSems_scoped x hx⟩

/-- The subcore's own buffers: the three scratch buffers, each at some contents, and the others. -/
theorem ownBufs_split :
    (ownBufs (thrOf d L) : sProp 𝕄)
      = iprop(((∃ f, (thrOf d L).loc cc0_scratch0 ↦{fullShare} f) ∗ (∃ f, (thrOf d L).loc cc0_scratch1 ↦{fullShare} f)
            ∗ (∃ f, (thrOf d L).loc cc0_scratch2 ↦{fullShare} f))
          ∗ bigSep (ownRefs (τ := τ) (sig := sig) (.scVector (cV L) (jV L)) \ scrRefs L) fun b => iprop(∃ f, ((d, b) : Loc nD τ sig) ↦{fullShare} f)) := by
  have h1 : (cc0_scratch0 : Ref sig .scVector) ∉ ({cc0_scratch1, cc0_scratch2} : Finset (Ref sig .scVector)) := by decide
  have h2 : (cc0_scratch1 : Ref sig .scVector) ∉ ({cc0_scratch2} : Finset (Ref sig .scVector)) := by decide
  unfold SparseCore.Cfg.ownBufs
  rw [SparseCore.bigSep_sdiff_split' (scrRefs_sub L),
    bigSep_image_of_injOn (fun a _ b _ e => Proc.devRef_injective _ e),
    SparseCore.bigSep_insert' h1, SparseCore.bigSep_insert' h2, bigSep_singleton]

/-- The subcore's own semaphores at zero: the nine, and the others. -/
theorem ownSems0_split :
    (ownSems0 (thrOf d L) : sProp 𝕄)
      = iprop((semVal (thrOf d L, SemLoc.dma cc0_scoped0.sem) 0
            ∗ isem0 d L 0 (by decide) ∗ isem0 d L 1 (by decide) ∗ isem0 d L 2 (by decide) ∗ isem0 d L 3 (by decide)
            ∗ osem0 d L 0 (by decide) ∗ osem0 d L 1 (by decide) ∗ osem0 d L 2 (by decide) ∗ osem0 d L 3 (by decide))
          ∗ bigSep (ownCells (thrOf d L) \ nineCells d L) fun g => semVal g 0) := by
  unfold SparseCore.Cfg.ownSems0
  rw [SparseCore.bigSep_sdiff_split' (nineCells_sub d L),
    bigSep_image_of_injOn (fun a _ b _ e => (Prod.mk.inj e).2),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## Opening a worker's resources for its task, and closing them -/

/-- What of the worker's own travels untouched beside the task: the remainder of its share of the index list, its
    other buffers, its other semaphores. -/
def restOf : sProp 𝕄 :=
  iprop((idxLoc d ↦{Transfers.shareDrop (qTile (wOf L)) 4} m (idxLoc d))
    ∗ (bigSep (ownRefs (τ := τ) (sig := sig) (.scVector (cV L) (jV L)) \ scrRefs L) fun b => iprop(∃ f, ((d, b) : Loc nD τ sig) ↦{fullShare} f))
    ∗ (bigSep (ownCells (thrOf d L) \ nineCells d L) fun g => semVal g 0))

/-- What the worker is handed (its part of the result at `f`), with its own storage, is what its task holds. -/
theorem tile_open (hF : (K (F := F)).Facts) (f : Buf (Elt F) (outLoc d)) :
    iprop(((idxLoc d ↦{qTile (wOf L)} m (idxLoc d)) ∗ (tabLoc d ↦{qTile (wOf L)} Cert.RefSide.tabRep (m (tblLoc d)))
          ∗ (outLoc d ↦[tileSet d (wOf L)]{fullShare} f))
        ∗ scopedBufs (thrOf d L) ∗ scopedSems0 (thrOf d L))
      ⊢ (iprop(tileArrays m d L f ∗ tileScratch d L (restOf m d L)) : sProp 𝕄) := by
  rw [(K (F := F)).scopedBufs_V hF d (cV L) (jV L), SparseCore.Cfg.scopedSems0_V (Val := Elt F) d (cV L) (jV L), ownBufs_split, ownSems0_split]
  unfold tileScratch restOf
  iintro ⟨Harr, ⟨⟨Htv, Hiv, Hov⟩, Hbufs⟩, ⟨⟨Hs, Hi0, Hi1, Hi2, Hi3, Ho0, Ho1, Ho2, Ho3⟩, Hsems⟩⟩
  ihave Harr' := (arrays_open m d L f) $$ Harr
  icases Harr' with ⟨Ha, Hr⟩
  ihave Hiv' := (iv_open (F := F) d L) $$ Hiv
  ihave Hov' := (ov_open (F := F) d L) $$ Hov
  isplitl [Ha]; · iexact Ha
  isplitl [Htv]; · iexact Htv
  isplitl [Hiv']; · iexact Hiv'
  isplitl [Hov']; · iexact Hov'
  isplitl [Hs]; · iexact Hs
  isplitl [Hi0 Hi1 Hi2 Hi3]
  · isplitl [Hi0]; · iexact Hi0
    isplitl [Hi1]; · iexact Hi1
    isplitl [Hi2]; · iexact Hi2
    iexact Hi3
  isplitl [Ho0 Ho1 Ho2 Ho3]
  · isplitl [Ho0]; · iexact Ho0
    isplitl [Ho1]; · iexact Ho1
    isplitl [Ho2]; · iexact Ho2
    iexact Ho3
  isplitl [Hr]; · iexact Hr
  isplitl [Hbufs]; · iexact Hbufs
  iexact Hsems

/-- and back. -/
theorem tile_close (hF : (K (F := F)).Facts) (f : Buf (Elt F) (outLoc d)) :
    (iprop(tileArrays m d L f ∗ tileScratch d L (restOf m d L)) : sProp 𝕄)
      ⊢ iprop(((idxLoc d ↦{qTile (wOf L)} m (idxLoc d)) ∗ (tabLoc d ↦{qTile (wOf L)} Cert.RefSide.tabRep (m (tblLoc d)))
          ∗ (outLoc d ↦[tileSet d (wOf L)]{fullShare} f))
        ∗ scopedBufs (thrOf d L) ∗ scopedSems0 (thrOf d L)) := by
  rw [(K (F := F)).scopedBufs_V hF d (cV L) (jV L), SparseCore.Cfg.scopedSems0_V (Val := Elt F) d (cV L) (jV L), ownBufs_split, ownSems0_split]
  unfold tileScratch restOf
  iintro ⟨Ha, Htv, Hiv, Hov, Hs, ⟨Hi0, Hi1, Hi2, Hi3⟩, ⟨Ho0, Ho1, Ho2, Ho3⟩, Hr, Hbufs, Hsems⟩
  ihave Hiv' := (iv_close (F := F) d L) $$ Hiv
  ihave Hov' := (ov_close (F := F) d L) $$ Hov
  isplitl [Ha Hr]
  · iapply (arrays_close m d L f)
    isplitl [Ha]; · iexact Ha
    iexact Hr
  isplitl [Htv Hiv' Hov' Hbufs]
  · isplitr [Hbufs]
    · isplitl [Htv]; · iexact Htv
      isplitl [Hiv']; · iexact Hiv'
      iexact Hov'
    · iexact Hbufs
  isplitr [Hsems]
  · isplitl [Hs]; · iexact Hs
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  · iexact Hsems

end Cert.Proof.KernelIdealSc

end
-- ==== Proof.ScObl.lean ====
/-
  The launch theorem's obligation for the call, from ONE worker's run.

  The launch theorem asks, for every vector subcore of the call's grid: from what the launch hands it (the worker's
  resources, the subcore's own storage, what it owes) its program runs to what it hands back. The run itself is proved
  once, at a symbolic place, from the resources cut for the run to the same with the worker's part of the result at
  the lookup's values (`CoreRun`); here that run is wrapped: the resources are opened before it and closed after it,
  and the body table's entry for the subcore is read as the program at the subcore's grid coordinates.
-/
import proofs.«202852_g34127810134284_cont_8to1_b_1476_20_alg».proof.Proof.ScPlumb

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

variable [FloatOps F]

/-- One worker's task, run from what it holds cut for the run (`TileIn`) to the same with its part of the result at
    the lookup's values (`TileOut`), whatever else travels beside it: what the obligation is proved from. -/
def CoreRun : Prop :=
  ∀ (d : Dev nD) (L : grid0.Coords) (O : CellTallies nD τ sig (HIx 1)) (W : Waits sig (HIx 1)) (rest : sProp 𝕄), (∀ g, O g none = 0) →
    iprop(Transfers.MayWaits (thrOf d L) (none : HIx 1) O ∗ TileIn m d L rest ∗ owes (thrOf d L) O W)
      ⊢ wp frame (wpE (defs₀ (F := F)) 𝒱₀ (thrOf d L) none) Set.univ
          (cc0__emb_lookup L idxM (Memref.isWhole_whole _) tabM (Memref.isWhole_whole _) outM (Memref.isWhole_whole _)
            tvM (Memref.isWhole_whole _) ivM (Memref.isWhole_whole _) ovM (Memref.isWhole_whole _) cc0_scratch3 cc0_scratch4 cc0_scoped0)
          fun _ => iprop(TileOut m d L rest ∗ ∃ W', ⌜∀ p ∈ W', p ∈ W ∨ p.2 = none⌝ ∗ owes (thrOf d L) O W')

/-- Before the task: what the launch hands the worker opens to what the task holds. -/
theorem wrap_in (hF : (K (F := F)).Facts) (O : CellTallies nD τ sig (HIx 1)) (W : Waits sig (HIx 1)) (hO : ∀ g, O g none = 0) :
    iprop(levAts (K (F := F)).L (K (F := F)).lev ∗ emp ∗ goRes m d (wOf L)
        ∗ scopedBufs (thrOf d L) ∗ scopedSems0 (thrOf d L) ∗ owes (thrOf d L) O W)
      ⊢ (iprop(Transfers.MayWaits (thrOf d L) (none : HIx 1) O ∗ TileIn m d L (restOf m d L) ∗ owes (thrOf d L) O W) : sProp 𝕄) := by
  unfold goRes TileIn
  iintro ⟨#Hlv, -, Hgo, Hsb, Hss, HO⟩
  ihave Hmw := ((K (F := F)).mayWaits_none (thr := thrOf d L) hO) $$ Hlv
  isplitl [Hmw]; · iexact Hmw
  isplitr [HO]
  · iapply (tile_open m d L hF (m (outLoc d)))
    isplitl [Hgo]; · iexact Hgo
    isplitl [Hsb]; · iexact Hsb
    iexact Hss
  · iexact HO

/-- After it: what the task holds closes to what the worker hands back. -/
theorem wrap_out (hF : (K (F := F)).Facts) (O : CellTallies nD τ sig (HIx 1)) (W : Waits sig (HIx 1)) :
    (iprop(TileOut m d L (restOf m d L) ∗ ∃ W', ⌜∀ p ∈ W', p ∈ W ∨ p.2 = none⌝ ∗ owes (thrOf d L) O W') : sProp 𝕄)
      ⊢ iprop(tdRes m d (wOf L) ∗ scopedBufs (thrOf d L) ∗ scopedSems0 (thrOf d L)
            ∗ ∃ W', ⌜∀ p ∈ W', p ∈ W ∨ p.2 = none ∨ p.2 = some (0 : Fin 1)⌝ ∗ owes (thrOf d L) O W') := by
  unfold tdRes TileOut
  iintro ⟨Hout, %W', %hW', HO⟩
  ihave H := (tile_close m d L hF (Gout (m (idxLoc d)) (Cert.RefSide.tabRep (m (tblLoc d))))) $$ Hout
  icases H with ⟨Htd, Hsb, Hss⟩
  isplitl [Htd]; · iexact Htd
  isplitl [Hsb]; · iexact Hsb
  isplitl [Hss]; · iexact Hss
  iexists W'; isplitr
  · ipureintro; exact fun p hp => (hW' p hp).imp_right Or.inl
  · iexact HO

/-- A program run from the task's resources to the task's resources runs from what the launch hands the worker to
    what it hands back: open before, close after. -/
theorem tile_wrap (hF : (K (F := F)).Facts) (O : CellTallies nD τ sig (HIx 1)) (W : Waits sig (HIx 1)) (hO : ∀ g, O g none = 0)
    (prog : Prog (TpuEff nD τ sig (Elt F) Λ₀ (thrOf d L).2) PUnit)
    (hrun : iprop(Transfers.MayWaits (thrOf d L) (none : HIx 1) O ∗ TileIn m d L (restOf m d L) ∗ owes (thrOf d L) O W)
      ⊢ wp frame (wpE (defs₀ (F := F)) 𝒱₀ (thrOf d L) none) Set.univ prog
          fun _ => iprop(TileOut m d L (restOf m d L) ∗ ∃ W', ⌜∀ p ∈ W', p ∈ W ∨ p.2 = none⌝ ∗ owes (thrOf d L) O W')) :
    iprop(levAts (K (F := F)).L (K (F := F)).lev ∗ emp ∗ goRes m d (wOf L)
        ∗ scopedBufs (thrOf d L) ∗ scopedSems0 (thrOf d L) ∗ owes (thrOf d L) O W)
      ⊢ wp frame (wpE (defs₀ (F := F)) 𝒱₀ (thrOf d L) none) Set.univ prog
          fun _ => iprop(tdRes m d (wOf L) ∗ scopedBufs (thrOf d L) ∗ scopedSems0 (thrOf d L)
            ∗ ∃ W', ⌜∀ p ∈ W', p ∈ W ∨ p.2 = none ∨ p.2 = some (0 : Fin 1)⌝ ∗ owes (thrOf d L) O W') :=
  (wrap_in m d L hF O W hO).trans (hrun.trans (wp_mono frame _ _ fun _ => wrap_out m d L hF O W))

/-! ## The launch theorem's obligation -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_lookup (coordsV c s)
          idxM (Memref.isWhole_whole _) tabM (Memref.isWhole_whole _) outM (Memref.isWhole_whole _)
          tvM (Memref.isWhole_whole _) ivM (Memref.isWhole_whole _) ovM (Memref.isWhole_whole _) cc0_scratch3 cc0_scratch4 cc0_scoped0) ⟨⟩ c s := rfl

/-- The launch theorem's obligation for the call, from one worker's run at a symbolic place. -/
theorem tileObl (hcore : CoreRun m) : (K (F := F)).TileObl (D (F := F)) 𝒱 (P m) v₀ 0 := by
  intro d c i O W hO _ _
  -- this kernel owes nothing for a protocol of its own, and consumes nothing of the launch's
  simp only [P_ox, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hrun := hcore d (coordsV ⟨_, hc.1⟩ ⟨_, hc.2⟩) O W (restOf m d (coordsV ⟨_, hc.1⟩ ⟨_, hc.2⟩)) hO
  -- the program as an opaque term: the two sides spell the thread and the worker differently, equal by computation
  generalize cc0__emb_lookup (coordsV ⟨_, hc.1⟩ ⟨_, hc.2⟩) idxM _ tabM _ outM _ tvM _ ivM _ ovM _ cc0_scratch3 cc0_scratch4 cc0_scoped0 = prog at hrun ⊢
  exact tile_wrap m d (coordsV ⟨_, hc.1⟩ ⟨_, hc.2⟩) facts O W hO prog hrun

end Cert.Proof.KernelIdealSc

end
-- ==== Proof.ScFinal.lean ====
/-
  The call's result, transposed and flattened, is the embedding lookup.

  The result holds at `(h, T, q, j)` the repeated table at position `256 w + 16 (8 h + q) + j % 16`, `w` the index
  list's word number `128 T + j`. When every word is below 100 that position is inside the repeated table's 25600,
  its quotient by 256 is `w` — the table row the word selects — and its quotient by 16, modulo 16, is `8 h + q` —
  the column —, so the repeated table there is the table's entry `(w, 8 h + q)`: what the lookup puts at row
  `128 T + j`, column `8 h + q`, which is where the transposition and flattening send `(h, T, q, j)`.
-/
import proofs.«202852_g34127810134284_cont_8to1_b_1476_20_alg».proof.Proof.ScSetup

noncomputable section

namespace Cert.Proof.KernelIdealSc

open Cert.KernelIdeal Cert.KernelIdeal.Gen
open Idealize.ShloMosaic Idealize.ShloMosaic.ValueIdx

variable {F : FTy → Type}

theorem outOf_Gout_lookup (sp : IVec S3200000 32) (tb : FVec F S100x16 .f32) (hr : ∀ i, (sp i).toNat < 100) :
    Cert.RefSide.outOf (Gout sp (Cert.RefSide.tabRep tb)) = Cert.RefSide.lookup sp tb := by
  refine Cert.RefSide.outOf_eq_lookup sp tb _ fun h T q j => ?_
  have hh := h.isLt; have hq := q.isLt
  have hw := hr (ix1 (⟨T.val * 128 + j.val, by have := T.isLt; have := j.isLt; omega⟩ : Fin 3200000))
  rw [Gout_apply, Cert.RefSide.tabRep_apply]
  refine congrArg₂ (fun a b => tb (ix2 a b)) (Fin.ext ?_) (Fin.ext ?_)
  · show ((sp (ix1 (⟨T.val * 128 + j.val, _⟩ : Fin 3200000))).toNat * 256 + (h.val * 8 + q.val) * 16 + j.val % 16) % 25600 / 256
      = (sp (ix1 (⟨T.val * 128 + j.val, _⟩ : Fin 3200000))).toNat % 100
    omega
  · show ((sp (ix1 (⟨T.val * 128 + j.val, _⟩ : Fin 3200000))).toNat * 256 + (h.val * 8 + q.val) * 16 + j.val % 16) % 25600 / 16 % 16
      = h.val * 8 + q.val
    omega

end Cert.Proof.KernelIdealSc

end
-- ==== Proof.ScSpell.lean ====
import proofs.«202852_g34127810134284_cont_8to1_b_1476_20_alg».proof.Proof.ScRes

/-!
# The pieces a trip names are the ring's slots and the worker's chunks

Trip `t` of a worker's outer loop works in slot `t % 4` of the ring and on chunk `start w + t` of the positions;
the index fetch it starts is for chunk `start w + t + 4`. The program computes each piece's offsets by word
arithmetic; here each such piece is identified with the slot or chunk by number, through the closed forms of
the offset chains.
-/

noncomputable section

namespace Cert.Proof.KernelIdealSc

open Cert.KernelIdeal Cert.KernelIdeal.Gen
open Idealize.ShloMosaic

variable (L : grid0.Coords)

/-- The worker's number of chunks and its first chunk. -/
abbrev nW : ℕ := Cert.TilePlan.nch (wOf L)
abbrev sW : ℕ := Cert.TilePlan.start (wOf L)

theorem chunkW_lt {b : ℕ} (hb : b < nW L) : sW L + b < 5000 := Cert.TilePlan.chunk_lt (wOf_lt L) hb

variable (t : Fin (k0_t1_loop L).trips)

theorem slot_lt : t.val % 4 < 4 := Nat.mod_lt _ (by decide)
theorem trip_lt : t.val < nW L := Nat.lt_of_lt_of_eq t.isLt (t1_trips L)

/-- The worker's first index and first result row, as the offset chains spell them. -/
theorem idx_off (b : ℕ) :
    199680 * (L 1).val + 99840 * (L 0).val + 640 * (min (2 * (L 1).val + (L 0).val) 8) + 640 * b = 640 * (sW L + b) := by
  unfold sW Cert.TilePlan.start wOf Cert.TilePlan.wid; omega
theorem row_off (b : ℕ) :
    1560 * (L 1).val + 780 * (L 0).val + 5 * (min (2 * (L 1).val + (L 0).val) 8) + 5 * b = 5 * (sW L + b) := by
  unfold sW Cert.TilePlan.start wOf Cert.TilePlan.wid; omega

/-! ## The trip's own slot -/

theorem isem_t : isemAt (k0_off7 L t) (k0_off7_inb L t) = isemN (t.val % 4) (slot_lt L t) :=
  isemAt_congr (k0_off7_eq L t) _ _
theorem osem_t : osemAt (k0_off7 L t) (k0_off7_inb L t) = osemN (t.val % 4) (slot_lt L t) :=
  osemAt_congr (k0_off7_eq L t) _ _
theorem ivSlot_t : ivSlot (k0_off5 L t) (k0_off5_inb L t) = ivSlotN (t.val % 4) (slot_lt L t) :=
  ivSlot_congr (k0_off5_eq L t) _ _
theorem ovSlot0_t : ovSlot (k0_off142 L t) (k0_off142_inb L t) = ovSlotN (t.val % 4) 0 (slot_lt L t) (by decide) :=
  ovSlot_congr (k0_off142_eq L t) _ _
theorem ovSlot1_t : ovSlot (k0_off144 L t) (k0_off144_inb L t) = ovSlotN (t.val % 4) 1 (slot_lt L t) (by decide) :=
  ovSlot_congr (k0_off144_eq L t) _ _

/-! ## The trip's chunk -/

theorem idxChunk_t : idxChunk (k0_off6 L t) (k0_off6_inb L t) = idxChunkN (sW L + t.val) (chunkW_lt L (trip_lt L t)) :=
  idxChunk_congr ((k0_off6_eq L t).trans (by rw [idx_off L t.val])) _ _
theorem outChunk0_t : outChunk (k0_off143 L t) (k0_off143_inb L t) = outChunkN 0 (sW L + t.val) (by decide) (chunkW_lt L (trip_lt L t)) :=
  outChunk_congr ((k0_off143_eq L t).trans (by rw [row_off L t.val])) _ _
theorem outChunk1_t : outChunk (k0_off145 L t) (k0_off145_inb L t) = outChunkN 1 (sW L + t.val) (by decide) (chunkW_lt L (trip_lt L t)) :=
  outChunk_congr ((k0_off145_eq L t).trans (by rw [row_off L t.val])) _ _

/-! ## Slot arithmetic -/

theorem mod4_add4 (b : ℕ) : (b + 4) % 4 = b % 4 := Nat.add_mod_right b 4

/-- Offsets of the trip's slot and chunk, and of the chunk whose indices it fetches, by number. -/
theorem off7_num : k0_off7 L t = ![(t.val + 4) % 4] := by rw [k0_off7_eq, mod4_add4]
theorem off5_num : k0_off5 L t = ![(t.val + 4) % 4, 0] := by rw [k0_off5_eq, mod4_add4]
theorem off142_num : k0_off142 L t = ![(t.val + 4) % 4, 0, 0, 0, 0] := by rw [k0_off142_eq, mod4_add4]
theorem off144_num : k0_off144 L t = ![(t.val + 4) % 4, 1, 0, 0, 0] := by rw [k0_off144_eq, mod4_add4]
theorem off143_num : k0_off143 L t = ![0, 5 * (sW L + (t.val + 4 - 4)), 0, 0] := by rw [k0_off143_eq, row_off L t.val, Nat.add_sub_cancel]
theorem off145_num : k0_off145 L t = ![1, 5 * (sW L + (t.val + 4 - 4)), 0, 0] := by rw [k0_off145_eq, row_off L t.val, Nat.add_sub_cancel]
theorem off147_num : k0_off147 L t = ![640 * (sW L + (t.val + 4))] := by
  rw [k0_off147_eq]; congr 1; have := idx_off L t.val; omega

end Cert.Proof.KernelIdealSc

end
-- ==== Proof.ScRing.lean ====
import proofs.«202852_g34127810134284_cont_8to1_b_1476_20_alg».proof.Proof.ScSpell
import Idealize.ShloMosaic.Lib.Batch
import Idealize.ShloMosaic.Lib.Pipeline.Kit
import Idealize.ShloMosaic.Lib.ValueIdx

/-!
# The tile's ring between two trips

Between trips of its outer loop a tile has transfers in the air: for each of the four slots, the fetch of the
indices of the next chunk that slot serves (until the worker's chunks run out), and the two write-backs of the
last chunk computed in that slot (from the fifth trip on). This file states what the tile holds then, slot by
slot, and what is known of the contents: a fetched row is the chunk's indices; a half-slot being written back
holds the lookup's values for its chunk; the table scratch holds the replicated table.

Slots are counted by the chunk they next serve: chunk `b` (counted from the worker's first) is served in slot
`b % 4`, its indices are fetched during trip `b - 4` (or before the loop), and the write-backs that leave the slot
when trip `b` begins are chunk `b - 4`'s.
-/

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-- The index array's, the result's and the replicated table's launch contents, as the tile addresses them. -/
abbrev fiB : Buf (Elt F) (idxM.view.loc (thrOf d L)) := m (idxLoc d)
abbrev foutB : Buf (Elt F) (outM.view.loc (thrOf d L)) := m (outLoc d)
abbrev ftabB : FVec F S25600 .f32 := Cert.RefSide.tabRep (m (tblLoc d))
/-- The result's final contents. -/
abbrev goutB : Buf (Elt F) (outM.view.loc (thrOf d L)) := Gout (m (idxLoc d)) (Cert.RefSide.tabRep (m (tblLoc d)))

/-- Slot `e`'s read token of the index array. -/
abbrev tokW (e : ℕ) (he : e < 4) : PosShare TreeShare := Transfers.shareTok (qTile (wOf L)) 4 ⟨e, he⟩

/-! ## Two deliveries as a family -/

def pair2 (D0 D1 : sProp 𝕄) : Fin 2 → sProp 𝕄 := fun h => if h = 0 then D0 else D1
instance pair2_storable (D0 D1 : sProp 𝕄) [BI.Storable (upEmb : UEmb _ 𝕄) D0] [BI.Storable (upEmb : UEmb _ 𝕄) D1] (h : Fin 2) :
    BI.Storable (upEmb : UEmb _ 𝕄) (pair2 D0 D1 h) := by unfold pair2; split <;> infer_instance

/-- A write-back landed: the half-slot's read as one whole write over the chunk's prior contents. -/
abbrev landedO (src : Memref sig .scVector .vmem S5x8x128 .f32) (dst : Memref sig .scVector .hbm S5x8x128 .f32)
    (fs : Buf (Elt F) (src.view.loc (thrOf d L))) (fdd : Buf (Elt F) (dst.view.loc (thrOf d L))) : Buf (Elt F) (dst.view.loc (thrOf d L)) :=
  dst.view.writes (Elt F) fdd [⟨Rect.whole S5x8x128, ReadAs.same.apply (src.view.read (Elt F) fs)⟩]

/-- What a write-back delivers: the chunk's half landed, the half-slot back. -/
abbrev delivO (src : Memref sig .scVector .vmem S5x8x128 .f32) (dst : Memref sig .scVector .hbm S5x8x128 .f32)
    (fs : Buf (Elt F) (src.view.loc (thrOf d L))) (fdd : Buf (Elt F) (dst.view.loc (thrOf d L))) : sProp 𝕄 :=
  iprop((dst.view.loc (thrOf d L) ↦[dst.view.set]{fullShare} landedO d L src dst fs fdd) ∗ (src.view.loc (thrOf d L) ↦[src.view.set]{fullShare} fs))

/-! ## One slot's index side -/

/-- Fetching: the flight that will deliver the row at `fd` and the lent part of the token, beside the rest of the token. -/
def IdxBusyAt (os : Fin 1 → Nat) (hs : ∀ a, os a + S1.size a ≤ S4.size a) (ov : Fin 2 → Nat) (hv : ∀ a, ov a + S1x640.size a ≤ S4x640.size a)
    (oc : Fin 1 → Nat) (hc : ∀ a, oc a + S640.size a ≤ S3200000.size a) (tok : PosShare TreeShare)
    (P : Buf (Elt F) (ivM.view.loc (thrOf d L)) → Prop) : sProp 𝕄 :=
  iprop(∃ fd : Buf (Elt F) (ivM.view.loc (thrOf d L)),
    Transfers.Flight countersEmb (thrOf d L) (SemLoc.dma (isemAt os hs).sem) default 20480
        iprop(((ivSlot ov hv).view.loc (thrOf d L) ↦[(ivSlot ov hv).view.set]{fullShare} fd)
          ∗ (idxM.view.loc (thrOf d L) ↦[(idxChunk oc hc).view.set]{tok} fiB m d L))
      ∗ (idxM.view.loc (thrOf d L) ↦[Finset.univ \ (idxChunk oc hc).view.set]{tok} fiB m d L)
      ∗ ⌜P fd⌝)

/-- Idle: the semaphore at zero, the row at some contents, the token whole. -/
def IdxIdleAt (os : Fin 1 → Nat) (hs : ∀ a, os a + S1.size a ≤ S4.size a) (ov : Fin 2 → Nat) (hv : ∀ a, ov a + S1x640.size a ≤ S4x640.size a)
    (tok : PosShare TreeShare) : sProp 𝕄 :=
  iprop(semVal (thrOf d L, SemLoc.dma (isemAt os hs).sem) 0
    ∗ (∃ f, (ivSlot ov hv).view.loc (thrOf d L) ↦[(ivSlot ov hv).view.set]{fullShare} f)
    ∗ (idxM.view.loc (thrOf d L) ↦{tok} fiB m d L))

/-! ## One slot's output side -/

/-- Writing back: the batch of the two write-backs, both issued, neither awaited. -/
def OutBusyAt (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a)
    (c0 : Fin 4 → Nat) (g0 : ∀ a, c0 a + S1x5x8x128.size a ≤ S2x25000x8x128.size a)
    (c1 : Fin 4 → Nat) (g1 : ∀ a, c1 a + S1x5x8x128.size a ≤ S2x25000x8x128.size a)
    (P : Buf (Elt F) (ovM.view.loc (thrOf d L)) → Buf (Elt F) (ovM.view.loc (thrOf d L)) → Prop) : sProp 𝕄 :=
  iprop(∃ fo0 fo1 : Buf (Elt F) (ovM.view.loc (thrOf d L)),
    Transfers.Batch countersEmb (thrOf d L) (SemLoc.dma (osemAt os hs).sem) default
        ((outChunk c0 g0).view.amount (SemLoc.dma (sig := sig) (osemAt os hs).sem))
        (pair2 (delivO d L (ovSlot o0 h0) (outChunk c0 g0) fo0 (foutB m d L)) (delivO d L (ovSlot o1 h1) (outChunk c1 g1) fo1 (foutB m d L))) 2 0
      ∗ ⌜P fo0 fo1⌝)

/-- Idle: the semaphore at zero, both halves at some contents. -/
def OutIdleAt (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a) : sProp 𝕄 :=
  iprop(semVal (thrOf d L, SemLoc.dma (osemAt os hs).sem) 0
    ∗ (∃ f, (ovSlot o0 h0).view.loc (thrOf d L) ↦[(ovSlot o0 h0).view.set]{fullShare} f)
    ∗ (∃ f, (ovSlot o1 h1).view.loc (thrOf d L) ↦[(ovSlot o1 h1).view.set]{fullShare} f))

/-! Equal offset vectors give one assertion. -/

theorem IdxBusyAt_congr {os os' : Fin 1 → Nat} (e1 : os = os') {ov ov' : Fin 2 → Nat} (e2 : ov = ov') {oc oc' : Fin 1 → Nat} (e3 : oc = oc')
    (hs : ∀ a, os a + S1.size a ≤ S4.size a) (hs' : ∀ a, os' a + S1.size a ≤ S4.size a)
    (hv : ∀ a, ov a + S1x640.size a ≤ S4x640.size a) (hv' : ∀ a, ov' a + S1x640.size a ≤ S4x640.size a)
    (hc : ∀ a, oc a + S640.size a ≤ S3200000.size a) (hc' : ∀ a, oc' a + S640.size a ≤ S3200000.size a)
    (tok : PosShare TreeShare) (P : Buf (Elt F) (ivM.view.loc (thrOf d L)) → Prop) :
    IdxBusyAt m d L os hs ov hv oc hc tok P = IdxBusyAt m d L os' hs' ov' hv' oc' hc' tok P := by subst e1 e2 e3; rfl

theorem IdxIdleAt_congr {os os' : Fin 1 → Nat} (e1 : os = os') {ov ov' : Fin 2 → Nat} (e2 : ov = ov')
    (hs : ∀ a, os a + S1.size a ≤ S4.size a) (hs' : ∀ a, os' a + S1.size a ≤ S4.size a)
    (hv : ∀ a, ov a + S1x640.size a ≤ S4x640.size a) (hv' : ∀ a, ov' a + S1x640.size a ≤ S4x640.size a) (tok : PosShare TreeShare) :
    IdxIdleAt m d L os hs ov hv tok = IdxIdleAt m d L os' hs' ov' hv' tok := by subst e1 e2; rfl

theorem OutBusyAt_congr {os os' : Fin 1 → Nat} (e1 : os = os') {o0 o0' : Fin 5 → Nat} (e2 : o0 = o0') {o1 o1' : Fin 5 → Nat} (e3 : o1 = o1')
    {c0 c0' : Fin 4 → Nat} (e4 : c0 = c0') {c1 c1' : Fin 4 → Nat} (e5 : c1 = c1')
    (hs : ∀ a, os a + S1.size a ≤ S4.size a) (hs' : ∀ a, os' a + S1.size a ≤ S4.size a)
    (h0 : ∀ a, o0 a + S1x1x5x8x128.size a ≤ S4x2x5x8x128.size a) (h0' : ∀ a, o0' a + S1x1x5x8x128.size a ≤ S4x2x5x8x128.size a)
    (h1 : ∀ a, o1 a + S1x1x5x8x128.size a ≤ S4x2x5x8x128.size a) (h1' : ∀ a, o1' a + S1x1x5x8x128.size a ≤ S4x2x5x8x128.size a)
    (g0 : ∀ a, c0 a + S1x5x8x128.size a ≤ S2x25000x8x128.size a) (g0' : ∀ a, c0' a + S1x5x8x128.size a ≤ S2x25000x8x128.size a)
    (g1 : ∀ a, c1 a + S1x5x8x128.size a ≤ S2x25000x8x128.size a) (g1' : ∀ a, c1' a + S1x5x8x128.size a ≤ S2x25000x8x128.size a)
    (P : Buf (Elt F) (ovM.view.loc (thrOf d L)) → Buf (Elt F) (ovM.view.loc (thrOf d L)) → Prop) :
    OutBusyAt m d L os hs o0 h0 o1 h1 c0 g0 c1 g1 P = OutBusyAt m d L os' hs' o0' h0' o1' h1' c0' g0' c1' g1' P := by
  subst e1 e2 e3 e4 e5; rfl

theorem OutIdleAt_congr {os os' : Fin 1 → Nat} (e1 : os = os') {o0 o0' : Fin 5 → Nat} (e2 : o0 = o0') {o1 o1' : Fin 5 → Nat} (e3 : o1 = o1')
    (hs : ∀ a, os a + S1.size a ≤ S4.size a) (hs' : ∀ a, os' a + S1.size a ≤ S4.size a)
    (h0 : ∀ a, o0 a + S1x1x5x8x128.size a ≤ S4x2x5x8x128.size a) (h0' : ∀ a, o0' a + S1x1x5x8x128.size a ≤ S4x2x5x8x128.size a)
    (h1 : ∀ a, o1 a + S1x1x5x8x128.size a ≤ S4x2x5x8x128.size a) (h1' : ∀ a, o1' a + S1x1x5x8x128.size a ≤ S4x2x5x8x128.size a) :
    OutIdleAt (F := F) d L os hs o0 h0 o1 h1 = OutIdleAt (F := F) d L os' hs' o0' h0' o1' h1' := by subst e1 e2 e3; rfl

/-! ## What is known of the contents -/

theorem idxPos_lt {b : ℕ} (hb : b < nW L) (j : Fin 640) : 640 * (sW L + b) + j.val < 3200000 := by
  have := chunkW_lt L hb; have := j.isLt; omega
theorem rowPos_lt {c : ℕ} (hc : c < nW L) (g : Fin 5) : 5 * (sW L + c) + g.val < 25000 := by
  have := chunkW_lt L hc; have := g.isLt; omega

/-- Row `b % 4` of the index scratch holds the indices of the worker's chunk `b`. -/
def goodIdx (b : ℕ) (hb : b < nW L) (fd : Buf (Elt F) (ivM.view.loc (thrOf d L))) : Prop :=
  ∀ j : Fin 640, fd (ix2 (⟨b % 4, Nat.mod_lt _ (by decide)⟩ : Fin 4) j) = fiB m d L (ix1 (⟨640 * (sW L + b) + j.val, idxPos_lt L hb j⟩ : Fin 3200000))

/-- The two halves of slot `c % 4` of the output scratch hold the lookup's values for the worker's chunk `c`. -/
def goodOut (c : ℕ) (hc : c < nW L) (fo0 fo1 : Buf (Elt F) (ovM.view.loc (thrOf d L))) : Prop :=
  ∀ (g : Fin 5) (r : Fin 8) (j : Fin 128),
    fo0 (ix5 (⟨c % 4, Nat.mod_lt _ (by decide)⟩ : Fin 4) (0 : Fin 2) g r j) = goutB m d L (ix4 (0 : Fin 2) (⟨5 * (sW L + c) + g.val, rowPos_lt L hc g⟩ : Fin 25000) r j)
    ∧ fo1 (ix5 (⟨c % 4, Nat.mod_lt _ (by decide)⟩ : Fin 4) (1 : Fin 2) g r j) = goutB m d L (ix4 (1 : Fin 2) (⟨5 * (sW L + c) + g.val, rowPos_lt L hc g⟩ : Fin 25000) r j)

/-- The first 25600 words of the table scratch are the replicated table. -/
def goodTv (ftv : Buf (Elt F) (tvM.view.loc (thrOf d L))) : Prop :=
  ∀ k : Fin 25600, ftv (ix1 (⟨k.val, by have := k.isLt; omega⟩ : Fin 25840)) = ftabB m d (ix1 k)

/-! ## A slot by the chunk it next serves -/

theorem mod4_lt (b : ℕ) : b % 4 < 4 := Nat.mod_lt _ (by decide)

/-- The index side of the slot that serves chunk `b`: fetching chunk `b`'s indices while the worker has a chunk `b`, else idle. -/
def IdxSt (b : ℕ) : sProp 𝕄 :=
  if hb : b < nW L then
    IdxBusyAt m d L ![b % 4] (inb_sem (mod4_lt b)) ![b % 4, 0] (inb_iv (mod4_lt b)) ![640 * (sW L + b)] (inb_idx (chunkW_lt L hb))
      (tokW L (b % 4) (mod4_lt b)) (goodIdx m d L b hb)
  else IdxIdleAt m d L ![b % 4] (inb_sem (mod4_lt b)) ![b % 4, 0] (inb_iv (mod4_lt b)) (tokW L (b % 4) (mod4_lt b))

theorem outChunk_lt {b : ℕ} (hb : 4 ≤ b ∧ b < nW L + 4) : b - 4 < nW L := by omega

/-- The output side of the slot that serves chunk `b`: writing back chunk `b - 4` from the fifth chunk on, else idle. -/
def OutSt (b : ℕ) : sProp 𝕄 :=
  if hb : 4 ≤ b ∧ b < nW L + 4 then
    OutBusyAt m d L ![b % 4] (inb_sem (mod4_lt b)) ![b % 4, 0, 0, 0, 0] (inb_ov (mod4_lt b) (by decide)) ![b % 4, 1, 0, 0, 0] (inb_ov (mod4_lt b) (by decide))
      ![0, 5 * (sW L + (b - 4)), 0, 0] (inb_out (by decide) (chunkW_lt L (outChunk_lt L hb)))
      ![1, 5 * (sW L + (b - 4)), 0, 0] (inb_out (by decide) (chunkW_lt L (outChunk_lt L hb)))
      (goodOut m d L (b - 4) (outChunk_lt L hb))
  else OutIdleAt d L ![b % 4] (inb_sem (mod4_lt b)) ![b % 4, 0, 0, 0, 0] (inb_ov (mod4_lt b) (by decide)) ![b % 4, 1, 0, 0, 0] (inb_ov (mod4_lt b) (by decide))

/-! ## The worker's chunks of the result -/

/-- Both halves of chunk `b` at `f`. -/
abbrev outBoth (f : Buf (Elt F) (outLoc d)) (b : Fin (nW L)) : sProp 𝕄 := iprop(outPiece d L f b 0 ∗ outPiece d L f b 1)

/-- The chunks not yet computed, at the launch contents; the chunks written back and awaited, at the lookup's values. -/
def Home (t : ℕ) : sProp 𝕄 := bigSep (Finset.univ.filter fun b : Fin (nW L) => t ≤ b.val) fun b => outBoth d L (m (outLoc d)) b
def Done (t : ℕ) : sProp 𝕄 := bigSep (Finset.univ.filter fun b : Fin (nW L) => b.val + 4 < t) fun b => outBoth d L (goutB m d L) b

end Cert.Proof.KernelIdealSc

end
-- ==== Proof.ScInnerSpec.lean ====
import proofs.«202852_g34127810134284_cont_8to1_b_1476_20_alg».proof.Proof.ScSpell
import Idealize.ShloMosaic.Lib.ValueIdx
import Idealize.ShloMosaic.Lib.Tactic

/-!
# The inner loop of a trip, as a statement

Trip `t` of a worker's outer loop computes one chunk in five inner trips: inner trip `g` reads the 128 indices of
block `g` of the chunk from row `t % 4` of the index scratch and, for each of the sixteen table columns, gathers
the 128 table entries those indices name and stores them in row `g` of the column's place in slot `t % 4` of the
output scratch. The table scratch holds, at word `i·256 + c·16 + l`, the entry of table row `i`, column `c`
(sixteen equal copies, one per lane `l`); lane `l` of a gather reads the copy of its own number.
-/

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

variable [FloatOps F]

/-- The lane numbers 0 … 15. -/
abbrev lanesV : IVec S16 32 := iota .scVector S16 32 [0] iota_S16_d0_w32_scVector

/-- The inner loop's value equation, named. -/
def InnerVal (t : Fin (k0_t1_loop L).trips) (ftv : Buf (Elt F) (tvM.view.loc (thrOf d L)))
    (fiv : Buf (Elt F) (ivM.view.loc (thrOf d L))) (fo0' fo1' : Buf (Elt F) (ovM.view.loc (thrOf d L))) : Prop :=
  ∀ (g : Fin 5) (r : Fin 8) (j : Fin 128),
    fo0' (ix5 (⟨t.val % 4, slot_lt L t⟩ : Fin 4) (0 : Fin 2) g r j)
        = ftv (ix1 (⟨(fiv (ix2 (⟨t.val % 4, slot_lt L t⟩ : Fin 4) (⟨128 * g.val + j.val, by have := g.isLt; have := j.isLt; omega⟩ : Fin 640))).toNat % 100 * 256
            + r.val * 16 + j.val % 16, by have := r.isLt; have := Nat.mod_lt j.val (by decide : 0 < 16); have := Nat.mod_lt (fiv (ix2 (⟨t.val % 4, slot_lt L t⟩ : Fin 4) (⟨128 * g.val + j.val, by have := g.isLt; have := j.isLt; omega⟩ : Fin 640))).toNat (by decide : 0 < 100); omega⟩ : Fin 25840))
    ∧ fo1' (ix5 (⟨t.val % 4, slot_lt L t⟩ : Fin 4) (1 : Fin 2) g r j)
        = ftv (ix1 (⟨(fiv (ix2 (⟨t.val % 4, slot_lt L t⟩ : Fin 4) (⟨128 * g.val + j.val, by have := g.isLt; have := j.isLt; omega⟩ : Fin 640))).toNat % 100 * 256
            + (8 + r.val) * 16 + j.val % 16, by have := r.isLt; have := Nat.mod_lt j.val (by decide : 0 < 16); have := Nat.mod_lt (fiv (ix2 (⟨t.val % 4, slot_lt L t⟩ : Fin 4) (⟨128 * g.val + j.val, by have := g.isLt; have := j.isLt; omega⟩ : Fin 640))).toNat (by decide : 0 < 100); omega⟩ : Fin 25840))

/-- What the inner loop of trip `t` does (proved apart): from the row of indices `fiv` (all below 100) and the table
    scratch `ftv`, the two output halves of slot `t % 4` end at the gathered values; nothing else changes. -/
def InnerSpec : Prop :=
  ∀ (t : Fin (k0_t1_loop L).trips) (v4 v46 : BitVec 32) (ftv : Buf (Elt F) (tvM.view.loc (thrOf d L)))
    (fiv : Buf (Elt F) (ivM.view.loc (thrOf d L))) (fo0 fo1 : Buf (Elt F) (ovM.view.loc (thrOf d L))),
    (∀ j : Fin 640, (fiv (ix2 (⟨t.val % 4, slot_lt L t⟩ : Fin 4) j)).toNat < 100) →
    (iprop((tvM.view.loc (thrOf d L) ↦{fullShare} ftv)
        ∗ ((ivSlot (k0_off5 L t) (k0_off5_inb L t)).view.loc (thrOf d L) ↦[(ivSlot (k0_off5 L t) (k0_off5_inb L t)).view.set]{fullShare} fiv)
        ∗ ((ovSlot (k0_off142 L t) (k0_off142_inb L t)).view.loc (thrOf d L) ↦[(ovSlot (k0_off142 L t) (k0_off142_inb L t)).view.set]{fullShare} fo0)
        ∗ ((ovSlot (k0_off144 L t) (k0_off144_inb L t)).view.loc (thrOf d L) ↦[(ovSlot (k0_off144 L t) (k0_off144_inb L t)).view.set]{fullShare} fo1)) : sProp 𝕄)
      ⊢ wp frame (wpE (defs₀ (F := F)) 𝒱₀ (thrOf d L) none) Set.univ
          (Scf.Loop.for k0_t2_loop k0_t2_ok ⟨⟩
            (k0_t2_body L idxM (Memref.isWhole_whole _) tabM (Memref.isWhole_whole _) outM (Memref.isWhole_whole _)
              tvM (Memref.isWhole_whole _) ivM (Memref.isWhole_whole _) ovM (Memref.isWhole_whole _) cc0_scratch3 cc0_scratch4 cc0_scoped0
              v4 lanesV 0#32 1#32 t v46))
          fun _ => iprop(∃ fo0' fo1' : Buf (Elt F) (ovM.view.loc (thrOf d L)),
            (tvM.view.loc (thrOf d L) ↦{fullShare} ftv)
            ∗ ((ivSlot (k0_off5 L t) (k0_off5_inb L t)).view.loc (thrOf d L) ↦[(ivSlot (k0_off5 L t) (k0_off5_inb L t)).view.set]{fullShare} fiv)
            ∗ ((ovSlot (k0_off142 L t) (k0_off142_inb L t)).view.loc (thrOf d L) ↦[(ovSlot (k0_off142 L t) (k0_off142_inb L t)).view.set]{fullShare} fo0')
            ∗ ((ovSlot (k0_off144 L t) (k0_off144_inb L t)).view.loc (thrOf d L) ↦[(ovSlot (k0_off144 L t) (k0_off144_inb L t)).view.set]{fullShare} fo1')
            ∗ ⌜InnerVal d L t ftv fiv fo0' fo1'⌝)

end Cert.Proof.KernelIdealSc

end
-- ==== Proof.ScVals.lean ====
/-
  The pure value facts of a worker's run.

  A piece of an array — a row of the index scratch, a half-slot of the output scratch, a chunk of the index list, a
  chunk's five rows of one half of the result — is a unit-stride rectangle of the array with its axes of extent one
  dropped; its element at the remaining coordinates is the array's element at the rectangle's offset plus those
  coordinates. One whole write through a piece leaves, at each of the piece's elements, the payload's value there.
  From these:
  * the inner loop's equation (each gathered value is the table scratch at `256 · word + 16 · column + lane`), with the
    fetched row being the chunk's indices (all below 100) and the table scratch the repeated table, says the two
    output halves hold the result's final contents for the chunk;
  * such a half-slot landed on the chunk's half of the result is the final contents there;
  * a fetch delivers the chunk's indices; the table copy delivers the repeated table.
-/
import proofs.«202852_g34127810134284_cont_8to1_b_1476_20_alg».proof.Proof.ScRing
import proofs.«202852_g34127810134284_cont_8to1_b_1476_20_alg».proof.Proof.ScInnerSpec
import Idealize.ShloMosaic.Lib.Writes

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-! ## Where a piece's elements sit in its array

Each piece is a unit-stride rectangle of its array with the axes of extent one dropped: its element at the remaining
coordinates is the array's element at the rectangle's offset plus those coordinates. -/

/-- Element `j` of row `p` of the index scratch is the scratch's element `(p, j)`. -/
theorem emb_ivSlot (p : ℕ) (hp : p < 4) (j : Fin 640) :
    (ivSlot ![p, 0] (inb_iv hp)).view.emb (ix1 j) = (ix2 (⟨p, hp⟩ : Fin 4) j : S4x640.Idx) := by
  have e : Shape.reshapeEquiv (s := (Rect.unit (s := S4x640) ![p, 0] S1x640.size (inb_iv hp)).shape) (s' := S640)
      squeezes_S1x640_S640.numel_eq (ix1 j) = (ix2 (0 : Fin 1) j : (⟨2, ![1, 640]⟩ : Shape).Idx) :=
    Shape.reshapeEquiv_eq_of_rowMajor _ (by
      rw [Shape.rowMajor_val_two, Shape.rowMajor_val_one]
      show (0 : ℕ) * 640 + j.val = j.val
      omega)
  show (Rect.unit (s := S4x640) ![p, 0] S1x640.size (inb_iv hp)).emb (Shape.reshapeEquiv _ (ix1 j)) = _
  rw [e]
  funext a
  refine Fin.ext ?_
  rw [Rect.emb_apply]
  fin_cases a <;> simp

/-- Element `(g, r, j)` of half `h` of slot `p` of the output scratch is the scratch's element `(p, h, g, r, j)`. -/
theorem emb_ovSlot (p h : ℕ) (hp : p < 4) (hh : h < 2) (g : Fin 5) (r : Fin 8) (j : Fin 128) :
    (ovSlot ![p, h, 0, 0, 0] (inb_ov hp hh)).view.emb (ix3 g r j) = (ix5 (⟨p, hp⟩ : Fin 4) (⟨h, hh⟩ : Fin 2) g r j : S4x2x5x8x128.Idx) := by
  have e : Shape.reshapeEquiv (s := (Rect.unit (s := S4x2x5x8x128) ![p, h, 0, 0, 0] S1x1x5x8x128.size (inb_ov hp hh)).shape) (s' := S5x8x128)
      squeezes_S1x1x5x8x128_S5x8x128.numel_eq (ix3 g r j) = (ix5 (0 : Fin 1) (0 : Fin 1) g r j : (⟨5, ![1, 1, 5, 8, 128]⟩ : Shape).Idx) :=
    Shape.reshapeEquiv_eq_of_rowMajor _ (by
      rw [Shape.rowMajor_val_five, Shape.rowMajor_val_three]
      show ((((0 : ℕ) * 1 + 0) * 5 + g.val) * 8 + r.val) * 128 + j.val = (g.val * 8 + r.val) * 128 + j.val
      omega)
  show (Rect.unit (s := S4x2x5x8x128) ![p, h, 0, 0, 0] S1x1x5x8x128.size (inb_ov hp hh)).emb (Shape.reshapeEquiv _ (ix3 g r j)) = _
  rw [e]
  funext a
  refine Fin.ext ?_
  rw [Rect.emb_apply]
  fin_cases a <;> simp

/-- Element `(g, r, j)` of chunk `T`'s five rows of half `h` of the result is the result's element `(h, 5 T + g, r, j)`. -/
theorem emb_outChunk (h T : ℕ) (hh : h < 2) (hT : T < 5000) (g : Fin 5) (r : Fin 8) (j : Fin 128) :
    (outChunk ![h, 5 * T, 0, 0] (inb_out hh hT)).view.emb (ix3 g r j)
      = (ix4 (⟨h, hh⟩ : Fin 2) (⟨5 * T + g.val, by have := g.isLt; omega⟩ : Fin 25000) r j : S2x25000x8x128.Idx) := by
  have e : Shape.reshapeEquiv (s := (Rect.unit (s := S2x25000x8x128) ![h, 5 * T, 0, 0] S1x5x8x128.size (inb_out hh hT)).shape) (s' := S5x8x128)
      squeezes_S1x5x8x128_S5x8x128.numel_eq (ix3 g r j) = (ix4 (0 : Fin 1) g r j : (⟨4, ![1, 5, 8, 128]⟩ : Shape).Idx) :=
    Shape.reshapeEquiv_eq_of_rowMajor _ (by
      rw [Shape.rowMajor_val_four, Shape.rowMajor_val_three]
      show (((0 : ℕ) * 5 + g.val) * 8 + r.val) * 128 + j.val = (g.val * 8 + r.val) * 128 + j.val
      omega)
  show (Rect.unit (s := S2x25000x8x128) ![h, 5 * T, 0, 0] S1x5x8x128.size (inb_out hh hT)).emb (Shape.reshapeEquiv _ (ix3 g r j)) = _
  rw [e]
  funext a
  refine Fin.ext ?_
  rw [Rect.emb_apply]
  fin_cases a <;> simp

/-- Element `j` of chunk `T` of the index list is the list's element `640 T + j`. -/
theorem emb_idxChunk (T : ℕ) (hT : T < 5000) (j : Fin 640) :
    (idxChunk ![640 * T] (inb_idx hT)).view.emb (ix1 j) = (ix1 (⟨640 * T + j.val, by have := j.isLt; omega⟩ : Fin 3200000) : S3200000.Idx) := by
  show (Rect.unit (s := S3200000) ![640 * T] S640.size (inb_idx hT)).emb (ix1 j) = _
  funext a
  refine Fin.ext ?_
  rw [Rect.emb_apply]
  fin_cases a; simp

/-! ## One write through a view, read at an element it covers -/

theorem writes_one_emb {κ : Kind} {sp : Space} {s : Shape} {e : EltTy} (v : View sig κ sp s e) (f : v.ty.Contents (Elt F))
    (R : Rect s) (w : R.shape.Idx → Elt F e) (x : R.shape.Idx) :
    v.writes (Elt F) f [⟨R, w⟩] (v.emb (R.emb x)) = _root_.cast (congrArg (Elt F) (v.slice R).elt_eq.symm) (w x) :=
  View.write_emb_of_mem (v := v.slice R) f w (Finset.mem_univ x)

/-! ## The result's final contents at a worker's chunk -/

/-- The result's value at `(h, T, r, j)` when the index list's word number `128 T + j` is `W < 100`: the repeated
    table at `256 W + 16 (8 h + r) + j % 16`. -/
theorem Gout_at (sp : IVec S3200000 32) (tab : FVec F S25600 .f32) (h : Fin 2) (T : Fin 25000) (r : Fin 8) (j : Fin 128)
    (i : Fin 3200000) (hi : i.val = T.val * 128 + j.val) (W : ℕ) (hW : W < 100) (hw : (sp (ix1 i)).toNat = W)
    (k : Fin 25600) (hk : k.val = W * 256 + (h.val * 8 + r.val) * 16 + j.val % 16) :
    Gout sp tab (ix4 h T r j) = tab (ix1 k) := by
  rw [Gout_apply]
  have hh := h.isLt; have hr := r.isLt
  refine congrArg (fun k => tab (ix1 k)) (Fin.ext ?_)
  have e : (sp (ix1 (⟨T.val * 128 + j.val, by have := T.isLt; have := j.isLt; omega⟩ : Fin 3200000))).toNat = W :=
    (congrArg (fun k => (sp (ix1 k)).toNat) (Fin.ext hi.symm : (⟨T.val * 128 + j.val, by have := T.isLt; have := j.isLt; omega⟩ : Fin 3200000) = i)).trans hw
  show ((sp (ix1 (⟨T.val * 128 + j.val, _⟩ : Fin 3200000))).toNat * 256 + (h.val * 8 + r.val) * 16 + j.val % 16) % 25600 = k.val
  rw [e, hk]
  omega

/-! ## The pure facts of a trip -/

/-- A chunk's half of the result at `f`, at an offset vector. -/
def OutPieceAt (c : Fin 4 → Nat) (g : ∀ a, c a + S1x5x8x128.size a ≤ S2x25000x8x128.size a) (f : Buf (Elt F) (outM.view.loc (thrOf d L))) : sProp 𝕄 :=
  (outChunk c g).view.loc (thrOf d L) ↦[(outChunk c g).view.set]{fullShare} f

theorem OutPieceAt_congr {c c' : Fin 4 → Nat} (e : c = c') (g : ∀ a, c a + S1x5x8x128.size a ≤ S2x25000x8x128.size a)
    (g' : ∀ a, c' a + S1x5x8x128.size a ≤ S2x25000x8x128.size a) (f : Buf (Elt F) (outM.view.loc (thrOf d L))) :
    OutPieceAt d L c g f = OutPieceAt d L c' g' f := by subst e; rfl

theorem OutPieceAt_def (c : Fin 4 → Nat) (g : ∀ a, c a + S1x5x8x128.size a ≤ S2x25000x8x128.size a) (f : Buf (Elt F) (outM.view.loc (thrOf d L))) :
    OutPieceAt d L c g f = ((outChunk c g).view.loc (thrOf d L) ↦[(outChunk c g).view.set]{fullShare} f : sProp 𝕄) := rfl

/-- From the inner loop's equation, the fetched row being chunk `t`'s indices, and the table scratch being the
    replicated table: the two halves hold the lookup's values for chunk `t`. -/
theorem goodOut_of_inner (hpre : ∀ i, (fiB m d L i).toNat < 100) (t : Fin (k0_t1_loop L).trips)
    (ftv : Buf (Elt F) (tvM.view.loc (thrOf d L))) (htv : goodTv m d L ftv)
    (fd : Buf (Elt F) (ivM.view.loc (thrOf d L))) (hfd : goodIdx m d L t.val (trip_lt L t) fd)
    (fo0' fo1' : Buf (Elt F) (ovM.view.loc (thrOf d L))) (hval : InnerVal d L t ftv fd fo0' fo1') :
    goodOut m d L t.val (trip_lt L t) fo0' fo1' := by
  intro g r j
  have hg := g.isLt; have hr := r.isLt; have hj := j.isLt
  have hT := chunkW_lt L (trip_lt L t)
  obtain ⟨h0, h1⟩ := hval g r j
  -- the word the two gathers read: the index list's word number 640 (start + t) + 128 g + j, below 100
  have hidx := hfd (⟨128 * g.val + j.val, by omega⟩ : Fin 640)
  have hW := hpre (ix1 (⟨640 * (sW L + t.val) + (128 * g.val + j.val), by omega⟩ : Fin 3200000))
  have hword : (fd (ix2 (⟨t.val % 4, slot_lt L t⟩ : Fin 4) (⟨128 * g.val + j.val, by omega⟩ : Fin 640))).toNat
      = (fiB m d L (ix1 (⟨640 * (sW L + t.val) + (128 * g.val + j.val), by omega⟩ : Fin 3200000))).toNat :=
    congrArg BitVec.toNat hidx
  obtain ⟨W, hWdef⟩ : ∃ W, (fiB m d L (ix1 (⟨640 * (sW L + t.val) + (128 * g.val + j.val), by omega⟩ : Fin 3200000))).toNat = W := ⟨_, rfl⟩
  rw [hWdef] at hW hword
  have hi : (⟨640 * (sW L + t.val) + (128 * g.val + j.val), by omega⟩ : Fin 3200000).val
      = (⟨5 * (sW L + t.val) + g.val, rowPos_lt L (trip_lt L t) g⟩ : Fin 25000).val * 128 + j.val := by
    show 640 * (sW L + t.val) + (128 * g.val + j.val) = (5 * (sW L + t.val) + g.val) * 128 + j.val
    omega
  constructor
  · rw [h0]
    have hk : W * 256 + r.val * 16 + j.val % 16 < 25600 := by omega
    refine ((congrArg (fun k => ftv (ix1 k)) (Fin.ext ?_ : _ = (⟨(⟨W * 256 + r.val * 16 + j.val % 16, hk⟩ : Fin 25600).val, by omega⟩ : Fin 25840))).trans
      (htv ⟨W * 256 + r.val * 16 + j.val % 16, hk⟩)).trans ?_
    · show (fd _).toNat % 100 * 256 + r.val * 16 + j.val % 16 = W * 256 + r.val * 16 + j.val % 16
      rw [hword, Nat.mod_eq_of_lt hW]
    · exact (Gout_at (m (idxLoc d)) (Cert.RefSide.tabRep (m (tblLoc d))) (0 : Fin 2) _ r j _ hi W hW hWdef
        ⟨W * 256 + r.val * 16 + j.val % 16, hk⟩ (by show W * 256 + r.val * 16 + j.val % 16 = W * 256 + (0 * 8 + r.val) * 16 + j.val % 16; omega)).symm
  · rw [h1]
    have hk : W * 256 + (8 + r.val) * 16 + j.val % 16 < 25600 := by omega
    refine ((congrArg (fun k => ftv (ix1 k)) (Fin.ext ?_ : _ = (⟨(⟨W * 256 + (8 + r.val) * 16 + j.val % 16, hk⟩ : Fin 25600).val, by omega⟩ : Fin 25840))).trans
      (htv ⟨W * 256 + (8 + r.val) * 16 + j.val % 16, hk⟩)).trans ?_
    · show (fd _).toNat % 100 * 256 + (8 + r.val) * 16 + j.val % 16 = W * 256 + (8 + r.val) * 16 + j.val % 16
      rw [hword, Nat.mod_eq_of_lt hW]
    · exact (Gout_at (m (idxLoc d)) (Cert.RefSide.tabRep (m (tblLoc d))) (1 : Fin 2) _ r j _ hi W hW hWdef
        ⟨W * 256 + (8 + r.val) * 16 + j.val % 16, hk⟩ (by show W * 256 + (8 + r.val) * 16 + j.val % 16 = W * 256 + (1 * 8 + r.val) * 16 + j.val % 16; omega)).symm

/-- A write-back landed, read at the chunk's element number `x`: the half-slot's element number `x`. -/
theorem landedO_apply (o : Fin 5 → Nat) (ho : ∀ a, o a + S1x1x5x8x128.size a ≤ S4x2x5x8x128.size a)
    (c : Fin 4 → Nat) (gc : ∀ a, c a + S1x5x8x128.size a ≤ S2x25000x8x128.size a)
    (fo : Buf (Elt F) (ovM.view.loc (thrOf d L))) (fdd : Buf (Elt F) (outM.view.loc (thrOf d L))) (x : S5x8x128.Idx) :
    landedO d L (ovSlot o ho) (outChunk c gc) fo fdd ((outChunk c gc).view.emb x) = fo ((ovSlot o ho).view.emb x) := by
  have h := writes_one_emb (F := F) (outChunk c gc).view fdd (Rect.whole S5x8x128)
    (ReadAs.same.apply ((ovSlot o ho).view.read (Elt F) fo)) x
  rw [Rect.emb_whole_apply] at h
  exact h

/-- A half-slot that holds the lookup's values for chunk `c`, landed on that chunk's half of the result, is the
    result's final contents there. -/
theorem landed_gout (c : ℕ) (hc : c < nW L)
    (o0 : Fin 5 → Nat) (h0 : ∀ a, o0 a + S1x1x5x8x128.size a ≤ S4x2x5x8x128.size a) (e0 : o0 = ![c % 4, 0, 0, 0, 0])
    (o1 : Fin 5 → Nat) (h1 : ∀ a, o1 a + S1x1x5x8x128.size a ≤ S4x2x5x8x128.size a) (e1 : o1 = ![c % 4, 1, 0, 0, 0])
    (fo0 fo1 : Buf (Elt F) (ovM.view.loc (thrOf d L))) (hfo : goodOut m d L c hc fo0 fo1) :
    (OutPieceAt d L ![0, 5 * (sW L + c), 0, 0] (inb_out Nat.zero_lt_two (chunkW_lt L hc))
        (landedO d L (ovSlot o0 h0) (outChunk ![0, 5 * (sW L + c), 0, 0] (inb_out Nat.zero_lt_two (chunkW_lt L hc))) fo0 (foutB m d L))
      = OutPieceAt d L ![0, 5 * (sW L + c), 0, 0] (inb_out Nat.zero_lt_two (chunkW_lt L hc)) (goutB m d L))
    ∧ (OutPieceAt d L ![1, 5 * (sW L + c), 0, 0] (inb_out Nat.one_lt_two (chunkW_lt L hc))
        (landedO d L (ovSlot o1 h1) (outChunk ![1, 5 * (sW L + c), 0, 0] (inb_out Nat.one_lt_two (chunkW_lt L hc))) fo1 (foutB m d L))
      = OutPieceAt d L ![1, 5 * (sW L + c), 0, 0] (inb_out Nat.one_lt_two (chunkW_lt L hc)) (goutB m d L)) := by
  subst e0 e1
  constructor
  · rw [OutPieceAt_def, OutPieceAt_def]
    refine pointsTo_congr fun i hi => ?_
    obtain ⟨x, -, rfl⟩ := Finset.mem_map.mp hi
    obtain ⟨g, r, j, rfl⟩ : ∃ g r j, x = ix3 g r j := ⟨x 0, x 1, x 2, eq_ix3 x⟩
    rw [landedO_apply, emb_ovSlot (c % 4) 0 (mod4_lt c) Nat.zero_lt_two, emb_outChunk 0 (sW L + c) Nat.zero_lt_two (chunkW_lt L hc)]
    exact (hfo g r j).1
  · rw [OutPieceAt_def, OutPieceAt_def]
    refine pointsTo_congr fun i hi => ?_
    obtain ⟨x, -, rfl⟩ := Finset.mem_map.mp hi
    obtain ⟨g, r, j, rfl⟩ : ∃ g r j, x = ix3 g r j := ⟨x 0, x 1, x 2, eq_ix3 x⟩
    rw [landedO_apply, emb_ovSlot (c % 4) 1 (mod4_lt c) Nat.one_lt_two, emb_outChunk 1 (sW L + c) Nat.one_lt_two (chunkW_lt L hc)]
    exact (hfo g r j).2

/-- What a fetch of chunk `b`'s indices delivers into row `b % 4` of the index scratch: the chunk's indices. -/
theorem fetched_good (b : ℕ) (hb : b < nW L) (ov : Fin 2 → Nat) (hv : ∀ a, ov a + S1x640.size a ≤ S4x640.size a) (ev : ov = ![b % 4, 0])
    (oc : Fin 1 → Nat) (hc : ∀ a, oc a + S640.size a ≤ S3200000.size a) (ec : oc = ![640 * (sW L + b)])
    (fd : Buf (Elt F) (ivM.view.loc (thrOf d L))) :
    goodIdx m d L b hb ((ivSlot ov hv).view.writes (Elt F) fd
      [⟨Rect.whole S640, ReadAs.same.apply ((idxChunk oc hc).view.read (Elt F) (fiB m d L))⟩]) := by
  subst ev ec
  intro j
  have h := writes_one_emb (F := F) (ivSlot ![b % 4, 0] hv).view fd (Rect.whole S640)
    (ReadAs.same.apply ((idxChunk ![640 * (sW L + b)] hc).view.read (Elt F) (fiB m d L))) (ix1 j)
  rw [Rect.emb_whole_apply, emb_ivSlot (b % 4) (mod4_lt b) j] at h
  refine h.trans ?_
  show fiB m d L ((idxChunk ![640 * (sW L + b)] hc).view.emb (ix1 j)) = _
  rw [emb_idxChunk (sW L + b) (chunkW_lt L hb) j]

/-- The table scratch after the repeated table is copied into its first 25600 words holds it there. -/
theorem tv_good (ftv0 : Buf (Elt F) (tvM.view.loc (thrOf d L))) (h : ∀ a, (![0] : Fin 1 → Nat) a + S25600.size a ≤ S25840.size a) :
    goodTv m d L (tvM.view.writes (Elt F) ftv0
      [⟨Rect.unit (s := S25840) ![0] S25600.size h, ReadAs.same.apply (tabM.view.read (Elt F) (Cert.RefSide.tabRep (m (tblLoc d))))⟩]) := by
  intro k
  have h1 := writes_one_emb (F := F) tvM.view ftv0 (Rect.unit (s := S25840) ![0] S25600.size h)
    (ReadAs.same.apply (tabM.view.read (Elt F) (Cert.RefSide.tabRep (m (tblLoc d))))) (ix1 k)
  have e : (Rect.unit (s := S25840) ![0] S25600.size h).emb (ix1 k) = (ix1 (⟨k.val, by have := k.isLt; omega⟩ : Fin 25840) : S25840.Idx) := by
    funext a
    refine Fin.ext ?_
    rw [Rect.emb_apply]
    fin_cases a; simp
  rw [e] at h1
  exact h1

end Cert.Proof.KernelIdealSc

end
-- ==== Proof.ScTrip.lean ====
import proofs.«202852_g34127810134284_cont_8to1_b_1476_20_alg».proof.Proof.ScRing
import proofs.«202852_g34127810134284_cont_8to1_b_1476_20_alg».proof.Proof.ScInnerSpec
import proofs.«202852_g34127810134284_cont_8to1_b_1476_20_alg».proof.Proof.ScVals
import Idealize.ShloMosaic.Lib.SparseCore.Launch
import Idealize.ShloMosaic.Lib.SparseCore.Ops
import Idealize.ShloMosaic.Lib.StableHlo.Run
import Idealize.ShloMosaic.Lib.Tactic

/-!
# One trip of the tile's outer loop

Trip `t` works in slot `t % 4`: it awaits the indices of chunk `t`, awaits (from the fifth trip on) the two
write-backs of chunk `t - 4` that still read the slot's output halves, computes chunk `t` into those halves,
starts their two write-backs, and (while the worker has a chunk `t + 4`) starts the fetch of its indices
into the row just read. Between the first and the last await of the write-backs nothing touches their halves
or their chunk of the result, so the two together may share one semaphore.
-/

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## Pieces at an offset vector, and their unfoldings -/

theorem outPiece_at (f : Buf (Elt F) (outLoc d)) (b : Fin (nW L)) (h : Fin 2) :
    outPiece d L f b h = OutPieceAt d L ![h.val, 5 * (sW L + b.val), 0, 0] (inb_out h.isLt (chunkW_lt L b.isLt)) f := rfl

theorem IdxBusyAt_def (os : Fin 1 → Nat) (hs : ∀ a, os a + S1.size a ≤ S4.size a) (ov : Fin 2 → Nat) (hv : ∀ a, ov a + S1x640.size a ≤ S4x640.size a)
    (oc : Fin 1 → Nat) (hc : ∀ a, oc a + S640.size a ≤ S3200000.size a) (tok : PosShare TreeShare)
    (P : Buf (Elt F) (ivM.view.loc (thrOf d L)) → Prop) :
    IdxBusyAt m d L os hs ov hv oc hc tok P
      = iprop(∃ fd : Buf (Elt F) (ivM.view.loc (thrOf d L)),
          Transfers.Flight countersEmb (thrOf d L) (SemLoc.dma (isemAt os hs).sem) default 20480
              iprop(((ivSlot ov hv).view.loc (thrOf d L) ↦[(ivSlot ov hv).view.set]{fullShare} fd)
                ∗ (idxM.view.loc (thrOf d L) ↦[(idxChunk oc hc).view.set]{tok} fiB m d L))
            ∗ (idxM.view.loc (thrOf d L) ↦[Finset.univ \ (idxChunk oc hc).view.set]{tok} fiB m d L)
            ∗ ⌜P fd⌝) := rfl

theorem IdxIdleAt_def (os : Fin 1 → Nat) (hs : ∀ a, os a + S1.size a ≤ S4.size a) (ov : Fin 2 → Nat) (hv : ∀ a, ov a + S1x640.size a ≤ S4x640.size a)
    (tok : PosShare TreeShare) :
    IdxIdleAt m d L os hs ov hv tok
      = iprop(semVal (thrOf d L, SemLoc.dma (isemAt os hs).sem) 0
          ∗ (∃ f, (ivSlot ov hv).view.loc (thrOf d L) ↦[(ivSlot ov hv).view.set]{fullShare} f)
          ∗ (idxM.view.loc (thrOf d L) ↦{tok} fiB m d L)) := rfl

theorem OutBusyAt_def (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a)
    (c0 : Fin 4 → Nat) (g0 : ∀ a, c0 a + S1x5x8x128.size a ≤ S2x25000x8x128.size a)
    (c1 : Fin 4 → Nat) (g1 : ∀ a, c1 a + S1x5x8x128.size a ≤ S2x25000x8x128.size a)
    (P : Buf (Elt F) (ovM.view.loc (thrOf d L)) → Buf (Elt F) (ovM.view.loc (thrOf d L)) → Prop) :
    OutBusyAt m d L os hs o0 h0 o1 h1 c0 g0 c1 g1 P
      = iprop(∃ fo0 fo1 : Buf (Elt F) (ovM.view.loc (thrOf d L)),
          Transfers.Batch countersEmb (thrOf d L) (SemLoc.dma (osemAt os hs).sem) default
              ((outChunk c0 g0).view.amount (SemLoc.dma (sig := sig) (osemAt os hs).sem))
              (pair2 (delivO d L (ovSlot o0 h0) (outChunk c0 g0) fo0 (foutB m d L)) (delivO d L (ovSlot o1 h1) (outChunk c1 g1) fo1 (foutB m d L))) 2 0
            ∗ ⌜P fo0 fo1⌝) := rfl

theorem OutIdleAt_def (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a) :
    OutIdleAt (F := F) d L os hs o0 h0 o1 h1
      = iprop(semVal (thrOf d L, SemLoc.dma (osemAt os hs).sem) 0
          ∗ (∃ f, (ovSlot o0 h0).view.loc (thrOf d L) ↦[(ovSlot o0 h0).view.set]{fullShare} f)
          ∗ (∃ f, (ovSlot o1 h1).view.loc (thrOf d L) ↦[(ovSlot o1 h1).view.set]{fullShare} f)) := rfl

theorem tokW_congr {e e' : ℕ} (h : e = e') (he : e < 4) (he' : e' < 4) : tokW L e he = tokW L e' he' := by subst h; rfl

variable [FloatOps F]

/-! ## Waits recorded at the kernel's own index -/

theorem waits_base (W : Waits sig (HIx 1)) : ∀ p ∈ W, p ∈ W ∨ p.2 = none := fun _ hp => .inl hp
theorem waits_ins {W W' : Waits sig (HIx 1)} {s : SemLoc sig} (h : ∀ p ∈ W', p ∈ W ∨ p.2 = none) :
    ∀ p ∈ insert (s, (default : HIx 1)) W', p ∈ W ∨ p.2 = none :=
  fun p hp => (Finset.mem_insert.mp hp).elim (fun e => .inr (e ▸ rfl)) (h p)

/-! ## The pure facts of a trip -/

theorem goodOut_congr {c c' : ℕ} (h : c = c') (hc : c < nW L) (hc' : c' < nW L) (fo0 fo1 : Buf (Elt F) (ovM.view.loc (thrOf d L))) :
    goodOut m d L c hc fo0 fo1 ↔ goodOut m d L c' hc' fo0 fo1 := by subst h; exact Iff.rfl

/-! ## The trip -/

set_option maxHeartbeats 8000000 in
/-- Trip `t`: from the ring before it to the ring after it, chunk `t - 4` (if any) finished. -/
theorem trip_step (hin : InnerSpec (F := F) d L) (hpre : ∀ i, (fiB m d L i).toNat < 100)
    (O : CellTallies nD τ sig (HIx 1)) (W : Waits sig (HIx 1)) (t : Fin (k0_t1_loop L).trips) (v4 : BitVec 32)
    (v8 : IVec S16 32) (hv8 : v8 = lanesV)
    (ftv : Buf (Elt F) (tvM.view.loc (thrOf d L))) (htv : goodTv m d L ftv) :
    iprop(Transfers.MayWaits (thrOf d L) (none : HIx 1) O
        ∗ IdxSt m d L t.val ∗ OutSt m d L t.val
        ∗ (tvM.view.loc (thrOf d L) ↦{fullShare} ftv)
        ∗ outBoth d L (m (outLoc d)) ⟨t.val, trip_lt L t⟩
        ∗ owes (thrOf d L) O W)
      ⊢ wp frame (wpE (defs₀ (F := F)) 𝒱₀ (thrOf d L) none) Set.univ
          (k0_t1_body L idxM (Memref.isWhole_whole _) tabM (Memref.isWhole_whole _) outM (Memref.isWhole_whole _)
            tvM (Memref.isWhole_whole _) ivM (Memref.isWhole_whole _) ovM (Memref.isWhole_whole _) cc0_scratch3 cc0_scratch4 cc0_scoped0
            v4 v8 0#32 t ())
          fun _ => iprop(IdxSt m d L (t.val + 4) ∗ OutSt m d L (t.val + 4)
            ∗ (tvM.view.loc (thrOf d L) ↦{fullShare} ftv)
            ∗ (if h : 4 ≤ t.val then outBoth d L (goutB m d L) ⟨t.val - 4, by have := trip_lt L t; omega⟩ else iprop(emp))
            ∗ ∃ W', ⌜∀ p ∈ W', p ∈ W ∨ p.2 = none⌝ ∗ owes (thrOf d L) O W') := by
  subst hv8
  have ht := trip_lt L t
  have ht157 : t.val < 157 := Nat.lt_of_lt_of_le t.isLt (k0_t1_abs L).2.1
  have hsl := slot_lt L t
  -- the index side of the trip's slot is fetching chunk `t`: as the trip names its pieces
  have eIdx : IdxSt m d L t.val
      = IdxBusyAt m d L (k0_off7 L t) (k0_off7_inb L t) (k0_off5 L t) (k0_off5_inb L t) (k0_off6 L t) (k0_off6_inb L t)
          (tokW L (t.val % 4) hsl) (goodIdx m d L t.val ht) := by
    unfold IdxSt; rw [dif_pos ht]
    exact IdxBusyAt_congr m d L (k0_off7_eq L t).symm (k0_off5_eq L t).symm ((k0_off6_eq L t).trans (by rw [idx_off L t.val])).symm _ _ _ _ _ _ _ _
  -- chunk `t`'s two halves of the result, as the trip names them
  have eC0 : outPiece d L (m (outLoc d)) ⟨t.val, ht⟩ 0 = OutPieceAt d L (k0_off143 L t) (k0_off143_inb L t) (foutB m d L) :=
    (outPiece_at d L _ _ _).trans (OutPieceAt_congr d L ((k0_off143_eq L t).trans (by rw [row_off L t.val] <;> rfl)).symm _ _ _)
  have eC1 : outPiece d L (m (outLoc d)) ⟨t.val, ht⟩ 1 = OutPieceAt d L (k0_off145 L t) (k0_off145_inb L t) (foutB m d L) :=
    (outPiece_at d L _ _ _).trans (OutPieceAt_congr d L ((k0_off145_eq L t).trans (by rw [row_off L t.val] <;> rfl)).symm _ _ _)
  iintro ⟨#Hmw, HI, HOu, Htv, ⟨Hc0, Hc1⟩, HO⟩
  ihave HI := (Entails.of_eq (eIdx.trans (IdxBusyAt_def m d L _ _ _ _ _ _ _ _))) $$ HI
  icases HI with ⟨%fd, Hfl, Hrest, %hfd⟩
  ihave Hc0 := (Entails.of_eq (eC0.trans (OutPieceAt_def d L _ _ _))) $$ Hc0
  ihave Hc1 := (Entails.of_eq (eC1.trans (OutPieceAt_def d L _ _ _))) $$ Hc1
  have hrange : ∀ j : Fin 640, (fd (ix2 (⟨t.val % 4, hsl⟩ : Fin 4) j)).toNat < 100 := fun j => by rw [hfd j]; exact hpre _
  by_cases h4 : 4 ≤ t.val
  · have k0_h5 : k0_cond5 L t = 1#1 := (cond5_iff L t).mpr h4
    have hb : 4 ≤ t.val ∧ t.val < nW L + 4 := ⟨h4, Nat.lt_add_right 4 ht⟩
    have hm4 : (t.val - 4) % 4 = t.val % 4 := by omega
    have eOut : OutSt m d L t.val
        = OutBusyAt m d L (k0_off10 L t) (k0_off10_inb L t k0_h5) (k0_off142 L t) (k0_off142_inb L t) (k0_off144 L t) (k0_off144_inb L t)
            ![0, 5 * (sW L + (t.val - 4)), 0, 0] (inb_out (by decide) (chunkW_lt L (outChunk_lt L hb)))
            ![1, 5 * (sW L + (t.val - 4)), 0, 0] (inb_out (by decide) (chunkW_lt L (outChunk_lt L hb)))
            (goodOut m d L (t.val - 4) (outChunk_lt L hb)) := by
      unfold OutSt; rw [dif_pos hb]
      exact OutBusyAt_congr m d L (k0_off10_eq L t).symm (k0_off142_eq L t).symm (k0_off144_eq L t).symm rfl rfl _ _ _ _ _ _ _ _ _ _ _
    ihave HOu := (Entails.of_eq (eOut.trans (OutBusyAt_def m d L _ _ _ _ _ _ _ _ _ _ _))) $$ HOu
    icases HOu with ⟨%fo0, %fo1, HB, %hfo⟩
    sl_unfold [k0_t1_body]
    sl_unfold [k0_part30]
    sl_exec
    -- the two halves of chunk `t - 4` have landed: they are the result's final contents there
    have hl := landed_gout m d L (t.val - 4) (outChunk_lt L hb) (k0_off142 L t) (k0_off142_inb L t) ((k0_off142_eq L t).trans (by rw [hm4]))
      (k0_off144 L t) (k0_off144_inb L t) ((k0_off144_eq L t).trans (by rw [hm4])) fo0 fo1 hfo
    ihave Hd0 := (Entails.of_eq (((OutPieceAt_def d L _ _ _).symm.trans hl.1).trans (outPiece_at d L (goutB m d L) ⟨t.val - 4, outChunk_lt L hb⟩ 0).symm)) $$ HB_dst0
    ihave Hd1 := (Entails.of_eq (((OutPieceAt_def d L _ _ _).symm.trans hl.2).trans (outPiece_at d L (goutB m d L) ⟨t.val - 4, outChunk_lt L hb⟩ 1).symm)) $$ HB_dst1
    ihave HB := (Entails.of_eq (congrArg (fun o => (semVal (thrOf d L, SemLoc.dma o.sem) 0 : sProp 𝕄)) (osemAt_congr ((k0_off10_eq L t).trans (k0_off7_eq L t).symm) (k0_off10_inb L t k0_h5) (k0_off7_inb L t)))) $$ HB
    rw [wp_bind, wp_bind]
    iapply (wp_wand_r frame _ Set.univ (Q := fun _ => iprop(∃ fo0' fo1' : Buf (Elt F) (ovM.view.loc (thrOf d L)),
            (tvM.view.loc (thrOf d L) ↦{fullShare} ftv)
            ∗ ((ivSlot (k0_off5 L t) (k0_off5_inb L t)).view.loc (thrOf d L) ↦[(ivSlot (k0_off5 L t) (k0_off5_inb L t)).view.set]{fullShare} fd)
            ∗ ((ovSlot (k0_off142 L t) (k0_off142_inb L t)).view.loc (thrOf d L) ↦[(ovSlot (k0_off142 L t) (k0_off142_inb L t)).view.set]{fullShare} fo0')
            ∗ ((ovSlot (k0_off144 L t) (k0_off144_inb L t)).view.loc (thrOf d L) ↦[(ovSlot (k0_off144 L t) (k0_off144_inb L t)).view.set]{fullShare} fo1')
            ∗ ⌜InnerVal d L t ftv fd fo0' fo1'⌝)))
    isplitl [Htv Hfl_dst HB_src0 HB_src1]
    · iapply (hin t v4 _ ftv fd fo0 fo1 hrange)
      isplitl [Htv]; · iexact Htv
      isplitl [Hfl_dst]; · iexact Hfl_dst
      isplitl [HB_src0]; · iexact HB_src0
      iexact HB_src1
    iintro %_ ⟨%fo0', %fo1', Htv, Hiv, Ho0, Ho1, %hval⟩
    have hgo : goodOut m d L t.val ht fo0' fo1' := goodOut_of_inner m d L hpre t ftv htv fd hfd fo0' fo1' hval
    imod (Transfers.batch_alloc' (Lvl := ℕ) countersEmb (thrOf d L) (default : HIx 1)
        ((outChunk (k0_off143 L t) (k0_off143_inb L t)).view.amount (SemLoc.dma (sig := sig) (osemAt (k0_off7 L t) (k0_off7_inb L t)).sem))
        (pair2 (delivO d L (ovSlot (k0_off142 L t) (k0_off142_inb L t)) (outChunk (k0_off143 L t) (k0_off143_inb L t)) fo0' (foutB m d L))
          (delivO d L (ovSlot (k0_off144 L t) (k0_off144_inb L t)) (outChunk (k0_off145 L t) (k0_off145_inb L t)) fo1' (foutB m d L)))
        (sm := SemLoc.dma (osemAt (k0_off7 L t) (k0_off7_inb L t)).sem) (E := Set.univ)) $$ HB with HB
    have eO4 : OutSt m d L (t.val + 4)
        = OutBusyAt m d L (k0_off7 L t) (k0_off7_inb L t) (k0_off142 L t) (k0_off142_inb L t) (k0_off144 L t) (k0_off144_inb L t)
            (k0_off143 L t) (k0_off143_inb L t) (k0_off145 L t) (k0_off145_inb L t)
            (goodOut m d L (t.val + 4 - 4) (outChunk_lt L ⟨Nat.le_add_left 4 t.val, Nat.add_lt_add_right ht 4⟩)) := by
      unfold OutSt; rw [dif_pos (⟨Nat.le_add_left 4 t.val, Nat.add_lt_add_right ht 4⟩ : 4 ≤ t.val + 4 ∧ t.val + 4 < nW L + 4)]
      exact OutBusyAt_congr m d L (off7_num L t).symm (off142_num L t).symm (off144_num L t).symm (off143_num L t).symm (off145_num L t).symm _ _ _ _ _ _ _ _ _ _ _
    have hgo4 : goodOut m d L (t.val + 4 - 4) (outChunk_lt L ⟨Nat.le_add_left 4 t.val, Nat.add_lt_add_right ht 4⟩) fo0' fo1' :=
      (goodOut_congr m d L (Nat.add_sub_cancel t.val 4) _ ht fo0' fo1').mpr hgo
    by_cases h6 : t.val + 4 < (k0_t1_loop L).trips
    · have k0_h6 : k0_cond6 L t = 1#1 := (cond6_iff L t).mpr h6
      have h6n : t.val + 4 < nW L := Nat.lt_of_lt_of_eq h6 (t1_trips L)
      sl_exec
      sl_step
      have eI4 : IdxSt m d L (t.val + 4)
          = IdxBusyAt m d L (k0_off7 L t) (k0_off7_inb L t) (k0_off5 L t) (k0_off5_inb L t) (k0_off147 L t) (k0_off147_inb L t k0_h6)
              (tokW L (t.val % 4) hsl) (goodIdx m d L (t.val + 4) h6n) := by
        unfold IdxSt; rw [dif_pos h6n, tokW_congr L (mod4_add4 t.val) (mod4_lt _) hsl]
        exact IdxBusyAt_congr m d L (off7_num L t).symm (off5_num L t).symm (off147_num L t).symm _ _ _ _ _ _ _ _
      rw [eI4, eO4, IdxBusyAt_def, OutBusyAt_def]
      isplitl [Hfl Hrest]
      · iexists _
        isplitl [Hfl]; · iexact Hfl
        isplitl [Hrest]; · iexact Hrest
        ipureintro
        sl_unfold_run_names
        exact fetched_good m d L (t.val + 4) h6n (k0_off5 L t) (k0_off5_inb L t) (off5_num L t) (k0_off147 L t) (k0_off147_inb L t k0_h6) (off147_num L t) fd
      isplitl [HB]
      · iexists fo0', fo1'
        isplitl [HB]; · iexact HB
        ipureintro; exact hgo4
      isplitl [Htv]; · iexact Htv
      rw [dif_pos h4]
      isplitl [Hd0 Hd1]
      · isplitl [Hd0]; · iexact Hd0
        iexact Hd1
      iexists _; isplitr
      rotate_left
      · iexact HO
      · ipureintro; exact waits_ins (waits_ins (waits_ins (waits_base W)))
    · have k0_h6 : ¬ k0_cond6 L t = 1#1 := fun h => h6 ((cond6_iff L t).mp h)
      have h6n : ¬ t.val + 4 < nW L := fun h => h6 (Nat.lt_of_lt_of_eq h (t1_trips L).symm)
      sl_exec
      sl_step
      have eI4 : IdxSt m d L (t.val + 4)
          = IdxIdleAt m d L (k0_off7 L t) (k0_off7_inb L t) (k0_off5 L t) (k0_off5_inb L t) (tokW L (t.val % 4) hsl) := by
        unfold IdxSt; rw [dif_neg h6n, tokW_congr L (mod4_add4 t.val) (mod4_lt _) hsl]
        exact IdxIdleAt_congr m d L (off7_num L t).symm (off5_num L t).symm _ _ _ _ _
      rw [eI4, eO4, IdxIdleAt_def, OutBusyAt_def]
      isplitl [Hfl Hiv Hrest]
      · isplitl [Hfl]; · iexact Hfl
        isplitl [Hiv]; · iexists _; iexact Hiv
        iexact Hrest
      isplitl [HB]
      · iexists fo0', fo1'
        isplitl [HB]; · iexact HB
        ipureintro; exact hgo4
      isplitl [Htv]; · iexact Htv
      rw [dif_pos h4]
      isplitl [Hd0 Hd1]
      · isplitl [Hd0]; · iexact Hd0
        iexact Hd1
      iexists _; isplitr
      rotate_left
      · iexact HO
      · ipureintro; exact waits_ins (waits_ins (waits_ins (waits_base W)))
  · have k0_h5 : ¬ k0_cond5 L t = 1#1 := fun h => h4 ((cond5_iff L t).mp h)
    have hb : ¬ (4 ≤ t.val ∧ t.val < nW L + 4) := fun h => h4 h.1
    have eOut : OutSt m d L t.val
        = OutIdleAt (F := F) d L (k0_off7 L t) (k0_off7_inb L t) (k0_off142 L t) (k0_off142_inb L t) (k0_off144 L t) (k0_off144_inb L t) := by
      unfold OutSt; rw [dif_neg hb]
      exact OutIdleAt_congr d L (k0_off7_eq L t).symm (k0_off142_eq L t).symm (k0_off144_eq L t).symm _ _ _ _ _ _
    ihave HOu := (Entails.of_eq (eOut.trans (OutIdleAt_def d L _ _ _ _ _ _))) $$ HOu
    icases HOu with ⟨HB, ⟨%fo0, HB_src0⟩, ⟨%fo1, HB_src1⟩⟩
    sl_unfold [k0_t1_body]
    sl_unfold [k0_part30]
    sl_exec
    rw [wp_bind, wp_bind]
    iapply (wp_wand_r frame _ Set.univ (Q := fun _ => iprop(∃ fo0' fo1' : Buf (Elt F) (ovM.view.loc (thrOf d L)),
            (tvM.view.loc (thrOf d L) ↦{fullShare} ftv)
            ∗ ((ivSlot (k0_off5 L t) (k0_off5_inb L t)).view.loc (thrOf d L) ↦[(ivSlot (k0_off5 L t) (k0_off5_inb L t)).view.set]{fullShare} fd)
            ∗ ((ovSlot (k0_off142 L t) (k0_off142_inb L t)).view.loc (thrOf d L) ↦[(ovSlot (k0_off142 L t) (k0_off142_inb L t)).view.set]{fullShare} fo0')
            ∗ ((ovSlot (k0_off144 L t) (k0_off144_inb L t)).view.loc (thrOf d L) ↦[(ovSlot (k0_off144 L t) (k0_off144_inb L t)).view.set]{fullShare} fo1')
            ∗ ⌜InnerVal d L t ftv fd fo0' fo1'⌝)))
    isplitl [Htv Hfl_dst HB_src0 HB_src1]
    · iapply (hin t v4 _ ftv fd fo0 fo1 hrange)
      isplitl [Htv]; · iexact Htv
      isplitl [Hfl_dst]; · iexact Hfl_dst
      isplitl [HB_src0]; · iexact HB_src0
      iexact HB_src1
    iintro %_ ⟨%fo0', %fo1', Htv, Hiv, Ho0, Ho1, %hval⟩
    have hgo : goodOut m d L t.val ht fo0' fo1' := goodOut_of_inner m d L hpre t ftv htv fd hfd fo0' fo1' hval
    imod (Transfers.batch_alloc' (Lvl := ℕ) countersEmb (thrOf d L) (default : HIx 1)
        ((outChunk (k0_off143 L t) (k0_off143_inb L t)).view.amount (SemLoc.dma (sig := sig) (osemAt (k0_off7 L t) (k0_off7_inb L t)).sem))
        (pair2 (delivO d L (ovSlot (k0_off142 L t) (k0_off142_inb L t)) (outChunk (k0_off143 L t) (k0_off143_inb L t)) fo0' (foutB m d L))
          (delivO d L (ovSlot (k0_off144 L t) (k0_off144_inb L t)) (outChunk (k0_off145 L t) (k0_off145_inb L t)) fo1' (foutB m d L)))
        (sm := SemLoc.dma (osemAt (k0_off7 L t) (k0_off7_inb L t)).sem) (E := Set.univ)) $$ HB with HB
    have eO4 : OutSt m d L (t.val + 4)
        = OutBusyAt m d L (k0_off7 L t) (k0_off7_inb L t) (k0_off142 L t) (k0_off142_inb L t) (k0_off144 L t) (k0_off144_inb L t)
            (k0_off143 L t) (k0_off143_inb L t) (k0_off145 L t) (k0_off145_inb L t)
            (goodOut m d L (t.val + 4 - 4) (outChunk_lt L ⟨Nat.le_add_left 4 t.val, Nat.add_lt_add_right ht 4⟩)) := by
      unfold OutSt; rw [dif_pos (⟨Nat.le_add_left 4 t.val, Nat.add_lt_add_right ht 4⟩ : 4 ≤ t.val + 4 ∧ t.val + 4 < nW L + 4)]
      exact OutBusyAt_congr m d L (off7_num L t).symm (off142_num L t).symm (off144_num L t).symm (off143_num L t).symm (off145_num L t).symm _ _ _ _ _ _ _ _ _ _ _
    have hgo4 : goodOut m d L (t.val + 4 - 4) (outChunk_lt L ⟨Nat.le_add_left 4 t.val, Nat.add_lt_add_right ht 4⟩) fo0' fo1' :=
      (goodOut_congr m d L (Nat.add_sub_cancel t.val 4) _ ht fo0' fo1').mpr hgo
    by_cases h6 : t.val + 4 < (k0_t1_loop L).trips
    · have k0_h6 : k0_cond6 L t = 1#1 := (cond6_iff L t).mpr h6
      have h6n : t.val + 4 < nW L := Nat.lt_of_lt_of_eq h6 (t1_trips L)
      sl_exec
      sl_step
      have eI4 : IdxSt m d L (t.val + 4)
          = IdxBusyAt m d L (k0_off7 L t) (k0_off7_inb L t) (k0_off5 L t) (k0_off5_inb L t) (k0_off147 L t) (k0_off147_inb L t k0_h6)
              (tokW L (t.val % 4) hsl) (goodIdx m d L (t.val + 4) h6n) := by
        unfold IdxSt; rw [dif_pos h6n, tokW_congr L (mod4_add4 t.val) (mod4_lt _) hsl]
        exact IdxBusyAt_congr m d L (off7_num L t).symm (off5_num L t).symm (off147_num L t).symm _ _ _ _ _ _ _ _
      rw [eI4, eO4, IdxBusyAt_def, OutBusyAt_def]
      isplitl [Hfl Hrest]
      · iexists _
        isplitl [Hfl]; · iexact Hfl
        isplitl [Hrest]; · iexact Hrest
        ipureintro
        sl_unfold_run_names
        exact fetched_good m d L (t.val + 4) h6n (k0_off5 L t) (k0_off5_inb L t) (off5_num L t) (k0_off147 L t) (k0_off147_inb L t k0_h6) (off147_num L t) fd
      isplitl [HB]
      · iexists fo0', fo1'
        isplitl [HB]; · iexact HB
        ipureintro; exact hgo4
      isplitl [Htv]; · iexact Htv
      rw [dif_neg h4]
      isplitr; · iempintro
      iexists _; isplitr
      rotate_left
      · iexact HO
      · ipureintro; exact waits_ins (waits_base W)
    · have k0_h6 : ¬ k0_cond6 L t = 1#1 := fun h => h6 ((cond6_iff L t).mp h)
      have h6n : ¬ t.val + 4 < nW L := fun h => h6 (Nat.lt_of_lt_of_eq h (t1_trips L).symm)
      sl_exec
      sl_step
      have eI4 : IdxSt m d L (t.val + 4)
          = IdxIdleAt m d L (k0_off7 L t) (k0_off7_inb L t) (k0_off5 L t) (k0_off5_inb L t) (tokW L (t.val % 4) hsl) := by
        unfold IdxSt; rw [dif_neg h6n, tokW_congr L (mod4_add4 t.val) (mod4_lt _) hsl]
        exact IdxIdleAt_congr m d L (off7_num L t).symm (off5_num L t).symm _ _ _ _ _
      rw [eI4, eO4, IdxIdleAt_def, OutBusyAt_def]
      isplitl [Hfl Hiv Hrest]
      · isplitl [Hfl]; · iexact Hfl
        isplitl [Hiv]; · iexists _; iexact Hiv
        iexact Hrest
      isplitl [HB]
      · iexists fo0', fo1'
        isplitl [HB]; · iexact HB
        ipureintro; exact hgo4
      isplitl [Htv]; · iexact Htv
      rw [dif_neg h4]
      isplitr; · iempintro
      iexists _; isplitr
      rotate_left
      · iexact HO
      · ipureintro; exact waits_ins (waits_base W)

end Cert.Proof.KernelIdealSc

end
-- ==== Proof.ScStart.lean ====
import proofs.«202852_g34127810134284_cont_8to1_b_1476_20_alg».proof.Proof.ScTrip

/-!
# The ring at the start and at the end of the outer loop

Before the first trip the four slots are fetching the worker's first four chunks (every worker has at least
four) and no write-back is under way. After the last trip no fetch is under way, and slot `(n + k) % 4` is
writing back chunk `n - 4 + k`, for `k = 0 … 3`, `n` the worker's number of chunks.
-/

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

theorem four_le_nW : 4 ≤ nW L := Cert.TilePlan.four_le_nch (wOf L)

/-- The first four chunks' index offsets, as the start-up fetches spell them. -/
theorem off1_start : k0_off1 L = ![640 * (sW L + 0)] := by rw [k0_off1_eq]; congr 1; have := idx_off L 0; omega
theorem off2_start : k0_off2 L = ![640 * (sW L + 1)] := by rw [k0_off2_eq]; congr 1; have := idx_off L 1; omega
theorem off3_start : k0_off3 L = ![640 * (sW L + 2)] := by rw [k0_off3_eq]; congr 1; have := idx_off L 2; omega
theorem off4_start : k0_off4 L = ![640 * (sW L + 3)] := by rw [k0_off4_eq]; congr 1; have := idx_off L 3; omega

/-- Slot `p` before the first trip: fetching chunk `p`. -/
theorem idxSt_start (p : ℕ) (hp : p < 4)
    (hs : ∀ a, (![p] : Fin 1 → Nat) a + S1.size a ≤ S4.size a) (hv : ∀ a, (![p, 0] : Fin 2 → Nat) a + S1x640.size a ≤ S4x640.size a)
    (oc : Fin 1 → Nat) (hc : ∀ a, oc a + S640.size a ≤ S3200000.size a) (ec : oc = ![640 * (sW L + p)]) :
    IdxSt m d L p = IdxBusyAt m d L ![p] hs ![p, 0] hv oc hc (tokW L p hp) (goodIdx m d L p (Nat.lt_of_lt_of_le hp (four_le_nW L))) := by
  have e : p % 4 = p := Nat.mod_eq_of_lt hp
  unfold IdxSt; rw [dif_pos (Nat.lt_of_lt_of_le hp (four_le_nW L)), tokW_congr L e (mod4_lt p) hp]
  exact IdxBusyAt_congr m d L (by rw [e]) (by rw [e]) ec.symm _ _ _ _ _ _ _ _

/-- Slot `p` before the first trip: no write-back under way. -/
theorem outSt_start (p : ℕ) (hp : p < 4)
    (hs : ∀ a, (![p] : Fin 1 → Nat) a + S1.size a ≤ S4.size a)
    (h0 : ∀ a, (![p, 0, 0, 0, 0] : Fin 5 → Nat) a + S1x1x5x8x128.size a ≤ S4x2x5x8x128.size a)
    (h1 : ∀ a, (![p, 1, 0, 0, 0] : Fin 5 → Nat) a + S1x1x5x8x128.size a ≤ S4x2x5x8x128.size a) :
    OutSt m d L p = OutIdleAt (F := F) d L ![p] hs ![p, 0, 0, 0, 0] h0 ![p, 1, 0, 0, 0] h1 := by
  have e : p % 4 = p := Nat.mod_eq_of_lt hp
  have hb : ¬ (4 ≤ p ∧ p < nW L + 4) := fun h => absurd h.1 (Nat.not_le.mpr hp)
  unfold OutSt; rw [dif_neg hb]
  exact OutIdleAt_congr d L (by rw [e]) (by rw [e]) (by rw [e]) _ _ _ _ _ _

/-- Slot `(n + k) % 4` after the last trip: no fetch under way. -/
theorem idxSt_end (b : ℕ) (hb : nW L ≤ b) :
    IdxSt m d L b = IdxIdleAt m d L ![b % 4] (inb_sem (mod4_lt b)) ![b % 4, 0] (inb_iv (mod4_lt b)) (tokW L (b % 4) (mod4_lt b)) := by
  unfold IdxSt; rw [dif_neg (Nat.not_lt.mpr hb)]

/-- Slot `b % 4` after the last trip, `n ≤ b < n + 4`: writing back chunk `b - 4`, the cell as the final drain names it. -/
theorem outSt_end (b : ℕ) (hb : 4 ≤ b ∧ b < nW L + 4) (os : Fin 1 → Nat) (hs : ∀ a, os a + S1.size a ≤ S4.size a) (es : os = ![b % 4]) :
    OutSt m d L b
      = OutBusyAt m d L os hs ![b % 4, 0, 0, 0, 0] (inb_ov (mod4_lt b) (by decide)) ![b % 4, 1, 0, 0, 0] (inb_ov (mod4_lt b) (by decide))
          ![0, 5 * (sW L + (b - 4)), 0, 0] (inb_out (by decide) (chunkW_lt L (outChunk_lt L hb)))
          ![1, 5 * (sW L + (b - 4)), 0, 0] (inb_out (by decide) (chunkW_lt L (outChunk_lt L hb)))
          (goodOut m d L (b - 4) (outChunk_lt L hb)) := by
  unfold OutSt; rw [dif_pos hb]
  exact OutBusyAt_congr m d L es.symm rfl rfl rfl rfl _ _ _ _ _ _ _ _ _ _ _

/-- The slot the `k`-th final drain works in is slot `(n + k) % 4`. -/
theorem drain_slot (k : ℕ) : ((if 2 * (L 1).val + (L 0).val < 8 then 1 else 0) + (152 + k)) % 4 = (nW L + k) % 4 := by
  unfold nW Cert.TilePlan.nch wOf Cert.TilePlan.wid
  have : (L 0).val + 2 * (L 1).val = 2 * (L 1).val + (L 0).val := by omega
  split <;> omega

end Cert.Proof.KernelIdealSc

end
-- ==== Proof.ScDrain.lean ====
import proofs.«202852_g34127810134284_cont_8to1_b_1476_20_alg».proof.Proof.ScStart

/-!
# The last four write-backs, as the final drains spell them

After the last trip, `n` the worker's number of chunks, slot `(n + k) % 4` is writing back chunk `n + k - 4`, for
`k = 0 … 3`. The program spells that slot's number `(s + (152 + k)) % 4`, `s` the worker's extra chunk; these are
the same number. Here the ring's state at `b = n + k` is restated over the offset vectors of the drain that
awaits it, and a drained slot is restated by its number.
-/

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-- Chunk `b - 4` is one of the worker's when `b = n + k`, `k < 4`. -/
theorem drain_bounds (b k : ℕ) (hb : b = nW L + k) (hk : k < 4) : 4 ≤ b ∧ b < nW L + 4 := by
  have := four_le_nW L; omega

/-- A one-word offset spelt `(s + c) % 4` with `c = 152 + k` is slot `(n + k) % 4`. -/
theorem drain_sem (b k c : ℕ) (hb : b = nW L + k) (hc : c = 152 + k) (os : Fin 1 → Nat)
    (e : os = ![((if 2 * (L 1).val + (L 0).val < 8 then 1 else 0) + c) % 4]) : os = ![b % 4] := by
  subst hb hc; rw [e, drain_slot L k]

/-- The same for a half of the slot in the output scratch. -/
theorem drain_half (b k c h : ℕ) (hb : b = nW L + k) (hc : c = 152 + k) (o : Fin 5 → Nat)
    (e : o = ![((if 2 * (L 1).val + (L 0).val < 8 then 1 else 0) + c) % 4, h, 0, 0, 0]) : o = ![b % 4, h, 0, 0, 0] := by
  subst hb hc; rw [e, drain_slot L k]

/-- Chunk `b - 4` was computed in the slot chunk `b` would use. -/
theorem drain_half_back (b h : ℕ) (h4 : 4 ≤ b) (o : Fin 5 → Nat) (e : o = ![b % 4, h, 0, 0, 0]) : o = ![(b - 4) % 4, h, 0, 0, 0] := by
  have e4 : (b - 4) % 4 = b % 4 := by omega
  rw [e, e4]

/-- The rows of the result the `k`-th final drain names, spelt `… + c` with `c = 760 + 5 k`, are chunk `n + k - 4`'s. -/
theorem drain_row (b k c h : ℕ) (hb : b = nW L + k) (hc : c = 760 + 5 * k) (o : Fin 4 → Nat)
    (e : o = ![h, 1560 * (L 1).val + 780 * (L 0).val + 5 * (min (2 * (L 1).val + (L 0).val) 8)
                + 5 * (if 2 * (L 1).val + (L 0).val < 8 then 1 else 0) + c, 0, 0]) :
    o = ![h, 5 * (sW L + (b - 4)), 0, 0] := by
  have key : 1560 * (L 1).val + 780 * (L 0).val + 5 * (min (2 * (L 1).val + (L 0).val) 8)
      + 5 * (if 2 * (L 1).val + (L 0).val < 8 then 1 else 0) + c = 5 * (sW L + (b - 4)) := by
    subst hb hc
    unfold sW nW Cert.TilePlan.start Cert.TilePlan.nch wOf Cert.TilePlan.wid
    by_cases hw : 2 * (L 1).val + (L 0).val < 8 <;> simp only [hw, ↓reduceIte] <;> omega
  rw [e, key]

/-- The output side of slot `b % 4` after the last trip, over the offset vectors of the drain that awaits it. -/
theorem outSt_drain (b : ℕ) (hb : 4 ≤ b ∧ b < nW L + 4)
    (os : Fin 1 → Nat) (hs : ∀ a, os a + S1.size a ≤ S4.size a) (es : os = ![b % 4])
    (o0 : Fin 5 → Nat) (h0 : ∀ a, o0 a + S1x1x5x8x128.size a ≤ S4x2x5x8x128.size a) (e0 : o0 = ![b % 4, 0, 0, 0, 0])
    (o1 : Fin 5 → Nat) (h1 : ∀ a, o1 a + S1x1x5x8x128.size a ≤ S4x2x5x8x128.size a) (e1 : o1 = ![b % 4, 1, 0, 0, 0])
    (c0 : Fin 4 → Nat) (g0 : ∀ a, c0 a + S1x5x8x128.size a ≤ S2x25000x8x128.size a) (ec0 : c0 = ![0, 5 * (sW L + (b - 4)), 0, 0])
    (c1 : Fin 4 → Nat) (g1 : ∀ a, c1 a + S1x5x8x128.size a ≤ S2x25000x8x128.size a) (ec1 : c1 = ![1, 5 * (sW L + (b - 4)), 0, 0]) :
    OutSt m d L b
      = OutBusyAt m d L os hs o0 h0 o1 h1 c0 g0 c1 g1 (goodOut m d L (b - 4) (outChunk_lt L hb)) := by
  unfold OutSt; rw [dif_pos hb]
  exact OutBusyAt_congr m d L es.symm e0.symm e1.symm ec0.symm ec1.symm _ _ _ _ _ _ _ _ _ _ _

/-- The two halves of a chunk, landed where the drain names them, hold the result's final contents there. -/
theorem landed_drain (c : ℕ) (hc : c < nW L)
    (o0 : Fin 5 → Nat) (h0 : ∀ a, o0 a + S1x1x5x8x128.size a ≤ S4x2x5x8x128.size a) (e0 : o0 = ![c % 4, 0, 0, 0, 0])
    (o1 : Fin 5 → Nat) (h1 : ∀ a, o1 a + S1x1x5x8x128.size a ≤ S4x2x5x8x128.size a) (e1 : o1 = ![c % 4, 1, 0, 0, 0])
    (c0 : Fin 4 → Nat) (g0 : ∀ a, c0 a + S1x5x8x128.size a ≤ S2x25000x8x128.size a) (ec0 : c0 = ![0, 5 * (sW L + c), 0, 0])
    (c1 : Fin 4 → Nat) (g1 : ∀ a, c1 a + S1x5x8x128.size a ≤ S2x25000x8x128.size a) (ec1 : c1 = ![1, 5 * (sW L + c), 0, 0])
    (fo0 fo1 : Buf (Elt F) (ovM.view.loc (thrOf d L))) (hfo : goodOut m d L c hc fo0 fo1) :
    (OutPieceAt d L c0 g0 (landedO d L (ovSlot o0 h0) (outChunk c0 g0) fo0 (foutB m d L))
      = OutPieceAt d L ![0, 5 * (sW L + c), 0, 0] (inb_out Nat.zero_lt_two (chunkW_lt L hc)) (goutB m d L))
    ∧ (OutPieceAt d L c1 g1 (landedO d L (ovSlot o1 h1) (outChunk c1 g1) fo1 (foutB m d L))
      = OutPieceAt d L ![1, 5 * (sW L + c), 0, 0] (inb_out Nat.one_lt_two (chunkW_lt L hc)) (goutB m d L)) := by
  subst ec0 ec1
  exact landed_gout m d L c hc o0 h0 e0 o1 h1 e1 fo0 fo1 hfo

/-- A drained slot, by its number: its semaphore at zero and its two halves free. -/
theorem outIdle_drain (p : ℕ) (hp : p < 4)
    (os : Fin 1 → Nat) (hs : ∀ a, os a + S1.size a ≤ S4.size a) (es : os = ![p])
    (o0 : Fin 5 → Nat) (h0 : ∀ a, o0 a + S1x1x5x8x128.size a ≤ S4x2x5x8x128.size a) (e0 : o0 = ![p, 0, 0, 0, 0])
    (o1 : Fin 5 → Nat) (h1 : ∀ a, o1 a + S1x1x5x8x128.size a ≤ S4x2x5x8x128.size a) (e1 : o1 = ![p, 1, 0, 0, 0]) :
    (iprop(semVal (thrOf d L, SemLoc.dma (osemAt os hs).sem) 0
        ∗ (∃ f, (ovSlot o0 h0).view.loc (thrOf d L) ↦[(ovSlot o0 h0).view.set]{fullShare} f)
        ∗ (∃ f, (ovSlot o1 h1).view.loc (thrOf d L) ↦[(ovSlot o1 h1).view.set]{fullShare} f)) : sProp 𝕄)
      = iprop(osem0 d L p hp ∗ ovFree d L p 0 hp (by decide) ∗ ovFree d L p 1 hp (by decide)) := by
  subst es e0 e1; rfl

/-- The index side of slot `p = b % 4` after the last trip, by its number: nothing under way. -/
theorem idxIdle_drain (b p : ℕ) (hb : nW L ≤ b) (hp : b % 4 = p) (hp4 : p < 4) :
    IdxSt m d L b
      = iprop(isem0 d L p hp4 ∗ ivFree d L p hp4 ∗ (idxM.view.loc (thrOf d L) ↦{tokW L p hp4} fiB m d L)) := by
  subst hp; rw [idxSt_end m d L b hb]; rfl

end Cert.Proof.KernelIdealSc

end
-- ==== Proof.ScChunks.lean ====
/-
  The worker's chunks of the result across its outer loop.

  Before trip `t` the chunks `t, t + 1, …` have not been computed and are still at the launch contents (`Home`); the
  chunks `b` with `b + 4 < t` have been written back and their write-backs awaited, and hold the lookup's values
  (`Done`). Both are families over a set of chunks cut off by a threshold, so one step of the threshold takes one
  chunk out or puts one in; at the two ends they are nothing, or all the worker's chunks.
-/
import proofs.«202852_g34127810134284_cont_8to1_b_1476_20_alg».proof.Proof.ScRing
import proofs.«202852_g34127810134284_cont_8to1_b_1476_20_alg».proof.Proof.ScPlumb

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-- All the worker's chunks, both halves of each, are its part of the result chunk by chunk and half by half. -/
theorem outBoth_all (f : Buf (Elt F) (outLoc d)) :
    (bigSep Finset.univ fun b : Fin (nW L) => outBoth d L f b) = (outPieces d L f : sProp 𝕄) :=
  bigSep_congr fun b _ => (bigSep_fin2' (F := F) (fun h : Fin 2 => outPiece d L f b h)).symm

/-! ## The chunks not yet computed -/

theorem home_zero : (Home m d L 0 : sProp 𝕄) = outPieces d L (m (outLoc d)) := by
  unfold Home
  rw [Finset.filter_true_of_mem (fun b _ => Nat.zero_le b.val)]
  exact outBoth_all d L (m (outLoc d))

theorem home_succ (t : ℕ) (ht : t < nW L) :
    (Home m d L t : sProp 𝕄) = iprop(outBoth d L (m (outLoc d)) ⟨t, ht⟩ ∗ Home m d L (t + 1)) := by
  unfold Home
  rw [show (Finset.univ.filter fun b : Fin (nW L) => t ≤ b.val) = insert ⟨t, ht⟩ (Finset.univ.filter fun b : Fin (nW L) => t + 1 ≤ b.val) from by
      ext b
      simp only [Finset.mem_filter, Finset.mem_univ, true_and, Finset.mem_insert, Fin.ext_iff]
      omega,
    SparseCore.bigSep_insert' (by simp only [Finset.mem_filter, Finset.mem_univ, true_and]; omega)]

theorem home_end (t : ℕ) (ht : nW L ≤ t) : (Home m d L t : sProp 𝕄) = iprop(emp) := by
  unfold Home
  rw [show (Finset.univ.filter fun b : Fin (nW L) => t ≤ b.val) = ∅ from by
    ext b
    have := b.isLt
    simp only [Finset.mem_filter, Finset.mem_univ, true_and, Finset.notMem_empty, iff_false]
    omega]
  rfl

/-! ## The chunks written back and awaited -/

theorem done_low (t : ℕ) (ht : t ≤ 4) : (Done m d L t : sProp 𝕄) = iprop(emp) := by
  unfold Done
  rw [show (Finset.univ.filter fun b : Fin (nW L) => b.val + 4 < t) = ∅ from by
    ext b
    simp only [Finset.mem_filter, Finset.mem_univ, true_and, Finset.notMem_empty, iff_false]
    omega]
  rfl

theorem done_succ (t : ℕ) (h4 : 4 ≤ t) (ht : t - 4 < nW L) :
    (Done m d L (t + 1) : sProp 𝕄) = iprop(outBoth d L (goutB m d L) ⟨t - 4, ht⟩ ∗ Done m d L t) := by
  unfold Done
  rw [show (Finset.univ.filter fun b : Fin (nW L) => b.val + 4 < t + 1) = insert ⟨t - 4, ht⟩ (Finset.univ.filter fun b : Fin (nW L) => b.val + 4 < t) from by
      ext b
      simp only [Finset.mem_filter, Finset.mem_univ, true_and, Finset.mem_insert, Fin.ext_iff]
      omega,
    SparseCore.bigSep_insert' (by simp only [Finset.mem_filter, Finset.mem_univ, true_and]; omega)]

theorem done_all (t : ℕ) (ht : nW L + 4 ≤ t) : (Done m d L t : sProp 𝕄) = outPieces d L (goutB m d L) := by
  unfold Done
  rw [Finset.filter_true_of_mem (fun b _ => by have := b.isLt; omega)]
  exact outBoth_all d L (goutB m d L)

end Cert.Proof.KernelIdealSc

end
-- ==== Proof.ScCore.lean ====
import proofs.«202852_g34127810134284_cont_8to1_b_1476_20_alg».proof.Proof.ScDrain
import proofs.«202852_g34127810134284_cont_8to1_b_1476_20_alg».proof.Proof.ScChunks

/-!
# The tile program, run

Before the loop the tile copies the replicated table into its table scratch and starts the index fetches of its
first four chunks, one per slot. The outer loop then runs one trip per chunk, the ring stepping from chunk to
chunk; the loop printed after it never runs; the four final drains await the write-backs of the last four
chunks. At the end every chunk of the worker holds the lookup's values, every slot is free, and every semaphore
is back at zero.
-/

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD) (L : grid0.Coords)

/-- The ring before trip `k`: the four slots by the chunks `k … k + 3` they next serve, the table scratch holding
    the replicated table, the chunks not yet computed and the chunks finished, and what the tile owes. -/
def RingInv (O : CellTallies nD τ sig (HIx 1)) (W : Waits sig (HIx 1)) (k : ℕ) (_ : PUnit) : sProp 𝕄 :=
  iprop(Transfers.MayWaits (thrOf d L) (none : HIx 1) O
    ∗ (IdxSt m d L k ∗ IdxSt m d L (k + 1) ∗ IdxSt m d L (k + 2) ∗ IdxSt m d L (k + 3))
    ∗ (OutSt m d L k ∗ OutSt m d L (k + 1) ∗ OutSt m d L (k + 2) ∗ OutSt m d L (k + 3))
    ∗ (∃ ftv, (tvM.view.loc (thrOf d L) ↦{fullShare} ftv) ∗ ⌜goodTv m d L ftv⌝)
    ∗ Home m d L k ∗ Done m d L k
    ∗ ∃ W', ⌜∀ p ∈ W', p ∈ W ∨ p.2 = none⌝ ∗ owes (thrOf d L) O W')

/-- The post of one trip (as `trip_step` states it), named. -/
abbrev TripPost (O : CellTallies nD τ sig (HIx 1)) (W : Waits sig (HIx 1)) (ftv : Buf (Elt F) (tvM.view.loc (thrOf d L)))
    (t : Fin (k0_t1_loop L).trips) : sProp 𝕄 :=
  iprop(IdxSt m d L (t.val + 4) ∗ OutSt m d L (t.val + 4)
    ∗ (tvM.view.loc (thrOf d L) ↦{fullShare} ftv)
    ∗ (if h : 4 ≤ t.val then outBoth d L (goutB m d L) ⟨t.val - 4, by have := trip_lt L t; omega⟩ else iprop(emp))
    ∗ ∃ W', ⌜∀ p ∈ W', p ∈ W ∨ p.2 = none⌝ ∗ owes (thrOf d L) O W')

theorem waits_trans {W W' W'' : Waits sig (HIx 1)} (h1 : ∀ p ∈ W', p ∈ W ∨ p.2 = none) (h2 : ∀ p ∈ W'', p ∈ W' ∨ p.2 = none) :
    ∀ p ∈ W'', p ∈ W ∨ p.2 = none := fun p hp => (h2 p hp).elim (h1 p) .inr

set_option maxHeartbeats 8000000 in
/-- The tile program from what the tile holds before it to what it holds after it. -/
theorem tile_core (hin : InnerSpec (F := F) d L) (hpre : ∀ i, (fiB m d L i).toNat < 100)
    (O : CellTallies nD τ sig (HIx 1)) (W : Waits sig (HIx 1)) (rest : sProp 𝕄) (hO : ∀ g, O g none = 0) :
    iprop(Transfers.MayWaits (thrOf d L) (none : HIx 1) O ∗ TileIn m d L rest ∗ owes (thrOf d L) O W)
      ⊢ wp frame (wpE (defs₀ (F := F)) 𝒱₀ (thrOf d L) none) Set.univ
          (cc0__emb_lookup L idxM (Memref.isWhole_whole _) tabM (Memref.isWhole_whole _) outM (Memref.isWhole_whole _)
            tvM (Memref.isWhole_whole _) ivM (Memref.isWhole_whole _) ovM (Memref.isWhole_whole _) cc0_scratch3 cc0_scratch4 cc0_scoped0)
          fun _ => iprop(TileOut m d L rest ∗ ∃ W', ⌜∀ p ∈ W', p ∈ W ∨ p.2 = none⌝ ∗ owes (thrOf d L) O W') := by
  have k0_h1 : k0_cond1 L = 1#1 := cond1 L
  have k0_h2 : k0_cond2 L = 1#1 := cond2 L
  have k0_h3 : k0_cond3 L = 1#1 := cond3 L
  have k0_h4 : k0_cond4 L = 1#1 := cond4 L
  have k0_h9 : k0_cond9 L = 1#1 := cond9 L
  have k0_h10 : k0_cond10 L = 1#1 := cond10 L
  have k0_h11 : k0_cond11 L = 1#1 := cond11 L
  have k0_h12 : k0_cond12 L = 1#1 := cond12 L
  have hn := t1_trips L
  have hn4 := four_le_nW L
  unfold TileIn tileArrays tileScratch
  iintro ⟨#Hmw, ⟨⟨⟨Hk0, Hk1, Hk2, Hk3⟩, Ht, Hout⟩, ⟨%ftv0, Htv⟩, ⟨⟨%fv0, Hv0⟩, ⟨%fv1, Hv1⟩, ⟨%fv2, Hv2⟩, ⟨%fv3, Hv3⟩⟩,
    ⟨⟨Hov00, Hov01⟩, ⟨Hov10, Hov11⟩, ⟨Hov20, Hov21⟩, ⟨Hov30, Hov31⟩⟩, Hs0, ⟨Hi0, Hi1, Hi2, Hi3⟩, ⟨Hq0, Hq1, Hq2, Hq3⟩, Hrest⟩, HO⟩
  sl_unfold [cc0__emb_lookup]
  sl_exec
  -- the outer loop, at the ring's invariant
  sl_for (RingInv m d L O W) $$ [Hi0 Hk0 Hi1 Hk1 Hi2 Hk2 Hi3 Hk3 Hq0 Hq1 Hq2 Hq3 Hov00 Hov01 Hov10 Hov11 Hov20 Hov21 Hov30 Hov31 Htv Hout HO]
  case region =>
    intro k _
    have hk := trip_lt L k
    unfold RingInv
    rw [home_succ m d L k.val hk]
    iintro ⟨#Hmw, ⟨HI0, HI1, HI2, HI3⟩, ⟨HO0, HO1, HO2, HO3⟩, ⟨%ftv, Htv, %htv⟩, ⟨Hpc, Hhome⟩, Hdone, %W', %hW', HO⟩
    iapply (wp_wand_r frame _ Set.univ (Q := fun _ => TripPost m d L O W' ftv k))
    isplitl [HI0 HO0 Htv Hpc HO]
    · iapply (trip_step m d L hin hpre O W' k _ _ rfl ftv htv)
      isplitr; · iexact Hmw
      isplitl [HI0]; · iexact HI0
      isplitl [HO0]; · iexact HO0
      isplitl [Htv]; · iexact Htv
      isplitl [Hpc]; · iexact Hpc
      iexact HO
    iintro %_ ⟨HI4, HO4, Htv, Hd, %W'', %hW'', HO⟩
    rw [show k.val + 1 + 1 = k.val + 2 from rfl, show k.val + 1 + 2 = k.val + 3 from rfl, show k.val + 1 + 3 = k.val + 4 from rfl]
    isplitr; · iexact Hmw
    isplitl [HI1 HI2 HI3 HI4]
    · isplitl [HI1]; · iexact HI1
      isplitl [HI2]; · iexact HI2
      isplitl [HI3]; · iexact HI3
      iexact HI4
    isplitl [HO1 HO2 HO3 HO4]
    · isplitl [HO1]; · iexact HO1
      isplitl [HO2]; · iexact HO2
      isplitl [HO3]; · iexact HO3
      iexact HO4
    isplitl [Htv]
    · iexists ftv
      isplitl [Htv]; · iexact Htv
      ipureintro; exact htv
    isplitl [Hhome]; · iexact Hhome
    isplitl [Hdone Hd]
    · by_cases h4 : 4 ≤ k.val
      · rw [done_succ m d L k.val h4 (by omega)]
        ihave Hd := (Entails.of_eq (dif_pos h4)) $$ Hd
        isplitl [Hd]; · iexact Hd
        iexact Hdone
      · rw [done_low m d L (k.val + 1) (by omega)]
        iempintro
    iexists W''; isplitr
    · ipureintro; exact waits_trans hW' hW''
    · iexact HO
  · -- the ring before the first trip
    unfold RingInv
    isplitr; · iexact Hmw
    isplitl [Hi0 Hk0 Hi1 Hk1 Hi2 Hk2 Hi3 Hk3]
    ·
      rw [show IdxSt m d L 0 = _ from idxSt_start m d L 0 (by decide) (inb_sem (by decide)) (inb_iv (by decide)) (k0_off1 L) (k0_off1_inb L k0_h1) (off1_start L), IdxBusyAt_def]
      isplitl [Hi0 Hk0]
      · iexists _
        isplitl [Hi0]; · iexact Hi0
        isplitl [Hk0]; · iexact Hk0
        ipureintro
        sl_unfold_run_names
        exact fetched_good m d L 0 _ ![0, 0] (inb_iv (by decide)) rfl (k0_off1 L) (k0_off1_inb L k0_h1) (off1_start L) fv0
      rw [show IdxSt m d L (0 + 1) = _ from idxSt_start m d L 1 (by decide) (inb_sem (by decide)) (inb_iv (by decide)) (k0_off2 L) (k0_off2_inb L k0_h2) (off2_start L), IdxBusyAt_def]
      isplitl [Hi1 Hk1]
      · iexists _
        isplitl [Hi1]; · iexact Hi1
        isplitl [Hk1]; · iexact Hk1
        ipureintro
        sl_unfold_run_names
        exact fetched_good m d L 1 _ ![1, 0] (inb_iv (by decide)) rfl (k0_off2 L) (k0_off2_inb L k0_h2) (off2_start L) fv1
      rw [show IdxSt m d L (0 + 2) = _ from idxSt_start m d L 2 (by decide) (inb_sem (by decide)) (inb_iv (by decide)) (k0_off3 L) (k0_off3_inb L k0_h3) (off3_start L), IdxBusyAt_def]
      isplitl [Hi2 Hk2]
      · iexists _
        isplitl [Hi2]; · iexact Hi2
        isplitl [Hk2]; · iexact Hk2
        ipureintro
        sl_unfold_run_names
        exact fetched_good m d L 2 _ ![2, 0] (inb_iv (by decide)) rfl (k0_off3 L) (k0_off3_inb L k0_h3) (off3_start L) fv2
      rw [show IdxSt m d L (0 + 3) = _ from idxSt_start m d L 3 (by decide) (inb_sem (by decide)) (inb_iv (by decide)) (k0_off4 L) (k0_off4_inb L k0_h4) (off4_start L), IdxBusyAt_def]
      iexists _
      isplitl [Hi3]; · iexact Hi3
      isplitl [Hk3]; · iexact Hk3
      ipureintro
      sl_unfold_run_names
      exact fetched_good m d L 3 _ ![3, 0] (inb_iv (by decide)) rfl (k0_off4 L) (k0_off4_inb L k0_h4) (off4_start L) fv3
    isplitl [Hq0 Hq1 Hq2 Hq3 Hov00 Hov01 Hov10 Hov11 Hov20 Hov21 Hov30 Hov31]
    ·
      rw [show OutSt m d L 0 = _ from outSt_start m d L 0 (by decide) (inb_sem (by decide)) (inb_ov (by decide) (by decide)) (inb_ov (by decide) (by decide)), OutIdleAt_def]
      isplitl [Hq0 Hov00 Hov01]
      · isplitl [Hq0]; · iexact Hq0
        isplitl [Hov00]; · iexact Hov00
        iexact Hov01
      rw [show OutSt m d L (0 + 1) = _ from outSt_start m d L 1 (by decide) (inb_sem (by decide)) (inb_ov (by decide) (by decide)) (inb_ov (by decide) (by decide)), OutIdleAt_def]
      isplitl [Hq1 Hov10 Hov11]
      · isplitl [Hq1]; · iexact Hq1
        isplitl [Hov10]; · iexact Hov10
        iexact Hov11
      rw [show OutSt m d L (0 + 2) = _ from outSt_start m d L 2 (by decide) (inb_sem (by decide)) (inb_ov (by decide) (by decide)) (inb_ov (by decide) (by decide)), OutIdleAt_def]
      isplitl [Hq2 Hov20 Hov21]
      · isplitl [Hq2]; · iexact Hq2
        isplitl [Hov20]; · iexact Hov20
        iexact Hov21
      rw [show OutSt m d L (0 + 3) = _ from outSt_start m d L 3 (by decide) (inb_sem (by decide)) (inb_ov (by decide) (by decide)) (inb_ov (by decide) (by decide)), OutIdleAt_def]
      isplitl [Hq3]; · iexact Hq3
      isplitl [Hov30]; · iexact Hov30
      iexact Hov31
    isplitl [Htv]
    · iexists _
      isplitl [Htv]; · iexact Htv
      ipureintro
      sl_unfold_run_names
      exact tv_good m d L ftv0 _
    isplitl [Hout]; · rw [home_zero m d L]; iexact Hout
    isplitr; · rw [done_low m d L 0 (by decide)]; iempintro
    iexists _; isplitr
    rotate_left
    · iexact HO
    · ipureintro; exact waits_ins (waits_base W)
  iintro %_ HI
  -- the number of trips is the worker's number of chunks `n`
  have eR : RingInv m d L O W (k0_t1_loop L).trips () = RingInv m d L O W (nW L) () :=
    congrArg (fun n => RingInv m d L O W n ()) (t1_trips L)
  ihave HI := (Entails.of_eq eR) $$ HI
  -- the loop printed after it has no trip
  sl_exec
  sl_for (fun (_ : ℕ) (_ : PUnit) => RingInv m d L O W (nW L) ()) $$ [HI]
  case region => intro k _; exact absurd (Nat.lt_of_lt_of_eq k.isLt (t3_trips L)) (Nat.not_lt_zero _)
  · iexact HI
  iintro %_ HI
  -- the ring after the last trip: the last four write-backs, each over the offset vectors of the drain that awaits it
  unfold RingInv
  icases HI with ⟨-, ⟨HI0, HI1, HI2, HI3⟩, ⟨HO0, HO1, HO2, HO3⟩, ⟨%ftv, Htv, -⟩, -, Hdone, %W', %hW', HO⟩
  have hb0 : 4 ≤ nW L ∧ nW L < nW L + 4 := drain_bounds L (nW L) 0 rfl (by decide)
  have es0 : k0_off295 L = ![nW L % 4] := drain_sem L (nW L) 0 152 rfl rfl _ (k0_off295_eq L)
  have ea0 : k0_off293 L = ![nW L % 4, 0, 0, 0, 0] := drain_half L (nW L) 0 152 0 rfl rfl _ (k0_off293_eq L)
  have eb0 : k0_off296 L = ![nW L % 4, 1, 0, 0, 0] := drain_half L (nW L) 0 152 1 rfl rfl _ (k0_off296_eq L)
  have ec00 : k0_off294 L = ![0, 5 * (sW L + ((nW L) - 4)), 0, 0] := drain_row L (nW L) 0 760 0 rfl rfl _ (k0_off294_eq L)
  have ec01 : k0_off297 L = ![1, 5 * (sW L + ((nW L) - 4)), 0, 0] := drain_row L (nW L) 0 760 1 rfl rfl _ (k0_off297_eq L)
  ihave HO0 := (Entails.of_eq ((outSt_drain m d L (nW L) hb0 (k0_off295 L) (k0_off295_inb L k0_h9) es0
      (k0_off293 L) (k0_off293_inb L k0_h9) ea0 (k0_off296 L) (k0_off296_inb L k0_h9) eb0
      (k0_off294 L) (k0_off294_inb L k0_h9) ec00 (k0_off297 L) (k0_off297_inb L k0_h9) ec01).trans
      (OutBusyAt_def m d L _ _ _ _ _ _ _ _ _ _ _))) $$ HO0
  icases HO0 with ⟨%fa0, %fb0, HB0, %hf0⟩
  set_option sl_exec.stopBefore "k0_cond10" in sl_exec
  have hb1 : 4 ≤ (nW L + 1) ∧ (nW L + 1) < nW L + 4 := drain_bounds L (nW L + 1) 1 rfl (by decide)
  have es1 : k0_off300 L = ![(nW L + 1) % 4] := drain_sem L (nW L + 1) 1 153 rfl rfl _ (k0_off300_eq L)
  have ea1 : k0_off298 L = ![(nW L + 1) % 4, 0, 0, 0, 0] := drain_half L (nW L + 1) 1 153 0 rfl rfl _ (k0_off298_eq L)
  have eb1 : k0_off301 L = ![(nW L + 1) % 4, 1, 0, 0, 0] := drain_half L (nW L + 1) 1 153 1 rfl rfl _ (k0_off301_eq L)
  have ec10 : k0_off299 L = ![0, 5 * (sW L + ((nW L + 1) - 4)), 0, 0] := drain_row L (nW L + 1) 1 765 0 rfl rfl _ (k0_off299_eq L)
  have ec11 : k0_off302 L = ![1, 5 * (sW L + ((nW L + 1) - 4)), 0, 0] := drain_row L (nW L + 1) 1 765 1 rfl rfl _ (k0_off302_eq L)
  ihave HO1 := (Entails.of_eq ((outSt_drain m d L (nW L + 1) hb1 (k0_off300 L) (k0_off300_inb L k0_h10) es1
      (k0_off298 L) (k0_off298_inb L k0_h10) ea1 (k0_off301 L) (k0_off301_inb L k0_h10) eb1
      (k0_off299 L) (k0_off299_inb L k0_h10) ec10 (k0_off302 L) (k0_off302_inb L k0_h10) ec11).trans
      (OutBusyAt_def m d L _ _ _ _ _ _ _ _ _ _ _))) $$ HO1
  icases HO1 with ⟨%fa1, %fb1, HB1, %hf1⟩
  set_option sl_exec.stopBefore "k0_cond11" in sl_exec
  have hb2 : 4 ≤ (nW L + 2) ∧ (nW L + 2) < nW L + 4 := drain_bounds L (nW L + 2) 2 rfl (by decide)
  have es2 : k0_off305 L = ![(nW L + 2) % 4] := drain_sem L (nW L + 2) 2 154 rfl rfl _ (k0_off305_eq L)
  have ea2 : k0_off303 L = ![(nW L + 2) % 4, 0, 0, 0, 0] := drain_half L (nW L + 2) 2 154 0 rfl rfl _ (k0_off303_eq L)
  have eb2 : k0_off306 L = ![(nW L + 2) % 4, 1, 0, 0, 0] := drain_half L (nW L + 2) 2 154 1 rfl rfl _ (k0_off306_eq L)
  have ec20 : k0_off304 L = ![0, 5 * (sW L + ((nW L + 2) - 4)), 0, 0] := drain_row L (nW L + 2) 2 770 0 rfl rfl _ (k0_off304_eq L)
  have ec21 : k0_off307 L = ![1, 5 * (sW L + ((nW L + 2) - 4)), 0, 0] := drain_row L (nW L + 2) 2 770 1 rfl rfl _ (k0_off307_eq L)
  ihave HO2 := (Entails.of_eq ((outSt_drain m d L (nW L + 2) hb2 (k0_off305 L) (k0_off305_inb L k0_h11) es2
      (k0_off303 L) (k0_off303_inb L k0_h11) ea2 (k0_off306 L) (k0_off306_inb L k0_h11) eb2
      (k0_off304 L) (k0_off304_inb L k0_h11) ec20 (k0_off307 L) (k0_off307_inb L k0_h11) ec21).trans
      (OutBusyAt_def m d L _ _ _ _ _ _ _ _ _ _ _))) $$ HO2
  icases HO2 with ⟨%fa2, %fb2, HB2, %hf2⟩
  set_option sl_exec.stopBefore "k0_cond12" in sl_exec
  have hb3 : 4 ≤ (nW L + 3) ∧ (nW L + 3) < nW L + 4 := drain_bounds L (nW L + 3) 3 rfl (by decide)
  have es3 : k0_off310 L = ![(nW L + 3) % 4] := drain_sem L (nW L + 3) 3 155 rfl rfl _ (k0_off310_eq L)
  have ea3 : k0_off308 L = ![(nW L + 3) % 4, 0, 0, 0, 0] := drain_half L (nW L + 3) 3 155 0 rfl rfl _ (k0_off308_eq L)
  have eb3 : k0_off311 L = ![(nW L + 3) % 4, 1, 0, 0, 0] := drain_half L (nW L + 3) 3 155 1 rfl rfl _ (k0_off311_eq L)
  have ec30 : k0_off309 L = ![0, 5 * (sW L + ((nW L + 3) - 4)), 0, 0] := drain_row L (nW L + 3) 3 775 0 rfl rfl _ (k0_off309_eq L)
  have ec31 : k0_off312 L = ![1, 5 * (sW L + ((nW L + 3) - 4)), 0, 0] := drain_row L (nW L + 3) 3 775 1 rfl rfl _ (k0_off312_eq L)
  ihave HO3 := (Entails.of_eq ((outSt_drain m d L (nW L + 3) hb3 (k0_off310 L) (k0_off310_inb L k0_h12) es3
      (k0_off308 L) (k0_off308_inb L k0_h12) ea3 (k0_off311 L) (k0_off311_inb L k0_h12) eb3
      (k0_off309 L) (k0_off309_inb L k0_h12) ec30 (k0_off312 L) (k0_off312_inb L k0_h12) ec31).trans
      (OutBusyAt_def m d L _ _ _ _ _ _ _ _ _ _ _))) $$ HO3
  icases HO3 with ⟨%fa3, %fb3, HB3, %hf3⟩
  sl_exec
  sl_step
  -- the last four chunks have landed: they hold the result's final contents
  have hl0 := landed_drain m d L (nW L - 4) (outChunk_lt L hb0) (k0_off293 L) (k0_off293_inb L k0_h9) (drain_half_back (nW L) 0 hb0.1 _ ea0)
    (k0_off296 L) (k0_off296_inb L k0_h9) (drain_half_back (nW L) 1 hb0.1 _ eb0)
    (k0_off294 L) (k0_off294_inb L k0_h9) ec00 (k0_off297 L) (k0_off297_inb L k0_h9) ec01 fa0 fb0 hf0
  ihave Hd00 := (Entails.of_eq (((OutPieceAt_def d L _ _ _).symm.trans hl0.1).trans (outPiece_at d L (goutB m d L) ⟨nW L - 4, outChunk_lt L hb0⟩ 0).symm)) $$ HB0_dst0
  ihave Hd01 := (Entails.of_eq (((OutPieceAt_def d L _ _ _).symm.trans hl0.2).trans (outPiece_at d L (goutB m d L) ⟨nW L - 4, outChunk_lt L hb0⟩ 1).symm)) $$ HB0_dst1
  have hl1 := landed_drain m d L ((nW L + 1) - 4) (outChunk_lt L hb1) (k0_off298 L) (k0_off298_inb L k0_h10) (drain_half_back (nW L + 1) 0 hb1.1 _ ea1)
    (k0_off301 L) (k0_off301_inb L k0_h10) (drain_half_back (nW L + 1) 1 hb1.1 _ eb1)
    (k0_off299 L) (k0_off299_inb L k0_h10) ec10 (k0_off302 L) (k0_off302_inb L k0_h10) ec11 fa1 fb1 hf1
  ihave Hd10 := (Entails.of_eq (((OutPieceAt_def d L _ _ _).symm.trans hl1.1).trans (outPiece_at d L (goutB m d L) ⟨(nW L + 1) - 4, outChunk_lt L hb1⟩ 0).symm)) $$ HB1_dst0
  ihave Hd11 := (Entails.of_eq (((OutPieceAt_def d L _ _ _).symm.trans hl1.2).trans (outPiece_at d L (goutB m d L) ⟨(nW L + 1) - 4, outChunk_lt L hb1⟩ 1).symm)) $$ HB1_dst1
  have hl2 := landed_drain m d L ((nW L + 2) - 4) (outChunk_lt L hb2) (k0_off303 L) (k0_off303_inb L k0_h11) (drain_half_back (nW L + 2) 0 hb2.1 _ ea2)
    (k0_off306 L) (k0_off306_inb L k0_h11) (drain_half_back (nW L + 2) 1 hb2.1 _ eb2)
    (k0_off304 L) (k0_off304_inb L k0_h11) ec20 (k0_off307 L) (k0_off307_inb L k0_h11) ec21 fa2 fb2 hf2
  ihave Hd20 := (Entails.of_eq (((OutPieceAt_def d L _ _ _).symm.trans hl2.1).trans (outPiece_at d L (goutB m d L) ⟨(nW L + 2) - 4, outChunk_lt L hb2⟩ 0).symm)) $$ HB2_dst0
  ihave Hd21 := (Entails.of_eq (((OutPieceAt_def d L _ _ _).symm.trans hl2.2).trans (outPiece_at d L (goutB m d L) ⟨(nW L + 2) - 4, outChunk_lt L hb2⟩ 1).symm)) $$ HB2_dst1
  have hl3 := landed_drain m d L ((nW L + 3) - 4) (outChunk_lt L hb3) (k0_off308 L) (k0_off308_inb L k0_h12) (drain_half_back (nW L + 3) 0 hb3.1 _ ea3)
    (k0_off311 L) (k0_off311_inb L k0_h12) (drain_half_back (nW L + 3) 1 hb3.1 _ eb3)
    (k0_off309 L) (k0_off309_inb L k0_h12) ec30 (k0_off312 L) (k0_off312_inb L k0_h12) ec31 fa3 fb3 hf3
  ihave Hd30 := (Entails.of_eq (((OutPieceAt_def d L _ _ _).symm.trans hl3.1).trans (outPiece_at d L (goutB m d L) ⟨(nW L + 3) - 4, outChunk_lt L hb3⟩ 0).symm)) $$ HB3_dst0
  ihave Hd31 := (Entails.of_eq (((OutPieceAt_def d L _ _ _).symm.trans hl3.2).trans (outPiece_at d L (goutB m d L) ⟨(nW L + 3) - 4, outChunk_lt L hb3⟩ 1).symm)) $$ HB3_dst1
  ihave HD := (Entails.of_eq (done_succ m d L (nW L) (by have := four_le_nW L; omega) (by have := four_le_nW L; omega)).symm) $$ [Hd00 Hd01 Hdone]
  · isplitl [Hd00 Hd01]
    · isplitl [Hd00]; · iexact Hd00
      iexact Hd01
    iexact Hdone
  ihave HD := (Entails.of_eq (done_succ m d L (nW L + 1) (by have := four_le_nW L; omega) (by have := four_le_nW L; omega)).symm) $$ [Hd10 Hd11 HD]
  · isplitl [Hd10 Hd11]
    · isplitl [Hd10]; · iexact Hd10
      iexact Hd11
    iexact HD
  ihave HD := (Entails.of_eq (done_succ m d L (nW L + 1 + 1) (by have := four_le_nW L; omega) (by have := four_le_nW L; omega)).symm) $$ [Hd20 Hd21 HD]
  · isplitl [Hd20 Hd21]
    · isplitl [Hd20]; · iexact Hd20
      iexact Hd21
    iexact HD
  ihave HD := (Entails.of_eq (done_succ m d L (nW L + 1 + 1 + 1) (by have := four_le_nW L; omega) (by have := four_le_nW L; omega)).symm) $$ [Hd30 Hd31 HD]
  · isplitl [Hd30 Hd31]
    · isplitl [Hd30]; · iexact Hd30
      iexact Hd31
    iexact HD
  ihave HD := (Entails.of_eq (done_all m d L (nW L + 1 + 1 + 1 + 1) (by omega))) $$ HD
  unfold TileOut tileArrays tileScratch
  by_cases hw : wOf L < 8
  · have hnW : nW L = 157 := by unfold nW Cert.TilePlan.nch; rw [if_pos hw]
    have hp0 : nW L % 4 = 1 := by omega
    ihave HI0 := (Entails.of_eq (idxIdle_drain m d L (nW L) 1 (by omega) hp0 (by decide))) $$ HI0
    icases HI0 with ⟨Hsem1, Hiv1, Htok1⟩
    ihave HX0 := (Entails.of_eq (outIdle_drain (F := F) d L 1 (by decide) (k0_off295 L) (k0_off295_inb L k0_h9) (es0.trans (by rw [hp0]))
        (k0_off293 L) (k0_off293_inb L k0_h9) (ea0.trans (by rw [hp0])) (k0_off296 L) (k0_off296_inb L k0_h9) (eb0.trans (by rw [hp0])))) $$ [HB0 HB0_src0 HB0_src1]
    · isplitl [HB0]; · iexact HB0
      isplitl [HB0_src0]; · iexists _; iexact HB0_src0
      iexists _; iexact HB0_src1
    icases HX0 with ⟨Hq1, Hov10, Hov11⟩
    have hp1 : (nW L + 1) % 4 = 2 := by omega
    ihave HI1 := (Entails.of_eq (idxIdle_drain m d L (nW L + 1) 2 (by omega) hp1 (by decide))) $$ HI1
    icases HI1 with ⟨Hsem2, Hiv2, Htok2⟩
    ihave HX1 := (Entails.of_eq (outIdle_drain (F := F) d L 2 (by decide) (k0_off300 L) (k0_off300_inb L k0_h10) (es1.trans (by rw [hp1]))
        (k0_off298 L) (k0_off298_inb L k0_h10) (ea1.trans (by rw [hp1])) (k0_off301 L) (k0_off301_inb L k0_h10) (eb1.trans (by rw [hp1])))) $$ [HB1 HB1_src0 HB1_src1]
    · isplitl [HB1]; · iexact HB1
      isplitl [HB1_src0]; · iexists _; iexact HB1_src0
      iexists _; iexact HB1_src1
    icases HX1 with ⟨Hq2, Hov20, Hov21⟩
    have hp2 : (nW L + 2) % 4 = 3 := by omega
    ihave HI2 := (Entails.of_eq (idxIdle_drain m d L (nW L + 2) 3 (by omega) hp2 (by decide))) $$ HI2
    icases HI2 with ⟨Hsem3, Hiv3, Htok3⟩
    ihave HX2 := (Entails.of_eq (outIdle_drain (F := F) d L 3 (by decide) (k0_off305 L) (k0_off305_inb L k0_h11) (es2.trans (by rw [hp2]))
        (k0_off303 L) (k0_off303_inb L k0_h11) (ea2.trans (by rw [hp2])) (k0_off306 L) (k0_off306_inb L k0_h11) (eb2.trans (by rw [hp2])))) $$ [HB2 HB2_src0 HB2_src1]
    · isplitl [HB2]; · iexact HB2
      isplitl [HB2_src0]; · iexists _; iexact HB2_src0
      iexists _; iexact HB2_src1
    icases HX2 with ⟨Hq3, Hov30, Hov31⟩
    have hp3 : (nW L + 3) % 4 = 0 := by omega
    ihave HI3 := (Entails.of_eq (idxIdle_drain m d L (nW L + 3) 0 (by omega) hp3 (by decide))) $$ HI3
    icases HI3 with ⟨Hsem0, Hiv0, Htok0⟩
    ihave HX3 := (Entails.of_eq (outIdle_drain (F := F) d L 0 (by decide) (k0_off310 L) (k0_off310_inb L k0_h12) (es3.trans (by rw [hp3]))
        (k0_off308 L) (k0_off308_inb L k0_h12) (ea3.trans (by rw [hp3])) (k0_off311 L) (k0_off311_inb L k0_h12) (eb3.trans (by rw [hp3])))) $$ [HB3 HB3_src0 HB3_src1]
    · isplitl [HB3]; · iexact HB3
      isplitl [HB3_src0]; · iexists _; iexact HB3_src0
      iexists _; iexact HB3_src1
    icases HX3 with ⟨Hq0, Hov00, Hov01⟩
    isplitr [HO]
    · isplitl [Htok0 Htok1 Htok2 Htok3 Ht HD]
      · isplitl [Htok0 Htok1 Htok2 Htok3]
        · isplitl [Htok0]; · iexact Htok0
          isplitl [Htok1]; · iexact Htok1
          isplitl [Htok2]; · iexact Htok2
          iexact Htok3
        isplitl [Ht]; · iexact Ht
        iexact HD
      isplitl [Htv]; · iexists _; iexact Htv
      isplitl [Hiv0 Hiv1 Hiv2 Hiv3]
      · isplitl [Hiv0]; · iexact Hiv0
        isplitl [Hiv1]; · iexact Hiv1
        isplitl [Hiv2]; · iexact Hiv2
        iexact Hiv3
      isplitl [Hov00 Hov01 Hov10 Hov11 Hov20 Hov21 Hov30 Hov31]
      · isplitl [Hov00 Hov01]
        · isplitl [Hov00]; · iexact Hov00
          iexact Hov01
        isplitl [Hov10 Hov11]
        · isplitl [Hov10]; · iexact Hov10
          iexact Hov11
        isplitl [Hov20 Hov21]
        · isplitl [Hov20]; · iexact Hov20
          iexact Hov21
        isplitl [Hov30]; · iexact Hov30
        iexact Hov31
      isplitl [Hs0]; · iexact Hs0
      isplitl [Hsem0 Hsem1 Hsem2 Hsem3]
      · isplitl [Hsem0]; · iexact Hsem0
        isplitl [Hsem1]; · iexact Hsem1
        isplitl [Hsem2]; · iexact Hsem2
        iexact Hsem3
      isplitl [Hq0 Hq1 Hq2 Hq3]
      · isplitl [Hq0]; · iexact Hq0
        isplitl [Hq1]; · iexact Hq1
        isplitl [Hq2]; · iexact Hq2
        iexact Hq3
      iexact Hrest
    · iexists _; isplitr
      rotate_left
      · iexact HO
      · ipureintro
        exact waits_trans hW' (waits_ins (waits_ins (waits_ins (waits_ins (waits_ins (waits_ins (waits_ins (waits_ins (waits_base W')))))))))
  · have hnW : nW L = 156 := by unfold nW Cert.TilePlan.nch; rw [if_neg hw]
    have hp0 : nW L % 4 = 0 := by omega
    ihave HI0 := (Entails.of_eq (idxIdle_drain m d L (nW L) 0 (by omega) hp0 (by decide))) $$ HI0
    icases HI0 with ⟨Hsem0, Hiv0, Htok0⟩
    ihave HX0 := (Entails.of_eq (outIdle_drain (F := F) d L 0 (by decide) (k0_off295 L) (k0_off295_inb L k0_h9) (es0.trans (by rw [hp0]))
        (k0_off293 L) (k0_off293_inb L k0_h9) (ea0.trans (by rw [hp0])) (k0_off296 L) (k0_off296_inb L k0_h9) (eb0.trans (by rw [hp0])))) $$ [HB0 HB0_src0 HB0_src1]
    · isplitl [HB0]; · iexact HB0
      isplitl [HB0_src0]; · iexists _; iexact HB0_src0
      iexists _; iexact HB0_src1
    icases HX0 with ⟨Hq0, Hov00, Hov01⟩
    have hp1 : (nW L + 1) % 4 = 1 := by omega
    ihave HI1 := (Entails.of_eq (idxIdle_drain m d L (nW L + 1) 1 (by omega) hp1 (by decide))) $$ HI1
    icases HI1 with ⟨Hsem1, Hiv1, Htok1⟩
    ihave HX1 := (Entails.of_eq (outIdle_drain (F := F) d L 1 (by decide) (k0_off300 L) (k0_off300_inb L k0_h10) (es1.trans (by rw [hp1]))
        (k0_off298 L) (k0_off298_inb L k0_h10) (ea1.trans (by rw [hp1])) (k0_off301 L) (k0_off301_inb L k0_h10) (eb1.trans (by rw [hp1])))) $$ [HB1 HB1_src0 HB1_src1]
    · isplitl [HB1]; · iexact HB1
      isplitl [HB1_src0]; · iexists _; iexact HB1_src0
      iexists _; iexact HB1_src1
    icases HX1 with ⟨Hq1, Hov10, Hov11⟩
    have hp2 : (nW L + 2) % 4 = 2 := by omega
    ihave HI2 := (Entails.of_eq (idxIdle_drain m d L (nW L + 2) 2 (by omega) hp2 (by decide))) $$ HI2
    icases HI2 with ⟨Hsem2, Hiv2, Htok2⟩
    ihave HX2 := (Entails.of_eq (outIdle_drain (F := F) d L 2 (by decide) (k0_off305 L) (k0_off305_inb L k0_h11) (es2.trans (by rw [hp2]))
        (k0_off303 L) (k0_off303_inb L k0_h11) (ea2.trans (by rw [hp2])) (k0_off306 L) (k0_off306_inb L k0_h11) (eb2.trans (by rw [hp2])))) $$ [HB2 HB2_src0 HB2_src1]
    · isplitl [HB2]; · iexact HB2
      isplitl [HB2_src0]; · iexists _; iexact HB2_src0
      iexists _; iexact HB2_src1
    icases HX2 with ⟨Hq2, Hov20, Hov21⟩
    have hp3 : (nW L + 3) % 4 = 3 := by omega
    ihave HI3 := (Entails.of_eq (idxIdle_drain m d L (nW L + 3) 3 (by omega) hp3 (by decide))) $$ HI3
    icases HI3 with ⟨Hsem3, Hiv3, Htok3⟩
    ihave HX3 := (Entails.of_eq (outIdle_drain (F := F) d L 3 (by decide) (k0_off310 L) (k0_off310_inb L k0_h12) (es3.trans (by rw [hp3]))
        (k0_off308 L) (k0_off308_inb L k0_h12) (ea3.trans (by rw [hp3])) (k0_off311 L) (k0_off311_inb L k0_h12) (eb3.trans (by rw [hp3])))) $$ [HB3 HB3_src0 HB3_src1]
    · isplitl [HB3]; · iexact HB3
      isplitl [HB3_src0]; · iexists _; iexact HB3_src0
      iexists _; iexact HB3_src1
    icases HX3 with ⟨Hq3, Hov30, Hov31⟩
    isplitr [HO]
    · isplitl [Htok0 Htok1 Htok2 Htok3 Ht HD]
      · isplitl [Htok0 Htok1 Htok2 Htok3]
        · isplitl [Htok0]; · iexact Htok0
          isplitl [Htok1]; · iexact Htok1
          isplitl [Htok2]; · iexact Htok2
          iexact Htok3
        isplitl [Ht]; · iexact Ht
        iexact HD
      isplitl [Htv]; · iexists _; iexact Htv
      isplitl [Hiv0 Hiv1 Hiv2 Hiv3]
      · isplitl [Hiv0]; · iexact Hiv0
        isplitl [Hiv1]; · iexact Hiv1
        isplitl [Hiv2]; · iexact Hiv2
        iexact Hiv3
      isplitl [Hov00 Hov01 Hov10 Hov11 Hov20 Hov21 Hov30 Hov31]
      · isplitl [Hov00 Hov01]
        · isplitl [Hov00]; · iexact Hov00
          iexact Hov01
        isplitl [Hov10 Hov11]
        · isplitl [Hov10]; · iexact Hov10
          iexact Hov11
        isplitl [Hov20 Hov21]
        · isplitl [Hov20]; · iexact Hov20
          iexact Hov21
        isplitl [Hov30]; · iexact Hov30
        iexact Hov31
      isplitl [Hs0]; · iexact Hs0
      isplitl [Hsem0 Hsem1 Hsem2 Hsem3]
      · isplitl [Hsem0]; · iexact Hsem0
        isplitl [Hsem1]; · iexact Hsem1
        isplitl [Hsem2]; · iexact Hsem2
        iexact Hsem3
      isplitl [Hq0 Hq1 Hq2 Hq3]
      · isplitl [Hq0]; · iexact Hq0
        isplitl [Hq1]; · iexact Hq1
        isplitl [Hq2]; · iexact Hq2
        iexact Hq3
      iexact Hrest
    · iexists _; isplitr
      rotate_left
      · iexact HO
      · ipureintro
        exact waits_trans hW' (waits_ins (waits_ins (waits_ins (waits_ins (waits_ins (waits_ins (waits_ins (waits_ins (waits_base W')))))))))

end Cert.Proof.KernelIdealSc

end
-- ==== Proof.ScAddr.lean ====
/-
  The addresses one inner trip gathers at. A trip reads sixteen index words at a time; lane `x`
  of the address vector is the word times 256 plus `x`: the table scratch holds each table row as
  256 consecutive entries (16 columns, each repeated 16 times), so word `w` names the row that
  starts at `256 w`, and the sixteen gathers of one address vector read columns 0 … 15 of that row
  through windows of the scratch shifted by 16 each. When every word is below 100 every address
  is below 25600 = 100 · 256, which is what each gather's assumed check asks of every lane.
-/
import proofs.«202852_g34127810134284_cont_8to1_b_1476_20_alg».proof.Proof.Gen.KernelIdeal.Skeleton
import Idealize.ShloMosaic.Lib.ValueIdx
import Idealize.ShloMosaic.Lib.Pipeline.Value

noncomputable section

namespace Cert.Proof.KernelIdealSc

open Cert.KernelIdeal Cert.KernelIdeal.Gen
open Idealize.ShloMosaic Idealize.ShloMosaic.ValueIdx

variable {F : FTy → Type} [FloatOps F]

/-- The lane numbers 0 … 15 as words. -/
abbrev lanes : IVec S16 32 := iota .scVector S16 32 [0] iota_S16_d0_w32_scVector

theorem lanes_apply (x : Fin 16) : lanes (ix1 x) = BitVec.ofNat 32 x.val := by
  show BitVec.ofNat 32 (0 * 16 + x.val) = _
  rw [Nat.zero_mul, Nat.zero_add]

/-- Lane `x` of the address vector: the loaded word times 256, plus the lane's entry of the second operand. -/
theorem pay1_apply (v8 : IVec S16 32) (ld : Vec F S1x16 .i32) (x : Fin 16) :
    k0_pay1 v8 ld (ix1 x) = ld (ix2 (0 : Fin 1) x) * 256#32 + v8 (ix1 x) := by
  unfold k0_pay1
  show IntOp.addi (IntOp.muli (shapeCast S16 ld shapeCasts_S1x16_S16 (ix1 x)) 256#32) (v8 (ix1 x)) = _
  rw [shapeCast_apply ld shapeCasts_S1x16_S16 (ix1 x) (ix2 (0 : Fin 1) x) (by
    rw [Shape.rowMajor_val_two, Shape.rowMajor_val_one]
    show 0 * 16 + x.val = x.val
    omega)]
  rfl

/-- The eight address vectors of a trip are formed alike. -/
theorem pay2_eq (v8 : IVec S16 32) (ld : Vec F S1x16 .i32) : k0_pay2 v8 ld = k0_pay1 v8 ld := rfl
theorem pay3_eq (v8 : IVec S16 32) (ld : Vec F S1x16 .i32) : k0_pay3 v8 ld = k0_pay1 v8 ld := rfl
theorem pay4_eq (v8 : IVec S16 32) (ld : Vec F S1x16 .i32) : k0_pay4 v8 ld = k0_pay1 v8 ld := rfl
theorem pay5_eq (v8 : IVec S16 32) (ld : Vec F S1x16 .i32) : k0_pay5 v8 ld = k0_pay1 v8 ld := rfl
theorem pay6_eq (v8 : IVec S16 32) (ld : Vec F S1x16 .i32) : k0_pay6 v8 ld = k0_pay1 v8 ld := rfl
theorem pay7_eq (v8 : IVec S16 32) (ld : Vec F S1x16 .i32) : k0_pay7 v8 ld = k0_pay1 v8 ld := rfl
theorem pay8_eq (v8 : IVec S16 32) (ld : Vec F S1x16 .i32) : k0_pay8 v8 ld = k0_pay1 v8 ld := rfl

/-- A word below 100 times 256 plus a lane number below 16, as a natural number. -/
theorem addr_toNat (w : BitVec 32) (x : Fin 16) (hw : w.toNat < 100) :
    (w * 256#32 + BitVec.ofNat 32 x.val).toNat = w.toNat * 256 + x.val := by
  have hx := x.isLt
  rw [BitVec.toNat_add, BitVec.toNat_mul, BitVec.toNat_ofNat]
  show (w.toNat * 256 % 2 ^ 32 + x.val % 2 ^ 32) % 2 ^ 32 = _
  omega

/-- Lane `x` of the address vector over the lane numbers, as a natural number, when the loaded word is below 100. -/
theorem pay1_toNat (ld : Vec F S1x16 .i32) (x : Fin 16) (hw : (ld (ix2 (0 : Fin 1) x)).toNat < 100) :
    (k0_pay1 lanes ld (ix1 x)).toNat = (ld (ix2 (0 : Fin 1) x)).toNat * 256 + x.val := by
  rw [pay1_apply, lanes_apply, addr_toNat _ _ hw]

/-- Every lane of the address vector is below 25600 when every loaded word is below 100. -/
theorem pay1_lt (ld : Vec F S1x16 .i32) (h : ∀ x : Fin 16, (ld (ix2 (0 : Fin 1) x)).toNat < 100) (y : S16.Idx) :
    (k0_pay1 lanes ld y).toNat < 25600 := by
  obtain ⟨x, rfl⟩ : ∃ x : Fin 16, y = ix1 x := ⟨y 0, eq_ix1 y⟩
  rw [pay1_toNat ld x (h x)]
  have := h x
  have := x.isLt
  omega

/-- Check 1 of a trip holds of a vector all of whose lanes are addresses below 25600. -/
theorem chk1_of_lt (v : IVec S16 32) (h : ∀ x : S16.Idx, (v x).toNat < 25600) : k0_chk1 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 2 of a trip holds of a vector all of whose lanes are addresses below 25600. -/
theorem chk2_of_lt (v : IVec S16 32) (h : ∀ x : S16.Idx, (v x).toNat < 25600) : k0_chk2 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 3 of a trip holds of a vector all of whose lanes are addresses below 25600. -/
theorem chk3_of_lt (v : IVec S16 32) (h : ∀ x : S16.Idx, (v x).toNat < 25600) : k0_chk3 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 4 of a trip holds of a vector all of whose lanes are addresses below 25600. -/
theorem chk4_of_lt (v : IVec S16 32) (h : ∀ x : S16.Idx, (v x).toNat < 25600) : k0_chk4 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 5 of a trip holds of a vector all of whose lanes are addresses below 25600. -/
theorem chk5_of_lt (v : IVec S16 32) (h : ∀ x : S16.Idx, (v x).toNat < 25600) : k0_chk5 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 6 of a trip holds of a vector all of whose lanes are addresses below 25600. -/
theorem chk6_of_lt (v : IVec S16 32) (h : ∀ x : S16.Idx, (v x).toNat < 25600) : k0_chk6 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 7 of a trip holds of a vector all of whose lanes are addresses below 25600. -/
theorem chk7_of_lt (v : IVec S16 32) (h : ∀ x : S16.Idx, (v x).toNat < 25600) : k0_chk7 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 8 of a trip holds of a vector all of whose lanes are addresses below 25600. -/
theorem chk8_of_lt (v : IVec S16 32) (h : ∀ x : S16.Idx, (v x).toNat < 25600) : k0_chk8 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-! ## The index words a trip loads -/

/-- Whatever the column, an index load of trip `t` reads row `t % 4` of the index scratch. -/
theorem off13_row (L : grid0.Coords) (t : Fin (k0_t1_loop L).trips) (g : Fin k0_t2_loop.trips) (c : BitVec 32) :
    k0_off13 L t g c 0 = t.val % 4 :=
  congrFun (k0_off13_eq L t g ⟨0, by decide⟩) 0

/-- The address vector formed from an index load of trip `t` has every lane below 25600 when every word of row
    `t % 4` of the index scratch is below 100. -/
theorem chk_row (L : grid0.Coords) (t : Fin (k0_t1_loop L).trips) (g : Fin k0_t2_loop.trips) (c : BitVec 32)
    (inb : ∀ a, k0_off13 L t g c a + S1x16.size a ≤ S4x640.size a) (fiv : S4x640.Idx → BitVec 32)
    (hfiv : ∀ i : S4x640.Idx, (i 0).val = t.val % 4 → (fiv i).toNat < 100) (y : S16.Idx) :
    (k0_pay1 (F := F) lanes
      (View.readAt (Elt F) (Memref.whole cc0_scratch1 : Memref sig .scVector .vmem S4x640 .i32).view
        (Rect.unit (s := S4x640) (k0_off13 L t g c) S1x16.size inb).toLoadRect fiv) y).toNat < 25600 := by
  refine pay1_lt _ (fun x => ?_) y
  rw [View.readAt_apply]
  refine hfiv _ ?_
  show k0_off13 L t g c 0 + 1 * 0 = t.val % 4
  rw [off13_row, Nat.mul_zero, Nat.add_zero]

end Cert.Proof.KernelIdealSc

end
-- ==== Proof.ScTripRun.lean ====
/-
  One trip of the inner loop, run once. From the table scratch, row `t % 4` of the index scratch
  (every word below 100) and the two halves of slot `t % 4` of the output scratch, trip `g` loads
  eight vectors of sixteen index words, forms their addresses, gathers through the sixteen
  windows of the table scratch and stores 128 vectors, 64 into each half. The run finds what each
  half holds afterwards — a chain of 64 stores over what it held before — and this module keeps
  that as the run's own witness, so that the values can be read off it elsewhere without running
  the trip again.
-/
import proofs.«202852_g34127810134284_cont_8to1_b_1476_20_alg».proof.Proof.ScInnerSpec
import proofs.«202852_g34127810134284_cont_8to1_b_1476_20_alg».proof.Proof.ScAddr
import Idealize.ShloMosaic.Lib.Tactic

noncomputable section

namespace Cert.Proof.KernelIdealSc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

set_option maxHeartbeats 4000000 in
/-- Trip `g` of the inner loop of outer trip `t`: what the two halves hold afterwards, with the run that leaves it. -/
noncomputable def tripRun (d : Dev nD) (L : grid0.Coords)
    (t : Fin (k0_t1_loop L).trips) (g : Fin k0_t2_loop.trips) (v4 v46 : BitVec 32) (u : Unit)
    (ftv : Buf (Elt F) (tvM.view.loc (thrOf d L)))
    (fiv : Buf (Elt F) (ivM.view.loc (thrOf d L)))
    (fo0 fo1 : Buf (Elt F) (ovM.view.loc (thrOf d L)))
    (hfiv : ∀ i : S4x640.Idx, (i 0).val = t.val % 4 → (fiv i).toNat < 100) :
    Σ' (out0 : Buf (Elt F) (ovM.view.loc (thrOf d L))),
      { out1 : Buf (Elt F) (ovM.view.loc (thrOf d L)) //
        ∀ (K : Unit → sProp 𝕄),
          iprop((tvM.view.loc (thrOf d L) ↦{fullShare} ftv)
            ∗ ((ivSlot (k0_off5 L t) (k0_off5_inb L t)).view.loc (thrOf d L) ↦[(ivSlot (k0_off5 L t) (k0_off5_inb L t)).view.set]{fullShare} fiv)
            ∗ ((ovSlot (k0_off142 L t) (k0_off142_inb L t)).view.loc (thrOf d L) ↦[(ovSlot (k0_off142 L t) (k0_off142_inb L t)).view.set]{fullShare} fo0)
            ∗ ((ovSlot (k0_off144 L t) (k0_off144_inb L t)).view.loc (thrOf d L) ↦[(ovSlot (k0_off144 L t) (k0_off144_inb L t)).view.set]{fullShare} fo1)
            ∗ (iprop((tvM.view.loc (thrOf d L) ↦{fullShare} ftv)
            ∗ ((ivSlot (k0_off5 L t) (k0_off5_inb L t)).view.loc (thrOf d L) ↦[(ivSlot (k0_off5 L t) (k0_off5_inb L t)).view.set]{fullShare} fiv)
            ∗ ((ovSlot (k0_off142 L t) (k0_off142_inb L t)).view.loc (thrOf d L) ↦[(ovSlot (k0_off142 L t) (k0_off142_inb L t)).view.set]{fullShare} out0)
            ∗ ((ovSlot (k0_off144 L t) (k0_off144_inb L t)).view.loc (thrOf d L) ↦[(ovSlot (k0_off144 L t) (k0_off144_inb L t)).view.set]{fullShare} out1)) -∗ K ()))
          ⊢ wp frame (wpE (defs₀ (F := F)) 𝒱₀ (thrOf d L) none) Set.univ
              (k0_t2_body L idxM (Memref.isWhole_whole _) tabM (Memref.isWhole_whole _) outM (Memref.isWhole_whole _)
                tvM (Memref.isWhole_whole _) ivM (Memref.isWhole_whole _) ovM (Memref.isWhole_whole _) cc0_scratch3 cc0_scratch4 cc0_scoped0
                v4 lanes 0#32 1#32 t v46 g u)
              K } :=
  ⟨_, _, fun K => by
    have hg5 : g.val < 5 := Nat.lt_of_lt_of_le g.isLt k0_t2_abs.2.1
    have ht157 : t.val < 157 := Nat.lt_of_lt_of_le t.isLt (k0_t1_abs L).2.1
    iintro ⟨Htv, Hiv, Ho0, Ho1, Hk⟩
    sl_unfold [k0_t2_body]
    sl_unfold [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29]
    sl_respell [SparseCore.vectorLoadIdx]
    sl_exec (disch := (sl_unfold_run_names; first
        | exact chk1_of_lt _ (chk_row L t g _ _ fiv hfiv)
        | exact chk2_of_lt _ (chk_row L t g _ _ fiv hfiv)
        | exact chk3_of_lt _ (chk_row L t g _ _ fiv hfiv)
        | exact chk4_of_lt _ (chk_row L t g _ _ fiv hfiv)
        | exact chk5_of_lt _ (chk_row L t g _ _ fiv hfiv)
        | exact chk6_of_lt _ (chk_row L t g _ _ fiv hfiv)
        | exact chk7_of_lt _ (chk_row L t g _ _ fiv hfiv)
        | exact chk8_of_lt _ (chk_row L t g _ _ fiv hfiv)))
    sl_step
    iapply Hk
    isplitl [Htv]; · iexact Htv
    isplitl [Hiv]; · iexact Hiv
    isplitl [Ho0]; · iexact Ho0
    iexact Ho1⟩

end Cert.Proof.KernelIdealSc

end
-- ==== Proof.ScWrite.lean ====
/-
  One store of sixteen lanes into the output scratch, read back. A trip writes its row of one
  half of a slot in 64 stores of sixteen lanes: store number `k` (0 … 63) goes to block row
  `k % 8` and lanes `16 (k / 8) … 16 (k / 8) + 15`. Call an element of the scratch covered after
  `k` stores when it lies in the trip's slot, half and row and its store number
  `8 (lane / 16) + block row` is below `k`. If, after `k` stores, the scratch holds one function
  `G` on the covered elements and its first contents elsewhere, and store `k` writes `G`'s values,
  the same holds after `k + 1` stores.
-/
import proofs.«202852_g34127810134284_cont_8to1_b_1476_20_alg».proof.Proof.Gen.KernelIdeal
import Idealize.ShloMosaic.Lib.ValueIdx

noncomputable section

namespace Cert.Proof.KernelIdealSc

open Cert.KernelIdeal Cert.KernelIdeal.Gen
open Idealize.ShloMosaic Idealize.ShloMosaic.ValueIdx

variable {F : FTy → Type}

/-- Element `i` of the output scratch lies in slot `p`, half `h`, row `g`, and its store's number is below `k`. -/
def covH (p h g k : ℕ) (i : S4x2x5x8x128.Idx) : Prop :=
  (i 0).val = p ∧ (i 1).val = h ∧ (i 2).val = g ∧ 8 * ((i 4).val / 16) + (i 3).val < k

instance (p h g k : ℕ) (i : S4x2x5x8x128.Idx) : Decidable (covH p h g k i) := by
  unfold covH; infer_instance

theorem covH_zero (p h g : ℕ) (i : S4x2x5x8x128.Idx) : ¬covH p h g 0 i := fun hc => Nat.not_lt_zero _ hc.2.2.2

/-- The rectangle of store `k`. -/
abbrev pieceRect (p h g k : ℕ)
    (inb : ∀ a, (![p, h, g, k % 8, 16 * (k / 8)] : Fin 5 → Nat) a + S1x1x1x1x16.size a ≤ S4x2x5x8x128.size a) :
    Rect S4x2x5x8x128 :=
  Rect.unit (s := S4x2x5x8x128) ![p, h, g, k % 8, 16 * (k / 8)] S1x1x1x1x16.size inb

/-- An element of store `k`'s rectangle is covered after `k + 1` stores. -/
theorem covH_emb (p h g k : ℕ) (inb) (x : (pieceRect p h g k inb).shape.Idx) :
    covH p h g (k + 1) ((pieceRect p h g k inb).emb x) := by
  have h0 : (x 0).val < 1 := (x 0).isLt
  have h1 : (x 1).val < 1 := (x 1).isLt
  have h2 : (x 2).val < 1 := (x 2).isLt
  have h3 : (x 3).val < 1 := (x 3).isLt
  have h4 : (x 4).val < 16 := (x 4).isLt
  refine ⟨?_, ?_, ?_, ?_⟩
  · show p + 1 * (x 0).val = p; omega
  · show h + 1 * (x 1).val = h; omega
  · show g + 1 * (x 2).val = g; omega
  · show 8 * ((16 * (k / 8) + 1 * (x 4).val) / 16) + (k % 8 + 1 * (x 3).val) < k + 1; omega

/-- Outside store `k`'s rectangle, covered after `k + 1` stores is covered after `k`. -/
theorem covH_succ_iff (p h g k : ℕ) (inb) (i : S4x2x5x8x128.Idx) (hi : i ∉ (pieceRect p h g k inb).set) :
    covH p h g (k + 1) i ↔ covH p h g k i := by
  constructor
  · rintro ⟨e0, e1, e2, e3⟩
    refine ⟨e0, e1, e2, ?_⟩
    by_contra hk
    refine hi (Rect.mem_set_unit.mpr fun a => ?_)
    have b3 : (i 3).val < 8 := (i 3).isLt
    have b4 : (i 4).val < 128 := (i 4).isLt
    match a with
    | ⟨0, _⟩ => exact ⟨by show p ≤ (i 0).val; omega, by show (i 0).val < p + 1; omega⟩
    | ⟨1, _⟩ => exact ⟨by show h ≤ (i 1).val; omega, by show (i 1).val < h + 1; omega⟩
    | ⟨2, _⟩ => exact ⟨by show g ≤ (i 2).val; omega, by show (i 2).val < g + 1; omega⟩
    | ⟨3, _⟩ => exact ⟨by show k % 8 ≤ (i 3).val; omega, by show (i 3).val < k % 8 + 1; omega⟩
    | ⟨4, _⟩ => exact ⟨by show 16 * (k / 8) ≤ (i 4).val; omega, by show (i 4).val < 16 * (k / 8) + 16; omega⟩
  · rintro ⟨e0, e1, e2, e3⟩
    exact ⟨e0, e1, e2, by omega⟩

/-- The step: store `k` extends what is covered from `k` to `k + 1`. -/
theorem write_piece (p h g k : ℕ) (f fo G : S4x2x5x8x128.Idx → F .f32)
    (hprev : ∀ i, f i = if covH p h g k i then G i else fo i)
    (off : Fin 5 → Nat) (hoff : off = ![p, h, g, k % 8, 16 * (k / 8)])
    (inb : ∀ a, off a + S1x1x1x1x16.size a ≤ S4x2x5x8x128.size a)
    (w : (Rect.unit (s := S4x2x5x8x128) off S1x1x1x1x16.size inb).shape.Idx → F .f32)
    (hw : ∀ x, w x = G ((Rect.unit (s := S4x2x5x8x128) off S1x1x1x1x16.size inb).emb x)) (i : S4x2x5x8x128.Idx) :
    View.write (Elt F)
        ((View.whole cc0_scratch2).slice (Rect.unit (s := S4x2x5x8x128) off S1x1x1x1x16.size inb)) f w Finset.univ i
      = if covH p h g (k + 1) i then G i else fo i := by
  subst hoff
  by_cases hi : i ∈ (pieceRect p h g k inb).set
  · obtain ⟨x, rfl⟩ := (pieceRect p h g k inb).exists_idx_of_mem hi
    have e := View.read_slice_write_emb (v := View.whole cc0_scratch2) (Val := Elt F) (pieceRect p h g k inb) f w
      (Finset.mem_univ x)
    rw [View.read_whole] at e
    exact (e.trans (hw x)).trans (if_pos (covH_emb p h g k inb x)).symm
  · have e := View.read_slice_write_of_not_mem (v := View.whole cc0_scratch2) (Val := Elt F) (pieceRect p h g k inb) f w
      Finset.univ (y := i) (by rwa [Rect.map_emb_univ])
    rw [View.read_whole, View.read_whole] at e
    refine e.trans ((hprev i).trans ?_)
    have hiff := covH_succ_iff p h g k inb i hi
    by_cases hc : covH p h g k i
    · rw [if_pos hc, if_pos (hiff.mpr hc)]
    · rw [if_neg hc, if_neg (fun h' => hc (hiff.mp h'))]

end Cert.Proof.KernelIdealSc

end
-- ==== Proof.ScVal.lean ====
/-
  What a trip leaves in the output scratch, as one function of the table scratch, the index
  scratch and the element. Element `(p, h, g, q, j)` — slot `p`, half `h`, row `g`, block row `q`,
  lane `j` — receives the table scratch's entry at `256 w + 16 (8 h + q) + j % 16`, where `w` is
  word `128 g + j` of row `p` of the index scratch: the table row the word names starts at
  `256 w`, its column `8 h + q` occupies sixteen consecutive entries, and lane `j` reads entry
  `j % 16` of them. The two reductions (`% 640`, `% 25840`) only make the function total; they
  change nothing at the elements of a row whose words are below 100.
-/
import proofs.«202852_g34127810134284_cont_8to1_b_1476_20_alg».proof.Proof.Gen.KernelIdeal
import Idealize.ShloMosaic.Lib.ValueIdx

noncomputable section

namespace Cert.Proof.KernelIdealSc

open Cert.KernelIdeal Cert.KernelIdeal.Gen
open Idealize.ShloMosaic Idealize.ShloMosaic.ValueIdx

variable {F : FTy → Type}

/-- The index word element `i` of the output scratch is gathered by. -/
def wordOf (fiv : S4x640.Idx → BitVec 32) (i : S4x2x5x8x128.Idx) : BitVec 32 :=
  fiv (ix2 (⟨(i 0).val, (i 0).isLt⟩ : Fin 4)
    (⟨(128 * (i 2).val + (i 4).val) % 640, Nat.mod_lt _ (by decide)⟩ : Fin 640))

/-- The position in the table scratch element `i` of the output scratch is gathered from. -/
def posOf (fiv : S4x640.Idx → BitVec 32) (i : S4x2x5x8x128.Idx) : Fin 25840 :=
  ⟨((wordOf fiv i).toNat * 256 + (8 * (i 1).val + (i 3).val) * 16 + (i 4).val % 16) % 25840,
    Nat.mod_lt _ (by decide)⟩

/-- What a trip leaves at element `i` of the output scratch. -/
def tripVal (ftv : S25840.Idx → F .f32) (fiv : S4x640.Idx → BitVec 32) (i : S4x2x5x8x128.Idx) : F .f32 :=
  ftv (ix1 (posOf fiv i))

/-- At coordinates, with the word below 100, the two reductions drop out. -/
theorem tripVal_apply (ftv : S25840.Idx → F .f32) (fiv : S4x640.Idx → BitVec 32)
    (p : Fin 4) (h : Fin 2) (g : Fin 5) (q : Fin 8) (j : Fin 128)
    (hw : (fiv (ix2 p (⟨128 * g.val + j.val, by have := g.isLt; have := j.isLt; omega⟩ : Fin 640))).toNat < 100) :
    tripVal ftv fiv (ix5 p h g q j)
      = ftv (ix1 (⟨(fiv (ix2 p (⟨128 * g.val + j.val, by have := g.isLt; have := j.isLt; omega⟩ : Fin 640))).toNat * 256
          + (8 * h.val + q.val) * 16 + j.val % 16,
          by have := h.isLt; have := q.isLt; have := j.isLt; omega⟩ : Fin 25840)) := by
  have hg := g.isLt
  have hj := j.isLt
  have hh := h.isLt
  have hq := q.isLt
  have e640 : (128 * g.val + j.val) % 640 = 128 * g.val + j.val := Nat.mod_eq_of_lt (by omega)
  have hword : wordOf fiv (ix5 p h g q j)
      = fiv (ix2 p (⟨128 * g.val + j.val, by omega⟩ : Fin 640)) := by
    unfold wordOf
    refine congrArg fiv (congrArg (ix2 p) (Fin.ext ?_))
    exact e640
  unfold tripVal
  refine congrArg ftv (congrArg ix1 (Fin.ext ?_))
  show ((wordOf fiv (ix5 p h g q j)).toNat * 256 + (8 * h.val + q.val) * 16 + j.val % 16) % 25840 = _
  rw [hword]
  exact Nat.mod_eq_of_lt (by omega)

end Cert.Proof.KernelIdealSc

end
-- ==== Proof.ScPay.lean ====
/-
  What one store of a trip writes. The vector stored at block row `q` of half `h`, lanes
  `16 s … 16 s + 15`, is a gather through the window of the table scratch that starts at
  `16 (8 h + q)`, at the addresses formed from index words `128 g + 16 s … + 15` of the trip's row:
  lane `l` reads the table scratch at `16 (8 h + q) + 256 w + l`, `w` the lane's index word — which
  is the value `tripVal` assigns to the element the lane is stored at.
-/
import proofs.«202852_g34127810134284_cont_8to1_b_1476_20_alg».proof.Proof.ScAddr
import proofs.«202852_g34127810134284_cont_8to1_b_1476_20_alg».proof.Proof.ScVal
import Idealize.ShloMosaic.Lib.Exec.Geometry

noncomputable section

namespace Cert.Proof.KernelIdealSc

open Cert.KernelIdeal Cert.KernelIdeal.Gen
open Idealize.ShloMosaic Idealize.ShloMosaic.ValueIdx

variable {F : FTy → Type} [FloatOps F]

/-- Lane `l` of the address vector formed from the index load at column `128 g + 16 s` of row `t % 4`: the word at
    column `128 g + 16 s + l` times 256, plus `l`. -/
theorem addr_of_load (L : grid0.Coords) (t : Fin (k0_t1_loop L).trips) (g : Fin k0_t2_loop.trips) (c : BitVec 32)
    (s : ℕ) (hs : s < 8)
    (hc : k0_off13 L t g c = ![t.val % 4, 128 * g.val + 16 * s])
    (inb : ∀ a, k0_off13 L t g c a + S1x16.size a ≤ S4x640.size a) (fiv : S4x640.Idx → BitVec 32)
    (hfiv : ∀ i : S4x640.Idx, (i 0).val = t.val % 4 → (fiv i).toNat < 100) (l : Fin 16) :
    (k0_pay1 (F := F) lanes
        (View.readAt (Elt F) (Memref.whole cc0_scratch1 : Memref sig .scVector .vmem S4x640 .i32).view
          (Rect.unit (s := S4x640) (k0_off13 L t g c) S1x16.size inb).toLoadRect fiv) (ix1 l)).toNat
      = (fiv (ix2 (⟨t.val % 4, Nat.mod_lt _ (by decide)⟩ : Fin 4)
          (⟨128 * g.val + 16 * s + l.val, by
            have := Nat.lt_of_lt_of_le g.isLt k0_t2_abs.2.1; have := l.isLt; omega⟩ : Fin 640))).toNat * 256 + l.val := by
  have hg5 : g.val < 5 := Nat.lt_of_lt_of_le g.isLt k0_t2_abs.2.1
  have hl := l.isLt
  have hidx : (Rect.unit (s := S4x640) (k0_off13 L t g c) S1x16.size inb).toLoadRect.idx (ix2 (0 : Fin 1) l)
      = ix2 (⟨t.val % 4, Nat.mod_lt _ (by decide)⟩ : Fin 4) (⟨128 * g.val + 16 * s + l.val, by omega⟩ : Fin 640) := by
    funext a
    refine Fin.ext ?_
    match a with
    | ⟨0, _⟩ =>
      show k0_off13 L t g c 0 + 1 * 0 = t.val % 4
      rw [hc]; show t.val % 4 + 1 * 0 = t.val % 4; omega
    | ⟨1, _⟩ =>
      show k0_off13 L t g c 1 + 1 * l.val = 128 * g.val + 16 * s + l.val
      rw [hc]; show 128 * g.val + 16 * s + 1 * l.val = _; omega
  have hrd : View.readAt (Elt F) (Memref.whole cc0_scratch1 : Memref sig .scVector .vmem S4x640 .i32).view
      (Rect.unit (s := S4x640) (k0_off13 L t g c) S1x16.size inb).toLoadRect fiv (ix2 (0 : Fin 1) l)
      = fiv (ix2 (⟨t.val % 4, Nat.mod_lt _ (by decide)⟩ : Fin 4) (⟨128 * g.val + 16 * s + l.val, by omega⟩ : Fin 640)) := by
    rw [View.readAt_apply, hidx]; rfl
  rw [pay1_toNat _ l (by rw [hrd]; exact hfiv _ rfl), hrd]

/-- The gathered vector, shape-cast for the store, at lane `x` of the stored rectangle: `tripVal` at the element. -/
theorem pay_ok (ftv : S25840.Idx → F .f32) (fiv : S4x640.Idx → BitVec 32) (p g h q s : ℕ)
    (hp : p < 4) (hg : g < 5) (hh : h < 2) (hq : q < 8) (hs : s < 8)
    (off : Fin 5 → Nat) (hoff : off = ![p, h, g, q, 16 * s])
    (inb : ∀ a, off a + S1x1x1x1x16.size a ≤ S4x2x5x8x128.size a)
    (o1 : Fin 1 → Nat) (ho1 : o1 = ![16 * (8 * h + q)])
    (inb1 : ∀ a, o1 a + S25600.size a ≤ S25840.size a)
    (hst : ∀ a, (Rect.unit (s := S25840) o1 S25600.size inb1).stride a = 1)
    (A : IVec S16 32)
    (hA : ∀ l : Fin 16, (A (ix1 l)).toNat
      = (fiv (ix2 (⟨p, hp⟩ : Fin 4) (⟨128 * g + 16 * s + l.val, by have := l.isLt; omega⟩ : Fin 640))).toNat * 256 + l.val)
    (hwd : ∀ l : Fin 16,
      (fiv (ix2 (⟨p, hp⟩ : Fin 4) (⟨128 * g + 16 * s + l.val, by have := l.isLt; omega⟩ : Fin 640))).toNat < 100)
    (hchk : ∀ a x, ((![A] : Fin 1 → IVec S16 32) a x).toNat < S25600.size a)
    (hsc : S16.ShapeCasts S1x1x1x1x16)
    (x : (Rect.unit (s := S4x2x5x8x128) off S1x1x1x1x16.size inb).shape.Idx) :
    shapeCast S1x1x1x1x16
        (loadIdx (View.readAt (Elt F) (Memref.whole cc0_scratch0 : Memref sig .scVector .vmem S25840 .f32).view
          ((Rect.unit (s := S25840) o1 S25600.size inb1).withinL (LoadRect.whole S25600) hst) ftv) ![A] hchk) hsc x
      = tripVal ftv fiv ((Rect.unit (s := S4x2x5x8x128) off S1x1x1x1x16.size inb).emb x) := by
  subst hoff
  subst ho1
  have h0 : (x 0).val < 1 := (x 0).isLt
  have h1 : (x 1).val < 1 := (x 1).isLt
  have h2 : (x 2).val < 1 := (x 2).isLt
  have h3 : (x 3).val < 1 := (x 3).isLt
  have h4 : (x 4).val < 16 := (x 4).isLt
  -- the lane
  obtain ⟨l, hl⟩ : ∃ l : Fin 16, l.val = (x 4).val := ⟨⟨(x 4).val, h4⟩, rfl⟩
  -- the shape cast reads the gathered vector at the lane
  rw [shapeCast_apply _ hsc x (ix1 l) (by
    rw [Shape.rowMajor_val_one, Shape.rowMajor_val_five]
    show l.val = ((((x 0).val * 1 + (x 1).val) * 1 + (x 2).val) * 1 + (x 3).val) * 16 + (x 4).val
    omega)]
  -- the word at the lane
  have hword : wordOf fiv ((Rect.unit (s := S4x2x5x8x128) ![p, h, g, q, 16 * s] S1x1x1x1x16.size inb).emb x)
      = fiv (ix2 (⟨p, hp⟩ : Fin 4) (⟨128 * g + 16 * s + l.val, by have := l.isLt; omega⟩ : Fin 640)) := by
    unfold wordOf
    refine congrArg fiv ?_
    funext a
    refine Fin.ext ?_
    match a with
    | ⟨0, _⟩ => show p + 1 * (x 0).val = p; omega
    | ⟨1, _⟩ => show (128 * (g + 1 * (x 2).val) + (16 * s + 1 * (x 4).val)) % 640 = 128 * g + 16 * s + l.val; omega
  have hw := hwd l
  unfold tripVal
  show ftv _ = ftv _
  refine congrArg ftv ?_
  funext a
  obtain ⟨av, hav⟩ := a
  have hav1 : av < 1 := hav
  obtain rfl : av = 0 := Nat.lt_one_iff.mp hav1
  refine Fin.ext ?_
  show 16 * (8 * h + q) + 0 + 1 * (A (ix1 l)).toNat
      = ((wordOf fiv ((Rect.unit (s := S4x2x5x8x128) ![p, h, g, q, 16 * s] S1x1x1x1x16.size inb).emb x)).toNat * 256
          + (8 * (h + 1 * (x 1).val) + (q + 1 * (x 3).val)) * 16 + (16 * s + 1 * (x 4).val) % 16) % 25840
  rw [hword, hA l]
  omega

end Cert.Proof.KernelIdealSc

end
-- ==== Proof.ScTripVal.lean ====
/-
  The values one trip of the inner loop leaves. Each half of the slot's output is, after the
  run, a chain of 64 stores over what it held before. Store by store — each a gather through
  one window of the table scratch at one of the trip's eight address vectors — what is covered
  holds `tripVal` and the rest is untouched; after the 64th, the whole row `g` of the half holds
  `tripVal` and every other row what it held before.
-/
import proofs.«202852_g34127810134284_cont_8to1_b_1476_20_alg».proof.Proof.ScTripRun
import proofs.«202852_g34127810134284_cont_8to1_b_1476_20_alg».proof.Proof.ScWrite
import proofs.«202852_g34127810134284_cont_8to1_b_1476_20_alg».proof.Proof.ScPay

noncomputable section

namespace Cert.Proof.KernelIdealSc

open Cert.KernelIdeal Cert.KernelIdeal.Gen
open Idealize.ShloMosaic Idealize.ShloMosaic.ValueIdx

variable {F : FTy → Type} [FloatOps F]

variable (d : Dev nD) (L : grid0.Coords) (t : Fin (k0_t1_loop L).trips) (g : Fin k0_t2_loop.trips)
  (ftv : Buf (Elt F) (tvM.view.loc (thrOf d L))) (fiv : Buf (Elt F) (ivM.view.loc (thrOf d L)))
  (fo0 fo1 : Buf (Elt F) (ovM.view.loc (thrOf d L)))
  (hfiv : ∀ i : S4x640.Idx, (i 0).val = t.val % 4 → (fiv i).toNat < 100)

theorem inner_lt : g.val < 5 := Nat.lt_of_lt_of_le g.isLt k0_t2_abs.2.1

/-! ## The eight address vectors -/

include hfiv

theorem addr0 (l : Fin 16) :
    (tripRun.sl.v96 d L t g fiv (ix1 l)).toNat
      = (fiv (ix2 (⟨t.val % 4, Nat.mod_lt _ (by decide)⟩ : Fin 4)
          (⟨128 * g.val + 16 * 0 + l.val, by have := inner_lt g; have := l.isLt; omega⟩ : Fin 640))).toNat * 256 + l.val :=
  addr_of_load L t g _ 0 (by decide) (k0_off13_eq L t g ⟨0, by decide⟩) _ fiv hfiv l

theorem addr1 (l : Fin 16) :
    (tripRun.sl.v104 d L t g fiv (ix1 l)).toNat
      = (fiv (ix2 (⟨t.val % 4, Nat.mod_lt _ (by decide)⟩ : Fin 4)
          (⟨128 * g.val + 16 * 1 + l.val, by have := inner_lt g; have := l.isLt; omega⟩ : Fin 640))).toNat * 256 + l.val :=
  addr_of_load L t g _ 1 (by decide) (k0_off13_eq L t g ⟨1, by decide⟩) _ fiv hfiv l

theorem addr2 (l : Fin 16) :
    (tripRun.sl.v112 d L t g fiv (ix1 l)).toNat
      = (fiv (ix2 (⟨t.val % 4, Nat.mod_lt _ (by decide)⟩ : Fin 4)
          (⟨128 * g.val + 16 * 2 + l.val, by have := inner_lt g; have := l.isLt; omega⟩ : Fin 640))).toNat * 256 + l.val :=
  addr_of_load L t g _ 2 (by decide) (k0_off13_eq L t g ⟨2, by decide⟩) _ fiv hfiv l

theorem addr3 (l : Fin 16) :
    (tripRun.sl.v120 d L t g fiv (ix1 l)).toNat
      = (fiv (ix2 (⟨t.val % 4, Nat.mod_lt _ (by decide)⟩ : Fin 4)
          (⟨128 * g.val + 16 * 3 + l.val, by have := inner_lt g; have := l.isLt; omega⟩ : Fin 640))).toNat * 256 + l.val :=
  addr_of_load L t g _ 3 (by decide) (k0_off13_eq L t g ⟨3, by decide⟩) _ fiv hfiv l

theorem addr4 (l : Fin 16) :
    (tripRun.sl.v128 d L t g fiv (ix1 l)).toNat
      = (fiv (ix2 (⟨t.val % 4, Nat.mod_lt _ (by decide)⟩ : Fin 4)
          (⟨128 * g.val + 16 * 4 + l.val, by have := inner_lt g; have := l.isLt; omega⟩ : Fin 640))).toNat * 256 + l.val :=
  addr_of_load L t g _ 4 (by decide) (k0_off13_eq L t g ⟨4, by decide⟩) _ fiv hfiv l

theorem addr5 (l : Fin 16) :
    (tripRun.sl.v136 d L t g fiv (ix1 l)).toNat
      = (fiv (ix2 (⟨t.val % 4, Nat.mod_lt _ (by decide)⟩ : Fin 4)
          (⟨128 * g.val + 16 * 5 + l.val, by have := inner_lt g; have := l.isLt; omega⟩ : Fin 640))).toNat * 256 + l.val :=
  addr_of_load L t g _ 5 (by decide) (k0_off13_eq L t g ⟨5, by decide⟩) _ fiv hfiv l

theorem addr6 (l : Fin 16) :
    (tripRun.sl.v144 d L t g fiv (ix1 l)).toNat
      = (fiv (ix2 (⟨t.val % 4, Nat.mod_lt _ (by decide)⟩ : Fin 4)
          (⟨128 * g.val + 16 * 6 + l.val, by have := inner_lt g; have := l.isLt; omega⟩ : Fin 640))).toNat * 256 + l.val :=
  addr_of_load L t g _ 6 (by decide) (k0_off13_eq L t g ⟨6, by decide⟩) _ fiv hfiv l

theorem addr7 (l : Fin 16) :
    (tripRun.sl.v152 d L t g fiv (ix1 l)).toNat
      = (fiv (ix2 (⟨t.val % 4, Nat.mod_lt _ (by decide)⟩ : Fin 4)
          (⟨128 * g.val + 16 * 7 + l.val, by have := inner_lt g; have := l.isLt; omega⟩ : Fin 640))).toNat * 256 + l.val :=
  addr_of_load L t g _ 7 (by decide) (k0_off13_eq L t g ⟨7, by decide⟩) _ fiv hfiv l

/-! ## Half 0, store by store -/

theorem cov0_0 (i : S4x2x5x8x128.Idx) :
    tripRun.sl.Ho0_w1 d L t g ftv fiv fo0 hfiv i
      = if covH (t.val % 4) 0 g.val 1 i then tripVal ftv fiv i else fo0 i :=
  write_piece (t.val % 4) 0 g.val 0 _ fo0 (tripVal ftv fiv) (fun i => (if_neg (covH_zero _ _ _ i)).symm) _ (k0_off14_eq L t g) _ _
    (pay_ok ftv fiv (t.val % 4) g.val 0 0 0 (Nat.mod_lt _ (by decide)) (inner_lt g) (by decide) (by decide) (by decide)
      _ (k0_off14_eq L t g) _ _ rfl _ _ _ (addr0 d L t g fiv hfiv) (fun l => hfiv _ rfl) _ _) i

theorem cov0_1 (i : S4x2x5x8x128.Idx) :
    tripRun.sl.Ho0_w2 d L t g ftv fiv fo0 hfiv i
      = if covH (t.val % 4) 0 g.val 2 i then tripVal ftv fiv i else fo0 i :=
  write_piece (t.val % 4) 0 g.val 1 _ fo0 (tripVal ftv fiv) (cov0_0 d L t g ftv fiv fo0 hfiv) _ (k0_off15_eq L t g) _ _
    (pay_ok ftv fiv (t.val % 4) g.val 0 1 0 (Nat.mod_lt _ (by decide)) (inner_lt g) (by decide) (by decide) (by decide)
      _ (k0_off15_eq L t g) _ _ rfl _ _ _ (addr0 d L t g fiv hfiv) (fun l => hfiv _ rfl) _ _) i

theorem cov0_2 (i : S4x2x5x8x128.Idx) :
    tripRun.sl.Ho0_w3 d L t g ftv fiv fo0 hfiv i
      = if covH (t.val % 4) 0 g.val 3 i then tripVal ftv fiv i else fo0 i :=
  write_piece (t.val % 4) 0 g.val 2 _ fo0 (tripVal ftv fiv) (cov0_1 d L t g ftv fiv fo0 hfiv) _ (k0_off16_eq L t g) _ _
    (pay_ok ftv fiv (t.val % 4) g.val 0 2 0 (Nat.mod_lt _ (by decide)) (inner_lt g) (by decide) (by decide) (by decide)
      _ (k0_off16_eq L t g) _ _ rfl _ _ _ (addr0 d L t g fiv hfiv) (fun l => hfiv _ rfl) _ _) i

theorem cov0_3 (i : S4x2x5x8x128.Idx) :
    tripRun.sl.Ho0_w4 d L t g ftv fiv fo0 hfiv i
      = if covH (t.val % 4) 0 g.val 4 i then tripVal ftv fiv i else fo0 i :=
  write_piece (t.val % 4) 0 g.val 3 _ fo0 (tripVal ftv fiv) (cov0_2 d L t g ftv fiv fo0 hfiv) _ (k0_off17_eq L t g) _ _
    (pay_ok ftv fiv (t.val % 4) g.val 0 3 0 (Nat.mod_lt _ (by decide)) (inner_lt g) (by decide) (by decide) (by decide)
      _ (k0_off17_eq L t g) _ _ rfl _ _ _ (addr0 d L t g fiv hfiv) (fun l => hfiv _ rfl) _ _) i

theorem cov0_4 (i : S4x2x5x8x128.Idx) :
    tripRun.sl.Ho0_w5 d L t g ftv fiv fo0 hfiv i
      = if covH (t.val % 4) 0 g.val 5 i then tripVal ftv fiv i else fo0 i :=
  write_piece (t.val % 4) 0 g.val 4 _ fo0 (tripVal ftv fiv) (cov0_3 d L t g ftv fiv fo0 hfiv) _ (k0_off18_eq L t g) _ _
    (pay_ok ftv fiv (t.val % 4) g.val 0 4 0 (Nat.mod_lt _ (by decide)) (inner_lt g) (by decide) (by decide) (by decide)
      _ (k0_off18_eq L t g) _ _ rfl _ _ _ (addr0 d L t g fiv hfiv) (fun l => hfiv _ rfl) _ _) i

theorem cov0_5 (i : S4x2x5x8x128.Idx) :
    tripRun.sl.Ho0_w6 d L t g ftv fiv fo0 hfiv i
      = if covH (t.val % 4) 0 g.val 6 i then tripVal ftv fiv i else fo0 i :=
  write_piece (t.val % 4) 0 g.val 5 _ fo0 (tripVal ftv fiv) (cov0_4 d L t g ftv fiv fo0 hfiv) _ (k0_off19_eq L t g) _ _
    (pay_ok ftv fiv (t.val % 4) g.val 0 5 0 (Nat.mod_lt _ (by decide)) (inner_lt g) (by decide) (by decide) (by decide)
      _ (k0_off19_eq L t g) _ _ rfl _ _ _ (addr0 d L t g fiv hfiv) (fun l => hfiv _ rfl) _ _) i

theorem cov0_6 (i : S4x2x5x8x128.Idx) :
    tripRun.sl.Ho0_w7 d L t g ftv fiv fo0 hfiv i
      = if covH (t.val % 4) 0 g.val 7 i then tripVal ftv fiv i else fo0 i :=
  write_piece (t.val % 4) 0 g.val 6 _ fo0 (tripVal ftv fiv) (cov0_5 d L t g ftv fiv fo0 hfiv) _ (k0_off20_eq L t g) _ _
    (pay_ok ftv fiv (t.val % 4) g.val 0 6 0 (Nat.mod_lt _ (by decide)) (inner_lt g) (by decide) (by decide) (by decide)
      _ (k0_off20_eq L t g) _ _ rfl _ _ _ (addr0 d L t g fiv hfiv) (fun l => hfiv _ rfl) _ _) i

theorem cov0_7 (i : S4x2x5x8x128.Idx) :
    tripRun.sl.Ho0_w8 d L t g ftv fiv fo0 hfiv i
      = if covH (t.val % 4) 0 g.val 8 i then tripVal ftv fiv i else fo0 i :=
  write_piece (t.val % 4) 0 g.val 7 _ fo0 (tripVal ftv fiv) (cov0_6 d L t g ftv fiv fo0 hfiv) _ (k0_off21_eq L t g) _ _
    (pay_ok ftv fiv (t.val % 4) g.val 0 7 0 (Nat.mod_lt _ (by decide)) (inner_lt g) (by decide) (by decide) (by decide)
      _ (k0_off21_eq L t g) _ _ rfl _ _ _ (addr0 d L t g fiv hfiv) (fun l => hfiv _ rfl) _ _) i

theorem cov0_8 (i : S4x2x5x8x128.Idx) :
    tripRun.sl.Ho0_w17 d L t g ftv fiv fo0 hfiv i
      = if covH (t.val % 4) 0 g.val 9 i then tripVal ftv fiv i else fo0 i :=
  write_piece (t.val % 4) 0 g.val 8 _ fo0 (tripVal ftv fiv) (cov0_7 d L t g ftv fiv fo0 hfiv) _ (k0_off30_eq L t g) _ _
    (pay_ok ftv fiv (t.val % 4) g.val 0 0 1 (Nat.mod_lt _ (by decide)) (inner_lt g) (by decide) (by decide) (by decide)
      _ (k0_off30_eq L t g) _ _ rfl _ _ _ (addr1 d L t g fiv hfiv) (fun l => hfiv _ rfl) _ _) i

theorem cov0_9 (i : S4x2x5x8x128.Idx) :
    tripRun.sl.Ho0_w18 d L t g ftv fiv fo0 hfiv i
      = if covH (t.val % 4) 0 g.val 10 i then tripVal ftv fiv i else fo0 i :=
  write_piece (t.val % 4) 0 g.val 9 _ fo0 (tripVal ftv fiv) (cov0_8 d L t g ftv fiv fo0 hfiv) _ (k0_off31_eq L t g) _ _
    (pay_ok ftv fiv (t.val % 4) g.val 0 1 1 (Nat.mod_lt _ (by decide)) (inner_lt g) (by decide) (by decide) (by decide)
      _ (k0_off31_eq L t g) _ _ rfl _ _ _ (addr1 d L t g fiv hfiv) (fun l => hfiv _ rfl) _ _) i

theorem cov0_10 (i : S4x2x5x8x128.Idx) :
    tripRun.sl.Ho0_w19 d L t g ftv fiv fo0 hfiv i
      = if covH (t.val % 4) 0 g.val 11 i then tripVal ftv fiv i else fo0 i :=
  write_piece (t.val % 4) 0 g.val 10 _ fo0 (tripVal ftv fiv) (cov0_9 d L t g ftv fiv fo0 hfiv) _ (k0_off32_eq L t g) _ _
    (pay_ok ftv fiv (t.val % 4) g.val 0 2 1 (Nat.mod_lt _ (by decide)) (inner_lt g) (by decide) (by decide) (by decide)
      _ (k0_off32_eq L t g) _ _ rfl _ _ _ (addr1 d L t g fiv hfiv) (fun l => hfiv _ rfl) _ _) i

theorem cov0_11 (i : S4x2x5x8x128.Idx) :
    tripRun.sl.Ho0_w20 d L t g ftv fiv fo0 hfiv i
      = if covH (t.val % 4) 0 g.val 12 i then tripVal ftv fiv i else fo0 i :=
  write_piece (t.val % 4) 0 g.val 11 _ fo0 (tripVal ftv fiv) (cov0_10 d L t g ftv fiv fo0 hfiv) _ (k0_off33_eq L t g) _ _
    (pay_ok ftv fiv (t.val % 4) g.val 0 3 1 (Nat.mod_lt _ (by decide)) (inner_lt g) (by decide) (by decide) (by decide)
      _ (k0_off33_eq L t g) _ _ rfl _ _ _ (addr1 d L t g fiv hfiv) (fun l => hfiv _ rfl) _ _) i

theorem cov0_12 (i : S4x2x5x8x128.Idx) :
    tripRun.sl.Ho0_w21 d L t g ftv fiv fo0 hfiv i
      = if covH (t.val % 4) 0 g.val 13 i then tripVal ftv fiv i else fo0 i :=
  write_piece (t.val % 4) 0 g.val 12 _ fo0 (tripVal ftv fiv) (cov0_11 d L t g ftv fiv fo0 hfiv) _ (k0_off34_eq L t g) _ _
    (pay_ok ftv fiv (t.val % 4) g.val 0 4 1 (Nat.mod_lt _ (by decide)) (inner_lt g) (by decide) (by decide) (by decide)
      _ (k0_off34_eq L t g) _ _ rfl _ _ _ (addr1 d L t g fiv hfiv) (fun l => hfiv _ rfl) _ _) i

theorem cov0_13 (i : S4x2x5x8x128.Idx) :
    tripRun.sl.Ho0_w22 d L t g ftv fiv fo0 hfiv i
      = if covH (t.val % 4) 0 g.val 14 i then tripVal ftv fiv i else fo0 i :=
  write_piece (t.val % 4) 0 g.val 13 _ fo0 (tripVal ftv fiv) (cov0_12 d L t g ftv fiv fo0 hfiv) _ (k0_off35_eq L t g) _ _
    (pay_ok ftv fiv (t.val % 4) g.val 0 5 1 (Nat.mod_lt _ (by decide)) (inner_lt g) (by decide) (by decide) (by decide)
      _ (k0_off35_eq L t g) _ _ rfl _ _ _ (addr1 d L t g fiv hfiv) (fun l => hfiv _ rfl) _ _) i

theorem cov0_14 (i : S4x2x5x8x128.Idx) :
    tripRun.sl.Ho0_w23 d L t g ftv fiv fo0 hfiv i
      = if covH (t.val % 4) 0 g.val 15 i then tripVal ftv fiv i else fo0 i :=
  write_piece (t.val % 4) 0 g.val 14 _ fo0 (tripVal ftv fiv) (cov0_13 d L t g ftv fiv fo0 hfiv) _ (k0_off36_eq L t g) _ _
    (pay_ok ftv fiv (t.val % 4) g.val 0 6 1 (Nat.mod_lt _ (by decide)) (inner_lt g) (by decide) (by decide) (by decide)
      _ (k0_off36_eq L t g) _ _ rfl _ _ _ (addr1 d L t g fiv hfiv) (fun l => hfiv _ rfl) _ _) i

theorem cov0_15 (i : S4x2x5x8x128.Idx) :
    tripRun.sl.Ho0_w24 d L t g ftv fiv fo0 hfiv i
      = if covH (t.val % 4) 0 g.val 16 i then tripVal ftv fiv i else fo0 i :=
  write_piece (t.val % 4) 0 g.val 15 _ fo0 (tripVal ftv fiv) (cov0_14 d L t g ftv fiv fo0 hfiv) _ (k0_off37_eq L t g) _ _
    (pay_ok ftv fiv (t.val % 4) g.val 0 7 1 (Nat.mod_lt _ (by decide)) (inner_lt g) (by decide) (by decide) (by decide)
      _ (k0_off37_eq L t g) _ _ rfl _ _ _ (addr1 d L t g fiv hfiv) (fun l => hfiv _ rfl) _ _) i

theorem cov0_16 (i : S4x2x5x8x128.Idx) :
    tripRun.sl.Ho0_w33 d L t g ftv fiv fo0 hfiv i
      = if covH (t.val % 4) 0 g.val 17 i then tripVal ftv fiv i else fo0 i :=
  write_piece (t.val % 4) 0 g.val 16 _ fo0 (tripVal ftv fiv) (cov0_15 d L t g ftv fiv fo0 hfiv) _ (k0_off46_eq L t g) _ _
    (pay_ok ftv fiv (t.val % 4) g.val 0 0 2 (Nat.mod_lt _ (by decide)) (inner_lt g) (by decide) (by decide) (by decide)
      _ (k0_off46_eq L t g) _ _ rfl _ _ _ (addr2 d L t g fiv hfiv) (fun l => hfiv _ rfl) _ _) i

theorem cov0_17 (i : S4x2x5x8x128.Idx) :
    tripRun.sl.Ho0_w34 d L t g ftv fiv fo0 hfiv i
      = if covH (t.val % 4) 0 g.val 18 i then tripVal ftv fiv i else fo0 i :=
  write_piece (t.val % 4) 0 g.val 17 _ fo0 (tripVal ftv fiv) (cov0_16 d L t g ftv fiv fo0 hfiv) _ (k0_off47_eq L t g) _ _
    (pay_ok ftv fiv (t.val % 4) g.val 0 1 2 (Nat.mod_lt _ (by decide)) (inner_lt g) (by decide) (by decide) (by decide)
      _ (k0_off47_eq L t g) _ _ rfl _ _ _ (addr2 d L t g fiv hfiv) (fun l => hfiv _ rfl) _ _) i

theorem cov0_18 (i : S4x2x5x8x128.Idx) :
    tripRun.sl.Ho0_w35 d L t g ftv fiv fo0 hfiv i
      = if covH (t.val % 4) 0 g.val 19 i then tripVal ftv fiv i else fo0 i :=
  write_piece (t.val % 4) 0 g.val 18 _ fo0 (tripVal ftv fiv) (cov0_17 d L t g ftv fiv fo0 hfiv) _ (k0_off48_eq L t g) _ _
    (pay_ok ftv fiv (t.val % 4) g.val 0 2 2 (Nat.mod_lt _ (by decide)) (inner_lt g) (by decide) (by decide) (by decide)
      _ (k0_off48_eq L t g) _ _ rfl _ _ _ (addr2 d L t g fiv hfiv) (fun l => hfiv _ rfl) _ _) i

theorem cov0_19 (i : S4x2x5x8x128.Idx) :
    tripRun.sl.Ho0_w36 d L t g ftv fiv fo0 hfiv i
      = if covH (t.val % 4) 0 g.val 20 i then tripVal ftv fiv i else fo0 i :=
  write_piece (t.val % 4) 0 g.val 19 _ fo0 (tripVal ftv fiv) (cov0_18 d L t g ftv fiv fo0 hfiv) _ (k0_off49_eq L t g) _ _
    (pay_ok ftv fiv (t.val % 4) g.val 0 3 2 (Nat.mod_lt _ (by decide)) (inner_lt g) (by decide) (by decide) (by decide)
      _ (k0_off49_eq L t g) _ _ rfl _ _ _ (addr2 d L t g fiv hfiv) (fun l => hfiv _ rfl) _ _) i

theorem cov0_20 (i : S4x2x5x8x128.Idx) :
    tripRun.sl.Ho0_w37 d L t g ftv fiv fo0 hfiv i
      = if covH (t.val % 4) 0 g.val 21 i then tripVal ftv fiv i else fo0 i :=
  write_piece (t.val % 4) 0 g.val 20 _ fo0 (tripVal ftv fiv) (cov0_19 d L t g ftv fiv fo0 hfiv) _ (k0_off50_eq L t g) _ _
    (pay_ok ftv fiv (t.val % 4) g.val 0 4 2 (Nat.mod_lt _ (by decide)) (inner_lt g) (by decide) (by decide) (by decide)
      _ (k0_off50_eq L t g) _ _ rfl _ _ _ (addr2 d L t g fiv hfiv) (fun l => hfiv _ rfl) _ _) i

theorem cov0_21 (i : S4x2x5x8x128.Idx) :
    tripRun.sl.Ho0_w38 d L t g ftv fiv fo0 hfiv i
      = if covH (t.val % 4) 0 g.val 22 i then tripVal ftv fiv i else fo0 i :=
  write_piece (t.val % 4) 0 g.val 21 _ fo0 (tripVal ftv fiv) (cov0_20 d L t g ftv fiv fo0 hfiv) _ (k0_off51_eq L t g) _ _
    (pay_ok ftv fiv (t.val % 4) g.val 0 5 2 (Nat.mod_lt _ (by decide)) (inner_lt g) (by decide) (by decide) (by decide)
      _ (k0_off51_eq L t g) _ _ rfl _ _ _ (addr2 d L t g fiv hfiv) (fun l => hfiv _ rfl) _ _) i

theorem cov0_22 (i : S4x2x5x8x128.Idx) :
    tripRun.sl.Ho0_w39 d L t g ftv fiv fo0 hfiv i
      = if covH (t.val % 4) 0 g.val 23 i then tripVal ftv fiv i else fo0 i :=
  write_piece (t.val % 4) 0 g.val 22 _ fo0 (tripVal ftv fiv) (cov0_21 d L t g ftv fiv fo0 hfiv) _ (k0_off52_eq L t g) _ _
    (pay_ok ftv fiv (t.val % 4) g.val 0 6 2 (Nat.mod_lt _ (by decide)) (inner_lt g) (by decide) (by decide) (by decide)
      _ (k0_off52_eq L t g) _ _ rfl _ _ _ (addr2 d L t g fiv hfiv) (fun l => hfiv _ rfl) _ _) i

theorem cov0_23 (i : S4x2x5x8x128.Idx) :
    tripRun.sl.Ho0_w40 d L t g ftv fiv fo0 hfiv i
      = if covH (t.val % 4) 0 g.val 24 i then tripVal ftv fiv i else fo0 i :=
  write_piece (t.val % 4) 0 g.val 23 _ fo0 (tripVal ftv fiv) (cov0_22 d L t g ftv fiv fo0 hfiv) _ (k0_off53_eq L t g) _ _
    (pay_ok ftv fiv (t.val % 4) g.val 0 7 2 (Nat.mod_lt _ (by decide)) (inner_lt g) (by decide) (by decide) (by decide)
      _ (k0_off53_eq L t g) _ _ rfl _ _ _ (addr2 d L t g fiv hfiv) (fun l => hfiv _ rfl) _ _) i

theorem cov0_24 (i : S4x2x5x8x128.Idx) :
    tripRun.sl.Ho0_w49 d L t g ftv fiv fo0 hfiv i
      = if covH (t.val % 4) 0 g.val 25 i then tripVal ftv fiv i else fo0 i :=
  write_piece (t.val % 4) 0 g.val 24 _ fo0 (tripVal ftv fiv) (cov0_23 d L t g ftv fiv fo0 hfiv) _ (k0_off62_eq L t g) _ _
    (pay_ok ftv fiv (t.val % 4) g.val 0 0 3 (Nat.mod_lt _ (by decide)) (inner_lt g) (by decide) (by decide) (by decide)
      _ (k0_off62_eq L t g) _ _ rfl _ _ _ (addr3 d L t g fiv hfiv) (fun l => hfiv _ rfl) _ _) i

theorem cov0_25 (i : S4x2x5x8x128.Idx) :
    tripRun.sl.Ho0_w50 d L t g ftv fiv fo0 hfiv i
      = if covH (t.val % 4) 0 g.val 26 i then tripVal ftv fiv i else fo0 i :=
  write_piece (t.val % 4) 0 g.val 25 _ fo0 (tripVal ftv fiv) (cov0_24 d L t g ftv fiv fo0 hfiv) _ (k0_off63_eq L t g) _ _
    (pay_ok ftv fiv (t.val % 4) g.val 0 1 3 (Nat.mod_lt _ (by decide)) (inner_lt g) (by decide) (by decide) (by decide)
      _ (k0_off63_eq L t g) _ _ rfl _ _ _ (addr3 d L t g fiv hfiv) (fun l => hfiv _ rfl) _ _) i

theorem cov0_26 (i : S4x2x5x8x128.Idx) :
    tripRun.sl.Ho0_w51 d L t g ftv fiv fo0 hfiv i
      = if covH (t.val % 4) 0 g.val 27 i then tripVal ftv fiv i else fo0 i :=
  write_piece (t.val % 4) 0 g.val 26 _ fo0 (tripVal ftv fiv) (cov0_25 d L t g ftv fiv fo0 hfiv) _ (k0_off64_eq L t g) _ _
    (pay_ok ftv fiv (t.val % 4) g.val 0 2 3 (Nat.mod_lt _ (by decide)) (inner_lt g) (by decide) (by decide) (by decide)
      _ (k0_off64_eq L t g) _ _ rfl _ _ _ (addr3 d L t g fiv hfiv) (fun l => hfiv _ rfl) _ _) i

theorem cov0_27 (i : S4x2x5x8x128.Idx) :
    tripRun.sl.Ho0_w52 d L t g ftv fiv fo0 hfiv i
      = if covH (t.val % 4) 0 g.val 28 i then tripVal ftv fiv i else fo0 i :=
  write_piece (t.val % 4) 0 g.val 27 _ fo0 (tripVal ftv fiv) (cov0_26 d L t g ftv fiv fo0 hfiv) _ (k0_off65_eq L t g) _ _
    (pay_ok ftv fiv (t.val % 4) g.val 0 3 3 (Nat.mod_lt _ (by decide)) (inner_lt g) (by decide) (by decide) (by decide)
      _ (k0_off65_eq L t g) _ _ rfl _ _ _ (addr3 d L t g fiv hfiv) (fun l => hfiv _ rfl) _ _) i

theorem cov0_28 (i : S4x2x5x8x128.Idx) :
    tripRun.sl.Ho0_w53 d L t g ftv fiv fo0 hfiv i
      = if covH (t.val % 4) 0 g.val 29 i then tripVal ftv fiv i else fo0 i :=
  write_piece (t.val % 4) 0 g.val 28 _ fo0 (tripVal ftv fiv) (cov0_27 d L t g ftv fiv fo0 hfiv) _ (k0_off66_eq L t g) _ _
    (pay_ok ftv fiv (t.val % 4) g.val 0 4 3 (Nat.mod_lt _ (by decide)) (inner_lt g) (by decide) (by decide) (by decide)
      _ (k0_off66_eq L t g) _ _ rfl _ _ _ (addr3 d L t g fiv hfiv) (fun l => hfiv _ rfl) _ _) i

theorem cov0_29 (i : S4x2x5x8x128.Idx) :
    tripRun.sl.Ho0_w54 d L t g ftv fiv fo0 hfiv i
      = if covH (t.val % 4) 0 g.val 30 i then tripVal ftv fiv i else fo0 i :=
  write_piece (t.val % 4) 0 g.val 29 _ fo0 (tripVal ftv fiv) (cov0_28 d L t g ftv fiv fo0 hfiv) _ (k0_off67_eq L t g) _ _
    (pay_ok ftv fiv (t.val % 4) g.val 0 5 3 (Nat.mod_lt _ (by decide)) (inner_lt g) (by decide) (by decide) (by decide)
      _ (k0_off67_eq L t g) _ _ rfl _ _ _ (addr3 d L t g fiv hfiv) (fun l => hfiv _ rfl) _ _) i

theorem cov0_30 (i : S4x2x5x8x128.Idx) :
    tripRun.sl.Ho0_w55 d L t g ftv fiv fo0 hfiv i
      = if covH (t.val % 4) 0 g.val 31 i then tripVal ftv fiv i else fo0 i :=
  write_piece (t.val % 4) 0 g.val 30 _ fo0 (tripVal ftv fiv) (cov0_29 d L t g ftv fiv fo0 hfiv) _ (k0_off68_eq L t g) _ _
    (pay_ok ftv fiv (t.val % 4) g.val 0 6 3 (Nat.mod_lt _ (by decide)) (inner_lt g) (by decide) (by decide) (by decide)
      _ (k0_off68_eq L t g) _ _ rfl _ _ _ (addr3 d L t g fiv hfiv) (fun l => hfiv _ rfl) _ _) i

theorem cov0_31 (i : S4x2x5x8x128.Idx) :
    tripRun.sl.Ho0_w56 d L t g ftv fiv fo0 hfiv i
      = if covH (t.val % 4) 0 g.val 32 i then tripVal ftv fiv i else fo0 i :=
  write_piece (t.val % 4) 0 g.val 31 _ fo0 (tripVal ftv fiv) (cov0_30 d L t g ftv fiv fo0 hfiv) _ (k0_off69_eq L t g) _ _
    (pay_ok ftv fiv (t.val % 4) g.val 0 7 3 (Nat.mod_lt _ (by decide)) (inner_lt g) (by decide) (by decide) (by decide)
      _ (k0_off69_eq L t g) _ _ rfl _ _ _ (addr3 d L t g fiv hfiv) (fun l => hfiv _ rfl) _ _) i

theorem cov0_32 (i : S4x2x5x8x128.Idx) :
    tripRun.sl.Ho0_w65 d L t g ftv fiv fo0 hfiv i
      = if covH (t.val % 4) 0 g.val 33 i then tripVal ftv fiv i else fo0 i :=
  write_piece (t.val % 4) 0 g.val 32 _ fo0 (tripVal ftv fiv) (cov0_31 d L t g ftv fiv fo0 hfiv) _ (k0_off78_eq L t g) _ _
    (pay_ok ftv fiv (t.val % 4) g.val 0 0 4 (Nat.mod_lt _ (by decide)) (inner_lt g) (by decide) (by decide) (by decide)
      _ (k0_off78_eq L t g) _ _ rfl _ _ _ (addr4 d L t g fiv hfiv) (fun l => hfiv _ rfl) _ _) i

theorem cov0_33 (i : S4x2x5x8x128.Idx) :
    tripRun.sl.Ho0_w66 d L t g ftv fiv fo0 hfiv i
      = if covH (t.val % 4) 0 g.val 34 i then tripVal ftv fiv i else fo0 i :=
  write_piece (t.val % 4) 0 g.val 33 _ fo0 (tripVal ftv fiv) (cov0_32 d L t g ftv fiv fo0 hfiv) _ (k0_off79_eq L t g) _ _
    (pay_ok ftv fiv (t.val % 4) g.val 0 1 4 (Nat.mod_lt _ (by decide)) (inner_lt g) (by decide) (by decide) (by decide)
      _ (k0_off79_eq L t g) _ _ rfl _ _ _ (addr4 d L t g fiv hfiv) (fun l => hfiv _ rfl) _ _) i

theorem cov0_34 (i : S4x2x5x8x128.Idx) :
    tripRun.sl.Ho0_w67 d L t g ftv fiv fo0 hfiv i
      = if covH (t.val % 4) 0 g.val 35 i then tripVal ftv fiv i else fo0 i :=
  write_piece (t.val % 4) 0 g.val 34 _ fo0 (tripVal ftv fiv) (cov0_33 d L t g ftv fiv fo0 hfiv) _ (k0_off80_eq L t g) _ _
    (pay_ok ftv fiv (t.val % 4) g.val 0 2 4 (Nat.mod_lt _ (by decide)) (inner_lt g) (by decide) (by decide) (by decide)
      _ (k0_off80_eq L t g) _ _ rfl _ _ _ (addr4 d L t g fiv hfiv) (fun l => hfiv _ rfl) _ _) i

theorem cov0_35 (i : S4x2x5x8x128.Idx) :
    tripRun.sl.Ho0_w68 d L t g ftv fiv fo0 hfiv i
      = if covH (t.val % 4) 0 g.val 36 i then tripVal ftv fiv i else fo0 i :=
  write_piece (t.val % 4) 0 g.val 35 _ fo0 (tripVal ftv fiv) (cov0_34 d L t g ftv fiv fo0 hfiv) _ (k0_off81_eq L t g) _ _
    (pay_ok ftv fiv (t.val % 4) g.val 0 3 4 (Nat.mod_lt _ (by decide)) (inner_lt g) (by decide) (by decide) (by decide)
      _ (k0_off81_eq L t g) _ _ rfl _ _ _ (addr4 d L t g fiv hfiv) (fun l => hfiv _ rfl) _ _) i

theorem cov0_36 (i : S4x2x5x8x128.Idx) :
    tripRun.sl.Ho0_w69 d L t g ftv fiv fo0 hfiv i
      = if covH (t.val % 4) 0 g.val 37 i then tripVal ftv fiv i else fo0 i :=
  write_piece (t.val % 4) 0 g.val 36 _ fo0 (tripVal ftv fiv) (cov0_35 d L t g ftv fiv fo0 hfiv) _ (k0_off82_eq L t g) _ _
    (pay_ok ftv fiv (t.val % 4) g.val 0 4 4 (Nat.mod_lt _ (by decide)) (inner_lt g) (by decide) (by decide) (by decide)
      _ (k0_off82_eq L t g) _ _ rfl _ _ _ (addr4 d L t g fiv hfiv) (fun l => hfiv _ rfl) _ _) i

theorem cov0_37 (i : S4x2x5x8x128.Idx) :
    tripRun.sl.Ho0_w70 d L t g ftv fiv fo0 hfiv i
      = if covH (t.val % 4) 0 g.val 38 i then tripVal ftv fiv i else fo0 i :=
  write_piece (t.val % 4) 0 g.val 37 _ fo0 (tripVal ftv fiv) (cov0_36 d L t g ftv fiv fo0 hfiv) _ (k0_off83_eq L t g) _ _
    (pay_ok ftv fiv (t.val % 4) g.val 0 5 4 (Nat.mod_lt _ (by decide)) (inner_lt g) (by decide) (by decide) (by decide)
      _ (k0_off83_eq L t g) _ _ rfl _ _ _ (addr4 d L t g fiv hfiv) (fun l => hfiv _ rfl) _ _) i

theorem cov0_38 (i : S4x2x5x8x128.Idx) :
    tripRun.sl.Ho0_w71 d L t g ftv fiv fo0 hfiv i
      = if covH (t.val % 4) 0 g.val 39 i then tripVal ftv fiv i else fo0 i :=
  write_piece (t.val % 4) 0 g.val 38 _ fo0 (tripVal ftv fiv) (cov0_37 d L t g ftv fiv fo0 hfiv) _ (k0_off84_eq L t g) _ _
    (pay_ok ftv fiv (t.val % 4) g.val 0 6 4 (Nat.mod_lt _ (by decide)) (inner_lt g) (by decide) (by decide) (by decide)
      _ (k0_off84_eq L t g) _ _ rfl _ _ _ (addr4 d L t g fiv hfiv) (fun l => hfiv _ rfl) _ _) i

theorem cov0_39 (i : S4x2x5x8x128.Idx) :
    tripRun.sl.Ho0_w72 d L t g ftv fiv fo0 hfiv i
      = if covH (t.val % 4) 0 g.val 40 i then tripVal ftv fiv i else fo0 i :=
  write_piece (t.val % 4) 0 g.val 39 _ fo0 (tripVal ftv fiv) (cov0_38 d L t g ftv fiv fo0 hfiv) _ (k0_off85_eq L t g) _ _
    (pay_ok ftv fiv (t.val % 4) g.val 0 7 4 (Nat.mod_lt _ (by decide)) (inner_lt g) (by decide) (by decide) (by decide)
      _ (k0_off85_eq L t g) _ _ rfl _ _ _ (addr4 d L t g fiv hfiv) (fun l => hfiv _ rfl) _ _) i

theorem cov0_40 (i : S4x2x5x8x128.Idx) :
    tripRun.sl.Ho0_w81 d L t g ftv fiv fo0 hfiv i
      = if covH (t.val % 4) 0 g.val 41 i then tripVal ftv fiv i else fo0 i :=
  write_piece (t.val % 4) 0 g.val 40 _ fo0 (tripVal ftv fiv) (cov0_39 d L t g ftv fiv fo0 hfiv) _ (k0_off94_eq L t g) _ _
    (pay_ok ftv fiv (t.val % 4) g.val 0 0 5 (Nat.mod_lt _ (by decide)) (inner_lt g) (by decide) (by decide) (by decide)
      _ (k0_off94_eq L t g) _ _ rfl _ _ _ (addr5 d L t g fiv hfiv) (fun l => hfiv _ rfl) _ _) i

theorem cov0_41 (i : S4x2x5x8x128.Idx) :
    tripRun.sl.Ho0_w82 d L t g ftv fiv fo0 hfiv i
      = if covH (t.val % 4) 0 g.val 42 i then tripVal ftv fiv i else fo0 i :=
  write_piece (t.val % 4) 0 g.val 41 _ fo0 (tripVal ftv fiv) (cov0_40 d L t g ftv fiv fo0 hfiv) _ (k0_off95_eq L t g) _ _
    (pay_ok ftv fiv (t.val % 4) g.val 0 1 5 (Nat.mod_lt _ (by decide)) (inner_lt g) (by decide) (by decide) (by decide)
      _ (k0_off95_eq L t g) _ _ rfl _ _ _ (addr5 d L t g fiv hfiv) (fun l => hfiv _ rfl) _ _) i

theorem cov0_42 (i : S4x2x5x8x128.Idx) :
    tripRun.sl.Ho0_w83 d L t g ftv fiv fo0 hfiv i
      = if covH (t.val % 4) 0 g.val 43 i then tripVal ftv fiv i else fo0 i :=
  write_piece (t.val % 4) 0 g.val 42 _ fo0 (tripVal ftv fiv) (cov0_41 d L t g ftv fiv fo0 hfiv) _ (k0_off96_eq L t g) _ _
    (pay_ok ftv fiv (t.val % 4) g.val 0 2 5 (Nat.mod_lt _ (by decide)) (inner_lt g) (by decide) (by decide) (by decide)
      _ (k0_off96_eq L t g) _ _ rfl _ _ _ (addr5 d L t g fiv hfiv) (fun l => hfiv _ rfl) _ _) i

theorem cov0_43 (i : S4x2x5x8x128.Idx) :
    tripRun.sl.Ho0_w84 d L t g ftv fiv fo0 hfiv i
      = if covH (t.val % 4) 0 g.val 44 i then tripVal ftv fiv i else fo0 i :=
  write_piece (t.val % 4) 0 g.val 43 _ fo0 (tripVal ftv fiv) (cov0_42 d L t g ftv fiv fo0 hfiv) _ (k0_off97_eq L t g) _ _
    (pay_ok ftv fiv (t.val % 4) g.val 0 3 5 (Nat.mod_lt _ (by decide)) (inner_lt g) (by decide) (by decide) (by decide)
      _ (k0_off97_eq L t g) _ _ rfl _ _ _ (addr5 d L t g fiv hfiv) (fun l => hfiv _ rfl) _ _) i

theorem cov0_44 (i : S4x2x5x8x128.Idx) :
    tripRun.sl.Ho0_w85 d L t g ftv fiv fo0 hfiv i
      = if covH (t.val % 4) 0 g.val 45 i then tripVal ftv fiv i else fo0 i :=
  write_piece (t.val % 4) 0 g.val 44 _ fo0 (tripVal ftv fiv) (cov0_43 d L t g ftv fiv fo0 hfiv) _ (k0_off98_eq L t g) _ _
    (pay_ok ftv fiv (t.val % 4) g.val 0 4 5 (Nat.mod_lt _ (by decide)) (inner_lt g) (by decide) (by decide) (by decide)
      _ (k0_off98_eq L t g) _ _ rfl _ _ _ (addr5 d L t g fiv hfiv) (fun l => hfiv _ rfl) _ _) i

theorem cov0_45 (i : S4x2x5x8x128.Idx) :
    tripRun.sl.Ho0_w86 d L t g ftv fiv fo0 hfiv i
      = if covH (t.val % 4) 0 g.val 46 i then tripVal ftv fiv i else fo0 i :=
  write_piece (t.val % 4) 0 g.val 45 _ fo0 (tripVal ftv fiv) (cov0_44 d L t g ftv fiv fo0 hfiv) _ (k0_off99_eq L t g) _ _
    (pay_ok ftv fiv (t.val % 4) g.val 0 5 5 (Nat.mod_lt _ (by decide)) (inner_lt g) (by decide) (by decide) (by decide)
      _ (k0_off99_eq L t g) _ _ rfl _ _ _ (addr5 d L t g fiv hfiv) (fun l => hfiv _ rfl) _ _) i

theorem cov0_46 (i : S4x2x5x8x128.Idx) :
    tripRun.sl.Ho0_w87 d L t g ftv fiv fo0 hfiv i
      = if covH (t.val % 4) 0 g.val 47 i then tripVal ftv fiv i else fo0 i :=
  write_piece (t.val % 4) 0 g.val 46 _ fo0 (tripVal ftv fiv) (cov0_45 d L t g ftv fiv fo0 hfiv) _ (k0_off100_eq L t g) _ _
    (pay_ok ftv fiv (t.val % 4) g.val 0 6 5 (Nat.mod_lt _ (by decide)) (inner_lt g) (by decide) (by decide) (by decide)
      _ (k0_off100_eq L t g) _ _ rfl _ _ _ (addr5 d L t g fiv hfiv) (fun l => hfiv _ rfl) _ _) i

theorem cov0_47 (i : S4x2x5x8x128.Idx) :
    tripRun.sl.Ho0_w88 d L t g ftv fiv fo0 hfiv i
      = if covH (t.val % 4) 0 g.val 48 i then tripVal ftv fiv i else fo0 i :=
  write_piece (t.val % 4) 0 g.val 47 _ fo0 (tripVal ftv fiv) (cov0_46 d L t g ftv fiv fo0 hfiv) _ (k0_off101_eq L t g) _ _
    (pay_ok ftv fiv (t.val % 4) g.val 0 7 5 (Nat.mod_lt _ (by decide)) (inner_lt g) (by decide) (by decide) (by decide)
      _ (k0_off101_eq L t g) _ _ rfl _ _ _ (addr5 d L t g fiv hfiv) (fun l => hfiv _ rfl) _ _) i

theorem cov0_48 (i : S4x2x5x8x128.Idx) :
    tripRun.sl.Ho0_w97 d L t g ftv fiv fo0 hfiv i
      = if covH (t.val % 4) 0 g.val 49 i then tripVal ftv fiv i else fo0 i :=
  write_piece (t.val % 4) 0 g.val 48 _ fo0 (tripVal ftv fiv) (cov0_47 d L t g ftv fiv fo0 hfiv) _ (k0_off110_eq L t g) _ _
    (pay_ok ftv fiv (t.val % 4) g.val 0 0 6 (Nat.mod_lt _ (by decide)) (inner_lt g) (by decide) (by decide) (by decide)
      _ (k0_off110_eq L t g) _ _ rfl _ _ _ (addr6 d L t g fiv hfiv) (fun l => hfiv _ rfl) _ _) i

theorem cov0_49 (i : S4x2x5x8x128.Idx) :
    tripRun.sl.Ho0_w98 d L t g ftv fiv fo0 hfiv i
      = if covH (t.val % 4) 0 g.val 50 i then tripVal ftv fiv i else fo0 i :=
  write_piece (t.val % 4) 0 g.val 49 _ fo0 (tripVal ftv fiv) (cov0_48 d L t g ftv fiv fo0 hfiv) _ (k0_off111_eq L t g) _ _
    (pay_ok ftv fiv (t.val % 4) g.val 0 1 6 (Nat.mod_lt _ (by decide)) (inner_lt g) (by decide) (by decide) (by decide)
      _ (k0_off111_eq L t g) _ _ rfl _ _ _ (addr6 d L t g fiv hfiv) (fun l => hfiv _ rfl) _ _) i

theorem cov0_50 (i : S4x2x5x8x128.Idx) :
    tripRun.sl.Ho0_w99 d L t g ftv fiv fo0 hfiv i
      = if covH (t.val % 4) 0 g.val 51 i then tripVal ftv fiv i else fo0 i :=
  write_piece (t.val % 4) 0 g.val 50 _ fo0 (tripVal ftv fiv) (cov0_49 d L t g ftv fiv fo0 hfiv) _ (k0_off112_eq L t g) _ _
    (pay_ok ftv fiv (t.val % 4) g.val 0 2 6 (Nat.mod_lt _ (by decide)) (inner_lt g) (by decide) (by decide) (by decide)
      _ (k0_off112_eq L t g) _ _ rfl _ _ _ (addr6 d L t g fiv hfiv) (fun l => hfiv _ rfl) _ _) i

theorem cov0_51 (i : S4x2x5x8x128.Idx) :
    tripRun.sl.Ho0_w100 d L t g ftv fiv fo0 hfiv i
      = if covH (t.val % 4) 0 g.val 52 i then tripVal ftv fiv i else fo0 i :=
  write_piece (t.val % 4) 0 g.val 51 _ fo0 (tripVal ftv fiv) (cov0_50 d L t g ftv fiv fo0 hfiv) _ (k0_off113_eq L t g) _ _
    (pay_ok ftv fiv (t.val % 4) g.val 0 3 6 (Nat.mod_lt _ (by decide)) (inner_lt g) (by decide) (by decide) (by decide)
      _ (k0_off113_eq L t g) _ _ rfl _ _ _ (addr6 d L t g fiv hfiv) (fun l => hfiv _ rfl) _ _) i

theorem cov0_52 (i : S4x2x5x8x128.Idx) :
    tripRun.sl.Ho0_w101 d L t g ftv fiv fo0 hfiv i
      = if covH (t.val % 4) 0 g.val 53 i then tripVal ftv fiv i else fo0 i :=
  write_piece (t.val % 4) 0 g.val 52 _ fo0 (tripVal ftv fiv) (cov0_51 d L t g ftv fiv fo0 hfiv) _ (k0_off114_eq L t g) _ _
    (pay_ok ftv fiv (t.val % 4) g.val 0 4 6 (Nat.mod_lt _ (by decide)) (inner_lt g) (by decide) (by decide) (by decide)
      _ (k0_off114_eq L t g) _ _ rfl _ _ _ (addr6 d L t g fiv hfiv) (fun l => hfiv _ rfl) _ _) i

theorem cov0_53 (i : S4x2x5x8x128.Idx) :
    tripRun.sl.Ho0_w102 d L t g ftv fiv fo0 hfiv i
      = if covH (t.val % 4) 0 g.val 54 i then tripVal ftv fiv i else fo0 i :=
  write_piece (t.val % 4) 0 g.val 53 _ fo0 (tripVal ftv fiv) (cov0_52 d L t g ftv fiv fo0 hfiv) _ (k0_off115_eq L t g) _ _
    (pay_ok ftv fiv (t.val % 4) g.val 0 5 6 (Nat.mod_lt _ (by decide)) (inner_lt g) (by decide) (by decide) (by decide)
      _ (k0_off115_eq L t g) _ _ rfl _ _ _ (addr6 d L t g fiv hfiv) (fun l => hfiv _ rfl) _ _) i

theorem cov0_54 (i : S4x2x5x8x128.Idx) :
    tripRun.sl.Ho0_w103 d L t g ftv fiv fo0 hfiv i
      = if covH (t.val % 4) 0 g.val 55 i then tripVal ftv fiv i else fo0 i :=
  write_piece (t.val % 4) 0 g.val 54 _ fo0 (tripVal ftv fiv) (cov0_53 d L t g ftv fiv fo0 hfiv) _ (k0_off116_eq L t g) _ _
    (pay_ok ftv fiv (t.val % 4) g.val 0 6 6 (Nat.mod_lt _ (by decide)) (inner_lt g) (by decide) (by decide) (by decide)
      _ (k0_off116_eq L t g) _ _ rfl _ _ _ (addr6 d L t g fiv hfiv) (fun l => hfiv _ rfl) _ _) i

theorem cov0_55 (i : S4x2x5x8x128.Idx) :
    tripRun.sl.Ho0_w104 d L t g ftv fiv fo0 hfiv i
      = if covH (t.val % 4) 0 g.val 56 i then tripVal ftv fiv i else fo0 i :=
  write_piece (t.val % 4) 0 g.val 55 _ fo0 (tripVal ftv fiv) (cov0_54 d L t g ftv fiv fo0 hfiv) _ (k0_off117_eq L t g) _ _
    (pay_ok ftv fiv (t.val % 4) g.val 0 7 6 (Nat.mod_lt _ (by decide)) (inner_lt g) (by decide) (by decide) (by decide)
      _ (k0_off117_eq L t g) _ _ rfl _ _ _ (addr6 d L t g fiv hfiv) (fun l => hfiv _ rfl) _ _) i

theorem cov0_56 (i : S4x2x5x8x128.Idx) :
    tripRun.sl.Ho0_w113 d L t g ftv fiv fo0 hfiv i
      = if covH (t.val % 4) 0 g.val 57 i then tripVal ftv fiv i else fo0 i :=
  write_piece (t.val % 4) 0 g.val 56 _ fo0 (tripVal ftv fiv) (cov0_55 d L t g ftv fiv fo0 hfiv) _ (k0_off126_eq L t g) _ _
    (pay_ok ftv fiv (t.val % 4) g.val 0 0 7 (Nat.mod_lt _ (by decide)) (inner_lt g) (by decide) (by decide) (by decide)
      _ (k0_off126_eq L t g) _ _ rfl _ _ _ (addr7 d L t g fiv hfiv) (fun l => hfiv _ rfl) _ _) i

theorem cov0_57 (i : S4x2x5x8x128.Idx) :
    tripRun.sl.Ho0_w114 d L t g ftv fiv fo0 hfiv i
      = if covH (t.val % 4) 0 g.val 58 i then tripVal ftv fiv i else fo0 i :=
  write_piece (t.val % 4) 0 g.val 57 _ fo0 (tripVal ftv fiv) (cov0_56 d L t g ftv fiv fo0 hfiv) _ (k0_off127_eq L t g) _ _
    (pay_ok ftv fiv (t.val % 4) g.val 0 1 7 (Nat.mod_lt _ (by decide)) (inner_lt g) (by decide) (by decide) (by decide)
      _ (k0_off127_eq L t g) _ _ rfl _ _ _ (addr7 d L t g fiv hfiv) (fun l => hfiv _ rfl) _ _) i

theorem cov0_58 (i : S4x2x5x8x128.Idx) :
    tripRun.sl.Ho0_w115 d L t g ftv fiv fo0 hfiv i
      = if covH (t.val % 4) 0 g.val 59 i then tripVal ftv fiv i else fo0 i :=
  write_piece (t.val % 4) 0 g.val 58 _ fo0 (tripVal ftv fiv) (cov0_57 d L t g ftv fiv fo0 hfiv) _ (k0_off128_eq L t g) _ _
    (pay_ok ftv fiv (t.val % 4) g.val 0 2 7 (Nat.mod_lt _ (by decide)) (inner_lt g) (by decide) (by decide) (by decide)
      _ (k0_off128_eq L t g) _ _ rfl _ _ _ (addr7 d L t g fiv hfiv) (fun l => hfiv _ rfl) _ _) i

theorem cov0_59 (i : S4x2x5x8x128.Idx) :
    tripRun.sl.Ho0_w116 d L t g ftv fiv fo0 hfiv i
      = if covH (t.val % 4) 0 g.val 60 i then tripVal ftv fiv i else fo0 i :=
  write_piece (t.val % 4) 0 g.val 59 _ fo0 (tripVal ftv fiv) (cov0_58 d L t g ftv fiv fo0 hfiv) _ (k0_off129_eq L t g) _ _
    (pay_ok ftv fiv (t.val % 4) g.val 0 3 7 (Nat.mod_lt _ (by decide)) (inner_lt g) (by decide) (by decide) (by decide)
      _ (k0_off129_eq L t g) _ _ rfl _ _ _ (addr7 d L t g fiv hfiv) (fun l => hfiv _ rfl) _ _) i

theorem cov0_60 (i : S4x2x5x8x128.Idx) :
    tripRun.sl.Ho0_w117 d L t g ftv fiv fo0 hfiv i
      = if covH (t.val % 4) 0 g.val 61 i then tripVal ftv fiv i else fo0 i :=
  write_piece (t.val % 4) 0 g.val 60 _ fo0 (tripVal ftv fiv) (cov0_59 d L t g ftv fiv fo0 hfiv) _ (k0_off130_eq L t g) _ _
    (pay_ok ftv fiv (t.val % 4) g.val 0 4 7 (Nat.mod_lt _ (by decide)) (inner_lt g) (by decide) (by decide) (by decide)
      _ (k0_off130_eq L t g) _ _ rfl _ _ _ (addr7 d L t g fiv hfiv) (fun l => hfiv _ rfl) _ _) i

theorem cov0_61 (i : S4x2x5x8x128.Idx) :
    tripRun.sl.Ho0_w118 d L t g ftv fiv fo0 hfiv i
      = if covH (t.val % 4) 0 g.val 62 i then tripVal ftv fiv i else fo0 i :=
  write_piece (t.val % 4) 0 g.val 61 _ fo0 (tripVal ftv fiv) (cov0_60 d L t g ftv fiv fo0 hfiv) _ (k0_off131_eq L t g) _ _
    (pay_ok ftv fiv (t.val % 4) g.val 0 5 7 (Nat.mod_lt _ (by decide)) (inner_lt g) (by decide) (by decide) (by decide)
      _ (k0_off131_eq L t g) _ _ rfl _ _ _ (addr7 d L t g fiv hfiv) (fun l => hfiv _ rfl) _ _) i

theorem cov0_62 (i : S4x2x5x8x128.Idx) :
    tripRun.sl.Ho0_w119 d L t g ftv fiv fo0 hfiv i
      = if covH (t.val % 4) 0 g.val 63 i then tripVal ftv fiv i else fo0 i :=
  write_piece (t.val % 4) 0 g.val 62 _ fo0 (tripVal ftv fiv) (cov0_61 d L t g ftv fiv fo0 hfiv) _ (k0_off132_eq L t g) _ _
    (pay_ok ftv fiv (t.val % 4) g.val 0 6 7 (Nat.mod_lt _ (by decide)) (inner_lt g) (by decide) (by decide) (by decide)
      _ (k0_off132_eq L t g) _ _ rfl _ _ _ (addr7 d L t g fiv hfiv) (fun l => hfiv _ rfl) _ _) i

theorem cov0_63 (i : S4x2x5x8x128.Idx) :
    tripRun.sl.Ho0_w120 d L t g ftv fiv fo0 hfiv i
      = if covH (t.val % 4) 0 g.val 64 i then tripVal ftv fiv i else fo0 i :=
  write_piece (t.val % 4) 0 g.val 63 _ fo0 (tripVal ftv fiv) (cov0_62 d L t g ftv fiv fo0 hfiv) _ (k0_off133_eq L t g) _ _
    (pay_ok ftv fiv (t.val % 4) g.val 0 7 7 (Nat.mod_lt _ (by decide)) (inner_lt g) (by decide) (by decide) (by decide)
      _ (k0_off133_eq L t g) _ _ rfl _ _ _ (addr7 d L t g fiv hfiv) (fun l => hfiv _ rfl) _ _) i

/-! ## Half 1, store by store -/

theorem cov1_0 (i : S4x2x5x8x128.Idx) :
    tripRun.sl.Ho1_w9 d L t g ftv fiv fo1 hfiv i
      = if covH (t.val % 4) 1 g.val 1 i then tripVal ftv fiv i else fo1 i :=
  write_piece (t.val % 4) 1 g.val 0 _ fo1 (tripVal ftv fiv) (fun i => (if_neg (covH_zero _ _ _ i)).symm) _ (k0_off22_eq L t g) _ _
    (pay_ok ftv fiv (t.val % 4) g.val 1 0 0 (Nat.mod_lt _ (by decide)) (inner_lt g) (by decide) (by decide) (by decide)
      _ (k0_off22_eq L t g) _ _ rfl _ _ _ (addr0 d L t g fiv hfiv) (fun l => hfiv _ rfl) _ _) i

theorem cov1_1 (i : S4x2x5x8x128.Idx) :
    tripRun.sl.Ho1_w10 d L t g ftv fiv fo1 hfiv i
      = if covH (t.val % 4) 1 g.val 2 i then tripVal ftv fiv i else fo1 i :=
  write_piece (t.val % 4) 1 g.val 1 _ fo1 (tripVal ftv fiv) (cov1_0 d L t g ftv fiv fo1 hfiv) _ (k0_off23_eq L t g) _ _
    (pay_ok ftv fiv (t.val % 4) g.val 1 1 0 (Nat.mod_lt _ (by decide)) (inner_lt g) (by decide) (by decide) (by decide)
      _ (k0_off23_eq L t g) _ _ rfl _ _ _ (addr0 d L t g fiv hfiv) (fun l => hfiv _ rfl) _ _) i

theorem cov1_2 (i : S4x2x5x8x128.Idx) :
    tripRun.sl.Ho1_w11 d L t g ftv fiv fo1 hfiv i
      = if covH (t.val % 4) 1 g.val 3 i then tripVal ftv fiv i else fo1 i :=
  write_piece (t.val % 4) 1 g.val 2 _ fo1 (tripVal ftv fiv) (cov1_1 d L t g ftv fiv fo1 hfiv) _ (k0_off24_eq L t g) _ _
    (pay_ok ftv fiv (t.val % 4) g.val 1 2 0 (Nat.mod_lt _ (by decide)) (inner_lt g) (by decide) (by decide) (by decide)
      _ (k0_off24_eq L t g) _ _ rfl _ _ _ (addr0 d L t g fiv hfiv) (fun l => hfiv _ rfl) _ _) i

theorem cov1_3 (i : S4x2x5x8x128.Idx) :
    tripRun.sl.Ho1_w12 d L t g ftv fiv fo1 hfiv i
      = if covH (t.val % 4) 1 g.val 4 i then tripVal ftv fiv i else fo1 i :=
  write_piece (t.val % 4) 1 g.val 3 _ fo1 (tripVal ftv fiv) (cov1_2 d L t g ftv fiv fo1 hfiv) _ (k0_off25_eq L t g) _ _
    (pay_ok ftv fiv (t.val % 4) g.val 1 3 0 (Nat.mod_lt _ (by decide)) (inner_lt g) (by decide) (by decide) (by decide)
      _ (k0_off25_eq L t g) _ _ rfl _ _ _ (addr0 d L t g fiv hfiv) (fun l => hfiv _ rfl) _ _) i

theorem cov1_4 (i : S4x2x5x8x128.Idx) :
    tripRun.sl.Ho1_w13 d L t g ftv fiv fo1 hfiv i
      = if covH (t.val % 4) 1 g.val 5 i then tripVal ftv fiv i else fo1 i :=
  write_piece (t.val % 4) 1 g.val 4 _ fo1 (tripVal ftv fiv) (cov1_3 d L t g ftv fiv fo1 hfiv) _ (k0_off26_eq L t g) _ _
    (pay_ok ftv fiv (t.val % 4) g.val 1 4 0 (Nat.mod_lt _ (by decide)) (inner_lt g) (by decide) (by decide) (by decide)
      _ (k0_off26_eq L t g) _ _ rfl _ _ _ (addr0 d L t g fiv hfiv) (fun l => hfiv _ rfl) _ _) i

theorem cov1_5 (i : S4x2x5x8x128.Idx) :
    tripRun.sl.Ho1_w14 d L t g ftv fiv fo1 hfiv i
      = if covH (t.val % 4) 1 g.val 6 i then tripVal ftv fiv i else fo1 i :=
  write_piece (t.val % 4) 1 g.val 5 _ fo1 (tripVal ftv fiv) (cov1_4 d L t g ftv fiv fo1 hfiv) _ (k0_off27_eq L t g) _ _
    (pay_ok ftv fiv (t.val % 4) g.val 1 5 0 (Nat.mod_lt _ (by decide)) (inner_lt g) (by decide) (by decide) (by decide)
      _ (k0_off27_eq L t g) _ _ rfl _ _ _ (addr0 d L t g fiv hfiv) (fun l => hfiv _ rfl) _ _) i

theorem cov1_6 (i : S4x2x5x8x128.Idx) :
    tripRun.sl.Ho1_w15 d L t g ftv fiv fo1 hfiv i
      = if covH (t.val % 4) 1 g.val 7 i then tripVal ftv fiv i else fo1 i :=
  write_piece (t.val % 4) 1 g.val 6 _ fo1 (tripVal ftv fiv) (cov1_5 d L t g ftv fiv fo1 hfiv) _ (k0_off28_eq L t g) _ _
    (pay_ok ftv fiv (t.val % 4) g.val 1 6 0 (Nat.mod_lt _ (by decide)) (inner_lt g) (by decide) (by decide) (by decide)
      _ (k0_off28_eq L t g) _ _ rfl _ _ _ (addr0 d L t g fiv hfiv) (fun l => hfiv _ rfl) _ _) i

theorem cov1_7 (i : S4x2x5x8x128.Idx) :
    tripRun.sl.Ho1_w16 d L t g ftv fiv fo1 hfiv i
      = if covH (t.val % 4) 1 g.val 8 i then tripVal ftv fiv i else fo1 i :=
  write_piece (t.val % 4) 1 g.val 7 _ fo1 (tripVal ftv fiv) (cov1_6 d L t g ftv fiv fo1 hfiv) _ (k0_off29_eq L t g) _ _
    (pay_ok ftv fiv (t.val % 4) g.val 1 7 0 (Nat.mod_lt _ (by decide)) (inner_lt g) (by decide) (by decide) (by decide)
      _ (k0_off29_eq L t g) _ _ rfl _ _ _ (addr0 d L t g fiv hfiv) (fun l => hfiv _ rfl) _ _) i

theorem cov1_8 (i : S4x2x5x8x128.Idx) :
    tripRun.sl.Ho1_w25 d L t g ftv fiv fo1 hfiv i
      = if covH (t.val % 4) 1 g.val 9 i then tripVal ftv fiv i else fo1 i :=
  write_piece (t.val % 4) 1 g.val 8 _ fo1 (tripVal ftv fiv) (cov1_7 d L t g ftv fiv fo1 hfiv) _ (k0_off38_eq L t g) _ _
    (pay_ok ftv fiv (t.val % 4) g.val 1 0 1 (Nat.mod_lt _ (by decide)) (inner_lt g) (by decide) (by decide) (by decide)
      _ (k0_off38_eq L t g) _ _ rfl _ _ _ (addr1 d L t g fiv hfiv) (fun l => hfiv _ rfl) _ _) i

theorem cov1_9 (i : S4x2x5x8x128.Idx) :
    tripRun.sl.Ho1_w26 d L t g ftv fiv fo1 hfiv i
      = if covH (t.val % 4) 1 g.val 10 i then tripVal ftv fiv i else fo1 i :=
  write_piece (t.val % 4) 1 g.val 9 _ fo1 (tripVal ftv fiv) (cov1_8 d L t g ftv fiv fo1 hfiv) _ (k0_off39_eq L t g) _ _
    (pay_ok ftv fiv (t.val % 4) g.val 1 1 1 (Nat.mod_lt _ (by decide)) (inner_lt g) (by decide) (by decide) (by decide)
      _ (k0_off39_eq L t g) _ _ rfl _ _ _ (addr1 d L t g fiv hfiv) (fun l => hfiv _ rfl) _ _) i

theorem cov1_10 (i : S4x2x5x8x128.Idx) :
    tripRun.sl.Ho1_w27 d L t g ftv fiv fo1 hfiv i
      = if covH (t.val % 4) 1 g.val 11 i then tripVal ftv fiv i else fo1 i :=
  write_piece (t.val % 4) 1 g.val 10 _ fo1 (tripVal ftv fiv) (cov1_9 d L t g ftv fiv fo1 hfiv) _ (k0_off40_eq L t g) _ _
    (pay_ok ftv fiv (t.val % 4) g.val 1 2 1 (Nat.mod_lt _ (by decide)) (inner_lt g) (by decide) (by decide) (by decide)
      _ (k0_off40_eq L t g) _ _ rfl _ _ _ (addr1 d L t g fiv hfiv) (fun l => hfiv _ rfl) _ _) i

theorem cov1_11 (i : S4x2x5x8x128.Idx) :
    tripRun.sl.Ho1_w28 d L t g ftv fiv fo1 hfiv i
      = if covH (t.val % 4) 1 g.val 12 i then tripVal ftv fiv i else fo1 i :=
  write_piece (t.val % 4) 1 g.val 11 _ fo1 (tripVal ftv fiv) (cov1_10 d L t g ftv fiv fo1 hfiv) _ (k0_off41_eq L t g) _ _
    (pay_ok ftv fiv (t.val % 4) g.val 1 3 1 (Nat.mod_lt _ (by decide)) (inner_lt g) (by decide) (by decide) (by decide)
      _ (k0_off41_eq L t g) _ _ rfl _ _ _ (addr1 d L t g fiv hfiv) (fun l => hfiv _ rfl) _ _) i

theorem cov1_12 (i : S4x2x5x8x128.Idx) :
    tripRun.sl.Ho1_w29 d L t g ftv fiv fo1 hfiv i
      = if covH (t.val % 4) 1 g.val 13 i then tripVal ftv fiv i else fo1 i :=
  write_piece (t.val % 4) 1 g.val 12 _ fo1 (tripVal ftv fiv) (cov1_11 d L t g ftv fiv fo1 hfiv) _ (k0_off42_eq L t g) _ _
    (pay_ok ftv fiv (t.val % 4) g.val 1 4 1 (Nat.mod_lt _ (by decide)) (inner_lt g) (by decide) (by decide) (by decide)
      _ (k0_off42_eq L t g) _ _ rfl _ _ _ (addr1 d L t g fiv hfiv) (fun l => hfiv _ rfl) _ _) i

theorem cov1_13 (i : S4x2x5x8x128.Idx) :
    tripRun.sl.Ho1_w30 d L t g ftv fiv fo1 hfiv i
      = if covH (t.val % 4) 1 g.val 14 i then tripVal ftv fiv i else fo1 i :=
  write_piece (t.val % 4) 1 g.val 13 _ fo1 (tripVal ftv fiv) (cov1_12 d L t g ftv fiv fo1 hfiv) _ (k0_off43_eq L t g) _ _
    (pay_ok ftv fiv (t.val % 4) g.val 1 5 1 (Nat.mod_lt _ (by decide)) (inner_lt g) (by decide) (by decide) (by decide)
      _ (k0_off43_eq L t g) _ _ rfl _ _ _ (addr1 d L t g fiv hfiv) (fun l => hfiv _ rfl) _ _) i

theorem cov1_14 (i : S4x2x5x8x128.Idx) :
    tripRun.sl.Ho1_w31 d L t g ftv fiv fo1 hfiv i
      = if covH (t.val % 4) 1 g.val 15 i then tripVal ftv fiv i else fo1 i :=
  write_piece (t.val % 4) 1 g.val 14 _ fo1 (tripVal ftv fiv) (cov1_13 d L t g ftv fiv fo1 hfiv) _ (k0_off44_eq L t g) _ _
    (pay_ok ftv fiv (t.val % 4) g.val 1 6 1 (Nat.mod_lt _ (by decide)) (inner_lt g) (by decide) (by decide) (by decide)
      _ (k0_off44_eq L t g) _ _ rfl _ _ _ (addr1 d L t g fiv hfiv) (fun l => hfiv _ rfl) _ _) i

theorem cov1_15 (i : S4x2x5x8x128.Idx) :
    tripRun.sl.Ho1_w32 d L t g ftv fiv fo1 hfiv i
      = if covH (t.val % 4) 1 g.val 16 i then tripVal ftv fiv i else fo1 i :=
  write_piece (t.val % 4) 1 g.val 15 _ fo1 (tripVal ftv fiv) (cov1_14 d L t g ftv fiv fo1 hfiv) _ (k0_off45_eq L t g) _ _
    (pay_ok ftv fiv (t.val % 4) g.val 1 7 1 (Nat.mod_lt _ (by decide)) (inner_lt g) (by decide) (by decide) (by decide)
      _ (k0_off45_eq L t g) _ _ rfl _ _ _ (addr1 d L t g fiv hfiv) (fun l => hfiv _ rfl) _ _) i

theorem cov1_16 (i : S4x2x5x8x128.Idx) :
    tripRun.sl.Ho1_w41 d L t g ftv fiv fo1 hfiv i
      = if covH (t.val % 4) 1 g.val 17 i then tripVal ftv fiv i else fo1 i :=
  write_piece (t.val % 4) 1 g.val 16 _ fo1 (tripVal ftv fiv) (cov1_15 d L t g ftv fiv fo1 hfiv) _ (k0_off54_eq L t g) _ _
    (pay_ok ftv fiv (t.val % 4) g.val 1 0 2 (Nat.mod_lt _ (by decide)) (inner_lt g) (by decide) (by decide) (by decide)
      _ (k0_off54_eq L t g) _ _ rfl _ _ _ (addr2 d L t g fiv hfiv) (fun l => hfiv _ rfl) _ _) i

theorem cov1_17 (i : S4x2x5x8x128.Idx) :
    tripRun.sl.Ho1_w42 d L t g ftv fiv fo1 hfiv i
      = if covH (t.val % 4) 1 g.val 18 i then tripVal ftv fiv i else fo1 i :=
  write_piece (t.val % 4) 1 g.val 17 _ fo1 (tripVal ftv fiv) (cov1_16 d L t g ftv fiv fo1 hfiv) _ (k0_off55_eq L t g) _ _
    (pay_ok ftv fiv (t.val % 4) g.val 1 1 2 (Nat.mod_lt _ (by decide)) (inner_lt g) (by decide) (by decide) (by decide)
      _ (k0_off55_eq L t g) _ _ rfl _ _ _ (addr2 d L t g fiv hfiv) (fun l => hfiv _ rfl) _ _) i

theorem cov1_18 (i : S4x2x5x8x128.Idx) :
    tripRun.sl.Ho1_w43 d L t g ftv fiv fo1 hfiv i
      = if covH (t.val % 4) 1 g.val 19 i then tripVal ftv fiv i else fo1 i :=
  write_piece (t.val % 4) 1 g.val 18 _ fo1 (tripVal ftv fiv) (cov1_17 d L t g ftv fiv fo1 hfiv) _ (k0_off56_eq L t g) _ _
    (pay_ok ftv fiv (t.val % 4) g.val 1 2 2 (Nat.mod_lt _ (by decide)) (inner_lt g) (by decide) (by decide) (by decide)
      _ (k0_off56_eq L t g) _ _ rfl _ _ _ (addr2 d L t g fiv hfiv) (fun l => hfiv _ rfl) _ _) i

theorem cov1_19 (i : S4x2x5x8x128.Idx) :
    tripRun.sl.Ho1_w44 d L t g ftv fiv fo1 hfiv i
      = if covH (t.val % 4) 1 g.val 20 i then tripVal ftv fiv i else fo1 i :=
  write_piece (t.val % 4) 1 g.val 19 _ fo1 (tripVal ftv fiv) (cov1_18 d L t g ftv fiv fo1 hfiv) _ (k0_off57_eq L t g) _ _
    (pay_ok ftv fiv (t.val % 4) g.val 1 3 2 (Nat.mod_lt _ (by decide)) (inner_lt g) (by decide) (by decide) (by decide)
      _ (k0_off57_eq L t g) _ _ rfl _ _ _ (addr2 d L t g fiv hfiv) (fun l => hfiv _ rfl) _ _) i

theorem cov1_20 (i : S4x2x5x8x128.Idx) :
    tripRun.sl.Ho1_w45 d L t g ftv fiv fo1 hfiv i
      = if covH (t.val % 4) 1 g.val 21 i then tripVal ftv fiv i else fo1 i :=
  write_piece (t.val % 4) 1 g.val 20 _ fo1 (tripVal ftv fiv) (cov1_19 d L t g ftv fiv fo1 hfiv) _ (k0_off58_eq L t g) _ _
    (pay_ok ftv fiv (t.val % 4) g.val 1 4 2 (Nat.mod_lt _ (by decide)) (inner_lt g) (by decide) (by decide) (by decide)
      _ (k0_off58_eq L t g) _ _ rfl _ _ _ (addr2 d L t g fiv hfiv) (fun l => hfiv _ rfl) _ _) i

theorem cov1_21 (i : S4x2x5x8x128.Idx) :
    tripRun.sl.Ho1_w46 d L t g ftv fiv fo1 hfiv i
      = if covH (t.val % 4) 1 g.val 22 i then tripVal ftv fiv i else fo1 i :=
  write_piece (t.val % 4) 1 g.val 21 _ fo1 (tripVal ftv fiv) (cov1_20 d L t g ftv fiv fo1 hfiv) _ (k0_off59_eq L t g) _ _
    (pay_ok ftv fiv (t.val % 4) g.val 1 5 2 (Nat.mod_lt _ (by decide)) (inner_lt g) (by decide) (by decide) (by decide)
      _ (k0_off59_eq L t g) _ _ rfl _ _ _ (addr2 d L t g fiv hfiv) (fun l => hfiv _ rfl) _ _) i

theorem cov1_22 (i : S4x2x5x8x128.Idx) :
    tripRun.sl.Ho1_w47 d L t g ftv fiv fo1 hfiv i
      = if covH (t.val % 4) 1 g.val 23 i then tripVal ftv fiv i else fo1 i :=
  write_piece (t.val % 4) 1 g.val 22 _ fo1 (tripVal ftv fiv) (cov1_21 d L t g ftv fiv fo1 hfiv) _ (k0_off60_eq L t g) _ _
    (pay_ok ftv fiv (t.val % 4) g.val 1 6 2 (Nat.mod_lt _ (by decide)) (inner_lt g) (by decide) (by decide) (by decide)
      _ (k0_off60_eq L t g) _ _ rfl _ _ _ (addr2 d L t g fiv hfiv) (fun l => hfiv _ rfl) _ _) i

theorem cov1_23 (i : S4x2x5x8x128.Idx) :
    tripRun.sl.Ho1_w48 d L t g ftv fiv fo1 hfiv i
      = if covH (t.val % 4) 1 g.val 24 i then tripVal ftv fiv i else fo1 i :=
  write_piece (t.val % 4) 1 g.val 23 _ fo1 (tripVal ftv fiv) (cov1_22 d L t g ftv fiv fo1 hfiv) _ (k0_off61_eq L t g) _ _
    (pay_ok ftv fiv (t.val % 4) g.val 1 7 2 (Nat.mod_lt _ (by decide)) (inner_lt g) (by decide) (by decide) (by decide)
      _ (k0_off61_eq L t g) _ _ rfl _ _ _ (addr2 d L t g fiv hfiv) (fun l => hfiv _ rfl) _ _) i

theorem cov1_24 (i : S4x2x5x8x128.Idx) :
    tripRun.sl.Ho1_w57 d L t g ftv fiv fo1 hfiv i
      = if covH (t.val % 4) 1 g.val 25 i then tripVal ftv fiv i else fo1 i :=
  write_piece (t.val % 4) 1 g.val 24 _ fo1 (tripVal ftv fiv) (cov1_23 d L t g ftv fiv fo1 hfiv) _ (k0_off70_eq L t g) _ _
    (pay_ok ftv fiv (t.val % 4) g.val 1 0 3 (Nat.mod_lt _ (by decide)) (inner_lt g) (by decide) (by decide) (by decide)
      _ (k0_off70_eq L t g) _ _ rfl _ _ _ (addr3 d L t g fiv hfiv) (fun l => hfiv _ rfl) _ _) i

theorem cov1_25 (i : S4x2x5x8x128.Idx) :
    tripRun.sl.Ho1_w58 d L t g ftv fiv fo1 hfiv i
      = if covH (t.val % 4) 1 g.val 26 i then tripVal ftv fiv i else fo1 i :=
  write_piece (t.val % 4) 1 g.val 25 _ fo1 (tripVal ftv fiv) (cov1_24 d L t g ftv fiv fo1 hfiv) _ (k0_off71_eq L t g) _ _
    (pay_ok ftv fiv (t.val % 4) g.val 1 1 3 (Nat.mod_lt _ (by decide)) (inner_lt g) (by decide) (by decide) (by decide)
      _ (k0_off71_eq L t g) _ _ rfl _ _ _ (addr3 d L t g fiv hfiv) (fun l => hfiv _ rfl) _ _) i

theorem cov1_26 (i : S4x2x5x8x128.Idx) :
    tripRun.sl.Ho1_w59 d L t g ftv fiv fo1 hfiv i
      = if covH (t.val % 4) 1 g.val 27 i then tripVal ftv fiv i else fo1 i :=
  write_piece (t.val % 4) 1 g.val 26 _ fo1 (tripVal ftv fiv) (cov1_25 d L t g ftv fiv fo1 hfiv) _ (k0_off72_eq L t g) _ _
    (pay_ok ftv fiv (t.val % 4) g.val 1 2 3 (Nat.mod_lt _ (by decide)) (inner_lt g) (by decide) (by decide) (by decide)
      _ (k0_off72_eq L t g) _ _ rfl _ _ _ (addr3 d L t g fiv hfiv) (fun l => hfiv _ rfl) _ _) i

theorem cov1_27 (i : S4x2x5x8x128.Idx) :
    tripRun.sl.Ho1_w60 d L t g ftv fiv fo1 hfiv i
      = if covH (t.val % 4) 1 g.val 28 i then tripVal ftv fiv i else fo1 i :=
  write_piece (t.val % 4) 1 g.val 27 _ fo1 (tripVal ftv fiv) (cov1_26 d L t g ftv fiv fo1 hfiv) _ (k0_off73_eq L t g) _ _
    (pay_ok ftv fiv (t.val % 4) g.val 1 3 3 (Nat.mod_lt _ (by decide)) (inner_lt g) (by decide) (by decide) (by decide)
      _ (k0_off73_eq L t g) _ _ rfl _ _ _ (addr3 d L t g fiv hfiv) (fun l => hfiv _ rfl) _ _) i

theorem cov1_28 (i : S4x2x5x8x128.Idx) :
    tripRun.sl.Ho1_w61 d L t g ftv fiv fo1 hfiv i
      = if covH (t.val % 4) 1 g.val 29 i then tripVal ftv fiv i else fo1 i :=
  write_piece (t.val % 4) 1 g.val 28 _ fo1 (tripVal ftv fiv) (cov1_27 d L t g ftv fiv fo1 hfiv) _ (k0_off74_eq L t g) _ _
    (pay_ok ftv fiv (t.val % 4) g.val 1 4 3 (Nat.mod_lt _ (by decide)) (inner_lt g) (by decide) (by decide) (by decide)
      _ (k0_off74_eq L t g) _ _ rfl _ _ _ (addr3 d L t g fiv hfiv) (fun l => hfiv _ rfl) _ _) i

theorem cov1_29 (i : S4x2x5x8x128.Idx) :
    tripRun.sl.Ho1_w62 d L t g ftv fiv fo1 hfiv i
      = if covH (t.val % 4) 1 g.val 30 i then tripVal ftv fiv i else fo1 i :=
  write_piece (t.val % 4) 1 g.val 29 _ fo1 (tripVal ftv fiv) (cov1_28 d L t g ftv fiv fo1 hfiv) _ (k0_off75_eq L t g) _ _
    (pay_ok ftv fiv (t.val % 4) g.val 1 5 3 (Nat.mod_lt _ (by decide)) (inner_lt g) (by decide) (by decide) (by decide)
      _ (k0_off75_eq L t g) _ _ rfl _ _ _ (addr3 d L t g fiv hfiv) (fun l => hfiv _ rfl) _ _) i

theorem cov1_30 (i : S4x2x5x8x128.Idx) :
    tripRun.sl.Ho1_w63 d L t g ftv fiv fo1 hfiv i
      = if covH (t.val % 4) 1 g.val 31 i then tripVal ftv fiv i else fo1 i :=
  write_piece (t.val % 4) 1 g.val 30 _ fo1 (tripVal ftv fiv) (cov1_29 d L t g ftv fiv fo1 hfiv) _ (k0_off76_eq L t g) _ _
    (pay_ok ftv fiv (t.val % 4) g.val 1 6 3 (Nat.mod_lt _ (by decide)) (inner_lt g) (by decide) (by decide) (by decide)
      _ (k0_off76_eq L t g) _ _ rfl _ _ _ (addr3 d L t g fiv hfiv) (fun l => hfiv _ rfl) _ _) i

theorem cov1_31 (i : S4x2x5x8x128.Idx) :
    tripRun.sl.Ho1_w64 d L t g ftv fiv fo1 hfiv i
      = if covH (t.val % 4) 1 g.val 32 i then tripVal ftv fiv i else fo1 i :=
  write_piece (t.val % 4) 1 g.val 31 _ fo1 (tripVal ftv fiv) (cov1_30 d L t g ftv fiv fo1 hfiv) _ (k0_off77_eq L t g) _ _
    (pay_ok ftv fiv (t.val % 4) g.val 1 7 3 (Nat.mod_lt _ (by decide)) (inner_lt g) (by decide) (by decide) (by decide)
      _ (k0_off77_eq L t g) _ _ rfl _ _ _ (addr3 d L t g fiv hfiv) (fun l => hfiv _ rfl) _ _) i

theorem cov1_32 (i : S4x2x5x8x128.Idx) :
    tripRun.sl.Ho1_w73 d L t g ftv fiv fo1 hfiv i
      = if covH (t.val % 4) 1 g.val 33 i then tripVal ftv fiv i else fo1 i :=
  write_piece (t.val % 4) 1 g.val 32 _ fo1 (tripVal ftv fiv) (cov1_31 d L t g ftv fiv fo1 hfiv) _ (k0_off86_eq L t g) _ _
    (pay_ok ftv fiv (t.val % 4) g.val 1 0 4 (Nat.mod_lt _ (by decide)) (inner_lt g) (by decide) (by decide) (by decide)
      _ (k0_off86_eq L t g) _ _ rfl _ _ _ (addr4 d L t g fiv hfiv) (fun l => hfiv _ rfl) _ _) i

theorem cov1_33 (i : S4x2x5x8x128.Idx) :
    tripRun.sl.Ho1_w74 d L t g ftv fiv fo1 hfiv i
      = if covH (t.val % 4) 1 g.val 34 i then tripVal ftv fiv i else fo1 i :=
  write_piece (t.val % 4) 1 g.val 33 _ fo1 (tripVal ftv fiv) (cov1_32 d L t g ftv fiv fo1 hfiv) _ (k0_off87_eq L t g) _ _
    (pay_ok ftv fiv (t.val % 4) g.val 1 1 4 (Nat.mod_lt _ (by decide)) (inner_lt g) (by decide) (by decide) (by decide)
      _ (k0_off87_eq L t g) _ _ rfl _ _ _ (addr4 d L t g fiv hfiv) (fun l => hfiv _ rfl) _ _) i

theorem cov1_34 (i : S4x2x5x8x128.Idx) :
    tripRun.sl.Ho1_w75 d L t g ftv fiv fo1 hfiv i
      = if covH (t.val % 4) 1 g.val 35 i then tripVal ftv fiv i else fo1 i :=
  write_piece (t.val % 4) 1 g.val 34 _ fo1 (tripVal ftv fiv) (cov1_33 d L t g ftv fiv fo1 hfiv) _ (k0_off88_eq L t g) _ _
    (pay_ok ftv fiv (t.val % 4) g.val 1 2 4 (Nat.mod_lt _ (by decide)) (inner_lt g) (by decide) (by decide) (by decide)
      _ (k0_off88_eq L t g) _ _ rfl _ _ _ (addr4 d L t g fiv hfiv) (fun l => hfiv _ rfl) _ _) i

theorem cov1_35 (i : S4x2x5x8x128.Idx) :
    tripRun.sl.Ho1_w76 d L t g ftv fiv fo1 hfiv i
      = if covH (t.val % 4) 1 g.val 36 i then tripVal ftv fiv i else fo1 i :=
  write_piece (t.val % 4) 1 g.val 35 _ fo1 (tripVal ftv fiv) (cov1_34 d L t g ftv fiv fo1 hfiv) _ (k0_off89_eq L t g) _ _
    (pay_ok ftv fiv (t.val % 4) g.val 1 3 4 (Nat.mod_lt _ (by decide)) (inner_lt g) (by decide) (by decide) (by decide)
      _ (k0_off89_eq L t g) _ _ rfl _ _ _ (addr4 d L t g fiv hfiv) (fun l => hfiv _ rfl) _ _) i

theorem cov1_36 (i : S4x2x5x8x128.Idx) :
    tripRun.sl.Ho1_w77 d L t g ftv fiv fo1 hfiv i
      = if covH (t.val % 4) 1 g.val 37 i then tripVal ftv fiv i else fo1 i :=
  write_piece (t.val % 4) 1 g.val 36 _ fo1 (tripVal ftv fiv) (cov1_35 d L t g ftv fiv fo1 hfiv) _ (k0_off90_eq L t g) _ _
    (pay_ok ftv fiv (t.val % 4) g.val 1 4 4 (Nat.mod_lt _ (by decide)) (inner_lt g) (by decide) (by decide) (by decide)
      _ (k0_off90_eq L t g) _ _ rfl _ _ _ (addr4 d L t g fiv hfiv) (fun l => hfiv _ rfl) _ _) i

theorem cov1_37 (i : S4x2x5x8x128.Idx) :
    tripRun.sl.Ho1_w78 d L t g ftv fiv fo1 hfiv i
      = if covH (t.val % 4) 1 g.val 38 i then tripVal ftv fiv i else fo1 i :=
  write_piece (t.val % 4) 1 g.val 37 _ fo1 (tripVal ftv fiv) (cov1_36 d L t g ftv fiv fo1 hfiv) _ (k0_off91_eq L t g) _ _
    (pay_ok ftv fiv (t.val % 4) g.val 1 5 4 (Nat.mod_lt _ (by decide)) (inner_lt g) (by decide) (by decide) (by decide)
      _ (k0_off91_eq L t g) _ _ rfl _ _ _ (addr4 d L t g fiv hfiv) (fun l => hfiv _ rfl) _ _) i

theorem cov1_38 (i : S4x2x5x8x128.Idx) :
    tripRun.sl.Ho1_w79 d L t g ftv fiv fo1 hfiv i
      = if covH (t.val % 4) 1 g.val 39 i then tripVal ftv fiv i else fo1 i :=
  write_piece (t.val % 4) 1 g.val 38 _ fo1 (tripVal ftv fiv) (cov1_37 d L t g ftv fiv fo1 hfiv) _ (k0_off92_eq L t g) _ _
    (pay_ok ftv fiv (t.val % 4) g.val 1 6 4 (Nat.mod_lt _ (by decide)) (inner_lt g) (by decide) (by decide) (by decide)
      _ (k0_off92_eq L t g) _ _ rfl _ _ _ (addr4 d L t g fiv hfiv) (fun l => hfiv _ rfl) _ _) i

theorem cov1_39 (i : S4x2x5x8x128.Idx) :
    tripRun.sl.Ho1_w80 d L t g ftv fiv fo1 hfiv i
      = if covH (t.val % 4) 1 g.val 40 i then tripVal ftv fiv i else fo1 i :=
  write_piece (t.val % 4) 1 g.val 39 _ fo1 (tripVal ftv fiv) (cov1_38 d L t g ftv fiv fo1 hfiv) _ (k0_off93_eq L t g) _ _
    (pay_ok ftv fiv (t.val % 4) g.val 1 7 4 (Nat.mod_lt _ (by decide)) (inner_lt g) (by decide) (by decide) (by decide)
      _ (k0_off93_eq L t g) _ _ rfl _ _ _ (addr4 d L t g fiv hfiv) (fun l => hfiv _ rfl) _ _) i

theorem cov1_40 (i : S4x2x5x8x128.Idx) :
    tripRun.sl.Ho1_w89 d L t g ftv fiv fo1 hfiv i
      = if covH (t.val % 4) 1 g.val 41 i then tripVal ftv fiv i else fo1 i :=
  write_piece (t.val % 4) 1 g.val 40 _ fo1 (tripVal ftv fiv) (cov1_39 d L t g ftv fiv fo1 hfiv) _ (k0_off102_eq L t g) _ _
    (pay_ok ftv fiv (t.val % 4) g.val 1 0 5 (Nat.mod_lt _ (by decide)) (inner_lt g) (by decide) (by decide) (by decide)
      _ (k0_off102_eq L t g) _ _ rfl _ _ _ (addr5 d L t g fiv hfiv) (fun l => hfiv _ rfl) _ _) i

theorem cov1_41 (i : S4x2x5x8x128.Idx) :
    tripRun.sl.Ho1_w90 d L t g ftv fiv fo1 hfiv i
      = if covH (t.val % 4) 1 g.val 42 i then tripVal ftv fiv i else fo1 i :=
  write_piece (t.val % 4) 1 g.val 41 _ fo1 (tripVal ftv fiv) (cov1_40 d L t g ftv fiv fo1 hfiv) _ (k0_off103_eq L t g) _ _
    (pay_ok ftv fiv (t.val % 4) g.val 1 1 5 (Nat.mod_lt _ (by decide)) (inner_lt g) (by decide) (by decide) (by decide)
      _ (k0_off103_eq L t g) _ _ rfl _ _ _ (addr5 d L t g fiv hfiv) (fun l => hfiv _ rfl) _ _) i

theorem cov1_42 (i : S4x2x5x8x128.Idx) :
    tripRun.sl.Ho1_w91 d L t g ftv fiv fo1 hfiv i
      = if covH (t.val % 4) 1 g.val 43 i then tripVal ftv fiv i else fo1 i :=
  write_piece (t.val % 4) 1 g.val 42 _ fo1 (tripVal ftv fiv) (cov1_41 d L t g ftv fiv fo1 hfiv) _ (k0_off104_eq L t g) _ _
    (pay_ok ftv fiv (t.val % 4) g.val 1 2 5 (Nat.mod_lt _ (by decide)) (inner_lt g) (by decide) (by decide) (by decide)
      _ (k0_off104_eq L t g) _ _ rfl _ _ _ (addr5 d L t g fiv hfiv) (fun l => hfiv _ rfl) _ _) i

theorem cov1_43 (i : S4x2x5x8x128.Idx) :
    tripRun.sl.Ho1_w92 d L t g ftv fiv fo1 hfiv i
      = if covH (t.val % 4) 1 g.val 44 i then tripVal ftv fiv i else fo1 i :=
  write_piece (t.val % 4) 1 g.val 43 _ fo1 (tripVal ftv fiv) (cov1_42 d L t g ftv fiv fo1 hfiv) _ (k0_off105_eq L t g) _ _
    (pay_ok ftv fiv (t.val % 4) g.val 1 3 5 (Nat.mod_lt _ (by decide)) (inner_lt g) (by decide) (by decide) (by decide)
      _ (k0_off105_eq L t g) _ _ rfl _ _ _ (addr5 d L t g fiv hfiv) (fun l => hfiv _ rfl) _ _) i

theorem cov1_44 (i : S4x2x5x8x128.Idx) :
    tripRun.sl.Ho1_w93 d L t g ftv fiv fo1 hfiv i
      = if covH (t.val % 4) 1 g.val 45 i then tripVal ftv fiv i else fo1 i :=
  write_piece (t.val % 4) 1 g.val 44 _ fo1 (tripVal ftv fiv) (cov1_43 d L t g ftv fiv fo1 hfiv) _ (k0_off106_eq L t g) _ _
    (pay_ok ftv fiv (t.val % 4) g.val 1 4 5 (Nat.mod_lt _ (by decide)) (inner_lt g) (by decide) (by decide) (by decide)
      _ (k0_off106_eq L t g) _ _ rfl _ _ _ (addr5 d L t g fiv hfiv) (fun l => hfiv _ rfl) _ _) i

theorem cov1_45 (i : S4x2x5x8x128.Idx) :
    tripRun.sl.Ho1_w94 d L t g ftv fiv fo1 hfiv i
      = if covH (t.val % 4) 1 g.val 46 i then tripVal ftv fiv i else fo1 i :=
  write_piece (t.val % 4) 1 g.val 45 _ fo1 (tripVal ftv fiv) (cov1_44 d L t g ftv fiv fo1 hfiv) _ (k0_off107_eq L t g) _ _
    (pay_ok ftv fiv (t.val % 4) g.val 1 5 5 (Nat.mod_lt _ (by decide)) (inner_lt g) (by decide) (by decide) (by decide)
      _ (k0_off107_eq L t g) _ _ rfl _ _ _ (addr5 d L t g fiv hfiv) (fun l => hfiv _ rfl) _ _) i

theorem cov1_46 (i : S4x2x5x8x128.Idx) :
    tripRun.sl.Ho1_w95 d L t g ftv fiv fo1 hfiv i
      = if covH (t.val % 4) 1 g.val 47 i then tripVal ftv fiv i else fo1 i :=
  write_piece (t.val % 4) 1 g.val 46 _ fo1 (tripVal ftv fiv) (cov1_45 d L t g ftv fiv fo1 hfiv) _ (k0_off108_eq L t g) _ _
    (pay_ok ftv fiv (t.val % 4) g.val 1 6 5 (Nat.mod_lt _ (by decide)) (inner_lt g) (by decide) (by decide) (by decide)
      _ (k0_off108_eq L t g) _ _ rfl _ _ _ (addr5 d L t g fiv hfiv) (fun l => hfiv _ rfl) _ _) i

theorem cov1_47 (i : S4x2x5x8x128.Idx) :
    tripRun.sl.Ho1_w96 d L t g ftv fiv fo1 hfiv i
      = if covH (t.val % 4) 1 g.val 48 i then tripVal ftv fiv i else fo1 i :=
  write_piece (t.val % 4) 1 g.val 47 _ fo1 (tripVal ftv fiv) (cov1_46 d L t g ftv fiv fo1 hfiv) _ (k0_off109_eq L t g) _ _
    (pay_ok ftv fiv (t.val % 4) g.val 1 7 5 (Nat.mod_lt _ (by decide)) (inner_lt g) (by decide) (by decide) (by decide)
      _ (k0_off109_eq L t g) _ _ rfl _ _ _ (addr5 d L t g fiv hfiv) (fun l => hfiv _ rfl) _ _) i

theorem cov1_48 (i : S4x2x5x8x128.Idx) :
    tripRun.sl.Ho1_w105 d L t g ftv fiv fo1 hfiv i
      = if covH (t.val % 4) 1 g.val 49 i then tripVal ftv fiv i else fo1 i :=
  write_piece (t.val % 4) 1 g.val 48 _ fo1 (tripVal ftv fiv) (cov1_47 d L t g ftv fiv fo1 hfiv) _ (k0_off118_eq L t g) _ _
    (pay_ok ftv fiv (t.val % 4) g.val 1 0 6 (Nat.mod_lt _ (by decide)) (inner_lt g) (by decide) (by decide) (by decide)
      _ (k0_off118_eq L t g) _ _ rfl _ _ _ (addr6 d L t g fiv hfiv) (fun l => hfiv _ rfl) _ _) i

theorem cov1_49 (i : S4x2x5x8x128.Idx) :
    tripRun.sl.Ho1_w106 d L t g ftv fiv fo1 hfiv i
      = if covH (t.val % 4) 1 g.val 50 i then tripVal ftv fiv i else fo1 i :=
  write_piece (t.val % 4) 1 g.val 49 _ fo1 (tripVal ftv fiv) (cov1_48 d L t g ftv fiv fo1 hfiv) _ (k0_off119_eq L t g) _ _
    (pay_ok ftv fiv (t.val % 4) g.val 1 1 6 (Nat.mod_lt _ (by decide)) (inner_lt g) (by decide) (by decide) (by decide)
      _ (k0_off119_eq L t g) _ _ rfl _ _ _ (addr6 d L t g fiv hfiv) (fun l => hfiv _ rfl) _ _) i

theorem cov1_50 (i : S4x2x5x8x128.Idx) :
    tripRun.sl.Ho1_w107 d L t g ftv fiv fo1 hfiv i
      = if covH (t.val % 4) 1 g.val 51 i then tripVal ftv fiv i else fo1 i :=
  write_piece (t.val % 4) 1 g.val 50 _ fo1 (tripVal ftv fiv) (cov1_49 d L t g ftv fiv fo1 hfiv) _ (k0_off120_eq L t g) _ _
    (pay_ok ftv fiv (t.val % 4) g.val 1 2 6 (Nat.mod_lt _ (by decide)) (inner_lt g) (by decide) (by decide) (by decide)
      _ (k0_off120_eq L t g) _ _ rfl _ _ _ (addr6 d L t g fiv hfiv) (fun l => hfiv _ rfl) _ _) i

theorem cov1_51 (i : S4x2x5x8x128.Idx) :
    tripRun.sl.Ho1_w108 d L t g ftv fiv fo1 hfiv i
      = if covH (t.val % 4) 1 g.val 52 i then tripVal ftv fiv i else fo1 i :=
  write_piece (t.val % 4) 1 g.val 51 _ fo1 (tripVal ftv fiv) (cov1_50 d L t g ftv fiv fo1 hfiv) _ (k0_off121_eq L t g) _ _
    (pay_ok ftv fiv (t.val % 4) g.val 1 3 6 (Nat.mod_lt _ (by decide)) (inner_lt g) (by decide) (by decide) (by decide)
      _ (k0_off121_eq L t g) _ _ rfl _ _ _ (addr6 d L t g fiv hfiv) (fun l => hfiv _ rfl) _ _) i

theorem cov1_52 (i : S4x2x5x8x128.Idx) :
    tripRun.sl.Ho1_w109 d L t g ftv fiv fo1 hfiv i
      = if covH (t.val % 4) 1 g.val 53 i then tripVal ftv fiv i else fo1 i :=
  write_piece (t.val % 4) 1 g.val 52 _ fo1 (tripVal ftv fiv) (cov1_51 d L t g ftv fiv fo1 hfiv) _ (k0_off122_eq L t g) _ _
    (pay_ok ftv fiv (t.val % 4) g.val 1 4 6 (Nat.mod_lt _ (by decide)) (inner_lt g) (by decide) (by decide) (by decide)
      _ (k0_off122_eq L t g) _ _ rfl _ _ _ (addr6 d L t g fiv hfiv) (fun l => hfiv _ rfl) _ _) i

theorem cov1_53 (i : S4x2x5x8x128.Idx) :
    tripRun.sl.Ho1_w110 d L t g ftv fiv fo1 hfiv i
      = if covH (t.val % 4) 1 g.val 54 i then tripVal ftv fiv i else fo1 i :=
  write_piece (t.val % 4) 1 g.val 53 _ fo1 (tripVal ftv fiv) (cov1_52 d L t g ftv fiv fo1 hfiv) _ (k0_off123_eq L t g) _ _
    (pay_ok ftv fiv (t.val % 4) g.val 1 5 6 (Nat.mod_lt _ (by decide)) (inner_lt g) (by decide) (by decide) (by decide)
      _ (k0_off123_eq L t g) _ _ rfl _ _ _ (addr6 d L t g fiv hfiv) (fun l => hfiv _ rfl) _ _) i

theorem cov1_54 (i : S4x2x5x8x128.Idx) :
    tripRun.sl.Ho1_w111 d L t g ftv fiv fo1 hfiv i
      = if covH (t.val % 4) 1 g.val 55 i then tripVal ftv fiv i else fo1 i :=
  write_piece (t.val % 4) 1 g.val 54 _ fo1 (tripVal ftv fiv) (cov1_53 d L t g ftv fiv fo1 hfiv) _ (k0_off124_eq L t g) _ _
    (pay_ok ftv fiv (t.val % 4) g.val 1 6 6 (Nat.mod_lt _ (by decide)) (inner_lt g) (by decide) (by decide) (by decide)
      _ (k0_off124_eq L t g) _ _ rfl _ _ _ (addr6 d L t g fiv hfiv) (fun l => hfiv _ rfl) _ _) i

theorem cov1_55 (i : S4x2x5x8x128.Idx) :
    tripRun.sl.Ho1_w112 d L t g ftv fiv fo1 hfiv i
      = if covH (t.val % 4) 1 g.val 56 i then tripVal ftv fiv i else fo1 i :=
  write_piece (t.val % 4) 1 g.val 55 _ fo1 (tripVal ftv fiv) (cov1_54 d L t g ftv fiv fo1 hfiv) _ (k0_off125_eq L t g) _ _
    (pay_ok ftv fiv (t.val % 4) g.val 1 7 6 (Nat.mod_lt _ (by decide)) (inner_lt g) (by decide) (by decide) (by decide)
      _ (k0_off125_eq L t g) _ _ rfl _ _ _ (addr6 d L t g fiv hfiv) (fun l => hfiv _ rfl) _ _) i

theorem cov1_56 (i : S4x2x5x8x128.Idx) :
    tripRun.sl.Ho1_w121 d L t g ftv fiv fo1 hfiv i
      = if covH (t.val % 4) 1 g.val 57 i then tripVal ftv fiv i else fo1 i :=
  write_piece (t.val % 4) 1 g.val 56 _ fo1 (tripVal ftv fiv) (cov1_55 d L t g ftv fiv fo1 hfiv) _ (k0_off134_eq L t g) _ _
    (pay_ok ftv fiv (t.val % 4) g.val 1 0 7 (Nat.mod_lt _ (by decide)) (inner_lt g) (by decide) (by decide) (by decide)
      _ (k0_off134_eq L t g) _ _ rfl _ _ _ (addr7 d L t g fiv hfiv) (fun l => hfiv _ rfl) _ _) i

theorem cov1_57 (i : S4x2x5x8x128.Idx) :
    tripRun.sl.Ho1_w122 d L t g ftv fiv fo1 hfiv i
      = if covH (t.val % 4) 1 g.val 58 i then tripVal ftv fiv i else fo1 i :=
  write_piece (t.val % 4) 1 g.val 57 _ fo1 (tripVal ftv fiv) (cov1_56 d L t g ftv fiv fo1 hfiv) _ (k0_off135_eq L t g) _ _
    (pay_ok ftv fiv (t.val % 4) g.val 1 1 7 (Nat.mod_lt _ (by decide)) (inner_lt g) (by decide) (by decide) (by decide)
      _ (k0_off135_eq L t g) _ _ rfl _ _ _ (addr7 d L t g fiv hfiv) (fun l => hfiv _ rfl) _ _) i

theorem cov1_58 (i : S4x2x5x8x128.Idx) :
    tripRun.sl.Ho1_w123 d L t g ftv fiv fo1 hfiv i
      = if covH (t.val % 4) 1 g.val 59 i then tripVal ftv fiv i else fo1 i :=
  write_piece (t.val % 4) 1 g.val 58 _ fo1 (tripVal ftv fiv) (cov1_57 d L t g ftv fiv fo1 hfiv) _ (k0_off136_eq L t g) _ _
    (pay_ok ftv fiv (t.val % 4) g.val 1 2 7 (Nat.mod_lt _ (by decide)) (inner_lt g) (by decide) (by decide) (by decide)
      _ (k0_off136_eq L t g) _ _ rfl _ _ _ (addr7 d L t g fiv hfiv) (fun l => hfiv _ rfl) _ _) i

theorem cov1_59 (i : S4x2x5x8x128.Idx) :
    tripRun.sl.Ho1_w124 d L t g ftv fiv fo1 hfiv i
      = if covH (t.val % 4) 1 g.val 60 i then tripVal ftv fiv i else fo1 i :=
  write_piece (t.val % 4) 1 g.val 59 _ fo1 (tripVal ftv fiv) (cov1_58 d L t g ftv fiv fo1 hfiv) _ (k0_off137_eq L t g) _ _
    (pay_ok ftv fiv (t.val % 4) g.val 1 3 7 (Nat.mod_lt _ (by decide)) (inner_lt g) (by decide) (by decide) (by decide)
      _ (k0_off137_eq L t g) _ _ rfl _ _ _ (addr7 d L t g fiv hfiv) (fun l => hfiv _ rfl) _ _) i

theorem cov1_60 (i : S4x2x5x8x128.Idx) :
    tripRun.sl.Ho1_w125 d L t g ftv fiv fo1 hfiv i
      = if covH (t.val % 4) 1 g.val 61 i then tripVal ftv fiv i else fo1 i :=
  write_piece (t.val % 4) 1 g.val 60 _ fo1 (tripVal ftv fiv) (cov1_59 d L t g ftv fiv fo1 hfiv) _ (k0_off138_eq L t g) _ _
    (pay_ok ftv fiv (t.val % 4) g.val 1 4 7 (Nat.mod_lt _ (by decide)) (inner_lt g) (by decide) (by decide) (by decide)
      _ (k0_off138_eq L t g) _ _ rfl _ _ _ (addr7 d L t g fiv hfiv) (fun l => hfiv _ rfl) _ _) i

theorem cov1_61 (i : S4x2x5x8x128.Idx) :
    tripRun.sl.Ho1_w126 d L t g ftv fiv fo1 hfiv i
      = if covH (t.val % 4) 1 g.val 62 i then tripVal ftv fiv i else fo1 i :=
  write_piece (t.val % 4) 1 g.val 61 _ fo1 (tripVal ftv fiv) (cov1_60 d L t g ftv fiv fo1 hfiv) _ (k0_off139_eq L t g) _ _
    (pay_ok ftv fiv (t.val % 4) g.val 1 5 7 (Nat.mod_lt _ (by decide)) (inner_lt g) (by decide) (by decide) (by decide)
      _ (k0_off139_eq L t g) _ _ rfl _ _ _ (addr7 d L t g fiv hfiv) (fun l => hfiv _ rfl) _ _) i

theorem cov1_62 (i : S4x2x5x8x128.Idx) :
    tripRun.sl.Ho1_w127 d L t g ftv fiv fo1 hfiv i
      = if covH (t.val % 4) 1 g.val 63 i then tripVal ftv fiv i else fo1 i :=
  write_piece (t.val % 4) 1 g.val 62 _ fo1 (tripVal ftv fiv) (cov1_61 d L t g ftv fiv fo1 hfiv) _ (k0_off140_eq L t g) _ _
    (pay_ok ftv fiv (t.val % 4) g.val 1 6 7 (Nat.mod_lt _ (by decide)) (inner_lt g) (by decide) (by decide) (by decide)
      _ (k0_off140_eq L t g) _ _ rfl _ _ _ (addr7 d L t g fiv hfiv) (fun l => hfiv _ rfl) _ _) i

theorem cov1_63 (i : S4x2x5x8x128.Idx) :
    tripRun.sl.Ho1_w128 d L t g ftv fiv fo1 hfiv i
      = if covH (t.val % 4) 1 g.val 64 i then tripVal ftv fiv i else fo1 i :=
  write_piece (t.val % 4) 1 g.val 63 _ fo1 (tripVal ftv fiv) (cov1_62 d L t g ftv fiv fo1 hfiv) _ (k0_off141_eq L t g) _ _
    (pay_ok ftv fiv (t.val % 4) g.val 1 7 7 (Nat.mod_lt _ (by decide)) (inner_lt g) (by decide) (by decide) (by decide)
      _ (k0_off141_eq L t g) _ _ rfl _ _ _ (addr7 d L t g fiv hfiv) (fun l => hfiv _ rfl) _ _) i

end Cert.Proof.KernelIdealSc

end
-- ==== Proof.ScTripOut.lean ====
/-
  The trip's result, read off the run: after trip `g` each half of the slot's output holds the
  gathered values `tripVal` on row `g` of the slot and what it held before everywhere else.
-/
import proofs.«202852_g34127810134284_cont_8to1_b_1476_20_alg».proof.Proof.ScTripVal

noncomputable section

namespace Cert.Proof.KernelIdealSc

open Cert.KernelIdeal Cert.KernelIdeal.Gen
open Idealize.ShloMosaic Idealize.ShloMosaic.ValueIdx

variable {F : FTy → Type} [FloatOps F]

variable (d : Dev nD) (L : grid0.Coords) (t : Fin (k0_t1_loop L).trips) (g : Fin k0_t2_loop.trips)
  (ftv : Buf (Elt F) (tvM.view.loc (thrOf d L))) (fiv : Buf (Elt F) (ivM.view.loc (thrOf d L)))
  (fo0 fo1 : Buf (Elt F) (ovM.view.loc (thrOf d L)))
  (hfiv : ∀ i : S4x640.Idx, (i 0).val = t.val % 4 → (fiv i).toNat < 100)

set_option maxHeartbeats 1000000 in
/-- What the run found for half 0 is the last of its 64 stores' contents. -/
theorem tripRun_fst (v4 v46 : BitVec 32) (u : Unit) :
    (tripRun d L t g v4 v46 u ftv fiv fo0 fo1 hfiv).1 = tripRun.sl.Ho0_w120 d L t g ftv fiv fo0 hfiv := by
  delta tripRun
  rfl

set_option maxHeartbeats 1000000 in
/-- What the run found for half 1 is the last of its 64 stores' contents. -/
theorem tripRun_snd (v4 v46 : BitVec 32) (u : Unit) :
    (tripRun d L t g v4 v46 u ftv fiv fo0 fo1 hfiv).2.1 = tripRun.sl.Ho1_w128 d L t g ftv fiv fo1 hfiv := by
  delta tripRun
  rfl

/-- After the trip, half 0 holds `tripVal` on row `g` of the slot and what it held before elsewhere. -/
theorem tripRun_out0 (v4 v46 : BitVec 32) (u : Unit) (i : S4x2x5x8x128.Idx) :
    (tripRun d L t g v4 v46 u ftv fiv fo0 fo1 hfiv).1 i
      = if covH (t.val % 4) 0 g.val 64 i then tripVal ftv fiv i else fo0 i := by
  rw [tripRun_fst]
  exact cov0_63 d L t g ftv fiv fo0 hfiv i

/-- After the trip, half 1 holds `tripVal` on row `g` of the slot and what it held before elsewhere. -/
theorem tripRun_out1 (v4 v46 : BitVec 32) (u : Unit) (i : S4x2x5x8x128.Idx) :
    (tripRun d L t g v4 v46 u ftv fiv fo0 fo1 hfiv).2.1 i
      = if covH (t.val % 4) 1 g.val 64 i then tripVal ftv fiv i else fo1 i := by
  rw [tripRun_snd]
  exact cov1_63 d L t g ftv fiv fo1 hfiv i

end Cert.Proof.KernelIdealSc

end
-- ==== Proof.ScRows.lean ====
/-
  Rows done. The inner loop fills the rows of a half of a slot one trip at a time. An element is
  done before trip `k` when it lies in the slot and half and in a row below `k`. The 64 stores of
  a trip cover exactly its row, so a trip that leaves one function on what its stores cover and
  the earlier contents elsewhere extends the rows done by one. The loop has five trips.
-/
import proofs.«202852_g34127810134284_cont_8to1_b_1476_20_alg».proof.Proof.ScWrite

noncomputable section

namespace Cert.Proof.KernelIdealSc

open Cert.KernelIdeal Cert.KernelIdeal.Gen
open Idealize.ShloMosaic Idealize.ShloMosaic.ValueIdx

/-! ## Rows done -/

/-- Element `i` lies in slot `p`, half `h`, in a row below `k`. -/
def rowsDone (p h k : ℕ) (i : S4x2x5x8x128.Idx) : Prop := (i 0).val = p ∧ (i 1).val = h ∧ (i 2).val < k

instance (p h k : ℕ) (i : S4x2x5x8x128.Idx) : Decidable (rowsDone p h k i) := by unfold rowsDone; infer_instance

/-- All 64 stores of a row cover exactly the row. -/
theorem covH_full (p h g : ℕ) (i : S4x2x5x8x128.Idx) :
    covH p h g 64 i ↔ (i 0).val = p ∧ (i 1).val = h ∧ (i 2).val = g := by
  have b3 : (i 3).val < 8 := (i 3).isLt
  have b4 : (i 4).val < 128 := (i 4).isLt
  unfold covH
  constructor
  · rintro ⟨e0, e1, e2, -⟩; exact ⟨e0, e1, e2⟩
  · rintro ⟨e0, e1, e2⟩; exact ⟨e0, e1, e2, by omega⟩

/-- A trip extends the rows done by its own. -/
theorem rows_step {α : Type} (p h g : ℕ) (G fo f f' : S4x2x5x8x128.Idx → α)
    (hf : ∀ i, f i = if rowsDone p h g i then G i else fo i)
    (hf' : ∀ i, f' i = if covH p h g 64 i then G i else f i) (i : S4x2x5x8x128.Idx) :
    f' i = if rowsDone p h (g + 1) i then G i else fo i := by
  rw [hf' i, hf i]
  by_cases hc : covH p h g 64 i
  · have hr : rowsDone p h (g + 1) i := by
      obtain ⟨e0, e1, e2⟩ := (covH_full p h g i).mp hc
      exact ⟨e0, e1, by omega⟩
    rw [if_pos hc, if_pos hr]
  · rw [if_neg hc]
    by_cases hr : rowsDone p h g i
    · rw [if_pos hr, if_pos ⟨hr.1, hr.2.1, by have := hr.2.2; omega⟩]
    · rw [if_neg hr, if_neg]
      rintro ⟨e0, e1, e2⟩
      by_cases he : (i 2).val = g
      · exact hc ((covH_full p h g i).mpr ⟨e0, e1, he⟩)
      · exact hr ⟨e0, e1, by omega⟩

theorem inner_trips : k0_t2_loop.trips = 5 := by decide

end Cert.Proof.KernelIdealSc

end
-- ==== Proof.ScInner.lean ====
/-
  The inner loop of a trip. Its five trips fill rows 0 … 4 of the two halves of slot `t % 4` of
  the output scratch. Before trip `k` each half holds the gathered values `tripVal` on the rows
  below `k` of the slot and its first contents elsewhere; a trip extends that by its own row
  (the trip's run and the values it leaves are proved apart); after five trips every row of the
  slot holds the gathered values, which at coordinates are the table scratch's entries the
  statement names.
-/
import proofs.«202852_g34127810134284_cont_8to1_b_1476_20_alg».proof.Proof.ScTripOut
import proofs.«202852_g34127810134284_cont_8to1_b_1476_20_alg».proof.Proof.ScRows

noncomputable section

namespace Cert.Proof.KernelIdealSc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The invariant and the loop -/

section Loop

variable (d : Dev nD) (L : grid0.Coords) (t : Fin (k0_t1_loop L).trips)
  (ftv : Buf (Elt F) (tvM.view.loc (thrOf d L))) (fiv : Buf (Elt F) (ivM.view.loc (thrOf d L)))
  (fo0 fo1 : Buf (Elt F) (ovM.view.loc (thrOf d L)))

/-- Before trip `k`: the table and index scratches as they were, each half at the gathered values on the rows below
    `k` of the slot and its first contents elsewhere. -/
def innerInv (k : ℕ) (_ : Unit) : sProp 𝕄 :=
  iprop(∃ fo0' fo1' : Buf (Elt F) (ovM.view.loc (thrOf d L)),
    (tvM.view.loc (thrOf d L) ↦{fullShare} ftv)
      ∗ ((ivSlot (k0_off5 L t) (k0_off5_inb L t)).view.loc (thrOf d L) ↦[(ivSlot (k0_off5 L t) (k0_off5_inb L t)).view.set]{fullShare} fiv)
      ∗ ((ovSlot (k0_off142 L t) (k0_off142_inb L t)).view.loc (thrOf d L) ↦[(ovSlot (k0_off142 L t) (k0_off142_inb L t)).view.set]{fullShare} fo0')
      ∗ ((ovSlot (k0_off144 L t) (k0_off144_inb L t)).view.loc (thrOf d L) ↦[(ovSlot (k0_off144 L t) (k0_off144_inb L t)).view.set]{fullShare} fo1')
      ∗ ⌜(∀ i, fo0' i = if rowsDone (t.val % 4) 0 k i then tripVal ftv fiv i else fo0 i)
          ∧ (∀ i, fo1' i = if rowsDone (t.val % 4) 1 k i then tripVal ftv fiv i else fo1 i)⌝)

end Loop

/-- The inner loop of trip `t`. -/
theorem inner_loop (d : Dev nD) (L : grid0.Coords) : InnerSpec (F := F) d L := by
  intro t v4 v46 ftv fiv fo0 fo1 hrow
  have hfiv : ∀ i : S4x640.Idx, (i 0).val = t.val % 4 → (fiv i).toNat < 100 := by
    intro i hi
    have e : i = ix2 (⟨t.val % 4, slot_lt L t⟩ : Fin 4) (⟨(i 1).val, idx2_lt1 i⟩ : Fin 640) := by
      funext a
      match a with
      | ⟨0, _⟩ => exact Fin.ext hi
      | ⟨1, _⟩ => rfl
    rw [e]; exact hrow _
  iintro ⟨Htv, Hiv, Ho0, Ho1⟩
  sl_for (innerInv d L t ftv fiv fo0 fo1) $$ [Htv Hiv Ho0 Ho1]
  case region =>
    intro g u
    unfold innerInv
    iintro ⟨%fo0', %fo1', Htv, Hiv, Ho0, Ho1, %hinv⟩
    first | sl_respell [] | skip
    iapply ((tripRun d L t g v4 v46 u ftv fiv fo0' fo1' hfiv).2.2 _)
    isplitl [Htv]; · iexact Htv
    isplitl [Hiv]; · iexact Hiv
    isplitl [Ho0]; · iexact Ho0
    isplitl [Ho1]; · iexact Ho1
    iintro ⟨Htv, Hiv, Ho0, Ho1⟩
    iexists _, _
    isplitl [Htv]; · iexact Htv
    isplitl [Hiv]; · iexact Hiv
    isplitl [Ho0]; · iexact Ho0
    isplitl [Ho1]; · iexact Ho1
    ipureintro
    exact ⟨rows_step (t.val % 4) 0 g.val (tripVal ftv fiv) fo0 fo0' _ hinv.1
        (tripRun_out0 d L t g ftv fiv fo0' fo1' hfiv v4 v46 u),
      rows_step (t.val % 4) 1 g.val (tripVal ftv fiv) fo1 fo1' _ hinv.2
        (tripRun_out1 d L t g ftv fiv fo0' fo1' hfiv v4 v46 u)⟩
  isplitl [Htv Hiv Ho0 Ho1]
  · unfold innerInv
    iexists fo0, fo1
    isplitl [Htv]; · iexact Htv
    isplitl [Hiv]; · iexact Hiv
    isplitl [Ho0]; · iexact Ho0
    isplitl [Ho1]; · iexact Ho1
    ipureintro
    exact ⟨fun i => (if_neg (fun h => Nat.not_lt_zero _ h.2.2)).symm,
      fun i => (if_neg (fun h => Nat.not_lt_zero _ h.2.2)).symm⟩
  iintro %_ HI
  unfold innerInv
  icases HI with ⟨%fo0', %fo1', Htv, Hiv, Ho0, Ho1, %hinv⟩
  iexists fo0', fo1'
  isplitl [Htv]; · iexact Htv
  isplitl [Hiv]; · iexact Hiv
  isplitl [Ho0]; · iexact Ho0
  isplitl [Ho1]; · iexact Ho1
  ipureintro
  intro g r j
  have hg := g.isLt
  have hr := r.isLt
  have hj := j.isLt
  have hw := hrow (⟨128 * g.val + j.val, by omega⟩ : Fin 640)
  have hdone0 : rowsDone (t.val % 4) 0 k0_t2_loop.trips
      (ix5 (⟨t.val % 4, slot_lt L t⟩ : Fin 4) (0 : Fin 2) g r j) := by
    rw [inner_trips]; exact ⟨rfl, rfl, hg⟩
  have hdone1 : rowsDone (t.val % 4) 1 k0_t2_loop.trips
      (ix5 (⟨t.val % 4, slot_lt L t⟩ : Fin 4) (1 : Fin 2) g r j) := by
    rw [inner_trips]; exact ⟨rfl, rfl, hg⟩
  constructor
  · rw [hinv.1, if_pos hdone0, tripVal_apply ftv fiv _ 0 g r j hw]
    refine congrArg ftv (congrArg ix1 (Fin.ext ?_))
    show _ * 256 + (8 * 0 + r.val) * 16 + j.val % 16 = _ % 100 * 256 + r.val * 16 + j.val % 16
    rw [Nat.mod_eq_of_lt hw]; omega
  · rw [hinv.2, if_pos hdone1, tripVal_apply ftv fiv _ 1 g r j hw]
    refine congrArg ftv (congrArg ix1 (Fin.ext ?_))
    show _ * 256 + (8 * 1 + r.val) * 16 + j.val % 16 = _ % 100 * 256 + (8 + r.val) * 16 + j.val % 16
    rw [Nat.mod_eq_of_lt hw]

end Cert.Proof.KernelIdealSc

end
-- ==== Proof.ScSetupK.lean ====
/-
  The set-up of the kernel's launch: the program as the launch theorem reads it, the ghost state, and what the
  call's handshakes carry.

  The call runs on 2 SparseCores × 16 vector subcores. Vector subcore `s` of SparseCore `c` is worker
  `w = 2 s + c`; worker `w` takes the chunks `start w, …, start w + nch w - 1` of the 5000, and chunk `t` is
  the rows `5 t, …, 5 t + 4` of axis 1 of the four-axis result `[2, 25000, 8, 128]` (all of axes 0, 2, 3). So
  worker `w` writes exactly the elements `o` with `5 · start w ≤ o 1 < 5 · (start w + nch w)`: these 32 sets are
  pairwise disjoint and cover the array. Every worker reads the index list and the repeated table whole, so each is
  handed a read share of both.

  What the result must hold is ONE function of the two operands (`Gout`): element `(h, T, q, j)` is the repeated
  table at position `256 · (word number 128 T + j of the list) + 16 · (8 h + q) + j % 16`.
-/
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Transfers
import Idealize.ShloMosaic.Lib.ValueIdx
import proofs.«202852_g34127810134284_cont_8to1_b_1476_20_alg».proof.Proof.Gen.Kernel
import proofs.«202852_g34127810134284_cont_8to1_b_1476_20_alg».proof.Proof.TilePlan
import proofs.«202852_g34127810134284_cont_8to1_b_1476_20_alg».proof.Proof.HostEnds

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## The arrays -/

/-- The index list, `i32[3200000]`. -/
abbrev idxLoc (d : Dev nD) : Loc nD τ sig := (SparseCore.T d).loc main_arg0
/-- The table, `f32[100, 16]`. -/
abbrev tblLoc (d : Dev nD) : Loc nD τ sig := (SparseCore.T d).loc main_arg1
/-- The table with every element repeated 16 times, `f32[25600]`: the call's second operand. -/
abbrev tabLoc (d : Dev nD) : Loc nD τ sig := (SparseCore.T d).loc main_v2
/-- The call's result, `f32[2, 25000, 8, 128]`. -/
abbrev outLoc (d : Dev nD) : Loc nD τ sig := (SparseCore.T d).loc main_v3
/-- The program's result, `f32[3200000, 16]`. -/
abbrev resLoc (d : Dev nD) : Loc nD τ sig := (SparseCore.T d).loc main_v5

/-! ## The workers' parts of the result -/

/-- The worker of vector subcore `i` of SparseCore `c`. -/
def widOf (c : Fin τ.nSC) (i : Fin τ.nSub) : ℕ := Cert.TilePlan.wid c.val i.val

/-- The elements of the result worker `w` writes: rows `5 · start w ≤ o 1 < 5 · (start w + nch w)` of axis 1. -/
def tileSet (d : Dev nD) (w : ℕ) : Finset (Idx (outLoc d)) :=
  Finset.univ.filter fun o : S2x25000x8x128.Idx =>
    5 * Cert.TilePlan.start w ≤ (o 1).val ∧ (o 1).val < 5 * (Cert.TilePlan.start w + Cert.TilePlan.nch w)

theorem mem_tileSet (d : Dev nD) (w : ℕ) (o : S2x25000x8x128.Idx) :
    o ∈ tileSet d w ↔ 5 * Cert.TilePlan.start w ≤ (o 1).val ∧ (o 1).val < 5 * (Cert.TilePlan.start w + Cert.TilePlan.nch w) :=
  Finset.mem_filter.trans (and_iff_right (Finset.mem_univ _))

/-- Two workers write no common element: the chunk of a common row would lie in both ranges. -/
theorem tileSet_disjoint (d : Dev nD) {w w' : ℕ} (h : w ≠ w') : Disjoint (tileSet d w) (tileSet d w') := by
  refine Finset.disjoint_left.mpr fun o h1 h2 => h ?_
  rw [mem_tileSet] at h1 h2
  exact Cert.TilePlan.range_disjoint (s := (o 1).val / 5 - Cert.TilePlan.start w) (t := (o 1).val / 5 - Cert.TilePlan.start w')
    (by omega) (by omega) (by omega)

/-- Every element is some worker's: the owner of its row's chunk. -/
theorem tileSet_cover (d : Dev nD) : (Finset.range 32).biUnion (tileSet d) = Finset.univ := by
  refine Finset.eq_univ_iff_forall.mpr fun o => ?_
  have ho : (o 1).val < 25000 := (o 1).isLt
  obtain ⟨w, t, hw, ht, e⟩ := Cert.TilePlan.exists_owner (T := (o 1).val / 5) (by omega)
  exact Finset.mem_biUnion.mpr ⟨w, Finset.mem_range.mpr hw, (mem_tileSet d w o).mpr ⟨by omega, by omega⟩⟩

/-! ## What the result must hold -/

/-- The result as ONE function of the index list and the repeated table: element `(h, T, q, j)` is the repeated table
    at position `256 · v + 16 · (8 h + q) + j % 16`, `v` the list's word number `128 T + j` (reduced into the table's
    25600 positions, which it is in already when `v < 100`). -/
def Gout (sp : IVec S3200000 32) (tab : FVec F S25600 .f32) : FVec F S2x25000x8x128 .f32 := fun o =>
  tab (ix1 (⟨((sp (ix1 (⟨(o 1).val * 128 + (o 3).val, by
        have h1 : (o 1).val < 25000 := (o 1).isLt
        have h3 : (o 3).val < 128 := (o 3).isLt
        omega⟩ : Fin 3200000))).toNat * 256 + ((o 0).val * 8 + (o 2).val) * 16 + (o 3).val % 16) % 25600,
      Nat.mod_lt _ (by decide)⟩ : Fin 25600))

theorem Gout_apply (sp : IVec S3200000 32) (tab : FVec F S25600 .f32) (h : Fin 2) (T : Fin 25000) (r : Fin 8) (j : Fin 128) :
    Gout sp tab (ix4 h T r j)
      = tab (ix1 (⟨((sp (ix1 (⟨T.val * 128 + j.val, by have := T.isLt; have := j.isLt; omega⟩ : Fin 3200000))).toNat * 256
          + (h.val * 8 + r.val) * 16 + j.val % 16) % 25600, Nat.mod_lt _ (by decide)⟩ : Fin 25600)) := rfl

/-! ## What the handshakes carry -/

variable (m : (ℓ : Loc nD τ sig) → Buf (Elt F) ℓ) (ρ : Dev nD → PrngReg)

/-- Worker `w`'s read share of an operand every worker reads whole: the full share halved `w` times, then its right half. -/
def qTile (w : ℕ) : PosShare TreeShare := Transfers.shareTokN fullShare w

/-- What worker `w` is handed: a read share of the index list and of the repeated table (which holds the table's
    elements, each 16 times), and its part of the result, at the launch contents. -/
def goRes (d : Dev nD) (w : ℕ) : sProp 𝕄 :=
  iprop((idxLoc d ↦{qTile w} m (idxLoc d)) ∗ (tabLoc d ↦{qTile w} Cert.RefSide.tabRep (m (tblLoc d)))
    ∗ (outLoc d ↦[tileSet d w]{fullShare} m (outLoc d)))

/-- What worker `w` hands back: the same, its part of the result at the ONE function `Gout` of the operands. -/
def tdRes (d : Dev nD) (w : ℕ) : sProp 𝕄 :=
  iprop((idxLoc d ↦{qTile w} m (idxLoc d)) ∗ (tabLoc d ↦{qTile w} Cert.RefSide.tabRep (m (tblLoc d)))
    ∗ (outLoc d ↦[tileSet d w]{fullShare} Gout (m (idxLoc d)) (Cert.RefSide.tabRep (m (tblLoc d)))))

instance goRes_storable (d : Dev nD) (w : ℕ) : BI.Storable (upEmb : UEmb _ 𝕄) (goRes m d w) := by
  unfold goRes; infer_instance
instance tdRes_storable (d : Dev nD) (w : ℕ) : BI.Storable (upEmb : UEmb _ 𝕄) (tdRes m d w) := by
  unfold tdRes; infer_instance

/-- The call's payloads: a SparseCore is handed its 16 workers' resources and each worker its own; the way back
    likewise. Nothing of the launch's is consumed by the kernel's proof. -/
def P : (K (F := F)).Pay (nD := nD) (Val := Elt F) (Name := ℕ) (U := UU) where
  st := fun q d c => bigSep Finset.univ fun i : Fin ((K (F := F)).nSub q) => goRes m d (widOf ((K (F := F)).core q c) ((K (F := F)).sub q i))
  dn := fun q d c => bigSep Finset.univ fun i : Fin ((K (F := F)).nSub q) => tdRes m d (widOf ((K (F := F)).core q c) ((K (F := F)).sub q i))
  go := fun q d c i => goRes m d (widOf ((K (F := F)).core q c) ((K (F := F)).sub q i))
  td := fun q d c i => tdRes m d (widOf ((K (F := F)).core q c) ((K (F := F)).sub q i))
  x := fun _ _ => iprop(emp)

theorem P_st (q : Fin 1) (d : Dev nD) (c : Fin ((K (F := F)).nCore q)) :
    (P m).st q d c = bigSep Finset.univ fun i : Fin ((K (F := F)).nSub q) => goRes m d (widOf ((K (F := F)).core q c) ((K (F := F)).sub q i)) := rfl
theorem P_dn (q : Fin 1) (d : Dev nD) (c : Fin ((K (F := F)).nCore q)) :
    (P m).dn q d c = bigSep Finset.univ fun i : Fin ((K (F := F)).nSub q) => tdRes m d (widOf ((K (F := F)).core q c) ((K (F := F)).sub q i)) := rfl
theorem P_go (q : Fin 1) (d : Dev nD) (c : Fin ((K (F := F)).nCore q)) (i : Fin ((K (F := F)).nSub q)) :
    (P m).go q d c i = goRes m d (widOf ((K (F := F)).core q c) ((K (F := F)).sub q i)) := rfl
theorem P_td (q : Fin 1) (d : Dev nD) (c : Fin ((K (F := F)).nCore q)) (i : Fin ((K (F := F)).nSub q)) :
    (P m).td q d c i = tdRes m d (widOf ((K (F := F)).core q c) ((K (F := F)).sub q i)) := rfl
theorem P_x (q : Fin 1) (thr : Thread nD τ) : (P (F := F) m).x q thr = iprop(emp) := rfl
theorem P_ox (q : Fin 1) (thr : Thread nD τ) : (P (F := F) m).ox q thr = 0 := rfl

instance P_storable : (P (F := F) m).IsStorable where
  st _ d c := by unfold P; infer_instance
  dn _ d c := by unfold P; infer_instance
  go _ _ _ _ := by unfold P; infer_instance
  td _ _ _ _ := by unfold P; infer_instance

/-- A SparseCore's resources ARE its workers': the split is the identity. -/
theorem vecSplit : (K (F := F)).VecSplit' (P m) 0 := by
  intro d c
  rw [P_st, P_dn]
  iintro H; imodintro
  isplitl [H]; · iexact H
  iintro H; iexact H

end Cert.Proof.KernelSc

end
-- ==== Proof.ScLaunchK.lean ====
/-
  The kernel's launch: from the proof of ONE worker's task to the program's run.

  @main on the TensorCore makes the repeated table by three host operations, starts the call on the 2 SparseCores × 16
  vector subcores and waits for it, then transposes and flattens the call's result by two host operations. The launch
  theorem asks, beside each worker's task: how a SparseCore's share of the operands splits among its 16 workers (here
  the identity), the launch element of the ghost state (the handshakes' only), @main on the TensorCore, and how the
  final memory reads the claim.

  In @main the index list and the repeated table, held whole, are each cut into 32 read shares (the TensorCore keeps
  what remains), and the result, held whole, into the 32 workers' parts — disjoint and covering —; the 32 workers are
  the pairs (SparseCore, vector subcore) through `w = 2 s + c`. Back from the call each part holds the ONE function
  `Gout` of the operands on its elements, so the parts join to the result whole at `Gout`, and the shares join to the
  operands whole.
-/
import proofs.«202852_g34127810134284_cont_8to1_b_1476_20_alg».proof.Proof.ScSetupK

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The workers as pairs (SparseCore, vector subcore) -/

/-- The 32 workers are the pairs: `w = 2 s + c` is a bijection from `2 × 16` onto `[0, 32)`. -/
theorem range32_eq : Finset.range 32 = (Finset.univ : Finset (Fin 2 × Fin 16)).image (fun p => Cert.TilePlan.wid p.1.val p.2.val) := by
  ext w
  simp only [Finset.mem_range, Finset.mem_image, Finset.mem_univ, true_and]
  constructor
  · intro hw
    obtain ⟨c, s, hc, hs, e⟩ := Cert.TilePlan.wid_surj hw
    exact ⟨(⟨c, hc⟩, ⟨s, hs⟩), e.symm⟩
  · rintro ⟨⟨c, s⟩, rfl⟩
    exact Cert.TilePlan.wid_lt c.isLt s.isLt

theorem wid_injOn : Set.InjOn (fun p : Fin 2 × Fin 16 => Cert.TilePlan.wid p.1.val p.2.val) ((Finset.univ : Finset (Fin 2 × Fin 16)) : Set _) := by
  intro a _ b _ e
  obtain ⟨h1, h2⟩ := Cert.TilePlan.wid_inj a.1.isLt b.1.isLt e
  exact Prod.ext (Fin.ext h1) (Fin.ext h2)

/-- A family over the workers, dealt to the SparseCores and their vector subcores. -/
theorem bigSep_workers (Φ : ℕ → sProp 𝕄) :
    bigSep (Finset.range 32) Φ
      = bigSep (Finset.univ : Finset (Fin 2)) fun c => bigSep (Finset.univ : Finset (Fin 16)) fun i => Φ (Cert.TilePlan.wid c.val i.val) := by
  rw [range32_eq, bigSep_image_of_injOn wid_injOn, bigSep_univ_prod]

theorem st0_eq (d : Dev nD) :
    (bigSep Finset.univ fun c : Fin ((K (F := F)).nCore 0) => (P m).st 0 d c) = bigSep (Finset.range 32) (goRes m d) := by
  rw [bigSep_workers]; rfl
theorem dn0_eq (d : Dev nD) :
    (bigSep Finset.univ fun c : Fin ((K (F := F)).nCore 0) => (P m).dn 0 d c) = bigSep (Finset.range 32) (tdRes m d) := by
  rw [bigSep_workers]; rfl

/-! ## The operands and the result, whole, as the workers' parts -/

/-- The result whole is its 32 parts. -/
theorem out_parts (d : Dev nD) (f : Buf (Elt F) (outLoc d)) :
    (outLoc d ↦{fullShare} f : sProp 𝕄) = bigSep (Finset.range 32) fun w => outLoc d ↦[tileSet d w]{fullShare} f := by
  rw [← pointsTo_biUnion (Finset.range 32) (ℓ := outLoc d) (tileSet d) (fun w _ w' _ h => tileSet_disjoint d h), tileSet_cover]; try rfl

theorem goRes_all (d : Dev nD) :
    bigSep (Finset.range 32) (goRes m d)
      = iprop((bigSep (Finset.range 32) fun w => idxLoc d ↦{qTile w} m (idxLoc d))
          ∗ (bigSep (Finset.range 32) fun w => tabLoc d ↦{qTile w} Cert.RefSide.tabRep (m (tblLoc d)))
          ∗ (outLoc d ↦{fullShare} m (outLoc d))) := by
  unfold goRes
  rw [bigSep_sep', bigSep_sep', ← out_parts]
theorem tdRes_all (d : Dev nD) :
    bigSep (Finset.range 32) (tdRes m d)
      = iprop((bigSep (Finset.range 32) fun w => idxLoc d ↦{qTile w} m (idxLoc d))
          ∗ (bigSep (Finset.range 32) fun w => tabLoc d ↦{qTile w} Cert.RefSide.tabRep (m (tblLoc d)))
          ∗ (outLoc d ↦{fullShare} Gout (m (idxLoc d)) (Cert.RefSide.tabRep (m (tblLoc d))))) := by
  unfold tdRes
  rw [bigSep_sep', bigSep_sep', ← out_parts]

/-! ## @main on the TensorCore: its arrays and its host operations -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

/-- The TensorCore's arrays, all unscoped. -/
abbrev S8 : Finset (DevRef τ sig) := {a0', a1', r0', r1', r2', r3', r4', r5'}

/-- The three host operations before the call and the two after it, as @main prints them. -/
abbrev op1 : HloOp τ sig (Elt F) := StableHlo.reshape main_arg1 main_v0 rfl Facts₀.shapeCasts_S100x16_S1600x1
abbrev op2 : HloOp τ sig (Elt F) :=
  StableHlo.unary main_v0 main_v1 (broadcastInDim S1600x16 ![0, 1] Facts₀.bcast_S1600x1_S1600x16_0_1 : (⟨S1600x1, .f32⟩ : BufTy).Contents (Elt F) → (⟨S1600x16, .f32⟩ : BufTy).Contents (Elt F))
abbrev op3 : HloOp τ sig (Elt F) := StableHlo.reshape main_v1 main_v2 rfl Facts₀.shapeCasts_S1600x16_S25600
abbrev op4 : HloOp τ sig (Elt F) :=
  StableHlo.unary main_v3 main_v4 ((transpose S25000x128x2x8 [1, 3, 0, 2] · Facts₀.transposes_S2x25000x8x128_S25000x128x2x8_1_3_0_2) : (⟨S2x25000x8x128, .f32⟩ : BufTy).Contents (Elt F) → (⟨S25000x128x2x8, .f32⟩ : BufTy).Contents (Elt F))
abbrev op5 : HloOp τ sig (Elt F) := StableHlo.reshape main_v4 main_v5 rfl Facts₀.shapeCasts_S25000x128x2x8_S3200000x16

theorem hop1 : (op1 (F := F)).bufs ⊆ S8 := show ({a1', r0'} : Finset (DevRef τ sig)) ⊆ S8 by decide
theorem hop2 : (op2 (F := F)).bufs ⊆ S8 := show ({r0', r1'} : Finset (DevRef τ sig)) ⊆ S8 by decide
theorem hop3 : (op3 (F := F)).bufs ⊆ S8 := show ({r1', r2'} : Finset (DevRef τ sig)) ⊆ S8 by decide
theorem hop4 : (op4 (F := F)).bufs ⊆ S8 := show ({r3', r4'} : Finset (DevRef τ sig)) ⊆ S8 by decide
theorem hop5 : (op5 (F := F)).bufs ⊆ S8 := show ({r4', r5'} : Finset (DevRef τ sig)) ⊆ S8 by decide

/-- The arrays' contents: at the launch, after each host operation before the call, after the call (the result at
    `Gout`), after each host operation after it. -/
def W0 (d : Dev nD) : Valuation τ sig (Elt F) := fun b => m (d, b)
def W1 (d : Dev nD) : Valuation τ sig (Elt F) := (op1 (F := F)).result (W0 m d)
def W2 (d : Dev nD) : Valuation τ sig (Elt F) := (op2 (F := F)).result (W1 m d)
def W3 (d : Dev nD) : Valuation τ sig (Elt F) := (op3 (F := F)).result (W2 m d)
def W4 (d : Dev nD) : Valuation τ sig (Elt F) :=
  Function.update (W3 m d) r3' (Gout (m (idxLoc d)) (Cert.RefSide.tabRep (m (tblLoc d))))
def W5 (d : Dev nD) : Valuation τ sig (Elt F) := (op4 (F := F)).result (W4 m d)
def W6 (d : Dev nD) : Valuation τ sig (Elt F) := (op5 (F := F)).result (W5 m d)

/-- An array no operation before the call writes holds its launch contents. -/
theorem W3_of_ne (d : Dev nD) (b : DevRef τ sig) (h0 : b ≠ r0') (h1 : b ≠ r1') (h2 : b ≠ r2') : W3 m d b = m (d, b) := by
  unfold W3 W2 W1 W0
  rw [(op3 (F := F)).result_of_not_mem _ (b := b) (by show b ∉ ({r2'} : Finset (DevRef τ sig)); rw [Finset.mem_singleton]; exact h2),
    (op2 (F := F)).result_of_not_mem _ (b := b) (by show b ∉ ({r1'} : Finset (DevRef τ sig)); rw [Finset.mem_singleton]; exact h1),
    (op1 (F := F)).result_of_not_mem _ (b := b) (by show b ∉ ({r0'} : Finset (DevRef τ sig)); rw [Finset.mem_singleton]; exact h0)]

/-- The call's second operand holds the table with every element repeated 16 times. -/
theorem W3_r2 (d : Dev nD) : W3 m d r2' = Cert.RefSide.tabRep (m (tblLoc d)) := by
  unfold W3
  refine (StableHlo.reshape_result main_v1 main_v2 rfl _ _ _ (W2 m d)).trans ?_
  unfold W2
  rw [show (op2 (F := F)).result (W1 m d) (Proc.devRef .tc main_v1) = _ from StableHlo.unary_result main_v0 main_v1 _ _ _ (W1 m d)]
  unfold W1
  rw [show (op1 (F := F)).result (W0 m d) (Proc.devRef .tc main_v0) = _ from StableHlo.reshape_result main_arg1 main_v0 rfl _ _ _ (W0 m d)]
  rfl

/-- After the call only the result has changed. -/
theorem W4_of_ne (d : Dev nD) (b : DevRef τ sig) (h : b ≠ r3') : W4 m d b = W3 m d b := Function.update_of_ne h _ _
theorem W4_r3 (d : Dev nD) : W4 m d r3' = Gout (m (idxLoc d)) (Cert.RefSide.tabRep (m (tblLoc d))) := Function.update_self _ _ _

theorem W6_of_ne (d : Dev nD) (b : DevRef τ sig) (h4 : b ≠ r4') (h5 : b ≠ r5') : W6 m d b = W4 m d b := by
  unfold W6 W5
  rw [(op5 (F := F)).result_of_not_mem _ (b := b) (by show b ∉ ({r5'} : Finset (DevRef τ sig)); rw [Finset.mem_singleton]; exact h5),
    (op4 (F := F)).result_of_not_mem _ (b := b) (by show b ∉ ({r4'} : Finset (DevRef τ sig)); rw [Finset.mem_singleton]; exact h4)]

/-- The program's result holds the call's result transposed and flattened to rows of 16. -/
theorem W6_r5 (d : Dev nD) : W6 m d r5' = Cert.RefSide.outOf (Gout (m (idxLoc d)) (Cert.RefSide.tabRep (m (tblLoc d)))) := by
  unfold W6
  refine (StableHlo.reshape_result main_v4 main_v5 rfl _ _ _ (W5 m d)).trans ?_
  unfold W5
  rw [show (op4 (F := F)).result (W4 m d) (Proc.devRef .tc main_v4) = _ from StableHlo.unary_result main_v3 main_v4 _ _ _ (W4 m d)]
  rw [show W4 m d (Proc.devRef .tc main_v3) = _ from W4_r3 m d]
  rfl

/-! ### The arrays held whole, by name -/

theorem held3 (c : Thread nD τ) {x y z : DevRef τ sig} (hx : x ∉ ({y, z} : Finset (DevRef τ sig))) (hy : y ∉ ({z} : Finset (DevRef τ sig)))
    (W : Valuation τ sig (Elt F)) :
    (held c {x, y, z} W : sProp 𝕄)
      = iprop(((c.1, x) ↦{fullShare} W x) ∗ ((c.1, y) ↦{fullShare} W y) ∗ ((c.1, z) ↦{fullShare} W z)) := by
  unfold held
  rw [SparseCore.bigSep_insert' hx, SparseCore.bigSep_insert' hy, bigSep_singleton]

/-- The arrays the call does not touch. -/
abbrev Rcall : Finset (DevRef τ sig) := S8 \ {a0', r2', r3'}
/-- The arrays the claim does not read. -/
abbrev Rfin : Finset (DevRef τ sig) := S8 \ {a0', a1', r5'}

theorem unscoped_held (d : Dev nD) : (unscopedBufs d (fun b => m ((SparseCore.T d).loc b)) : sProp 𝕄) = held (T d) S8 (W0 m d) := by
  unfold unscopedBufs held
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- Before the call: the two operands and the result out of the eight. -/
theorem held_W3 (d : Dev nD) :
    (held (T d) S8 (W3 m d) : sProp 𝕄)
      = iprop(((idxLoc d ↦{fullShare} m (idxLoc d)) ∗ (tabLoc d ↦{fullShare} Cert.RefSide.tabRep (m (tblLoc d))) ∗ (outLoc d ↦{fullShare} m (outLoc d)))
          ∗ held (T d) Rcall (W3 m d)) := by
  rw [StableHlo.held_sub_split (T d) (show ({a0', r2', r3'} : Finset (DevRef τ sig)) ⊆ S8 by decide) (W3 m d),
    held3 (T d) (by decide) (by decide), W3_of_ne m d a0' (by decide) (by decide) (by decide), W3_r2, W3_of_ne m d r3' (by decide) (by decide) (by decide)]

/-- After the call: the same, the result at `Gout`. -/
theorem held_W4 (d : Dev nD) :
    (held (T d) S8 (W4 m d) : sProp 𝕄)
      = iprop(((idxLoc d ↦{fullShare} m (idxLoc d)) ∗ (tabLoc d ↦{fullShare} Cert.RefSide.tabRep (m (tblLoc d)))
            ∗ (outLoc d ↦{fullShare} Gout (m (idxLoc d)) (Cert.RefSide.tabRep (m (tblLoc d)))))
          ∗ held (T d) Rcall (W3 m d)) := by
  rw [StableHlo.held_sub_split (T d) (show ({a0', r2', r3'} : Finset (DevRef τ sig)) ⊆ S8 by decide) (W4 m d),
    held3 (T d) (by decide) (by decide), W4_of_ne m d a0' (by decide), W4_of_ne m d r2' (by decide), W4_r3,
    W3_of_ne m d a0' (by decide) (by decide) (by decide), W3_r2,
    StableHlo.held_congr (T d) (V := W4 m d) (V' := W3 m d) (S := Rcall) (fun b hb => W4_of_ne m d b (by
      intro e; subst e; revert hb; decide))]

/-- At the end: the two arguments and the program's result out of the eight. -/
theorem held_W6 (d : Dev nD) :
    (held (T d) S8 (W6 m d) : sProp 𝕄)
      = iprop(((idxLoc d ↦{fullShare} m (idxLoc d)) ∗ (tblLoc d ↦{fullShare} m (tblLoc d))
            ∗ (resLoc d ↦{fullShare} Cert.RefSide.outOf (Gout (m (idxLoc d)) (Cert.RefSide.tabRep (m (tblLoc d))))))
          ∗ held (T d) Rfin (W6 m d)) := by
  rw [StableHlo.held_sub_split (T d) (show ({a0', a1', r5'} : Finset (DevRef τ sig)) ⊆ S8 by decide) (W6 m d),
    held3 (T d) (by decide) (by decide), W6_of_ne m d a0' (by decide) (by decide), W6_of_ne m d a1' (by decide) (by decide), W6_r5,
    W4_of_ne m d a0' (by decide), W4_of_ne m d a1' (by decide),
    W3_of_ne m d a0' (by decide) (by decide) (by decide), W3_of_ne m d a1' (by decide) (by decide) (by decide)]

/-- The same two, spelt as the host operations leave the arrays. -/
theorem held_W3' (d : Dev nD) :
    (held (T d) S8 ((op3 (F := F)).result (W2 m d)) : sProp 𝕄)
      = iprop(((idxLoc d ↦{fullShare} m (idxLoc d)) ∗ (tabLoc d ↦{fullShare} Cert.RefSide.tabRep (m (tblLoc d))) ∗ (outLoc d ↦{fullShare} m (outLoc d)))
          ∗ held (T d) Rcall (W3 m d)) := held_W3 m d
theorem held_W6' (d : Dev nD) :
    (held (T d) S8 ((op5 (F := F)).result (W5 m d)) : sProp 𝕄)
      = iprop(((idxLoc d ↦{fullShare} m (idxLoc d)) ∗ (tblLoc d ↦{fullShare} m (tblLoc d))
            ∗ (resLoc d ↦{fullShare} Cert.RefSide.outOf (Gout (m (idxLoc d)) (Cert.RefSide.tabRep (m (tblLoc d))))))
          ∗ held (T d) Rfin (W6 m d)) := held_W6 m d

/-- What @main leaves the claim: the two arguments at their launch contents, the result at the lookup's value. -/
abbrev FIN (d : Dev nD) : sProp 𝕄 :=
  iprop((idxLoc d ↦{fullShare} m (idxLoc d)) ∗ (tblLoc d ↦{fullShare} m (tblLoc d))
    ∗ (resLoc d ↦{fullShare} Cert.RefSide.outOf (Gout (m (idxLoc d)) (Cert.RefSide.tabRep (m (tblLoc d))))))

variable [FloatOps F]

/-- @main on device `d`'s TensorCore. The three host operations make the repeated table; the call takes the index list
    and the repeated table as 32 read shares each (the TensorCore keeps the remainders) and the result as its 32 parts,
    and brings them back, the parts at the ONE function `Gout`, which join to the result whole; the two host operations
    after it transpose and flatten it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table as a column
  iapply (wp_hlo_within 𝒱 (SparseCore.T d) none Set.univ (op := op1) (S := S8) hop1 (V := W0 m d)) $$ [Hb Hheld]
  · isplitl [Hb]; · iexact Hb
    iexact Hheld
  iintro ⟨Hb, Hheld⟩
  rw [wp_ret]; imodintro
  -- every element repeated 16 times
  iapply (wp_hlo_within 𝒱 (SparseCore.T d) none Set.univ (op := op2) (S := S8) hop2 (V := W1 m d)) $$ [Hb Hheld]
  · isplitl [Hb]; · iexact Hb
    iexact Hheld
  iintro ⟨Hb, Hheld⟩
  rw [wp_ret]; imodintro
  -- flattened
  iapply (wp_hlo_within 𝒱 (SparseCore.T d) none Set.univ (op := op3) (S := S8) hop3 (V := W2 m d)) $$ [Hb Hheld]
  · isplitl [Hb]; · iexact Hb
    iexact Hheld
  iintro ⟨Hb, Hheld⟩
  rw [wp_ret]; imodintro
  -- the call
  ihave Hh := (Entails.of_eq (held_W3' (F := F) m d)) $$ Hheld
  icases Hh with ⟨⟨Hi, Ht, Ho⟩, Hrest⟩
  ihave Hi' := (Transfers.pointsTo_toks_range fullShare 32).1 $$ Hi
  icases Hi' with ⟨Hi0, Hitok⟩
  ihave Ht' := (Transfers.pointsTo_toks_range fullShare 32).1 $$ Ht
  icases Ht' with ⟨Ht0, Httok⟩
  iapply ((K (F := F)).wp_run (D (F := F)) 𝒱 (EH := EH) (P := P m) κ d 0) $$ [Hst Hb Hrest Hi0 Ht0 Hitok Httok Ho]
  isplitr; · iexact Hctx
  isplitl [Hst]; · iexact Hst
  isplitl [Hitok Httok Ho]
  · rw [st0_eq, goRes_all]
    isplitl [Hitok]; · iexact Hitok
    isplitl [Httok]; · iexact Httok
    iexact Ho
  iintro ⟨Hst, Hdn⟩
  ihave Hdn' := (Entails.of_eq ((dn0_eq m d).trans (tdRes_all m d))) $$ Hdn
  icases Hdn' with ⟨Hitok, Httok, Ho⟩
  ihave Hi := (Transfers.pointsTo_toks_range fullShare 32).2 $$ [Hi0 Hitok]
  · isplitl [Hi0]; · iexact Hi0
    iexact Hitok
  ihave Ht := (Transfers.pointsTo_toks_range fullShare 32).2 $$ [Ht0 Httok]
  · isplitl [Ht0]; · iexact Ht0
    iexact Httok
  ihave Hheld := (Entails.of_eq (held_W4 (F := F) m d).symm) $$ [Hi Ht Ho Hrest]
  · isplitl [Hi Ht Ho]
    · isplitl [Hi]; · iexact Hi
      isplitl [Ht]; · iexact Ht
      iexact Ho
    · iexact Hrest
  -- transposed
  iapply (wp_hlo_within 𝒱 (SparseCore.T d) none Set.univ (op := op4) (S := S8) hop4 (V := W4 m d)) $$ [Hb Hheld]
  · isplitl [Hb]; · iexact Hb
    iexact Hheld
  iintro ⟨Hb, Hheld⟩
  rw [wp_ret]; imodintro
  -- flattened to rows of 16
  iapply (wp_hlo_within 𝒱 (SparseCore.T d) none Set.univ (op := op5) (S := S8) hop5 (V := W5 m d)) $$ [Hb Hheld]
  · isplitl [Hb]; · iexact Hb
    iexact Hheld
  iintro ⟨Hb, Hheld⟩
  ihave Hh := (Entails.of_eq (held_W6' (F := F) m d)) $$ Hheld
  icases Hh with ⟨HF, -⟩
  rw [wp_ret]; imodintro; imodintro
  isplitl [Hst]; · iexact Hst
  iexact HF

/-! ## The final memory -/

def fq (d : Dev nD) (s' : Phys nD τ sig (Elt F)) : Prop :=
  s'.mem.mem (resLoc d) = Cert.RefSide.outOf (Gout (m (idxLoc d)) (Cert.RefSide.tabRep (m (tblLoc d))))
    ∧ s'.mem.mem (idxLoc d) = m (idxLoc d) ∧ s'.mem.mem (tblLoc d) = m (tblLoc d)

theorem hfin (d : Dev nD) (s' : Phys nD τ sig (Elt F)) : iprop(FIN m d ∗ SI s') ⊢ (⌜fq m d s'⌝ : sProp 𝕄) := by
  iintro ⟨⟨Hi, Ht, Hr⟩, HSI⟩
  ihave H := (persistent_entails_right (SI_pointsTo_agree (st := s') (ℓ := idxLoc d) (I := Finset.univ) (q := fullShare) (f := m (idxLoc d)))) $$ [HSI Hi]
  · isplitl [HSI] <;> iassumption
  icases H with ⟨%h1, HSI, -⟩
  ihave H := (persistent_entails_right (SI_pointsTo_agree (st := s') (ℓ := tblLoc d) (I := Finset.univ) (q := fullShare) (f := m (tblLoc d)))) $$ [HSI Ht]
  · isplitl [HSI] <;> iassumption
  icases H with ⟨%h2, HSI, -⟩
  ihave H := (SI_pointsTo_agree (st := s') (ℓ := resLoc d) (I := Finset.univ) (q := fullShare)
    (f := Cert.RefSide.outOf (Gout (m (idxLoc d)) (Cert.RefSide.tabRep (m (tblLoc d)))))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (resLoc c) = Cert.RefSide.outOf (Gout (m (idxLoc c)) (Cert.RefSide.tabRep (m (tblLoc c))))
    ∧ r.2.mem (idxLoc c) = m (idxLoc c) ∧ r.2.mem (tblLoc c) = m (tblLoc c)

/-- The program's run, from the proof of one worker's task: every weakly fair execution terminates, and at its end
    the result holds the call's result (`Gout` of the index list and the repeated table) transposed and flattened,
    the two arguments unchanged. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelSc

end
-- ==== Proof.ScCondsK.lean ====
import proofs.«202852_g34127810134284_cont_8to1_b_1476_20_alg».proof.Proof.Gen.Kernel
import proofs.«202852_g34127810134284_cont_8to1_b_1476_20_alg».proof.Proof.TilePlan

/-!
# The tile program's conditions and trip counts, decided

Worker `w = 2·s + c` of vector subcore `s` of SparseCore `c` runs `nch w` trips of its outer loop (156 or 157).
Every worker has at least four chunks, so the four start-up copies are all made and the four final drains
are all taken; inside the loop, trip `t` drains chunk `t - 4` exactly when `4 ≤ t`, and fetches the indices
of chunk `t + 4` exactly when that chunk exists. The loop printed after it never runs.
-/

namespace Cert.Proof.KernelSc

open Cert.Kernel Cert.Kernel.Gen Idealize.ShloMosaic

/-- The worker of the tile at grid coordinates `L`. -/
def wOf (L : grid0.Coords) : ℕ := Cert.TilePlan.wid (L 0).val (L 1).val

theorem wOf_lt (L : grid0.Coords) : wOf L < 32 := Cert.TilePlan.wid_lt (L 0).isLt (L 1).isLt

/-- The outer loop runs once per chunk of the worker. -/
theorem t1_trips : ∀ L : grid0.Coords, (k0_t1_loop L).trips = Cert.TilePlan.nch (wOf L) := by decide +kernel

/-- The loop printed after it has no trip. -/
theorem t3_trips (L : grid0.Coords) : (k0_t3_loop L).trips = 0 := Nat.le_zero.mp (k0_t3_abs L).2.1

/-- Every worker has more than 0, 1, 2, 3 chunks: the four start-up copies are made. -/
theorem cond1 : ∀ L : grid0.Coords, k0_cond1 L = 1#1 := by decide +kernel
theorem cond2 : ∀ L : grid0.Coords, k0_cond2 L = 1#1 := by decide +kernel
theorem cond3 : ∀ L : grid0.Coords, k0_cond3 L = 1#1 := by decide +kernel
theorem cond4 : ∀ L : grid0.Coords, k0_cond4 L = 1#1 := by decide +kernel

/-- Every worker's last four chunks exist: the four final drains are taken. -/
theorem cond9 : ∀ L : grid0.Coords, k0_cond9 L = 1#1 := by decide +kernel
theorem cond10 : ∀ L : grid0.Coords, k0_cond10 L = 1#1 := by decide +kernel
theorem cond11 : ∀ L : grid0.Coords, k0_cond11 L = 1#1 := by decide +kernel
theorem cond12 : ∀ L : grid0.Coords, k0_cond12 L = 1#1 := by decide +kernel

/-- Trip `t` drains an earlier chunk exactly from the fifth trip on. -/
theorem cond5_iff : ∀ (L : grid0.Coords) (t : Fin (k0_t1_loop L).trips), k0_cond5 L t = 1#1 ↔ 4 ≤ t.val := by decide +kernel

/-- Trip `t` fetches the indices of chunk `t + 4` exactly when the worker has that chunk. -/
theorem cond6_iff : ∀ (L : grid0.Coords) (t : Fin (k0_t1_loop L).trips), k0_cond6 L t = 1#1 ↔ t.val + 4 < (k0_t1_loop L).trips := by decide +kernel

end Cert.Proof.KernelSc
-- ==== Proof.ScSlotsK.lean ====
import proofs.«202852_g34127810134284_cont_8to1_b_1476_20_alg».proof.Proof.ScSetupK
import proofs.«202852_g34127810134284_cont_8to1_b_1476_20_alg».proof.Proof.ScCondsK
import proofs.«202852_g34127810134284_cont_8to1_b_1476_20_alg».proof.Proof.Gen.Kernel.Skeleton
import Idealize.ShloMosaic.Lib.SparseCore.Ops

/-!
# The tile's buffers, cut the way the tile program cuts them

A tile keeps a ring of four slots. Slot `p` is: row `p` of the index scratch (640 indices), the two halves
`(p, 0)` and `(p, 1)` of the output scratch (each five blocks of 8 × 128), and the `p`-th semaphore of each of
the two semaphore arrays. Chunk `T` of the positions is the 640 indices from `640·T` on, and the five rows
`5·T … 5·T + 4` of either half of the result. This file names those pieces as the program slices them, with
the offset vector a parameter, so that a piece at a literal slot and the same piece at the slot a trip
computes are one term up to an equation between offset vectors.
-/

noncomputable section

namespace Cert.Proof.KernelSc

open Cert.Kernel Cert.Kernel.Gen
open Idealize.ShloMosaic

/-! ## Offsets in range -/

theorem inb_sem {e : ℕ} (he : e < 4) : ∀ a, (![e] : Fin 1 → Nat) a + S1.size a ≤ S4.size a := by
  intro a; fin_cases a <;> (simp <;> omega)
theorem inb_iv {e : ℕ} (he : e < 4) : ∀ a, (![e, 0] : Fin 2 → Nat) a + S1x640.size a ≤ S4x640.size a := by
  intro a; fin_cases a <;> (simp <;> omega)
theorem inb_ov {e h : ℕ} (he : e < 4) (hh : h < 2) :
    ∀ a, (![e, h, 0, 0, 0] : Fin 5 → Nat) a + S1x1x5x8x128.size a ≤ S4x2x5x8x128.size a := by
  intro a; fin_cases a <;> (simp <;> omega)
theorem inb_idx {T : ℕ} (hT : T < 5000) : ∀ a, (![640 * T] : Fin 1 → Nat) a + S640.size a ≤ S3200000.size a := by
  intro a; fin_cases a <;> (simp <;> omega)
theorem inb_out {h T : ℕ} (hh : h < 2) (hT : T < 5000) :
    ∀ a, (![h, 5 * T, 0, 0] : Fin 4 → Nat) a + S1x5x8x128.size a ≤ S2x25000x8x128.size a := by
  intro a; fin_cases a <;> (simp <;> omega)

/-! ## The pieces, at an offset vector -/

/-- The arrays and scratches as the body table passes them to the tile program. -/
abbrev idxM : Memref sig .scVector .hbm S3200000 .i32 := Memref.whole main_arg0_scv
abbrev tabM : Memref sig .scVector .hbm S25600 .f32 := Memref.whole main_v2_scv
abbrev outM : Memref sig .scVector .hbm S2x25000x8x128 .f32 := Memref.whole main_v3_scv
abbrev tvM : Memref sig .scVector .vmem S25840 .f32 := Memref.whole cc0_scratch0
abbrev ivM : Memref sig .scVector .vmem S4x640 .i32 := Memref.whole cc0_scratch1
abbrev ovM : Memref sig .scVector .vmem S4x2x5x8x128 .f32 := Memref.whole cc0_scratch2

/-- One semaphore of the index fetches' array, of the write-backs' array. -/
abbrev isemAt (o : Fin 1 → Nat) (h : ∀ a, o a + S1.size a ≤ S4.size a) : DmaSems sig S_ :=
  (cc0_scratch3.slice (Rect.unit (s := S4) o S1.size h)).squeeze S_ squeezes_S1_S_
abbrev osemAt (o : Fin 1 → Nat) (h : ∀ a, o a + S1.size a ≤ S4.size a) : DmaSems sig S_ :=
  (cc0_scratch4.slice (Rect.unit (s := S4) o S1.size h)).squeeze S_ squeezes_S1_S_

/-- One row of the index scratch. -/
abbrev ivSlot (o : Fin 2 → Nat) (h : ∀ a, o a + S1x640.size a ≤ S4x640.size a) : Memref sig .scVector .vmem S640 .i32 :=
  (ivM.slice (Rect.unit (s := S4x640) o S1x640.size h) (fun _ => rfl)).squeeze S640 squeezes_S1x640_S640

/-- One half of one slot of the output scratch. -/
abbrev ovSlot (o : Fin 5 → Nat) (h : ∀ a, o a + S1x1x5x8x128.size a ≤ S4x2x5x8x128.size a) : Memref sig .scVector .vmem S5x8x128 .f32 :=
  (ovM.slice (Rect.unit (s := S4x2x5x8x128) o S1x1x5x8x128.size h) (fun _ => rfl)).squeeze S5x8x128 squeezes_S1x1x5x8x128_S5x8x128

/-- One chunk of the indices. -/
abbrev idxChunk (o : Fin 1 → Nat) (h : ∀ a, o a + S640.size a ≤ S3200000.size a) : Memref sig .scVector .hbm S640 .i32 :=
  idxM.slice (Rect.unit (s := S3200000) o S640.size h) (fun _ => rfl)

/-- One chunk's five rows of one half of the result. -/
abbrev outChunk (o : Fin 4 → Nat) (h : ∀ a, o a + S1x5x8x128.size a ≤ S2x25000x8x128.size a) : Memref sig .scVector .hbm S5x8x128 .f32 :=
  (outM.slice (Rect.unit (s := S2x25000x8x128) o S1x5x8x128.size h) (fun _ => rfl)).squeeze S5x8x128 squeezes_S1x5x8x128_S5x8x128

/-! Equal offset vectors name one piece. -/

theorem isemAt_congr {o o' : Fin 1 → Nat} (e : o = o') (h : ∀ a, o a + S1.size a ≤ S4.size a) (h' : ∀ a, o' a + S1.size a ≤ S4.size a) :
    isemAt o h = isemAt o' h' := by subst e; rfl
theorem osemAt_congr {o o' : Fin 1 → Nat} (e : o = o') (h : ∀ a, o a + S1.size a ≤ S4.size a) (h' : ∀ a, o' a + S1.size a ≤ S4.size a) :
    osemAt o h = osemAt o' h' := by subst e; rfl
theorem ivSlot_congr {o o' : Fin 2 → Nat} (e : o = o') (h : ∀ a, o a + S1x640.size a ≤ S4x640.size a) (h' : ∀ a, o' a + S1x640.size a ≤ S4x640.size a) :
    ivSlot o h = ivSlot o' h' := by subst e; rfl
theorem ovSlot_congr {o o' : Fin 5 → Nat} (e : o = o') (h : ∀ a, o a + S1x1x5x8x128.size a ≤ S4x2x5x8x128.size a)
    (h' : ∀ a, o' a + S1x1x5x8x128.size a ≤ S4x2x5x8x128.size a) : ovSlot o h = ovSlot o' h' := by subst e; rfl
theorem idxChunk_congr {o o' : Fin 1 → Nat} (e : o = o') (h : ∀ a, o a + S640.size a ≤ S3200000.size a) (h' : ∀ a, o' a + S640.size a ≤ S3200000.size a) :
    idxChunk o h = idxChunk o' h' := by subst e; rfl
theorem outChunk_congr {o o' : Fin 4 → Nat} (e : o = o') (h : ∀ a, o a + S1x5x8x128.size a ≤ S2x25000x8x128.size a)
    (h' : ∀ a, o' a + S1x5x8x128.size a ≤ S2x25000x8x128.size a) : outChunk o h = outChunk o' h' := by subst e; rfl

/-! ## The pieces, by slot number and by chunk number -/

abbrev isemN (e : ℕ) (he : e < 4) : DmaSems sig S_ := isemAt ![e] (inb_sem he)
abbrev osemN (e : ℕ) (he : e < 4) : DmaSems sig S_ := osemAt ![e] (inb_sem he)
abbrev ivSlotN (e : ℕ) (he : e < 4) : Memref sig .scVector .vmem S640 .i32 := ivSlot ![e, 0] (inb_iv he)
abbrev ovSlotN (e h : ℕ) (he : e < 4) (hh : h < 2) : Memref sig .scVector .vmem S5x8x128 .f32 := ovSlot ![e, h, 0, 0, 0] (inb_ov he hh)
abbrev idxChunkN (T : ℕ) (hT : T < 5000) : Memref sig .scVector .hbm S640 .i32 := idxChunk ![640 * T] (inb_idx hT)
abbrev outChunkN (h T : ℕ) (hh : h < 2) (hT : T < 5000) : Memref sig .scVector .hbm S5x8x128 .f32 := outChunk ![h, 5 * T, 0, 0] (inb_out hh hT)

end Cert.Proof.KernelSc

end
-- ==== Proof.ScResK.lean ====
import proofs.«202852_g34127810134284_cont_8to1_b_1476_20_alg».proof.Proof.ScSlotsK

/-!
# What one tile holds while it runs

Before its program starts a tile holds, cut for the run: a read share of the index array as four tokens (one per
index-fetch semaphore, since up to four fetches read it at once), a read share of the replicated table, its own
chunks of the result (each chunk's two halves apart, at the launch contents), its three scratch buffers (the table
scratch whole, the index scratch as its four rows, the output scratch as its eight half-slots) at some contents,
and its nine semaphores at zero. After the program it holds the same, its chunks of the result now at the lookup's
values. `rest` is whatever else of the tile's own storage travels with it untouched.
-/

noncomputable section

namespace Cert.Proof.KernelSc

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile at grid coordinates `L` of device `d`. -/
abbrev cV (L : grid0.Coords) : Fin τ.nSC := (L 0).castLE hcore0
abbrev jV (L : grid0.Coords) : Fin τ.nSub := (L 1).castLE hsub0
abbrev thrOf (d : Dev nD) (L : grid0.Coords) : Thread nD τ := V d (cV L) (jV L)

theorem widOf_cV_jV (L : grid0.Coords) : widOf (cV L) (jV L) = wOf L := rfl

variable (m : (ℓ : Loc nD τ sig) → Buf (Elt F) ℓ) (d : Dev nD) (L : grid0.Coords)

/-- The tile's read share of the index array, token `p` of four. -/
abbrev idxTok (p : Fin 4) : sProp 𝕄 :=
  idxM.view.loc (thrOf d L) ↦{Transfers.shareTok (qTile (wOf L)) 4 p} m (idxLoc d)

/-- Chunk `b` of the tile, half `h`, of the result, at contents `f`. -/
abbrev outPiece (f : Buf (Elt F) (outLoc d)) (b : Fin (Cert.TilePlan.nch (wOf L))) (h : Fin 2) : sProp 𝕄 :=
  (outChunkN h.val (Cert.TilePlan.start (wOf L) + b.val) h.isLt (Cert.TilePlan.chunk_lt (wOf_lt L) b.isLt)).view.loc (thrOf d L)
    ↦[(outChunkN h.val (Cert.TilePlan.start (wOf L) + b.val) h.isLt (Cert.TilePlan.chunk_lt (wOf_lt L) b.isLt)).view.set]{fullShare} f

/-- The tile's chunks of the result, all at one whole-array function `f`. -/
abbrev outPieces (f : Buf (Elt F) (outLoc d)) : sProp 𝕄 :=
  bigSep Finset.univ fun b : Fin (Cert.TilePlan.nch (wOf L)) => bigSep Finset.univ fun h : Fin 2 => outPiece d L f b h

/-- Row `p` of the index scratch at some contents. -/
abbrev ivFree (p : ℕ) (hp : p < 4) : sProp 𝕄 :=
  iprop(∃ f, (ivSlotN p hp).view.loc (thrOf d L) ↦[(ivSlotN p hp).view.set]{fullShare} f)
/-- Half `h` of slot `p` of the output scratch at some contents. -/
abbrev ovFree (p h : ℕ) (hp : p < 4) (hh : h < 2) : sProp 𝕄 :=
  iprop(∃ f, (ovSlotN p h hp hh).view.loc (thrOf d L) ↦[(ovSlotN p h hp hh).view.set]{fullShare} f)
/-- The semaphores at zero. -/
abbrev isem0 (p : ℕ) (hp : p < 4) : sProp 𝕄 := semVal (thrOf d L, SemLoc.dma (isemN p hp).sem) 0
abbrev osem0 (p : ℕ) (hp : p < 4) : sProp 𝕄 := semVal (thrOf d L, SemLoc.dma (osemN p hp).sem) 0

/-- Everything of the tile's scratch and semaphores, cut for the run. -/
def tileScratch (rest : sProp 𝕄) : sProp 𝕄 :=
  iprop((∃ f, tvM.view.loc (thrOf d L) ↦{fullShare} f)
    ∗ (ivFree d L 0 (by decide) ∗ ivFree d L 1 (by decide) ∗ ivFree d L 2 (by decide) ∗ ivFree d L 3 (by decide))
    ∗ ((ovFree d L 0 0 (by decide) (by decide) ∗ ovFree d L 0 1 (by decide) (by decide))
      ∗ (ovFree d L 1 0 (by decide) (by decide) ∗ ovFree d L 1 1 (by decide) (by decide))
      ∗ (ovFree d L 2 0 (by decide) (by decide) ∗ ovFree d L 2 1 (by decide) (by decide))
      ∗ (ovFree d L 3 0 (by decide) (by decide) ∗ ovFree d L 3 1 (by decide) (by decide)))
    ∗ semVal (thrOf d L, SemLoc.dma cc0_scoped0.sem) 0
    ∗ (isem0 d L 0 (by decide) ∗ isem0 d L 1 (by decide) ∗ isem0 d L 2 (by decide) ∗ isem0 d L 3 (by decide))
    ∗ (osem0 d L 0 (by decide) ∗ osem0 d L 1 (by decide) ∗ osem0 d L 2 (by decide) ∗ osem0 d L 3 (by decide))
    ∗ rest)

/-- What the tile holds of the arrays, its result chunks at `f`. -/
def tileArrays (f : Buf (Elt F) (outLoc d)) : sProp 𝕄 :=
  iprop((idxTok m d L 0 ∗ idxTok m d L 1 ∗ idxTok m d L 2 ∗ idxTok m d L 3)
    ∗ (tabM.view.loc (thrOf d L) ↦{qTile (wOf L)} Cert.RefSide.tabRep (m (tblLoc d)))
    ∗ outPieces d L f)

/-- Before the program; after it. -/
def TileIn (rest : sProp 𝕄) : sProp 𝕄 := iprop(tileArrays m d L (m (outLoc d)) ∗ tileScratch d L rest)
def TileOut (rest : sProp 𝕄) : sProp 𝕄 :=
  iprop(tileArrays m d L (Gout (m (idxLoc d)) (Cert.RefSide.tabRep (m (tblLoc d)))) ∗ tileScratch d L rest)

end Cert.Proof.KernelSc

end
-- ==== Proof.ScPlumbK.lean ====
/-
  A worker's resources, opened for its task and closed after it.

  The launch hands a worker a read share of the index list, a read share of the repeated table and its part of the
  result, beside the vector subcore's own storage (every buffer of its own at some contents, every semaphore of its
  own at zero). The task works on these CUT the way the program addresses them: the index share as four tokens (and
  a remainder), the worker's part of the result as its chunks' two halves (chunk `T`, half `h`: the elements with
  first coordinate `h` and second coordinate in `5 T … 5 T + 4`), the index scratch as its four rows, the output
  scratch as its eight half-slots, the nine semaphores by name. Each cut is a partition (of a share, or of a set of
  elements), so it opens and closes without loss; what is not cut travels beside the task untouched (`restOf`).
-/
import proofs.«202852_g34127810134284_cont_8to1_b_1476_20_alg».proof.Proof.ScResK
import Idealize.ShloMosaic.Lib.Ring

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

/-! ## Small tools -/

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]
theorem bigSep_fin2' (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-! ## The pieces' element sets -/

theorem set_ivSlotN (p : ℕ) (hp : p < 4) :
    (ivSlotN p hp).view.set = (Rect.unit (s := S4x640) ![p, 0] S1x640.size (inb_iv hp)).set := by
  simp only [Memref.view_squeeze, Memref.view_slice, Memref.view_whole, View.set_reshape, View.set_slice_whole]
theorem set_ovSlotN (p h : ℕ) (hp : p < 4) (hh : h < 2) :
    (ovSlotN p h hp hh).view.set = (Rect.unit (s := S4x2x5x8x128) ![p, h, 0, 0, 0] S1x1x5x8x128.size (inb_ov hp hh)).set := by
  simp only [Memref.view_squeeze, Memref.view_slice, Memref.view_whole, View.set_reshape, View.set_slice_whole]
theorem set_outChunkN (h T : ℕ) (hh : h < 2) (hT : T < 5000) :
    (outChunkN h T hh hT).view.set = (Rect.unit (s := S2x25000x8x128) ![h, 5 * T, 0, 0] S1x5x8x128.size (inb_out hh hT)).set := by
  simp only [Memref.view_squeeze, Memref.view_slice, Memref.view_whole, View.set_reshape, View.set_slice_whole]

/-- An element lies in chunk `T`'s five rows of half `h` exactly when its first coordinate is `h` and its second is
    one of `5 T, …, 5 T + 4`. -/
theorem mem_set_outChunkN (h T : ℕ) (hh : h < 2) (hT : T < 5000) (o : S2x25000x8x128.Idx) :
    o ∈ (outChunkN h T hh hT).view.set ↔ (o 0).val = h ∧ 5 * T ≤ (o 1).val ∧ (o 1).val < 5 * T + 5 := by
  rw [set_outChunkN, Rect.mem_set_unit]
  constructor
  · intro H
    have h0 := H 0; have h1 := H 1
    simp at h0 h1
    omega
  · rintro ⟨e0, e1, e2⟩ a
    have h2 : (o 2).val < 8 := (o 2).isLt
    have h3 : (o 3).val < 128 := (o 3).isLt
    fin_cases a <;> simp <;> omega

/-! ## The pieces' locations -/

theorem loc_idxM : idxM.view.loc (thrOf d L) = idxLoc d := rfl
theorem loc_tabM : tabM.view.loc (thrOf d L) = tabLoc d := rfl
theorem loc_outChunkN (h T : ℕ) (hh : h < 2) (hT : T < 5000) : (outChunkN h T hh hT).view.loc (thrOf d L) = outLoc d := rfl
theorem loc_tvM : tvM.view.loc (thrOf d L) = (thrOf d L).loc cc0_scratch0 := rfl
theorem loc_ivSlotN (p : ℕ) (hp : p < 4) : (ivSlotN p hp).view.loc (thrOf d L) = (thrOf d L).loc cc0_scratch1 := rfl
theorem loc_ovSlotN (p h : ℕ) (hp : p < 4) (hh : h < 2) : (ovSlotN p h hp hh).view.loc (thrOf d L) = (thrOf d L).loc cc0_scratch2 := rfl

/-! ## The worker's part of the result, chunk by chunk and half by half -/

/-- The elements of chunk `b` of the worker, half `h`. -/
abbrev pieceSet (bh : Fin (Cert.TilePlan.nch (wOf L)) × Fin 2) : Finset (Idx (outLoc d)) :=
  (outChunkN bh.2.val (Cert.TilePlan.start (wOf L) + bh.1.val) bh.2.isLt (Cert.TilePlan.chunk_lt (wOf_lt L) bh.1.isLt)).view.set

theorem tileSet_pieces : tileSet d (wOf L) = (Finset.univ : Finset (Fin (Cert.TilePlan.nch (wOf L)) × Fin 2)).biUnion (pieceSet d L) := by
  ext o
  rw [mem_tileSet, Finset.mem_biUnion]
  constructor
  · rintro ⟨h1, h2⟩
    have ho0 : (o 0).val < 2 := (o 0).isLt
    exact ⟨(⟨(o 1).val / 5 - Cert.TilePlan.start (wOf L), by omega⟩, ⟨(o 0).val, ho0⟩), Finset.mem_univ _,
      (mem_set_outChunkN _ _ _ _ o).mpr ⟨rfl, by show 5 * (Cert.TilePlan.start (wOf L) + ((o 1).val / 5 - Cert.TilePlan.start (wOf L))) ≤ _; omega,
        by show _ < 5 * (Cert.TilePlan.start (wOf L) + ((o 1).val / 5 - Cert.TilePlan.start (wOf L))) + 5; omega⟩⟩
  · rintro ⟨⟨b, h⟩, -, H⟩
    have a := (mem_set_outChunkN _ _ _ _ o).mp H
    have hb := b.isLt
    dsimp only at a
    constructor <;> omega

theorem pieces_disjoint (bh bh' : Fin (Cert.TilePlan.nch (wOf L)) × Fin 2) (hne : bh ≠ bh') : Disjoint (pieceSet d L bh) (pieceSet d L bh') := by
  refine Finset.disjoint_left.mpr fun o h1 h2 => hne ?_
  have a1 := (mem_set_outChunkN _ _ _ _ o).mp h1
  have a2 := (mem_set_outChunkN _ _ _ _ o).mp h2
  exact Prod.ext (Fin.ext (by omega)) (Fin.ext (by omega))

/-- The worker's part of the result at `f` is its chunks' halves at `f`. -/
theorem out_pieces (f : Buf (Elt F) (outLoc d)) : (outLoc d ↦[tileSet d (wOf L)]{fullShare} f : sProp 𝕄) = outPieces d L f := by
  rw [tileSet_pieces, pointsTo_biUnion Finset.univ (pieceSet d L) (fun a _ b _ h => pieces_disjoint d L a b h), bigSep_univ_prod]

/-! ## The worker's read share of the index list, as four tokens and a remainder -/

theorem idx_toks :
    (idxLoc d ↦{qTile (wOf L)} m (idxLoc d) : sProp 𝕄)
      ⊣⊢ iprop((idxLoc d ↦{Transfers.shareDrop (qTile (wOf L)) 4} m (idxLoc d))
          ∗ (idxTok m d L 0 ∗ idxTok m d L 1 ∗ idxTok m d L 2 ∗ idxTok m d L 3)) := by
  have h := Transfers.pointsTo_toks (nD := nD) (τ := τ) (sig := sig) (Ix := HIx 1) (Val := Elt F) (Name := ℕ) (U := UU) (Lvl := ℕ)
    (ℓ := idxLoc d) (S := Finset.univ) (f := m (idxLoc d)) (qTile (wOf L)) 4
  rw [bigSep_fin4] at h
  exact h

/-- The arrays' side: what the worker is handed of the three arrays (its part of the result at `f`) is what its task
    holds of them and the remainder of its index share. -/
theorem arrays_open (f : Buf (Elt F) (outLoc d)) :
    iprop((idxLoc d ↦{qTile (wOf L)} m (idxLoc d)) ∗ (tabLoc d ↦{qTile (wOf L)} Cert.RefSide.tabRep (m (tblLoc d)))
        ∗ (outLoc d ↦[tileSet d (wOf L)]{fullShare} f))
      ⊢ (iprop(tileArrays m d L f ∗ (idxLoc d ↦{Transfers.shareDrop (qTile (wOf L)) 4} m (idxLoc d))) : sProp 𝕄) := by
  unfold tileArrays
  rw [out_pieces]
  iintro ⟨Hi, Ht, Ho⟩
  ihave Hi' := (idx_toks m d L).1 $$ Hi
  icases Hi' with ⟨Hr, Htok⟩
  isplitr [Hr]
  · isplitl [Htok]; · iexact Htok
    isplitl [Ht]; · iexact Ht
    iexact Ho
  · iexact Hr
theorem arrays_close (f : Buf (Elt F) (outLoc d)) :
    (iprop(tileArrays m d L f ∗ (idxLoc d ↦{Transfers.shareDrop (qTile (wOf L)) 4} m (idxLoc d))) : sProp 𝕄)
      ⊢ iprop((idxLoc d ↦{qTile (wOf L)} m (idxLoc d)) ∗ (tabLoc d ↦{qTile (wOf L)} Cert.RefSide.tabRep (m (tblLoc d)))
        ∗ (outLoc d ↦[tileSet d (wOf L)]{fullShare} f)) := by
  unfold tileArrays
  rw [out_pieces]
  iintro ⟨⟨Htok, Ht, Ho⟩, Hr⟩
  isplitl [Htok Hr]
  · iapply (idx_toks m d L).2
    isplitl [Hr]; · iexact Hr
    iexact Htok
  isplitl [Ht]; · iexact Ht
  iexact Ho

/-! ## The index scratch as its four rows, the output scratch as its eight half-slots -/

/-- Row `p` of the index scratch: the elements with first coordinate `p`. -/
abbrev ivSet (p : Fin 4) : Finset (Idx ((thrOf d L).loc cc0_scratch1)) :=
  (Rect.unit (s := S4x640) ![p.val, 0] S1x640.size (inb_iv p.isLt)).set
/-- Half `h` of slot `p` of the output scratch: the elements with first two coordinates `p`, `h`. -/
abbrev ovSet (ph : Fin 4 × Fin 2) : Finset (Idx ((thrOf d L).loc cc0_scratch2)) :=
  (Rect.unit (s := S4x2x5x8x128) ![ph.1.val, ph.2.val, 0, 0, 0] S1x1x5x8x128.size (inb_ov ph.1.isLt ph.2.isLt)).set

theorem mem_ivSet (p : Fin 4) (i : S4x640.Idx) : i ∈ ivSet d L p ↔ (i 0).val = p.val := by
  rw [Rect.mem_set_unit]
  constructor
  · intro H
    have h0 := H 0
    simp at h0
    omega
  · intro e a
    have h1 : (i 1).val < 640 := (i 1).isLt
    fin_cases a <;> simp <;> omega

theorem mem_ovSet (ph : Fin 4 × Fin 2) (i : S4x2x5x8x128.Idx) : i ∈ ovSet d L ph ↔ (i 0).val = ph.1.val ∧ (i 1).val = ph.2.val := by
  rw [Rect.mem_set_unit]
  constructor
  · intro H
    have h0 := H 0; have h1 := H 1
    simp at h0 h1
    omega
  · rintro ⟨e0, e1⟩ a
    have h2 : (i 2).val < 5 := (i 2).isLt
    have h3 : (i 3).val < 8 := (i 3).isLt
    have h4 : (i 4).val < 128 := (i 4).isLt
    fin_cases a <;> simp <;> omega

theorem iv_disjoint (p p' : Fin 4) (h : p ≠ p') : Disjoint (ivSet d L p) (ivSet d L p') :=
  Finset.disjoint_left.mpr fun i h1 h2 => h (Fin.ext (((mem_ivSet d L p i).mp h1).symm.trans ((mem_ivSet d L p' i).mp h2)))
theorem iv_cover : Finset.univ.biUnion (ivSet d L) = Finset.univ :=
  Finset.eq_univ_iff_forall.mpr fun i => Finset.mem_biUnion.mpr ⟨⟨(i 0).val, (i 0).isLt⟩, Finset.mem_univ _, (mem_ivSet d L _ i).mpr rfl⟩
theorem ov_disjoint (ph ph' : Fin 4 × Fin 2) (h : ph ≠ ph') : Disjoint (ovSet d L ph) (ovSet d L ph') :=
  Finset.disjoint_left.mpr fun i h1 h2 => h (Prod.ext
    (Fin.ext (((mem_ovSet d L ph i).mp h1).1.symm.trans ((mem_ovSet d L ph' i).mp h2).1))
    (Fin.ext (((mem_ovSet d L ph i).mp h1).2.symm.trans ((mem_ovSet d L ph' i).mp h2).2)))
theorem ov_cover : Finset.univ.biUnion (ovSet d L) = Finset.univ :=
  Finset.eq_univ_iff_forall.mpr fun i => Finset.mem_biUnion.mpr
    ⟨(⟨(i 0).val, (i 0).isLt⟩, ⟨(i 1).val, (i 1).isLt⟩), Finset.mem_univ _, (mem_ovSet d L _ i).mpr ⟨rfl, rfl⟩⟩

theorem ivFree_eq (p : Fin 4) :
    (ivFree d L p.val p.isLt : sProp 𝕄) = iprop(∃ f, (thrOf d L).loc cc0_scratch1 ↦[ivSet d L p]{fullShare} f) := by
  show iprop(∃ f, (ivSlotN p.val p.isLt).view.loc (thrOf d L) ↦[(ivSlotN p.val p.isLt).view.set]{fullShare} f) = _
  rw [set_ivSlotN]
theorem ovFree_eq (ph : Fin 4 × Fin 2) :
    (ovFree d L ph.1.val ph.2.val ph.1.isLt ph.2.isLt : sProp 𝕄) = iprop(∃ f, (thrOf d L).loc cc0_scratch2 ↦[ovSet d L ph]{fullShare} f) := by
  show iprop(∃ f, (ovSlotN ph.1.val ph.2.val ph.1.isLt ph.2.isLt).view.loc (thrOf d L)
    ↦[(ovSlotN ph.1.val ph.2.val ph.1.isLt ph.2.isLt).view.set]{fullShare} f) = _
  rw [set_ovSlotN]

/-- A buffer at some contents is its blocks, each at some contents, and back. -/
theorem whole_to_blocks {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f, ℓ ↦{fullShare} f) : sProp 𝕄) ⊢ bigSep Finset.univ fun b => iprop(∃ f, ℓ ↦[I b]{fullShare} f) := by
  refine exists_elim fun f => ?_
  rw [Ring.pointsTo_blocks I hd hc f]
  exact bigSep_mono fun b _ => exists_intro (Φ := fun f => (ℓ ↦[I b]{fullShare} f : sProp 𝕄)) f
theorem blocks_to_whole {ℓ : Loc nD τ sig} {B : Type} [Fintype B] [DecidableEq B] (I : B → Finset (Idx ℓ))
    (hd : ∀ b b', b ≠ b' → Disjoint (I b) (I b')) (hc : Finset.univ.biUnion I = Finset.univ) (b₀ : B) :
    (bigSep Finset.univ fun b => iprop(∃ f, ℓ ↦[I b]{fullShare} f)) ⊢ (iprop(∃ f, ℓ ↦{fullShare} f) : sProp 𝕄) := by
  by_cases hne : Nonempty (Buf (Elt F) ℓ)
  · obtain ⟨f₀⟩ := hne
    exact Ring.pointsTo_blocks_join_exists I hd hc f₀
  · have h1 : (bigSep Finset.univ fun b => iprop(∃ f, ℓ ↦[I b]{fullShare} f)) ⊢ (iprop(∃ f, ℓ ↦[I b₀]{fullShare} f) : sProp 𝕄) :=
      bigSep_elim (Finset.mem_univ b₀)
    have h2 : (iprop(∃ f, ℓ ↦[I b₀]{fullShare} f) : sProp 𝕄) ⊢ iprop(∃ f, ℓ ↦{fullShare} f) := exists_elim fun f => absurd ⟨f⟩ hne
    exact h1.trans h2

theorem bigSep_4x2 (Φ : Fin 4 × Fin 2 → sProp 𝕄) :
    bigSep Finset.univ Φ = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_fin4, bigSep_fin2', bigSep_fin2', bigSep_fin2', bigSep_fin2']

/-- The index scratch at some contents is its four rows, each at some contents. -/
theorem iv_open :
    (iprop(∃ f, (thrOf d L).loc cc0_scratch1 ↦{fullShare} f) : sProp 𝕄)
      ⊢ iprop(ivFree d L 0 (by decide) ∗ ivFree d L 1 (by decide) ∗ ivFree d L 2 (by decide) ∗ ivFree d L 3 (by decide)) := by
  have h := whole_to_blocks (F := F) (ivSet d L) (iv_disjoint d L) (iv_cover d L)
  rw [← bigSep_congr fun p _ => ivFree_eq (F := F) d L p, bigSep_fin4] at h
  exact h
theorem iv_close :
    (iprop(ivFree d L 0 (by decide) ∗ ivFree d L 1 (by decide) ∗ ivFree d L 2 (by decide) ∗ ivFree d L 3 (by decide)) : sProp 𝕄)
      ⊢ iprop(∃ f, (thrOf d L).loc cc0_scratch1 ↦{fullShare} f) := by
  have h := blocks_to_whole (F := F) (ivSet d L) (iv_disjoint d L) (iv_cover d L) 0
  rw [← bigSep_congr fun p _ => ivFree_eq (F := F) d L p, bigSep_fin4] at h
  exact h

/-- The output scratch at some contents is its eight half-slots, each at some contents. -/
theorem ov_open :
    (iprop(∃ f, (thrOf d L).loc cc0_scratch2 ↦{fullShare} f) : sProp 𝕄)
      ⊢ iprop((ovFree d L 0 0 (by decide) (by decide) ∗ ovFree d L 0 1 (by decide) (by decide))
        ∗ (ovFree d L 1 0 (by decide) (by decide) ∗ ovFree d L 1 1 (by decide) (by decide))
        ∗ (ovFree d L 2 0 (by decide) (by decide) ∗ ovFree d L 2 1 (by decide) (by decide))
        ∗ (ovFree d L 3 0 (by decide) (by decide) ∗ ovFree d L 3 1 (by decide) (by decide))) := by
  have h := whole_to_blocks (F := F) (ovSet d L) (ov_disjoint d L) (ov_cover d L)
  rw [← bigSep_congr fun ph _ => ovFree_eq (F := F) d L ph, bigSep_4x2] at h
  exact h
theorem ov_close :
    (iprop((ovFree d L 0 0 (by decide) (by decide) ∗ ovFree d L 0 1 (by decide) (by decide))
        ∗ (ovFree d L 1 0 (by decide) (by decide) ∗ ovFree d L 1 1 (by decide) (by decide))
        ∗ (ovFree d L 2 0 (by decide) (by decide) ∗ ovFree d L 2 1 (by decide) (by decide))
        ∗ (ovFree d L 3 0 (by decide) (by decide) ∗ ovFree d L 3 1 (by decide) (by decide))) : sProp 𝕄)
      ⊢ iprop(∃ f, (thrOf d L).loc cc0_scratch2 ↦{fullShare} f) := by
  have h := blocks_to_whole (F := F) (ovSet d L) (ov_disjoint d L) (ov_cover d L) (0, 0)
  rw [← bigSep_congr fun ph _ => ovFree_eq (F := F) d L ph, bigSep_4x2] at h
  exact h

/-! ## The vector subcore's own storage: the three scratch buffers and the nine semaphores, and the rest -/

/-- The three scratch buffers, as the subcore's own. -/
abbrev scrRefs : Finset (DevRef τ sig) :=
  ({cc0_scratch0, cc0_scratch1, cc0_scratch2} : Finset (Ref sig .scVector)).image (Proc.devRef (τ := τ) (.scVector (cV L) (jV L)))

/-- The nine semaphores: the scoped one, the four of the index fetches, the four of the write-backs. -/
abbrev nineSems : Finset (SemLoc sig) :=
  {SemLoc.dma cc0_scoped0.sem,
    SemLoc.dma (isemN 0 (by decide)).sem, SemLoc.dma (isemN 1 (by decide)).sem, SemLoc.dma (isemN 2 (by decide)).sem, SemLoc.dma (isemN 3 (by decide)).sem,
    SemLoc.dma (osemN 0 (by decide)).sem, SemLoc.dma (osemN 1 (by decide)).sem, SemLoc.dma (osemN 2 (by decide)).sem, SemLoc.dma (osemN 3 (by decide)).sem}
abbrev nineCells : Finset (GSem nD τ sig) := nineSems.image fun x => ((thrOf d L, x) : GSem nD τ sig)

theorem scrRefs_sub : scrRefs L ⊆ ownRefs (τ := τ) (sig := sig) (.scVector (cV L) (jV L)) := by
  intro b hb
  obtain ⟨r, hr, rfl⟩ := Finset.mem_image.mp hb
  simp only [Finset.mem_insert, Finset.mem_singleton] at hr
  rcases hr with rfl | rfl | rfl <;> exact SparseCore.Cfg.mem_ownRefs_of_owner rfl

theorem nineSems_scoped : ∀ x ∈ nineSems, (x : SemLoc sig).isScoped .scVector = true := by decide

theorem nineCells_sub : nineCells d L ⊆ ownCells (thrOf d L) := by
  intro g hg
  obtain ⟨x, hx, rfl⟩ := Finset.mem_image.mp hg
  exact mem_ownCells.mpr ⟨rfl, nineSems_scoped x hx⟩

/-- The subcore's own buffers: the three scratch buffers, each at some contents, and the others. -/
theorem ownBufs_split :
    (ownBufs (thrOf d L) : sProp 𝕄)
      = iprop(((∃ f, (thrOf d L).loc cc0_scratch0 ↦{fullShare} f) ∗ (∃ f, (thrOf d L).loc cc0_scratch1 ↦{fullShare} f)
            ∗ (∃ f, (thrOf d L).loc cc0_scratch2 ↦{fullShare} f))
          ∗ bigSep (ownRefs (τ := τ) (sig := sig) (.scVector (cV L) (jV L)) \ scrRefs L) fun b => iprop(∃ f, ((d, b) : Loc nD τ sig) ↦{fullShare} f)) := by
  have h1 : (cc0_scratch0 : Ref sig .scVector) ∉ ({cc0_scratch1, cc0_scratch2} : Finset (Ref sig .scVector)) := by decide
  have h2 : (cc0_scratch1 : Ref sig .scVector) ∉ ({cc0_scratch2} : Finset (Ref sig .scVector)) := by decide
  unfold SparseCore.Cfg.ownBufs
  rw [SparseCore.bigSep_sdiff_split' (scrRefs_sub L),
    bigSep_image_of_injOn (fun a _ b _ e => Proc.devRef_injective _ e),
    SparseCore.bigSep_insert' h1, SparseCore.bigSep_insert' h2, bigSep_singleton]

/-- The subcore's own semaphores at zero: the nine, and the others. -/
theorem ownSems0_split :
    (ownSems0 (thrOf d L) : sProp 𝕄)
      = iprop((semVal (thrOf d L, SemLoc.dma cc0_scoped0.sem) 0
            ∗ isem0 d L 0 (by decide) ∗ isem0 d L 1 (by decide) ∗ isem0 d L 2 (by decide) ∗ isem0 d L 3 (by decide)
            ∗ osem0 d L 0 (by decide) ∗ osem0 d L 1 (by decide) ∗ osem0 d L 2 (by decide) ∗ osem0 d L 3 (by decide))
          ∗ bigSep (ownCells (thrOf d L) \ nineCells d L) fun g => semVal g 0) := by
  unfold SparseCore.Cfg.ownSems0
  rw [SparseCore.bigSep_sdiff_split' (nineCells_sub d L),
    bigSep_image_of_injOn (fun a _ b _ e => (Prod.mk.inj e).2),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## Opening a worker's resources for its task, and closing them -/

/-- What of the worker's own travels untouched beside the task: the remainder of its share of the index list, its
    other buffers, its other semaphores. -/
def restOf : sProp 𝕄 :=
  iprop((idxLoc d ↦{Transfers.shareDrop (qTile (wOf L)) 4} m (idxLoc d))
    ∗ (bigSep (ownRefs (τ := τ) (sig := sig) (.scVector (cV L) (jV L)) \ scrRefs L) fun b => iprop(∃ f, ((d, b) : Loc nD τ sig) ↦{fullShare} f))
    ∗ (bigSep (ownCells (thrOf d L) \ nineCells d L) fun g => semVal g 0))

/-- What the worker is handed (its part of the result at `f`), with its own storage, is what its task holds. -/
theorem tile_open (hF : (K (F := F)).Facts) (f : Buf (Elt F) (outLoc d)) :
    iprop(((idxLoc d ↦{qTile (wOf L)} m (idxLoc d)) ∗ (tabLoc d ↦{qTile (wOf L)} Cert.RefSide.tabRep (m (tblLoc d)))
          ∗ (outLoc d ↦[tileSet d (wOf L)]{fullShare} f))
        ∗ scopedBufs (thrOf d L) ∗ scopedSems0 (thrOf d L))
      ⊢ (iprop(tileArrays m d L f ∗ tileScratch d L (restOf m d L)) : sProp 𝕄) := by
  rw [(K (F := F)).scopedBufs_V hF d (cV L) (jV L), SparseCore.Cfg.scopedSems0_V (Val := Elt F) d (cV L) (jV L), ownBufs_split, ownSems0_split]
  unfold tileScratch restOf
  iintro ⟨Harr, ⟨⟨Htv, Hiv, Hov⟩, Hbufs⟩, ⟨⟨Hs, Hi0, Hi1, Hi2, Hi3, Ho0, Ho1, Ho2, Ho3⟩, Hsems⟩⟩
  ihave Harr' := (arrays_open m d L f) $$ Harr
  icases Harr' with ⟨Ha, Hr⟩
  ihave Hiv' := (iv_open (F := F) d L) $$ Hiv
  ihave Hov' := (ov_open (F := F) d L) $$ Hov
  isplitl [Ha]; · iexact Ha
  isplitl [Htv]; · iexact Htv
  isplitl [Hiv']; · iexact Hiv'
  isplitl [Hov']; · iexact Hov'
  isplitl [Hs]; · iexact Hs
  isplitl [Hi0 Hi1 Hi2 Hi3]
  · isplitl [Hi0]; · iexact Hi0
    isplitl [Hi1]; · iexact Hi1
    isplitl [Hi2]; · iexact Hi2
    iexact Hi3
  isplitl [Ho0 Ho1 Ho2 Ho3]
  · isplitl [Ho0]; · iexact Ho0
    isplitl [Ho1]; · iexact Ho1
    isplitl [Ho2]; · iexact Ho2
    iexact Ho3
  isplitl [Hr]; · iexact Hr
  isplitl [Hbufs]; · iexact Hbufs
  iexact Hsems

/-- and back. -/
theorem tile_close (hF : (K (F := F)).Facts) (f : Buf (Elt F) (outLoc d)) :
    (iprop(tileArrays m d L f ∗ tileScratch d L (restOf m d L)) : sProp 𝕄)
      ⊢ iprop(((idxLoc d ↦{qTile (wOf L)} m (idxLoc d)) ∗ (tabLoc d ↦{qTile (wOf L)} Cert.RefSide.tabRep (m (tblLoc d)))
          ∗ (outLoc d ↦[tileSet d (wOf L)]{fullShare} f))
        ∗ scopedBufs (thrOf d L) ∗ scopedSems0 (thrOf d L)) := by
  rw [(K (F := F)).scopedBufs_V hF d (cV L) (jV L), SparseCore.Cfg.scopedSems0_V (Val := Elt F) d (cV L) (jV L), ownBufs_split, ownSems0_split]
  unfold tileScratch restOf
  iintro ⟨Ha, Htv, Hiv, Hov, Hs, ⟨Hi0, Hi1, Hi2, Hi3⟩, ⟨Ho0, Ho1, Ho2, Ho3⟩, Hr, Hbufs, Hsems⟩
  ihave Hiv' := (iv_close (F := F) d L) $$ Hiv
  ihave Hov' := (ov_close (F := F) d L) $$ Hov
  isplitl [Ha Hr]
  · iapply (arrays_close m d L f)
    isplitl [Ha]; · iexact Ha
    iexact Hr
  isplitl [Htv Hiv' Hov' Hbufs]
  · isplitr [Hbufs]
    · isplitl [Htv]; · iexact Htv
      isplitl [Hiv']; · iexact Hiv'
      iexact Hov'
    · iexact Hbufs
  isplitr [Hsems]
  · isplitl [Hs]; · iexact Hs
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  · iexact Hsems

end Cert.Proof.KernelSc

end
-- ==== Proof.ScOblK.lean ====
/-
  The launch theorem's obligation for the call, from ONE worker's run.

  The launch theorem asks, for every vector subcore of the call's grid: from what the launch hands it (the worker's
  resources, the subcore's own storage, what it owes) its program runs to what it hands back. The run itself is proved
  once, at a symbolic place, from the resources cut for the run to the same with the worker's part of the result at
  the lookup's values (`CoreRun`); here that run is wrapped: the resources are opened before it and closed after it,
  and the body table's entry for the subcore is read as the program at the subcore's grid coordinates.
-/
import proofs.«202852_g34127810134284_cont_8to1_b_1476_20_alg».proof.Proof.ScPlumbK

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

variable [FloatOps F]

/-- One worker's task, run from what it holds cut for the run (`TileIn`) to the same with its part of the result at
    the lookup's values (`TileOut`), whatever else travels beside it: what the obligation is proved from. -/
def CoreRun : Prop :=
  ∀ (d : Dev nD) (L : grid0.Coords) (O : CellTallies nD τ sig (HIx 1)) (W : Waits sig (HIx 1)) (rest : sProp 𝕄), (∀ g, O g none = 0) →
    iprop(Transfers.MayWaits (thrOf d L) (none : HIx 1) O ∗ TileIn m d L rest ∗ owes (thrOf d L) O W)
      ⊢ wp frame (wpE (defs₀ (F := F)) 𝒱₀ (thrOf d L) none) Set.univ
          (cc0__emb_lookup L idxM (Memref.isWhole_whole _) tabM (Memref.isWhole_whole _) outM (Memref.isWhole_whole _)
            tvM (Memref.isWhole_whole _) ivM (Memref.isWhole_whole _) ovM (Memref.isWhole_whole _) cc0_scratch3 cc0_scratch4 cc0_scoped0)
          fun _ => iprop(TileOut m d L rest ∗ ∃ W', ⌜∀ p ∈ W', p ∈ W ∨ p.2 = none⌝ ∗ owes (thrOf d L) O W')

/-- Before the task: what the launch hands the worker opens to what the task holds. -/
theorem wrap_in (hF : (K (F := F)).Facts) (O : CellTallies nD τ sig (HIx 1)) (W : Waits sig (HIx 1)) (hO : ∀ g, O g none = 0) :
    iprop(levAts (K (F := F)).L (K (F := F)).lev ∗ emp ∗ goRes m d (wOf L)
        ∗ scopedBufs (thrOf d L) ∗ scopedSems0 (thrOf d L) ∗ owes (thrOf d L) O W)
      ⊢ (iprop(Transfers.MayWaits (thrOf d L) (none : HIx 1) O ∗ TileIn m d L (restOf m d L) ∗ owes (thrOf d L) O W) : sProp 𝕄) := by
  unfold goRes TileIn
  iintro ⟨#Hlv, -, Hgo, Hsb, Hss, HO⟩
  ihave Hmw := ((K (F := F)).mayWaits_none (thr := thrOf d L) hO) $$ Hlv
  isplitl [Hmw]; · iexact Hmw
  isplitr [HO]
  · iapply (tile_open m d L hF (m (outLoc d)))
    isplitl [Hgo]; · iexact Hgo
    isplitl [Hsb]; · iexact Hsb
    iexact Hss
  · iexact HO

/-- After it: what the task holds closes to what the worker hands back. -/
theorem wrap_out (hF : (K (F := F)).Facts) (O : CellTallies nD τ sig (HIx 1)) (W : Waits sig (HIx 1)) :
    (iprop(TileOut m d L (restOf m d L) ∗ ∃ W', ⌜∀ p ∈ W', p ∈ W ∨ p.2 = none⌝ ∗ owes (thrOf d L) O W') : sProp 𝕄)
      ⊢ iprop(tdRes m d (wOf L) ∗ scopedBufs (thrOf d L) ∗ scopedSems0 (thrOf d L)
            ∗ ∃ W', ⌜∀ p ∈ W', p ∈ W ∨ p.2 = none ∨ p.2 = some (0 : Fin 1)⌝ ∗ owes (thrOf d L) O W') := by
  unfold tdRes TileOut
  iintro ⟨Hout, %W', %hW', HO⟩
  ihave H := (tile_close m d L hF (Gout (m (idxLoc d)) (Cert.RefSide.tabRep (m (tblLoc d))))) $$ Hout
  icases H with ⟨Htd, Hsb, Hss⟩
  isplitl [Htd]; · iexact Htd
  isplitl [Hsb]; · iexact Hsb
  isplitl [Hss]; · iexact Hss
  iexists W'; isplitr
  · ipureintro; exact fun p hp => (hW' p hp).imp_right Or.inl
  · iexact HO

/-- A program run from the task's resources to the task's resources runs from what the launch hands the worker to
    what it hands back: open before, close after. -/
theorem tile_wrap (hF : (K (F := F)).Facts) (O : CellTallies nD τ sig (HIx 1)) (W : Waits sig (HIx 1)) (hO : ∀ g, O g none = 0)
    (prog : Prog (TpuEff nD τ sig (Elt F) Λ₀ (thrOf d L).2) PUnit)
    (hrun : iprop(Transfers.MayWaits (thrOf d L) (none : HIx 1) O ∗ TileIn m d L (restOf m d L) ∗ owes (thrOf d L) O W)
      ⊢ wp frame (wpE (defs₀ (F := F)) 𝒱₀ (thrOf d L) none) Set.univ prog
          fun _ => iprop(TileOut m d L (restOf m d L) ∗ ∃ W', ⌜∀ p ∈ W', p ∈ W ∨ p.2 = none⌝ ∗ owes (thrOf d L) O W')) :
    iprop(levAts (K (F := F)).L (K (F := F)).lev ∗ emp ∗ goRes m d (wOf L)
        ∗ scopedBufs (thrOf d L) ∗ scopedSems0 (thrOf d L) ∗ owes (thrOf d L) O W)
      ⊢ wp frame (wpE (defs₀ (F := F)) 𝒱₀ (thrOf d L) none) Set.univ prog
          fun _ => iprop(tdRes m d (wOf L) ∗ scopedBufs (thrOf d L) ∗ scopedSems0 (thrOf d L)
            ∗ ∃ W', ⌜∀ p ∈ W', p ∈ W ∨ p.2 = none ∨ p.2 = some (0 : Fin 1)⌝ ∗ owes (thrOf d L) O W') :=
  (wrap_in m d L hF O W hO).trans (hrun.trans (wp_mono frame _ _ fun _ => wrap_out m d L hF O W))

/-! ## The launch theorem's obligation -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_lookup (coordsV c s)
          idxM (Memref.isWhole_whole _) tabM (Memref.isWhole_whole _) outM (Memref.isWhole_whole _)
          tvM (Memref.isWhole_whole _) ivM (Memref.isWhole_whole _) ovM (Memref.isWhole_whole _) cc0_scratch3 cc0_scratch4 cc0_scoped0) ⟨⟩ c s := rfl

/-- The launch theorem's obligation for the call, from one worker's run at a symbolic place. -/
theorem tileObl (hcore : CoreRun m) : (K (F := F)).TileObl (D (F := F)) 𝒱 (P m) v₀ 0 := by
  intro d c i O W hO _ _
  -- this kernel owes nothing for a protocol of its own, and consumes nothing of the launch's
  simp only [P_ox, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hrun := hcore d (coordsV ⟨_, hc.1⟩ ⟨_, hc.2⟩) O W (restOf m d (coordsV ⟨_, hc.1⟩ ⟨_, hc.2⟩)) hO
  -- the program as an opaque term: the two sides spell the thread and the worker differently, equal by computation
  generalize cc0__emb_lookup (coordsV ⟨_, hc.1⟩ ⟨_, hc.2⟩) idxM _ tabM _ outM _ tvM _ ivM _ ovM _ cc0_scratch3 cc0_scratch4 cc0_scoped0 = prog at hrun ⊢
  exact tile_wrap m d (coordsV ⟨_, hc.1⟩ ⟨_, hc.2⟩) facts O W hO prog hrun

end Cert.Proof.KernelSc

end
-- ==== Proof.ScFinalK.lean ====
/-
  The call's result, transposed and flattened, is the embedding lookup.

  The result holds at `(h, T, q, j)` the repeated table at position `256 w + 16 (8 h + q) + j % 16`, `w` the index
  list's word number `128 T + j`. When every word is below 100 that position is inside the repeated table's 25600,
  its quotient by 256 is `w` — the table row the word selects — and its quotient by 16, modulo 16, is `8 h + q` —
  the column —, so the repeated table there is the table's entry `(w, 8 h + q)`: what the lookup puts at row
  `128 T + j`, column `8 h + q`, which is where the transposition and flattening send `(h, T, q, j)`.
-/
import proofs.«202852_g34127810134284_cont_8to1_b_1476_20_alg».proof.Proof.ScSetupK

noncomputable section

namespace Cert.Proof.KernelSc

open Cert.Kernel Cert.Kernel.Gen
open Idealize.ShloMosaic Idealize.ShloMosaic.ValueIdx

variable {F : FTy → Type}

theorem outOf_Gout_lookup (sp : IVec S3200000 32) (tb : FVec F S100x16 .f32) (hr : ∀ i, (sp i).toNat < 100) :
    Cert.RefSide.outOf (Gout sp (Cert.RefSide.tabRep tb)) = Cert.RefSide.lookup sp tb := by
  refine Cert.RefSide.outOf_eq_lookup sp tb _ fun h T q j => ?_
  have hh := h.isLt; have hq := q.isLt
  have hw := hr (ix1 (⟨T.val * 128 + j.val, by have := T.isLt; have := j.isLt; omega⟩ : Fin 3200000))
  rw [Gout_apply, Cert.RefSide.tabRep_apply]
  refine congrArg₂ (fun a b => tb (ix2 a b)) (Fin.ext ?_) (Fin.ext ?_)
  · show ((sp (ix1 (⟨T.val * 128 + j.val, _⟩ : Fin 3200000))).toNat * 256 + (h.val * 8 + q.val) * 16 + j.val % 16) % 25600 / 256
      = (sp (ix1 (⟨T.val * 128 + j.val, _⟩ : Fin 3200000))).toNat % 100
    omega
  · show ((sp (ix1 (⟨T.val * 128 + j.val, _⟩ : Fin 3200000))).toNat * 256 + (h.val * 8 + q.val) * 16 + j.val % 16) % 25600 / 16 % 16
      = h.val * 8 + q.val
    omega

end Cert.Proof.KernelSc

end
-- ==== Proof.ScSpellK.lean ====
import proofs.«202852_g34127810134284_cont_8to1_b_1476_20_alg».proof.Proof.ScResK

/-!
# The pieces a trip names are the ring's slots and the worker's chunks

Trip `t` of a worker's outer loop works in slot `t % 4` of the ring and on chunk `start w + t` of the positions;
the index fetch it starts is for chunk `start w + t + 4`. The program computes each piece's offsets by word
arithmetic; here each such piece is identified with the slot or chunk by number, through the closed forms of
the offset chains.
-/

noncomputable section

namespace Cert.Proof.KernelSc

open Cert.Kernel Cert.Kernel.Gen
open Idealize.ShloMosaic

variable (L : grid0.Coords)

/-- The worker's number of chunks and its first chunk. -/
abbrev nW : ℕ := Cert.TilePlan.nch (wOf L)
abbrev sW : ℕ := Cert.TilePlan.start (wOf L)

theorem chunkW_lt {b : ℕ} (hb : b < nW L) : sW L + b < 5000 := Cert.TilePlan.chunk_lt (wOf_lt L) hb

variable (t : Fin (k0_t1_loop L).trips)

theorem slot_lt : t.val % 4 < 4 := Nat.mod_lt _ (by decide)
theorem trip_lt : t.val < nW L := Nat.lt_of_lt_of_eq t.isLt (t1_trips L)

/-- The worker's first index and first result row, as the offset chains spell them. -/
theorem idx_off (b : ℕ) :
    199680 * (L 1).val + 99840 * (L 0).val + 640 * (min (2 * (L 1).val + (L 0).val) 8) + 640 * b = 640 * (sW L + b) := by
  unfold sW Cert.TilePlan.start wOf Cert.TilePlan.wid; omega
theorem row_off (b : ℕ) :
    1560 * (L 1).val + 780 * (L 0).val + 5 * (min (2 * (L 1).val + (L 0).val) 8) + 5 * b = 5 * (sW L + b) := by
  unfold sW Cert.TilePlan.start wOf Cert.TilePlan.wid; omega

/-! ## The trip's own slot -/

theorem isem_t : isemAt (k0_off7 L t) (k0_off7_inb L t) = isemN (t.val % 4) (slot_lt L t) :=
  isemAt_congr (k0_off7_eq L t) _ _
theorem osem_t : osemAt (k0_off7 L t) (k0_off7_inb L t) = osemN (t.val % 4) (slot_lt L t) :=
  osemAt_congr (k0_off7_eq L t) _ _
theorem ivSlot_t : ivSlot (k0_off5 L t) (k0_off5_inb L t) = ivSlotN (t.val % 4) (slot_lt L t) :=
  ivSlot_congr (k0_off5_eq L t) _ _
theorem ovSlot0_t : ovSlot (k0_off142 L t) (k0_off142_inb L t) = ovSlotN (t.val % 4) 0 (slot_lt L t) (by decide) :=
  ovSlot_congr (k0_off142_eq L t) _ _
theorem ovSlot1_t : ovSlot (k0_off144 L t) (k0_off144_inb L t) = ovSlotN (t.val % 4) 1 (slot_lt L t) (by decide) :=
  ovSlot_congr (k0_off144_eq L t) _ _

/-! ## The trip's chunk -/

theorem idxChunk_t : idxChunk (k0_off6 L t) (k0_off6_inb L t) = idxChunkN (sW L + t.val) (chunkW_lt L (trip_lt L t)) :=
  idxChunk_congr ((k0_off6_eq L t).trans (by rw [idx_off L t.val])) _ _
theorem outChunk0_t : outChunk (k0_off143 L t) (k0_off143_inb L t) = outChunkN 0 (sW L + t.val) (by decide) (chunkW_lt L (trip_lt L t)) :=
  outChunk_congr ((k0_off143_eq L t).trans (by rw [row_off L t.val])) _ _
theorem outChunk1_t : outChunk (k0_off145 L t) (k0_off145_inb L t) = outChunkN 1 (sW L + t.val) (by decide) (chunkW_lt L (trip_lt L t)) :=
  outChunk_congr ((k0_off145_eq L t).trans (by rw [row_off L t.val])) _ _

/-! ## Slot arithmetic -/

theorem mod4_add4 (b : ℕ) : (b + 4) % 4 = b % 4 := Nat.add_mod_right b 4

/-- Offsets of the trip's slot and chunk, and of the chunk whose indices it fetches, by number. -/
theorem off7_num : k0_off7 L t = ![(t.val + 4) % 4] := by rw [k0_off7_eq, mod4_add4]
theorem off5_num : k0_off5 L t = ![(t.val + 4) % 4, 0] := by rw [k0_off5_eq, mod4_add4]
theorem off142_num : k0_off142 L t = ![(t.val + 4) % 4, 0, 0, 0, 0] := by rw [k0_off142_eq, mod4_add4]
theorem off144_num : k0_off144 L t = ![(t.val + 4) % 4, 1, 0, 0, 0] := by rw [k0_off144_eq, mod4_add4]
theorem off143_num : k0_off143 L t = ![0, 5 * (sW L + (t.val + 4 - 4)), 0, 0] := by rw [k0_off143_eq, row_off L t.val, Nat.add_sub_cancel]
theorem off145_num : k0_off145 L t = ![1, 5 * (sW L + (t.val + 4 - 4)), 0, 0] := by rw [k0_off145_eq, row_off L t.val, Nat.add_sub_cancel]
theorem off147_num : k0_off147 L t = ![640 * (sW L + (t.val + 4))] := by
  rw [k0_off147_eq]; congr 1; have := idx_off L t.val; omega

end Cert.Proof.KernelSc

end
-- ==== Proof.ScRingK.lean ====
import proofs.«202852_g34127810134284_cont_8to1_b_1476_20_alg».proof.Proof.ScSpellK
import Idealize.ShloMosaic.Lib.Batch
import Idealize.ShloMosaic.Lib.Pipeline.Kit
import Idealize.ShloMosaic.Lib.ValueIdx

/-!
# The tile's ring between two trips

Between trips of its outer loop a tile has transfers in the air: for each of the four slots, the fetch of the
indices of the next chunk that slot serves (until the worker's chunks run out), and the two write-backs of the
last chunk computed in that slot (from the fifth trip on). This file states what the tile holds then, slot by
slot, and what is known of the contents: a fetched row is the chunk's indices; a half-slot being written back
holds the lookup's values for its chunk; the table scratch holds the replicated table.

Slots are counted by the chunk they next serve: chunk `b` (counted from the worker's first) is served in slot
`b % 4`, its indices are fetched during trip `b - 4` (or before the loop), and the write-backs that leave the slot
when trip `b` begins are chunk `b - 4`'s.
-/

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-- The index array's, the result's and the replicated table's launch contents, as the tile addresses them. -/
abbrev fiB : Buf (Elt F) (idxM.view.loc (thrOf d L)) := m (idxLoc d)
abbrev foutB : Buf (Elt F) (outM.view.loc (thrOf d L)) := m (outLoc d)
abbrev ftabB : FVec F S25600 .f32 := Cert.RefSide.tabRep (m (tblLoc d))
/-- The result's final contents. -/
abbrev goutB : Buf (Elt F) (outM.view.loc (thrOf d L)) := Gout (m (idxLoc d)) (Cert.RefSide.tabRep (m (tblLoc d)))

/-- Slot `e`'s read token of the index array. -/
abbrev tokW (e : ℕ) (he : e < 4) : PosShare TreeShare := Transfers.shareTok (qTile (wOf L)) 4 ⟨e, he⟩

/-! ## Two deliveries as a family -/

def pair2 (D0 D1 : sProp 𝕄) : Fin 2 → sProp 𝕄 := fun h => if h = 0 then D0 else D1
instance pair2_storable (D0 D1 : sProp 𝕄) [BI.Storable (upEmb : UEmb _ 𝕄) D0] [BI.Storable (upEmb : UEmb _ 𝕄) D1] (h : Fin 2) :
    BI.Storable (upEmb : UEmb _ 𝕄) (pair2 D0 D1 h) := by unfold pair2; split <;> infer_instance

/-- A write-back landed: the half-slot's read as one whole write over the chunk's prior contents. -/
abbrev landedO (src : Memref sig .scVector .vmem S5x8x128 .f32) (dst : Memref sig .scVector .hbm S5x8x128 .f32)
    (fs : Buf (Elt F) (src.view.loc (thrOf d L))) (fdd : Buf (Elt F) (dst.view.loc (thrOf d L))) : Buf (Elt F) (dst.view.loc (thrOf d L)) :=
  dst.view.writes (Elt F) fdd [⟨Rect.whole S5x8x128, ReadAs.same.apply (src.view.read (Elt F) fs)⟩]

/-- What a write-back delivers: the chunk's half landed, the half-slot back. -/
abbrev delivO (src : Memref sig .scVector .vmem S5x8x128 .f32) (dst : Memref sig .scVector .hbm S5x8x128 .f32)
    (fs : Buf (Elt F) (src.view.loc (thrOf d L))) (fdd : Buf (Elt F) (dst.view.loc (thrOf d L))) : sProp 𝕄 :=
  iprop((dst.view.loc (thrOf d L) ↦[dst.view.set]{fullShare} landedO d L src dst fs fdd) ∗ (src.view.loc (thrOf d L) ↦[src.view.set]{fullShare} fs))

/-! ## One slot's index side -/

/-- Fetching: the flight that will deliver the row at `fd` and the lent part of the token, beside the rest of the token. -/
def IdxBusyAt (os : Fin 1 → Nat) (hs : ∀ a, os a + S1.size a ≤ S4.size a) (ov : Fin 2 → Nat) (hv : ∀ a, ov a + S1x640.size a ≤ S4x640.size a)
    (oc : Fin 1 → Nat) (hc : ∀ a, oc a + S640.size a ≤ S3200000.size a) (tok : PosShare TreeShare)
    (P : Buf (Elt F) (ivM.view.loc (thrOf d L)) → Prop) : sProp 𝕄 :=
  iprop(∃ fd : Buf (Elt F) (ivM.view.loc (thrOf d L)),
    Transfers.Flight countersEmb (thrOf d L) (SemLoc.dma (isemAt os hs).sem) default 20480
        iprop(((ivSlot ov hv).view.loc (thrOf d L) ↦[(ivSlot ov hv).view.set]{fullShare} fd)
          ∗ (idxM.view.loc (thrOf d L) ↦[(idxChunk oc hc).view.set]{tok} fiB m d L))
      ∗ (idxM.view.loc (thrOf d L) ↦[Finset.univ \ (idxChunk oc hc).view.set]{tok} fiB m d L)
      ∗ ⌜P fd⌝)

/-- Idle: the semaphore at zero, the row at some contents, the token whole. -/
def IdxIdleAt (os : Fin 1 → Nat) (hs : ∀ a, os a + S1.size a ≤ S4.size a) (ov : Fin 2 → Nat) (hv : ∀ a, ov a + S1x640.size a ≤ S4x640.size a)
    (tok : PosShare TreeShare) : sProp 𝕄 :=
  iprop(semVal (thrOf d L, SemLoc.dma (isemAt os hs).sem) 0
    ∗ (∃ f, (ivSlot ov hv).view.loc (thrOf d L) ↦[(ivSlot ov hv).view.set]{fullShare} f)
    ∗ (idxM.view.loc (thrOf d L) ↦{tok} fiB m d L))

/-! ## One slot's output side -/

/-- Writing back: the batch of the two write-backs, both issued, neither awaited. -/
def OutBusyAt (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a)
    (c0 : Fin 4 → Nat) (g0 : ∀ a, c0 a + S1x5x8x128.size a ≤ S2x25000x8x128.size a)
    (c1 : Fin 4 → Nat) (g1 : ∀ a, c1 a + S1x5x8x128.size a ≤ S2x25000x8x128.size a)
    (P : Buf (Elt F) (ovM.view.loc (thrOf d L)) → Buf (Elt F) (ovM.view.loc (thrOf d L)) → Prop) : sProp 𝕄 :=
  iprop(∃ fo0 fo1 : Buf (Elt F) (ovM.view.loc (thrOf d L)),
    Transfers.Batch countersEmb (thrOf d L) (SemLoc.dma (osemAt os hs).sem) default
        ((outChunk c0 g0).view.amount (SemLoc.dma (sig := sig) (osemAt os hs).sem))
        (pair2 (delivO d L (ovSlot o0 h0) (outChunk c0 g0) fo0 (foutB m d L)) (delivO d L (ovSlot o1 h1) (outChunk c1 g1) fo1 (foutB m d L))) 2 0
      ∗ ⌜P fo0 fo1⌝)

/-- Idle: the semaphore at zero, both halves at some contents. -/
def OutIdleAt (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a) : sProp 𝕄 :=
  iprop(semVal (thrOf d L, SemLoc.dma (osemAt os hs).sem) 0
    ∗ (∃ f, (ovSlot o0 h0).view.loc (thrOf d L) ↦[(ovSlot o0 h0).view.set]{fullShare} f)
    ∗ (∃ f, (ovSlot o1 h1).view.loc (thrOf d L) ↦[(ovSlot o1 h1).view.set]{fullShare} f))

/-! Equal offset vectors give one assertion. -/

theorem IdxBusyAt_congr {os os' : Fin 1 → Nat} (e1 : os = os') {ov ov' : Fin 2 → Nat} (e2 : ov = ov') {oc oc' : Fin 1 → Nat} (e3 : oc = oc')
    (hs : ∀ a, os a + S1.size a ≤ S4.size a) (hs' : ∀ a, os' a + S1.size a ≤ S4.size a)
    (hv : ∀ a, ov a + S1x640.size a ≤ S4x640.size a) (hv' : ∀ a, ov' a + S1x640.size a ≤ S4x640.size a)
    (hc : ∀ a, oc a + S640.size a ≤ S3200000.size a) (hc' : ∀ a, oc' a + S640.size a ≤ S3200000.size a)
    (tok : PosShare TreeShare) (P : Buf (Elt F) (ivM.view.loc (thrOf d L)) → Prop) :
    IdxBusyAt m d L os hs ov hv oc hc tok P = IdxBusyAt m d L os' hs' ov' hv' oc' hc' tok P := by subst e1 e2 e3; rfl

theorem IdxIdleAt_congr {os os' : Fin 1 → Nat} (e1 : os = os') {ov ov' : Fin 2 → Nat} (e2 : ov = ov')
    (hs : ∀ a, os a + S1.size a ≤ S4.size a) (hs' : ∀ a, os' a + S1.size a ≤ S4.size a)
    (hv : ∀ a, ov a + S1x640.size a ≤ S4x640.size a) (hv' : ∀ a, ov' a + S1x640.size a ≤ S4x640.size a) (tok : PosShare TreeShare) :
    IdxIdleAt m d L os hs ov hv tok = IdxIdleAt m d L os' hs' ov' hv' tok := by subst e1 e2; rfl

theorem OutBusyAt_congr {os os' : Fin 1 → Nat} (e1 : os = os') {o0 o0' : Fin 5 → Nat} (e2 : o0 = o0') {o1 o1' : Fin 5 → Nat} (e3 : o1 = o1')
    {c0 c0' : Fin 4 → Nat} (e4 : c0 = c0') {c1 c1' : Fin 4 → Nat} (e5 : c1 = c1')
    (hs : ∀ a, os a + S1.size a ≤ S4.size a) (hs' : ∀ a, os' a + S1.size a ≤ S4.size a)
    (h0 : ∀ a, o0 a + S1x1x5x8x128.size a ≤ S4x2x5x8x128.size a) (h0' : ∀ a, o0' a + S1x1x5x8x128.size a ≤ S4x2x5x8x128.size a)
    (h1 : ∀ a, o1 a + S1x1x5x8x128.size a ≤ S4x2x5x8x128.size a) (h1' : ∀ a, o1' a + S1x1x5x8x128.size a ≤ S4x2x5x8x128.size a)
    (g0 : ∀ a, c0 a + S1x5x8x128.size a ≤ S2x25000x8x128.size a) (g0' : ∀ a, c0' a + S1x5x8x128.size a ≤ S2x25000x8x128.size a)
    (g1 : ∀ a, c1 a + S1x5x8x128.size a ≤ S2x25000x8x128.size a) (g1' : ∀ a, c1' a + S1x5x8x128.size a ≤ S2x25000x8x128.size a)
    (P : Buf (Elt F) (ovM.view.loc (thrOf d L)) → Buf (Elt F) (ovM.view.loc (thrOf d L)) → Prop) :
    OutBusyAt m d L os hs o0 h0 o1 h1 c0 g0 c1 g1 P = OutBusyAt m d L os' hs' o0' h0' o1' h1' c0' g0' c1' g1' P := by
  subst e1 e2 e3 e4 e5; rfl

theorem OutIdleAt_congr {os os' : Fin 1 → Nat} (e1 : os = os') {o0 o0' : Fin 5 → Nat} (e2 : o0 = o0') {o1 o1' : Fin 5 → Nat} (e3 : o1 = o1')
    (hs : ∀ a, os a + S1.size a ≤ S4.size a) (hs' : ∀ a, os' a + S1.size a ≤ S4.size a)
    (h0 : ∀ a, o0 a + S1x1x5x8x128.size a ≤ S4x2x5x8x128.size a) (h0' : ∀ a, o0' a + S1x1x5x8x128.size a ≤ S4x2x5x8x128.size a)
    (h1 : ∀ a, o1 a + S1x1x5x8x128.size a ≤ S4x2x5x8x128.size a) (h1' : ∀ a, o1' a + S1x1x5x8x128.size a ≤ S4x2x5x8x128.size a) :
    OutIdleAt (F := F) d L os hs o0 h0 o1 h1 = OutIdleAt (F := F) d L os' hs' o0' h0' o1' h1' := by subst e1 e2 e3; rfl

/-! ## What is known of the contents -/

theorem idxPos_lt {b : ℕ} (hb : b < nW L) (j : Fin 640) : 640 * (sW L + b) + j.val < 3200000 := by
  have := chunkW_lt L hb; have := j.isLt; omega
theorem rowPos_lt {c : ℕ} (hc : c < nW L) (g : Fin 5) : 5 * (sW L + c) + g.val < 25000 := by
  have := chunkW_lt L hc; have := g.isLt; omega

/-- Row `b % 4` of the index scratch holds the indices of the worker's chunk `b`. -/
def goodIdx (b : ℕ) (hb : b < nW L) (fd : Buf (Elt F) (ivM.view.loc (thrOf d L))) : Prop :=
  ∀ j : Fin 640, fd (ix2 (⟨b % 4, Nat.mod_lt _ (by decide)⟩ : Fin 4) j) = fiB m d L (ix1 (⟨640 * (sW L + b) + j.val, idxPos_lt L hb j⟩ : Fin 3200000))

/-- The two halves of slot `c % 4` of the output scratch hold the lookup's values for the worker's chunk `c`. -/
def goodOut (c : ℕ) (hc : c < nW L) (fo0 fo1 : Buf (Elt F) (ovM.view.loc (thrOf d L))) : Prop :=
  ∀ (g : Fin 5) (r : Fin 8) (j : Fin 128),
    fo0 (ix5 (⟨c % 4, Nat.mod_lt _ (by decide)⟩ : Fin 4) (0 : Fin 2) g r j) = goutB m d L (ix4 (0 : Fin 2) (⟨5 * (sW L + c) + g.val, rowPos_lt L hc g⟩ : Fin 25000) r j)
    ∧ fo1 (ix5 (⟨c % 4, Nat.mod_lt _ (by decide)⟩ : Fin 4) (1 : Fin 2) g r j) = goutB m d L (ix4 (1 : Fin 2) (⟨5 * (sW L + c) + g.val, rowPos_lt L hc g⟩ : Fin 25000) r j)

/-- The first 25600 words of the table scratch are the replicated table. -/
def goodTv (ftv : Buf (Elt F) (tvM.view.loc (thrOf d L))) : Prop :=
  ∀ k : Fin 25600, ftv (ix1 (⟨k.val, by have := k.isLt; omega⟩ : Fin 25840)) = ftabB m d (ix1 k)

/-! ## A slot by the chunk it next serves -/

theorem mod4_lt (b : ℕ) : b % 4 < 4 := Nat.mod_lt _ (by decide)

/-- The index side of the slot that serves chunk `b`: fetching chunk `b`'s indices while the worker has a chunk `b`, else idle. -/
def IdxSt (b : ℕ) : sProp 𝕄 :=
  if hb : b < nW L then
    IdxBusyAt m d L ![b % 4] (inb_sem (mod4_lt b)) ![b % 4, 0] (inb_iv (mod4_lt b)) ![640 * (sW L + b)] (inb_idx (chunkW_lt L hb))
      (tokW L (b % 4) (mod4_lt b)) (goodIdx m d L b hb)
  else IdxIdleAt m d L ![b % 4] (inb_sem (mod4_lt b)) ![b % 4, 0] (inb_iv (mod4_lt b)) (tokW L (b % 4) (mod4_lt b))

theorem outChunk_lt {b : ℕ} (hb : 4 ≤ b ∧ b < nW L + 4) : b - 4 < nW L := by omega

/-- The output side of the slot that serves chunk `b`: writing back chunk `b - 4` from the fifth chunk on, else idle. -/
def OutSt (b : ℕ) : sProp 𝕄 :=
  if hb : 4 ≤ b ∧ b < nW L + 4 then
    OutBusyAt m d L ![b % 4] (inb_sem (mod4_lt b)) ![b % 4, 0, 0, 0, 0] (inb_ov (mod4_lt b) (by decide)) ![b % 4, 1, 0, 0, 0] (inb_ov (mod4_lt b) (by decide))
      ![0, 5 * (sW L + (b - 4)), 0, 0] (inb_out (by decide) (chunkW_lt L (outChunk_lt L hb)))
      ![1, 5 * (sW L + (b - 4)), 0, 0] (inb_out (by decide) (chunkW_lt L (outChunk_lt L hb)))
      (goodOut m d L (b - 4) (outChunk_lt L hb))
  else OutIdleAt d L ![b % 4] (inb_sem (mod4_lt b)) ![b % 4, 0, 0, 0, 0] (inb_ov (mod4_lt b) (by decide)) ![b % 4, 1, 0, 0, 0] (inb_ov (mod4_lt b) (by decide))

/-! ## The worker's chunks of the result -/

/-- Both halves of chunk `b` at `f`. -/
abbrev outBoth (f : Buf (Elt F) (outLoc d)) (b : Fin (nW L)) : sProp 𝕄 := iprop(outPiece d L f b 0 ∗ outPiece d L f b 1)

/-- The chunks not yet computed, at the launch contents; the chunks written back and awaited, at the lookup's values. -/
def Home (t : ℕ) : sProp 𝕄 := bigSep (Finset.univ.filter fun b : Fin (nW L) => t ≤ b.val) fun b => outBoth d L (m (outLoc d)) b
def Done (t : ℕ) : sProp 𝕄 := bigSep (Finset.univ.filter fun b : Fin (nW L) => b.val + 4 < t) fun b => outBoth d L (goutB m d L) b

end Cert.Proof.KernelSc

end
-- ==== Proof.ScInnerSpecK.lean ====
import proofs.«202852_g34127810134284_cont_8to1_b_1476_20_alg».proof.Proof.ScSpellK
import Idealize.ShloMosaic.Lib.ValueIdx
import Idealize.ShloMosaic.Lib.Tactic

/-!
# The inner loop of a trip, as a statement

Trip `t` of a worker's outer loop computes one chunk in five inner trips: inner trip `g` reads the 128 indices of
block `g` of the chunk from row `t % 4` of the index scratch and, for each of the sixteen table columns, gathers
the 128 table entries those indices name and stores them in row `g` of the column's place in slot `t % 4` of the
output scratch. The table scratch holds, at word `i·256 + c·16 + l`, the entry of table row `i`, column `c`
(sixteen equal copies, one per lane `l`); lane `l` of a gather reads the copy of its own number.
-/

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

variable [FloatOps F]

/-- The lane numbers 0 … 15. -/
abbrev lanesV : IVec S16 32 := iota .scVector S16 32 [0] iota_S16_d0_w32_scVector

/-- The inner loop's value equation, named. -/
def InnerVal (t : Fin (k0_t1_loop L).trips) (ftv : Buf (Elt F) (tvM.view.loc (thrOf d L)))
    (fiv : Buf (Elt F) (ivM.view.loc (thrOf d L))) (fo0' fo1' : Buf (Elt F) (ovM.view.loc (thrOf d L))) : Prop :=
  ∀ (g : Fin 5) (r : Fin 8) (j : Fin 128),
    fo0' (ix5 (⟨t.val % 4, slot_lt L t⟩ : Fin 4) (0 : Fin 2) g r j)
        = ftv (ix1 (⟨(fiv (ix2 (⟨t.val % 4, slot_lt L t⟩ : Fin 4) (⟨128 * g.val + j.val, by have := g.isLt; have := j.isLt; omega⟩ : Fin 640))).toNat % 100 * 256
            + r.val * 16 + j.val % 16, by have := r.isLt; have := Nat.mod_lt j.val (by decide : 0 < 16); have := Nat.mod_lt (fiv (ix2 (⟨t.val % 4, slot_lt L t⟩ : Fin 4) (⟨128 * g.val + j.val, by have := g.isLt; have := j.isLt; omega⟩ : Fin 640))).toNat (by decide : 0 < 100); omega⟩ : Fin 25840))
    ∧ fo1' (ix5 (⟨t.val % 4, slot_lt L t⟩ : Fin 4) (1 : Fin 2) g r j)
        = ftv (ix1 (⟨(fiv (ix2 (⟨t.val % 4, slot_lt L t⟩ : Fin 4) (⟨128 * g.val + j.val, by have := g.isLt; have := j.isLt; omega⟩ : Fin 640))).toNat % 100 * 256
            + (8 + r.val) * 16 + j.val % 16, by have := r.isLt; have := Nat.mod_lt j.val (by decide : 0 < 16); have := Nat.mod_lt (fiv (ix2 (⟨t.val % 4, slot_lt L t⟩ : Fin 4) (⟨128 * g.val + j.val, by have := g.isLt; have := j.isLt; omega⟩ : Fin 640))).toNat (by decide : 0 < 100); omega⟩ : Fin 25840))

/-- What the inner loop of trip `t` does (proved apart): from the row of indices `fiv` (all below 100) and the table
    scratch `ftv`, the two output halves of slot `t % 4` end at the gathered values; nothing else changes. -/
def InnerSpec : Prop :=
  ∀ (t : Fin (k0_t1_loop L).trips) (v4 v46 : BitVec 32) (ftv : Buf (Elt F) (tvM.view.loc (thrOf d L)))
    (fiv : Buf (Elt F) (ivM.view.loc (thrOf d L))) (fo0 fo1 : Buf (Elt F) (ovM.view.loc (thrOf d L))),
    (∀ j : Fin 640, (fiv (ix2 (⟨t.val % 4, slot_lt L t⟩ : Fin 4) j)).toNat < 100) →
    (iprop((tvM.view.loc (thrOf d L) ↦{fullShare} ftv)
        ∗ ((ivSlot (k0_off5 L t) (k0_off5_inb L t)).view.loc (thrOf d L) ↦[(ivSlot (k0_off5 L t) (k0_off5_inb L t)).view.set]{fullShare} fiv)
        ∗ ((ovSlot (k0_off142 L t) (k0_off142_inb L t)).view.loc (thrOf d L) ↦[(ovSlot (k0_off142 L t) (k0_off142_inb L t)).view.set]{fullShare} fo0)
        ∗ ((ovSlot (k0_off144 L t) (k0_off144_inb L t)).view.loc (thrOf d L) ↦[(ovSlot (k0_off144 L t) (k0_off144_inb L t)).view.set]{fullShare} fo1)) : sProp 𝕄)
      ⊢ wp frame (wpE (defs₀ (F := F)) 𝒱₀ (thrOf d L) none) Set.univ
          (Scf.Loop.for k0_t2_loop k0_t2_ok ⟨⟩
            (k0_t2_body L idxM (Memref.isWhole_whole _) tabM (Memref.isWhole_whole _) outM (Memref.isWhole_whole _)
              tvM (Memref.isWhole_whole _) ivM (Memref.isWhole_whole _) ovM (Memref.isWhole_whole _) cc0_scratch3 cc0_scratch4 cc0_scoped0
              v4 lanesV 0#32 1#32 t v46))
          fun _ => iprop(∃ fo0' fo1' : Buf (Elt F) (ovM.view.loc (thrOf d L)),
            (tvM.view.loc (thrOf d L) ↦{fullShare} ftv)
            ∗ ((ivSlot (k0_off5 L t) (k0_off5_inb L t)).view.loc (thrOf d L) ↦[(ivSlot (k0_off5 L t) (k0_off5_inb L t)).view.set]{fullShare} fiv)
            ∗ ((ovSlot (k0_off142 L t) (k0_off142_inb L t)).view.loc (thrOf d L) ↦[(ovSlot (k0_off142 L t) (k0_off142_inb L t)).view.set]{fullShare} fo0')
            ∗ ((ovSlot (k0_off144 L t) (k0_off144_inb L t)).view.loc (thrOf d L) ↦[(ovSlot (k0_off144 L t) (k0_off144_inb L t)).view.set]{fullShare} fo1')
            ∗ ⌜InnerVal d L t ftv fiv fo0' fo1'⌝)

end Cert.Proof.KernelSc

end
-- ==== Proof.ScValsK.lean ====
/-
  The pure value facts of a worker's run.

  A piece of an array — a row of the index scratch, a half-slot of the output scratch, a chunk of the index list, a
  chunk's five rows of one half of the result — is a unit-stride rectangle of the array with its axes of extent one
  dropped; its element at the remaining coordinates is the array's element at the rectangle's offset plus those
  coordinates. One whole write through a piece leaves, at each of the piece's elements, the payload's value there.
  From these:
  * the inner loop's equation (each gathered value is the table scratch at `256 · word + 16 · column + lane`), with the
    fetched row being the chunk's indices (all below 100) and the table scratch the repeated table, says the two
    output halves hold the result's final contents for the chunk;
  * such a half-slot landed on the chunk's half of the result is the final contents there;
  * a fetch delivers the chunk's indices; the table copy delivers the repeated table.
-/
import proofs.«202852_g34127810134284_cont_8to1_b_1476_20_alg».proof.Proof.ScRingK
import proofs.«202852_g34127810134284_cont_8to1_b_1476_20_alg».proof.Proof.ScInnerSpecK
import Idealize.ShloMosaic.Lib.Writes

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-! ## Where a piece's elements sit in its array

Each piece is a unit-stride rectangle of its array with the axes of extent one dropped: its element at the remaining
coordinates is the array's element at the rectangle's offset plus those coordinates. -/

/-- Element `j` of row `p` of the index scratch is the scratch's element `(p, j)`. -/
theorem emb_ivSlot (p : ℕ) (hp : p < 4) (j : Fin 640) :
    (ivSlot ![p, 0] (inb_iv hp)).view.emb (ix1 j) = (ix2 (⟨p, hp⟩ : Fin 4) j : S4x640.Idx) := by
  have e : Shape.reshapeEquiv (s := (Rect.unit (s := S4x640) ![p, 0] S1x640.size (inb_iv hp)).shape) (s' := S640)
      squeezes_S1x640_S640.numel_eq (ix1 j) = (ix2 (0 : Fin 1) j : (⟨2, ![1, 640]⟩ : Shape).Idx) :=
    Shape.reshapeEquiv_eq_of_rowMajor _ (by
      rw [Shape.rowMajor_val_two, Shape.rowMajor_val_one]
      show (0 : ℕ) * 640 + j.val = j.val
      omega)
  show (Rect.unit (s := S4x640) ![p, 0] S1x640.size (inb_iv hp)).emb (Shape.reshapeEquiv _ (ix1 j)) = _
  rw [e]
  funext a
  refine Fin.ext ?_
  rw [Rect.emb_apply]
  fin_cases a <;> simp

/-- Element `(g, r, j)` of half `h` of slot `p` of the output scratch is the scratch's element `(p, h, g, r, j)`. -/
theorem emb_ovSlot (p h : ℕ) (hp : p < 4) (hh : h < 2) (g : Fin 5) (r : Fin 8) (j : Fin 128) :
    (ovSlot ![p, h, 0, 0, 0] (inb_ov hp hh)).view.emb (ix3 g r j) = (ix5 (⟨p, hp⟩ : Fin 4) (⟨h, hh⟩ : Fin 2) g r j : S4x2x5x8x128.Idx) := by
  have e : Shape.reshapeEquiv (s := (Rect.unit (s := S4x2x5x8x128) ![p, h, 0, 0, 0] S1x1x5x8x128.size (inb_ov hp hh)).shape) (s' := S5x8x128)
      squeezes_S1x1x5x8x128_S5x8x128.numel_eq (ix3 g r j) = (ix5 (0 : Fin 1) (0 : Fin 1) g r j : (⟨5, ![1, 1, 5, 8, 128]⟩ : Shape).Idx) :=
    Shape.reshapeEquiv_eq_of_rowMajor _ (by
      rw [Shape.rowMajor_val_five, Shape.rowMajor_val_three]
      show ((((0 : ℕ) * 1 + 0) * 5 + g.val) * 8 + r.val) * 128 + j.val = (g.val * 8 + r.val) * 128 + j.val
      omega)
  show (Rect.unit (s := S4x2x5x8x128) ![p, h, 0, 0, 0] S1x1x5x8x128.size (inb_ov hp hh)).emb (Shape.reshapeEquiv _ (ix3 g r j)) = _
  rw [e]
  funext a
  refine Fin.ext ?_
  rw [Rect.emb_apply]
  fin_cases a <;> simp

/-- Element `(g, r, j)` of chunk `T`'s five rows of half `h` of the result is the result's element `(h, 5 T + g, r, j)`. -/
theorem emb_outChunk (h T : ℕ) (hh : h < 2) (hT : T < 5000) (g : Fin 5) (r : Fin 8) (j : Fin 128) :
    (outChunk ![h, 5 * T, 0, 0] (inb_out hh hT)).view.emb (ix3 g r j)
      = (ix4 (⟨h, hh⟩ : Fin 2) (⟨5 * T + g.val, by have := g.isLt; omega⟩ : Fin 25000) r j : S2x25000x8x128.Idx) := by
  have e : Shape.reshapeEquiv (s := (Rect.unit (s := S2x25000x8x128) ![h, 5 * T, 0, 0] S1x5x8x128.size (inb_out hh hT)).shape) (s' := S5x8x128)
      squeezes_S1x5x8x128_S5x8x128.numel_eq (ix3 g r j) = (ix4 (0 : Fin 1) g r j : (⟨4, ![1, 5, 8, 128]⟩ : Shape).Idx) :=
    Shape.reshapeEquiv_eq_of_rowMajor _ (by
      rw [Shape.rowMajor_val_four, Shape.rowMajor_val_three]
      show (((0 : ℕ) * 5 + g.val) * 8 + r.val) * 128 + j.val = (g.val * 8 + r.val) * 128 + j.val
      omega)
  show (Rect.unit (s := S2x25000x8x128) ![h, 5 * T, 0, 0] S1x5x8x128.size (inb_out hh hT)).emb (Shape.reshapeEquiv _ (ix3 g r j)) = _
  rw [e]
  funext a
  refine Fin.ext ?_
  rw [Rect.emb_apply]
  fin_cases a <;> simp

/-- Element `j` of chunk `T` of the index list is the list's element `640 T + j`. -/
theorem emb_idxChunk (T : ℕ) (hT : T < 5000) (j : Fin 640) :
    (idxChunk ![640 * T] (inb_idx hT)).view.emb (ix1 j) = (ix1 (⟨640 * T + j.val, by have := j.isLt; omega⟩ : Fin 3200000) : S3200000.Idx) := by
  show (Rect.unit (s := S3200000) ![640 * T] S640.size (inb_idx hT)).emb (ix1 j) = _
  funext a
  refine Fin.ext ?_
  rw [Rect.emb_apply]
  fin_cases a; simp

/-! ## One write through a view, read at an element it covers -/

theorem writes_one_emb {κ : Kind} {sp : Space} {s : Shape} {e : EltTy} (v : View sig κ sp s e) (f : v.ty.Contents (Elt F))
    (R : Rect s) (w : R.shape.Idx → Elt F e) (x : R.shape.Idx) :
    v.writes (Elt F) f [⟨R, w⟩] (v.emb (R.emb x)) = _root_.cast (congrArg (Elt F) (v.slice R).elt_eq.symm) (w x) :=
  View.write_emb_of_mem (v := v.slice R) f w (Finset.mem_univ x)

/-! ## The result's final contents at a worker's chunk -/

/-- The result's value at `(h, T, r, j)` when the index list's word number `128 T + j` is `W < 100`: the repeated
    table at `256 W + 16 (8 h + r) + j % 16`. -/
theorem Gout_at (sp : IVec S3200000 32) (tab : FVec F S25600 .f32) (h : Fin 2) (T : Fin 25000) (r : Fin 8) (j : Fin 128)
    (i : Fin 3200000) (hi : i.val = T.val * 128 + j.val) (W : ℕ) (hW : W < 100) (hw : (sp (ix1 i)).toNat = W)
    (k : Fin 25600) (hk : k.val = W * 256 + (h.val * 8 + r.val) * 16 + j.val % 16) :
    Gout sp tab (ix4 h T r j) = tab (ix1 k) := by
  rw [Gout_apply]
  have hh := h.isLt; have hr := r.isLt
  refine congrArg (fun k => tab (ix1 k)) (Fin.ext ?_)
  have e : (sp (ix1 (⟨T.val * 128 + j.val, by have := T.isLt; have := j.isLt; omega⟩ : Fin 3200000))).toNat = W :=
    (congrArg (fun k => (sp (ix1 k)).toNat) (Fin.ext hi.symm : (⟨T.val * 128 + j.val, by have := T.isLt; have := j.isLt; omega⟩ : Fin 3200000) = i)).trans hw
  show ((sp (ix1 (⟨T.val * 128 + j.val, _⟩ : Fin 3200000))).toNat * 256 + (h.val * 8 + r.val) * 16 + j.val % 16) % 25600 = k.val
  rw [e, hk]
  omega

/-! ## The pure facts of a trip -/

/-- A chunk's half of the result at `f`, at an offset vector. -/
def OutPieceAt (c : Fin 4 → Nat) (g : ∀ a, c a + S1x5x8x128.size a ≤ S2x25000x8x128.size a) (f : Buf (Elt F) (outM.view.loc (thrOf d L))) : sProp 𝕄 :=
  (outChunk c g).view.loc (thrOf d L) ↦[(outChunk c g).view.set]{fullShare} f

theorem OutPieceAt_congr {c c' : Fin 4 → Nat} (e : c = c') (g : ∀ a, c a + S1x5x8x128.size a ≤ S2x25000x8x128.size a)
    (g' : ∀ a, c' a + S1x5x8x128.size a ≤ S2x25000x8x128.size a) (f : Buf (Elt F) (outM.view.loc (thrOf d L))) :
    OutPieceAt d L c g f = OutPieceAt d L c' g' f := by subst e; rfl

theorem OutPieceAt_def (c : Fin 4 → Nat) (g : ∀ a, c a + S1x5x8x128.size a ≤ S2x25000x8x128.size a) (f : Buf (Elt F) (outM.view.loc (thrOf d L))) :
    OutPieceAt d L c g f = ((outChunk c g).view.loc (thrOf d L) ↦[(outChunk c g).view.set]{fullShare} f : sProp 𝕄) := rfl

/-- From the inner loop's equation, the fetched row being chunk `t`'s indices, and the table scratch being the
    replicated table: the two halves hold the lookup's values for chunk `t`. -/
theorem goodOut_of_inner (hpre : ∀ i, (fiB m d L i).toNat < 100) (t : Fin (k0_t1_loop L).trips)
    (ftv : Buf (Elt F) (tvM.view.loc (thrOf d L))) (htv : goodTv m d L ftv)
    (fd : Buf (Elt F) (ivM.view.loc (thrOf d L))) (hfd : goodIdx m d L t.val (trip_lt L t) fd)
    (fo0' fo1' : Buf (Elt F) (ovM.view.loc (thrOf d L))) (hval : InnerVal d L t ftv fd fo0' fo1') :
    goodOut m d L t.val (trip_lt L t) fo0' fo1' := by
  intro g r j
  have hg := g.isLt; have hr := r.isLt; have hj := j.isLt
  have hT := chunkW_lt L (trip_lt L t)
  obtain ⟨h0, h1⟩ := hval g r j
  -- the word the two gathers read: the index list's word number 640 (start + t) + 128 g + j, below 100
  have hidx := hfd (⟨128 * g.val + j.val, by omega⟩ : Fin 640)
  have hW := hpre (ix1 (⟨640 * (sW L + t.val) + (128 * g.val + j.val), by omega⟩ : Fin 3200000))
  have hword : (fd (ix2 (⟨t.val % 4, slot_lt L t⟩ : Fin 4) (⟨128 * g.val + j.val, by omega⟩ : Fin 640))).toNat
      = (fiB m d L (ix1 (⟨640 * (sW L + t.val) + (128 * g.val + j.val), by omega⟩ : Fin 3200000))).toNat :=
    congrArg BitVec.toNat hidx
  obtain ⟨W, hWdef⟩ : ∃ W, (fiB m d L (ix1 (⟨640 * (sW L + t.val) + (128 * g.val + j.val), by omega⟩ : Fin 3200000))).toNat = W := ⟨_, rfl⟩
  rw [hWdef] at hW hword
  have hi : (⟨640 * (sW L + t.val) + (128 * g.val + j.val), by omega⟩ : Fin 3200000).val
      = (⟨5 * (sW L + t.val) + g.val, rowPos_lt L (trip_lt L t) g⟩ : Fin 25000).val * 128 + j.val := by
    show 640 * (sW L + t.val) + (128 * g.val + j.val) = (5 * (sW L + t.val) + g.val) * 128 + j.val
    omega
  constructor
  · rw [h0]
    have hk : W * 256 + r.val * 16 + j.val % 16 < 25600 := by omega
    refine ((congrArg (fun k => ftv (ix1 k)) (Fin.ext ?_ : _ = (⟨(⟨W * 256 + r.val * 16 + j.val % 16, hk⟩ : Fin 25600).val, by omega⟩ : Fin 25840))).trans
      (htv ⟨W * 256 + r.val * 16 + j.val % 16, hk⟩)).trans ?_
    · show (fd _).toNat % 100 * 256 + r.val * 16 + j.val % 16 = W * 256 + r.val * 16 + j.val % 16
      rw [hword, Nat.mod_eq_of_lt hW]
    · exact (Gout_at (m (idxLoc d)) (Cert.RefSide.tabRep (m (tblLoc d))) (0 : Fin 2) _ r j _ hi W hW hWdef
        ⟨W * 256 + r.val * 16 + j.val % 16, hk⟩ (by show W * 256 + r.val * 16 + j.val % 16 = W * 256 + (0 * 8 + r.val) * 16 + j.val % 16; omega)).symm
  · rw [h1]
    have hk : W * 256 + (8 + r.val) * 16 + j.val % 16 < 25600 := by omega
    refine ((congrArg (fun k => ftv (ix1 k)) (Fin.ext ?_ : _ = (⟨(⟨W * 256 + (8 + r.val) * 16 + j.val % 16, hk⟩ : Fin 25600).val, by omega⟩ : Fin 25840))).trans
      (htv ⟨W * 256 + (8 + r.val) * 16 + j.val % 16, hk⟩)).trans ?_
    · show (fd _).toNat % 100 * 256 + (8 + r.val) * 16 + j.val % 16 = W * 256 + (8 + r.val) * 16 + j.val % 16
      rw [hword, Nat.mod_eq_of_lt hW]
    · exact (Gout_at (m (idxLoc d)) (Cert.RefSide.tabRep (m (tblLoc d))) (1 : Fin 2) _ r j _ hi W hW hWdef
        ⟨W * 256 + (8 + r.val) * 16 + j.val % 16, hk⟩ (by show W * 256 + (8 + r.val) * 16 + j.val % 16 = W * 256 + (1 * 8 + r.val) * 16 + j.val % 16; omega)).symm

/-- A write-back landed, read at the chunk's element number `x`: the half-slot's element number `x`. -/
theorem landedO_apply (o : Fin 5 → Nat) (ho : ∀ a, o a + S1x1x5x8x128.size a ≤ S4x2x5x8x128.size a)
    (c : Fin 4 → Nat) (gc : ∀ a, c a + S1x5x8x128.size a ≤ S2x25000x8x128.size a)
    (fo : Buf (Elt F) (ovM.view.loc (thrOf d L))) (fdd : Buf (Elt F) (outM.view.loc (thrOf d L))) (x : S5x8x128.Idx) :
    landedO d L (ovSlot o ho) (outChunk c gc) fo fdd ((outChunk c gc).view.emb x) = fo ((ovSlot o ho).view.emb x) := by
  have h := writes_one_emb (F := F) (outChunk c gc).view fdd (Rect.whole S5x8x128)
    (ReadAs.same.apply ((ovSlot o ho).view.read (Elt F) fo)) x
  rw [Rect.emb_whole_apply] at h
  exact h

/-- A half-slot that holds the lookup's values for chunk `c`, landed on that chunk's half of the result, is the
    result's final contents there. -/
theorem landed_gout (c : ℕ) (hc : c < nW L)
    (o0 : Fin 5 → Nat) (h0 : ∀ a, o0 a + S1x1x5x8x128.size a ≤ S4x2x5x8x128.size a) (e0 : o0 = ![c % 4, 0, 0, 0, 0])
    (o1 : Fin 5 → Nat) (h1 : ∀ a, o1 a + S1x1x5x8x128.size a ≤ S4x2x5x8x128.size a) (e1 : o1 = ![c % 4, 1, 0, 0, 0])
    (fo0 fo1 : Buf (Elt F) (ovM.view.loc (thrOf d L))) (hfo : goodOut m d L c hc fo0 fo1) :
    (OutPieceAt d L ![0, 5 * (sW L + c), 0, 0] (inb_out Nat.zero_lt_two (chunkW_lt L hc))
        (landedO d L (ovSlot o0 h0) (outChunk ![0, 5 * (sW L + c), 0, 0] (inb_out Nat.zero_lt_two (chunkW_lt L hc))) fo0 (foutB m d L))
      = OutPieceAt d L ![0, 5 * (sW L + c), 0, 0] (inb_out Nat.zero_lt_two (chunkW_lt L hc)) (goutB m d L))
    ∧ (OutPieceAt d L ![1, 5 * (sW L + c), 0, 0] (inb_out Nat.one_lt_two (chunkW_lt L hc))
        (landedO d L (ovSlot o1 h1) (outChunk ![1, 5 * (sW L + c), 0, 0] (inb_out Nat.one_lt_two (chunkW_lt L hc))) fo1 (foutB m d L))
      = OutPieceAt d L ![1, 5 * (sW L + c), 0, 0] (inb_out Nat.one_lt_two (chunkW_lt L hc)) (goutB m d L)) := by
  subst e0 e1
  constructor
  · rw [OutPieceAt_def, OutPieceAt_def]
    refine pointsTo_congr fun i hi => ?_
    obtain ⟨x, -, rfl⟩ := Finset.mem_map.mp hi
    obtain ⟨g, r, j, rfl⟩ : ∃ g r j, x = ix3 g r j := ⟨x 0, x 1, x 2, eq_ix3 x⟩
    rw [landedO_apply, emb_ovSlot (c % 4) 0 (mod4_lt c) Nat.zero_lt_two, emb_outChunk 0 (sW L + c) Nat.zero_lt_two (chunkW_lt L hc)]
    exact (hfo g r j).1
  · rw [OutPieceAt_def, OutPieceAt_def]
    refine pointsTo_congr fun i hi => ?_
    obtain ⟨x, -, rfl⟩ := Finset.mem_map.mp hi
    obtain ⟨g, r, j, rfl⟩ : ∃ g r j, x = ix3 g r j := ⟨x 0, x 1, x 2, eq_ix3 x⟩
    rw [landedO_apply, emb_ovSlot (c % 4) 1 (mod4_lt c) Nat.one_lt_two, emb_outChunk 1 (sW L + c) Nat.one_lt_two (chunkW_lt L hc)]
    exact (hfo g r j).2

/-- What a fetch of chunk `b`'s indices delivers into row `b % 4` of the index scratch: the chunk's indices. -/
theorem fetched_good (b : ℕ) (hb : b < nW L) (ov : Fin 2 → Nat) (hv : ∀ a, ov a + S1x640.size a ≤ S4x640.size a) (ev : ov = ![b % 4, 0])
    (oc : Fin 1 → Nat) (hc : ∀ a, oc a + S640.size a ≤ S3200000.size a) (ec : oc = ![640 * (sW L + b)])
    (fd : Buf (Elt F) (ivM.view.loc (thrOf d L))) :
    goodIdx m d L b hb ((ivSlot ov hv).view.writes (Elt F) fd
      [⟨Rect.whole S640, ReadAs.same.apply ((idxChunk oc hc).view.read (Elt F) (fiB m d L))⟩]) := by
  subst ev ec
  intro j
  have h := writes_one_emb (F := F) (ivSlot ![b % 4, 0] hv).view fd (Rect.whole S640)
    (ReadAs.same.apply ((idxChunk ![640 * (sW L + b)] hc).view.read (Elt F) (fiB m d L))) (ix1 j)
  rw [Rect.emb_whole_apply, emb_ivSlot (b % 4) (mod4_lt b) j] at h
  refine h.trans ?_
  show fiB m d L ((idxChunk ![640 * (sW L + b)] hc).view.emb (ix1 j)) = _
  rw [emb_idxChunk (sW L + b) (chunkW_lt L hb) j]

/-- The table scratch after the repeated table is copied into its first 25600 words holds it there. -/
theorem tv_good (ftv0 : Buf (Elt F) (tvM.view.loc (thrOf d L))) (h : ∀ a, (![0] : Fin 1 → Nat) a + S25600.size a ≤ S25840.size a) :
    goodTv m d L (tvM.view.writes (Elt F) ftv0
      [⟨Rect.unit (s := S25840) ![0] S25600.size h, ReadAs.same.apply (tabM.view.read (Elt F) (Cert.RefSide.tabRep (m (tblLoc d))))⟩]) := by
  intro k
  have h1 := writes_one_emb (F := F) tvM.view ftv0 (Rect.unit (s := S25840) ![0] S25600.size h)
    (ReadAs.same.apply (tabM.view.read (Elt F) (Cert.RefSide.tabRep (m (tblLoc d))))) (ix1 k)
  have e : (Rect.unit (s := S25840) ![0] S25600.size h).emb (ix1 k) = (ix1 (⟨k.val, by have := k.isLt; omega⟩ : Fin 25840) : S25840.Idx) := by
    funext a
    refine Fin.ext ?_
    rw [Rect.emb_apply]
    fin_cases a; simp
  rw [e] at h1
  exact h1

end Cert.Proof.KernelSc

end
-- ==== Proof.ScTripK.lean ====
import proofs.«202852_g34127810134284_cont_8to1_b_1476_20_alg».proof.Proof.ScRingK
import proofs.«202852_g34127810134284_cont_8to1_b_1476_20_alg».proof.Proof.ScInnerSpecK
import proofs.«202852_g34127810134284_cont_8to1_b_1476_20_alg».proof.Proof.ScValsK
import Idealize.ShloMosaic.Lib.SparseCore.Launch
import Idealize.ShloMosaic.Lib.SparseCore.Ops
import Idealize.ShloMosaic.Lib.StableHlo.Run
import Idealize.ShloMosaic.Lib.Tactic

/-!
# One trip of the tile's outer loop

Trip `t` works in slot `t % 4`: it awaits the indices of chunk `t`, awaits (from the fifth trip on) the two
write-backs of chunk `t - 4` that still read the slot's output halves, computes chunk `t` into those halves,
starts their two write-backs, and (while the worker has a chunk `t + 4`) starts the fetch of its indices
into the row just read. Between the first and the last await of the write-backs nothing touches their halves
or their chunk of the result, so the two together may share one semaphore.
-/

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## Pieces at an offset vector, and their unfoldings -/

theorem outPiece_at (f : Buf (Elt F) (outLoc d)) (b : Fin (nW L)) (h : Fin 2) :
    outPiece d L f b h = OutPieceAt d L ![h.val, 5 * (sW L + b.val), 0, 0] (inb_out h.isLt (chunkW_lt L b.isLt)) f := rfl

theorem IdxBusyAt_def (os : Fin 1 → Nat) (hs : ∀ a, os a + S1.size a ≤ S4.size a) (ov : Fin 2 → Nat) (hv : ∀ a, ov a + S1x640.size a ≤ S4x640.size a)
    (oc : Fin 1 → Nat) (hc : ∀ a, oc a + S640.size a ≤ S3200000.size a) (tok : PosShare TreeShare)
    (P : Buf (Elt F) (ivM.view.loc (thrOf d L)) → Prop) :
    IdxBusyAt m d L os hs ov hv oc hc tok P
      = iprop(∃ fd : Buf (Elt F) (ivM.view.loc (thrOf d L)),
          Transfers.Flight countersEmb (thrOf d L) (SemLoc.dma (isemAt os hs).sem) default 20480
              iprop(((ivSlot ov hv).view.loc (thrOf d L) ↦[(ivSlot ov hv).view.set]{fullShare} fd)
                ∗ (idxM.view.loc (thrOf d L) ↦[(idxChunk oc hc).view.set]{tok} fiB m d L))
            ∗ (idxM.view.loc (thrOf d L) ↦[Finset.univ \ (idxChunk oc hc).view.set]{tok} fiB m d L)
            ∗ ⌜P fd⌝) := rfl

theorem IdxIdleAt_def (os : Fin 1 → Nat) (hs : ∀ a, os a + S1.size a ≤ S4.size a) (ov : Fin 2 → Nat) (hv : ∀ a, ov a + S1x640.size a ≤ S4x640.size a)
    (tok : PosShare TreeShare) :
    IdxIdleAt m d L os hs ov hv tok
      = iprop(semVal (thrOf d L, SemLoc.dma (isemAt os hs).sem) 0
          ∗ (∃ f, (ivSlot ov hv).view.loc (thrOf d L) ↦[(ivSlot ov hv).view.set]{fullShare} f)
          ∗ (idxM.view.loc (thrOf d L) ↦{tok} fiB m d L)) := rfl

theorem OutBusyAt_def (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a)
    (c0 : Fin 4 → Nat) (g0 : ∀ a, c0 a + S1x5x8x128.size a ≤ S2x25000x8x128.size a)
    (c1 : Fin 4 → Nat) (g1 : ∀ a, c1 a + S1x5x8x128.size a ≤ S2x25000x8x128.size a)
    (P : Buf (Elt F) (ovM.view.loc (thrOf d L)) → Buf (Elt F) (ovM.view.loc (thrOf d L)) → Prop) :
    OutBusyAt m d L os hs o0 h0 o1 h1 c0 g0 c1 g1 P
      = iprop(∃ fo0 fo1 : Buf (Elt F) (ovM.view.loc (thrOf d L)),
          Transfers.Batch countersEmb (thrOf d L) (SemLoc.dma (osemAt os hs).sem) default
              ((outChunk c0 g0).view.amount (SemLoc.dma (sig := sig) (osemAt os hs).sem))
              (pair2 (delivO d L (ovSlot o0 h0) (outChunk c0 g0) fo0 (foutB m d L)) (delivO d L (ovSlot o1 h1) (outChunk c1 g1) fo1 (foutB m d L))) 2 0
            ∗ ⌜P fo0 fo1⌝) := rfl

theorem OutIdleAt_def (os : Fin 1 → Nat) (hs : ∀ a, os a + S1.size a ≤ S4.size a)
    (o0 : Fin 5 → Nat) (h0 : ∀ a, o0 a + S1x1x5x8x128.size a ≤ S4x2x5x8x128.size a)
    (o1 : Fin 5 → Nat) (h1 : ∀ a, o1 a + S1x1x5x8x128.size a ≤ S4x2x5x8x128.size a) :
    OutIdleAt (F := F) d L os hs o0 h0 o1 h1
      = iprop(semVal (thrOf d L, SemLoc.dma (osemAt os hs).sem) 0
          ∗ (∃ f, (ovSlot o0 h0).view.loc (thrOf d L) ↦[(ovSlot o0 h0).view.set]{fullShare} f)
          ∗ (∃ f, (ovSlot o1 h1).view.loc (thrOf d L) ↦[(ovSlot o1 h1).view.set]{fullShare} f)) := rfl

theorem tokW_congr {e e' : ℕ} (h : e = e') (he : e < 4) (he' : e' < 4) : tokW L e he = tokW L e' he' := by subst h; rfl

variable [FloatOps F]

/-! ## Waits recorded at the kernel's own index -/

theorem waits_base (W : Waits sig (HIx 1)) : ∀ p ∈ W, p ∈ W ∨ p.2 = none := fun _ hp => .inl hp
theorem waits_ins {W W' : Waits sig (HIx 1)} {s : SemLoc sig} (h : ∀ p ∈ W', p ∈ W ∨ p.2 = none) :
    ∀ p ∈ insert (s, (default : HIx 1)) W', p ∈ W ∨ p.2 = none :=
  fun p hp => (Finset.mem_insert.mp hp).elim (fun e => .inr (e ▸ rfl)) (h p)

/-! ## The pure facts of a trip -/

theorem goodOut_congr {c c' : ℕ} (h : c = c') (hc : c < nW L) (hc' : c' < nW L) (fo0 fo1 : Buf (Elt F) (ovM.view.loc (thrOf d L))) :
    goodOut m d L c hc fo0 fo1 ↔ goodOut m d L c' hc' fo0 fo1 := by subst h; exact Iff.rfl

/-! ## The trip -/

set_option maxHeartbeats 8000000 in
/-- Trip `t`: from the ring before it to the ring after it, chunk `t - 4` (if any) finished. -/
theorem trip_step (hin : InnerSpec (F := F) d L) (hpre : ∀ i, (fiB m d L i).toNat < 100)
    (O : CellTallies nD τ sig (HIx 1)) (W : Waits sig (HIx 1)) (t : Fin (k0_t1_loop L).trips) (v4 : BitVec 32)
    (v8 : IVec S16 32) (hv8 : v8 = lanesV)
    (ftv : Buf (Elt F) (tvM.view.loc (thrOf d L))) (htv : goodTv m d L ftv) :
    iprop(Transfers.MayWaits (thrOf d L) (none : HIx 1) O
        ∗ IdxSt m d L t.val ∗ OutSt m d L t.val
        ∗ (tvM.view.loc (thrOf d L) ↦{fullShare} ftv)
        ∗ outBoth d L (m (outLoc d)) ⟨t.val, trip_lt L t⟩
        ∗ owes (thrOf d L) O W)
      ⊢ wp frame (wpE (defs₀ (F := F)) 𝒱₀ (thrOf d L) none) Set.univ
          (k0_t1_body L idxM (Memref.isWhole_whole _) tabM (Memref.isWhole_whole _) outM (Memref.isWhole_whole _)
            tvM (Memref.isWhole_whole _) ivM (Memref.isWhole_whole _) ovM (Memref.isWhole_whole _) cc0_scratch3 cc0_scratch4 cc0_scoped0
            v4 v8 0#32 t ())
          fun _ => iprop(IdxSt m d L (t.val + 4) ∗ OutSt m d L (t.val + 4)
            ∗ (tvM.view.loc (thrOf d L) ↦{fullShare} ftv)
            ∗ (if h : 4 ≤ t.val then outBoth d L (goutB m d L) ⟨t.val - 4, by have := trip_lt L t; omega⟩ else iprop(emp))
            ∗ ∃ W', ⌜∀ p ∈ W', p ∈ W ∨ p.2 = none⌝ ∗ owes (thrOf d L) O W') := by
  subst hv8
  have ht := trip_lt L t
  have ht157 : t.val < 157 := Nat.lt_of_lt_of_le t.isLt (k0_t1_abs L).2.1
  have hsl := slot_lt L t
  -- the index side of the trip's slot is fetching chunk `t`: as the trip names its pieces
  have eIdx : IdxSt m d L t.val
      = IdxBusyAt m d L (k0_off7 L t) (k0_off7_inb L t) (k0_off5 L t) (k0_off5_inb L t) (k0_off6 L t) (k0_off6_inb L t)
          (tokW L (t.val % 4) hsl) (goodIdx m d L t.val ht) := by
    unfold IdxSt; rw [dif_pos ht]
    exact IdxBusyAt_congr m d L (k0_off7_eq L t).symm (k0_off5_eq L t).symm ((k0_off6_eq L t).trans (by rw [idx_off L t.val])).symm _ _ _ _ _ _ _ _
  -- chunk `t`'s two halves of the result, as the trip names them
  have eC0 : outPiece d L (m (outLoc d)) ⟨t.val, ht⟩ 0 = OutPieceAt d L (k0_off143 L t) (k0_off143_inb L t) (foutB m d L) :=
    (outPiece_at d L _ _ _).trans (OutPieceAt_congr d L ((k0_off143_eq L t).trans (by rw [row_off L t.val] <;> rfl)).symm _ _ _)
  have eC1 : outPiece d L (m (outLoc d)) ⟨t.val, ht⟩ 1 = OutPieceAt d L (k0_off145 L t) (k0_off145_inb L t) (foutB m d L) :=
    (outPiece_at d L _ _ _).trans (OutPieceAt_congr d L ((k0_off145_eq L t).trans (by rw [row_off L t.val] <;> rfl)).symm _ _ _)
  iintro ⟨#Hmw, HI, HOu, Htv, ⟨Hc0, Hc1⟩, HO⟩
  ihave HI := (Entails.of_eq (eIdx.trans (IdxBusyAt_def m d L _ _ _ _ _ _ _ _))) $$ HI
  icases HI with ⟨%fd, Hfl, Hrest, %hfd⟩
  ihave Hc0 := (Entails.of_eq (eC0.trans (OutPieceAt_def d L _ _ _))) $$ Hc0
  ihave Hc1 := (Entails.of_eq (eC1.trans (OutPieceAt_def d L _ _ _))) $$ Hc1
  have hrange : ∀ j : Fin 640, (fd (ix2 (⟨t.val % 4, hsl⟩ : Fin 4) j)).toNat < 100 := fun j => by rw [hfd j]; exact hpre _
  by_cases h4 : 4 ≤ t.val
  · have k0_h5 : k0_cond5 L t = 1#1 := (cond5_iff L t).mpr h4
    have hb : 4 ≤ t.val ∧ t.val < nW L + 4 := ⟨h4, Nat.lt_add_right 4 ht⟩
    have hm4 : (t.val - 4) % 4 = t.val % 4 := by omega
    have eOut : OutSt m d L t.val
        = OutBusyAt m d L (k0_off10 L t) (k0_off10_inb L t k0_h5) (k0_off142 L t) (k0_off142_inb L t) (k0_off144 L t) (k0_off144_inb L t)
            ![0, 5 * (sW L + (t.val - 4)), 0, 0] (inb_out (by decide) (chunkW_lt L (outChunk_lt L hb)))
            ![1, 5 * (sW L + (t.val - 4)), 0, 0] (inb_out (by decide) (chunkW_lt L (outChunk_lt L hb)))
            (goodOut m d L (t.val - 4) (outChunk_lt L hb)) := by
      unfold OutSt; rw [dif_pos hb]
      exact OutBusyAt_congr m d L (k0_off10_eq L t).symm (k0_off142_eq L t).symm (k0_off144_eq L t).symm rfl rfl _ _ _ _ _ _ _ _ _ _ _
    ihave HOu := (Entails.of_eq (eOut.trans (OutBusyAt_def m d L _ _ _ _ _ _ _ _ _ _ _))) $$ HOu
    icases HOu with ⟨%fo0, %fo1, HB, %hfo⟩
    sl_unfold [k0_t1_body]
    sl_unfold [k0_part30]
    sl_exec
    -- the two halves of chunk `t - 4` have landed: they are the result's final contents there
    have hl := landed_gout m d L (t.val - 4) (outChunk_lt L hb) (k0_off142 L t) (k0_off142_inb L t) ((k0_off142_eq L t).trans (by rw [hm4]))
      (k0_off144 L t) (k0_off144_inb L t) ((k0_off144_eq L t).trans (by rw [hm4])) fo0 fo1 hfo
    ihave Hd0 := (Entails.of_eq (((OutPieceAt_def d L _ _ _).symm.trans hl.1).trans (outPiece_at d L (goutB m d L) ⟨t.val - 4, outChunk_lt L hb⟩ 0).symm)) $$ HB_dst0
    ihave Hd1 := (Entails.of_eq (((OutPieceAt_def d L _ _ _).symm.trans hl.2).trans (outPiece_at d L (goutB m d L) ⟨t.val - 4, outChunk_lt L hb⟩ 1).symm)) $$ HB_dst1
    ihave HB := (Entails.of_eq (congrArg (fun o => (semVal (thrOf d L, SemLoc.dma o.sem) 0 : sProp 𝕄)) (osemAt_congr ((k0_off10_eq L t).trans (k0_off7_eq L t).symm) (k0_off10_inb L t k0_h5) (k0_off7_inb L t)))) $$ HB
    rw [wp_bind, wp_bind]
    iapply (wp_wand_r frame _ Set.univ (Q := fun _ => iprop(∃ fo0' fo1' : Buf (Elt F) (ovM.view.loc (thrOf d L)),
            (tvM.view.loc (thrOf d L) ↦{fullShare} ftv)
            ∗ ((ivSlot (k0_off5 L t) (k0_off5_inb L t)).view.loc (thrOf d L) ↦[(ivSlot (k0_off5 L t) (k0_off5_inb L t)).view.set]{fullShare} fd)
            ∗ ((ovSlot (k0_off142 L t) (k0_off142_inb L t)).view.loc (thrOf d L) ↦[(ovSlot (k0_off142 L t) (k0_off142_inb L t)).view.set]{fullShare} fo0')
            ∗ ((ovSlot (k0_off144 L t) (k0_off144_inb L t)).view.loc (thrOf d L) ↦[(ovSlot (k0_off144 L t) (k0_off144_inb L t)).view.set]{fullShare} fo1')
            ∗ ⌜InnerVal d L t ftv fd fo0' fo1'⌝)))
    isplitl [Htv Hfl_dst HB_src0 HB_src1]
    · iapply (hin t v4 _ ftv fd fo0 fo1 hrange)
      isplitl [Htv]; · iexact Htv
      isplitl [Hfl_dst]; · iexact Hfl_dst
      isplitl [HB_src0]; · iexact HB_src0
      iexact HB_src1
    iintro %_ ⟨%fo0', %fo1', Htv, Hiv, Ho0, Ho1, %hval⟩
    have hgo : goodOut m d L t.val ht fo0' fo1' := goodOut_of_inner m d L hpre t ftv htv fd hfd fo0' fo1' hval
    imod (Transfers.batch_alloc' (Lvl := ℕ) countersEmb (thrOf d L) (default : HIx 1)
        ((outChunk (k0_off143 L t) (k0_off143_inb L t)).view.amount (SemLoc.dma (sig := sig) (osemAt (k0_off7 L t) (k0_off7_inb L t)).sem))
        (pair2 (delivO d L (ovSlot (k0_off142 L t) (k0_off142_inb L t)) (outChunk (k0_off143 L t) (k0_off143_inb L t)) fo0' (foutB m d L))
          (delivO d L (ovSlot (k0_off144 L t) (k0_off144_inb L t)) (outChunk (k0_off145 L t) (k0_off145_inb L t)) fo1' (foutB m d L)))
        (sm := SemLoc.dma (osemAt (k0_off7 L t) (k0_off7_inb L t)).sem) (E := Set.univ)) $$ HB with HB
    have eO4 : OutSt m d L (t.val + 4)
        = OutBusyAt m d L (k0_off7 L t) (k0_off7_inb L t) (k0_off142 L t) (k0_off142_inb L t) (k0_off144 L t) (k0_off144_inb L t)
            (k0_off143 L t) (k0_off143_inb L t) (k0_off145 L t) (k0_off145_inb L t)
            (goodOut m d L (t.val + 4 - 4) (outChunk_lt L ⟨Nat.le_add_left 4 t.val, Nat.add_lt_add_right ht 4⟩)) := by
      unfold OutSt; rw [dif_pos (⟨Nat.le_add_left 4 t.val, Nat.add_lt_add_right ht 4⟩ : 4 ≤ t.val + 4 ∧ t.val + 4 < nW L + 4)]
      exact OutBusyAt_congr m d L (off7_num L t).symm (off142_num L t).symm (off144_num L t).symm (off143_num L t).symm (off145_num L t).symm _ _ _ _ _ _ _ _ _ _ _
    have hgo4 : goodOut m d L (t.val + 4 - 4) (outChunk_lt L ⟨Nat.le_add_left 4 t.val, Nat.add_lt_add_right ht 4⟩) fo0' fo1' :=
      (goodOut_congr m d L (Nat.add_sub_cancel t.val 4) _ ht fo0' fo1').mpr hgo
    by_cases h6 : t.val + 4 < (k0_t1_loop L).trips
    · have k0_h6 : k0_cond6 L t = 1#1 := (cond6_iff L t).mpr h6
      have h6n : t.val + 4 < nW L := Nat.lt_of_lt_of_eq h6 (t1_trips L)
      sl_exec
      sl_step
      have eI4 : IdxSt m d L (t.val + 4)
          = IdxBusyAt m d L (k0_off7 L t) (k0_off7_inb L t) (k0_off5 L t) (k0_off5_inb L t) (k0_off147 L t) (k0_off147_inb L t k0_h6)
              (tokW L (t.val % 4) hsl) (goodIdx m d L (t.val + 4) h6n) := by
        unfold IdxSt; rw [dif_pos h6n, tokW_congr L (mod4_add4 t.val) (mod4_lt _) hsl]
        exact IdxBusyAt_congr m d L (off7_num L t).symm (off5_num L t).symm (off147_num L t).symm _ _ _ _ _ _ _ _
      rw [eI4, eO4, IdxBusyAt_def, OutBusyAt_def]
      isplitl [Hfl Hrest]
      · iexists _
        isplitl [Hfl]; · iexact Hfl
        isplitl [Hrest]; · iexact Hrest
        ipureintro
        sl_unfold_run_names
        exact fetched_good m d L (t.val + 4) h6n (k0_off5 L t) (k0_off5_inb L t) (off5_num L t) (k0_off147 L t) (k0_off147_inb L t k0_h6) (off147_num L t) fd
      isplitl [HB]
      · iexists fo0', fo1'
        isplitl [HB]; · iexact HB
        ipureintro; exact hgo4
      isplitl [Htv]; · iexact Htv
      rw [dif_pos h4]
      isplitl [Hd0 Hd1]
      · isplitl [Hd0]; · iexact Hd0
        iexact Hd1
      iexists _; isplitr
      rotate_left
      · iexact HO
      · ipureintro; exact waits_ins (waits_ins (waits_ins (waits_base W)))
    · have k0_h6 : ¬ k0_cond6 L t = 1#1 := fun h => h6 ((cond6_iff L t).mp h)
      have h6n : ¬ t.val + 4 < nW L := fun h => h6 (Nat.lt_of_lt_of_eq h (t1_trips L).symm)
      sl_exec
      sl_step
      have eI4 : IdxSt m d L (t.val + 4)
          = IdxIdleAt m d L (k0_off7 L t) (k0_off7_inb L t) (k0_off5 L t) (k0_off5_inb L t) (tokW L (t.val % 4) hsl) := by
        unfold IdxSt; rw [dif_neg h6n, tokW_congr L (mod4_add4 t.val) (mod4_lt _) hsl]
        exact IdxIdleAt_congr m d L (off7_num L t).symm (off5_num L t).symm _ _ _ _ _
      rw [eI4, eO4, IdxIdleAt_def, OutBusyAt_def]
      isplitl [Hfl Hiv Hrest]
      · isplitl [Hfl]; · iexact Hfl
        isplitl [Hiv]; · iexists _; iexact Hiv
        iexact Hrest
      isplitl [HB]
      · iexists fo0', fo1'
        isplitl [HB]; · iexact HB
        ipureintro; exact hgo4
      isplitl [Htv]; · iexact Htv
      rw [dif_pos h4]
      isplitl [Hd0 Hd1]
      · isplitl [Hd0]; · iexact Hd0
        iexact Hd1
      iexists _; isplitr
      rotate_left
      · iexact HO
      · ipureintro; exact waits_ins (waits_ins (waits_ins (waits_base W)))
  · have k0_h5 : ¬ k0_cond5 L t = 1#1 := fun h => h4 ((cond5_iff L t).mp h)
    have hb : ¬ (4 ≤ t.val ∧ t.val < nW L + 4) := fun h => h4 h.1
    have eOut : OutSt m d L t.val
        = OutIdleAt (F := F) d L (k0_off7 L t) (k0_off7_inb L t) (k0_off142 L t) (k0_off142_inb L t) (k0_off144 L t) (k0_off144_inb L t) := by
      unfold OutSt; rw [dif_neg hb]
      exact OutIdleAt_congr d L (k0_off7_eq L t).symm (k0_off142_eq L t).symm (k0_off144_eq L t).symm _ _ _ _ _ _
    ihave HOu := (Entails.of_eq (eOut.trans (OutIdleAt_def d L _ _ _ _ _ _))) $$ HOu
    icases HOu with ⟨HB, ⟨%fo0, HB_src0⟩, ⟨%fo1, HB_src1⟩⟩
    sl_unfold [k0_t1_body]
    sl_unfold [k0_part30]
    sl_exec
    rw [wp_bind, wp_bind]
    iapply (wp_wand_r frame _ Set.univ (Q := fun _ => iprop(∃ fo0' fo1' : Buf (Elt F) (ovM.view.loc (thrOf d L)),
            (tvM.view.loc (thrOf d L) ↦{fullShare} ftv)
            ∗ ((ivSlot (k0_off5 L t) (k0_off5_inb L t)).view.loc (thrOf d L) ↦[(ivSlot (k0_off5 L t) (k0_off5_inb L t)).view.set]{fullShare} fd)
            ∗ ((ovSlot (k0_off142 L t) (k0_off142_inb L t)).view.loc (thrOf d L) ↦[(ovSlot (k0_off142 L t) (k0_off142_inb L t)).view.set]{fullShare} fo0')
            ∗ ((ovSlot (k0_off144 L t) (k0_off144_inb L t)).view.loc (thrOf d L) ↦[(ovSlot (k0_off144 L t) (k0_off144_inb L t)).view.set]{fullShare} fo1')
            ∗ ⌜InnerVal d L t ftv fd fo0' fo1'⌝)))
    isplitl [Htv Hfl_dst HB_src0 HB_src1]
    · iapply (hin t v4 _ ftv fd fo0 fo1 hrange)
      isplitl [Htv]; · iexact Htv
      isplitl [Hfl_dst]; · iexact Hfl_dst
      isplitl [HB_src0]; · iexact HB_src0
      iexact HB_src1
    iintro %_ ⟨%fo0', %fo1', Htv, Hiv, Ho0, Ho1, %hval⟩
    have hgo : goodOut m d L t.val ht fo0' fo1' := goodOut_of_inner m d L hpre t ftv htv fd hfd fo0' fo1' hval
    imod (Transfers.batch_alloc' (Lvl := ℕ) countersEmb (thrOf d L) (default : HIx 1)
        ((outChunk (k0_off143 L t) (k0_off143_inb L t)).view.amount (SemLoc.dma (sig := sig) (osemAt (k0_off7 L t) (k0_off7_inb L t)).sem))
        (pair2 (delivO d L (ovSlot (k0_off142 L t) (k0_off142_inb L t)) (outChunk (k0_off143 L t) (k0_off143_inb L t)) fo0' (foutB m d L))
          (delivO d L (ovSlot (k0_off144 L t) (k0_off144_inb L t)) (outChunk (k0_off145 L t) (k0_off145_inb L t)) fo1' (foutB m d L)))
        (sm := SemLoc.dma (osemAt (k0_off7 L t) (k0_off7_inb L t)).sem) (E := Set.univ)) $$ HB with HB
    have eO4 : OutSt m d L (t.val + 4)
        = OutBusyAt m d L (k0_off7 L t) (k0_off7_inb L t) (k0_off142 L t) (k0_off142_inb L t) (k0_off144 L t) (k0_off144_inb L t)
            (k0_off143 L t) (k0_off143_inb L t) (k0_off145 L t) (k0_off145_inb L t)
            (goodOut m d L (t.val + 4 - 4) (outChunk_lt L ⟨Nat.le_add_left 4 t.val, Nat.add_lt_add_right ht 4⟩)) := by
      unfold OutSt; rw [dif_pos (⟨Nat.le_add_left 4 t.val, Nat.add_lt_add_right ht 4⟩ : 4 ≤ t.val + 4 ∧ t.val + 4 < nW L + 4)]
      exact OutBusyAt_congr m d L (off7_num L t).symm (off142_num L t).symm (off144_num L t).symm (off143_num L t).symm (off145_num L t).symm _ _ _ _ _ _ _ _ _ _ _
    have hgo4 : goodOut m d L (t.val + 4 - 4) (outChunk_lt L ⟨Nat.le_add_left 4 t.val, Nat.add_lt_add_right ht 4⟩) fo0' fo1' :=
      (goodOut_congr m d L (Nat.add_sub_cancel t.val 4) _ ht fo0' fo1').mpr hgo
    by_cases h6 : t.val + 4 < (k0_t1_loop L).trips
    · have k0_h6 : k0_cond6 L t = 1#1 := (cond6_iff L t).mpr h6
      have h6n : t.val + 4 < nW L := Nat.lt_of_lt_of_eq h6 (t1_trips L)
      sl_exec
      sl_step
      have eI4 : IdxSt m d L (t.val + 4)
          = IdxBusyAt m d L (k0_off7 L t) (k0_off7_inb L t) (k0_off5 L t) (k0_off5_inb L t) (k0_off147 L t) (k0_off147_inb L t k0_h6)
              (tokW L (t.val % 4) hsl) (goodIdx m d L (t.val + 4) h6n) := by
        unfold IdxSt; rw [dif_pos h6n, tokW_congr L (mod4_add4 t.val) (mod4_lt _) hsl]
        exact IdxBusyAt_congr m d L (off7_num L t).symm (off5_num L t).symm (off147_num L t).symm _ _ _ _ _ _ _ _
      rw [eI4, eO4, IdxBusyAt_def, OutBusyAt_def]
      isplitl [Hfl Hrest]
      · iexists _
        isplitl [Hfl]; · iexact Hfl
        isplitl [Hrest]; · iexact Hrest
        ipureintro
        sl_unfold_run_names
        exact fetched_good m d L (t.val + 4) h6n (k0_off5 L t) (k0_off5_inb L t) (off5_num L t) (k0_off147 L t) (k0_off147_inb L t k0_h6) (off147_num L t) fd
      isplitl [HB]
      · iexists fo0', fo1'
        isplitl [HB]; · iexact HB
        ipureintro; exact hgo4
      isplitl [Htv]; · iexact Htv
      rw [dif_neg h4]
      isplitr; · iempintro
      iexists _; isplitr
      rotate_left
      · iexact HO
      · ipureintro; exact waits_ins (waits_base W)
    · have k0_h6 : ¬ k0_cond6 L t = 1#1 := fun h => h6 ((cond6_iff L t).mp h)
      have h6n : ¬ t.val + 4 < nW L := fun h => h6 (Nat.lt_of_lt_of_eq h (t1_trips L).symm)
      sl_exec
      sl_step
      have eI4 : IdxSt m d L (t.val + 4)
          = IdxIdleAt m d L (k0_off7 L t) (k0_off7_inb L t) (k0_off5 L t) (k0_off5_inb L t) (tokW L (t.val % 4) hsl) := by
        unfold IdxSt; rw [dif_neg h6n, tokW_congr L (mod4_add4 t.val) (mod4_lt _) hsl]
        exact IdxIdleAt_congr m d L (off7_num L t).symm (off5_num L t).symm _ _ _ _ _
      rw [eI4, eO4, IdxIdleAt_def, OutBusyAt_def]
      isplitl [Hfl Hiv Hrest]
      · isplitl [Hfl]; · iexact Hfl
        isplitl [Hiv]; · iexists _; iexact Hiv
        iexact Hrest
      isplitl [HB]
      · iexists fo0', fo1'
        isplitl [HB]; · iexact HB
        ipureintro; exact hgo4
      isplitl [Htv]; · iexact Htv
      rw [dif_neg h4]
      isplitr; · iempintro
      iexists _; isplitr
      rotate_left
      · iexact HO
      · ipureintro; exact waits_ins (waits_base W)

end Cert.Proof.KernelSc

end
-- ==== Proof.ScStartK.lean ====
import proofs.«202852_g34127810134284_cont_8to1_b_1476_20_alg».proof.Proof.ScTripK

/-!
# The ring at the start and at the end of the outer loop

Before the first trip the four slots are fetching the worker's first four chunks (every worker has at least
four) and no write-back is under way. After the last trip no fetch is under way, and slot `(n + k) % 4` is
writing back chunk `n - 4 + k`, for `k = 0 … 3`, `n` the worker's number of chunks.
-/

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

theorem four_le_nW : 4 ≤ nW L := Cert.TilePlan.four_le_nch (wOf L)

/-- The first four chunks' index offsets, as the start-up fetches spell them. -/
theorem off1_start : k0_off1 L = ![640 * (sW L + 0)] := by rw [k0_off1_eq]; congr 1; have := idx_off L 0; omega
theorem off2_start : k0_off2 L = ![640 * (sW L + 1)] := by rw [k0_off2_eq]; congr 1; have := idx_off L 1; omega
theorem off3_start : k0_off3 L = ![640 * (sW L + 2)] := by rw [k0_off3_eq]; congr 1; have := idx_off L 2; omega
theorem off4_start : k0_off4 L = ![640 * (sW L + 3)] := by rw [k0_off4_eq]; congr 1; have := idx_off L 3; omega

/-- Slot `p` before the first trip: fetching chunk `p`. -/
theorem idxSt_start (p : ℕ) (hp : p < 4)
    (hs : ∀ a, (![p] : Fin 1 → Nat) a + S1.size a ≤ S4.size a) (hv : ∀ a, (![p, 0] : Fin 2 → Nat) a + S1x640.size a ≤ S4x640.size a)
    (oc : Fin 1 → Nat) (hc : ∀ a, oc a + S640.size a ≤ S3200000.size a) (ec : oc = ![640 * (sW L + p)]) :
    IdxSt m d L p = IdxBusyAt m d L ![p] hs ![p, 0] hv oc hc (tokW L p hp) (goodIdx m d L p (Nat.lt_of_lt_of_le hp (four_le_nW L))) := by
  have e : p % 4 = p := Nat.mod_eq_of_lt hp
  unfold IdxSt; rw [dif_pos (Nat.lt_of_lt_of_le hp (four_le_nW L)), tokW_congr L e (mod4_lt p) hp]
  exact IdxBusyAt_congr m d L (by rw [e]) (by rw [e]) ec.symm _ _ _ _ _ _ _ _

/-- Slot `p` before the first trip: no write-back under way. -/
theorem outSt_start (p : ℕ) (hp : p < 4)
    (hs : ∀ a, (![p] : Fin 1 → Nat) a + S1.size a ≤ S4.size a)
    (h0 : ∀ a, (![p, 0, 0, 0, 0] : Fin 5 → Nat) a + S1x1x5x8x128.size a ≤ S4x2x5x8x128.size a)
    (h1 : ∀ a, (![p, 1, 0, 0, 0] : Fin 5 → Nat) a + S1x1x5x8x128.size a ≤ S4x2x5x8x128.size a) :
    OutSt m d L p = OutIdleAt (F := F) d L ![p] hs ![p, 0, 0, 0, 0] h0 ![p, 1, 0, 0, 0] h1 := by
  have e : p % 4 = p := Nat.mod_eq_of_lt hp
  have hb : ¬ (4 ≤ p ∧ p < nW L + 4) := fun h => absurd h.1 (Nat.not_le.mpr hp)
  unfold OutSt; rw [dif_neg hb]
  exact OutIdleAt_congr d L (by rw [e]) (by rw [e]) (by rw [e]) _ _ _ _ _ _

/-- Slot `(n + k) % 4` after the last trip: no fetch under way. -/
theorem idxSt_end (b : ℕ) (hb : nW L ≤ b) :
    IdxSt m d L b = IdxIdleAt m d L ![b % 4] (inb_sem (mod4_lt b)) ![b % 4, 0] (inb_iv (mod4_lt b)) (tokW L (b % 4) (mod4_lt b)) := by
  unfold IdxSt; rw [dif_neg (Nat.not_lt.mpr hb)]

/-- Slot `b % 4` after the last trip, `n ≤ b < n + 4`: writing back chunk `b - 4`, the cell as the final drain names it. -/
theorem outSt_end (b : ℕ) (hb : 4 ≤ b ∧ b < nW L + 4) (os : Fin 1 → Nat) (hs : ∀ a, os a + S1.size a ≤ S4.size a) (es : os = ![b % 4]) :
    OutSt m d L b
      = OutBusyAt m d L os hs ![b % 4, 0, 0, 0, 0] (inb_ov (mod4_lt b) (by decide)) ![b % 4, 1, 0, 0, 0] (inb_ov (mod4_lt b) (by decide))
          ![0, 5 * (sW L + (b - 4)), 0, 0] (inb_out (by decide) (chunkW_lt L (outChunk_lt L hb)))
          ![1, 5 * (sW L + (b - 4)), 0, 0] (inb_out (by decide) (chunkW_lt L (outChunk_lt L hb)))
          (goodOut m d L (b - 4) (outChunk_lt L hb)) := by
  unfold OutSt; rw [dif_pos hb]
  exact OutBusyAt_congr m d L es.symm rfl rfl rfl rfl _ _ _ _ _ _ _ _ _ _ _

/-- The slot the `k`-th final drain works in is slot `(n + k) % 4`. -/
theorem drain_slot (k : ℕ) : ((if 2 * (L 1).val + (L 0).val < 8 then 1 else 0) + (152 + k)) % 4 = (nW L + k) % 4 := by
  unfold nW Cert.TilePlan.nch wOf Cert.TilePlan.wid
  have : (L 0).val + 2 * (L 1).val = 2 * (L 1).val + (L 0).val := by omega
  split <;> omega

end Cert.Proof.KernelSc

end
-- ==== Proof.ScDrainK.lean ====
import proofs.«202852_g34127810134284_cont_8to1_b_1476_20_alg».proof.Proof.ScStartK

/-!
# The last four write-backs, as the final drains spell them

After the last trip, `n` the worker's number of chunks, slot `(n + k) % 4` is writing back chunk `n + k - 4`, for
`k = 0 … 3`. The program spells that slot's number `(s + (152 + k)) % 4`, `s` the worker's extra chunk; these are
the same number. Here the ring's state at `b = n + k` is restated over the offset vectors of the drain that
awaits it, and a drained slot is restated by its number.
-/

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-- Chunk `b - 4` is one of the worker's when `b = n + k`, `k < 4`. -/
theorem drain_bounds (b k : ℕ) (hb : b = nW L + k) (hk : k < 4) : 4 ≤ b ∧ b < nW L + 4 := by
  have := four_le_nW L; omega

/-- A one-word offset spelt `(s + c) % 4` with `c = 152 + k` is slot `(n + k) % 4`. -/
theorem drain_sem (b k c : ℕ) (hb : b = nW L + k) (hc : c = 152 + k) (os : Fin 1 → Nat)
    (e : os = ![((if 2 * (L 1).val + (L 0).val < 8 then 1 else 0) + c) % 4]) : os = ![b % 4] := by
  subst hb hc; rw [e, drain_slot L k]

/-- The same for a half of the slot in the output scratch. -/
theorem drain_half (b k c h : ℕ) (hb : b = nW L + k) (hc : c = 152 + k) (o : Fin 5 → Nat)
    (e : o = ![((if 2 * (L 1).val + (L 0).val < 8 then 1 else 0) + c) % 4, h, 0, 0, 0]) : o = ![b % 4, h, 0, 0, 0] := by
  subst hb hc; rw [e, drain_slot L k]

/-- Chunk `b - 4` was computed in the slot chunk `b` would use. -/
theorem drain_half_back (b h : ℕ) (h4 : 4 ≤ b) (o : Fin 5 → Nat) (e : o = ![b % 4, h, 0, 0, 0]) : o = ![(b - 4) % 4, h, 0, 0, 0] := by
  have e4 : (b - 4) % 4 = b % 4 := by omega
  rw [e, e4]

/-- The rows of the result the `k`-th final drain names, spelt `… + c` with `c = 760 + 5 k`, are chunk `n + k - 4`'s. -/
theorem drain_row (b k c h : ℕ) (hb : b = nW L + k) (hc : c = 760 + 5 * k) (o : Fin 4 → Nat)
    (e : o = ![h, 1560 * (L 1).val + 780 * (L 0).val + 5 * (min (2 * (L 1).val + (L 0).val) 8)
                + 5 * (if 2 * (L 1).val + (L 0).val < 8 then 1 else 0) + c, 0, 0]) :
    o = ![h, 5 * (sW L + (b - 4)), 0, 0] := by
  have key : 1560 * (L 1).val + 780 * (L 0).val + 5 * (min (2 * (L 1).val + (L 0).val) 8)
      + 5 * (if 2 * (L 1).val + (L 0).val < 8 then 1 else 0) + c = 5 * (sW L + (b - 4)) := by
    subst hb hc
    unfold sW nW Cert.TilePlan.start Cert.TilePlan.nch wOf Cert.TilePlan.wid
    by_cases hw : 2 * (L 1).val + (L 0).val < 8 <;> simp only [hw, ↓reduceIte] <;> omega
  rw [e, key]

/-- The output side of slot `b % 4` after the last trip, over the offset vectors of the drain that awaits it. -/
theorem outSt_drain (b : ℕ) (hb : 4 ≤ b ∧ b < nW L + 4)
    (os : Fin 1 → Nat) (hs : ∀ a, os a + S1.size a ≤ S4.size a) (es : os = ![b % 4])
    (o0 : Fin 5 → Nat) (h0 : ∀ a, o0 a + S1x1x5x8x128.size a ≤ S4x2x5x8x128.size a) (e0 : o0 = ![b % 4, 0, 0, 0, 0])
    (o1 : Fin 5 → Nat) (h1 : ∀ a, o1 a + S1x1x5x8x128.size a ≤ S4x2x5x8x128.size a) (e1 : o1 = ![b % 4, 1, 0, 0, 0])
    (c0 : Fin 4 → Nat) (g0 : ∀ a, c0 a + S1x5x8x128.size a ≤ S2x25000x8x128.size a) (ec0 : c0 = ![0, 5 * (sW L + (b - 4)), 0, 0])
    (c1 : Fin 4 → Nat) (g1 : ∀ a, c1 a + S1x5x8x128.size a ≤ S2x25000x8x128.size a) (ec1 : c1 = ![1, 5 * (sW L + (b - 4)), 0, 0]) :
    OutSt m d L b
      = OutBusyAt m d L os hs o0 h0 o1 h1 c0 g0 c1 g1 (goodOut m d L (b - 4) (outChunk_lt L hb)) := by
  unfold OutSt; rw [dif_pos hb]
  exact OutBusyAt_congr m d L es.symm e0.symm e1.symm ec0.symm ec1.symm _ _ _ _ _ _ _ _ _ _ _

/-- The two halves of a chunk, landed where the drain names them, hold the result's final contents there. -/
theorem landed_drain (c : ℕ) (hc : c < nW L)
    (o0 : Fin 5 → Nat) (h0 : ∀ a, o0 a + S1x1x5x8x128.size a ≤ S4x2x5x8x128.size a) (e0 : o0 = ![c % 4, 0, 0, 0, 0])
    (o1 : Fin 5 → Nat) (h1 : ∀ a, o1 a + S1x1x5x8x128.size a ≤ S4x2x5x8x128.size a) (e1 : o1 = ![c % 4, 1, 0, 0, 0])
    (c0 : Fin 4 → Nat) (g0 : ∀ a, c0 a + S1x5x8x128.size a ≤ S2x25000x8x128.size a) (ec0 : c0 = ![0, 5 * (sW L + c), 0, 0])
    (c1 : Fin 4 → Nat) (g1 : ∀ a, c1 a + S1x5x8x128.size a ≤ S2x25000x8x128.size a) (ec1 : c1 = ![1, 5 * (sW L + c), 0, 0])
    (fo0 fo1 : Buf (Elt F) (ovM.view.loc (thrOf d L))) (hfo : goodOut m d L c hc fo0 fo1) :
    (OutPieceAt d L c0 g0 (landedO d L (ovSlot o0 h0) (outChunk c0 g0) fo0 (foutB m d L))
      = OutPieceAt d L ![0, 5 * (sW L + c), 0, 0] (inb_out Nat.zero_lt_two (chunkW_lt L hc)) (goutB m d L))
    ∧ (OutPieceAt d L c1 g1 (landedO d L (ovSlot o1 h1) (outChunk c1 g1) fo1 (foutB m d L))
      = OutPieceAt d L ![1, 5 * (sW L + c), 0, 0] (inb_out Nat.one_lt_two (chunkW_lt L hc)) (goutB m d L)) := by
  subst ec0 ec1
  exact landed_gout m d L c hc o0 h0 e0 o1 h1 e1 fo0 fo1 hfo

/-- A drained slot, by its number: its semaphore at zero and its two halves free. -/
theorem outIdle_drain (p : ℕ) (hp : p < 4)
    (os : Fin 1 → Nat) (hs : ∀ a, os a + S1.size a ≤ S4.size a) (es : os = ![p])
    (o0 : Fin 5 → Nat) (h0 : ∀ a, o0 a + S1x1x5x8x128.size a ≤ S4x2x5x8x128.size a) (e0 : o0 = ![p, 0, 0, 0, 0])
    (o1 : Fin 5 → Nat) (h1 : ∀ a, o1 a + S1x1x5x8x128.size a ≤ S4x2x5x8x128.size a) (e1 : o1 = ![p, 1, 0, 0, 0]) :
    (iprop(semVal (thrOf d L, SemLoc.dma (osemAt os hs).sem) 0
        ∗ (∃ f, (ovSlot o0 h0).view.loc (thrOf d L) ↦[(ovSlot o0 h0).view.set]{fullShare} f)
        ∗ (∃ f, (ovSlot o1 h1).view.loc (thrOf d L) ↦[(ovSlot o1 h1).view.set]{fullShare} f)) : sProp 𝕄)
      = iprop(osem0 d L p hp ∗ ovFree d L p 0 hp (by decide) ∗ ovFree d L p 1 hp (by decide)) := by
  subst es e0 e1; rfl

/-- The index side of slot `p = b % 4` after the last trip, by its number: nothing under way. -/
theorem idxIdle_drain (b p : ℕ) (hb : nW L ≤ b) (hp : b % 4 = p) (hp4 : p < 4) :
    IdxSt m d L b
      = iprop(isem0 d L p hp4 ∗ ivFree d L p hp4 ∗ (idxM.view.loc (thrOf d L) ↦{tokW L p hp4} fiB m d L)) := by
  subst hp; rw [idxSt_end m d L b hb]; rfl

end Cert.Proof.KernelSc

end
-- ==== Proof.ScChunksK.lean ====
/-
  The worker's chunks of the result across its outer loop.

  Before trip `t` the chunks `t, t + 1, …` have not been computed and are still at the launch contents (`Home`); the
  chunks `b` with `b + 4 < t` have been written back and their write-backs awaited, and hold the lookup's values
  (`Done`). Both are families over a set of chunks cut off by a threshold, so one step of the threshold takes one
  chunk out or puts one in; at the two ends they are nothing, or all the worker's chunks.
-/
import proofs.«202852_g34127810134284_cont_8to1_b_1476_20_alg».proof.Proof.ScRingK
import proofs.«202852_g34127810134284_cont_8to1_b_1476_20_alg».proof.Proof.ScPlumbK

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

/-- All the worker's chunks, both halves of each, are its part of the result chunk by chunk and half by half. -/
theorem outBoth_all (f : Buf (Elt F) (outLoc d)) :
    (bigSep Finset.univ fun b : Fin (nW L) => outBoth d L f b) = (outPieces d L f : sProp 𝕄) :=
  bigSep_congr fun b _ => (bigSep_fin2' (F := F) (fun h : Fin 2 => outPiece d L f b h)).symm

/-! ## The chunks not yet computed -/

theorem home_zero : (Home m d L 0 : sProp 𝕄) = outPieces d L (m (outLoc d)) := by
  unfold Home
  rw [Finset.filter_true_of_mem (fun b _ => Nat.zero_le b.val)]
  exact outBoth_all d L (m (outLoc d))

theorem home_succ (t : ℕ) (ht : t < nW L) :
    (Home m d L t : sProp 𝕄) = iprop(outBoth d L (m (outLoc d)) ⟨t, ht⟩ ∗ Home m d L (t + 1)) := by
  unfold Home
  rw [show (Finset.univ.filter fun b : Fin (nW L) => t ≤ b.val) = insert ⟨t, ht⟩ (Finset.univ.filter fun b : Fin (nW L) => t + 1 ≤ b.val) from by
      ext b
      simp only [Finset.mem_filter, Finset.mem_univ, true_and, Finset.mem_insert, Fin.ext_iff]
      omega,
    SparseCore.bigSep_insert' (by simp only [Finset.mem_filter, Finset.mem_univ, true_and]; omega)]

theorem home_end (t : ℕ) (ht : nW L ≤ t) : (Home m d L t : sProp 𝕄) = iprop(emp) := by
  unfold Home
  rw [show (Finset.univ.filter fun b : Fin (nW L) => t ≤ b.val) = ∅ from by
    ext b
    have := b.isLt
    simp only [Finset.mem_filter, Finset.mem_univ, true_and, Finset.notMem_empty, iff_false]
    omega]
  rfl

/-! ## The chunks written back and awaited -/

theorem done_low (t : ℕ) (ht : t ≤ 4) : (Done m d L t : sProp 𝕄) = iprop(emp) := by
  unfold Done
  rw [show (Finset.univ.filter fun b : Fin (nW L) => b.val + 4 < t) = ∅ from by
    ext b
    simp only [Finset.mem_filter, Finset.mem_univ, true_and, Finset.notMem_empty, iff_false]
    omega]
  rfl

theorem done_succ (t : ℕ) (h4 : 4 ≤ t) (ht : t - 4 < nW L) :
    (Done m d L (t + 1) : sProp 𝕄) = iprop(outBoth d L (goutB m d L) ⟨t - 4, ht⟩ ∗ Done m d L t) := by
  unfold Done
  rw [show (Finset.univ.filter fun b : Fin (nW L) => b.val + 4 < t + 1) = insert ⟨t - 4, ht⟩ (Finset.univ.filter fun b : Fin (nW L) => b.val + 4 < t) from by
      ext b
      simp only [Finset.mem_filter, Finset.mem_univ, true_and, Finset.mem_insert, Fin.ext_iff]
      omega,
    SparseCore.bigSep_insert' (by simp only [Finset.mem_filter, Finset.mem_univ, true_and]; omega)]

theorem done_all (t : ℕ) (ht : nW L + 4 ≤ t) : (Done m d L t : sProp 𝕄) = outPieces d L (goutB m d L) := by
  unfold Done
  rw [Finset.filter_true_of_mem (fun b _ => by have := b.isLt; omega)]
  exact outBoth_all d L (goutB m d L)

end Cert.Proof.KernelSc

end
-- ==== Proof.ScCoreK.lean ====
import proofs.«202852_g34127810134284_cont_8to1_b_1476_20_alg».proof.Proof.ScDrainK
import proofs.«202852_g34127810134284_cont_8to1_b_1476_20_alg».proof.Proof.ScChunksK

/-!
# The tile program, run

Before the loop the tile copies the replicated table into its table scratch and starts the index fetches of its
first four chunks, one per slot. The outer loop then runs one trip per chunk, the ring stepping from chunk to
chunk; the loop printed after it never runs; the four final drains await the write-backs of the last four
chunks. At the end every chunk of the worker holds the lookup's values, every slot is free, and every semaphore
is back at zero.
-/

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD) (L : grid0.Coords)

/-- The ring before trip `k`: the four slots by the chunks `k … k + 3` they next serve, the table scratch holding
    the replicated table, the chunks not yet computed and the chunks finished, and what the tile owes. -/
def RingInv (O : CellTallies nD τ sig (HIx 1)) (W : Waits sig (HIx 1)) (k : ℕ) (_ : PUnit) : sProp 𝕄 :=
  iprop(Transfers.MayWaits (thrOf d L) (none : HIx 1) O
    ∗ (IdxSt m d L k ∗ IdxSt m d L (k + 1) ∗ IdxSt m d L (k + 2) ∗ IdxSt m d L (k + 3))
    ∗ (OutSt m d L k ∗ OutSt m d L (k + 1) ∗ OutSt m d L (k + 2) ∗ OutSt m d L (k + 3))
    ∗ (∃ ftv, (tvM.view.loc (thrOf d L) ↦{fullShare} ftv) ∗ ⌜goodTv m d L ftv⌝)
    ∗ Home m d L k ∗ Done m d L k
    ∗ ∃ W', ⌜∀ p ∈ W', p ∈ W ∨ p.2 = none⌝ ∗ owes (thrOf d L) O W')

/-- The post of one trip (as `trip_step` states it), named. -/
abbrev TripPost (O : CellTallies nD τ sig (HIx 1)) (W : Waits sig (HIx 1)) (ftv : Buf (Elt F) (tvM.view.loc (thrOf d L)))
    (t : Fin (k0_t1_loop L).trips) : sProp 𝕄 :=
  iprop(IdxSt m d L (t.val + 4) ∗ OutSt m d L (t.val + 4)
    ∗ (tvM.view.loc (thrOf d L) ↦{fullShare} ftv)
    ∗ (if h : 4 ≤ t.val then outBoth d L (goutB m d L) ⟨t.val - 4, by have := trip_lt L t; omega⟩ else iprop(emp))
    ∗ ∃ W', ⌜∀ p ∈ W', p ∈ W ∨ p.2 = none⌝ ∗ owes (thrOf d L) O W')

theorem waits_trans {W W' W'' : Waits sig (HIx 1)} (h1 : ∀ p ∈ W', p ∈ W ∨ p.2 = none) (h2 : ∀ p ∈ W'', p ∈ W' ∨ p.2 = none) :
    ∀ p ∈ W'', p ∈ W ∨ p.2 = none := fun p hp => (h2 p hp).elim (h1 p) .inr

set_option maxHeartbeats 8000000 in
/-- The tile program from what the tile holds before it to what it holds after it. -/
theorem tile_core (hin : InnerSpec (F := F) d L) (hpre : ∀ i, (fiB m d L i).toNat < 100)
    (O : CellTallies nD τ sig (HIx 1)) (W : Waits sig (HIx 1)) (rest : sProp 𝕄) (hO : ∀ g, O g none = 0) :
    iprop(Transfers.MayWaits (thrOf d L) (none : HIx 1) O ∗ TileIn m d L rest ∗ owes (thrOf d L) O W)
      ⊢ wp frame (wpE (defs₀ (F := F)) 𝒱₀ (thrOf d L) none) Set.univ
          (cc0__emb_lookup L idxM (Memref.isWhole_whole _) tabM (Memref.isWhole_whole _) outM (Memref.isWhole_whole _)
            tvM (Memref.isWhole_whole _) ivM (Memref.isWhole_whole _) ovM (Memref.isWhole_whole _) cc0_scratch3 cc0_scratch4 cc0_scoped0)
          fun _ => iprop(TileOut m d L rest ∗ ∃ W', ⌜∀ p ∈ W', p ∈ W ∨ p.2 = none⌝ ∗ owes (thrOf d L) O W') := by
  have k0_h1 : k0_cond1 L = 1#1 := cond1 L
  have k0_h2 : k0_cond2 L = 1#1 := cond2 L
  have k0_h3 : k0_cond3 L = 1#1 := cond3 L
  have k0_h4 : k0_cond4 L = 1#1 := cond4 L
  have k0_h9 : k0_cond9 L = 1#1 := cond9 L
  have k0_h10 : k0_cond10 L = 1#1 := cond10 L
  have k0_h11 : k0_cond11 L = 1#1 := cond11 L
  have k0_h12 : k0_cond12 L = 1#1 := cond12 L
  have hn := t1_trips L
  have hn4 := four_le_nW L
  unfold TileIn tileArrays tileScratch
  iintro ⟨#Hmw, ⟨⟨⟨Hk0, Hk1, Hk2, Hk3⟩, Ht, Hout⟩, ⟨%ftv0, Htv⟩, ⟨⟨%fv0, Hv0⟩, ⟨%fv1, Hv1⟩, ⟨%fv2, Hv2⟩, ⟨%fv3, Hv3⟩⟩,
    ⟨⟨Hov00, Hov01⟩, ⟨Hov10, Hov11⟩, ⟨Hov20, Hov21⟩, ⟨Hov30, Hov31⟩⟩, Hs0, ⟨Hi0, Hi1, Hi2, Hi3⟩, ⟨Hq0, Hq1, Hq2, Hq3⟩, Hrest⟩, HO⟩
  sl_unfold [cc0__emb_lookup]
  sl_exec
  -- the outer loop, at the ring's invariant
  sl_for (RingInv m d L O W) $$ [Hi0 Hk0 Hi1 Hk1 Hi2 Hk2 Hi3 Hk3 Hq0 Hq1 Hq2 Hq3 Hov00 Hov01 Hov10 Hov11 Hov20 Hov21 Hov30 Hov31 Htv Hout HO]
  case region =>
    intro k _
    have hk := trip_lt L k
    unfold RingInv
    rw [home_succ m d L k.val hk]
    iintro ⟨#Hmw, ⟨HI0, HI1, HI2, HI3⟩, ⟨HO0, HO1, HO2, HO3⟩, ⟨%ftv, Htv, %htv⟩, ⟨Hpc, Hhome⟩, Hdone, %W', %hW', HO⟩
    iapply (wp_wand_r frame _ Set.univ (Q := fun _ => TripPost m d L O W' ftv k))
    isplitl [HI0 HO0 Htv Hpc HO]
    · iapply (trip_step m d L hin hpre O W' k _ _ rfl ftv htv)
      isplitr; · iexact Hmw
      isplitl [HI0]; · iexact HI0
      isplitl [HO0]; · iexact HO0
      isplitl [Htv]; · iexact Htv
      isplitl [Hpc]; · iexact Hpc
      iexact HO
    iintro %_ ⟨HI4, HO4, Htv, Hd, %W'', %hW'', HO⟩
    rw [show k.val + 1 + 1 = k.val + 2 from rfl, show k.val + 1 + 2 = k.val + 3 from rfl, show k.val + 1 + 3 = k.val + 4 from rfl]
    isplitr; · iexact Hmw
    isplitl [HI1 HI2 HI3 HI4]
    · isplitl [HI1]; · iexact HI1
      isplitl [HI2]; · iexact HI2
      isplitl [HI3]; · iexact HI3
      iexact HI4
    isplitl [HO1 HO2 HO3 HO4]
    · isplitl [HO1]; · iexact HO1
      isplitl [HO2]; · iexact HO2
      isplitl [HO3]; · iexact HO3
      iexact HO4
    isplitl [Htv]
    · iexists ftv
      isplitl [Htv]; · iexact Htv
      ipureintro; exact htv
    isplitl [Hhome]; · iexact Hhome
    isplitl [Hdone Hd]
    · by_cases h4 : 4 ≤ k.val
      · rw [done_succ m d L k.val h4 (by omega)]
        ihave Hd := (Entails.of_eq (dif_pos h4)) $$ Hd
        isplitl [Hd]; · iexact Hd
        iexact Hdone
      · rw [done_low m d L (k.val + 1) (by omega)]
        iempintro
    iexists W''; isplitr
    · ipureintro; exact waits_trans hW' hW''
    · iexact HO
  · -- the ring before the first trip
    unfold RingInv
    isplitr; · iexact Hmw
    isplitl [Hi0 Hk0 Hi1 Hk1 Hi2 Hk2 Hi3 Hk3]
    ·
      rw [show IdxSt m d L 0 = _ from idxSt_start m d L 0 (by decide) (inb_sem (by decide)) (inb_iv (by decide)) (k0_off1 L) (k0_off1_inb L k0_h1) (off1_start L), IdxBusyAt_def]
      isplitl [Hi0 Hk0]
      · iexists _
        isplitl [Hi0]; · iexact Hi0
        isplitl [Hk0]; · iexact Hk0
        ipureintro
        sl_unfold_run_names
        exact fetched_good m d L 0 _ ![0, 0] (inb_iv (by decide)) rfl (k0_off1 L) (k0_off1_inb L k0_h1) (off1_start L) fv0
      rw [show IdxSt m d L (0 + 1) = _ from idxSt_start m d L 1 (by decide) (inb_sem (by decide)) (inb_iv (by decide)) (k0_off2 L) (k0_off2_inb L k0_h2) (off2_start L), IdxBusyAt_def]
      isplitl [Hi1 Hk1]
      · iexists _
        isplitl [Hi1]; · iexact Hi1
        isplitl [Hk1]; · iexact Hk1
        ipureintro
        sl_unfold_run_names
        exact fetched_good m d L 1 _ ![1, 0] (inb_iv (by decide)) rfl (k0_off2 L) (k0_off2_inb L k0_h2) (off2_start L) fv1
      rw [show IdxSt m d L (0 + 2) = _ from idxSt_start m d L 2 (by decide) (inb_sem (by decide)) (inb_iv (by decide)) (k0_off3 L) (k0_off3_inb L k0_h3) (off3_start L), IdxBusyAt_def]
      isplitl [Hi2 Hk2]
      · iexists _
        isplitl [Hi2]; · iexact Hi2
        isplitl [Hk2]; · iexact Hk2
        ipureintro
        sl_unfold_run_names
        exact fetched_good m d L 2 _ ![2, 0] (inb_iv (by decide)) rfl (k0_off3 L) (k0_off3_inb L k0_h3) (off3_start L) fv2
      rw [show IdxSt m d L (0 + 3) = _ from idxSt_start m d L 3 (by decide) (inb_sem (by decide)) (inb_iv (by decide)) (k0_off4 L) (k0_off4_inb L k0_h4) (off4_start L), IdxBusyAt_def]
      iexists _
      isplitl [Hi3]; · iexact Hi3
      isplitl [Hk3]; · iexact Hk3
      ipureintro
      sl_unfold_run_names
      exact fetched_good m d L 3 _ ![3, 0] (inb_iv (by decide)) rfl (k0_off4 L) (k0_off4_inb L k0_h4) (off4_start L) fv3
    isplitl [Hq0 Hq1 Hq2 Hq3 Hov00 Hov01 Hov10 Hov11 Hov20 Hov21 Hov30 Hov31]
    ·
      rw [show OutSt m d L 0 = _ from outSt_start m d L 0 (by decide) (inb_sem (by decide)) (inb_ov (by decide) (by decide)) (inb_ov (by decide) (by decide)), OutIdleAt_def]
      isplitl [Hq0 Hov00 Hov01]
      · isplitl [Hq0]; · iexact Hq0
        isplitl [Hov00]; · iexact Hov00
        iexact Hov01
      rw [show OutSt m d L (0 + 1) = _ from outSt_start m d L 1 (by decide) (inb_sem (by decide)) (inb_ov (by decide) (by decide)) (inb_ov (by decide) (by decide)), OutIdleAt_def]
      isplitl [Hq1 Hov10 Hov11]
      · isplitl [Hq1]; · iexact Hq1
        isplitl [Hov10]; · iexact Hov10
        iexact Hov11
      rw [show OutSt m d L (0 + 2) = _ from outSt_start m d L 2 (by decide) (inb_sem (by decide)) (inb_ov (by decide) (by decide)) (inb_ov (by decide) (by decide)), OutIdleAt_def]
      isplitl [Hq2 Hov20 Hov21]
      · isplitl [Hq2]; · iexact Hq2
        isplitl [Hov20]; · iexact Hov20
        iexact Hov21
      rw [show OutSt m d L (0 + 3) = _ from outSt_start m d L 3 (by decide) (inb_sem (by decide)) (inb_ov (by decide) (by decide)) (inb_ov (by decide) (by decide)), OutIdleAt_def]
      isplitl [Hq3]; · iexact Hq3
      isplitl [Hov30]; · iexact Hov30
      iexact Hov31
    isplitl [Htv]
    · iexists _
      isplitl [Htv]; · iexact Htv
      ipureintro
      sl_unfold_run_names
      exact tv_good m d L ftv0 _
    isplitl [Hout]; · rw [home_zero m d L]; iexact Hout
    isplitr; · rw [done_low m d L 0 (by decide)]; iempintro
    iexists _; isplitr
    rotate_left
    · iexact HO
    · ipureintro; exact waits_ins (waits_base W)
  iintro %_ HI
  -- the number of trips is the worker's number of chunks `n`
  have eR : RingInv m d L O W (k0_t1_loop L).trips () = RingInv m d L O W (nW L) () :=
    congrArg (fun n => RingInv m d L O W n ()) (t1_trips L)
  ihave HI := (Entails.of_eq eR) $$ HI
  -- the loop printed after it has no trip
  sl_exec
  sl_for (fun (_ : ℕ) (_ : PUnit) => RingInv m d L O W (nW L) ()) $$ [HI]
  case region => intro k _; exact absurd (Nat.lt_of_lt_of_eq k.isLt (t3_trips L)) (Nat.not_lt_zero _)
  · iexact HI
  iintro %_ HI
  -- the ring after the last trip: the last four write-backs, each over the offset vectors of the drain that awaits it
  unfold RingInv
  icases HI with ⟨-, ⟨HI0, HI1, HI2, HI3⟩, ⟨HO0, HO1, HO2, HO3⟩, ⟨%ftv, Htv, -⟩, -, Hdone, %W', %hW', HO⟩
  have hb0 : 4 ≤ nW L ∧ nW L < nW L + 4 := drain_bounds L (nW L) 0 rfl (by decide)
  have es0 : k0_off295 L = ![nW L % 4] := drain_sem L (nW L) 0 152 rfl rfl _ (k0_off295_eq L)
  have ea0 : k0_off293 L = ![nW L % 4, 0, 0, 0, 0] := drain_half L (nW L) 0 152 0 rfl rfl _ (k0_off293_eq L)
  have eb0 : k0_off296 L = ![nW L % 4, 1, 0, 0, 0] := drain_half L (nW L) 0 152 1 rfl rfl _ (k0_off296_eq L)
  have ec00 : k0_off294 L = ![0, 5 * (sW L + ((nW L) - 4)), 0, 0] := drain_row L (nW L) 0 760 0 rfl rfl _ (k0_off294_eq L)
  have ec01 : k0_off297 L = ![1, 5 * (sW L + ((nW L) - 4)), 0, 0] := drain_row L (nW L) 0 760 1 rfl rfl _ (k0_off297_eq L)
  ihave HO0 := (Entails.of_eq ((outSt_drain m d L (nW L) hb0 (k0_off295 L) (k0_off295_inb L k0_h9) es0
      (k0_off293 L) (k0_off293_inb L k0_h9) ea0 (k0_off296 L) (k0_off296_inb L k0_h9) eb0
      (k0_off294 L) (k0_off294_inb L k0_h9) ec00 (k0_off297 L) (k0_off297_inb L k0_h9) ec01).trans
      (OutBusyAt_def m d L _ _ _ _ _ _ _ _ _ _ _))) $$ HO0
  icases HO0 with ⟨%fa0, %fb0, HB0, %hf0⟩
  set_option sl_exec.stopBefore "k0_cond10" in sl_exec
  have hb1 : 4 ≤ (nW L + 1) ∧ (nW L + 1) < nW L + 4 := drain_bounds L (nW L + 1) 1 rfl (by decide)
  have es1 : k0_off300 L = ![(nW L + 1) % 4] := drain_sem L (nW L + 1) 1 153 rfl rfl _ (k0_off300_eq L)
  have ea1 : k0_off298 L = ![(nW L + 1) % 4, 0, 0, 0, 0] := drain_half L (nW L + 1) 1 153 0 rfl rfl _ (k0_off298_eq L)
  have eb1 : k0_off301 L = ![(nW L + 1) % 4, 1, 0, 0, 0] := drain_half L (nW L + 1) 1 153 1 rfl rfl _ (k0_off301_eq L)
  have ec10 : k0_off299 L = ![0, 5 * (sW L + ((nW L + 1) - 4)), 0, 0] := drain_row L (nW L + 1) 1 765 0 rfl rfl _ (k0_off299_eq L)
  have ec11 : k0_off302 L = ![1, 5 * (sW L + ((nW L + 1) - 4)), 0, 0] := drain_row L (nW L + 1) 1 765 1 rfl rfl _ (k0_off302_eq L)
  ihave HO1 := (Entails.of_eq ((outSt_drain m d L (nW L + 1) hb1 (k0_off300 L) (k0_off300_inb L k0_h10) es1
      (k0_off298 L) (k0_off298_inb L k0_h10) ea1 (k0_off301 L) (k0_off301_inb L k0_h10) eb1
      (k0_off299 L) (k0_off299_inb L k0_h10) ec10 (k0_off302 L) (k0_off302_inb L k0_h10) ec11).trans
      (OutBusyAt_def m d L _ _ _ _ _ _ _ _ _ _ _))) $$ HO1
  icases HO1 with ⟨%fa1, %fb1, HB1, %hf1⟩
  set_option sl_exec.stopBefore "k0_cond11" in sl_exec
  have hb2 : 4 ≤ (nW L + 2) ∧ (nW L + 2) < nW L + 4 := drain_bounds L (nW L + 2) 2 rfl (by decide)
  have es2 : k0_off305 L = ![(nW L + 2) % 4] := drain_sem L (nW L + 2) 2 154 rfl rfl _ (k0_off305_eq L)
  have ea2 : k0_off303 L = ![(nW L + 2) % 4, 0, 0, 0, 0] := drain_half L (nW L + 2) 2 154 0 rfl rfl _ (k0_off303_eq L)
  have eb2 : k0_off306 L = ![(nW L + 2) % 4, 1, 0, 0, 0] := drain_half L (nW L + 2) 2 154 1 rfl rfl _ (k0_off306_eq L)
  have ec20 : k0_off304 L = ![0, 5 * (sW L + ((nW L + 2) - 4)), 0, 0] := drain_row L (nW L + 2) 2 770 0 rfl rfl _ (k0_off304_eq L)
  have ec21 : k0_off307 L = ![1, 5 * (sW L + ((nW L + 2) - 4)), 0, 0] := drain_row L (nW L + 2) 2 770 1 rfl rfl _ (k0_off307_eq L)
  ihave HO2 := (Entails.of_eq ((outSt_drain m d L (nW L + 2) hb2 (k0_off305 L) (k0_off305_inb L k0_h11) es2
      (k0_off303 L) (k0_off303_inb L k0_h11) ea2 (k0_off306 L) (k0_off306_inb L k0_h11) eb2
      (k0_off304 L) (k0_off304_inb L k0_h11) ec20 (k0_off307 L) (k0_off307_inb L k0_h11) ec21).trans
      (OutBusyAt_def m d L _ _ _ _ _ _ _ _ _ _ _))) $$ HO2
  icases HO2 with ⟨%fa2, %fb2, HB2, %hf2⟩
  set_option sl_exec.stopBefore "k0_cond12" in sl_exec
  have hb3 : 4 ≤ (nW L + 3) ∧ (nW L + 3) < nW L + 4 := drain_bounds L (nW L + 3) 3 rfl (by decide)
  have es3 : k0_off310 L = ![(nW L + 3) % 4] := drain_sem L (nW L + 3) 3 155 rfl rfl _ (k0_off310_eq L)
  have ea3 : k0_off308 L = ![(nW L + 3) % 4, 0, 0, 0, 0] := drain_half L (nW L + 3) 3 155 0 rfl rfl _ (k0_off308_eq L)
  have eb3 : k0_off311 L = ![(nW L + 3) % 4, 1, 0, 0, 0] := drain_half L (nW L + 3) 3 155 1 rfl rfl _ (k0_off311_eq L)
  have ec30 : k0_off309 L = ![0, 5 * (sW L + ((nW L + 3) - 4)), 0, 0] := drain_row L (nW L + 3) 3 775 0 rfl rfl _ (k0_off309_eq L)
  have ec31 : k0_off312 L = ![1, 5 * (sW L + ((nW L + 3) - 4)), 0, 0] := drain_row L (nW L + 3) 3 775 1 rfl rfl _ (k0_off312_eq L)
  ihave HO3 := (Entails.of_eq ((outSt_drain m d L (nW L + 3) hb3 (k0_off310 L) (k0_off310_inb L k0_h12) es3
      (k0_off308 L) (k0_off308_inb L k0_h12) ea3 (k0_off311 L) (k0_off311_inb L k0_h12) eb3
      (k0_off309 L) (k0_off309_inb L k0_h12) ec30 (k0_off312 L) (k0_off312_inb L k0_h12) ec31).trans
      (OutBusyAt_def m d L _ _ _ _ _ _ _ _ _ _ _))) $$ HO3
  icases HO3 with ⟨%fa3, %fb3, HB3, %hf3⟩
  sl_exec
  sl_step
  -- the last four chunks have landed: they hold the result's final contents
  have hl0 := landed_drain m d L (nW L - 4) (outChunk_lt L hb0) (k0_off293 L) (k0_off293_inb L k0_h9) (drain_half_back (nW L) 0 hb0.1 _ ea0)
    (k0_off296 L) (k0_off296_inb L k0_h9) (drain_half_back (nW L) 1 hb0.1 _ eb0)
    (k0_off294 L) (k0_off294_inb L k0_h9) ec00 (k0_off297 L) (k0_off297_inb L k0_h9) ec01 fa0 fb0 hf0
  ihave Hd00 := (Entails.of_eq (((OutPieceAt_def d L _ _ _).symm.trans hl0.1).trans (outPiece_at d L (goutB m d L) ⟨nW L - 4, outChunk_lt L hb0⟩ 0).symm)) $$ HB0_dst0
  ihave Hd01 := (Entails.of_eq (((OutPieceAt_def d L _ _ _).symm.trans hl0.2).trans (outPiece_at d L (goutB m d L) ⟨nW L - 4, outChunk_lt L hb0⟩ 1).symm)) $$ HB0_dst1
  have hl1 := landed_drain m d L ((nW L + 1) - 4) (outChunk_lt L hb1) (k0_off298 L) (k0_off298_inb L k0_h10) (drain_half_back (nW L + 1) 0 hb1.1 _ ea1)
    (k0_off301 L) (k0_off301_inb L k0_h10) (drain_half_back (nW L + 1) 1 hb1.1 _ eb1)
    (k0_off299 L) (k0_off299_inb L k0_h10) ec10 (k0_off302 L) (k0_off302_inb L k0_h10) ec11 fa1 fb1 hf1
  ihave Hd10 := (Entails.of_eq (((OutPieceAt_def d L _ _ _).symm.trans hl1.1).trans (outPiece_at d L (goutB m d L) ⟨(nW L + 1) - 4, outChunk_lt L hb1⟩ 0).symm)) $$ HB1_dst0
  ihave Hd11 := (Entails.of_eq (((OutPieceAt_def d L _ _ _).symm.trans hl1.2).trans (outPiece_at d L (goutB m d L) ⟨(nW L + 1) - 4, outChunk_lt L hb1⟩ 1).symm)) $$ HB1_dst1
  have hl2 := landed_drain m d L ((nW L + 2) - 4) (outChunk_lt L hb2) (k0_off303 L) (k0_off303_inb L k0_h11) (drain_half_back (nW L + 2) 0 hb2.1 _ ea2)
    (k0_off306 L) (k0_off306_inb L k0_h11) (drain_half_back (nW L + 2) 1 hb2.1 _ eb2)
    (k0_off304 L) (k0_off304_inb L k0_h11) ec20 (k0_off307 L) (k0_off307_inb L k0_h11) ec21 fa2 fb2 hf2
  ihave Hd20 := (Entails.of_eq (((OutPieceAt_def d L _ _ _).symm.trans hl2.1).trans (outPiece_at d L (goutB m d L) ⟨(nW L + 2) - 4, outChunk_lt L hb2⟩ 0).symm)) $$ HB2_dst0
  ihave Hd21 := (Entails.of_eq (((OutPieceAt_def d L _ _ _).symm.trans hl2.2).trans (outPiece_at d L (goutB m d L) ⟨(nW L + 2) - 4, outChunk_lt L hb2⟩ 1).symm)) $$ HB2_dst1
  have hl3 := landed_drain m d L ((nW L + 3) - 4) (outChunk_lt L hb3) (k0_off308 L) (k0_off308_inb L k0_h12) (drain_half_back (nW L + 3) 0 hb3.1 _ ea3)
    (k0_off311 L) (k0_off311_inb L k0_h12) (drain_half_back (nW L + 3) 1 hb3.1 _ eb3)
    (k0_off309 L) (k0_off309_inb L k0_h12) ec30 (k0_off312 L) (k0_off312_inb L k0_h12) ec31 fa3 fb3 hf3
  ihave Hd30 := (Entails.of_eq (((OutPieceAt_def d L _ _ _).symm.trans hl3.1).trans (outPiece_at d L (goutB m d L) ⟨(nW L + 3) - 4, outChunk_lt L hb3⟩ 0).symm)) $$ HB3_dst0
  ihave Hd31 := (Entails.of_eq (((OutPieceAt_def d L _ _ _).symm.trans hl3.2).trans (outPiece_at d L (goutB m d L) ⟨(nW L + 3) - 4, outChunk_lt L hb3⟩ 1).symm)) $$ HB3_dst1
  ihave HD := (Entails.of_eq (done_succ m d L (nW L) (by have := four_le_nW L; omega) (by have := four_le_nW L; omega)).symm) $$ [Hd00 Hd01 Hdone]
  · isplitl [Hd00 Hd01]
    · isplitl [Hd00]; · iexact Hd00
      iexact Hd01
    iexact Hdone
  ihave HD := (Entails.of_eq (done_succ m d L (nW L + 1) (by have := four_le_nW L; omega) (by have := four_le_nW L; omega)).symm) $$ [Hd10 Hd11 HD]
  · isplitl [Hd10 Hd11]
    · isplitl [Hd10]; · iexact Hd10
      iexact Hd11
    iexact HD
  ihave HD := (Entails.of_eq (done_succ m d L (nW L + 1 + 1) (by have := four_le_nW L; omega) (by have := four_le_nW L; omega)).symm) $$ [Hd20 Hd21 HD]
  · isplitl [Hd20 Hd21]
    · isplitl [Hd20]; · iexact Hd20
      iexact Hd21
    iexact HD
  ihave HD := (Entails.of_eq (done_succ m d L (nW L + 1 + 1 + 1) (by have := four_le_nW L; omega) (by have := four_le_nW L; omega)).symm) $$ [Hd30 Hd31 HD]
  · isplitl [Hd30 Hd31]
    · isplitl [Hd30]; · iexact Hd30
      iexact Hd31
    iexact HD
  ihave HD := (Entails.of_eq (done_all m d L (nW L + 1 + 1 + 1 + 1) (by omega))) $$ HD
  unfold TileOut tileArrays tileScratch
  by_cases hw : wOf L < 8
  · have hnW : nW L = 157 := by unfold nW Cert.TilePlan.nch; rw [if_pos hw]
    have hp0 : nW L % 4 = 1 := by omega
    ihave HI0 := (Entails.of_eq (idxIdle_drain m d L (nW L) 1 (by omega) hp0 (by decide))) $$ HI0
    icases HI0 with ⟨Hsem1, Hiv1, Htok1⟩
    ihave HX0 := (Entails.of_eq (outIdle_drain (F := F) d L 1 (by decide) (k0_off295 L) (k0_off295_inb L k0_h9) (es0.trans (by rw [hp0]))
        (k0_off293 L) (k0_off293_inb L k0_h9) (ea0.trans (by rw [hp0])) (k0_off296 L) (k0_off296_inb L k0_h9) (eb0.trans (by rw [hp0])))) $$ [HB0 HB0_src0 HB0_src1]
    · isplitl [HB0]; · iexact HB0
      isplitl [HB0_src0]; · iexists _; iexact HB0_src0
      iexists _; iexact HB0_src1
    icases HX0 with ⟨Hq1, Hov10, Hov11⟩
    have hp1 : (nW L + 1) % 4 = 2 := by omega
    ihave HI1 := (Entails.of_eq (idxIdle_drain m d L (nW L + 1) 2 (by omega) hp1 (by decide))) $$ HI1
    icases HI1 with ⟨Hsem2, Hiv2, Htok2⟩
    ihave HX1 := (Entails.of_eq (outIdle_drain (F := F) d L 2 (by decide) (k0_off300 L) (k0_off300_inb L k0_h10) (es1.trans (by rw [hp1]))
        (k0_off298 L) (k0_off298_inb L k0_h10) (ea1.trans (by rw [hp1])) (k0_off301 L) (k0_off301_inb L k0_h10) (eb1.trans (by rw [hp1])))) $$ [HB1 HB1_src0 HB1_src1]
    · isplitl [HB1]; · iexact HB1
      isplitl [HB1_src0]; · iexists _; iexact HB1_src0
      iexists _; iexact HB1_src1
    icases HX1 with ⟨Hq2, Hov20, Hov21⟩
    have hp2 : (nW L + 2) % 4 = 3 := by omega
    ihave HI2 := (Entails.of_eq (idxIdle_drain m d L (nW L + 2) 3 (by omega) hp2 (by decide))) $$ HI2
    icases HI2 with ⟨Hsem3, Hiv3, Htok3⟩
    ihave HX2 := (Entails.of_eq (outIdle_drain (F := F) d L 3 (by decide) (k0_off305 L) (k0_off305_inb L k0_h11) (es2.trans (by rw [hp2]))
        (k0_off303 L) (k0_off303_inb L k0_h11) (ea2.trans (by rw [hp2])) (k0_off306 L) (k0_off306_inb L k0_h11) (eb2.trans (by rw [hp2])))) $$ [HB2 HB2_src0 HB2_src1]
    · isplitl [HB2]; · iexact HB2
      isplitl [HB2_src0]; · iexists _; iexact HB2_src0
      iexists _; iexact HB2_src1
    icases HX2 with ⟨Hq3, Hov30, Hov31⟩
    have hp3 : (nW L + 3) % 4 = 0 := by omega
    ihave HI3 := (Entails.of_eq (idxIdle_drain m d L (nW L + 3) 0 (by omega) hp3 (by decide))) $$ HI3
    icases HI3 with ⟨Hsem0, Hiv0, Htok0⟩
    ihave HX3 := (Entails.of_eq (outIdle_drain (F := F) d L 0 (by decide) (k0_off310 L) (k0_off310_inb L k0_h12) (es3.trans (by rw [hp3]))
        (k0_off308 L) (k0_off308_inb L k0_h12) (ea3.trans (by rw [hp3])) (k0_off311 L) (k0_off311_inb L k0_h12) (eb3.trans (by rw [hp3])))) $$ [HB3 HB3_src0 HB3_src1]
    · isplitl [HB3]; · iexact HB3
      isplitl [HB3_src0]; · iexists _; iexact HB3_src0
      iexists _; iexact HB3_src1
    icases HX3 with ⟨Hq0, Hov00, Hov01⟩
    isplitr [HO]
    · isplitl [Htok0 Htok1 Htok2 Htok3 Ht HD]
      · isplitl [Htok0 Htok1 Htok2 Htok3]
        · isplitl [Htok0]; · iexact Htok0
          isplitl [Htok1]; · iexact Htok1
          isplitl [Htok2]; · iexact Htok2
          iexact Htok3
        isplitl [Ht]; · iexact Ht
        iexact HD
      isplitl [Htv]; · iexists _; iexact Htv
      isplitl [Hiv0 Hiv1 Hiv2 Hiv3]
      · isplitl [Hiv0]; · iexact Hiv0
        isplitl [Hiv1]; · iexact Hiv1
        isplitl [Hiv2]; · iexact Hiv2
        iexact Hiv3
      isplitl [Hov00 Hov01 Hov10 Hov11 Hov20 Hov21 Hov30 Hov31]
      · isplitl [Hov00 Hov01]
        · isplitl [Hov00]; · iexact Hov00
          iexact Hov01
        isplitl [Hov10 Hov11]
        · isplitl [Hov10]; · iexact Hov10
          iexact Hov11
        isplitl [Hov20 Hov21]
        · isplitl [Hov20]; · iexact Hov20
          iexact Hov21
        isplitl [Hov30]; · iexact Hov30
        iexact Hov31
      isplitl [Hs0]; · iexact Hs0
      isplitl [Hsem0 Hsem1 Hsem2 Hsem3]
      · isplitl [Hsem0]; · iexact Hsem0
        isplitl [Hsem1]; · iexact Hsem1
        isplitl [Hsem2]; · iexact Hsem2
        iexact Hsem3
      isplitl [Hq0 Hq1 Hq2 Hq3]
      · isplitl [Hq0]; · iexact Hq0
        isplitl [Hq1]; · iexact Hq1
        isplitl [Hq2]; · iexact Hq2
        iexact Hq3
      iexact Hrest
    · iexists _; isplitr
      rotate_left
      · iexact HO
      · ipureintro
        exact waits_trans hW' (waits_ins (waits_ins (waits_ins (waits_ins (waits_ins (waits_ins (waits_ins (waits_ins (waits_base W')))))))))
  · have hnW : nW L = 156 := by unfold nW Cert.TilePlan.nch; rw [if_neg hw]
    have hp0 : nW L % 4 = 0 := by omega
    ihave HI0 := (Entails.of_eq (idxIdle_drain m d L (nW L) 0 (by omega) hp0 (by decide))) $$ HI0
    icases HI0 with ⟨Hsem0, Hiv0, Htok0⟩
    ihave HX0 := (Entails.of_eq (outIdle_drain (F := F) d L 0 (by decide) (k0_off295 L) (k0_off295_inb L k0_h9) (es0.trans (by rw [hp0]))
        (k0_off293 L) (k0_off293_inb L k0_h9) (ea0.trans (by rw [hp0])) (k0_off296 L) (k0_off296_inb L k0_h9) (eb0.trans (by rw [hp0])))) $$ [HB0 HB0_src0 HB0_src1]
    · isplitl [HB0]; · iexact HB0
      isplitl [HB0_src0]; · iexists _; iexact HB0_src0
      iexists _; iexact HB0_src1
    icases HX0 with ⟨Hq0, Hov00, Hov01⟩
    have hp1 : (nW L + 1) % 4 = 1 := by omega
    ihave HI1 := (Entails.of_eq (idxIdle_drain m d L (nW L + 1) 1 (by omega) hp1 (by decide))) $$ HI1
    icases HI1 with ⟨Hsem1, Hiv1, Htok1⟩
    ihave HX1 := (Entails.of_eq (outIdle_drain (F := F) d L 1 (by decide) (k0_off300 L) (k0_off300_inb L k0_h10) (es1.trans (by rw [hp1]))
        (k0_off298 L) (k0_off298_inb L k0_h10) (ea1.trans (by rw [hp1])) (k0_off301 L) (k0_off301_inb L k0_h10) (eb1.trans (by rw [hp1])))) $$ [HB1 HB1_src0 HB1_src1]
    · isplitl [HB1]; · iexact HB1
      isplitl [HB1_src0]; · iexists _; iexact HB1_src0
      iexists _; iexact HB1_src1
    icases HX1 with ⟨Hq1, Hov10, Hov11⟩
    have hp2 : (nW L + 2) % 4 = 2 := by omega
    ihave HI2 := (Entails.of_eq (idxIdle_drain m d L (nW L + 2) 2 (by omega) hp2 (by decide))) $$ HI2
    icases HI2 with ⟨Hsem2, Hiv2, Htok2⟩
    ihave HX2 := (Entails.of_eq (outIdle_drain (F := F) d L 2 (by decide) (k0_off305 L) (k0_off305_inb L k0_h11) (es2.trans (by rw [hp2]))
        (k0_off303 L) (k0_off303_inb L k0_h11) (ea2.trans (by rw [hp2])) (k0_off306 L) (k0_off306_inb L k0_h11) (eb2.trans (by rw [hp2])))) $$ [HB2 HB2_src0 HB2_src1]
    · isplitl [HB2]; · iexact HB2
      isplitl [HB2_src0]; · iexists _; iexact HB2_src0
      iexists _; iexact HB2_src1
    icases HX2 with ⟨Hq2, Hov20, Hov21⟩
    have hp3 : (nW L + 3) % 4 = 3 := by omega
    ihave HI3 := (Entails.of_eq (idxIdle_drain m d L (nW L + 3) 3 (by omega) hp3 (by decide))) $$ HI3
    icases HI3 with ⟨Hsem3, Hiv3, Htok3⟩
    ihave HX3 := (Entails.of_eq (outIdle_drain (F := F) d L 3 (by decide) (k0_off310 L) (k0_off310_inb L k0_h12) (es3.trans (by rw [hp3]))
        (k0_off308 L) (k0_off308_inb L k0_h12) (ea3.trans (by rw [hp3])) (k0_off311 L) (k0_off311_inb L k0_h12) (eb3.trans (by rw [hp3])))) $$ [HB3 HB3_src0 HB3_src1]
    · isplitl [HB3]; · iexact HB3
      isplitl [HB3_src0]; · iexists _; iexact HB3_src0
      iexists _; iexact HB3_src1
    icases HX3 with ⟨Hq3, Hov30, Hov31⟩
    isplitr [HO]
    · isplitl [Htok0 Htok1 Htok2 Htok3 Ht HD]
      · isplitl [Htok0 Htok1 Htok2 Htok3]
        · isplitl [Htok0]; · iexact Htok0
          isplitl [Htok1]; · iexact Htok1
          isplitl [Htok2]; · iexact Htok2
          iexact Htok3
        isplitl [Ht]; · iexact Ht
        iexact HD
      isplitl [Htv]; · iexists _; iexact Htv
      isplitl [Hiv0 Hiv1 Hiv2 Hiv3]
      · isplitl [Hiv0]; · iexact Hiv0
        isplitl [Hiv1]; · iexact Hiv1
        isplitl [Hiv2]; · iexact Hiv2
        iexact Hiv3
      isplitl [Hov00 Hov01 Hov10 Hov11 Hov20 Hov21 Hov30 Hov31]
      · isplitl [Hov00 Hov01]
        · isplitl [Hov00]; · iexact Hov00
          iexact Hov01
        isplitl [Hov10 Hov11]
        · isplitl [Hov10]; · iexact Hov10
          iexact Hov11
        isplitl [Hov20 Hov21]
        · isplitl [Hov20]; · iexact Hov20
          iexact Hov21
        isplitl [Hov30]; · iexact Hov30
        iexact Hov31
      isplitl [Hs0]; · iexact Hs0
      isplitl [Hsem0 Hsem1 Hsem2 Hsem3]
      · isplitl [Hsem0]; · iexact Hsem0
        isplitl [Hsem1]; · iexact Hsem1
        isplitl [Hsem2]; · iexact Hsem2
        iexact Hsem3
      isplitl [Hq0 Hq1 Hq2 Hq3]
      · isplitl [Hq0]; · iexact Hq0
        isplitl [Hq1]; · iexact Hq1
        isplitl [Hq2]; · iexact Hq2
        iexact Hq3
      iexact Hrest
    · iexists _; isplitr
      rotate_left
      · iexact HO
      · ipureintro
        exact waits_trans hW' (waits_ins (waits_ins (waits_ins (waits_ins (waits_ins (waits_ins (waits_ins (waits_ins (waits_base W')))))))))

end Cert.Proof.KernelSc

end
-- ==== Proof.ScAddrK.lean ====
/-
  The addresses one inner trip gathers at. A trip reads sixteen index words at a time; lane `x`
  of the address vector is the word times 256 plus `x`: the table scratch holds each table row as
  256 consecutive entries (16 columns, each repeated 16 times), so word `w` names the row that
  starts at `256 w`, and the sixteen gathers of one address vector read columns 0 … 15 of that row
  through windows of the scratch shifted by 16 each. When every word is below 100 every address
  is below 25600 = 100 · 256, which is what each gather's assumed check asks of every lane.
-/
import proofs.«202852_g34127810134284_cont_8to1_b_1476_20_alg».proof.Proof.Gen.Kernel.Skeleton
import Idealize.ShloMosaic.Lib.ValueIdx
import Idealize.ShloMosaic.Lib.Pipeline.Value

noncomputable section

namespace Cert.Proof.KernelSc

open Cert.Kernel Cert.Kernel.Gen
open Idealize.ShloMosaic Idealize.ShloMosaic.ValueIdx

variable {F : FTy → Type} [FloatOps F]

/-- The lane numbers 0 … 15 as words. -/
abbrev lanes : IVec S16 32 := iota .scVector S16 32 [0] iota_S16_d0_w32_scVector

theorem lanes_apply (x : Fin 16) : lanes (ix1 x) = BitVec.ofNat 32 x.val := by
  show BitVec.ofNat 32 (0 * 16 + x.val) = _
  rw [Nat.zero_mul, Nat.zero_add]

/-- Lane `x` of the address vector: the loaded word times 256, plus the lane's entry of the second operand. -/
theorem pay1_apply (v8 : IVec S16 32) (ld : Vec F S1x16 .i32) (x : Fin 16) :
    k0_pay1 v8 ld (ix1 x) = ld (ix2 (0 : Fin 1) x) * 256#32 + v8 (ix1 x) := by
  unfold k0_pay1
  show IntOp.addi (IntOp.muli (shapeCast S16 ld shapeCasts_S1x16_S16 (ix1 x)) 256#32) (v8 (ix1 x)) = _
  rw [shapeCast_apply ld shapeCasts_S1x16_S16 (ix1 x) (ix2 (0 : Fin 1) x) (by
    rw [Shape.rowMajor_val_two, Shape.rowMajor_val_one]
    show 0 * 16 + x.val = x.val
    omega)]
  rfl

/-- The eight address vectors of a trip are formed alike. -/
theorem pay2_eq (v8 : IVec S16 32) (ld : Vec F S1x16 .i32) : k0_pay2 v8 ld = k0_pay1 v8 ld := rfl
theorem pay3_eq (v8 : IVec S16 32) (ld : Vec F S1x16 .i32) : k0_pay3 v8 ld = k0_pay1 v8 ld := rfl
theorem pay4_eq (v8 : IVec S16 32) (ld : Vec F S1x16 .i32) : k0_pay4 v8 ld = k0_pay1 v8 ld := rfl
theorem pay5_eq (v8 : IVec S16 32) (ld : Vec F S1x16 .i32) : k0_pay5 v8 ld = k0_pay1 v8 ld := rfl
theorem pay6_eq (v8 : IVec S16 32) (ld : Vec F S1x16 .i32) : k0_pay6 v8 ld = k0_pay1 v8 ld := rfl
theorem pay7_eq (v8 : IVec S16 32) (ld : Vec F S1x16 .i32) : k0_pay7 v8 ld = k0_pay1 v8 ld := rfl
theorem pay8_eq (v8 : IVec S16 32) (ld : Vec F S1x16 .i32) : k0_pay8 v8 ld = k0_pay1 v8 ld := rfl

/-- A word below 100 times 256 plus a lane number below 16, as a natural number. -/
theorem addr_toNat (w : BitVec 32) (x : Fin 16) (hw : w.toNat < 100) :
    (w * 256#32 + BitVec.ofNat 32 x.val).toNat = w.toNat * 256 + x.val := by
  have hx := x.isLt
  rw [BitVec.toNat_add, BitVec.toNat_mul, BitVec.toNat_ofNat]
  show (w.toNat * 256 % 2 ^ 32 + x.val % 2 ^ 32) % 2 ^ 32 = _
  omega

/-- Lane `x` of the address vector over the lane numbers, as a natural number, when the loaded word is below 100. -/
theorem pay1_toNat (ld : Vec F S1x16 .i32) (x : Fin 16) (hw : (ld (ix2 (0 : Fin 1) x)).toNat < 100) :
    (k0_pay1 lanes ld (ix1 x)).toNat = (ld (ix2 (0 : Fin 1) x)).toNat * 256 + x.val := by
  rw [pay1_apply, lanes_apply, addr_toNat _ _ hw]

/-- Every lane of the address vector is below 25600 when every loaded word is below 100. -/
theorem pay1_lt (ld : Vec F S1x16 .i32) (h : ∀ x : Fin 16, (ld (ix2 (0 : Fin 1) x)).toNat < 100) (y : S16.Idx) :
    (k0_pay1 lanes ld y).toNat < 25600 := by
  obtain ⟨x, rfl⟩ : ∃ x : Fin 16, y = ix1 x := ⟨y 0, eq_ix1 y⟩
  rw [pay1_toNat ld x (h x)]
  have := h x
  have := x.isLt
  omega

/-- Check 1 of a trip holds of a vector all of whose lanes are addresses below 25600. -/
theorem chk1_of_lt (v : IVec S16 32) (h : ∀ x : S16.Idx, (v x).toNat < 25600) : k0_chk1 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 2 of a trip holds of a vector all of whose lanes are addresses below 25600. -/
theorem chk2_of_lt (v : IVec S16 32) (h : ∀ x : S16.Idx, (v x).toNat < 25600) : k0_chk2 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 3 of a trip holds of a vector all of whose lanes are addresses below 25600. -/
theorem chk3_of_lt (v : IVec S16 32) (h : ∀ x : S16.Idx, (v x).toNat < 25600) : k0_chk3 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 4 of a trip holds of a vector all of whose lanes are addresses below 25600. -/
theorem chk4_of_lt (v : IVec S16 32) (h : ∀ x : S16.Idx, (v x).toNat < 25600) : k0_chk4 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 5 of a trip holds of a vector all of whose lanes are addresses below 25600. -/
theorem chk5_of_lt (v : IVec S16 32) (h : ∀ x : S16.Idx, (v x).toNat < 25600) : k0_chk5 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 6 of a trip holds of a vector all of whose lanes are addresses below 25600. -/
theorem chk6_of_lt (v : IVec S16 32) (h : ∀ x : S16.Idx, (v x).toNat < 25600) : k0_chk6 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 7 of a trip holds of a vector all of whose lanes are addresses below 25600. -/
theorem chk7_of_lt (v : IVec S16 32) (h : ∀ x : S16.Idx, (v x).toNat < 25600) : k0_chk7 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-- Check 8 of a trip holds of a vector all of whose lanes are addresses below 25600. -/
theorem chk8_of_lt (v : IVec S16 32) (h : ∀ x : S16.Idx, (v x).toNat < 25600) : k0_chk8 v := by
  have h1 : ∀ (a : Fin 1) (x : S16.Idx), ((![v] : Fin 1 → IVec S16 32) a x).toNat < S25600.size a := by
    intro a x
    obtain rfl : a = 0 := Subsingleton.elim _ _
    exact h x
  exact ⟨h1, h1, h1, h1, h1, h1, h1, h1, h1, h1, h1, h1, h1, h1, h1, h1⟩

/-! ## The index words a trip loads -/

/-- Whatever the column, an index load of trip `t` reads row `t % 4` of the index scratch. -/
theorem off13_row (L : grid0.Coords) (t : Fin (k0_t1_loop L).trips) (g : Fin k0_t2_loop.trips) (c : BitVec 32) :
    k0_off13 L t g c 0 = t.val % 4 :=
  congrFun (k0_off13_eq L t g ⟨0, by decide⟩) 0

/-- The address vector formed from an index load of trip `t` has every lane below 25600 when every word of row
    `t % 4` of the index scratch is below 100. -/
theorem chk_row (L : grid0.Coords) (t : Fin (k0_t1_loop L).trips) (g : Fin k0_t2_loop.trips) (c : BitVec 32)
    (inb : ∀ a, k0_off13 L t g c a + S1x16.size a ≤ S4x640.size a) (fiv : S4x640.Idx → BitVec 32)
    (hfiv : ∀ i : S4x640.Idx, (i 0).val = t.val % 4 → (fiv i).toNat < 100) (y : S16.Idx) :
    (k0_pay1 (F := F) lanes
      (View.readAt (Elt F) (Memref.whole cc0_scratch1 : Memref sig .scVector .vmem S4x640 .i32).view
        (Rect.unit (s := S4x640) (k0_off13 L t g c) S1x16.size inb).toLoadRect fiv) y).toNat < 25600 := by
  refine pay1_lt _ (fun x => ?_) y
  rw [View.readAt_apply]
  refine hfiv _ ?_
  show k0_off13 L t g c 0 + 1 * 0 = t.val % 4
  rw [off13_row, Nat.mul_zero, Nat.add_zero]

end Cert.Proof.KernelSc

end
-- ==== Proof.ScTripRunK.lean ====
/-
  One trip of the inner loop, run once. From the table scratch, row `t % 4` of the index scratch
  (every word below 100) and the two halves of slot `t % 4` of the output scratch, trip `g` loads
  eight vectors of sixteen index words, forms their addresses, gathers through the sixteen
  windows of the table scratch and stores 128 vectors, 64 into each half. The run finds what each
  half holds afterwards — a chain of 64 stores over what it held before — and this module keeps
  that as the run's own witness, so that the values can be read off it elsewhere without running
  the trip again.
-/
import proofs.«202852_g34127810134284_cont_8to1_b_1476_20_alg».proof.Proof.ScInnerSpecK
import proofs.«202852_g34127810134284_cont_8to1_b_1476_20_alg».proof.Proof.ScAddrK
import Idealize.ShloMosaic.Lib.Tactic

noncomputable section

namespace Cert.Proof.KernelSc

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

set_option maxHeartbeats 4000000 in
/-- Trip `g` of the inner loop of outer trip `t`: what the two halves hold afterwards, with the run that leaves it. -/
noncomputable def tripRun (d : Dev nD) (L : grid0.Coords)
    (t : Fin (k0_t1_loop L).trips) (g : Fin k0_t2_loop.trips) (v4 v46 : BitVec 32) (u : Unit)
    (ftv : Buf (Elt F) (tvM.view.loc (thrOf d L)))
    (fiv : Buf (Elt F) (ivM.view.loc (thrOf d L)))
    (fo0 fo1 : Buf (Elt F) (ovM.view.loc (thrOf d L)))
    (hfiv : ∀ i : S4x640.Idx, (i 0).val = t.val % 4 → (fiv i).toNat < 100) :
    Σ' (out0 : Buf (Elt F) (ovM.view.loc (thrOf d L))),
      { out1 : Buf (Elt F) (ovM.view.loc (thrOf d L)) //
        ∀ (K : Unit → sProp 𝕄),
          iprop((tvM.view.loc (thrOf d L) ↦{fullShare} ftv)
            ∗ ((ivSlot (k0_off5 L t) (k0_off5_inb L t)).view.loc (thrOf d L) ↦[(ivSlot (k0_off5 L t) (k0_off5_inb L t)).view.set]{fullShare} fiv)
            ∗ ((ovSlot (k0_off142 L t) (k0_off142_inb L t)).view.loc (thrOf d L) ↦[(ovSlot (k0_off142 L t) (k0_off142_inb L t)).view.set]{fullShare} fo0)
            ∗ ((ovSlot (k0_off144 L t) (k0_off144_inb L t)).view.loc (thrOf d L) ↦[(ovSlot (k0_off144 L t) (k0_off144_inb L t)).view.set]{fullShare} fo1)
            ∗ (iprop((tvM.view.loc (thrOf d L) ↦{fullShare} ftv)
            ∗ ((ivSlot (k0_off5 L t) (k0_off5_inb L t)).view.loc (thrOf d L) ↦[(ivSlot (k0_off5 L t) (k0_off5_inb L t)).view.set]{fullShare} fiv)
            ∗ ((ovSlot (k0_off142 L t) (k0_off142_inb L t)).view.loc (thrOf d L) ↦[(ovSlot (k0_off142 L t) (k0_off142_inb L t)).view.set]{fullShare} out0)
            ∗ ((ovSlot (k0_off144 L t) (k0_off144_inb L t)).view.loc (thrOf d L) ↦[(ovSlot (k0_off144 L t) (k0_off144_inb L t)).view.set]{fullShare} out1)) -∗ K ()))
          ⊢ wp frame (wpE (defs₀ (F := F)) 𝒱₀ (thrOf d L) none) Set.univ
              (k0_t2_body L idxM (Memref.isWhole_whole _) tabM (Memref.isWhole_whole _) outM (Memref.isWhole_whole _)
                tvM (Memref.isWhole_whole _) ivM (Memref.isWhole_whole _) ovM (Memref.isWhole_whole _) cc0_scratch3 cc0_scratch4 cc0_scoped0
                v4 lanes 0#32 1#32 t v46 g u)
              K } :=
  ⟨_, _, fun K => by
    have hg5 : g.val < 5 := Nat.lt_of_lt_of_le g.isLt k0_t2_abs.2.1
    have ht157 : t.val < 157 := Nat.lt_of_lt_of_le t.isLt (k0_t1_abs L).2.1
    iintro ⟨Htv, Hiv, Ho0, Ho1, Hk⟩
    sl_unfold [k0_t2_body]
    sl_unfold [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29]
    sl_respell [SparseCore.vectorLoadIdx]
    sl_exec (disch := (sl_unfold_run_names; first
        | exact chk1_of_lt _ (chk_row L t g _ _ fiv hfiv)
        | exact chk2_of_lt _ (chk_row L t g _ _ fiv hfiv)
        | exact chk3_of_lt _ (chk_row L t g _ _ fiv hfiv)
        | exact chk4_of_lt _ (chk_row L t g _ _ fiv hfiv)
        | exact chk5_of_lt _ (chk_row L t g _ _ fiv hfiv)
        | exact chk6_of_lt _ (chk_row L t g _ _ fiv hfiv)
        | exact chk7_of_lt _ (chk_row L t g _ _ fiv hfiv)
        | exact chk8_of_lt _ (chk_row L t g _ _ fiv hfiv)))
    sl_step
    iapply Hk
    isplitl [Htv]; · iexact Htv
    isplitl [Hiv]; · iexact Hiv
    isplitl [Ho0]; · iexact Ho0
    iexact Ho1⟩

end Cert.Proof.KernelSc

end
-- ==== Proof.ScWriteK.lean ====
/-
  One store of sixteen lanes into the output scratch, read back. A trip writes its row of one
  half of a slot in 64 stores of sixteen lanes: store number `k` (0 … 63) goes to block row
  `k % 8` and lanes `16 (k / 8) … 16 (k / 8) + 15`. Call an element of the scratch covered after
  `k` stores when it lies in the trip's slot, half and row and its store number
  `8 (lane / 16) + block row` is below `k`. If, after `k` stores, the scratch holds one function
  `G` on the covered elements and its first contents elsewhere, and store `k` writes `G`'s values,
  the same holds after `k + 1` stores.
-/
import proofs.«202852_g34127810134284_cont_8to1_b_1476_20_alg».proof.Proof.Gen.Kernel
import Idealize.ShloMosaic.Lib.ValueIdx

noncomputable section

namespace Cert.Proof.KernelSc

open Cert.Kernel Cert.Kernel.Gen
open Idealize.ShloMosaic Idealize.ShloMosaic.ValueIdx

variable {F : FTy → Type}

/-- Element `i` of the output scratch lies in slot `p`, half `h`, row `g`, and its store's number is below `k`. -/
def covH (p h g k : ℕ) (i : S4x2x5x8x128.Idx) : Prop :=
  (i 0).val = p ∧ (i 1).val = h ∧ (i 2).val = g ∧ 8 * ((i 4).val / 16) + (i 3).val < k

instance (p h g k : ℕ) (i : S4x2x5x8x128.Idx) : Decidable (covH p h g k i) := by
  unfold covH; infer_instance

theorem covH_zero (p h g : ℕ) (i : S4x2x5x8x128.Idx) : ¬covH p h g 0 i := fun hc => Nat.not_lt_zero _ hc.2.2.2

/-- The rectangle of store `k`. -/
abbrev pieceRect (p h g k : ℕ)
    (inb : ∀ a, (![p, h, g, k % 8, 16 * (k / 8)] : Fin 5 → Nat) a + S1x1x1x1x16.size a ≤ S4x2x5x8x128.size a) :
    Rect S4x2x5x8x128 :=
  Rect.unit (s := S4x2x5x8x128) ![p, h, g, k % 8, 16 * (k / 8)] S1x1x1x1x16.size inb

/-- An element of store `k`'s rectangle is covered after `k + 1` stores. -/
theorem covH_emb (p h g k : ℕ) (inb) (x : (pieceRect p h g k inb).shape.Idx) :
    covH p h g (k + 1) ((pieceRect p h g k inb).emb x) := by
  have h0 : (x 0).val < 1 := (x 0).isLt
  have h1 : (x 1).val < 1 := (x 1).isLt
  have h2 : (x 2).val < 1 := (x 2).isLt
  have h3 : (x 3).val < 1 := (x 3).isLt
  have h4 : (x 4).val < 16 := (x 4).isLt
  refine ⟨?_, ?_, ?_, ?_⟩
  · show p + 1 * (x 0).val = p; omega
  · show h + 1 * (x 1).val = h; omega
  · show g + 1 * (x 2).val = g; omega
  · show 8 * ((16 * (k / 8) + 1 * (x 4).val) / 16) + (k % 8 + 1 * (x 3).val) < k + 1; omega

/-- Outside store `k`'s rectangle, covered after `k + 1` stores is covered after `k`. -/
theorem covH_succ_iff (p h g k : ℕ) (inb) (i : S4x2x5x8x128.Idx) (hi : i ∉ (pieceRect p h g k inb).set) :
    covH p h g (k + 1) i ↔ covH p h g k i := by
  constructor
  · rintro ⟨e0, e1, e2, e3⟩
    refine ⟨e0, e1, e2, ?_⟩
    by_contra hk
    refine hi (Rect.mem_set_unit.mpr fun a => ?_)
    have b3 : (i 3).val < 8 := (i 3).isLt
    have b4 : (i 4).val < 128 := (i 4).isLt
    match a with
    | ⟨0, _⟩ => exact ⟨by show p ≤ (i 0).val; omega, by show (i 0).val < p + 1; omega⟩
    | ⟨1, _⟩ => exact ⟨by show h ≤ (i 1).val; omega, by show (i 1).val < h + 1; omega⟩
    | ⟨2, _⟩ => exact ⟨by show g ≤ (i 2).val; omega, by show (i 2).val < g + 1; omega⟩
    | ⟨3, _⟩ => exact ⟨by show k % 8 ≤ (i 3).val; omega, by show (i 3).val < k % 8 + 1; omega⟩
    | ⟨4, _⟩ => exact ⟨by show 16 * (k / 8) ≤ (i 4).val; omega, by show (i 4).val < 16 * (k / 8) + 16; omega⟩
  · rintro ⟨e0, e1, e2, e3⟩
    exact ⟨e0, e1, e2, by omega⟩

/-- The step: store `k` extends what is covered from `k` to `k + 1`. -/
theorem write_piece (p h g k : ℕ) (f fo G : S4x2x5x8x128.Idx → F .f32)
    (hprev : ∀ i, f i = if covH p h g k i then G i else fo i)
    (off : Fin 5 → Nat) (hoff : off = ![p, h, g, k % 8, 16 * (k / 8)])
    (inb : ∀ a, off a + S1x1x1x1x16.size a ≤ S4x2x5x8x128.size a)
    (w : (Rect.unit (s := S4x2x5x8x128) off S1x1x1x1x16.size inb).shape.Idx → F .f32)
    (hw : ∀ x, w x = G ((Rect.unit (s := S4x2x5x8x128) off S1x1x1x1x16.size inb).emb x)) (i : S4x2x5x8x128.Idx) :
    View.write (Elt F)
        ((View.whole cc0_scratch2).slice (Rect.unit (s := S4x2x5x8x128) off S1x1x1x1x16.size inb)) f w Finset.univ i
      = if covH p h g (k + 1) i then G i else fo i := by
  subst hoff
  by_cases hi : i ∈ (pieceRect p h g k inb).set
  · obtain ⟨x, rfl⟩ := (pieceRect p h g k inb).exists_idx_of_mem hi
    have e := View.read_slice_write_emb (v := View.whole cc0_scratch2) (Val := Elt F) (pieceRect p h g k inb) f w
      (Finset.mem_univ x)
    rw [View.read_whole] at e
    exact (e.trans (hw x)).trans (if_pos (covH_emb p h g k inb x)).symm
  · have e := View.read_slice_write_of_not_mem (v := View.whole cc0_scratch2) (Val := Elt F) (pieceRect p h g k inb) f w
      Finset.univ (y := i) (by rwa [Rect.map_emb_univ])
    rw [View.read_whole, View.read_whole] at e
    refine e.trans ((hprev i).trans ?_)
    have hiff := covH_succ_iff p h g k inb i hi
    by_cases hc : covH p h g k i
    · rw [if_pos hc, if_pos (hiff.mpr hc)]
    · rw [if_neg hc, if_neg (fun h' => hc (hiff.mp h'))]

end Cert.Proof.KernelSc

end
-- ==== Proof.ScValK.lean ====
/-
  What a trip leaves in the output scratch, as one function of the table scratch, the index
  scratch and the element. Element `(p, h, g, q, j)` — slot `p`, half `h`, row `g`, block row `q`,
  lane `j` — receives the table scratch's entry at `256 w + 16 (8 h + q) + j % 16`, where `w` is
  word `128 g + j` of row `p` of the index scratch: the table row the word names starts at
  `256 w`, its column `8 h + q` occupies sixteen consecutive entries, and lane `j` reads entry
  `j % 16` of them. The two reductions (`% 640`, `% 25840`) only make the function total; they
  change nothing at the elements of a row whose words are below 100.
-/
import proofs.«202852_g34127810134284_cont_8to1_b_1476_20_alg».proof.Proof.Gen.Kernel
import Idealize.ShloMosaic.Lib.ValueIdx

noncomputable section

namespace Cert.Proof.KernelSc

open Cert.Kernel Cert.Kernel.Gen
open Idealize.ShloMosaic Idealize.ShloMosaic.ValueIdx

variable {F : FTy → Type}

/-- The index word element `i` of the output scratch is gathered by. -/
def wordOf (fiv : S4x640.Idx → BitVec 32) (i : S4x2x5x8x128.Idx) : BitVec 32 :=
  fiv (ix2 (⟨(i 0).val, (i 0).isLt⟩ : Fin 4)
    (⟨(128 * (i 2).val + (i 4).val) % 640, Nat.mod_lt _ (by decide)⟩ : Fin 640))

/-- The position in the table scratch element `i` of the output scratch is gathered from. -/
def posOf (fiv : S4x640.Idx → BitVec 32) (i : S4x2x5x8x128.Idx) : Fin 25840 :=
  ⟨((wordOf fiv i).toNat * 256 + (8 * (i 1).val + (i 3).val) * 16 + (i 4).val % 16) % 25840,
    Nat.mod_lt _ (by decide)⟩

/-- What a trip leaves at element `i` of the output scratch. -/
def tripVal (ftv : S25840.Idx → F .f32) (fiv : S4x640.Idx → BitVec 32) (i : S4x2x5x8x128.Idx) : F .f32 :=
  ftv (ix1 (posOf fiv i))

/-- At coordinates, with the word below 100, the two reductions drop out. -/
theorem tripVal_apply (ftv : S25840.Idx → F .f32) (fiv : S4x640.Idx → BitVec 32)
    (p : Fin 4) (h : Fin 2) (g : Fin 5) (q : Fin 8) (j : Fin 128)
    (hw : (fiv (ix2 p (⟨128 * g.val + j.val, by have := g.isLt; have := j.isLt; omega⟩ : Fin 640))).toNat < 100) :
    tripVal ftv fiv (ix5 p h g q j)
      = ftv (ix1 (⟨(fiv (ix2 p (⟨128 * g.val + j.val, by have := g.isLt; have := j.isLt; omega⟩ : Fin 640))).toNat * 256
          + (8 * h.val + q.val) * 16 + j.val % 16,
          by have := h.isLt; have := q.isLt; have := j.isLt; omega⟩ : Fin 25840)) := by
  have hg := g.isLt
  have hj := j.isLt
  have hh := h.isLt
  have hq := q.isLt
  have e640 : (128 * g.val + j.val) % 640 = 128 * g.val + j.val := Nat.mod_eq_of_lt (by omega)
  have hword : wordOf fiv (ix5 p h g q j)
      = fiv (ix2 p (⟨128 * g.val + j.val, by omega⟩ : Fin 640)) := by
    unfold wordOf
    refine congrArg fiv (congrArg (ix2 p) (Fin.ext ?_))
    exact e640
  unfold tripVal
  refine congrArg ftv (congrArg ix1 (Fin.ext ?_))
  show ((wordOf fiv (ix5 p h g q j)).toNat * 256 + (8 * h.val + q.val) * 16 + j.val % 16) % 25840 = _
  rw [hword]
  exact Nat.mod_eq_of_lt (by omega)

end Cert.Proof.KernelSc

end
-- ==== Proof.ScPayK.lean ====
/-
  What one store of a trip writes. The vector stored at block row `q` of half `h`, lanes
  `16 s … 16 s + 15`, is a gather through the window of the table scratch that starts at
  `16 (8 h + q)`, at the addresses formed from index words `128 g + 16 s … + 15` of the trip's row:
  lane `l` reads the table scratch at `16 (8 h + q) + 256 w + l`, `w` the lane's index word — which
  is the value `tripVal` assigns to the element the lane is stored at.
-/
import proofs.«202852_g34127810134284_cont_8to1_b_1476_20_alg».proof.Proof.ScAddrK
import proofs.«202852_g34127810134284_cont_8to1_b_1476_20_alg».proof.Proof.ScValK
import Idealize.ShloMosaic.Lib.Exec.Geometry

noncomputable section

namespace Cert.Proof.KernelSc

open Cert.Kernel Cert.Kernel.Gen
open Idealize.ShloMosaic Idealize.ShloMosaic.ValueIdx

variable {F : FTy → Type} [FloatOps F]

/-- Lane `l` of the address vector formed from the index load at column `128 g + 16 s` of row `t % 4`: the word at
    column `128 g + 16 s + l` times 256, plus `l`. -/
theorem addr_of_load (L : grid0.Coords) (t : Fin (k0_t1_loop L).trips) (g : Fin k0_t2_loop.trips) (c : BitVec 32)
    (s : ℕ) (hs : s < 8)
    (hc : k0_off13 L t g c = ![t.val % 4, 128 * g.val + 16 * s])
    (inb : ∀ a, k0_off13 L t g c a + S1x16.size a ≤ S4x640.size a) (fiv : S4x640.Idx → BitVec 32)
    (hfiv : ∀ i : S4x640.Idx, (i 0).val = t.val % 4 → (fiv i).toNat < 100) (l : Fin 16) :
    (k0_pay1 (F := F) lanes
        (View.readAt (Elt F) (Memref.whole cc0_scratch1 : Memref sig .scVector .vmem S4x640 .i32).view
          (Rect.unit (s := S4x640) (k0_off13 L t g c) S1x16.size inb).toLoadRect fiv) (ix1 l)).toNat
      = (fiv (ix2 (⟨t.val % 4, Nat.mod_lt _ (by decide)⟩ : Fin 4)
          (⟨128 * g.val + 16 * s + l.val, by
            have := Nat.lt_of_lt_of_le g.isLt k0_t2_abs.2.1; have := l.isLt; omega⟩ : Fin 640))).toNat * 256 + l.val := by
  have hg5 : g.val < 5 := Nat.lt_of_lt_of_le g.isLt k0_t2_abs.2.1
  have hl := l.isLt
  have hidx : (Rect.unit (s := S4x640) (k0_off13 L t g c) S1x16.size inb).toLoadRect.idx (ix2 (0 : Fin 1) l)
      = ix2 (⟨t.val % 4, Nat.mod_lt _ (by decide)⟩ : Fin 4) (⟨128 * g.val + 16 * s + l.val, by omega⟩ : Fin 640) := by
    funext a
    refine Fin.ext ?_
    match a with
    | ⟨0, _⟩ =>
      show k0_off13 L t g c 0 + 1 * 0 = t.val % 4
      rw [hc]; show t.val % 4 + 1 * 0 = t.val % 4; omega
    | ⟨1, _⟩ =>
      show k0_off13 L t g c 1 + 1 * l.val = 128 * g.val + 16 * s + l.val
      rw [hc]; show 128 * g.val + 16 * s + 1 * l.val = _; omega
  have hrd : View.readAt (Elt F) (Memref.whole cc0_scratch1 : Memref sig .scVector .vmem S4x640 .i32).view
      (Rect.unit (s := S4x640) (k0_off13 L t g c) S1x16.size inb).toLoadRect fiv (ix2 (0 : Fin 1) l)
      = fiv (ix2 (⟨t.val % 4, Nat.mod_lt _ (by decide)⟩ : Fin 4) (⟨128 * g.val + 16 * s + l.val, by omega⟩ : Fin 640)) := by
    rw [View.readAt_apply, hidx]; rfl
  rw [pay1_toNat _ l (by rw [hrd]; exact hfiv _ rfl), hrd]

/-- The gathered vector, shape-cast for the store, at lane `x` of the stored rectangle: `tripVal` at the element. -/
theorem pay_ok (ftv : S25840.Idx → F .f32) (fiv : S4x640.Idx → BitVec 32) (p g h q s : ℕ)
    (hp : p < 4) (hg : g < 5) (hh : h < 2) (hq : q < 8) (hs : s < 8)
    (off : Fin 5 → Nat) (hoff : off = ![p, h, g, q, 16 * s])
    (inb : ∀ a, off a + S1x1x1x1x16.size a ≤ S4x2x5x8x128.size a)
    (o1 : Fin 1 → Nat) (ho1 : o1 = ![16 * (8 * h + q)])
    (inb1 : ∀ a, o1 a + S25600.size a ≤ S25840.size a)
    (hst : ∀ a, (Rect.unit (s := S25840) o1 S25600.size inb1).stride a = 1)
    (A : IVec S16 32)
    (hA : ∀ l : Fin 16, (A (ix1 l)).toNat
      = (fiv (ix2 (⟨p, hp⟩ : Fin 4) (⟨128 * g + 16 * s + l.val, by have := l.isLt; omega⟩ : Fin 640))).toNat * 256 + l.val)
    (hwd : ∀ l : Fin 16,
      (fiv (ix2 (⟨p, hp⟩ : Fin 4) (⟨128 * g + 16 * s + l.val, by have := l.isLt; omega⟩ : Fin 640))).toNat < 100)
    (hchk : ∀ a x, ((![A] : Fin 1 → IVec S16 32) a x).toNat < S25600.size a)
    (hsc : S16.ShapeCasts S1x1x1x1x16)
    (x : (Rect.unit (s := S4x2x5x8x128) off S1x1x1x1x16.size inb).shape.Idx) :
    shapeCast S1x1x1x1x16
        (loadIdx (View.readAt (Elt F) (Memref.whole cc0_scratch0 : Memref sig .scVector .vmem S25840 .f32).view
          ((Rect.unit (s := S25840) o1 S25600.size inb1).withinL (LoadRect.whole S25600) hst) ftv) ![A] hchk) hsc x
      = tripVal ftv fiv ((Rect.unit (s := S4x2x5x8x128) off S1x1x1x1x16.size inb).emb x) := by
  subst hoff
  subst ho1
  have h0 : (x 0).val < 1 := (x 0).isLt
  have h1 : (x 1).val < 1 := (x 1).isLt
  have h2 : (x 2).val < 1 := (x 2).isLt
  have h3 : (x 3).val < 1 := (x 3).isLt
  have h4 : (x 4).val < 16 := (x 4).isLt
  -- the lane
  obtain ⟨l, hl⟩ : ∃ l : Fin 16, l.val = (x 4).val := ⟨⟨(x 4).val, h4⟩, rfl⟩
  -- the shape cast reads the gathered vector at the lane
  rw [shapeCast_apply _ hsc x (ix1 l) (by
    rw [Shape.rowMajor_val_one, Shape.rowMajor_val_five]
    show l.val = ((((x 0).val * 1 + (x 1).val) * 1 + (x 2).val) * 1 + (x 3).val) * 16 + (x 4).val
    omega)]
  -- the word at the lane
  have hword : wordOf fiv ((Rect.unit (s := S4x2x5x8x128) ![p, h, g, q, 16 * s] S1x1x1x1x16.size inb).emb x)
      = fiv (ix2 (⟨p, hp⟩ : Fin 4) (⟨128 * g + 16 * s + l.val, by have := l.isLt; omega⟩ : Fin 640)) := by
    unfold wordOf
    refine congrArg fiv ?_
    funext a
    refine Fin.ext ?_
    match a with
    | ⟨0, _⟩ => show p + 1 * (x 0).val = p; omega
    | ⟨1, _⟩ => show (128 * (g + 1 * (x 2).val) + (16 * s + 1 * (x 4).val)) % 640 = 128 * g + 16 * s + l.val; omega
  have hw := hwd l
  unfold tripVal
  show ftv _ = ftv _
  refine congrArg ftv ?_
  funext a
  obtain ⟨av, hav⟩ := a
  have hav1 : av < 1 := hav
  obtain rfl : av = 0 := Nat.lt_one_iff.mp hav1
  refine Fin.ext ?_
  show 16 * (8 * h + q) + 0 + 1 * (A (ix1 l)).toNat
      = ((wordOf fiv ((Rect.unit (s := S4x2x5x8x128) ![p, h, g, q, 16 * s] S1x1x1x1x16.size inb).emb x)).toNat * 256
          + (8 * (h + 1 * (x 1).val) + (q + 1 * (x 3).val)) * 16 + (16 * s + 1 * (x 4).val) % 16) % 25840
  rw [hword, hA l]
  omega

end Cert.Proof.KernelSc

end
-- ==== Proof.ScTripValK.lean ====
/-
  The values one trip of the inner loop leaves. Each half of the slot's output is, after the
  run, a chain of 64 stores over what it held before. Store by store — each a gather through
  one window of the table scratch at one of the trip's eight address vectors — what is covered
  holds `tripVal` and the rest is untouched; after the 64th, the whole row `g` of the half holds
  `tripVal` and every other row what it held before.
-/
import proofs.«202852_g34127810134284_cont_8to1_b_1476_20_alg».proof.Proof.ScTripRunK
import proofs.«202852_g34127810134284_cont_8to1_b_1476_20_alg».proof.Proof.ScWriteK
import proofs.«202852_g34127810134284_cont_8to1_b_1476_20_alg».proof.Proof.ScPayK

noncomputable section

namespace Cert.Proof.KernelSc

open Cert.Kernel Cert.Kernel.Gen
open Idealize.ShloMosaic Idealize.ShloMosaic.ValueIdx

variable {F : FTy → Type} [FloatOps F]

variable (d : Dev nD) (L : grid0.Coords) (t : Fin (k0_t1_loop L).trips) (g : Fin k0_t2_loop.trips)
  (ftv : Buf (Elt F) (tvM.view.loc (thrOf d L))) (fiv : Buf (Elt F) (ivM.view.loc (thrOf d L)))
  (fo0 fo1 : Buf (Elt F) (ovM.view.loc (thrOf d L)))
  (hfiv : ∀ i : S4x640.Idx, (i 0).val = t.val % 4 → (fiv i).toNat < 100)

theorem inner_lt : g.val < 5 := Nat.lt_of_lt_of_le g.isLt k0_t2_abs.2.1

/-! ## The eight address vectors -/

include hfiv

theorem addr0 (l : Fin 16) :
    (tripRun.sl.v96 d L t g fiv (ix1 l)).toNat
      = (fiv (ix2 (⟨t.val % 4, Nat.mod_lt _ (by decide)⟩ : Fin 4)
          (⟨128 * g.val + 16 * 0 + l.val, by have := inner_lt g; have := l.isLt; omega⟩ : Fin 640))).toNat * 256 + l.val :=
  addr_of_load L t g _ 0 (by decide) (k0_off13_eq L t g ⟨0, by decide⟩) _ fiv hfiv l

theorem addr1 (l : Fin 16) :
    (tripRun.sl.v104 d L t g fiv (ix1 l)).toNat
      = (fiv (ix2 (⟨t.val % 4, Nat.mod_lt _ (by decide)⟩ : Fin 4)
          (⟨128 * g.val + 16 * 1 + l.val, by have := inner_lt g; have := l.isLt; omega⟩ : Fin 640))).toNat * 256 + l.val :=
  addr_of_load L t g _ 1 (by decide) (k0_off13_eq L t g ⟨1, by decide⟩) _ fiv hfiv l

theorem addr2 (l : Fin 16) :
    (tripRun.sl.v112 d L t g fiv (ix1 l)).toNat
      = (fiv (ix2 (⟨t.val % 4, Nat.mod_lt _ (by decide)⟩ : Fin 4)
          (⟨128 * g.val + 16 * 2 + l.val, by have := inner_lt g; have := l.isLt; omega⟩ : Fin 640))).toNat * 256 + l.val :=
  addr_of_load L t g _ 2 (by decide) (k0_off13_eq L t g ⟨2, by decide⟩) _ fiv hfiv l

theorem addr3 (l : Fin 16) :
    (tripRun.sl.v120 d L t g fiv (ix1 l)).toNat
      = (fiv (ix2 (⟨t.val % 4, Nat.mod_lt _ (by decide)⟩ : Fin 4)
          (⟨128 * g.val + 16 * 3 + l.val, by have := inner_lt g; have := l.isLt; omega⟩ : Fin 640))).toNat * 256 + l.val :=
  addr_of_load L t g _ 3 (by decide) (k0_off13_eq L t g ⟨3, by decide⟩) _ fiv hfiv l

theorem addr4 (l : Fin 16) :
    (tripRun.sl.v128 d L t g fiv (ix1 l)).toNat
      = (fiv (ix2 (⟨t.val % 4, Nat.mod_lt _ (by decide)⟩ : Fin 4)
          (⟨128 * g.val + 16 * 4 + l.val, by have := inner_lt g; have := l.isLt; omega⟩ : Fin 640))).toNat * 256 + l.val :=
  addr_of_load L t g _ 4 (by decide) (k0_off13_eq L t g ⟨4, by decide⟩) _ fiv hfiv l

theorem addr5 (l : Fin 16) :
    (tripRun.sl.v136 d L t g fiv (ix1 l)).toNat
      = (fiv (ix2 (⟨t.val % 4, Nat.mod_lt _ (by decide)⟩ : Fin 4)
          (⟨128 * g.val + 16 * 5 + l.val, by have := inner_lt g; have := l.isLt; omega⟩ : Fin 640))).toNat * 256 + l.val :=
  addr_of_load L t g _ 5 (by decide) (k0_off13_eq L t g ⟨5, by decide⟩) _ fiv hfiv l

theorem addr6 (l : Fin 16) :
    (tripRun.sl.v144 d L t g fiv (ix1 l)).toNat
      = (fiv (ix2 (⟨t.val % 4, Nat.mod_lt _ (by decide)⟩ : Fin 4)
          (⟨128 * g.val + 16 * 6 + l.val, by have := inner_lt g; have := l.isLt; omega⟩ : Fin 640))).toNat * 256 + l.val :=
  addr_of_load L t g _ 6 (by decide) (k0_off13_eq L t g ⟨6, by decide⟩) _ fiv hfiv l

theorem addr7 (l : Fin 16) :
    (tripRun.sl.v152 d L t g fiv (ix1 l)).toNat
      = (fiv (ix2 (⟨t.val % 4, Nat.mod_lt _ (by decide)⟩ : Fin 4)
          (⟨128 * g.val + 16 * 7 + l.val, by have := inner_lt g; have := l.isLt; omega⟩ : Fin 640))).toNat * 256 + l.val :=
  addr_of_load L t g _ 7 (by decide) (k0_off13_eq L t g ⟨7, by decide⟩) _ fiv hfiv l

/-! ## Half 0, store by store -/

theorem cov0_0 (i : S4x2x5x8x128.Idx) :
    tripRun.sl.Ho0_w1 d L t g ftv fiv fo0 hfiv i
      = if covH (t.val % 4) 0 g.val 1 i then tripVal ftv fiv i else fo0 i :=
  write_piece (t.val % 4) 0 g.val 0 _ fo0 (tripVal ftv fiv) (fun i => (if_neg (covH_zero _ _ _ i)).symm) _ (k0_off14_eq L t g) _ _
    (pay_ok ftv fiv (t.val % 4) g.val 0 0 0 (Nat.mod_lt _ (by decide)) (inner_lt g) (by decide) (by decide) (by decide)
      _ (k0_off14_eq L t g) _ _ rfl _ _ _ (addr0 d L t g fiv hfiv) (fun l => hfiv _ rfl) _ _) i

theorem cov0_1 (i : S4x2x5x8x128.Idx) :
    tripRun.sl.Ho0_w2 d L t g ftv fiv fo0 hfiv i
      = if covH (t.val % 4) 0 g.val 2 i then tripVal ftv fiv i else fo0 i :=
  write_piece (t.val % 4) 0 g.val 1 _ fo0 (tripVal ftv fiv) (cov0_0 d L t g ftv fiv fo0 hfiv) _ (k0_off15_eq L t g) _ _
    (pay_ok ftv fiv (t.val % 4) g.val 0 1 0 (Nat.mod_lt _ (by decide)) (inner_lt g) (by decide) (by decide) (by decide)
      _ (k0_off15_eq L t g) _ _ rfl _ _ _ (addr0 d L t g fiv hfiv) (fun l => hfiv _ rfl) _ _) i

theorem cov0_2 (i : S4x2x5x8x128.Idx) :
    tripRun.sl.Ho0_w3 d L t g ftv fiv fo0 hfiv i
      = if covH (t.val % 4) 0 g.val 3 i then tripVal ftv fiv i else fo0 i :=
  write_piece (t.val % 4) 0 g.val 2 _ fo0 (tripVal ftv fiv) (cov0_1 d L t g ftv fiv fo0 hfiv) _ (k0_off16_eq L t g) _ _
    (pay_ok ftv fiv (t.val % 4) g.val 0 2 0 (Nat.mod_lt _ (by decide)) (inner_lt g) (by decide) (by decide) (by decide)
      _ (k0_off16_eq L t g) _ _ rfl _ _ _ (addr0 d L t g fiv hfiv) (fun l => hfiv _ rfl) _ _) i

theorem cov0_3 (i : S4x2x5x8x128.Idx) :
    tripRun.sl.Ho0_w4 d L t g ftv fiv fo0 hfiv i
      = if covH (t.val % 4) 0 g.val 4 i then tripVal ftv fiv i else fo0 i :=
  write_piece (t.val % 4) 0 g.val 3 _ fo0 (tripVal ftv fiv) (cov0_2 d L t g ftv fiv fo0 hfiv) _ (k0_off17_eq L t g) _ _
    (pay_ok ftv fiv (t.val % 4) g.val 0 3 0 (Nat.mod_lt _ (by decide)) (inner_lt g) (by decide) (by decide) (by decide)
      _ (k0_off17_eq L t g) _ _ rfl _ _ _ (addr0 d L t g fiv hfiv) (fun l => hfiv _ rfl) _ _) i

theorem cov0_4 (i : S4x2x5x8x128.Idx) :
    tripRun.sl.Ho0_w5 d L t g ftv fiv fo0 hfiv i
      = if covH (t.val % 4) 0 g.val 5 i then tripVal ftv fiv i else fo0 i :=
  write_piece (t.val % 4) 0 g.val 4 _ fo0 (tripVal ftv fiv) (cov0_3 d L t g ftv fiv fo0 hfiv) _ (k0_off18_eq L t g) _ _
    (pay_ok ftv fiv (t.val % 4) g.val 0 4 0 (Nat.mod_lt _ (by decide)) (inner_lt g) (by decide) (by decide) (by decide)
      _ (k0_off18_eq L t g) _ _ rfl _ _ _ (addr0 d L t g fiv hfiv) (fun l => hfiv _ rfl) _ _) i

theorem cov0_5 (i : S4x2x5x8x128.Idx) :
    tripRun.sl.Ho0_w6 d L t g ftv fiv fo0 hfiv i
      = if covH (t.val % 4) 0 g.val 6 i then tripVal ftv fiv i else fo0 i :=
  write_piece (t.val % 4) 0 g.val 5 _ fo0 (tripVal ftv fiv) (cov0_4 d L t g ftv fiv fo0 hfiv) _ (k0_off19_eq L t g) _ _
    (pay_ok ftv fiv (t.val % 4) g.val 0 5 0 (Nat.mod_lt _ (by decide)) (inner_lt g) (by decide) (by decide) (by decide)
      _ (k0_off19_eq L t g) _ _ rfl _ _ _ (addr0 d L t g fiv hfiv) (fun l => hfiv _ rfl) _ _) i

theorem cov0_6 (i : S4x2x5x8x128.Idx) :
    tripRun.sl.Ho0_w7 d L t g ftv fiv fo0 hfiv i
      = if covH (t.val % 4) 0 g.val 7 i then tripVal ftv fiv i else fo0 i :=
  write_piece (t.val % 4) 0 g.val 6 _ fo0 (tripVal ftv fiv) (cov0_5 d L t g ftv fiv fo0 hfiv) _ (k0_off20_eq L t g) _ _
    (pay_ok ftv fiv (t.val % 4) g.val 0 6 0 (Nat.mod_lt _ (by decide)) (inner_lt g) (by decide) (by decide) (by decide)
      _ (k0_off20_eq L t g) _ _ rfl _ _ _ (addr0 d L t g fiv hfiv) (fun l => hfiv _ rfl) _ _) i

theorem cov0_7 (i : S4x2x5x8x128.Idx) :
    tripRun.sl.Ho0_w8 d L t g ftv fiv fo0 hfiv i
      = if covH (t.val % 4) 0 g.val 8 i then tripVal ftv fiv i else fo0 i :=
  write_piece (t.val % 4) 0 g.val 7 _ fo0 (tripVal ftv fiv) (cov0_6 d L t g ftv fiv fo0 hfiv) _ (k0_off21_eq L t g) _ _
    (pay_ok ftv fiv (t.val % 4) g.val 0 7 0 (Nat.mod_lt _ (by decide)) (inner_lt g) (by decide) (by decide) (by decide)
      _ (k0_off21_eq L t g) _ _ rfl _ _ _ (addr0 d L t g fiv hfiv) (fun l => hfiv _ rfl) _ _) i

theorem cov0_8 (i : S4x2x5x8x128.Idx) :
    tripRun.sl.Ho0_w17 d L t g ftv fiv fo0 hfiv i
      = if covH (t.val % 4) 0 g.val 9 i then tripVal ftv fiv i else fo0 i :=
  write_piece (t.val % 4) 0 g.val 8 _ fo0 (tripVal ftv fiv) (cov0_7 d L t g ftv fiv fo0 hfiv) _ (k0_off30_eq L t g) _ _
    (pay_ok ftv fiv (t.val % 4) g.val 0 0 1 (Nat.mod_lt _ (by decide)) (inner_lt g) (by decide) (by decide) (by decide)
      _ (k0_off30_eq L t g) _ _ rfl _ _ _ (addr1 d L t g fiv hfiv) (fun l => hfiv _ rfl) _ _) i

theorem cov0_9 (i : S4x2x5x8x128.Idx) :
    tripRun.sl.Ho0_w18 d L t g ftv fiv fo0 hfiv i
      = if covH (t.val % 4) 0 g.val 10 i then tripVal ftv fiv i else fo0 i :=
  write_piece (t.val % 4) 0 g.val 9 _ fo0 (tripVal ftv fiv) (cov0_8 d L t g ftv fiv fo0 hfiv) _ (k0_off31_eq L t g) _ _
    (pay_ok ftv fiv (t.val % 4) g.val 0 1 1 (Nat.mod_lt _ (by decide)) (inner_lt g) (by decide) (by decide) (by decide)
      _ (k0_off31_eq L t g) _ _ rfl _ _ _ (addr1 d L t g fiv hfiv) (fun l => hfiv _ rfl) _ _) i

theorem cov0_10 (i : S4x2x5x8x128.Idx) :
    tripRun.sl.Ho0_w19 d L t g ftv fiv fo0 hfiv i
      = if covH (t.val % 4) 0 g.val 11 i then tripVal ftv fiv i else fo0 i :=
  write_piece (t.val % 4) 0 g.val 10 _ fo0 (tripVal ftv fiv) (cov0_9 d L t g ftv fiv fo0 hfiv) _ (k0_off32_eq L t g) _ _
    (pay_ok ftv fiv (t.val % 4) g.val 0 2 1 (Nat.mod_lt _ (by decide)) (inner_lt g) (by decide) (by decide) (by decide)
      _ (k0_off32_eq L t g) _ _ rfl _ _ _ (addr1 d L t g fiv hfiv) (fun l => hfiv _ rfl) _ _) i

theorem cov0_11 (i : S4x2x5x8x128.Idx) :
    tripRun.sl.Ho0_w20 d L t g ftv fiv fo0 hfiv i
      = if covH (t.val % 4) 0 g.val 12 i then tripVal ftv fiv i else fo0 i :=
  write_piece (t.val % 4) 0 g.val 11 _ fo0 (tripVal ftv fiv) (cov0_10 d L t g ftv fiv fo0 hfiv) _ (k0_off33_eq L t g) _ _
    (pay_ok ftv fiv (t.val % 4) g.val 0 3 1 (Nat.mod_lt _ (by decide)) (inner_lt g) (by decide) (by decide) (by decide)
      _ (k0_off33_eq L t g) _ _ rfl _ _ _ (addr1 d L t g fiv hfiv) (fun l => hfiv _ rfl) _ _) i

theorem cov0_12 (i : S4x2x5x8x128.Idx) :
    tripRun.sl.Ho0_w21 d L t g ftv fiv fo0 hfiv i
      = if covH (t.val % 4) 0 g.val 13 i then tripVal ftv fiv i else fo0 i :=
  write_piece (t.val % 4) 0 g.val 12 _ fo0 (tripVal ftv fiv) (cov0_11 d L t g ftv fiv fo0 hfiv) _ (k0_off34_eq L t g) _ _
    (pay_ok ftv fiv (t.val % 4) g.val 0 4 1 (Nat.mod_lt _ (by decide)) (inner_lt g) (by decide) (by decide) (by decide)
      _ (k0_off34_eq L t g) _ _ rfl _ _ _ (addr1 d L t g fiv hfiv) (fun l => hfiv _ rfl) _ _) i

theorem cov0_13 (i : S4x2x5x8x128.Idx) :
    tripRun.sl.Ho0_w22 d L t g ftv fiv fo0 hfiv i
      = if covH (t.val % 4) 0 g.val 14 i then tripVal ftv fiv i else fo0 i :=
  write_piece (t.val % 4) 0 g.val 13 _ fo0 (tripVal ftv fiv) (cov0_12 d L t g ftv fiv fo0 hfiv) _ (k0_off35_eq L t g) _ _
    (pay_ok ftv fiv (t.val % 4) g.val 0 5 1 (Nat.mod_lt _ (by decide)) (inner_lt g) (by decide) (by decide) (by decide)
      _ (k0_off35_eq L t g) _ _ rfl _ _ _ (addr1 d L t g fiv hfiv) (fun l => hfiv _ rfl) _ _) i

theorem cov0_14 (i : S4x2x5x8x128.Idx) :
    tripRun.sl.Ho0_w23 d L t g ftv fiv fo0 hfiv i
      = if covH (t.val % 4) 0 g.val 15 i then tripVal ftv fiv i else fo0 i :=
  write_piece (t.val % 4) 0 g.val 14 _ fo0 (tripVal ftv fiv) (cov0_13 d L t g ftv fiv fo0 hfiv) _ (k0_off36_eq L t g) _ _
    (pay_ok ftv fiv (t.val % 4) g.val 0 6 1 (Nat.mod_lt _ (by decide)) (inner_lt g) (by decide) (by decide) (by decide)
      _ (k0_off36_eq L t g) _ _ rfl _ _ _ (addr1 d L t g fiv hfiv) (fun l => hfiv _ rfl) _ _) i

theorem cov0_15 (i : S4x2x5x8x128.Idx) :
    tripRun.sl.Ho0_w24 d L t g ftv fiv fo0 hfiv i
      = if covH (t.val % 4) 0 g.val 16 i then tripVal ftv fiv i else fo0 i :=
  write_piece (t.val % 4) 0 g.val 15 _ fo0 (tripVal ftv fiv) (cov0_14 d L t g ftv fiv fo0 hfiv) _ (k0_off37_eq L t g) _ _
    (pay_ok ftv fiv (t.val % 4) g.val 0 7 1 (Nat.mod_lt _ (by decide)) (inner_lt g) (by decide) (by decide) (by decide)
      _ (k0_off37_eq L t g) _ _ rfl _ _ _ (addr1 d L t g fiv hfiv) (fun l => hfiv _ rfl) _ _) i

theorem cov0_16 (i : S4x2x5x8x128.Idx) :
    tripRun.sl.Ho0_w33 d L t g ftv fiv fo0 hfiv i
      = if covH (t.val % 4) 0 g.val 17 i then tripVal ftv fiv i else fo0 i :=
  write_piece (t.val % 4) 0 g.val 16 _ fo0 (tripVal ftv fiv) (cov0_15 d L t g ftv fiv fo0 hfiv) _ (k0_off46_eq L t g) _ _
    (pay_ok ftv fiv (t.val % 4) g.val 0 0 2 (Nat.mod_lt _ (by decide)) (inner_lt g) (by decide) (by decide) (by decide)
      _ (k0_off46_eq L t g) _ _ rfl _ _ _ (addr2 d L t g fiv hfiv) (fun l => hfiv _ rfl) _ _) i

theorem cov0_17 (i : S4x2x5x8x128.Idx) :
    tripRun.sl.Ho0_w34 d L t g ftv fiv fo0 hfiv i
      = if covH (t.val % 4) 0 g.val 18 i then tripVal ftv fiv i else fo0 i :=
  write_piece (t.val % 4) 0 g.val 17 _ fo0 (tripVal ftv fiv) (cov0_16 d L t g ftv fiv fo0 hfiv) _ (k0_off47_eq L t g) _ _
    (pay_ok ftv fiv (t.val % 4) g.val 0 1 2 (Nat.mod_lt _ (by decide)) (inner_lt g) (by decide) (by decide) (by decide)
      _ (k0_off47_eq L t g) _ _ rfl _ _ _ (addr2 d L t g fiv hfiv) (fun l => hfiv _ rfl) _ _) i

theorem cov0_18 (i : S4x2x5x8x128.Idx) :
    tripRun.sl.Ho0_w35 d L t g ftv fiv fo0 hfiv i
      = if covH (t.val % 4) 0 g.val 19 i then tripVal ftv fiv i else fo0 i :=
  write_piece (t.val % 4) 0 g.val 18 _ fo0 (tripVal ftv fiv) (cov0_17 d L t g ftv fiv fo0 hfiv) _ (k0_off48_eq L t g) _ _
    (pay_ok ftv fiv (t.val % 4) g.val 0 2 2 (Nat.mod_lt _ (by decide)) (inner_lt g) (by decide) (by decide) (by decide)
      _ (k0_off48_eq L t g) _ _ rfl _ _ _ (addr2 d L t g fiv hfiv) (fun l => hfiv _ rfl) _ _) i

theorem cov0_19 (i : S4x2x5x8x128.Idx) :
    tripRun.sl.Ho0_w36 d L t g ftv fiv fo0 hfiv i
      = if covH (t.val % 4) 0 g.val 20 i then tripVal ftv fiv i else fo0 i :=
  write_piece (t.val % 4) 0 g.val 19 _ fo0 (tripVal ftv fiv) (cov0_18 d L t g ftv fiv fo0 hfiv) _ (k0_off49_eq L t g) _ _
    (pay_ok ftv fiv (t.val % 4) g.val 0 3 2 (Nat.mod_lt _ (by decide)) (inner_lt g) (by decide) (by decide) (by decide)
      _ (k0_off49_eq L t g) _ _ rfl _ _ _ (addr2 d L t g fiv hfiv) (fun l => hfiv _ rfl) _ _) i

theorem cov0_20 (i : S4x2x5x8x128.Idx) :
    tripRun.sl.Ho0_w37 d L t g ftv fiv fo0 hfiv i
      = if covH (t.val % 4) 0 g.val 21 i then tripVal ftv fiv i else fo0 i :=
  write_piece (t.val % 4) 0 g.val 20 _ fo0 (tripVal ftv fiv) (cov0_19 d L t g ftv fiv fo0 hfiv) _ (k0_off50_eq L t g) _ _
    (pay_ok ftv fiv (t.val % 4) g.val 0 4 2 (Nat.mod_lt _ (by decide)) (inner_lt g) (by decide) (by decide) (by decide)
      _ (k0_off50_eq L t g) _ _ rfl _ _ _ (addr2 d L t g fiv hfiv) (fun l => hfiv _ rfl) _ _) i

theorem cov0_21 (i : S4x2x5x8x128.Idx) :
    tripRun.sl.Ho0_w38 d L t g ftv fiv fo0 hfiv i
      = if covH (t.val % 4) 0 g.val 22 i then tripVal ftv fiv i else fo0 i :=
  write_piece (t.val % 4) 0 g.val 21 _ fo0 (tripVal ftv fiv) (cov0_20 d L t g ftv fiv fo0 hfiv) _ (k0_off51_eq L t g) _ _
    (pay_ok ftv fiv (t.val % 4) g.val 0 5 2 (Nat.mod_lt _ (by decide)) (inner_lt g) (by decide) (by decide) (by decide)
      _ (k0_off51_eq L t g) _ _ rfl _ _ _ (addr2 d L t g fiv hfiv) (fun l => hfiv _ rfl) _ _) i

theorem cov0_22 (i : S4x2x5x8x128.Idx) :
    tripRun.sl.Ho0_w39 d L t g ftv fiv fo0 hfiv i
      = if covH (t.val % 4) 0 g.val 23 i then tripVal ftv fiv i else fo0 i :=
  write_piece (t.val % 4) 0 g.val 22 _ fo0 (tripVal ftv fiv) (cov0_21 d L t g ftv fiv fo0 hfiv) _ (k0_off52_eq L t g) _ _
    (pay_ok ftv fiv (t.val % 4) g.val 0 6 2 (Nat.mod_lt _ (by decide)) (inner_lt g) (by decide) (by decide) (by decide)
      _ (k0_off52_eq L t g) _ _ rfl _ _ _ (addr2 d L t g fiv hfiv) (fun l => hfiv _ rfl) _ _) i

theorem cov0_23 (i : S4x2x5x8x128.Idx) :
    tripRun.sl.Ho0_w40 d L t g ftv fiv fo0 hfiv i
      = if covH (t.val % 4) 0 g.val 24 i then tripVal ftv fiv i else fo0 i :=
  write_piece (t.val % 4) 0 g.val 23 _ fo0 (tripVal ftv fiv) (cov0_22 d L t g ftv fiv fo0 hfiv) _ (k0_off53_eq L t g) _ _
    (pay_ok ftv fiv (t.val % 4) g.val 0 7 2 (Nat.mod_lt _ (by decide)) (inner_lt g) (by decide) (by decide) (by decide)
      _ (k0_off53_eq L t g) _ _ rfl _ _ _ (addr2 d L t g fiv hfiv) (fun l => hfiv _ rfl) _ _) i

theorem cov0_24 (i : S4x2x5x8x128.Idx) :
    tripRun.sl.Ho0_w49 d L t g ftv fiv fo0 hfiv i
      = if covH (t.val % 4) 0 g.val 25 i then tripVal ftv fiv i else fo0 i :=
  write_piece (t.val % 4) 0 g.val 24 _ fo0 (tripVal ftv fiv) (cov0_23 d L t g ftv fiv fo0 hfiv) _ (k0_off62_eq L t g) _ _
    (pay_ok ftv fiv (t.val % 4) g.val 0 0 3 (Nat.mod_lt _ (by decide)) (inner_lt g) (by decide) (by decide) (by decide)
      _ (k0_off62_eq L t g) _ _ rfl _ _ _ (addr3 d L t g fiv hfiv) (fun l => hfiv _ rfl) _ _) i

theorem cov0_25 (i : S4x2x5x8x128.Idx) :
    tripRun.sl.Ho0_w50 d L t g ftv fiv fo0 hfiv i
      = if covH (t.val % 4) 0 g.val 26 i then tripVal ftv fiv i else fo0 i :=
  write_piece (t.val % 4) 0 g.val 25 _ fo0 (tripVal ftv fiv) (cov0_24 d L t g ftv fiv fo0 hfiv) _ (k0_off63_eq L t g) _ _
    (pay_ok ftv fiv (t.val % 4) g.val 0 1 3 (Nat.mod_lt _ (by decide)) (inner_lt g) (by decide) (by decide) (by decide)
      _ (k0_off63_eq L t g) _ _ rfl _ _ _ (addr3 d L t g fiv hfiv) (fun l => hfiv _ rfl) _ _) i

theorem cov0_26 (i : S4x2x5x8x128.Idx) :
    tripRun.sl.Ho0_w51 d L t g ftv fiv fo0 hfiv i
      = if covH (t.val % 4) 0 g.val 27 i then tripVal ftv fiv i else fo0 i :=
  write_piece (t.val % 4) 0 g.val 26 _ fo0 (tripVal ftv fiv) (cov0_25 d L t g ftv fiv fo0 hfiv) _ (k0_off64_eq L t g) _ _
    (pay_ok ftv fiv (t.val % 4) g.val 0 2 3 (Nat.mod_lt _ (by decide)) (inner_lt g) (by decide) (by decide) (by decide)
      _ (k0_off64_eq L t g) _ _ rfl _ _ _ (addr3 d L t g fiv hfiv) (fun l => hfiv _ rfl) _ _) i

theorem cov0_27 (i : S4x2x5x8x128.Idx) :
    tripRun.sl.Ho0_w52 d L t g ftv fiv fo0 hfiv i
      = if covH (t.val % 4) 0 g.val 28 i then tripVal ftv fiv i else fo0 i :=
  write_piece (t.val % 4) 0 g.val 27 _ fo0 (tripVal ftv fiv) (cov0_26 d L t g ftv fiv fo0 hfiv) _ (k0_off65_eq L t g) _ _
    (pay_ok ftv fiv (t.val % 4) g.val 0 3 3 (Nat.mod_lt _ (by decide)) (inner_lt g) (by decide) (by decide) (by decide)
      _ (k0_off65_eq L t g) _ _ rfl _ _ _ (addr3 d L t g fiv hfiv) (fun l => hfiv _ rfl) _ _) i

theorem cov0_28 (i : S4x2x5x8x128.Idx) :
    tripRun.sl.Ho0_w53 d L t g ftv fiv fo0 hfiv i
      = if covH (t.val % 4) 0 g.val 29 i then tripVal ftv fiv i else fo0 i :=
  write_piece (t.val % 4) 0 g.val 28 _ fo0 (tripVal ftv fiv) (cov0_27 d L t g ftv fiv fo0 hfiv) _ (k0_off66_eq L t g) _ _
    (pay_ok ftv fiv (t.val % 4) g.val 0 4 3 (Nat.mod_lt _ (by decide)) (inner_lt g) (by decide) (by decide) (by decide)
      _ (k0_off66_eq L t g) _ _ rfl _ _ _ (addr3 d L t g fiv hfiv) (fun l => hfiv _ rfl) _ _) i

theorem cov0_29 (i : S4x2x5x8x128.Idx) :
    tripRun.sl.Ho0_w54 d L t g ftv fiv fo0 hfiv i
      = if covH (t.val % 4) 0 g.val 30 i then tripVal ftv fiv i else fo0 i :=
  write_piece (t.val % 4) 0 g.val 29 _ fo0 (tripVal ftv fiv) (cov0_28 d L t g ftv fiv fo0 hfiv) _ (k0_off67_eq L t g) _ _
    (pay_ok ftv fiv (t.val % 4) g.val 0 5 3 (Nat.mod_lt _ (by decide)) (inner_lt g) (by decide) (by decide) (by decide)
      _ (k0_off67_eq L t g) _ _ rfl _ _ _ (addr3 d L t g fiv hfiv) (fun l => hfiv _ rfl) _ _) i

theorem cov0_30 (i : S4x2x5x8x128.Idx) :
    tripRun.sl.Ho0_w55 d L t g ftv fiv fo0 hfiv i
      = if covH (t.val % 4) 0 g.val 31 i then tripVal ftv fiv i else fo0 i :=
  write_piece (t.val % 4) 0 g.val 30 _ fo0 (tripVal ftv fiv) (cov0_29 d L t g ftv fiv fo0 hfiv) _ (k0_off68_eq L t g) _ _
    (pay_ok ftv fiv (t.val % 4) g.val 0 6 3 (Nat.mod_lt _ (by decide)) (inner_lt g) (by decide) (by decide) (by decide)
      _ (k0_off68_eq L t g) _ _ rfl _ _ _ (addr3 d L t g fiv hfiv) (fun l => hfiv _ rfl) _ _) i

theorem cov0_31 (i : S4x2x5x8x128.Idx) :
    tripRun.sl.Ho0_w56 d L t g ftv fiv fo0 hfiv i
      = if covH (t.val % 4) 0 g.val 32 i then tripVal ftv fiv i else fo0 i :=
  write_piece (t.val % 4) 0 g.val 31 _ fo0 (tripVal ftv fiv) (cov0_30 d L t g ftv fiv fo0 hfiv) _ (k0_off69_eq L t g) _ _
    (pay_ok ftv fiv (t.val % 4) g.val 0 7 3 (Nat.mod_lt _ (by decide)) (inner_lt g) (by decide) (by decide) (by decide)
      _ (k0_off69_eq L t g) _ _ rfl _ _ _ (addr3 d L t g fiv hfiv) (fun l => hfiv _ rfl) _ _) i

theorem cov0_32 (i : S4x2x5x8x128.Idx) :
    tripRun.sl.Ho0_w65 d L t g ftv fiv fo0 hfiv i
      = if covH (t.val % 4) 0 g.val 33 i then tripVal ftv fiv i else fo0 i :=
  write_piece (t.val % 4) 0 g.val 32 _ fo0 (tripVal ftv fiv) (cov0_31 d L t g ftv fiv fo0 hfiv) _ (k0_off78_eq L t g) _ _
    (pay_ok ftv fiv (t.val % 4) g.val 0 0 4 (Nat.mod_lt _ (by decide)) (inner_lt g) (by decide) (by decide) (by decide)
      _ (k0_off78_eq L t g) _ _ rfl _ _ _ (addr4 d L t g fiv hfiv) (fun l => hfiv _ rfl) _ _) i

theorem cov0_33 (i : S4x2x5x8x128.Idx) :
    tripRun.sl.Ho0_w66 d L t g ftv fiv fo0 hfiv i
      = if covH (t.val % 4) 0 g.val 34 i then tripVal ftv fiv i else fo0 i :=
  write_piece (t.val % 4) 0 g.val 33 _ fo0 (tripVal ftv fiv) (cov0_32 d L t g ftv fiv fo0 hfiv) _ (k0_off79_eq L t g) _ _
    (pay_ok ftv fiv (t.val % 4) g.val 0 1 4 (Nat.mod_lt _ (by decide)) (inner_lt g) (by decide) (by decide) (by decide)
      _ (k0_off79_eq L t g) _ _ rfl _ _ _ (addr4 d L t g fiv hfiv) (fun l => hfiv _ rfl) _ _) i

theorem cov0_34 (i : S4x2x5x8x128.Idx) :
    tripRun.sl.Ho0_w67 d L t g ftv fiv fo0 hfiv i
      = if covH (t.val % 4) 0 g.val 35 i then tripVal ftv fiv i else fo0 i :=
  write_piece (t.val % 4) 0 g.val 34 _ fo0 (tripVal ftv fiv) (cov0_33 d L t g ftv fiv fo0 hfiv) _ (k0_off80_eq L t g) _ _
    (pay_ok ftv fiv (t.val % 4) g.val 0 2 4 (Nat.mod_lt _ (by decide)) (inner_lt g) (by decide) (by decide) (by decide)
      _ (k0_off80_eq L t g) _ _ rfl _ _ _ (addr4 d L t g fiv hfiv) (fun l => hfiv _ rfl) _ _) i

theorem cov0_35 (i : S4x2x5x8x128.Idx) :
    tripRun.sl.Ho0_w68 d L t g ftv fiv fo0 hfiv i
      = if covH (t.val % 4) 0 g.val 36 i then tripVal ftv fiv i else fo0 i :=
  write_piece (t.val % 4) 0 g.val 35 _ fo0 (tripVal ftv fiv) (cov0_34 d L t g ftv fiv fo0 hfiv) _ (k0_off81_eq L t g) _ _
    (pay_ok ftv fiv (t.val % 4) g.val 0 3 4 (Nat.mod_lt _ (by decide)) (inner_lt g) (by decide) (by decide) (by decide)
      _ (k0_off81_eq L t g) _ _ rfl _ _ _ (addr4 d L t g fiv hfiv) (fun l => hfiv _ rfl) _ _) i

theorem cov0_36 (i : S4x2x5x8x128.Idx) :
    tripRun.sl.Ho0_w69 d L t g ftv fiv fo0 hfiv i
      = if covH (t.val % 4) 0 g.val 37 i then tripVal ftv fiv i else fo0 i :=
  write_piece (t.val % 4) 0 g.val 36 _ fo0 (tripVal ftv fiv) (cov0_35 d L t g ftv fiv fo0 hfiv) _ (k0_off82_eq L t g) _ _
    (pay_ok ftv fiv (t.val % 4) g.val 0 4 4 (Nat.mod_lt _ (by decide)) (inner_lt g) (by decide) (by decide) (by decide)
      _ (k0_off82_eq L t g) _ _ rfl _ _ _ (addr4 d L t g fiv hfiv) (fun l => hfiv _ rfl) _ _) i

theorem cov0_37 (i : S4x2x5x8x128.Idx) :
    tripRun.sl.Ho0_w70 d L t g ftv fiv fo0 hfiv i
      = if covH (t.val % 4) 0 g.val 38 i then tripVal ftv fiv i else fo0 i :=
  write_piece (t.val % 4) 0 g.val 37 _ fo0 (tripVal ftv fiv) (cov0_36 d L t g ftv fiv fo0 hfiv) _ (k0_off83_eq L t g) _ _
    (pay_ok ftv fiv (t.val % 4) g.val 0 5 4 (Nat.mod_lt _ (by decide)) (inner_lt g) (by decide) (by decide) (by decide)
      _ (k0_off83_eq L t g) _ _ rfl _ _ _ (addr4 d L t g fiv hfiv) (fun l => hfiv _ rfl) _ _) i

theorem cov0_38 (i : S4x2x5x8x128.Idx) :
    tripRun.sl.Ho0_w71 d L t g ftv fiv fo0 hfiv i
      = if covH (t.val % 4) 0 g.val 39 i then tripVal ftv fiv i else fo0 i :=
  write_piece (t.val % 4) 0 g.val 38 _ fo0 (tripVal ftv fiv) (cov0_37 d L t g ftv fiv fo0 hfiv) _ (k0_off84_eq L t g) _ _
    (pay_ok ftv fiv (t.val % 4) g.val 0 6 4 (Nat.mod_lt _ (by decide)) (inner_lt g) (by decide) (by decide) (by decide)
      _ (k0_off84_eq L t g) _ _ rfl _ _ _ (addr4 d L t g fiv hfiv) (fun l => hfiv _ rfl) _ _) i

theorem cov0_39 (i : S4x2x5x8x128.Idx) :
    tripRun.sl.Ho0_w72 d L t g ftv fiv fo0 hfiv i
      = if covH (t.val % 4) 0 g.val 40 i then tripVal ftv fiv i else fo0 i :=
  write_piece (t.val % 4) 0 g.val 39 _ fo0 (tripVal ftv fiv) (cov0_38 d L t g ftv fiv fo0 hfiv) _ (k0_off85_eq L t g) _ _
    (pay_ok ftv fiv (t.val % 4) g.val 0 7 4 (Nat.mod_lt _ (by decide)) (inner_lt g) (by decide) (by decide) (by decide)
      _ (k0_off85_eq L t g) _ _ rfl _ _ _ (addr4 d L t g fiv hfiv) (fun l => hfiv _ rfl) _ _) i

theorem cov0_40 (i : S4x2x5x8x128.Idx) :
    tripRun.sl.Ho0_w81 d L t g ftv fiv fo0 hfiv i
      = if covH (t.val % 4) 0 g.val 41 i then tripVal ftv fiv i else fo0 i :=
  write_piece (t.val % 4) 0 g.val 40 _ fo0 (tripVal ftv fiv) (cov0_39 d L t g ftv fiv fo0 hfiv) _ (k0_off94_eq L t g) _ _
    (pay_ok ftv fiv (t.val % 4) g.val 0 0 5 (Nat.mod_lt _ (by decide)) (inner_lt g) (by decide) (by decide) (by decide)
      _ (k0_off94_eq L t g) _ _ rfl _ _ _ (addr5 d L t g fiv hfiv) (fun l => hfiv _ rfl) _ _) i

theorem cov0_41 (i : S4x2x5x8x128.Idx) :
    tripRun.sl.Ho0_w82 d L t g ftv fiv fo0 hfiv i
      = if covH (t.val % 4) 0 g.val 42 i then tripVal ftv fiv i else fo0 i :=
  write_piece (t.val % 4) 0 g.val 41 _ fo0 (tripVal ftv fiv) (cov0_40 d L t g ftv fiv fo0 hfiv) _ (k0_off95_eq L t g) _ _
    (pay_ok ftv fiv (t.val % 4) g.val 0 1 5 (Nat.mod_lt _ (by decide)) (inner_lt g) (by decide) (by decide) (by decide)
      _ (k0_off95_eq L t g) _ _ rfl _ _ _ (addr5 d L t g fiv hfiv) (fun l => hfiv _ rfl) _ _) i

theorem cov0_42 (i : S4x2x5x8x128.Idx) :
    tripRun.sl.Ho0_w83 d L t g ftv fiv fo0 hfiv i
      = if covH (t.val % 4) 0 g.val 43 i then tripVal ftv fiv i else fo0 i :=
  write_piece (t.val % 4) 0 g.val 42 _ fo0 (tripVal ftv fiv) (cov0_41 d L t g ftv fiv fo0 hfiv) _ (k0_off96_eq L t g) _ _
    (pay_ok ftv fiv (t.val % 4) g.val 0 2 5 (Nat.mod_lt _ (by decide)) (inner_lt g) (by decide) (by decide) (by decide)
      _ (k0_off96_eq L t g) _ _ rfl _ _ _ (addr5 d L t g fiv hfiv) (fun l => hfiv _ rfl) _ _) i

theorem cov0_43 (i : S4x2x5x8x128.Idx) :
    tripRun.sl.Ho0_w84 d L t g ftv fiv fo0 hfiv i
      = if covH (t.val % 4) 0 g.val 44 i then tripVal ftv fiv i else fo0 i :=
  write_piece (t.val % 4) 0 g.val 43 _ fo0 (tripVal ftv fiv) (cov0_42 d L t g ftv fiv fo0 hfiv) _ (k0_off97_eq L t g) _ _
    (pay_ok ftv fiv (t.val % 4) g.val 0 3 5 (Nat.mod_lt _ (by decide)) (inner_lt g) (by decide) (by decide) (by decide)
      _ (k0_off97_eq L t g) _ _ rfl _ _ _ (addr5 d L t g fiv hfiv) (fun l => hfiv _ rfl) _ _) i

theorem cov0_44 (i : S4x2x5x8x128.Idx) :
    tripRun.sl.Ho0_w85 d L t g ftv fiv fo0 hfiv i
      = if covH (t.val % 4) 0 g.val 45 i then tripVal ftv fiv i else fo0 i :=
  write_piece (t.val % 4) 0 g.val 44 _ fo0 (tripVal ftv fiv) (cov0_43 d L t g ftv fiv fo0 hfiv) _ (k0_off98_eq L t g) _ _
    (pay_ok ftv fiv (t.val % 4) g.val 0 4 5 (Nat.mod_lt _ (by decide)) (inner_lt g) (by decide) (by decide) (by decide)
      _ (k0_off98_eq L t g) _ _ rfl _ _ _ (addr5 d L t g fiv hfiv) (fun l => hfiv _ rfl) _ _) i

theorem cov0_45 (i : S4x2x5x8x128.Idx) :
    tripRun.sl.Ho0_w86 d L t g ftv fiv fo0 hfiv i
      = if covH (t.val % 4) 0 g.val 46 i then tripVal ftv fiv i else fo0 i :=
  write_piece (t.val % 4) 0 g.val 45 _ fo0 (tripVal ftv fiv) (cov0_44 d L t g ftv fiv fo0 hfiv) _ (k0_off99_eq L t g) _ _
    (pay_ok ftv fiv (t.val % 4) g.val 0 5 5 (Nat.mod_lt _ (by decide)) (inner_lt g) (by decide) (by decide) (by decide)
      _ (k0_off99_eq L t g) _ _ rfl _ _ _ (addr5 d L t g fiv hfiv) (fun l => hfiv _ rfl) _ _) i

theorem cov0_46 (i : S4x2x5x8x128.Idx) :
    tripRun.sl.Ho0_w87 d L t g ftv fiv fo0 hfiv i
      = if covH (t.val % 4) 0 g.val 47 i then tripVal ftv fiv i else fo0 i :=
  write_piece (t.val % 4) 0 g.val 46 _ fo0 (tripVal ftv fiv) (cov0_45 d L t g ftv fiv fo0 hfiv) _ (k0_off100_eq L t g) _ _
    (pay_ok ftv fiv (t.val % 4) g.val 0 6 5 (Nat.mod_lt _ (by decide)) (inner_lt g) (by decide) (by decide) (by decide)
      _ (k0_off100_eq L t g) _ _ rfl _ _ _ (addr5 d L t g fiv hfiv) (fun l => hfiv _ rfl) _ _) i

theorem cov0_47 (i : S4x2x5x8x128.Idx) :
    tripRun.sl.Ho0_w88 d L t g ftv fiv fo0 hfiv i
      = if covH (t.val % 4) 0 g.val 48 i then tripVal ftv fiv i else fo0 i :=
  write_piece (t.val % 4) 0 g.val 47 _ fo0 (tripVal ftv fiv) (cov0_46 d L t g ftv fiv fo0 hfiv) _ (k0_off101_eq L t g) _ _
    (pay_ok ftv fiv (t.val % 4) g.val 0 7 5 (Nat.mod_lt _ (by decide)) (inner_lt g) (by decide) (by decide) (by decide)
      _ (k0_off101_eq L t g) _ _ rfl _ _ _ (addr5 d L t g fiv hfiv) (fun l => hfiv _ rfl) _ _) i

theorem cov0_48 (i : S4x2x5x8x128.Idx) :
    tripRun.sl.Ho0_w97 d L t g ftv fiv fo0 hfiv i
      = if covH (t.val % 4) 0 g.val 49 i then tripVal ftv fiv i else fo0 i :=
  write_piece (t.val % 4) 0 g.val 48 _ fo0 (tripVal ftv fiv) (cov0_47 d L t g ftv fiv fo0 hfiv) _ (k0_off110_eq L t g) _ _
    (pay_ok ftv fiv (t.val % 4) g.val 0 0 6 (Nat.mod_lt _ (by decide)) (inner_lt g) (by decide) (by decide) (by decide)
      _ (k0_off110_eq L t g) _ _ rfl _ _ _ (addr6 d L t g fiv hfiv) (fun l => hfiv _ rfl) _ _) i

theorem cov0_49 (i : S4x2x5x8x128.Idx) :
    tripRun.sl.Ho0_w98 d L t g ftv fiv fo0 hfiv i
      = if covH (t.val % 4) 0 g.val 50 i then tripVal ftv fiv i else fo0 i :=
  write_piece (t.val % 4) 0 g.val 49 _ fo0 (tripVal ftv fiv) (cov0_48 d L t g ftv fiv fo0 hfiv) _ (k0_off111_eq L t g) _ _
    (pay_ok ftv fiv (t.val % 4) g.val 0 1 6 (Nat.mod_lt _ (by decide)) (inner_lt g) (by decide) (by decide) (by decide)
      _ (k0_off111_eq L t g) _ _ rfl _ _ _ (addr6 d L t g fiv hfiv) (fun l => hfiv _ rfl) _ _) i

theorem cov0_50 (i : S4x2x5x8x128.Idx) :
    tripRun.sl.Ho0_w99 d L t g ftv fiv fo0 hfiv i
      = if covH (t.val % 4) 0 g.val 51 i then tripVal ftv fiv i else fo0 i :=
  write_piece (t.val % 4) 0 g.val 50 _ fo0 (tripVal ftv fiv) (cov0_49 d L t g ftv fiv fo0 hfiv) _ (k0_off112_eq L t g) _ _
    (pay_ok ftv fiv (t.val % 4) g.val 0 2 6 (Nat.mod_lt _ (by decide)) (inner_lt g) (by decide) (by decide) (by decide)
      _ (k0_off112_eq L t g) _ _ rfl _ _ _ (addr6 d L t g fiv hfiv) (fun l => hfiv _ rfl) _ _) i

theorem cov0_51 (i : S4x2x5x8x128.Idx) :
    tripRun.sl.Ho0_w100 d L t g ftv fiv fo0 hfiv i
      = if covH (t.val % 4) 0 g.val 52 i then tripVal ftv fiv i else fo0 i :=
  write_piece (t.val % 4) 0 g.val 51 _ fo0 (tripVal ftv fiv) (cov0_50 d L t g ftv fiv fo0 hfiv) _ (k0_off113_eq L t g) _ _
    (pay_ok ftv fiv (t.val % 4) g.val 0 3 6 (Nat.mod_lt _ (by decide)) (inner_lt g) (by decide) (by decide) (by decide)
      _ (k0_off113_eq L t g) _ _ rfl _ _ _ (addr6 d L t g fiv hfiv) (fun l => hfiv _ rfl) _ _) i

theorem cov0_52 (i : S4x2x5x8x128.Idx) :
    tripRun.sl.Ho0_w101 d L t g ftv fiv fo0 hfiv i
      = if covH (t.val % 4) 0 g.val 53 i then tripVal ftv fiv i else fo0 i :=
  write_piece (t.val % 4) 0 g.val 52 _ fo0 (tripVal ftv fiv) (cov0_51 d L t g ftv fiv fo0 hfiv) _ (k0_off114_eq L t g) _ _
    (pay_ok ftv fiv (t.val % 4) g.val 0 4 6 (Nat.mod_lt _ (by decide)) (inner_lt g) (by decide) (by decide) (by decide)
      _ (k0_off114_eq L t g) _ _ rfl _ _ _ (addr6 d L t g fiv hfiv) (fun l => hfiv _ rfl) _ _) i

theorem cov0_53 (i : S4x2x5x8x128.Idx) :
    tripRun.sl.Ho0_w102 d L t g ftv fiv fo0 hfiv i
      = if covH (t.val % 4) 0 g.val 54 i then tripVal ftv fiv i else fo0 i :=
  write_piece (t.val % 4) 0 g.val 53 _ fo0 (tripVal ftv fiv) (cov0_52 d L t g ftv fiv fo0 hfiv) _ (k0_off115_eq L t g) _ _
    (pay_ok ftv fiv (t.val % 4) g.val 0 5 6 (Nat.mod_lt _ (by decide)) (inner_lt g) (by decide) (by decide) (by decide)
      _ (k0_off115_eq L t g) _ _ rfl _ _ _ (addr6 d L t g fiv hfiv) (fun l => hfiv _ rfl) _ _) i

theorem cov0_54 (i : S4x2x5x8x128.Idx) :
    tripRun.sl.Ho0_w103 d L t g ftv fiv fo0 hfiv i
      = if covH (t.val % 4) 0 g.val 55 i then tripVal ftv fiv i else fo0 i :=
  write_piece (t.val % 4) 0 g.val 54 _ fo0 (tripVal ftv fiv) (cov0_53 d L t g ftv fiv fo0 hfiv) _ (k0_off116_eq L t g) _ _
    (pay_ok ftv fiv (t.val % 4) g.val 0 6 6 (Nat.mod_lt _ (by decide)) (inner_lt g) (by decide) (by decide) (by decide)
      _ (k0_off116_eq L t g) _ _ rfl _ _ _ (addr6 d L t g fiv hfiv) (fun l => hfiv _ rfl) _ _) i

theorem cov0_55 (i : S4x2x5x8x128.Idx) :
    tripRun.sl.Ho0_w104 d L t g ftv fiv fo0 hfiv i
      = if covH (t.val % 4) 0 g.val 56 i then tripVal ftv fiv i else fo0 i :=
  write_piece (t.val % 4) 0 g.val 55 _ fo0 (tripVal ftv fiv) (cov0_54 d L t g ftv fiv fo0 hfiv) _ (k0_off117_eq L t g) _ _
    (pay_ok ftv fiv (t.val % 4) g.val 0 7 6 (Nat.mod_lt _ (by decide)) (inner_lt g) (by decide) (by decide) (by decide)
      _ (k0_off117_eq L t g) _ _ rfl _ _ _ (addr6 d L t g fiv hfiv) (fun l => hfiv _ rfl) _ _) i

theorem cov0_56 (i : S4x2x5x8x128.Idx) :
    tripRun.sl.Ho0_w113 d L t g ftv fiv fo0 hfiv i
      = if covH (t.val % 4) 0 g.val 57 i then tripVal ftv fiv i else fo0 i :=
  write_piece (t.val % 4) 0 g.val 56 _ fo0 (tripVal ftv fiv) (cov0_55 d L t g ftv fiv fo0 hfiv) _ (k0_off126_eq L t g) _ _
    (pay_ok ftv fiv (t.val % 4) g.val 0 0 7 (Nat.mod_lt _ (by decide)) (inner_lt g) (by decide) (by decide) (by decide)
      _ (k0_off126_eq L t g) _ _ rfl _ _ _ (addr7 d L t g fiv hfiv) (fun l => hfiv _ rfl) _ _) i

theorem cov0_57 (i : S4x2x5x8x128.Idx) :
    tripRun.sl.Ho0_w114 d L t g ftv fiv fo0 hfiv i
      = if covH (t.val % 4) 0 g.val 58 i then tripVal ftv fiv i else fo0 i :=
  write_piece (t.val % 4) 0 g.val 57 _ fo0 (tripVal ftv fiv) (cov0_56 d L t g ftv fiv fo0 hfiv) _ (k0_off127_eq L t g) _ _
    (pay_ok ftv fiv (t.val % 4) g.val 0 1 7 (Nat.mod_lt _ (by decide)) (inner_lt g) (by decide) (by decide) (by decide)
      _ (k0_off127_eq L t g) _ _ rfl _ _ _ (addr7 d L t g fiv hfiv) (fun l => hfiv _ rfl) _ _) i

theorem cov0_58 (i : S4x2x5x8x128.Idx) :
    tripRun.sl.Ho0_w115 d L t g ftv fiv fo0 hfiv i
      = if covH (t.val % 4) 0 g.val 59 i then tripVal ftv fiv i else fo0 i :=
  write_piece (t.val % 4) 0 g.val 58 _ fo0 (tripVal ftv fiv) (cov0_57 d L t g ftv fiv fo0 hfiv) _ (k0_off128_eq L t g) _ _
    (pay_ok ftv fiv (t.val % 4) g.val 0 2 7 (Nat.mod_lt _ (by decide)) (inner_lt g) (by decide) (by decide) (by decide)
      _ (k0_off128_eq L t g) _ _ rfl _ _ _ (addr7 d L t g fiv hfiv) (fun l => hfiv _ rfl) _ _) i

theorem cov0_59 (i : S4x2x5x8x128.Idx) :
    tripRun.sl.Ho0_w116 d L t g ftv fiv fo0 hfiv i
      = if covH (t.val % 4) 0 g.val 60 i then tripVal ftv fiv i else fo0 i :=
  write_piece (t.val % 4) 0 g.val 59 _ fo0 (tripVal ftv fiv) (cov0_58 d L t g ftv fiv fo0 hfiv) _ (k0_off129_eq L t g) _ _
    (pay_ok ftv fiv (t.val % 4) g.val 0 3 7 (Nat.mod_lt _ (by decide)) (inner_lt g) (by decide) (by decide) (by decide)
      _ (k0_off129_eq L t g) _ _ rfl _ _ _ (addr7 d L t g fiv hfiv) (fun l => hfiv _ rfl) _ _) i

theorem cov0_60 (i : S4x2x5x8x128.Idx) :
    tripRun.sl.Ho0_w117 d L t g ftv fiv fo0 hfiv i
      = if covH (t.val % 4) 0 g.val 61 i then tripVal ftv fiv i else fo0 i :=
  write_piece (t.val % 4) 0 g.val 60 _ fo0 (tripVal ftv fiv) (cov0_59 d L t g ftv fiv fo0 hfiv) _ (k0_off130_eq L t g) _ _
    (pay_ok ftv fiv (t.val % 4) g.val 0 4 7 (Nat.mod_lt _ (by decide)) (inner_lt g) (by decide) (by decide) (by decide)
      _ (k0_off130_eq L t g) _ _ rfl _ _ _ (addr7 d L t g fiv hfiv) (fun l => hfiv _ rfl) _ _) i

theorem cov0_61 (i : S4x2x5x8x128.Idx) :
    tripRun.sl.Ho0_w118 d L t g ftv fiv fo0 hfiv i
      = if covH (t.val % 4) 0 g.val 62 i then tripVal ftv fiv i else fo0 i :=
  write_piece (t.val % 4) 0 g.val 61 _ fo0 (tripVal ftv fiv) (cov0_60 d L t g ftv fiv fo0 hfiv) _ (k0_off131_eq L t g) _ _
    (pay_ok ftv fiv (t.val % 4) g.val 0 5 7 (Nat.mod_lt _ (by decide)) (inner_lt g) (by decide) (by decide) (by decide)
      _ (k0_off131_eq L t g) _ _ rfl _ _ _ (addr7 d L t g fiv hfiv) (fun l => hfiv _ rfl) _ _) i

theorem cov0_62 (i : S4x2x5x8x128.Idx) :
    tripRun.sl.Ho0_w119 d L t g ftv fiv fo0 hfiv i
      = if covH (t.val % 4) 0 g.val 63 i then tripVal ftv fiv i else fo0 i :=
  write_piece (t.val % 4) 0 g.val 62 _ fo0 (tripVal ftv fiv) (cov0_61 d L t g ftv fiv fo0 hfiv) _ (k0_off132_eq L t g) _ _
    (pay_ok ftv fiv (t.val % 4) g.val 0 6 7 (Nat.mod_lt _ (by decide)) (inner_lt g) (by decide) (by decide) (by decide)
      _ (k0_off132_eq L t g) _ _ rfl _ _ _ (addr7 d L t g fiv hfiv) (fun l => hfiv _ rfl) _ _) i

theorem cov0_63 (i : S4x2x5x8x128.Idx) :
    tripRun.sl.Ho0_w120 d L t g ftv fiv fo0 hfiv i
      = if covH (t.val % 4) 0 g.val 64 i then tripVal ftv fiv i else fo0 i :=
  write_piece (t.val % 4) 0 g.val 63 _ fo0 (tripVal ftv fiv) (cov0_62 d L t g ftv fiv fo0 hfiv) _ (k0_off133_eq L t g) _ _
    (pay_ok ftv fiv (t.val % 4) g.val 0 7 7 (Nat.mod_lt _ (by decide)) (inner_lt g) (by decide) (by decide) (by decide)
      _ (k0_off133_eq L t g) _ _ rfl _ _ _ (addr7 d L t g fiv hfiv) (fun l => hfiv _ rfl) _ _) i

/-! ## Half 1, store by store -/

theorem cov1_0 (i : S4x2x5x8x128.Idx) :
    tripRun.sl.Ho1_w9 d L t g ftv fiv fo1 hfiv i
      = if covH (t.val % 4) 1 g.val 1 i then tripVal ftv fiv i else fo1 i :=
  write_piece (t.val % 4) 1 g.val 0 _ fo1 (tripVal ftv fiv) (fun i => (if_neg (covH_zero _ _ _ i)).symm) _ (k0_off22_eq L t g) _ _
    (pay_ok ftv fiv (t.val % 4) g.val 1 0 0 (Nat.mod_lt _ (by decide)) (inner_lt g) (by decide) (by decide) (by decide)
      _ (k0_off22_eq L t g) _ _ rfl _ _ _ (addr0 d L t g fiv hfiv) (fun l => hfiv _ rfl) _ _) i

theorem cov1_1 (i : S4x2x5x8x128.Idx) :
    tripRun.sl.Ho1_w10 d L t g ftv fiv fo1 hfiv i
      = if covH (t.val % 4) 1 g.val 2 i then tripVal ftv fiv i else fo1 i :=
  write_piece (t.val % 4) 1 g.val 1 _ fo1 (tripVal ftv fiv) (cov1_0 d L t g ftv fiv fo1 hfiv) _ (k0_off23_eq L t g) _ _
    (pay_ok ftv fiv (t.val % 4) g.val 1 1 0 (Nat.mod_lt _ (by decide)) (inner_lt g) (by decide) (by decide) (by decide)
      _ (k0_off23_eq L t g) _ _ rfl _ _ _ (addr0 d L t g fiv hfiv) (fun l => hfiv _ rfl) _ _) i

theorem cov1_2 (i : S4x2x5x8x128.Idx) :
    tripRun.sl.Ho1_w11 d L t g ftv fiv fo1 hfiv i
      = if covH (t.val % 4) 1 g.val 3 i then tripVal ftv fiv i else fo1 i :=
  write_piece (t.val % 4) 1 g.val 2 _ fo1 (tripVal ftv fiv) (cov1_1 d L t g ftv fiv fo1 hfiv) _ (k0_off24_eq L t g) _ _
    (pay_ok ftv fiv (t.val % 4) g.val 1 2 0 (Nat.mod_lt _ (by decide)) (inner_lt g) (by decide) (by decide) (by decide)
      _ (k0_off24_eq L t g) _ _ rfl _ _ _ (addr0 d L t g fiv hfiv) (fun l => hfiv _ rfl) _ _) i

theorem cov1_3 (i : S4x2x5x8x128.Idx) :
    tripRun.sl.Ho1_w12 d L t g ftv fiv fo1 hfiv i
      = if covH (t.val % 4) 1 g.val 4 i then tripVal ftv fiv i else fo1 i :=
  write_piece (t.val % 4) 1 g.val 3 _ fo1 (tripVal ftv fiv) (cov1_2 d L t g ftv fiv fo1 hfiv) _ (k0_off25_eq L t g) _ _
    (pay_ok ftv fiv (t.val % 4) g.val 1 3 0 (Nat.mod_lt _ (by decide)) (inner_lt g) (by decide) (by decide) (by decide)
      _ (k0_off25_eq L t g) _ _ rfl _ _ _ (addr0 d L t g fiv hfiv) (fun l => hfiv _ rfl) _ _) i

theorem cov1_4 (i : S4x2x5x8x128.Idx) :
    tripRun.sl.Ho1_w13 d L t g ftv fiv fo1 hfiv i
      = if covH (t.val % 4) 1 g.val 5 i then tripVal ftv fiv i else fo1 i :=
  write_piece (t.val % 4) 1 g.val 4 _ fo1 (tripVal ftv fiv) (cov1_3 d L t g ftv fiv fo1 hfiv) _ (k0_off26_eq L t g) _ _
    (pay_ok ftv fiv (t.val % 4) g.val 1 4 0 (Nat.mod_lt _ (by decide)) (inner_lt g) (by decide) (by decide) (by decide)
      _ (k0_off26_eq L t g) _ _ rfl _ _ _ (addr0 d L t g fiv hfiv) (fun l => hfiv _ rfl) _ _) i

theorem cov1_5 (i : S4x2x5x8x128.Idx) :
    tripRun.sl.Ho1_w14 d L t g ftv fiv fo1 hfiv i
      = if covH (t.val % 4) 1 g.val 6 i then tripVal ftv fiv i else fo1 i :=
  write_piece (t.val % 4) 1 g.val 5 _ fo1 (tripVal ftv fiv) (cov1_4 d L t g ftv fiv fo1 hfiv) _ (k0_off27_eq L t g) _ _
    (pay_ok ftv fiv (t.val % 4) g.val 1 5 0 (Nat.mod_lt _ (by decide)) (inner_lt g) (by decide) (by decide) (by decide)
      _ (k0_off27_eq L t g) _ _ rfl _ _ _ (addr0 d L t g fiv hfiv) (fun l => hfiv _ rfl) _ _) i

theorem cov1_6 (i : S4x2x5x8x128.Idx) :
    tripRun.sl.Ho1_w15 d L t g ftv fiv fo1 hfiv i
      = if covH (t.val % 4) 1 g.val 7 i then tripVal ftv fiv i else fo1 i :=
  write_piece (t.val % 4) 1 g.val 6 _ fo1 (tripVal ftv fiv) (cov1_5 d L t g ftv fiv fo1 hfiv) _ (k0_off28_eq L t g) _ _
    (pay_ok ftv fiv (t.val % 4) g.val 1 6 0 (Nat.mod_lt _ (by decide)) (inner_lt g) (by decide) (by decide) (by decide)
      _ (k0_off28_eq L t g) _ _ rfl _ _ _ (addr0 d L t g fiv hfiv) (fun l => hfiv _ rfl) _ _) i

theorem cov1_7 (i : S4x2x5x8x128.Idx) :
    tripRun.sl.Ho1_w16 d L t g ftv fiv fo1 hfiv i
      = if covH (t.val % 4) 1 g.val 8 i then tripVal ftv fiv i else fo1 i :=
  write_piece (t.val % 4) 1 g.val 7 _ fo1 (tripVal ftv fiv) (cov1_6 d L t g ftv fiv fo1 hfiv) _ (k0_off29_eq L t g) _ _
    (pay_ok ftv fiv (t.val % 4) g.val 1 7 0 (Nat.mod_lt _ (by decide)) (inner_lt g) (by decide) (by decide) (by decide)
      _ (k0_off29_eq L t g) _ _ rfl _ _ _ (addr0 d L t g fiv hfiv) (fun l => hfiv _ rfl) _ _) i

theorem cov1_8 (i : S4x2x5x8x128.Idx) :
    tripRun.sl.Ho1_w25 d L t g ftv fiv fo1 hfiv i
      = if covH (t.val % 4) 1 g.val 9 i then tripVal ftv fiv i else fo1 i :=
  write_piece (t.val % 4) 1 g.val 8 _ fo1 (tripVal ftv fiv) (cov1_7 d L t g ftv fiv fo1 hfiv) _ (k0_off38_eq L t g) _ _
    (pay_ok ftv fiv (t.val % 4) g.val 1 0 1 (Nat.mod_lt _ (by decide)) (inner_lt g) (by decide) (by decide) (by decide)
      _ (k0_off38_eq L t g) _ _ rfl _ _ _ (addr1 d L t g fiv hfiv) (fun l => hfiv _ rfl) _ _) i

theorem cov1_9 (i : S4x2x5x8x128.Idx) :
    tripRun.sl.Ho1_w26 d L t g ftv fiv fo1 hfiv i
      = if covH (t.val % 4) 1 g.val 10 i then tripVal ftv fiv i else fo1 i :=
  write_piece (t.val % 4) 1 g.val 9 _ fo1 (tripVal ftv fiv) (cov1_8 d L t g ftv fiv fo1 hfiv) _ (k0_off39_eq L t g) _ _
    (pay_ok ftv fiv (t.val % 4) g.val 1 1 1 (Nat.mod_lt _ (by decide)) (inner_lt g) (by decide) (by decide) (by decide)
      _ (k0_off39_eq L t g) _ _ rfl _ _ _ (addr1 d L t g fiv hfiv) (fun l => hfiv _ rfl) _ _) i

theorem cov1_10 (i : S4x2x5x8x128.Idx) :
    tripRun.sl.Ho1_w27 d L t g ftv fiv fo1 hfiv i
      = if covH (t.val % 4) 1 g.val 11 i then tripVal ftv fiv i else fo1 i :=
  write_piece (t.val % 4) 1 g.val 10 _ fo1 (tripVal ftv fiv) (cov1_9 d L t g ftv fiv fo1 hfiv) _ (k0_off40_eq L t g) _ _
    (pay_ok ftv fiv (t.val % 4) g.val 1 2 1 (Nat.mod_lt _ (by decide)) (inner_lt g) (by decide) (by decide) (by decide)
      _ (k0_off40_eq L t g) _ _ rfl _ _ _ (addr1 d L t g fiv hfiv) (fun l => hfiv _ rfl) _ _) i

theorem cov1_11 (i : S4x2x5x8x128.Idx) :
    tripRun.sl.Ho1_w28 d L t g ftv fiv fo1 hfiv i
      = if covH (t.val % 4) 1 g.val 12 i then tripVal ftv fiv i else fo1 i :=
  write_piece (t.val % 4) 1 g.val 11 _ fo1 (tripVal ftv fiv) (cov1_10 d L t g ftv fiv fo1 hfiv) _ (k0_off41_eq L t g) _ _
    (pay_ok ftv fiv (t.val % 4) g.val 1 3 1 (Nat.mod_lt _ (by decide)) (inner_lt g) (by decide) (by decide) (by decide)
      _ (k0_off41_eq L t g) _ _ rfl _ _ _ (addr1 d L t g fiv hfiv) (fun l => hfiv _ rfl) _ _) i

theorem cov1_12 (i : S4x2x5x8x128.Idx) :
    tripRun.sl.Ho1_w29 d L t g ftv fiv fo1 hfiv i
      = if covH (t.val % 4) 1 g.val 13 i then tripVal ftv fiv i else fo1 i :=
  write_piece (t.val % 4) 1 g.val 12 _ fo1 (tripVal ftv fiv) (cov1_11 d L t g ftv fiv fo1 hfiv) _ (k0_off42_eq L t g) _ _
    (pay_ok ftv fiv (t.val % 4) g.val 1 4 1 (Nat.mod_lt _ (by decide)) (inner_lt g) (by decide) (by decide) (by decide)
      _ (k0_off42_eq L t g) _ _ rfl _ _ _ (addr1 d L t g fiv hfiv) (fun l => hfiv _ rfl) _ _) i

theorem cov1_13 (i : S4x2x5x8x128.Idx) :
    tripRun.sl.Ho1_w30 d L t g ftv fiv fo1 hfiv i
      = if covH (t.val % 4) 1 g.val 14 i then tripVal ftv fiv i else fo1 i :=
  write_piece (t.val % 4) 1 g.val 13 _ fo1 (tripVal ftv fiv) (cov1_12 d L t g ftv fiv fo1 hfiv) _ (k0_off43_eq L t g) _ _
    (pay_ok ftv fiv (t.val % 4) g.val 1 5 1 (Nat.mod_lt _ (by decide)) (inner_lt g) (by decide) (by decide) (by decide)
      _ (k0_off43_eq L t g) _ _ rfl _ _ _ (addr1 d L t g fiv hfiv) (fun l => hfiv _ rfl) _ _) i

theorem cov1_14 (i : S4x2x5x8x128.Idx) :
    tripRun.sl.Ho1_w31 d L t g ftv fiv fo1 hfiv i
      = if covH (t.val % 4) 1 g.val 15 i then tripVal ftv fiv i else fo1 i :=
  write_piece (t.val % 4) 1 g.val 14 _ fo1 (tripVal ftv fiv) (cov1_13 d L t g ftv fiv fo1 hfiv) _ (k0_off44_eq L t g) _ _
    (pay_ok ftv fiv (t.val % 4) g.val 1 6 1 (Nat.mod_lt _ (by decide)) (inner_lt g) (by decide) (by decide) (by decide)
      _ (k0_off44_eq L t g) _ _ rfl _ _ _ (addr1 d L t g fiv hfiv) (fun l => hfiv _ rfl) _ _) i

theorem cov1_15 (i : S4x2x5x8x128.Idx) :
    tripRun.sl.Ho1_w32 d L t g ftv fiv fo1 hfiv i
      = if covH (t.val % 4) 1 g.val 16 i then tripVal ftv fiv i else fo1 i :=
  write_piece (t.val % 4) 1 g.val 15 _ fo1 (tripVal ftv fiv) (cov1_14 d L t g ftv fiv fo1 hfiv) _ (k0_off45_eq L t g) _ _
    (pay_ok ftv fiv (t.val % 4) g.val 1 7 1 (Nat.mod_lt _ (by decide)) (inner_lt g) (by decide) (by decide) (by decide)
      _ (k0_off45_eq L t g) _ _ rfl _ _ _ (addr1 d L t g fiv hfiv) (fun l => hfiv _ rfl) _ _) i

theorem cov1_16 (i : S4x2x5x8x128.Idx) :
    tripRun.sl.Ho1_w41 d L t g ftv fiv fo1 hfiv i
      = if covH (t.val % 4) 1 g.val 17 i then tripVal ftv fiv i else fo1 i :=
  write_piece (t.val % 4) 1 g.val 16 _ fo1 (tripVal ftv fiv) (cov1_15 d L t g ftv fiv fo1 hfiv) _ (k0_off54_eq L t g) _ _
    (pay_ok ftv fiv (t.val % 4) g.val 1 0 2 (Nat.mod_lt _ (by decide)) (inner_lt g) (by decide) (by decide) (by decide)
      _ (k0_off54_eq L t g) _ _ rfl _ _ _ (addr2 d L t g fiv hfiv) (fun l => hfiv _ rfl) _ _) i

theorem cov1_17 (i : S4x2x5x8x128.Idx) :
    tripRun.sl.Ho1_w42 d L t g ftv fiv fo1 hfiv i
      = if covH (t.val % 4) 1 g.val 18 i then tripVal ftv fiv i else fo1 i :=
  write_piece (t.val % 4) 1 g.val 17 _ fo1 (tripVal ftv fiv) (cov1_16 d L t g ftv fiv fo1 hfiv) _ (k0_off55_eq L t g) _ _
    (pay_ok ftv fiv (t.val % 4) g.val 1 1 2 (Nat.mod_lt _ (by decide)) (inner_lt g) (by decide) (by decide) (by decide)
      _ (k0_off55_eq L t g) _ _ rfl _ _ _ (addr2 d L t g fiv hfiv) (fun l => hfiv _ rfl) _ _) i

theorem cov1_18 (i : S4x2x5x8x128.Idx) :
    tripRun.sl.Ho1_w43 d L t g ftv fiv fo1 hfiv i
      = if covH (t.val % 4) 1 g.val 19 i then tripVal ftv fiv i else fo1 i :=
  write_piece (t.val % 4) 1 g.val 18 _ fo1 (tripVal ftv fiv) (cov1_17 d L t g ftv fiv fo1 hfiv) _ (k0_off56_eq L t g) _ _
    (pay_ok ftv fiv (t.val % 4) g.val 1 2 2 (Nat.mod_lt _ (by decide)) (inner_lt g) (by decide) (by decide) (by decide)
      _ (k0_off56_eq L t g) _ _ rfl _ _ _ (addr2 d L t g fiv hfiv) (fun l => hfiv _ rfl) _ _) i

theorem cov1_19 (i : S4x2x5x8x128.Idx) :
    tripRun.sl.Ho1_w44 d L t g ftv fiv fo1 hfiv i
      = if covH (t.val % 4) 1 g.val 20 i then tripVal ftv fiv i else fo1 i :=
  write_piece (t.val % 4) 1 g.val 19 _ fo1 (tripVal ftv fiv) (cov1_18 d L t g ftv fiv fo1 hfiv) _ (k0_off57_eq L t g) _ _
    (pay_ok ftv fiv (t.val % 4) g.val 1 3 2 (Nat.mod_lt _ (by decide)) (inner_lt g) (by decide) (by decide) (by decide)
      _ (k0_off57_eq L t g) _ _ rfl _ _ _ (addr2 d L t g fiv hfiv) (fun l => hfiv _ rfl) _ _) i

theorem cov1_20 (i : S4x2x5x8x128.Idx) :
    tripRun.sl.Ho1_w45 d L t g ftv fiv fo1 hfiv i
      = if covH (t.val % 4) 1 g.val 21 i then tripVal ftv fiv i else fo1 i :=
  write_piece (t.val % 4) 1 g.val 20 _ fo1 (tripVal ftv fiv) (cov1_19 d L t g ftv fiv fo1 hfiv) _ (k0_off58_eq L t g) _ _
    (pay_ok ftv fiv (t.val % 4) g.val 1 4 2 (Nat.mod_lt _ (by decide)) (inner_lt g) (by decide) (by decide) (by decide)
      _ (k0_off58_eq L t g) _ _ rfl _ _ _ (addr2 d L t g fiv hfiv) (fun l => hfiv _ rfl) _ _) i

theorem cov1_21 (i : S4x2x5x8x128.Idx) :
    tripRun.sl.Ho1_w46 d L t g ftv fiv fo1 hfiv i
      = if covH (t.val % 4) 1 g.val 22 i then tripVal ftv fiv i else fo1 i :=
  write_piece (t.val % 4) 1 g.val 21 _ fo1 (tripVal ftv fiv) (cov1_20 d L t g ftv fiv fo1 hfiv) _ (k0_off59_eq L t g) _ _
    (pay_ok ftv fiv (t.val % 4) g.val 1 5 2 (Nat.mod_lt _ (by decide)) (inner_lt g) (by decide) (by decide) (by decide)
      _ (k0_off59_eq L t g) _ _ rfl _ _ _ (addr2 d L t g fiv hfiv) (fun l => hfiv _ rfl) _ _) i

theorem cov1_22 (i : S4x2x5x8x128.Idx) :
    tripRun.sl.Ho1_w47 d L t g ftv fiv fo1 hfiv i
      = if covH (t.val % 4) 1 g.val 23 i then tripVal ftv fiv i else fo1 i :=
  write_piece (t.val % 4) 1 g.val 22 _ fo1 (tripVal ftv fiv) (cov1_21 d L t g ftv fiv fo1 hfiv) _ (k0_off60_eq L t g) _ _
    (pay_ok ftv fiv (t.val % 4) g.val 1 6 2 (Nat.mod_lt _ (by decide)) (inner_lt g) (by decide) (by decide) (by decide)
      _ (k0_off60_eq L t g) _ _ rfl _ _ _ (addr2 d L t g fiv hfiv) (fun l => hfiv _ rfl) _ _) i

theorem cov1_23 (i : S4x2x5x8x128.Idx) :
    tripRun.sl.Ho1_w48 d L t g ftv fiv fo1 hfiv i
      = if covH (t.val % 4) 1 g.val 24 i then tripVal ftv fiv i else fo1 i :=
  write_piece (t.val % 4) 1 g.val 23 _ fo1 (tripVal ftv fiv) (cov1_22 d L t g ftv fiv fo1 hfiv) _ (k0_off61_eq L t g) _ _
    (pay_ok ftv fiv (t.val % 4) g.val 1 7 2 (Nat.mod_lt _ (by decide)) (inner_lt g) (by decide) (by decide) (by decide)
      _ (k0_off61_eq L t g) _ _ rfl _ _ _ (addr2 d L t g fiv hfiv) (fun l => hfiv _ rfl) _ _) i

theorem cov1_24 (i : S4x2x5x8x128.Idx) :
    tripRun.sl.Ho1_w57 d L t g ftv fiv fo1 hfiv i
      = if covH (t.val % 4) 1 g.val 25 i then tripVal ftv fiv i else fo1 i :=
  write_piece (t.val % 4) 1 g.val 24 _ fo1 (tripVal ftv fiv) (cov1_23 d L t g ftv fiv fo1 hfiv) _ (k0_off70_eq L t g) _ _
    (pay_ok ftv fiv (t.val % 4) g.val 1 0 3 (Nat.mod_lt _ (by decide)) (inner_lt g) (by decide) (by decide) (by decide)
      _ (k0_off70_eq L t g) _ _ rfl _ _ _ (addr3 d L t g fiv hfiv) (fun l => hfiv _ rfl) _ _) i

theorem cov1_25 (i : S4x2x5x8x128.Idx) :
    tripRun.sl.Ho1_w58 d L t g ftv fiv fo1 hfiv i
      = if covH (t.val % 4) 1 g.val 26 i then tripVal ftv fiv i else fo1 i :=
  write_piece (t.val % 4) 1 g.val 25 _ fo1 (tripVal ftv fiv) (cov1_24 d L t g ftv fiv fo1 hfiv) _ (k0_off71_eq L t g) _ _
    (pay_ok ftv fiv (t.val % 4) g.val 1 1 3 (Nat.mod_lt _ (by decide)) (inner_lt g) (by decide) (by decide) (by decide)
      _ (k0_off71_eq L t g) _ _ rfl _ _ _ (addr3 d L t g fiv hfiv) (fun l => hfiv _ rfl) _ _) i

theorem cov1_26 (i : S4x2x5x8x128.Idx) :
    tripRun.sl.Ho1_w59 d L t g ftv fiv fo1 hfiv i
      = if covH (t.val % 4) 1 g.val 27 i then tripVal ftv fiv i else fo1 i :=
  write_piece (t.val % 4) 1 g.val 26 _ fo1 (tripVal ftv fiv) (cov1_25 d L t g ftv fiv fo1 hfiv) _ (k0_off72_eq L t g) _ _
    (pay_ok ftv fiv (t.val % 4) g.val 1 2 3 (Nat.mod_lt _ (by decide)) (inner_lt g) (by decide) (by decide) (by decide)
      _ (k0_off72_eq L t g) _ _ rfl _ _ _ (addr3 d L t g fiv hfiv) (fun l => hfiv _ rfl) _ _) i

theorem cov1_27 (i : S4x2x5x8x128.Idx) :
    tripRun.sl.Ho1_w60 d L t g ftv fiv fo1 hfiv i
      = if covH (t.val % 4) 1 g.val 28 i then tripVal ftv fiv i else fo1 i :=
  write_piece (t.val % 4) 1 g.val 27 _ fo1 (tripVal ftv fiv) (cov1_26 d L t g ftv fiv fo1 hfiv) _ (k0_off73_eq L t g) _ _
    (pay_ok ftv fiv (t.val % 4) g.val 1 3 3 (Nat.mod_lt _ (by decide)) (inner_lt g) (by decide) (by decide) (by decide)
      _ (k0_off73_eq L t g) _ _ rfl _ _ _ (addr3 d L t g fiv hfiv) (fun l => hfiv _ rfl) _ _) i

theorem cov1_28 (i : S4x2x5x8x128.Idx) :
    tripRun.sl.Ho1_w61 d L t g ftv fiv fo1 hfiv i
      = if covH (t.val % 4) 1 g.val 29 i then tripVal ftv fiv i else fo1 i :=
  write_piece (t.val % 4) 1 g.val 28 _ fo1 (tripVal ftv fiv) (cov1_27 d L t g ftv fiv fo1 hfiv) _ (k0_off74_eq L t g) _ _
    (pay_ok ftv fiv (t.val % 4) g.val 1 4 3 (Nat.mod_lt _ (by decide)) (inner_lt g) (by decide) (by decide) (by decide)
      _ (k0_off74_eq L t g) _ _ rfl _ _ _ (addr3 d L t g fiv hfiv) (fun l => hfiv _ rfl) _ _) i

theorem cov1_29 (i : S4x2x5x8x128.Idx) :
    tripRun.sl.Ho1_w62 d L t g ftv fiv fo1 hfiv i
      = if covH (t.val % 4) 1 g.val 30 i then tripVal ftv fiv i else fo1 i :=
  write_piece (t.val % 4) 1 g.val 29 _ fo1 (tripVal ftv fiv) (cov1_28 d L t g ftv fiv fo1 hfiv) _ (k0_off75_eq L t g) _ _
    (pay_ok ftv fiv (t.val % 4) g.val 1 5 3 (Nat.mod_lt _ (by decide)) (inner_lt g) (by decide) (by decide) (by decide)
      _ (k0_off75_eq L t g) _ _ rfl _ _ _ (addr3 d L t g fiv hfiv) (fun l => hfiv _ rfl) _ _) i

theorem cov1_30 (i : S4x2x5x8x128.Idx) :
    tripRun.sl.Ho1_w63 d L t g ftv fiv fo1 hfiv i
      = if covH (t.val % 4) 1 g.val 31 i then tripVal ftv fiv i else fo1 i :=
  write_piece (t.val % 4) 1 g.val 30 _ fo1 (tripVal ftv fiv) (cov1_29 d L t g ftv fiv fo1 hfiv) _ (k0_off76_eq L t g) _ _
    (pay_ok ftv fiv (t.val % 4) g.val 1 6 3 (Nat.mod_lt _ (by decide)) (inner_lt g) (by decide) (by decide) (by decide)
      _ (k0_off76_eq L t g) _ _ rfl _ _ _ (addr3 d L t g fiv hfiv) (fun l => hfiv _ rfl) _ _) i

theorem cov1_31 (i : S4x2x5x8x128.Idx) :
    tripRun.sl.Ho1_w64 d L t g ftv fiv fo1 hfiv i
      = if covH (t.val % 4) 1 g.val 32 i then tripVal ftv fiv i else fo1 i :=
  write_piece (t.val % 4) 1 g.val 31 _ fo1 (tripVal ftv fiv) (cov1_30 d L t g ftv fiv fo1 hfiv) _ (k0_off77_eq L t g) _ _
    (pay_ok ftv fiv (t.val % 4) g.val 1 7 3 (Nat.mod_lt _ (by decide)) (inner_lt g) (by decide) (by decide) (by decide)
      _ (k0_off77_eq L t g) _ _ rfl _ _ _ (addr3 d L t g fiv hfiv) (fun l => hfiv _ rfl) _ _) i

theorem cov1_32 (i : S4x2x5x8x128.Idx) :
    tripRun.sl.Ho1_w73 d L t g ftv fiv fo1 hfiv i
      = if covH (t.val % 4) 1 g.val 33 i then tripVal ftv fiv i else fo1 i :=
  write_piece (t.val % 4) 1 g.val 32 _ fo1 (tripVal ftv fiv) (cov1_31 d L t g ftv fiv fo1 hfiv) _ (k0_off86_eq L t g) _ _
    (pay_ok ftv fiv (t.val % 4) g.val 1 0 4 (Nat.mod_lt _ (by decide)) (inner_lt g) (by decide) (by decide) (by decide)
      _ (k0_off86_eq L t g) _ _ rfl _ _ _ (addr4 d L t g fiv hfiv) (fun l => hfiv _ rfl) _ _) i

theorem cov1_33 (i : S4x2x5x8x128.Idx) :
    tripRun.sl.Ho1_w74 d L t g ftv fiv fo1 hfiv i
      = if covH (t.val % 4) 1 g.val 34 i then tripVal ftv fiv i else fo1 i :=
  write_piece (t.val % 4) 1 g.val 33 _ fo1 (tripVal ftv fiv) (cov1_32 d L t g ftv fiv fo1 hfiv) _ (k0_off87_eq L t g) _ _
    (pay_ok ftv fiv (t.val % 4) g.val 1 1 4 (Nat.mod_lt _ (by decide)) (inner_lt g) (by decide) (by decide) (by decide)
      _ (k0_off87_eq L t g) _ _ rfl _ _ _ (addr4 d L t g fiv hfiv) (fun l => hfiv _ rfl) _ _) i

theorem cov1_34 (i : S4x2x5x8x128.Idx) :
    tripRun.sl.Ho1_w75 d L t g ftv fiv fo1 hfiv i
      = if covH (t.val % 4) 1 g.val 35 i then tripVal ftv fiv i else fo1 i :=
  write_piece (t.val % 4) 1 g.val 34 _ fo1 (tripVal ftv fiv) (cov1_33 d L t g ftv fiv fo1 hfiv) _ (k0_off88_eq L t g) _ _
    (pay_ok ftv fiv (t.val % 4) g.val 1 2 4 (Nat.mod_lt _ (by decide)) (inner_lt g) (by decide) (by decide) (by decide)
      _ (k0_off88_eq L t g) _ _ rfl _ _ _ (addr4 d L t g fiv hfiv) (fun l => hfiv _ rfl) _ _) i

theorem cov1_35 (i : S4x2x5x8x128.Idx) :
    tripRun.sl.Ho1_w76 d L t g ftv fiv fo1 hfiv i
      = if covH (t.val % 4) 1 g.val 36 i then tripVal ftv fiv i else fo1 i :=
  write_piece (t.val % 4) 1 g.val 35 _ fo1 (tripVal ftv fiv) (cov1_34 d L t g ftv fiv fo1 hfiv) _ (k0_off89_eq L t g) _ _
    (pay_ok ftv fiv (t.val % 4) g.val 1 3 4 (Nat.mod_lt _ (by decide)) (inner_lt g) (by decide) (by decide) (by decide)
      _ (k0_off89_eq L t g) _ _ rfl _ _ _ (addr4 d L t g fiv hfiv) (fun l => hfiv _ rfl) _ _) i

theorem cov1_36 (i : S4x2x5x8x128.Idx) :
    tripRun.sl.Ho1_w77 d L t g ftv fiv fo1 hfiv i
      = if covH (t.val % 4) 1 g.val 37 i then tripVal ftv fiv i else fo1 i :=
  write_piece (t.val % 4) 1 g.val 36 _ fo1 (tripVal ftv fiv) (cov1_35 d L t g ftv fiv fo1 hfiv) _ (k0_off90_eq L t g) _ _
    (pay_ok ftv fiv (t.val % 4) g.val 1 4 4 (Nat.mod_lt _ (by decide)) (inner_lt g) (by decide) (by decide) (by decide)
      _ (k0_off90_eq L t g) _ _ rfl _ _ _ (addr4 d L t g fiv hfiv) (fun l => hfiv _ rfl) _ _) i

theorem cov1_37 (i : S4x2x5x8x128.Idx) :
    tripRun.sl.Ho1_w78 d L t g ftv fiv fo1 hfiv i
      = if covH (t.val % 4) 1 g.val 38 i then tripVal ftv fiv i else fo1 i :=
  write_piece (t.val % 4) 1 g.val 37 _ fo1 (tripVal ftv fiv) (cov1_36 d L t g ftv fiv fo1 hfiv) _ (k0_off91_eq L t g) _ _
    (pay_ok ftv fiv (t.val % 4) g.val 1 5 4 (Nat.mod_lt _ (by decide)) (inner_lt g) (by decide) (by decide) (by decide)
      _ (k0_off91_eq L t g) _ _ rfl _ _ _ (addr4 d L t g fiv hfiv) (fun l => hfiv _ rfl) _ _) i

theorem cov1_38 (i : S4x2x5x8x128.Idx) :
    tripRun.sl.Ho1_w79 d L t g ftv fiv fo1 hfiv i
      = if covH (t.val % 4) 1 g.val 39 i then tripVal ftv fiv i else fo1 i :=
  write_piece (t.val % 4) 1 g.val 38 _ fo1 (tripVal ftv fiv) (cov1_37 d L t g ftv fiv fo1 hfiv) _ (k0_off92_eq L t g) _ _
    (pay_ok ftv fiv (t.val % 4) g.val 1 6 4 (Nat.mod_lt _ (by decide)) (inner_lt g) (by decide) (by decide) (by decide)
      _ (k0_off92_eq L t g) _ _ rfl _ _ _ (addr4 d L t g fiv hfiv) (fun l => hfiv _ rfl) _ _) i

theorem cov1_39 (i : S4x2x5x8x128.Idx) :
    tripRun.sl.Ho1_w80 d L t g ftv fiv fo1 hfiv i
      = if covH (t.val % 4) 1 g.val 40 i then tripVal ftv fiv i else fo1 i :=
  write_piece (t.val % 4) 1 g.val 39 _ fo1 (tripVal ftv fiv) (cov1_38 d L t g ftv fiv fo1 hfiv) _ (k0_off93_eq L t g) _ _
    (pay_ok ftv fiv (t.val % 4) g.val 1 7 4 (Nat.mod_lt _ (by decide)) (inner_lt g) (by decide) (by decide) (by decide)
      _ (k0_off93_eq L t g) _ _ rfl _ _ _ (addr4 d L t g fiv hfiv) (fun l => hfiv _ rfl) _ _) i

theorem cov1_40 (i : S4x2x5x8x128.Idx) :
    tripRun.sl.Ho1_w89 d L t g ftv fiv fo1 hfiv i
      = if covH (t.val % 4) 1 g.val 41 i then tripVal ftv fiv i else fo1 i :=
  write_piece (t.val % 4) 1 g.val 40 _ fo1 (tripVal ftv fiv) (cov1_39 d L t g ftv fiv fo1 hfiv) _ (k0_off102_eq L t g) _ _
    (pay_ok ftv fiv (t.val % 4) g.val 1 0 5 (Nat.mod_lt _ (by decide)) (inner_lt g) (by decide) (by decide) (by decide)
      _ (k0_off102_eq L t g) _ _ rfl _ _ _ (addr5 d L t g fiv hfiv) (fun l => hfiv _ rfl) _ _) i

theorem cov1_41 (i : S4x2x5x8x128.Idx) :
    tripRun.sl.Ho1_w90 d L t g ftv fiv fo1 hfiv i
      = if covH (t.val % 4) 1 g.val 42 i then tripVal ftv fiv i else fo1 i :=
  write_piece (t.val % 4) 1 g.val 41 _ fo1 (tripVal ftv fiv) (cov1_40 d L t g ftv fiv fo1 hfiv) _ (k0_off103_eq L t g) _ _
    (pay_ok ftv fiv (t.val % 4) g.val 1 1 5 (Nat.mod_lt _ (by decide)) (inner_lt g) (by decide) (by decide) (by decide)
      _ (k0_off103_eq L t g) _ _ rfl _ _ _ (addr5 d L t g fiv hfiv) (fun l => hfiv _ rfl) _ _) i

theorem cov1_42 (i : S4x2x5x8x128.Idx) :
    tripRun.sl.Ho1_w91 d L t g ftv fiv fo1 hfiv i
      = if covH (t.val % 4) 1 g.val 43 i then tripVal ftv fiv i else fo1 i :=
  write_piece (t.val % 4) 1 g.val 42 _ fo1 (tripVal ftv fiv) (cov1_41 d L t g ftv fiv fo1 hfiv) _ (k0_off104_eq L t g) _ _
    (pay_ok ftv fiv (t.val % 4) g.val 1 2 5 (Nat.mod_lt _ (by decide)) (inner_lt g) (by decide) (by decide) (by decide)
      _ (k0_off104_eq L t g) _ _ rfl _ _ _ (addr5 d L t g fiv hfiv) (fun l => hfiv _ rfl) _ _) i

theorem cov1_43 (i : S4x2x5x8x128.Idx) :
    tripRun.sl.Ho1_w92 d L t g ftv fiv fo1 hfiv i
      = if covH (t.val % 4) 1 g.val 44 i then tripVal ftv fiv i else fo1 i :=
  write_piece (t.val % 4) 1 g.val 43 _ fo1 (tripVal ftv fiv) (cov1_42 d L t g ftv fiv fo1 hfiv) _ (k0_off105_eq L t g) _ _
    (pay_ok ftv fiv (t.val % 4) g.val 1 3 5 (Nat.mod_lt _ (by decide)) (inner_lt g) (by decide) (by decide) (by decide)
      _ (k0_off105_eq L t g) _ _ rfl _ _ _ (addr5 d L t g fiv hfiv) (fun l => hfiv _ rfl) _ _) i

theorem cov1_44 (i : S4x2x5x8x128.Idx) :
    tripRun.sl.Ho1_w93 d L t g ftv fiv fo1 hfiv i
      = if covH (t.val % 4) 1 g.val 45 i then tripVal ftv fiv i else fo1 i :=
  write_piece (t.val % 4) 1 g.val 44 _ fo1 (tripVal ftv fiv) (cov1_43 d L t g ftv fiv fo1 hfiv) _ (k0_off106_eq L t g) _ _
    (pay_ok ftv fiv (t.val % 4) g.val 1 4 5 (Nat.mod_lt _ (by decide)) (inner_lt g) (by decide) (by decide) (by decide)
      _ (k0_off106_eq L t g) _ _ rfl _ _ _ (addr5 d L t g fiv hfiv) (fun l => hfiv _ rfl) _ _) i

theorem cov1_45 (i : S4x2x5x8x128.Idx) :
    tripRun.sl.Ho1_w94 d L t g ftv fiv fo1 hfiv i
      = if covH (t.val % 4) 1 g.val 46 i then tripVal ftv fiv i else fo1 i :=
  write_piece (t.val % 4) 1 g.val 45 _ fo1 (tripVal ftv fiv) (cov1_44 d L t g ftv fiv fo1 hfiv) _ (k0_off107_eq L t g) _ _
    (pay_ok ftv fiv (t.val % 4) g.val 1 5 5 (Nat.mod_lt _ (by decide)) (inner_lt g) (by decide) (by decide) (by decide)
      _ (k0_off107_eq L t g) _ _ rfl _ _ _ (addr5 d L t g fiv hfiv) (fun l => hfiv _ rfl) _ _) i

theorem cov1_46 (i : S4x2x5x8x128.Idx) :
    tripRun.sl.Ho1_w95 d L t g ftv fiv fo1 hfiv i
      = if covH (t.val % 4) 1 g.val 47 i then tripVal ftv fiv i else fo1 i :=
  write_piece (t.val % 4) 1 g.val 46 _ fo1 (tripVal ftv fiv) (cov1_45 d L t g ftv fiv fo1 hfiv) _ (k0_off108_eq L t g) _ _
    (pay_ok ftv fiv (t.val % 4) g.val 1 6 5 (Nat.mod_lt _ (by decide)) (inner_lt g) (by decide) (by decide) (by decide)
      _ (k0_off108_eq L t g) _ _ rfl _ _ _ (addr5 d L t g fiv hfiv) (fun l => hfiv _ rfl) _ _) i

theorem cov1_47 (i : S4x2x5x8x128.Idx) :
    tripRun.sl.Ho1_w96 d L t g ftv fiv fo1 hfiv i
      = if covH (t.val % 4) 1 g.val 48 i then tripVal ftv fiv i else fo1 i :=
  write_piece (t.val % 4) 1 g.val 47 _ fo1 (tripVal ftv fiv) (cov1_46 d L t g ftv fiv fo1 hfiv) _ (k0_off109_eq L t g) _ _
    (pay_ok ftv fiv (t.val % 4) g.val 1 7 5 (Nat.mod_lt _ (by decide)) (inner_lt g) (by decide) (by decide) (by decide)
      _ (k0_off109_eq L t g) _ _ rfl _ _ _ (addr5 d L t g fiv hfiv) (fun l => hfiv _ rfl) _ _) i

theorem cov1_48 (i : S4x2x5x8x128.Idx) :
    tripRun.sl.Ho1_w105 d L t g ftv fiv fo1 hfiv i
      = if covH (t.val % 4) 1 g.val 49 i then tripVal ftv fiv i else fo1 i :=
  write_piece (t.val % 4) 1 g.val 48 _ fo1 (tripVal ftv fiv) (cov1_47 d L t g ftv fiv fo1 hfiv) _ (k0_off118_eq L t g) _ _
    (pay_ok ftv fiv (t.val % 4) g.val 1 0 6 (Nat.mod_lt _ (by decide)) (inner_lt g) (by decide) (by decide) (by decide)
      _ (k0_off118_eq L t g) _ _ rfl _ _ _ (addr6 d L t g fiv hfiv) (fun l => hfiv _ rfl) _ _) i

theorem cov1_49 (i : S4x2x5x8x128.Idx) :
    tripRun.sl.Ho1_w106 d L t g ftv fiv fo1 hfiv i
      = if covH (t.val % 4) 1 g.val 50 i then tripVal ftv fiv i else fo1 i :=
  write_piece (t.val % 4) 1 g.val 49 _ fo1 (tripVal ftv fiv) (cov1_48 d L t g ftv fiv fo1 hfiv) _ (k0_off119_eq L t g) _ _
    (pay_ok ftv fiv (t.val % 4) g.val 1 1 6 (Nat.mod_lt _ (by decide)) (inner_lt g) (by decide) (by decide) (by decide)
      _ (k0_off119_eq L t g) _ _ rfl _ _ _ (addr6 d L t g fiv hfiv) (fun l => hfiv _ rfl) _ _) i

theorem cov1_50 (i : S4x2x5x8x128.Idx) :
    tripRun.sl.Ho1_w107 d L t g ftv fiv fo1 hfiv i
      = if covH (t.val % 4) 1 g.val 51 i then tripVal ftv fiv i else fo1 i :=
  write_piece (t.val % 4) 1 g.val 50 _ fo1 (tripVal ftv fiv) (cov1_49 d L t g ftv fiv fo1 hfiv) _ (k0_off120_eq L t g) _ _
    (pay_ok ftv fiv (t.val % 4) g.val 1 2 6 (Nat.mod_lt _ (by decide)) (inner_lt g) (by decide) (by decide) (by decide)
      _ (k0_off120_eq L t g) _ _ rfl _ _ _ (addr6 d L t g fiv hfiv) (fun l => hfiv _ rfl) _ _) i

theorem cov1_51 (i : S4x2x5x8x128.Idx) :
    tripRun.sl.Ho1_w108 d L t g ftv fiv fo1 hfiv i
      = if covH (t.val % 4) 1 g.val 52 i then tripVal ftv fiv i else fo1 i :=
  write_piece (t.val % 4) 1 g.val 51 _ fo1 (tripVal ftv fiv) (cov1_50 d L t g ftv fiv fo1 hfiv) _ (k0_off121_eq L t g) _ _
    (pay_ok ftv fiv (t.val % 4) g.val 1 3 6 (Nat.mod_lt _ (by decide)) (inner_lt g) (by decide) (by decide) (by decide)
      _ (k0_off121_eq L t g) _ _ rfl _ _ _ (addr6 d L t g fiv hfiv) (fun l => hfiv _ rfl) _ _) i

theorem cov1_52 (i : S4x2x5x8x128.Idx) :
    tripRun.sl.Ho1_w109 d L t g ftv fiv fo1 hfiv i
      = if covH (t.val % 4) 1 g.val 53 i then tripVal ftv fiv i else fo1 i :=
  write_piece (t.val % 4) 1 g.val 52 _ fo1 (tripVal ftv fiv) (cov1_51 d L t g ftv fiv fo1 hfiv) _ (k0_off122_eq L t g) _ _
    (pay_ok ftv fiv (t.val % 4) g.val 1 4 6 (Nat.mod_lt _ (by decide)) (inner_lt g) (by decide) (by decide) (by decide)
      _ (k0_off122_eq L t g) _ _ rfl _ _ _ (addr6 d L t g fiv hfiv) (fun l => hfiv _ rfl) _ _) i

theorem cov1_53 (i : S4x2x5x8x128.Idx) :
    tripRun.sl.Ho1_w110 d L t g ftv fiv fo1 hfiv i
      = if covH (t.val % 4) 1 g.val 54 i then tripVal ftv fiv i else fo1 i :=
  write_piece (t.val % 4) 1 g.val 53 _ fo1 (tripVal ftv fiv) (cov1_52 d L t g ftv fiv fo1 hfiv) _ (k0_off123_eq L t g) _ _
    (pay_ok ftv fiv (t.val % 4) g.val 1 5 6 (Nat.mod_lt _ (by decide)) (inner_lt g) (by decide) (by decide) (by decide)
      _ (k0_off123_eq L t g) _ _ rfl _ _ _ (addr6 d L t g fiv hfiv) (fun l => hfiv _ rfl) _ _) i

theorem cov1_54 (i : S4x2x5x8x128.Idx) :
    tripRun.sl.Ho1_w111 d L t g ftv fiv fo1 hfiv i
      = if covH (t.val % 4) 1 g.val 55 i then tripVal ftv fiv i else fo1 i :=
  write_piece (t.val % 4) 1 g.val 54 _ fo1 (tripVal ftv fiv) (cov1_53 d L t g ftv fiv fo1 hfiv) _ (k0_off124_eq L t g) _ _
    (pay_ok ftv fiv (t.val % 4) g.val 1 6 6 (Nat.mod_lt _ (by decide)) (inner_lt g) (by decide) (by decide) (by decide)
      _ (k0_off124_eq L t g) _ _ rfl _ _ _ (addr6 d L t g fiv hfiv) (fun l => hfiv _ rfl) _ _) i

theorem cov1_55 (i : S4x2x5x8x128.Idx) :
    tripRun.sl.Ho1_w112 d L t g ftv fiv fo1 hfiv i
      = if covH (t.val % 4) 1 g.val 56 i then tripVal ftv fiv i else fo1 i :=
  write_piece (t.val % 4) 1 g.val 55 _ fo1 (tripVal ftv fiv) (cov1_54 d L t g ftv fiv fo1 hfiv) _ (k0_off125_eq L t g) _ _
    (pay_ok ftv fiv (t.val % 4) g.val 1 7 6 (Nat.mod_lt _ (by decide)) (inner_lt g) (by decide) (by decide) (by decide)
      _ (k0_off125_eq L t g) _ _ rfl _ _ _ (addr6 d L t g fiv hfiv) (fun l => hfiv _ rfl) _ _) i

theorem cov1_56 (i : S4x2x5x8x128.Idx) :
    tripRun.sl.Ho1_w121 d L t g ftv fiv fo1 hfiv i
      = if covH (t.val % 4) 1 g.val 57 i then tripVal ftv fiv i else fo1 i :=
  write_piece (t.val % 4) 1 g.val 56 _ fo1 (tripVal ftv fiv) (cov1_55 d L t g ftv fiv fo1 hfiv) _ (k0_off134_eq L t g) _ _
    (pay_ok ftv fiv (t.val % 4) g.val 1 0 7 (Nat.mod_lt _ (by decide)) (inner_lt g) (by decide) (by decide) (by decide)
      _ (k0_off134_eq L t g) _ _ rfl _ _ _ (addr7 d L t g fiv hfiv) (fun l => hfiv _ rfl) _ _) i

theorem cov1_57 (i : S4x2x5x8x128.Idx) :
    tripRun.sl.Ho1_w122 d L t g ftv fiv fo1 hfiv i
      = if covH (t.val % 4) 1 g.val 58 i then tripVal ftv fiv i else fo1 i :=
  write_piece (t.val % 4) 1 g.val 57 _ fo1 (tripVal ftv fiv) (cov1_56 d L t g ftv fiv fo1 hfiv) _ (k0_off135_eq L t g) _ _
    (pay_ok ftv fiv (t.val % 4) g.val 1 1 7 (Nat.mod_lt _ (by decide)) (inner_lt g) (by decide) (by decide) (by decide)
      _ (k0_off135_eq L t g) _ _ rfl _ _ _ (addr7 d L t g fiv hfiv) (fun l => hfiv _ rfl) _ _) i

theorem cov1_58 (i : S4x2x5x8x128.Idx) :
    tripRun.sl.Ho1_w123 d L t g ftv fiv fo1 hfiv i
      = if covH (t.val % 4) 1 g.val 59 i then tripVal ftv fiv i else fo1 i :=
  write_piece (t.val % 4) 1 g.val 58 _ fo1 (tripVal ftv fiv) (cov1_57 d L t g ftv fiv fo1 hfiv) _ (k0_off136_eq L t g) _ _
    (pay_ok ftv fiv (t.val % 4) g.val 1 2 7 (Nat.mod_lt _ (by decide)) (inner_lt g) (by decide) (by decide) (by decide)
      _ (k0_off136_eq L t g) _ _ rfl _ _ _ (addr7 d L t g fiv hfiv) (fun l => hfiv _ rfl) _ _) i

theorem cov1_59 (i : S4x2x5x8x128.Idx) :
    tripRun.sl.Ho1_w124 d L t g ftv fiv fo1 hfiv i
      = if covH (t.val % 4) 1 g.val 60 i then tripVal ftv fiv i else fo1 i :=
  write_piece (t.val % 4) 1 g.val 59 _ fo1 (tripVal ftv fiv) (cov1_58 d L t g ftv fiv fo1 hfiv) _ (k0_off137_eq L t g) _ _
    (pay_ok ftv fiv (t.val % 4) g.val 1 3 7 (Nat.mod_lt _ (by decide)) (inner_lt g) (by decide) (by decide) (by decide)
      _ (k0_off137_eq L t g) _ _ rfl _ _ _ (addr7 d L t g fiv hfiv) (fun l => hfiv _ rfl) _ _) i

theorem cov1_60 (i : S4x2x5x8x128.Idx) :
    tripRun.sl.Ho1_w125 d L t g ftv fiv fo1 hfiv i
      = if covH (t.val % 4) 1 g.val 61 i then tripVal ftv fiv i else fo1 i :=
  write_piece (t.val % 4) 1 g.val 60 _ fo1 (tripVal ftv fiv) (cov1_59 d L t g ftv fiv fo1 hfiv) _ (k0_off138_eq L t g) _ _
    (pay_ok ftv fiv (t.val % 4) g.val 1 4 7 (Nat.mod_lt _ (by decide)) (inner_lt g) (by decide) (by decide) (by decide)
      _ (k0_off138_eq L t g) _ _ rfl _ _ _ (addr7 d L t g fiv hfiv) (fun l => hfiv _ rfl) _ _) i

theorem cov1_61 (i : S4x2x5x8x128.Idx) :
    tripRun.sl.Ho1_w126 d L t g ftv fiv fo1 hfiv i
      = if covH (t.val % 4) 1 g.val 62 i then tripVal ftv fiv i else fo1 i :=
  write_piece (t.val % 4) 1 g.val 61 _ fo1 (tripVal ftv fiv) (cov1_60 d L t g ftv fiv fo1 hfiv) _ (k0_off139_eq L t g) _ _
    (pay_ok ftv fiv (t.val % 4) g.val 1 5 7 (Nat.mod_lt _ (by decide)) (inner_lt g) (by decide) (by decide) (by decide)
      _ (k0_off139_eq L t g) _ _ rfl _ _ _ (addr7 d L t g fiv hfiv) (fun l => hfiv _ rfl) _ _) i

theorem cov1_62 (i : S4x2x5x8x128.Idx) :
    tripRun.sl.Ho1_w127 d L t g ftv fiv fo1 hfiv i
      = if covH (t.val % 4) 1 g.val 63 i then tripVal ftv fiv i else fo1 i :=
  write_piece (t.val % 4) 1 g.val 62 _ fo1 (tripVal ftv fiv) (cov1_61 d L t g ftv fiv fo1 hfiv) _ (k0_off140_eq L t g) _ _
    (pay_ok ftv fiv (t.val % 4) g.val 1 6 7 (Nat.mod_lt _ (by decide)) (inner_lt g) (by decide) (by decide) (by decide)
      _ (k0_off140_eq L t g) _ _ rfl _ _ _ (addr7 d L t g fiv hfiv) (fun l => hfiv _ rfl) _ _) i

theorem cov1_63 (i : S4x2x5x8x128.Idx) :
    tripRun.sl.Ho1_w128 d L t g ftv fiv fo1 hfiv i
      = if covH (t.val % 4) 1 g.val 64 i then tripVal ftv fiv i else fo1 i :=
  write_piece (t.val % 4) 1 g.val 63 _ fo1 (tripVal ftv fiv) (cov1_62 d L t g ftv fiv fo1 hfiv) _ (k0_off141_eq L t g) _ _
    (pay_ok ftv fiv (t.val % 4) g.val 1 7 7 (Nat.mod_lt _ (by decide)) (inner_lt g) (by decide) (by decide) (by decide)
      _ (k0_off141_eq L t g) _ _ rfl _ _ _ (addr7 d L t g fiv hfiv) (fun l => hfiv _ rfl) _ _) i

end Cert.Proof.KernelSc

end
-- ==== Proof.ScTripOutK.lean ====
/-
  The trip's result, read off the run: after trip `g` each half of the slot's output holds the
  gathered values `tripVal` on row `g` of the slot and what it held before everywhere else.
-/
import proofs.«202852_g34127810134284_cont_8to1_b_1476_20_alg».proof.Proof.ScTripValK

noncomputable section

namespace Cert.Proof.KernelSc

open Cert.Kernel Cert.Kernel.Gen
open Idealize.ShloMosaic Idealize.ShloMosaic.ValueIdx

variable {F : FTy → Type} [FloatOps F]

variable (d : Dev nD) (L : grid0.Coords) (t : Fin (k0_t1_loop L).trips) (g : Fin k0_t2_loop.trips)
  (ftv : Buf (Elt F) (tvM.view.loc (thrOf d L))) (fiv : Buf (Elt F) (ivM.view.loc (thrOf d L)))
  (fo0 fo1 : Buf (Elt F) (ovM.view.loc (thrOf d L)))
  (hfiv : ∀ i : S4x640.Idx, (i 0).val = t.val % 4 → (fiv i).toNat < 100)

set_option maxHeartbeats 1000000 in
/-- What the run found for half 0 is the last of its 64 stores' contents. -/
theorem tripRun_fst (v4 v46 : BitVec 32) (u : Unit) :
    (tripRun d L t g v4 v46 u ftv fiv fo0 fo1 hfiv).1 = tripRun.sl.Ho0_w120 d L t g ftv fiv fo0 hfiv := by
  delta tripRun
  rfl

set_option maxHeartbeats 1000000 in
/-- What the run found for half 1 is the last of its 64 stores' contents. -/
theorem tripRun_snd (v4 v46 : BitVec 32) (u : Unit) :
    (tripRun d L t g v4 v46 u ftv fiv fo0 fo1 hfiv).2.1 = tripRun.sl.Ho1_w128 d L t g ftv fiv fo1 hfiv := by
  delta tripRun
  rfl

/-- After the trip, half 0 holds `tripVal` on row `g` of the slot and what it held before elsewhere. -/
theorem tripRun_out0 (v4 v46 : BitVec 32) (u : Unit) (i : S4x2x5x8x128.Idx) :
    (tripRun d L t g v4 v46 u ftv fiv fo0 fo1 hfiv).1 i
      = if covH (t.val % 4) 0 g.val 64 i then tripVal ftv fiv i else fo0 i := by
  rw [tripRun_fst]
  exact cov0_63 d L t g ftv fiv fo0 hfiv i

/-- After the trip, half 1 holds `tripVal` on row `g` of the slot and what it held before elsewhere. -/
theorem tripRun_out1 (v4 v46 : BitVec 32) (u : Unit) (i : S4x2x5x8x128.Idx) :
    (tripRun d L t g v4 v46 u ftv fiv fo0 fo1 hfiv).2.1 i
      = if covH (t.val % 4) 1 g.val 64 i then tripVal ftv fiv i else fo1 i := by
  rw [tripRun_snd]
  exact cov1_63 d L t g ftv fiv fo1 hfiv i

end Cert.Proof.KernelSc

end
-- ==== Proof.ScRowsK.lean ====
/-
  Rows done. The inner loop fills the rows of a half of a slot one trip at a time. An element is
  done before trip `k` when it lies in the slot and half and in a row below `k`. The 64 stores of
  a trip cover exactly its row, so a trip that leaves one function on what its stores cover and
  the earlier contents elsewhere extends the rows done by one. The loop has five trips.
-/
import proofs.«202852_g34127810134284_cont_8to1_b_1476_20_alg».proof.Proof.ScWriteK

noncomputable section

namespace Cert.Proof.KernelSc

open Cert.Kernel Cert.Kernel.Gen
open Idealize.ShloMosaic Idealize.ShloMosaic.ValueIdx

/-! ## Rows done -/

/-- Element `i` lies in slot `p`, half `h`, in a row below `k`. -/
def rowsDone (p h k : ℕ) (i : S4x2x5x8x128.Idx) : Prop := (i 0).val = p ∧ (i 1).val = h ∧ (i 2).val < k

instance (p h k : ℕ) (i : S4x2x5x8x128.Idx) : Decidable (rowsDone p h k i) := by unfold rowsDone; infer_instance

/-- All 64 stores of a row cover exactly the row. -/
theorem covH_full (p h g : ℕ) (i : S4x2x5x8x128.Idx) :
    covH p h g 64 i ↔ (i 0).val = p ∧ (i 1).val = h ∧ (i 2).val = g := by
  have b3 : (i 3).val < 8 := (i 3).isLt
  have b4 : (i 4).val < 128 := (i 4).isLt
  unfold covH
  constructor
  · rintro ⟨e0, e1, e2, -⟩; exact ⟨e0, e1, e2⟩
  · rintro ⟨e0, e1, e2⟩; exact ⟨e0, e1, e2, by omega⟩

/-- A trip extends the rows done by its own. -/
theorem rows_step {α : Type} (p h g : ℕ) (G fo f f' : S4x2x5x8x128.Idx → α)
    (hf : ∀ i, f i = if rowsDone p h g i then G i else fo i)
    (hf' : ∀ i, f' i = if covH p h g 64 i then G i else f i) (i : S4x2x5x8x128.Idx) :
    f' i = if rowsDone p h (g + 1) i then G i else fo i := by
  rw [hf' i, hf i]
  by_cases hc : covH p h g 64 i
  · have hr : rowsDone p h (g + 1) i := by
      obtain ⟨e0, e1, e2⟩ := (covH_full p h g i).mp hc
      exact ⟨e0, e1, by omega⟩
    rw [if_pos hc, if_pos hr]
  · rw [if_neg hc]
    by_cases hr : rowsDone p h g i
    · rw [if_pos hr, if_pos ⟨hr.1, hr.2.1, by have := hr.2.2; omega⟩]
    · rw [if_neg hr, if_neg]
      rintro ⟨e0, e1, e2⟩
      by_cases he : (i 2).val = g
      · exact hc ((covH_full p h g i).mpr ⟨e0, e1, he⟩)
      · exact hr ⟨e0, e1, by omega⟩

theorem inner_trips : k0_t2_loop.trips = 5 := by decide

end Cert.Proof.KernelSc

end
-- ==== Proof.ScInnerK.lean ====
/-
  The inner loop of a trip. Its five trips fill rows 0 … 4 of the two halves of slot `t % 4` of
  the output scratch. Before trip `k` each half holds the gathered values `tripVal` on the rows
  below `k` of the slot and its first contents elsewhere; a trip extends that by its own row
  (the trip's run and the values it leaves are proved apart); after five trips every row of the
  slot holds the gathered values, which at coordinates are the table scratch's entries the
  statement names.
-/
import proofs.«202852_g34127810134284_cont_8to1_b_1476_20_alg».proof.Proof.ScTripOutK
import proofs.«202852_g34127810134284_cont_8to1_b_1476_20_alg».proof.Proof.ScRowsK

noncomputable section

namespace Cert.Proof.KernelSc

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The invariant and the loop -/

section Loop

variable (d : Dev nD) (L : grid0.Coords) (t : Fin (k0_t1_loop L).trips)
  (ftv : Buf (Elt F) (tvM.view.loc (thrOf d L))) (fiv : Buf (Elt F) (ivM.view.loc (thrOf d L)))
  (fo0 fo1 : Buf (Elt F) (ovM.view.loc (thrOf d L)))

/-- Before trip `k`: the table and index scratches as they were, each half at the gathered values on the rows below
    `k` of the slot and its first contents elsewhere. -/
def innerInv (k : ℕ) (_ : Unit) : sProp 𝕄 :=
  iprop(∃ fo0' fo1' : Buf (Elt F) (ovM.view.loc (thrOf d L)),
    (tvM.view.loc (thrOf d L) ↦{fullShare} ftv)
      ∗ ((ivSlot (k0_off5 L t) (k0_off5_inb L t)).view.loc (thrOf d L) ↦[(ivSlot (k0_off5 L t) (k0_off5_inb L t)).view.set]{fullShare} fiv)
      ∗ ((ovSlot (k0_off142 L t) (k0_off142_inb L t)).view.loc (thrOf d L) ↦[(ovSlot (k0_off142 L t) (k0_off142_inb L t)).view.set]{fullShare} fo0')
      ∗ ((ovSlot (k0_off144 L t) (k0_off144_inb L t)).view.loc (thrOf d L) ↦[(ovSlot (k0_off144 L t) (k0_off144_inb L t)).view.set]{fullShare} fo1')
      ∗ ⌜(∀ i, fo0' i = if rowsDone (t.val % 4) 0 k i then tripVal ftv fiv i else fo0 i)
          ∧ (∀ i, fo1' i = if rowsDone (t.val % 4) 1 k i then tripVal ftv fiv i else fo1 i)⌝)

end Loop

/-- The inner loop of trip `t`. -/
theorem inner_loop (d : Dev nD) (L : grid0.Coords) : InnerSpec (F := F) d L := by
  intro t v4 v46 ftv fiv fo0 fo1 hrow
  have hfiv : ∀ i : S4x640.Idx, (i 0).val = t.val % 4 → (fiv i).toNat < 100 := by
    intro i hi
    have e : i = ix2 (⟨t.val % 4, slot_lt L t⟩ : Fin 4) (⟨(i 1).val, idx2_lt1 i⟩ : Fin 640) := by
      funext a
      match a with
      | ⟨0, _⟩ => exact Fin.ext hi
      | ⟨1, _⟩ => rfl
    rw [e]; exact hrow _
  iintro ⟨Htv, Hiv, Ho0, Ho1⟩
  sl_for (innerInv d L t ftv fiv fo0 fo1) $$ [Htv Hiv Ho0 Ho1]
  case region =>
    intro g u
    unfold innerInv
    iintro ⟨%fo0', %fo1', Htv, Hiv, Ho0, Ho1, %hinv⟩
    first | sl_respell [] | skip
    iapply ((tripRun d L t g v4 v46 u ftv fiv fo0' fo1' hfiv).2.2 _)
    isplitl [Htv]; · iexact Htv
    isplitl [Hiv]; · iexact Hiv
    isplitl [Ho0]; · iexact Ho0
    isplitl [Ho1]; · iexact Ho1
    iintro ⟨Htv, Hiv, Ho0, Ho1⟩
    iexists _, _
    isplitl [Htv]; · iexact Htv
    isplitl [Hiv]; · iexact Hiv
    isplitl [Ho0]; · iexact Ho0
    isplitl [Ho1]; · iexact Ho1
    ipureintro
    exact ⟨rows_step (t.val % 4) 0 g.val (tripVal ftv fiv) fo0 fo0' _ hinv.1
        (tripRun_out0 d L t g ftv fiv fo0' fo1' hfiv v4 v46 u),
      rows_step (t.val % 4) 1 g.val (tripVal ftv fiv) fo1 fo1' _ hinv.2
        (tripRun_out1 d L t g ftv fiv fo0' fo1' hfiv v4 v46 u)⟩
  isplitl [Htv Hiv Ho0 Ho1]
  · unfold innerInv
    iexists fo0, fo1
    isplitl [Htv]; · iexact Htv
    isplitl [Hiv]; · iexact Hiv
    isplitl [Ho0]; · iexact Ho0
    isplitl [Ho1]; · iexact Ho1
    ipureintro
    exact ⟨fun i => (if_neg (fun h => Nat.not_lt_zero _ h.2.2)).symm,
      fun i => (if_neg (fun h => Nat.not_lt_zero _ h.2.2)).symm⟩
  iintro %_ HI
  unfold innerInv
  icases HI with ⟨%fo0', %fo1', Htv, Hiv, Ho0, Ho1, %hinv⟩
  iexists fo0', fo1'
  isplitl [Htv]; · iexact Htv
  isplitl [Hiv]; · iexact Hiv
  isplitl [Ho0]; · iexact Ho0
  isplitl [Ho1]; · iexact Ho1
  ipureintro
  intro g r j
  have hg := g.isLt
  have hr := r.isLt
  have hj := j.isLt
  have hw := hrow (⟨128 * g.val + j.val, by omega⟩ : Fin 640)
  have hdone0 : rowsDone (t.val % 4) 0 k0_t2_loop.trips
      (ix5 (⟨t.val % 4, slot_lt L t⟩ : Fin 4) (0 : Fin 2) g r j) := by
    rw [inner_trips]; exact ⟨rfl, rfl, hg⟩
  have hdone1 : rowsDone (t.val % 4) 1 k0_t2_loop.trips
      (ix5 (⟨t.val % 4, slot_lt L t⟩ : Fin 4) (1 : Fin 2) g r j) := by
    rw [inner_trips]; exact ⟨rfl, rfl, hg⟩
  constructor
  · rw [hinv.1, if_pos hdone0, tripVal_apply ftv fiv _ 0 g r j hw]
    refine congrArg ftv (congrArg ix1 (Fin.ext ?_))
    show _ * 256 + (8 * 0 + r.val) * 16 + j.val % 16 = _ % 100 * 256 + r.val * 16 + j.val % 16
    rw [Nat.mod_eq_of_lt hw]; omega
  · rw [hinv.2, if_pos hdone1, tripVal_apply ftv fiv _ 1 g r j hw]
    refine congrArg ftv (congrArg ix1 (Fin.ext ?_))
    show _ * 256 + (8 * 1 + r.val) * 16 + j.val % 16 = _ % 100 * 256 + (8 + r.val) * 16 + j.val % 16
    rw [Nat.mod_eq_of_lt hw]

end Cert.Proof.KernelSc

end
-- ==== Proof.lean ====
/-
  The certificate's claim.

  The kernel is an embedding lookup on the SparseCores: the table, every element repeated 16 times, is made by host
  operations; 32 workers (2 SparseCores × 16 vector subcores) each gather their chunks of the result from it by the
  index list's words; host operations transpose and flatten the call's result to rows of 16. Its run is assembled by
  the SparseCore launch theorem (ScLaunch: @main, the split of the operands into the workers' read shares and parts,
  the final memory) from one worker's obligation (ScObl, over ScPlumb's opening and closing of the worker's resources),
  itself from the worker's run at a symbolic place (ScCore: the ring of four slots across the outer loop; ScTrip: one
  trip; ScInner: the inner loop's gathers) and the pure value facts (ScVals). The run ends with the arguments unchanged
  and the result at ONE function of them, which is the lookup once every index word is below 100 (ScFinal), as the
  precondition says (PreRange). The reference's run ends at its own term (RefRun), the lookup under the same
  precondition (RefTerm). So both frames hold, and at the ideal instance the two results are equal: both are the lookup. The kernel as printed
  moves the same words by the same copies, and the same argument, read at the word level, gives its frame.
  The idealization rewrote no operation, so it is preserved by definition.
-/
import proofs.«202852_g34127810134284_cont_8to1_b_1476_20_alg».proof.Defs
import proofs.«202852_g34127810134284_cont_8to1_b_1476_20_alg».proof.Proof.Gen.Kernel
import proofs.«202852_g34127810134284_cont_8to1_b_1476_20_alg».proof.Proof.Gen.Kernel.Skeleton
import proofs.«202852_g34127810134284_cont_8to1_b_1476_20_alg».proof.Proof.Gen.KernelIdeal
import proofs.«202852_g34127810134284_cont_8to1_b_1476_20_alg».proof.Proof.Gen.KernelIdeal.Skeleton
import proofs.«202852_g34127810134284_cont_8to1_b_1476_20_alg».proof.Proof.Gen.ReferenceIdeal
import proofs.«202852_g34127810134284_cont_8to1_b_1476_20_alg».proof.Proof.Gen.Pre_input_domain
import Idealize.ShloMosaic.Adequacy
import Idealize.ShloMosaic.Init
import proofs.«202852_g34127810134284_cont_8to1_b_1476_20_alg».proof.Proof.RefRun
import proofs.«202852_g34127810134284_cont_8to1_b_1476_20_alg».proof.Proof.PreRange
import proofs.«202852_g34127810134284_cont_8to1_b_1476_20_alg».proof.Proof.ScLaunch
import proofs.«202852_g34127810134284_cont_8to1_b_1476_20_alg».proof.Proof.ScObl
import proofs.«202852_g34127810134284_cont_8to1_b_1476_20_alg».proof.Proof.ScFinal
import proofs.«202852_g34127810134284_cont_8to1_b_1476_20_alg».proof.Proof.ScRing
import proofs.«202852_g34127810134284_cont_8to1_b_1476_20_alg».proof.Proof.ScInnerSpec
import proofs.«202852_g34127810134284_cont_8to1_b_1476_20_alg».proof.Proof.ScCore
import proofs.«202852_g34127810134284_cont_8to1_b_1476_20_alg».proof.Proof.ScInner
import proofs.«202852_g34127810134284_cont_8to1_b_1476_20_alg».proof.Proof.ScLaunchK
import proofs.«202852_g34127810134284_cont_8to1_b_1476_20_alg».proof.Proof.ScOblK
import proofs.«202852_g34127810134284_cont_8to1_b_1476_20_alg».proof.Proof.ScFinalK
import proofs.«202852_g34127810134284_cont_8to1_b_1476_20_alg».proof.Proof.ScRingK
import proofs.«202852_g34127810134284_cont_8to1_b_1476_20_alg».proof.Proof.ScInnerSpecK
import proofs.«202852_g34127810134284_cont_8to1_b_1476_20_alg».proof.Proof.ScCoreK
import proofs.«202852_g34127810134284_cont_8to1_b_1476_20_alg».proof.Proof.ScInnerK

noncomputable section

namespace Cert.Proof

open Idealize.ShloMosaic Idealize.SL.Sem

/-! ## The kernel at the ideal instance -/

/-- Under the precondition every word of the index list is below 100. -/
theorem idx_lt_Ideal (m : (ℓ : Loc Cert.KernelIdeal.nD Cert.KernelIdeal.τ Cert.KernelIdeal.sig) → Buf (Elt Ideal) ℓ)
    (hP : Cert.Pre_KernelIdeal m) (d : Dev Cert.KernelIdeal.nD) (i : Cert.KernelIdeal.S3200000.Idx) :
    (m (KernelIdealSc.idxLoc d) i).toNat < 100 :=
  Cert.RefSide.toNat_lt_of_pre (F := Ideal) (m (KernelIdealSc.idxLoc d)) (m (KernelIdealSc.tblLoc d)) (hP d) i

/-- One worker's run, at every place. -/
theorem coreRun_Ideal (m : (ℓ : Loc Cert.KernelIdeal.nD Cert.KernelIdeal.τ Cert.KernelIdeal.sig) → Buf (Elt Ideal) ℓ)
    (hP : Cert.Pre_KernelIdeal m) : KernelIdealSc.CoreRun (F := Ideal) m :=
  fun d L O W rest hO => KernelIdealSc.tile_core m d L (KernelIdealSc.inner_loop d L) (fun i => idx_lt_Ideal m hP d i) O W rest hO

/-- The kernel's run: the result at the call's result transposed and flattened, the arguments unchanged. -/
theorem run_KernelIdeal (m : (ℓ : Loc Cert.KernelIdeal.nD Cert.KernelIdeal.τ Cert.KernelIdeal.sig) → Buf (Elt Ideal) ℓ)
    (g : Dev Cert.KernelIdeal.nD → PrngReg) (hP : Cert.Pre_KernelIdeal m) :
    θ_run (Cert.KernelIdeal.defs (F := Ideal)) (Cert.KernelIdeal.threads (F := Ideal)) ⟨m, fun _ => 0, g⟩ (KernelIdealSc.QC m) :=
  KernelIdealSc.run_main (F := Ideal) m g (KernelIdealSc.tileObl m (coreRun_Ideal m hP))

theorem frame_KernelIdeal : Cert.frame_KernelIdeal := fun m g hP =>
  (θ_run _ _ _).mono (fun _ h c => ⟨(h c).2.1, (h c).2.2⟩) (run_KernelIdeal m g hP)

/-! ## The reference -/

theorem frame_ReferenceIdeal : Cert.frame_ReferenceIdeal := fun m ρ _ =>
  (θ_run Cert.ReferenceIdeal.defs _ _).mono (fun _ h c => (h c).2) (Cert.RefSide.run (F := Ideal) m ρ)

/-! ## Both results are the lookup -/

theorem algebraic : Cert.algebraic_KernelIdeal_ReferenceIdeal := by
  intro m g m' g' hP hagree
  refine ⟨fun c => Cert.RefSide.lookup (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run _ _ _).mono
      (fun _ h c => ⟨(h c).1.trans (KernelIdealSc.outOf_Gout_lookup _ _ (fun i => idx_lt_Ideal m hP c i)), (h c).2.1, (h c).2.2⟩)
      (run_KernelIdeal m g hP)
  · exact (θ_run Cert.ReferenceIdeal.defs _ _).mono
      (fun _ h c => ⟨by
        rw [(h c).1, (hagree c).1, (hagree c).2]
        exact Cert.RefSide.refTerm_eq_lookup (F := Ideal) _ _ (Cert.RefSide.range_of_pre (F := Ideal) _ _ (hP c)), (h c).2⟩)
      (Cert.RefSide.run (F := Ideal) m' g')

/-! ## The kernel as printed -/

/-- Under the precondition every word of the index list is below 100. -/
theorem idx_lt_Bits (m : (ℓ : Loc Cert.Kernel.nD Cert.Kernel.τ Cert.Kernel.sig) → Buf (Elt Bits) ℓ)
    (hP : Cert.Pre_Kernel m) (d : Dev Cert.Kernel.nD) (i : Cert.Kernel.S3200000.Idx) :
    (m (KernelSc.idxLoc d) i).toNat < 100 :=
  Cert.RefSide.toNat_lt_of_pre (F := Bits) (m (KernelSc.idxLoc d)) (m (KernelSc.tblLoc d)) (hP d) i

/-- One worker's run, at every place. -/
theorem coreRun_Bits (m : (ℓ : Loc Cert.Kernel.nD Cert.Kernel.τ Cert.Kernel.sig) → Buf (Elt Bits) ℓ)
    (hP : Cert.Pre_Kernel m) : KernelSc.CoreRun (F := Bits) m :=
  fun d L O W rest hO => KernelSc.tile_core m d L (KernelSc.inner_loop d L) (fun i => idx_lt_Bits m hP d i) O W rest hO

/-- The kernel's run at the word level: the same data movement, so the same run. -/
theorem run_Kernel (m : (ℓ : Loc Cert.Kernel.nD Cert.Kernel.τ Cert.Kernel.sig) → Buf (Elt Bits) ℓ)
    (g : Dev Cert.Kernel.nD → PrngReg) (hP : Cert.Pre_Kernel m) :
    θ_run (Cert.Kernel.defs (F := Bits)) (Cert.Kernel.threads (F := Bits)) ⟨m, fun _ => 0, g⟩ (KernelSc.QC m) :=
  KernelSc.run_main (F := Bits) m g (KernelSc.tileObl m (coreRun_Bits m hP))

theorem frame_Kernel : Cert.frame_Kernel := fun m g hP =>
  (θ_run _ _ _).mono (fun _ h c => ⟨(h c).2.1, (h c).2.2⟩) (run_Kernel m g hP)

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
